-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S320000x16 : Shape := ⟨2, ![320000, 16]⟩
abbrev S10000x128 : Shape := ⟨2, ![10000, 128]⟩
abbrev S2x320000 : Shape := ⟨2, ![2, 320000]⟩
abbrev S272x128 : Shape := ⟨2, ![272, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S_ : Shape := ⟨0, ![]⟩

class Facts : Prop where
  bcast_S_S320000x16 : S_.BroadcastsInDim S320000x16 (![] : Fin 0 → Fin S320000x16.rank)
  reducesTo_S320000x16_S_d0_1 : S320000x16.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S272x128 : S_.BroadcastsInDim S272x128 (![] : Fin 0 → Fin S272x128.rank)
  reducesTo_S272x128_S_d0_1 : S272x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_arg2 : IVec S2x320000 32) (main_v48 : IVec S_ 1) (main_v50 : IVec S2x320000 1) : IVec S_ 1 :=
  let main_c_19 : IVec S_ 32 := constantI S_ 32 9999#32
  let main_v51 : IVec S2x320000 32 := broadcastInDim S2x320000 ![] bcast_S_S2x320000 main_c_19
  let main_v52 : IVec S2x320000 1 := cmpi .sle main_arg2 main_v51
  let main_v53 : IVec S2x320000 1 := andi main_v50 main_v52
  let main_c_20 : IVec S_ 1 := constantI S_ 1 1#1
  let main_v54 : IVec S_ 1 := (fun x v => Host.reduce IntOp.andi x v reducesTo_S2x320000_S_d0_1 h_S_) main_v53 main_c_20
  let main_v55 : IVec S_ 1 := andi main_v48 main_v54
  main_v55

def fn_part2 {F : FTy → Type} [FloatOps F] (main_arg2 : IVec S2x320000 32) (main_arg8 : FVec F S16 .f32) (main_arg9 : FVec F S16 .f32) (main_arg10 : FVec F S16 .f32) (main_v33 : IVec S_ 1) : IVec S_ 1 :=
  let main_v34 : FVec F S16 .f32 := Host.absf main_arg8
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16 .f32 := Host.absf main_arg10
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_c_18 : IVec S_ 32 := constantI S_ 32 0#32
  let main_v49 : IVec S2x320000 32 := broadcastInDim S2x320000 ![] bcast_S_S2x320000 main_c_18
  let main_v50 : IVec S2x320000 1 := cmpi .sge main_arg2 main_v49
  fn_part3 (F := F) main_arg2 main_v48 main_v50

def fn_part1 {F : FTy → Type} [FloatOps F] (main_arg2 : IVec S2x320000 32) (main_arg5 : FVec F S128x128 .f32) (main_arg6 : FVec F S128 .f32) (main_arg7 : FVec F S128x16 .f32) (main_arg8 : FVec F S16 .f32) (main_arg9 : FVec F S16 .f32) (main_arg10 : FVec F S16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x16 .f32 := Host.absf main_arg7
  let main_cst_10 : FVec F S_ .f32 := constant S_ .f32 0x7F800000#32
  let main_v30 : FVec F S128x16 .f32 := broadcastInDim S128x16 ![] bcast_S_S128x16 main_cst_10
  let main_v31 : IVec S128x16 1 := cmpf .olt main_v29 main_v30
  let main_c_11 : IVec S_ 1 := constantI S_ 1 1#1
  let main_v32 : IVec S_ 1 := (fun x v => Host.reduce IntOp.andi x v reducesTo_S128x16_S_d0_1 h_S_) main_v31 main_c_11
  let main_v33 : IVec S_ 1 := andi main_v28 main_v32
  fn_part2 (F := F) main_arg2 main_arg8 main_arg9 main_arg10 main_v33

def fn {F : FTy → Type} [FloatOps F] (main_arg0 : FVec F S320000x16 .f32) (main_arg1 : FVec F S10000x128 .f32) (main_arg2 : IVec S2x320000 32) (main_arg3 : FVec F S272x128 .f32) (main_arg4 : FVec F S128 .f32) (main_arg5 : FVec F S128x128 .f32) (main_arg6 : FVec F S128 .f32) (main_arg7 : FVec F S128x16 .f32) (main_arg8 : FVec F S16 .f32) (main_arg9 : FVec F S16 .f32) (main_arg10 : FVec F S16 .f32) : IVec S_ 1 :=
  let main_v0 : FVec F S320000x16 .f32 := Host.absf main_arg0
  let main_cst : FVec F S_ .f32 := constant S_ .f32 0x7F800000#32
  let main_v1 : FVec F S320000x16 .f32 := broadcastInDim S320000x16 ![] bcast_S_S320000x16 main_cst
  let main_v2 : IVec S320000x16 1 := cmpf .olt main_v0 main_v1
  let main_c : IVec S_ 1 := constantI S_ 1 1#1
  let main_v3 : IVec S_ 1 := (fun x v => Host.reduce IntOp.andi x v reducesTo_S320000x16_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S272x128 .f32 := Host.absf main_arg3
  let main_cst_2 : FVec F S_ .f32 := constant S_ .f32 0x7F800000#32
  let main_v10 : FVec F S272x128 .f32 := broadcastInDim S272x128 ![] bcast_S_S272x128 main_cst_2
  let main_v11 : IVec S272x128 1 := cmpf .olt main_v9 main_v10
  let main_c_3 : IVec S_ 1 := constantI S_ 1 1#1
  let main_v12 : IVec S_ 1 := (fun x v => Host.reduce IntOp.andi x v reducesTo_S272x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg5 main_arg6 main_arg7 main_arg8 main_arg9 main_arg10 main_v13 main_v16
-- ==== Kernel.lean ====
abbrev S320000x16 : Shape := ⟨2, ![320000, 16]⟩
abbrev S10000x128 : Shape := ⟨2, ![10000, 128]⟩
abbrev S2x320000 : Shape := ⟨2, ![2, 320000]⟩
abbrev S272x128 : Shape := ⟨2, ![272, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S16x128 : Shape := ⟨2, ![16, 128]⟩
abbrev S1x128 : Shape := ⟨2, ![1, 128]⟩
abbrev S1x320000 : Shape := ⟨2, ![1, 320000]⟩
abbrev S320000 : Shape := ⟨1, ![320000]⟩
abbrev S_ : Shape := ⟨0, ![]⟩
abbrev S320000x128 : Shape := ⟨2, ![320000, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S1x128x128 : Shape := ⟨3, ![1, 128, 128]⟩
abbrev S1x16 : Shape := ⟨2, ![1, 16]⟩
abbrev S2000x128 : Shape := ⟨2, ![2000, 128]⟩
abbrev S2000x16 : Shape := ⟨2, ![2000, 16]⟩
abbrev S2000 : Shape := ⟨1, ![2000]⟩
abbrev S2000x1 : Shape := ⟨2, ![2000, 1]⟩

abbrev nBuf : Table → Nat
  | .hbm => 39
  | .local .tc .vmem => 21
  | .local .scVector .vmem => 4
  | _ => 0

abbrev bufTy : (tb : Table) → Fin (nBuf tb) → BufTy
  | .hbm, ⟨0, _⟩ => ⟨S320000x16, .f32⟩
  | .hbm, ⟨1, _⟩ => ⟨S10000x128, .f32⟩
  | .hbm, ⟨2, _⟩ => ⟨S2x320000, .i32⟩
  | .hbm, ⟨3, _⟩ => ⟨S272x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S128x128, .f32⟩
  | .hbm, ⟨12, _⟩ => ⟨S128x128, .f32⟩
  | .hbm, ⟨13, _⟩ => ⟨S16x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S1x320000, .i32⟩
  | .hbm, ⟨18, _⟩ => ⟨S320000, .i32⟩
  | .hbm, ⟨19, _⟩ => ⟨S_, .i32⟩
  | .hbm, ⟨20, _⟩ => ⟨S_, .i32⟩
  | .hbm, ⟨21, _⟩ => ⟨S320000, .i32⟩
  | .hbm, ⟨22, _⟩ => ⟨S1x320000, .i32⟩
  | .hbm, ⟨23, _⟩ => ⟨S320000, .i32⟩
  | .hbm, ⟨24, _⟩ => ⟨S_, .i32⟩
  | .hbm, ⟨25, _⟩ => ⟨S_, .i32⟩
  | .hbm, ⟨26, _⟩ => ⟨S320000, .i32⟩
  | .hbm, ⟨27, _⟩ => ⟨S_, .i32⟩
  | .hbm, ⟨28, _⟩ => ⟨S_, .f32⟩
  | .hbm, ⟨29, _⟩ => ⟨S320000x16, .f32⟩
  | .hbm, ⟨30, _⟩ => ⟨S1x320000, .i32⟩
  | .hbm, ⟨31, _⟩ => ⟨S1x320000, .i32⟩
  | .hbm, ⟨32, _⟩ => ⟨S320000x128, .f32⟩
  | .hbm, ⟨33, _⟩ => ⟨S320000x128, .f32⟩
  | .hbm, ⟨34, _⟩ => ⟨S1x128, .f32⟩
  | .hbm, ⟨35, _⟩ => ⟨S1x16, .f32⟩
  | .hbm, ⟨36, _⟩ => ⟨S1x16, .f32⟩
  | .hbm, ⟨37, _⟩ => ⟨S1x16, .f32⟩
  | .hbm, ⟨38, _⟩ => ⟨S320000x16, .f32⟩
  | .local .tc .vmem, ⟨0, _⟩ => ⟨S10000x128, .f32⟩
  | .local .tc .vmem, ⟨1, _⟩ => ⟨S128x128, .f32⟩
  | .local .tc .vmem, ⟨2, _⟩ => ⟨S128x128, .f32⟩
  | .local .tc .vmem, ⟨3, _⟩ => ⟨S1x128, .f32⟩
  | .local .tc .vmem, ⟨4, _⟩ => ⟨S10000x128, .f32⟩
  | .local .tc .vmem, ⟨5, _⟩ => ⟨S10000x128, .f32⟩
  | .local .tc .vmem, ⟨6, _⟩ => ⟨S2000x128, .f32⟩
  | .local .tc .vmem, ⟨7, _⟩ => ⟨S2000x128, .f32⟩
  | .local .tc .vmem, ⟨8, _⟩ => ⟨S2000x128, .f32⟩
  | .local .tc .vmem, ⟨9, _⟩ => ⟨S2000x128, .f32⟩
  | .local .tc .vmem, ⟨10, _⟩ => ⟨S2000x16, .f32⟩
  | .local .tc .vmem, ⟨11, _⟩ => ⟨S2000x16, .f32⟩
  | .local .tc .vmem, ⟨12, _⟩ => ⟨S16x128, .f32⟩
  | .local .tc .vmem, ⟨13, _⟩ => ⟨S128x128, .f32⟩
  | .local .tc .vmem, ⟨14, _⟩ => ⟨S1x128, .f32⟩
  | .local .tc .vmem, ⟨15, _⟩ => ⟨S128x16, .f32⟩
  | .local .tc .vmem, ⟨16, _⟩ => ⟨S1x16, .f32⟩
  | .local .tc .vmem, ⟨17, _⟩ => ⟨S1x16, .f32⟩
  | .local .tc .vmem, ⟨18, _⟩ => ⟨S1x16, .f32⟩
  | .local .tc .vmem, ⟨19, _⟩ => ⟨S2000x16, .f32⟩
  | .local .tc .vmem, ⟨20, _⟩ => ⟨S2000x16, .f32⟩
  | .local .scVector .vmem, ⟨0, _⟩ => ⟨S2x1x128, .i32⟩
  | .local .scVector .vmem, ⟨1, _⟩ => ⟨S2x1x128, .i32⟩
  | .local .scVector .vmem, ⟨2, _⟩ => ⟨S2x128x128, .f32⟩
  | .local .scVector .vmem, ⟨3, _⟩ => ⟨S2x128x128, .f32⟩
  | _, _ => ⟨S320000x16, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTables nBuf rfl bufTy 4 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_call0_v0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_call1_v0 : Ref sig .tc := ⟨.hbm, 25, rfl⟩
abbrev main_v10 : Ref sig .tc := ⟨.hbm, 26, rfl⟩
abbrev main_c_1 : Ref sig .tc := ⟨.hbm, 27, rfl⟩
abbrev main_call2_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14_0 : Ref sig .tc := ⟨.hbm, 32, rfl⟩
abbrev main_v14_1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v4_0_scv : Ref sig .scVector := ⟨.hbm, 15, rfl⟩
abbrev main_v4_1_scv : Ref sig .scVector := ⟨.hbm, 16, rfl⟩
abbrev main_v12_scv : Ref sig .scVector := ⟨.hbm, 30, rfl⟩
abbrev main_v13_scv : Ref sig .scVector := ⟨.hbm, 31, rfl⟩
abbrev main_v14_0_scv : Ref sig .scVector := ⟨.hbm, 32, rfl⟩
abbrev main_v14_1_scv : Ref sig .scVector := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg6_0 : Ref sig .tc := ⟨.vmem, 15, rfl⟩
abbrev cc2_stg7_0 : Ref sig .tc := ⟨.vmem, 16, rfl⟩
abbrev cc2_stg8_0 : Ref sig .tc := ⟨.vmem, 17, rfl⟩
abbrev cc2_stg9_0 : Ref sig .tc := ⟨.vmem, 18, rfl⟩
abbrev cc2_stg10_0 : Ref sig .tc := ⟨.vmem, 19, rfl⟩
abbrev cc2_stg10_1 : Ref sig .tc := ⟨.vmem, 20, rfl⟩
abbrev cc1_scoped0 : Ref sig .scVector := ⟨.vmem, 0, rfl⟩
abbrev cc1_scoped2 : Ref sig .scVector := ⟨.vmem, 1, rfl⟩
abbrev cc1_scoped4 : Ref sig .scVector := ⟨.vmem, 2, rfl⟩
abbrev cc1_scoped6 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem9_0 : DmaSem sig := 28
abbrev cc2_sem10_0 : DmaSem sig := 29
abbrev cc2_sem10_1 : DmaSem sig := 30
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let c0_i32_7_r0 : BitVec 32 := 0#32
  let v16_r0 : BitVec 1 := Scalar.cmpi .sgt v11 c0_i32_7_r0
  let v17_r0 : BitVec 32 := Scalar.extui v16_r0
  let c0_i32_8_r0 : BitVec 32 := 0#32
  let v18_r0 : BitVec 1 := Scalar.cmpi .ne v17_r0 c0_i32_8_r0
  v18_r0

def k1_off1 : Fin 3 → Nat :=
  let c0_i32_23_r0 : BitVec 32 := 0#32
  let c2_i32_r0 : BitVec 32 := 2#32
  let v37_r0 : BitVec 32 := Scalar.remui c0_i32_23_r0 c2_i32_r0
  let c0_i32_24_r0 : BitVec 32 := 0#32
  let c0_i32_25_r0 : BitVec 32 := 0#32
  ![v37_r0.toNat, 0, 0]
def k1_off2 (i : grid1.Coords) : Fin 2 → Nat :=
  let c0_i32_26_r0 : BitVec 32 := 0#32
  let c128_i32_r0 : BitVec 32 := 128#32
  let c0_i32_12_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v22_r0 : BitVec 32 := Scalar.addi c0_i32_12_r0 v10
  let v38_r0 : BitVec 32 := Scalar.muli c128_i32_r0 v22_r0
  ![0, v38_r0.toNat]
def k1_off3 : Fin 1 → Nat :=
  let c0_i32_23_r0 : BitVec 32 := 0#32
  let c2_i32_r0 : BitVec 32 := 2#32
  let v37_r0 : BitVec 32 := Scalar.remui c0_i32_23_r0 c2_i32_r0
  ![v37_r0.toNat]
@[reducible] def k1_t1_loop (i : grid1.Coords) : Scf.Loop 32 :=
  let c0_i32_43_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_52_r0 : BitVec 32 := 1#32
  ⟨c0_i32_43_r0, v63_r0, c1_i32_52_r0⟩
def k1_off4 (arg11_r0 : BitVec 32) : Fin 3 → Nat :=
  let c2_i32_183_r0 : BitVec 32 := 2#32
  let v280_r0 : BitVec 32 := Scalar.remui arg11_r0 c2_i32_183_r0
  let c0_i32_185_r0 : BitVec 32 := 0#32
  let c0_i32_186_r0 : BitVec 32 := 0#32
  ![v280_r0.toNat, 0, 0]
def k1_cond2 (i : grid1.Coords) (k1_t1 : Fin (k1_t1_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let v114_r0 : BitVec 1 := Scalar.cmpi .eq v113_r0 v5
  let c0_i32_85_r0 : BitVec 32 := 0#32
  let v115_r0 : BitVec 32 := Scalar.select v114_r0 c0_i32_85_r0 v113_r0
  let v116_r0 : BitVec 32 := Scalar.addi v115_r0 v10
  let v122_r0 : BitVec 1 := Scalar.cmpi .ne v105_r0 v116_r0
  let c0_i32_43_r0 : BitVec 32 := 0#32
  let c1_i32_52_r0 : BitVec 32 := 1#32
  let arg10_r0 : BitVec 32 := Scf.iv c0_i32_43_r0 c1_i32_52_r0 k1_t1
  let c1_i32_76_r0 : BitVec 32 := 1#32
  let v101_r0 : BitVec 32 := Scalar.muli c1_i32_76_r0 v5
  let c2_i32_89_r0 : BitVec 32 := 2#32
  let v123_r0 : BitVec 32 := Scalar.subi v101_r0 c2_i32_89_r0
  let c1_i32_90_r0 : BitVec 32 := 1#32
  let v124_r0 : BitVec 32 := Scalar.addi v123_r0 c1_i32_90_r0
  let v125_r0 : BitVec 1 := Scalar.cmpi .sge arg10_r0 v124_r0
  let true_91_r0 : BitVec 1 := 1#1
  let v126_r0 : BitVec 1 := Scalar.xori v125_r0 true_91_r0
  let v127_r0 : BitVec 1 := Scalar.andi v122_r0 v126_r0
  let v128_r0 : BitVec 32 := Scalar.extui v127_r0
  let c0_i32_92_r0 : BitVec 32 := 0#32
  let v129_r0 : BitVec 1 := Scalar.cmpi .ne v128_r0 c0_i32_92_r0
  v129_r0

def k1_off5 (i : grid1.Coords) (arg19_r0 : BitVec 32) : Fin 2 → Nat :=
  let c0_i32_187_r0 : BitVec 32 := 0#32
  let c128_i32_184_r0 : BitVec 32 := 128#32
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v114_r0 : BitVec 1 := Scalar.cmpi .eq v113_r0 v5
  let c0_i32_85_r0 : BitVec 32 := 0#32
  let v115_r0 : BitVec 32 := Scalar.select v114_r0 c0_i32_85_r0 v113_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v116_r0 : BitVec 32 := Scalar.addi v115_r0 v10
  let v281_r0 : BitVec 32 := Scalar.muli c128_i32_184_r0 v116_r0
  ![0, v281_r0.toNat]
def k1_off6 (arg11_r0 : BitVec 32) : Fin 1 → Nat :=
  let c2_i32_183_r0 : BitVec 32 := 2#32
  let v280_r0 : BitVec 32 := Scalar.remui arg11_r0 c2_i32_183_r0
  ![v280_r0.toNat]
def k1_off7 (arg13_r0 : BitVec 32) : Fin 3 → Nat :=
  let c2_i32_183_r0 : BitVec 32 := 2#32
  let v280_r0 : BitVec 32 := Scalar.remui arg13_r0 c2_i32_183_r0
  let c0_i32_185_r0 : BitVec 32 := 0#32
  let c0_i32_186_r0 : BitVec 32 := 0#32
  ![v280_r0.toNat, 0, 0]
def k1_cond3 (i : grid1.Coords) (k1_t1 : Fin (k1_t1_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let v114_r0 : BitVec 1 := Scalar.cmpi .eq v113_r0 v5
  let c0_i32_85_r0 : BitVec 32 := 0#32
  let v115_r0 : BitVec 32 := Scalar.select v114_r0 c0_i32_85_r0 v113_r0
  let v116_r0 : BitVec 32 := Scalar.addi v115_r0 v10
  let v133_r0 : BitVec 1 := Scalar.cmpi .ne v105_r0 v116_r0
  let c0_i32_43_r0 : BitVec 32 := 0#32
  let c1_i32_52_r0 : BitVec 32 := 1#32
  let arg10_r0 : BitVec 32 := Scf.iv c0_i32_43_r0 c1_i32_52_r0 k1_t1
  let c1_i32_76_r0 : BitVec 32 := 1#32
  let v101_r0 : BitVec 32 := Scalar.muli c1_i32_76_r0 v5
  let c2_i32_95_r0 : BitVec 32 := 2#32
  let v134_r0 : BitVec 32 := Scalar.subi v101_r0 c2_i32_95_r0
  let c1_i32_96_r0 : BitVec 32 := 1#32
  let v135_r0 : BitVec 32 := Scalar.addi v134_r0 c1_i32_96_r0
  let v136_r0 : BitVec 1 := Scalar.cmpi .sge arg10_r0 v135_r0
  let true_97_r0 : BitVec 1 := 1#1
  let v137_r0 : BitVec 1 := Scalar.xori v136_r0 true_97_r0
  let v138_r0 : BitVec 1 := Scalar.andi v133_r0 v137_r0
  let v139_r0 : BitVec 32 := Scalar.extui v138_r0
  let c0_i32_98_r0 : BitVec 32 := 0#32
  let v140_r0 : BitVec 1 := Scalar.cmpi .ne v139_r0 c0_i32_98_r0
  v140_r0

def k1_off8 (i : grid1.Coords) (arg19_r0 : BitVec 32) : Fin 2 → Nat :=
  let c0_i32_187_r0 : BitVec 32 := 0#32
  let c128_i32_184_r0 : BitVec 32 := 128#32
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v114_r0 : BitVec 1 := Scalar.cmpi .eq v113_r0 v5
  let c0_i32_85_r0 : BitVec 32 := 0#32
  let v115_r0 : BitVec 32 := Scalar.select v114_r0 c0_i32_85_r0 v113_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v116_r0 : BitVec 32 := Scalar.addi v115_r0 v10
  let v281_r0 : BitVec 32 := Scalar.muli c128_i32_184_r0 v116_r0
  ![0, v281_r0.toNat]
def k1_off9 (arg13_r0 : BitVec 32) : Fin 1 → Nat :=
  let c2_i32_183_r0 : BitVec 32 := 2#32
  let v280_r0 : BitVec 32 := Scalar.remui arg13_r0 c2_i32_183_r0
  ![v280_r0.toNat]
def k1_off10 (arg12_r0 : BitVec 32) : Fin 3 → Nat :=
  let c2_i32_184_r0 : BitVec 32 := 2#32
  let v281_r0 : BitVec 32 := Scalar.remui arg12_r0 c2_i32_184_r0
  let c0_i32_185_r0 : BitVec 32 := 0#32
  let c0_i32_186_r0 : BitVec 32 := 0#32
  ![v281_r0.toNat, 0, 0]
def k1_cond4 (i : grid1.Coords) (k1_t1 : Fin (k1_t1_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c1_i32_82_r0 : BitVec 32 := 1#32
  let v109_r0 : BitVec 32 := Scalar.subi v5 c1_i32_82_r0
  let v110_r0 : BitVec 32 := Scalar.select v108_r0 v109_r0 v107_r0
  let v111_r0 : BitVec 32 := Scalar.addi v110_r0 v10
  let v156_r0 : BitVec 1 := Scalar.cmpi .ne v105_r0 v111_r0
  let c0_i32_43_r0 : BitVec 32 := 0#32
  let c1_i32_52_r0 : BitVec 32 := 1#32
  let arg10_r0 : BitVec 32 := Scf.iv c0_i32_43_r0 c1_i32_52_r0 k1_t1
  let c0_i32_77_r0 : BitVec 32 := 0#32
  let v102_r0 : BitVec 1 := Scalar.cmpi .eq arg10_r0 c0_i32_77_r0
  let v157_r0 : BitVec 1 := Scalar.ori v156_r0 v102_r0
  let c0_i32_107_r0 : BitVec 32 := 0#32
  let v158_r0 : BitVec 1 := Scalar.cmpi .slt arg10_r0 c0_i32_107_r0
  let true_108_r0 : BitVec 1 := 1#1
  let v159_r0 : BitVec 1 := Scalar.xori v158_r0 true_108_r0
  let v160_r0 : BitVec 1 := Scalar.andi v157_r0 v159_r0
  let v161_r0 : BitVec 32 := Scalar.extui v160_r0
  let c0_i32_109_r0 : BitVec 32 := 0#32
  let v162_r0 : BitVec 1 := Scalar.cmpi .ne v161_r0 c0_i32_109_r0
  v162_r0

def k1_off11 (i : grid1.Coords) (arg19_r0 : BitVec 32) : Fin 2 → Nat :=
  let c0_i32_187_r0 : BitVec 32 := 0#32
  let c128_i32_183_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let v280_r0 : BitVec 32 := Scalar.muli c128_i32_183_r0 v105_r0
  ![0, v280_r0.toNat]
def k1_off12 (arg12_r0 : BitVec 32) : Fin 1 → Nat :=
  let c2_i32_184_r0 : BitVec 32 := 2#32
  let v281_r0 : BitVec 32 := Scalar.remui arg12_r0 c2_i32_184_r0
  ![v281_r0.toNat]
def k1_off13 (arg14_r0 : BitVec 32) : Fin 3 → Nat :=
  let c2_i32_184_r0 : BitVec 32 := 2#32
  let v281_r0 : BitVec 32 := Scalar.remui arg14_r0 c2_i32_184_r0
  let c0_i32_185_r0 : BitVec 32 := 0#32
  let c0_i32_186_r0 : BitVec 32 := 0#32
  ![v281_r0.toNat, 0, 0]
def k1_cond5 (i : grid1.Coords) (k1_t1 : Fin (k1_t1_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c1_i32_82_r0 : BitVec 32 := 1#32
  let v109_r0 : BitVec 32 := Scalar.subi v5 c1_i32_82_r0
  let v110_r0 : BitVec 32 := Scalar.select v108_r0 v109_r0 v107_r0
  let v111_r0 : BitVec 32 := Scalar.addi v110_r0 v10
  let v163_r0 : BitVec 1 := Scalar.cmpi .ne v105_r0 v111_r0
  let c0_i32_43_r0 : BitVec 32 := 0#32
  let c1_i32_52_r0 : BitVec 32 := 1#32
  let arg10_r0 : BitVec 32 := Scf.iv c0_i32_43_r0 c1_i32_52_r0 k1_t1
  let c0_i32_77_r0 : BitVec 32 := 0#32
  let v102_r0 : BitVec 1 := Scalar.cmpi .eq arg10_r0 c0_i32_77_r0
  let v164_r0 : BitVec 1 := Scalar.ori v163_r0 v102_r0
  let c0_i32_110_r0 : BitVec 32 := 0#32
  let v165_r0 : BitVec 1 := Scalar.cmpi .slt arg10_r0 c0_i32_110_r0
  let true_111_r0 : BitVec 1 := 1#1
  let v166_r0 : BitVec 1 := Scalar.xori v165_r0 true_111_r0
  let v167_r0 : BitVec 1 := Scalar.andi v164_r0 v166_r0
  let v168_r0 : BitVec 32 := Scalar.extui v167_r0
  let c0_i32_112_r0 : BitVec 32 := 0#32
  let v169_r0 : BitVec 1 := Scalar.cmpi .ne v168_r0 c0_i32_112_r0
  v169_r0

def k1_off14 (i : grid1.Coords) (arg19_r0 : BitVec 32) : Fin 2 → Nat :=
  let c0_i32_187_r0 : BitVec 32 := 0#32
  let c128_i32_183_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let v280_r0 : BitVec 32 := Scalar.muli c128_i32_183_r0 v105_r0
  ![0, v280_r0.toNat]
def k1_off15 (arg14_r0 : BitVec 32) : Fin 1 → Nat :=
  let c2_i32_184_r0 : BitVec 32 := 2#32
  let v281_r0 : BitVec 32 := Scalar.remui arg14_r0 c2_i32_184_r0
  ![v281_r0.toNat]
def k1_off16 (arg15_r0 : BitVec 32) : Fin 3 → Nat :=
  let c2_i32_121_r0 : BitVec 32 := 2#32
  let v186_r0 : BitVec 32 := Scalar.remui arg15_r0 c2_i32_121_r0
  let c0_i32_124_r0 : BitVec 32 := 0#32
  let c0_i32_125_r0 : BitVec 32 := 0#32
  ![v186_r0.toNat, 0, 0]

def k1_off17 (arg12_r0 : BitVec 32) : Fin 3 → Nat :=
  let c2_i32_119_r0 : BitVec 32 := 2#32
  let v184_r0 : BitVec 32 := Scalar.remui arg12_r0 c2_i32_119_r0
  let c0_i32_126_r0 : BitVec 32 := 0#32
  let c0_i32_127_r0 : BitVec 32 := 0#32
  ![v184_r0.toNat, 0, 0]

def k1_off18 (arg17_r0 : BitVec 32) : Fin 3 → Nat :=
  let c2_i32_122_r0 : BitVec 32 := 2#32
  let v187_r0 : BitVec 32 := Scalar.remui arg17_r0 c2_i32_122_r0
  let c0_i32_132_r0 : BitVec 32 := 0#32
  let c0_i32_133_r0 : BitVec 32 := 0#32
  ![v187_r0.toNat, 0, 0]

def k1_chk4 (i : grid1.Coords) (arg17_r0 : BitVec 32) : Prop :=
  (∀ (k1_h1 : k1_cond1 i = 1#1), ∀ a, (k1_off18 arg17_r0) a + S1x128x128.size a ≤ S2x128x128.size a)
instance k1_chk4.dec : ∀ (i : grid1.Coords) (arg17_r0 : BitVec 32), Decidable (k1_chk4 i arg17_r0) := fun i arg17_r0 => decidable_of_iff' _ (Iff.of_eq (k1_chk4.eq_1 i arg17_r0))
theorem k1_off18_inb : ∀ (i : grid1.Coords) (arg17_r0 : BitVec 32) (k1_hw4 : k1_chk4 i arg17_r0), ∀ (k1_h1 : k1_cond1 i = 1#1), ∀ a, (k1_off18 arg17_r0) a + S1x128x128.size a ≤ S2x128x128.size a := fun i arg17_r0 k1_hw4 k1_h1 => k1_hw4 k1_h1

def k1_off19 (arg14_r0 : BitVec 32) : Fin 3 → Nat :=
  let c2_i32_120_r0 : BitVec 32 := 2#32
  let v185_r0 : BitVec 32 := Scalar.remui arg14_r0 c2_i32_120_r0
  let c0_i32_134_r0 : BitVec 32 := 0#32
  let c0_i32_135_r0 : BitVec 32 := 0#32
  ![v185_r0.toNat, 0, 0]

def k1_chk5 (i : grid1.Coords) (arg14_r0 : BitVec 32) : Prop :=
  (∀ (k1_h1 : k1_cond1 i = 1#1), ∀ a, (k1_off19 arg14_r0) a + S1x1x128.size a ≤ S2x1x128.size a)
instance k1_chk5.dec : ∀ (i : grid1.Coords) (arg14_r0 : BitVec 32), Decidable (k1_chk5 i arg14_r0) := fun i arg14_r0 => decidable_of_iff' _ (Iff.of_eq (k1_chk5.eq_1 i arg14_r0))
theorem k1_off19_inb : ∀ (i : grid1.Coords) (arg14_r0 : BitVec 32) (k1_hw5 : k1_chk5 i arg14_r0), ∀ (k1_h1 : k1_cond1 i = 1#1), ∀ a, (k1_off19 arg14_r0) a + S1x1x128.size a ≤ S2x1x128.size a := fun i arg14_r0 k1_hw5 k1_h1 => k1_hw5 k1_h1

def k1_off20 (arg15_r0 : BitVec 32) : Fin 3 → Nat :=
  let c2_i32_121_r0 : BitVec 32 := 2#32
  let v186_r0 : BitVec 32 := Scalar.remui arg15_r0 c2_i32_121_r0
  let c0_i32_140_r0 : BitVec 32 := 0#32
  let c0_i32_141_r0 : BitVec 32 := 0#32
  ![v186_r0.toNat, 0, 0]

def k1_chk2 (i : grid1.Coords) (arg15_r0 : BitVec 32) : Prop :=
  (∀ (k1_h1 : k1_cond1 i = 1#1), ∀ a, (k1_off16 arg15_r0) a + S1x128x128.size a ≤ S2x128x128.size a) ∧
  (∀ (k1_h1 : k1_cond1 i = 1#1), ∀ a, (k1_off20 arg15_r0) a + S1x128x128.size a ≤ S2x128x128.size a)
instance k1_chk2.dec : ∀ (i : grid1.Coords) (arg15_r0 : BitVec 32), Decidable (k1_chk2 i arg15_r0) := fun i arg15_r0 => decidable_of_iff' _ (Iff.of_eq (k1_chk2.eq_1 i arg15_r0))
theorem k1_off16_inb : ∀ (i : grid1.Coords) (arg15_r0 : BitVec 32) (k1_hw2 : k1_chk2 i arg15_r0), ∀ (k1_h1 : k1_cond1 i = 1#1), ∀ a, (k1_off16 arg15_r0) a + S1x128x128.size a ≤ S2x128x128.size a := fun i arg15_r0 k1_hw2 k1_h1 => k1_hw2.1 k1_h1
theorem k1_off20_inb : ∀ (i : grid1.Coords) (arg15_r0 : BitVec 32) (k1_hw2 : k1_chk2 i arg15_r0), ∀ (k1_h1 : k1_cond1 i = 1#1), ∀ a, (k1_off20 arg15_r0) a + S1x128x128.size a ≤ S2x128x128.size a := fun i arg15_r0 k1_hw2 k1_h1 => k1_hw2.2 k1_h1

def k1_off21 (arg12_r0 : BitVec 32) : Fin 3 → Nat :=
  let c2_i32_119_r0 : BitVec 32 := 2#32
  let v184_r0 : BitVec 32 := Scalar.remui arg12_r0 c2_i32_119_r0
  let c0_i32_142_r0 : BitVec 32 := 0#32
  let c0_i32_143_r0 : BitVec 32 := 0#32
  ![v184_r0.toNat, 0, 0]

def k1_chk3 (i : grid1.Coords) (arg12_r0 : BitVec 32) : Prop :=
  (∀ (k1_h1 : k1_cond1 i = 1#1), ∀ a, (k1_off17 arg12_r0) a + S1x1x128.size a ≤ S2x1x128.size a) ∧
  (∀ (k1_h1 : k1_cond1 i = 1#1), ∀ a, (k1_off21 arg12_r0) a + S1x1x128.size a ≤ S2x1x128.size a)
instance k1_chk3.dec : ∀ (i : grid1.Coords) (arg12_r0 : BitVec 32), Decidable (k1_chk3 i arg12_r0) := fun i arg12_r0 => decidable_of_iff' _ (Iff.of_eq (k1_chk3.eq_1 i arg12_r0))
theorem k1_off17_inb : ∀ (i : grid1.Coords) (arg12_r0 : BitVec 32) (k1_hw3 : k1_chk3 i arg12_r0), ∀ (k1_h1 : k1_cond1 i = 1#1), ∀ a, (k1_off17 arg12_r0) a + S1x1x128.size a ≤ S2x1x128.size a := fun i arg12_r0 k1_hw3 k1_h1 => k1_hw3.1 k1_h1
theorem k1_off21_inb : ∀ (i : grid1.Coords) (arg12_r0 : BitVec 32) (k1_hw3 : k1_chk3 i arg12_r0), ∀ (k1_h1 : k1_cond1 i = 1#1), ∀ a, (k1_off21 arg12_r0) a + S1x1x128.size a ≤ S2x1x128.size a := fun i arg12_r0 k1_hw3 k1_h1 => k1_hw3.2 k1_h1

def k1_off22 (arg15_r0 : BitVec 32) : Fin 3 → Nat :=
  let c2_i32_183_r0 : BitVec 32 := 2#32
  let v280_r0 : BitVec 32 := Scalar.remui arg15_r0 c2_i32_183_r0
  let c0_i32_185_r0 : BitVec 32 := 0#32
  let c0_i32_186_r0 : BitVec 32 := 0#32
  ![v280_r0.toNat, 0, 0]
def k1_cond10 (i : grid1.Coords) (k1_t1 : Fin (k1_t1_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let v114_r0 : BitVec 1 := Scalar.cmpi .eq v113_r0 v5
  let c0_i32_85_r0 : BitVec 32 := 0#32
  let v115_r0 : BitVec 32 := Scalar.select v114_r0 c0_i32_85_r0 v113_r0
  let v116_r0 : BitVec 32 := Scalar.addi v115_r0 v10
  let v226_r0 : BitVec 1 := Scalar.cmpi .ne v105_r0 v116_r0
  let c0_i32_43_r0 : BitVec 32 := 0#32
  let c1_i32_52_r0 : BitVec 32 := 1#32
  let arg10_r0 : BitVec 32 := Scf.iv c0_i32_43_r0 c1_i32_52_r0 k1_t1
  let c1_i32_76_r0 : BitVec 32 := 1#32
  let v101_r0 : BitVec 32 := Scalar.muli c1_i32_76_r0 v5
  let c1_i32_78_r0 : BitVec 32 := 1#32
  let v103_r0 : BitVec 32 := Scalar.subi v101_r0 c1_i32_78_r0
  let v104_r0 : BitVec 1 := Scalar.cmpi .eq arg10_r0 v103_r0
  let v227_r0 : BitVec 1 := Scalar.ori v226_r0 v104_r0
  let v228_r0 : BitVec 32 := Scalar.extui v227_r0
  let c0_i32_158_r0 : BitVec 32 := 0#32
  let v229_r0 : BitVec 1 := Scalar.cmpi .ne v228_r0 c0_i32_158_r0
  v229_r0

def k1_off23 (i : grid1.Coords) (arg19_r0 : BitVec 32) : Fin 2 → Nat :=
  let c128_i32_184_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let v281_r0 : BitVec 32 := Scalar.muli c128_i32_184_r0 v105_r0
  let c0_i32_187_r0 : BitVec 32 := 0#32
  ![v281_r0.toNat, 0]
def k1_off24 (arg15_r0 : BitVec 32) : Fin 1 → Nat :=
  let c2_i32_183_r0 : BitVec 32 := 2#32
  let v280_r0 : BitVec 32 := Scalar.remui arg15_r0 c2_i32_183_r0
  ![v280_r0.toNat]
def k1_off25 (arg17_r0 : BitVec 32) : Fin 3 → Nat :=
  let c2_i32_183_r0 : BitVec 32 := 2#32
  let v280_r0 : BitVec 32 := Scalar.remui arg17_r0 c2_i32_183_r0
  let c0_i32_185_r0 : BitVec 32 := 0#32
  let c0_i32_186_r0 : BitVec 32 := 0#32
  ![v280_r0.toNat, 0, 0]
def k1_cond11 (i : grid1.Coords) (k1_t1 : Fin (k1_t1_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let v114_r0 : BitVec 1 := Scalar.cmpi .eq v113_r0 v5
  let c0_i32_85_r0 : BitVec 32 := 0#32
  let v115_r0 : BitVec 32 := Scalar.select v114_r0 c0_i32_85_r0 v113_r0
  let v116_r0 : BitVec 32 := Scalar.addi v115_r0 v10
  let v233_r0 : BitVec 1 := Scalar.cmpi .ne v105_r0 v116_r0
  let c0_i32_43_r0 : BitVec 32 := 0#32
  let c1_i32_52_r0 : BitVec 32 := 1#32
  let arg10_r0 : BitVec 32 := Scf.iv c0_i32_43_r0 c1_i32_52_r0 k1_t1
  let c1_i32_76_r0 : BitVec 32 := 1#32
  let v101_r0 : BitVec 32 := Scalar.muli c1_i32_76_r0 v5
  let c1_i32_78_r0 : BitVec 32 := 1#32
  let v103_r0 : BitVec 32 := Scalar.subi v101_r0 c1_i32_78_r0
  let v104_r0 : BitVec 1 := Scalar.cmpi .eq arg10_r0 v103_r0
  let v234_r0 : BitVec 1 := Scalar.ori v233_r0 v104_r0
  let v235_r0 : BitVec 32 := Scalar.extui v234_r0
  let c0_i32_161_r0 : BitVec 32 := 0#32
  let v236_r0 : BitVec 1 := Scalar.cmpi .ne v235_r0 c0_i32_161_r0
  v236_r0

def k1_off26 (i : grid1.Coords) (arg19_r0 : BitVec 32) : Fin 2 → Nat :=
  let c128_i32_184_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let v281_r0 : BitVec 32 := Scalar.muli c128_i32_184_r0 v105_r0
  let c0_i32_187_r0 : BitVec 32 := 0#32
  ![v281_r0.toNat, 0]
def k1_off27 (arg17_r0 : BitVec 32) : Fin 1 → Nat :=
  let c2_i32_183_r0 : BitVec 32 := 2#32
  let v280_r0 : BitVec 32 := Scalar.remui arg17_r0 c2_i32_183_r0
  ![v280_r0.toNat]
def k1_off28 (arg16_r0 : BitVec 32) : Fin 3 → Nat :=
  let c2_i32_183_r0 : BitVec 32 := 2#32
  let v280_r0 : BitVec 32 := Scalar.remui arg16_r0 c2_i32_183_r0
  let c0_i32_185_r0 : BitVec 32 := 0#32
  let c0_i32_186_r0 : BitVec 32 := 0#32
  ![v280_r0.toNat, 0, 0]
def k1_cond14 (i : grid1.Coords) (k1_t1 : Fin (k1_t1_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c1_i32_82_r0 : BitVec 32 := 1#32
  let v109_r0 : BitVec 32 := Scalar.subi v5 c1_i32_82_r0
  let v110_r0 : BitVec 32 := Scalar.select v108_r0 v109_r0 v107_r0
  let v111_r0 : BitVec 32 := Scalar.addi v110_r0 v10
  let v252_r0 : BitVec 1 := Scalar.cmpi .ne v105_r0 v111_r0
  let c0_i32_43_r0 : BitVec 32 := 0#32
  let c1_i32_52_r0 : BitVec 32 := 1#32
  let arg10_r0 : BitVec 32 := Scf.iv c0_i32_43_r0 c1_i32_52_r0 k1_t1
  let c0_i32_77_r0 : BitVec 32 := 0#32
  let v102_r0 : BitVec 1 := Scalar.cmpi .eq arg10_r0 c0_i32_77_r0
  let true_170_r0 : BitVec 1 := 1#1
  let v253_r0 : BitVec 1 := Scalar.xori v102_r0 true_170_r0
  let v254_r0 : BitVec 1 := Scalar.andi v252_r0 v253_r0
  let v255_r0 : BitVec 32 := Scalar.extui v254_r0
  let c0_i32_171_r0 : BitVec 32 := 0#32
  let v256_r0 : BitVec 1 := Scalar.cmpi .ne v255_r0 c0_i32_171_r0
  v256_r0

def k1_off29 (i : grid1.Coords) (arg19_r0 : BitVec 32) : Fin 2 → Nat :=
  let c128_i32_184_r0 : BitVec 32 := 128#32
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_82_r0 : BitVec 32 := 1#32
  let v109_r0 : BitVec 32 := Scalar.subi v5 c1_i32_82_r0
  let v110_r0 : BitVec 32 := Scalar.select v108_r0 v109_r0 v107_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v111_r0 : BitVec 32 := Scalar.addi v110_r0 v10
  let v281_r0 : BitVec 32 := Scalar.muli c128_i32_184_r0 v111_r0
  let c0_i32_187_r0 : BitVec 32 := 0#32
  ![v281_r0.toNat, 0]
def k1_off30 (arg16_r0 : BitVec 32) : Fin 1 → Nat :=
  let c2_i32_183_r0 : BitVec 32 := 2#32
  let v280_r0 : BitVec 32 := Scalar.remui arg16_r0 c2_i32_183_r0
  ![v280_r0.toNat]
def k1_off31 (arg18_r0 : BitVec 32) : Fin 3 → Nat :=
  let c2_i32_183_r0 : BitVec 32 := 2#32
  let v280_r0 : BitVec 32 := Scalar.remui arg18_r0 c2_i32_183_r0
  let c0_i32_185_r0 : BitVec 32 := 0#32
  let c0_i32_186_r0 : BitVec 32 := 0#32
  ![v280_r0.toNat, 0, 0]
def k1_cond15 (i : grid1.Coords) (k1_t1 : Fin (k1_t1_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c1_i32_82_r0 : BitVec 32 := 1#32
  let v109_r0 : BitVec 32 := Scalar.subi v5 c1_i32_82_r0
  let v110_r0 : BitVec 32 := Scalar.select v108_r0 v109_r0 v107_r0
  let v111_r0 : BitVec 32 := Scalar.addi v110_r0 v10
  let v260_r0 : BitVec 1 := Scalar.cmpi .ne v105_r0 v111_r0
  let c0_i32_43_r0 : BitVec 32 := 0#32
  let c1_i32_52_r0 : BitVec 32 := 1#32
  let arg10_r0 : BitVec 32 := Scf.iv c0_i32_43_r0 c1_i32_52_r0 k1_t1
  let c0_i32_77_r0 : BitVec 32 := 0#32
  let v102_r0 : BitVec 1 := Scalar.cmpi .eq arg10_r0 c0_i32_77_r0
  let true_174_r0 : BitVec 1 := 1#1
  let v261_r0 : BitVec 1 := Scalar.xori v102_r0 true_174_r0
  let v262_r0 : BitVec 1 := Scalar.andi v260_r0 v261_r0
  let v263_r0 : BitVec 32 := Scalar.extui v262_r0
  let c0_i32_175_r0 : BitVec 32 := 0#32
  let v264_r0 : BitVec 1 := Scalar.cmpi .ne v263_r0 c0_i32_175_r0
  v264_r0

def k1_off32 (i : grid1.Coords) (arg19_r0 : BitVec 32) : Fin 2 → Nat :=
  let c128_i32_184_r0 : BitVec 32 := 128#32
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_82_r0 : BitVec 32 := 1#32
  let v109_r0 : BitVec 32 := Scalar.subi v5 c1_i32_82_r0
  let v110_r0 : BitVec 32 := Scalar.select v108_r0 v109_r0 v107_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v111_r0 : BitVec 32 := Scalar.addi v110_r0 v10
  let v281_r0 : BitVec 32 := Scalar.muli c128_i32_184_r0 v111_r0
  let c0_i32_187_r0 : BitVec 32 := 0#32
  ![v281_r0.toNat, 0]
def k1_off33 (arg18_r0 : BitVec 32) : Fin 1 → Nat :=
  let c2_i32_183_r0 : BitVec 32 := 2#32
  let v280_r0 : BitVec 32 := Scalar.remui arg18_r0 c2_i32_183_r0
  ![v280_r0.toNat]

def k1_chk1 (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) : Prop :=
  (∀ (k1_h1 : k1_cond1 i = 1#1), ∀ (k1_h2 : k1_cond2 i k1_t1 arg19_r0 = 1#1), ∀ a, (k1_off4 arg11_r0) a + S1x1x128.size a ≤ S2x1x128.size a) ∧
  (∀ (k1_h1 : k1_cond1 i = 1#1), ∀ (k1_h2 : k1_cond2 i k1_t1 arg19_r0 = 1#1), ∀ a, (k1_off5 i arg19_r0) a + S1x128.size a ≤ S1x320000.size a) ∧
  (∀ (k1_h1 : k1_cond1 i = 1#1), ∀ (k1_h2 : k1_cond2 i k1_t1 arg19_r0 = 1#1), ∀ a, (k1_off6 arg11_r0) a + S1.size a ≤ S2.size a) ∧
  (∀ (k1_h1 : k1_cond1 i = 1#1), ∀ (k1_h3 : k1_cond3 i k1_t1 arg19_r0 = 1#1), ∀ a, (k1_off7 arg13_r0) a + S1x1x128.size a ≤ S2x1x128.size a) ∧
  (∀ (k1_h1 : k1_cond1 i = 1#1), ∀ (k1_h3 : k1_cond3 i k1_t1 arg19_r0 = 1#1), ∀ a, (k1_off8 i arg19_r0) a + S1x128.size a ≤ S1x320000.size a) ∧
  (∀ (k1_h1 : k1_cond1 i = 1#1), ∀ (k1_h3 : k1_cond3 i k1_t1 arg19_r0 = 1#1), ∀ a, (k1_off9 arg13_r0) a + S1.size a ≤ S2.size a) ∧
  (∀ (k1_h1 : k1_cond1 i = 1#1), ∀ (k1_h4 : k1_cond4 i k1_t1 arg19_r0 = 1#1), ∀ a, (k1_off10 arg12_r0) a + S1x1x128.size a ≤ S2x1x128.size a) ∧
  (∀ (k1_h1 : k1_cond1 i = 1#1), ∀ (k1_h4 : k1_cond4 i k1_t1 arg19_r0 = 1#1), ∀ a, (k1_off11 i arg19_r0) a + S1x128.size a ≤ S1x320000.size a) ∧
  (∀ (k1_h1 : k1_cond1 i = 1#1), ∀ (k1_h4 : k1_cond4 i k1_t1 arg19_r0 = 1#1), ∀ a, (k1_off12 arg12_r0) a + S1.size a ≤ S2.size a) ∧
  (∀ (k1_h1 : k1_cond1 i = 1#1), ∀ (k1_h5 : k1_cond5 i k1_t1 arg19_r0 = 1#1), ∀ a, (k1_off13 arg14_r0) a + S1x1x128.size a ≤ S2x1x128.size a) ∧
  (∀ (k1_h1 : k1_cond1 i = 1#1), ∀ (k1_h5 : k1_cond5 i k1_t1 arg19_r0 = 1#1), ∀ a, (k1_off14 i arg19_r0) a + S1x128.size a ≤ S1x320000.size a) ∧
  (∀ (k1_h1 : k1_cond1 i = 1#1), ∀ (k1_h5 : k1_cond5 i k1_t1 arg19_r0 = 1#1), ∀ a, (k1_off15 arg14_r0) a + S1.size a ≤ S2.size a) ∧
  (∀ (k1_h1 : k1_cond1 i = 1#1), ∀ (k1_h10 : k1_cond10 i k1_t1 arg19_r0 = 1#1), ∀ a, (k1_off22 arg15_r0) a + S1x128x128.size a ≤ S2x128x128.size a) ∧
  (∀ (k1_h1 : k1_cond1 i = 1#1), ∀ (k1_h10 : k1_cond10 i k1_t1 arg19_r0 = 1#1), ∀ a, (k1_off23 i arg19_r0) a + S128x128.size a ≤ S320000x128.size a) ∧
  (∀ (k1_h1 : k1_cond1 i = 1#1), ∀ (k1_h10 : k1_cond10 i k1_t1 arg19_r0 = 1#1), ∀ a, (k1_off24 arg15_r0) a + S1.size a ≤ S2.size a) ∧
  (∀ (k1_h1 : k1_cond1 i = 1#1), ∀ (k1_h11 : k1_cond11 i k1_t1 arg19_r0 = 1#1), ∀ a, (k1_off25 arg17_r0) a + S1x128x128.size a ≤ S2x128x128.size a) ∧
  (∀ (k1_h1 : k1_cond1 i = 1#1), ∀ (k1_h11 : k1_cond11 i k1_t1 arg19_r0 = 1#1), ∀ a, (k1_off26 i arg19_r0) a + S128x128.size a ≤ S320000x128.size a) ∧
  (∀ (k1_h1 : k1_cond1 i = 1#1), ∀ (k1_h11 : k1_cond11 i k1_t1 arg19_r0 = 1#1), ∀ a, (k1_off27 arg17_r0) a + S1.size a ≤ S2.size a) ∧
  (∀ (k1_h1 : k1_cond1 i = 1#1), ∀ (k1_h14 : k1_cond14 i k1_t1 arg19_r0 = 1#1), ∀ a, (k1_off28 arg16_r0) a + S1x128x128.size a ≤ S2x128x128.size a) ∧
  (∀ (k1_h1 : k1_cond1 i = 1#1), ∀ (k1_h14 : k1_cond14 i k1_t1 arg19_r0 = 1#1), ∀ a, (k1_off29 i arg19_r0) a + S128x128.size a ≤ S320000x128.size a) ∧
  (∀ (k1_h1 : k1_cond1 i = 1#1), ∀ (k1_h14 : k1_cond14 i k1_t1 arg19_r0 = 1#1), ∀ a, (k1_off30 arg16_r0) a + S1.size a ≤ S2.size a) ∧
  (∀ (k1_h1 : k1_cond1 i = 1#1), ∀ (k1_h15 : k1_cond15 i k1_t1 arg19_r0 = 1#1), ∀ a, (k1_off31 arg18_r0) a + S1x128x128.size a ≤ S2x128x128.size a) ∧
  (∀ (k1_h1 : k1_cond1 i = 1#1), ∀ (k1_h15 : k1_cond15 i k1_t1 arg19_r0 = 1#1), ∀ a, (k1_off32 i arg19_r0) a + S128x128.size a ≤ S320000x128.size a) ∧
  (∀ (k1_h1 : k1_cond1 i = 1#1), ∀ (k1_h15 : k1_cond15 i k1_t1 arg19_r0 = 1#1), ∀ a, (k1_off33 arg18_r0) a + S1.size a ≤ S2.size a)
instance k1_chk1.dec : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32), Decidable (k1_chk1 i k1_t1 arg11_r0 arg12_r0 arg13_r0 arg14_r0 arg15_r0 arg16_r0 arg17_r0 arg18_r0 arg19_r0) := fun i k1_t1 arg11_r0 arg12_r0 arg13_r0 arg14_r0 arg15_r0 arg16_r0 arg17_r0 arg18_r0 arg19_r0 => decidable_of_iff' _ (Iff.of_eq (k1_chk1.eq_1 i k1_t1 arg11_r0 arg12_r0 arg13_r0 arg14_r0 arg15_r0 arg16_r0 arg17_r0 arg18_r0 arg19_r0))
theorem k1_off4_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h2 : k1_cond2 i k1_t1 arg19_r0 = 1#1), ∀ a, (k1_off4 arg11_r0) a + S1x1x128.size a ≤ S2x1x128.size a := fun i k1_t1 arg11_r0 arg12_r0 arg13_r0 arg14_r0 arg15_r0 arg16_r0 arg17_r0 arg18_r0 arg19_r0 k1_hw1 k1_h1 k1_h2 => k1_hw1.1 k1_h1 k1_h2
theorem k1_off5_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h2 : k1_cond2 i k1_t1 arg19_r0 = 1#1), ∀ a, (k1_off5 i arg19_r0) a + S1x128.size a ≤ S1x320000.size a := fun i k1_t1 arg11_r0 arg12_r0 arg13_r0 arg14_r0 arg15_r0 arg16_r0 arg17_r0 arg18_r0 arg19_r0 k1_hw1 k1_h1 k1_h2 => k1_hw1.2.1 k1_h1 k1_h2
theorem k1_off6_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h2 : k1_cond2 i k1_t1 arg19_r0 = 1#1), ∀ a, (k1_off6 arg11_r0) a + S1.size a ≤ S2.size a := fun i k1_t1 arg11_r0 arg12_r0 arg13_r0 arg14_r0 arg15_r0 arg16_r0 arg17_r0 arg18_r0 arg19_r0 k1_hw1 k1_h1 k1_h2 => k1_hw1.2.2.1 k1_h1 k1_h2
theorem k1_off7_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h3 : k1_cond3 i k1_t1 arg19_r0 = 1#1), ∀ a, (k1_off7 arg13_r0) a + S1x1x128.size a ≤ S2x1x128.size a := fun i k1_t1 arg11_r0 arg12_r0 arg13_r0 arg14_r0 arg15_r0 arg16_r0 arg17_r0 arg18_r0 arg19_r0 k1_hw1 k1_h1 k1_h3 => k1_hw1.2.2.2.1 k1_h1 k1_h3
theorem k1_off8_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h3 : k1_cond3 i k1_t1 arg19_r0 = 1#1), ∀ a, (k1_off8 i arg19_r0) a + S1x128.size a ≤ S1x320000.size a := fun i k1_t1 arg11_r0 arg12_r0 arg13_r0 arg14_r0 arg15_r0 arg16_r0 arg17_r0 arg18_r0 arg19_r0 k1_hw1 k1_h1 k1_h3 => k1_hw1.2.2.2.2.1 k1_h1 k1_h3
theorem k1_off9_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h3 : k1_cond3 i k1_t1 arg19_r0 = 1#1), ∀ a, (k1_off9 arg13_r0) a + S1.size a ≤ S2.size a := fun i k1_t1 arg11_r0 arg12_r0 arg13_r0 arg14_r0 arg15_r0 arg16_r0 arg17_r0 arg18_r0 arg19_r0 k1_hw1 k1_h1 k1_h3 => k1_hw1.2.2.2.2.2.1 k1_h1 k1_h3
theorem k1_off10_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h4 : k1_cond4 i k1_t1 arg19_r0 = 1#1), ∀ a, (k1_off10 arg12_r0) a + S1x1x128.size a ≤ S2x1x128.size a := fun i k1_t1 arg11_r0 arg12_r0 arg13_r0 arg14_r0 arg15_r0 arg16_r0 arg17_r0 arg18_r0 arg19_r0 k1_hw1 k1_h1 k1_h4 => k1_hw1.2.2.2.2.2.2.1 k1_h1 k1_h4
theorem k1_off11_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h4 : k1_cond4 i k1_t1 arg19_r0 = 1#1), ∀ a, (k1_off11 i arg19_r0) a + S1x128.size a ≤ S1x320000.size a := fun i k1_t1 arg11_r0 arg12_r0 arg13_r0 arg14_r0 arg15_r0 arg16_r0 arg17_r0 arg18_r0 arg19_r0 k1_hw1 k1_h1 k1_h4 => k1_hw1.2.2.2.2.2.2.2.1 k1_h1 k1_h4
theorem k1_off12_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h4 : k1_cond4 i k1_t1 arg19_r0 = 1#1), ∀ a, (k1_off12 arg12_r0) a + S1.size a ≤ S2.size a := fun i k1_t1 arg11_r0 arg12_r0 arg13_r0 arg14_r0 arg15_r0 arg16_r0 arg17_r0 arg18_r0 arg19_r0 k1_hw1 k1_h1 k1_h4 => k1_hw1.2.2.2.2.2.2.2.2.1 k1_h1 k1_h4
theorem k1_off13_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h5 : k1_cond5 i k1_t1 arg19_r0 = 1#1), ∀ a, (k1_off13 arg14_r0) a + S1x1x128.size a ≤ S2x1x128.size a := fun i k1_t1 arg11_r0 arg12_r0 arg13_r0 arg14_r0 arg15_r0 arg16_r0 arg17_r0 arg18_r0 arg19_r0 k1_hw1 k1_h1 k1_h5 => k1_hw1.2.2.2.2.2.2.2.2.2.1 k1_h1 k1_h5
theorem k1_off14_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h5 : k1_cond5 i k1_t1 arg19_r0 = 1#1), ∀ a, (k1_off14 i arg19_r0) a + S1x128.size a ≤ S1x320000.size a := fun i k1_t1 arg11_r0 arg12_r0 arg13_r0 arg14_r0 arg15_r0 arg16_r0 arg17_r0 arg18_r0 arg19_r0 k1_hw1 k1_h1 k1_h5 => k1_hw1.2.2.2.2.2.2.2.2.2.2.1 k1_h1 k1_h5
theorem k1_off15_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h5 : k1_cond5 i k1_t1 arg19_r0 = 1#1), ∀ a, (k1_off15 arg14_r0) a + S1.size a ≤ S2.size a := fun i k1_t1 arg11_r0 arg12_r0 arg13_r0 arg14_r0 arg15_r0 arg16_r0 arg17_r0 arg18_r0 arg19_r0 k1_hw1 k1_h1 k1_h5 => k1_hw1.2.2.2.2.2.2.2.2.2.2.2.1 k1_h1 k1_h5
theorem k1_off22_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h10 : k1_cond10 i k1_t1 arg19_r0 = 1#1), ∀ a, (k1_off22 arg15_r0) a + S1x128x128.size a ≤ S2x128x128.size a := fun i k1_t1 arg11_r0 arg12_r0 arg13_r0 arg14_r0 arg15_r0 arg16_r0 arg17_r0 arg18_r0 arg19_r0 k1_hw1 k1_h1 k1_h10 => k1_hw1.2.2.2.2.2.2.2.2.2.2.2.2.1 k1_h1 k1_h10
theorem k1_off23_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h10 : k1_cond10 i k1_t1 arg19_r0 = 1#1), ∀ a, (k1_off23 i arg19_r0) a + S128x128.size a ≤ S320000x128.size a := fun i k1_t1 arg11_r0 arg12_r0 arg13_r0 arg14_r0 arg15_r0 arg16_r0 arg17_r0 arg18_r0 arg19_r0 k1_hw1 k1_h1 k1_h10 => k1_hw1.2.2.2.2.2.2.2.2.2.2.2.2.2.1 k1_h1 k1_h10
theorem k1_off24_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h10 : k1_cond10 i k1_t1 arg19_r0 = 1#1), ∀ a, (k1_off24 arg15_r0) a + S1.size a ≤ S2.size a := fun i k1_t1 arg11_r0 arg12_r0 arg13_r0 arg14_r0 arg15_r0 arg16_r0 arg17_r0 arg18_r0 arg19_r0 k1_hw1 k1_h1 k1_h10 => k1_hw1.2.2.2.2.2.2.2.2.2.2.2.2.2.2.1 k1_h1 k1_h10
theorem k1_off25_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h11 : k1_cond11 i k1_t1 arg19_r0 = 1#1), ∀ a, (k1_off25 arg17_r0) a + S1x128x128.size a ≤ S2x128x128.size a := fun i k1_t1 arg11_r0 arg12_r0 arg13_r0 arg14_r0 arg15_r0 arg16_r0 arg17_r0 arg18_r0 arg19_r0 k1_hw1 k1_h1 k1_h11 => k1_hw1.2.2.2.2.2.2.2.2.2.2.2.2.2.2.2.1 k1_h1 k1_h11
theorem k1_off26_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h11 : k1_cond11 i k1_t1 arg19_r0 = 1#1), ∀ a, (k1_off26 i arg19_r0) a + S128x128.size a ≤ S320000x128.size a := fun i k1_t1 arg11_r0 arg12_r0 arg13_r0 arg14_r0 arg15_r0 arg16_r0 arg17_r0 arg18_r0 arg19_r0 k1_hw1 k1_h1 k1_h11 => k1_hw1.2.2.2.2.2.2.2.2.2.2.2.2.2.2.2.2.1 k1_h1 k1_h11
theorem k1_off27_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h11 : k1_cond11 i k1_t1 arg19_r0 = 1#1), ∀ a, (k1_off27 arg17_r0) a + S1.size a ≤ S2.size a := fun i k1_t1 arg11_r0 arg12_r0 arg13_r0 arg14_r0 arg15_r0 arg16_r0 arg17_r0 arg18_r0 arg19_r0 k1_hw1 k1_h1 k1_h11 => k1_hw1.2.2.2.2.2.2.2.2.2.2.2.2.2.2.2.2.2.1 k1_h1 k1_h11
theorem k1_off28_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h14 : k1_cond14 i k1_t1 arg19_r0 = 1#1), ∀ a, (k1_off28 arg16_r0) a + S1x128x128.size a ≤ S2x128x128.size a := fun i k1_t1 arg11_r0 arg12_r0 arg13_r0 arg14_r0 arg15_r0 arg16_r0 arg17_r0 arg18_r0 arg19_r0 k1_hw1 k1_h1 k1_h14 => k1_hw1.2.2.2.2.2.2.2.2.2.2.2.2.2.2.2.2.2.2.1 k1_h1 k1_h14
theorem k1_off29_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h14 : k1_cond14 i k1_t1 arg19_r0 = 1#1), ∀ a, (k1_off29 i arg19_r0) a + S128x128.size a ≤ S320000x128.size a := fun i k1_t1 arg11_r0 arg12_r0 arg13_r0 arg14_r0 arg15_r0 arg16_r0 arg17_r0 arg18_r0 arg19_r0 k1_hw1 k1_h1 k1_h14 => k1_hw1.2.2.2.2.2.2.2.2.2.2.2.2.2.2.2.2.2.2.2.1 k1_h1 k1_h14
theorem k1_off30_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h14 : k1_cond14 i k1_t1 arg19_r0 = 1#1), ∀ a, (k1_off30 arg16_r0) a + S1.size a ≤ S2.size a := fun i k1_t1 arg11_r0 arg12_r0 arg13_r0 arg14_r0 arg15_r0 arg16_r0 arg17_r0 arg18_r0 arg19_r0 k1_hw1 k1_h1 k1_h14 => k1_hw1.2.2.2.2.2.2.2.2.2.2.2.2.2.2.2.2.2.2.2.2.1 k1_h1 k1_h14
theorem k1_off31_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h15 : k1_cond15 i k1_t1 arg19_r0 = 1#1), ∀ a, (k1_off31 arg18_r0) a + S1x128x128.size a ≤ S2x128x128.size a := fun i k1_t1 arg11_r0 arg12_r0 arg13_r0 arg14_r0 arg15_r0 arg16_r0 arg17_r0 arg18_r0 arg19_r0 k1_hw1 k1_h1 k1_h15 => k1_hw1.2.2.2.2.2.2.2.2.2.2.2.2.2.2.2.2.2.2.2.2.2.1 k1_h1 k1_h15
theorem k1_off32_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h15 : k1_cond15 i k1_t1 arg19_r0 = 1#1), ∀ a, (k1_off32 i arg19_r0) a + S128x128.size a ≤ S320000x128.size a := fun i k1_t1 arg11_r0 arg12_r0 arg13_r0 arg14_r0 arg15_r0 arg16_r0 arg17_r0 arg18_r0 arg19_r0 k1_hw1 k1_h1 k1_h15 => k1_hw1.2.2.2.2.2.2.2.2.2.2.2.2.2.2.2.2.2.2.2.2.2.2.1 k1_h1 k1_h15
theorem k1_off33_inb : ∀ (i : grid1.Coords) (k1_t1 : Fin (k1_t1_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw1 : k1_chk1 i k1_t1 arg11_r0 arg12_r0 arg13_r0 arg14_r0 arg15_r0 arg16_r0 arg17_r0 arg18_r0 arg19_r0), ∀ (k1_h1 : k1_cond1 i = 1#1), ∀ (k1_h15 : k1_cond15 i k1_t1 arg19_r0 = 1#1), ∀ a, (k1_off33 arg18_r0) a + S1.size a ≤ S2.size a := fun i k1_t1 arg11_r0 arg12_r0 arg13_r0 arg14_r0 arg15_r0 arg16_r0 arg17_r0 arg18_r0 arg19_r0 k1_hw1 k1_h1 k1_h15 => k1_hw1.2.2.2.2.2.2.2.2.2.2.2.2.2.2.2.2.2.2.2.2.2.2.2 k1_h1 k1_h15

@[reducible] def k1_t2_loop (i : grid1.Coords) : Scf.Loop 32 :=
  let c0_i32_43_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let v60_r0 : BitVec 32 := Scalar.addi c0_i32_43_r0 v59_r0
  let c1_i32_53_r0 : BitVec 32 := 1#32
  ⟨v63_r0, v60_r0, c1_i32_53_r0⟩
def k1_off34 (arg11_r0 : BitVec 32) : Fin 3 → Nat :=
  let c2_i32_183_r0 : BitVec 32 := 2#32
  let v280_r0 : BitVec 32 := Scalar.remui arg11_r0 c2_i32_183_r0
  let c0_i32_185_r0 : BitVec 32 := 0#32
  let c0_i32_186_r0 : BitVec 32 := 0#32
  ![v280_r0.toNat, 0, 0]
def k1_cond16 (i : grid1.Coords) (k1_t2 : Fin (k1_t2_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let v114_r0 : BitVec 1 := Scalar.cmpi .eq v113_r0 v5
  let c0_i32_85_r0 : BitVec 32 := 0#32
  let v115_r0 : BitVec 32 := Scalar.select v114_r0 c0_i32_85_r0 v113_r0
  let v116_r0 : BitVec 32 := Scalar.addi v115_r0 v10
  let v122_r0 : BitVec 1 := Scalar.cmpi .ne v105_r0 v116_r0
  let c0_i32_43_r0 : BitVec 32 := 0#32
  let c1_i32_3 : BitVec 32 := 1#32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_53_r0 : BitVec 32 := 1#32
  let arg10_r0 : BitVec 32 := Scf.iv v63_r0 c1_i32_53_r0 k1_t2
  let c1_i32_76_r0 : BitVec 32 := 1#32
  let v101_r0 : BitVec 32 := Scalar.muli c1_i32_76_r0 v5
  let c2_i32_89_r0 : BitVec 32 := 2#32
  let v123_r0 : BitVec 32 := Scalar.subi v101_r0 c2_i32_89_r0
  let c1_i32_90_r0 : BitVec 32 := 1#32
  let v124_r0 : BitVec 32 := Scalar.addi v123_r0 c1_i32_90_r0
  let v125_r0 : BitVec 1 := Scalar.cmpi .sge arg10_r0 v124_r0
  let true_91_r0 : BitVec 1 := 1#1
  let v126_r0 : BitVec 1 := Scalar.xori v125_r0 true_91_r0
  let v127_r0 : BitVec 1 := Scalar.andi v122_r0 v126_r0
  let v128_r0 : BitVec 32 := Scalar.extui v127_r0
  let c0_i32_92_r0 : BitVec 32 := 0#32
  let v129_r0 : BitVec 1 := Scalar.cmpi .ne v128_r0 c0_i32_92_r0
  v129_r0

def k1_off35 (i : grid1.Coords) (arg19_r0 : BitVec 32) : Fin 2 → Nat :=
  let c0_i32_187_r0 : BitVec 32 := 0#32
  let c128_i32_184_r0 : BitVec 32 := 128#32
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v114_r0 : BitVec 1 := Scalar.cmpi .eq v113_r0 v5
  let c0_i32_85_r0 : BitVec 32 := 0#32
  let v115_r0 : BitVec 32 := Scalar.select v114_r0 c0_i32_85_r0 v113_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v116_r0 : BitVec 32 := Scalar.addi v115_r0 v10
  let v281_r0 : BitVec 32 := Scalar.muli c128_i32_184_r0 v116_r0
  ![0, v281_r0.toNat]
def k1_off36 (arg11_r0 : BitVec 32) : Fin 1 → Nat :=
  let c2_i32_183_r0 : BitVec 32 := 2#32
  let v280_r0 : BitVec 32 := Scalar.remui arg11_r0 c2_i32_183_r0
  ![v280_r0.toNat]
def k1_off37 (arg13_r0 : BitVec 32) : Fin 3 → Nat :=
  let c2_i32_183_r0 : BitVec 32 := 2#32
  let v280_r0 : BitVec 32 := Scalar.remui arg13_r0 c2_i32_183_r0
  let c0_i32_185_r0 : BitVec 32 := 0#32
  let c0_i32_186_r0 : BitVec 32 := 0#32
  ![v280_r0.toNat, 0, 0]
def k1_cond17 (i : grid1.Coords) (k1_t2 : Fin (k1_t2_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let v114_r0 : BitVec 1 := Scalar.cmpi .eq v113_r0 v5
  let c0_i32_85_r0 : BitVec 32 := 0#32
  let v115_r0 : BitVec 32 := Scalar.select v114_r0 c0_i32_85_r0 v113_r0
  let v116_r0 : BitVec 32 := Scalar.addi v115_r0 v10
  let v133_r0 : BitVec 1 := Scalar.cmpi .ne v105_r0 v116_r0
  let c0_i32_43_r0 : BitVec 32 := 0#32
  let c1_i32_3 : BitVec 32 := 1#32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_53_r0 : BitVec 32 := 1#32
  let arg10_r0 : BitVec 32 := Scf.iv v63_r0 c1_i32_53_r0 k1_t2
  let c1_i32_76_r0 : BitVec 32 := 1#32
  let v101_r0 : BitVec 32 := Scalar.muli c1_i32_76_r0 v5
  let c2_i32_95_r0 : BitVec 32 := 2#32
  let v134_r0 : BitVec 32 := Scalar.subi v101_r0 c2_i32_95_r0
  let c1_i32_96_r0 : BitVec 32 := 1#32
  let v135_r0 : BitVec 32 := Scalar.addi v134_r0 c1_i32_96_r0
  let v136_r0 : BitVec 1 := Scalar.cmpi .sge arg10_r0 v135_r0
  let true_97_r0 : BitVec 1 := 1#1
  let v137_r0 : BitVec 1 := Scalar.xori v136_r0 true_97_r0
  let v138_r0 : BitVec 1 := Scalar.andi v133_r0 v137_r0
  let v139_r0 : BitVec 32 := Scalar.extui v138_r0
  let c0_i32_98_r0 : BitVec 32 := 0#32
  let v140_r0 : BitVec 1 := Scalar.cmpi .ne v139_r0 c0_i32_98_r0
  v140_r0

def k1_off38 (i : grid1.Coords) (arg19_r0 : BitVec 32) : Fin 2 → Nat :=
  let c0_i32_187_r0 : BitVec 32 := 0#32
  let c128_i32_184_r0 : BitVec 32 := 128#32
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v114_r0 : BitVec 1 := Scalar.cmpi .eq v113_r0 v5
  let c0_i32_85_r0 : BitVec 32 := 0#32
  let v115_r0 : BitVec 32 := Scalar.select v114_r0 c0_i32_85_r0 v113_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v116_r0 : BitVec 32 := Scalar.addi v115_r0 v10
  let v281_r0 : BitVec 32 := Scalar.muli c128_i32_184_r0 v116_r0
  ![0, v281_r0.toNat]
def k1_off39 (arg13_r0 : BitVec 32) : Fin 1 → Nat :=
  let c2_i32_183_r0 : BitVec 32 := 2#32
  let v280_r0 : BitVec 32 := Scalar.remui arg13_r0 c2_i32_183_r0
  ![v280_r0.toNat]
def k1_off40 (arg12_r0 : BitVec 32) : Fin 3 → Nat :=
  let c2_i32_184_r0 : BitVec 32 := 2#32
  let v281_r0 : BitVec 32 := Scalar.remui arg12_r0 c2_i32_184_r0
  let c0_i32_185_r0 : BitVec 32 := 0#32
  let c0_i32_186_r0 : BitVec 32 := 0#32
  ![v281_r0.toNat, 0, 0]
def k1_cond18 (i : grid1.Coords) (k1_t2 : Fin (k1_t2_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c1_i32_82_r0 : BitVec 32 := 1#32
  let v109_r0 : BitVec 32 := Scalar.subi v5 c1_i32_82_r0
  let v110_r0 : BitVec 32 := Scalar.select v108_r0 v109_r0 v107_r0
  let v111_r0 : BitVec 32 := Scalar.addi v110_r0 v10
  let v156_r0 : BitVec 1 := Scalar.cmpi .ne v105_r0 v111_r0
  let c0_i32_43_r0 : BitVec 32 := 0#32
  let c1_i32_3 : BitVec 32 := 1#32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_53_r0 : BitVec 32 := 1#32
  let arg10_r0 : BitVec 32 := Scf.iv v63_r0 c1_i32_53_r0 k1_t2
  let c0_i32_77_r0 : BitVec 32 := 0#32
  let v102_r0 : BitVec 1 := Scalar.cmpi .eq arg10_r0 c0_i32_77_r0
  let v157_r0 : BitVec 1 := Scalar.ori v156_r0 v102_r0
  let c0_i32_107_r0 : BitVec 32 := 0#32
  let v158_r0 : BitVec 1 := Scalar.cmpi .slt arg10_r0 c0_i32_107_r0
  let true_108_r0 : BitVec 1 := 1#1
  let v159_r0 : BitVec 1 := Scalar.xori v158_r0 true_108_r0
  let v160_r0 : BitVec 1 := Scalar.andi v157_r0 v159_r0
  let v161_r0 : BitVec 32 := Scalar.extui v160_r0
  let c0_i32_109_r0 : BitVec 32 := 0#32
  let v162_r0 : BitVec 1 := Scalar.cmpi .ne v161_r0 c0_i32_109_r0
  v162_r0

def k1_off41 (i : grid1.Coords) (arg19_r0 : BitVec 32) : Fin 2 → Nat :=
  let c0_i32_187_r0 : BitVec 32 := 0#32
  let c128_i32_183_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let v280_r0 : BitVec 32 := Scalar.muli c128_i32_183_r0 v105_r0
  ![0, v280_r0.toNat]
def k1_off42 (arg12_r0 : BitVec 32) : Fin 1 → Nat :=
  let c2_i32_184_r0 : BitVec 32 := 2#32
  let v281_r0 : BitVec 32 := Scalar.remui arg12_r0 c2_i32_184_r0
  ![v281_r0.toNat]
def k1_off43 (arg14_r0 : BitVec 32) : Fin 3 → Nat :=
  let c2_i32_184_r0 : BitVec 32 := 2#32
  let v281_r0 : BitVec 32 := Scalar.remui arg14_r0 c2_i32_184_r0
  let c0_i32_185_r0 : BitVec 32 := 0#32
  let c0_i32_186_r0 : BitVec 32 := 0#32
  ![v281_r0.toNat, 0, 0]
def k1_cond19 (i : grid1.Coords) (k1_t2 : Fin (k1_t2_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c1_i32_82_r0 : BitVec 32 := 1#32
  let v109_r0 : BitVec 32 := Scalar.subi v5 c1_i32_82_r0
  let v110_r0 : BitVec 32 := Scalar.select v108_r0 v109_r0 v107_r0
  let v111_r0 : BitVec 32 := Scalar.addi v110_r0 v10
  let v163_r0 : BitVec 1 := Scalar.cmpi .ne v105_r0 v111_r0
  let c0_i32_43_r0 : BitVec 32 := 0#32
  let c1_i32_3 : BitVec 32 := 1#32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_53_r0 : BitVec 32 := 1#32
  let arg10_r0 : BitVec 32 := Scf.iv v63_r0 c1_i32_53_r0 k1_t2
  let c0_i32_77_r0 : BitVec 32 := 0#32
  let v102_r0 : BitVec 1 := Scalar.cmpi .eq arg10_r0 c0_i32_77_r0
  let v164_r0 : BitVec 1 := Scalar.ori v163_r0 v102_r0
  let c0_i32_110_r0 : BitVec 32 := 0#32
  let v165_r0 : BitVec 1 := Scalar.cmpi .slt arg10_r0 c0_i32_110_r0
  let true_111_r0 : BitVec 1 := 1#1
  let v166_r0 : BitVec 1 := Scalar.xori v165_r0 true_111_r0
  let v167_r0 : BitVec 1 := Scalar.andi v164_r0 v166_r0
  let v168_r0 : BitVec 32 := Scalar.extui v167_r0
  let c0_i32_112_r0 : BitVec 32 := 0#32
  let v169_r0 : BitVec 1 := Scalar.cmpi .ne v168_r0 c0_i32_112_r0
  v169_r0

def k1_off44 (i : grid1.Coords) (arg19_r0 : BitVec 32) : Fin 2 → Nat :=
  let c0_i32_187_r0 : BitVec 32 := 0#32
  let c128_i32_183_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let v280_r0 : BitVec 32 := Scalar.muli c128_i32_183_r0 v105_r0
  ![0, v280_r0.toNat]
def k1_off45 (arg14_r0 : BitVec 32) : Fin 1 → Nat :=
  let c2_i32_184_r0 : BitVec 32 := 2#32
  let v281_r0 : BitVec 32 := Scalar.remui arg14_r0 c2_i32_184_r0
  ![v281_r0.toNat]
def k1_off46 (arg15_r0 : BitVec 32) : Fin 3 → Nat :=
  let c2_i32_121_r0 : BitVec 32 := 2#32
  let v186_r0 : BitVec 32 := Scalar.remui arg15_r0 c2_i32_121_r0
  let c0_i32_124_r0 : BitVec 32 := 0#32
  let c0_i32_125_r0 : BitVec 32 := 0#32
  ![v186_r0.toNat, 0, 0]

def k1_off47 (arg12_r0 : BitVec 32) : Fin 3 → Nat :=
  let c2_i32_119_r0 : BitVec 32 := 2#32
  let v184_r0 : BitVec 32 := Scalar.remui arg12_r0 c2_i32_119_r0
  let c0_i32_126_r0 : BitVec 32 := 0#32
  let c0_i32_127_r0 : BitVec 32 := 0#32
  ![v184_r0.toNat, 0, 0]

def k1_off48 (arg17_r0 : BitVec 32) : Fin 3 → Nat :=
  let c2_i32_122_r0 : BitVec 32 := 2#32
  let v187_r0 : BitVec 32 := Scalar.remui arg17_r0 c2_i32_122_r0
  let c0_i32_132_r0 : BitVec 32 := 0#32
  let c0_i32_133_r0 : BitVec 32 := 0#32
  ![v187_r0.toNat, 0, 0]

def k1_chk9 (i : grid1.Coords) (arg17_r0 : BitVec 32) : Prop :=
  (∀ (k1_h1 : k1_cond1 i = 1#1), ∀ a, (k1_off48 arg17_r0) a + S1x128x128.size a ≤ S2x128x128.size a)
instance k1_chk9.dec : ∀ (i : grid1.Coords) (arg17_r0 : BitVec 32), Decidable (k1_chk9 i arg17_r0) := fun i arg17_r0 => decidable_of_iff' _ (Iff.of_eq (k1_chk9.eq_1 i arg17_r0))
theorem k1_off48_inb : ∀ (i : grid1.Coords) (arg17_r0 : BitVec 32) (k1_hw9 : k1_chk9 i arg17_r0), ∀ (k1_h1 : k1_cond1 i = 1#1), ∀ a, (k1_off48 arg17_r0) a + S1x128x128.size a ≤ S2x128x128.size a := fun i arg17_r0 k1_hw9 k1_h1 => k1_hw9 k1_h1

def k1_off49 (arg14_r0 : BitVec 32) : Fin 3 → Nat :=
  let c2_i32_120_r0 : BitVec 32 := 2#32
  let v185_r0 : BitVec 32 := Scalar.remui arg14_r0 c2_i32_120_r0
  let c0_i32_134_r0 : BitVec 32 := 0#32
  let c0_i32_135_r0 : BitVec 32 := 0#32
  ![v185_r0.toNat, 0, 0]

def k1_chk10 (i : grid1.Coords) (arg14_r0 : BitVec 32) : Prop :=
  (∀ (k1_h1 : k1_cond1 i = 1#1), ∀ a, (k1_off49 arg14_r0) a + S1x1x128.size a ≤ S2x1x128.size a)
instance k1_chk10.dec : ∀ (i : grid1.Coords) (arg14_r0 : BitVec 32), Decidable (k1_chk10 i arg14_r0) := fun i arg14_r0 => decidable_of_iff' _ (Iff.of_eq (k1_chk10.eq_1 i arg14_r0))
theorem k1_off49_inb : ∀ (i : grid1.Coords) (arg14_r0 : BitVec 32) (k1_hw10 : k1_chk10 i arg14_r0), ∀ (k1_h1 : k1_cond1 i = 1#1), ∀ a, (k1_off49 arg14_r0) a + S1x1x128.size a ≤ S2x1x128.size a := fun i arg14_r0 k1_hw10 k1_h1 => k1_hw10 k1_h1

def k1_off50 (arg15_r0 : BitVec 32) : Fin 3 → Nat :=
  let c2_i32_121_r0 : BitVec 32 := 2#32
  let v186_r0 : BitVec 32 := Scalar.remui arg15_r0 c2_i32_121_r0
  let c0_i32_140_r0 : BitVec 32 := 0#32
  let c0_i32_141_r0 : BitVec 32 := 0#32
  ![v186_r0.toNat, 0, 0]

def k1_chk7 (i : grid1.Coords) (arg15_r0 : BitVec 32) : Prop :=
  (∀ (k1_h1 : k1_cond1 i = 1#1), ∀ a, (k1_off46 arg15_r0) a + S1x128x128.size a ≤ S2x128x128.size a) ∧
  (∀ (k1_h1 : k1_cond1 i = 1#1), ∀ a, (k1_off50 arg15_r0) a + S1x128x128.size a ≤ S2x128x128.size a)
instance k1_chk7.dec : ∀ (i : grid1.Coords) (arg15_r0 : BitVec 32), Decidable (k1_chk7 i arg15_r0) := fun i arg15_r0 => decidable_of_iff' _ (Iff.of_eq (k1_chk7.eq_1 i arg15_r0))
theorem k1_off46_inb : ∀ (i : grid1.Coords) (arg15_r0 : BitVec 32) (k1_hw7 : k1_chk7 i arg15_r0), ∀ (k1_h1 : k1_cond1 i = 1#1), ∀ a, (k1_off46 arg15_r0) a + S1x128x128.size a ≤ S2x128x128.size a := fun i arg15_r0 k1_hw7 k1_h1 => k1_hw7.1 k1_h1
theorem k1_off50_inb : ∀ (i : grid1.Coords) (arg15_r0 : BitVec 32) (k1_hw7 : k1_chk7 i arg15_r0), ∀ (k1_h1 : k1_cond1 i = 1#1), ∀ a, (k1_off50 arg15_r0) a + S1x128x128.size a ≤ S2x128x128.size a := fun i arg15_r0 k1_hw7 k1_h1 => k1_hw7.2 k1_h1

def k1_off51 (arg12_r0 : BitVec 32) : Fin 3 → Nat :=
  let c2_i32_119_r0 : BitVec 32 := 2#32
  let v184_r0 : BitVec 32 := Scalar.remui arg12_r0 c2_i32_119_r0
  let c0_i32_142_r0 : BitVec 32 := 0#32
  let c0_i32_143_r0 : BitVec 32 := 0#32
  ![v184_r0.toNat, 0, 0]

def k1_chk8 (i : grid1.Coords) (arg12_r0 : BitVec 32) : Prop :=
  (∀ (k1_h1 : k1_cond1 i = 1#1), ∀ a, (k1_off47 arg12_r0) a + S1x1x128.size a ≤ S2x1x128.size a) ∧
  (∀ (k1_h1 : k1_cond1 i = 1#1), ∀ a, (k1_off51 arg12_r0) a + S1x1x128.size a ≤ S2x1x128.size a)
instance k1_chk8.dec : ∀ (i : grid1.Coords) (arg12_r0 : BitVec 32), Decidable (k1_chk8 i arg12_r0) := fun i arg12_r0 => decidable_of_iff' _ (Iff.of_eq (k1_chk8.eq_1 i arg12_r0))
theorem k1_off47_inb : ∀ (i : grid1.Coords) (arg12_r0 : BitVec 32) (k1_hw8 : k1_chk8 i arg12_r0), ∀ (k1_h1 : k1_cond1 i = 1#1), ∀ a, (k1_off47 arg12_r0) a + S1x1x128.size a ≤ S2x1x128.size a := fun i arg12_r0 k1_hw8 k1_h1 => k1_hw8.1 k1_h1
theorem k1_off51_inb : ∀ (i : grid1.Coords) (arg12_r0 : BitVec 32) (k1_hw8 : k1_chk8 i arg12_r0), ∀ (k1_h1 : k1_cond1 i = 1#1), ∀ a, (k1_off51 arg12_r0) a + S1x1x128.size a ≤ S2x1x128.size a := fun i arg12_r0 k1_hw8 k1_h1 => k1_hw8.2 k1_h1

def k1_off52 (arg15_r0 : BitVec 32) : Fin 3 → Nat :=
  let c2_i32_183_r0 : BitVec 32 := 2#32
  let v280_r0 : BitVec 32 := Scalar.remui arg15_r0 c2_i32_183_r0
  let c0_i32_185_r0 : BitVec 32 := 0#32
  let c0_i32_186_r0 : BitVec 32 := 0#32
  ![v280_r0.toNat, 0, 0]
def k1_cond24 (i : grid1.Coords) (k1_t2 : Fin (k1_t2_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let v114_r0 : BitVec 1 := Scalar.cmpi .eq v113_r0 v5
  let c0_i32_85_r0 : BitVec 32 := 0#32
  let v115_r0 : BitVec 32 := Scalar.select v114_r0 c0_i32_85_r0 v113_r0
  let v116_r0 : BitVec 32 := Scalar.addi v115_r0 v10
  let v226_r0 : BitVec 1 := Scalar.cmpi .ne v105_r0 v116_r0
  let c0_i32_43_r0 : BitVec 32 := 0#32
  let c1_i32_3 : BitVec 32 := 1#32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_53_r0 : BitVec 32 := 1#32
  let arg10_r0 : BitVec 32 := Scf.iv v63_r0 c1_i32_53_r0 k1_t2
  let c1_i32_76_r0 : BitVec 32 := 1#32
  let v101_r0 : BitVec 32 := Scalar.muli c1_i32_76_r0 v5
  let c1_i32_78_r0 : BitVec 32 := 1#32
  let v103_r0 : BitVec 32 := Scalar.subi v101_r0 c1_i32_78_r0
  let v104_r0 : BitVec 1 := Scalar.cmpi .eq arg10_r0 v103_r0
  let v227_r0 : BitVec 1 := Scalar.ori v226_r0 v104_r0
  let v228_r0 : BitVec 32 := Scalar.extui v227_r0
  let c0_i32_158_r0 : BitVec 32 := 0#32
  let v229_r0 : BitVec 1 := Scalar.cmpi .ne v228_r0 c0_i32_158_r0
  v229_r0

def k1_off53 (i : grid1.Coords) (arg19_r0 : BitVec 32) : Fin 2 → Nat :=
  let c128_i32_184_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let v281_r0 : BitVec 32 := Scalar.muli c128_i32_184_r0 v105_r0
  let c0_i32_187_r0 : BitVec 32 := 0#32
  ![v281_r0.toNat, 0]
def k1_off54 (arg15_r0 : BitVec 32) : Fin 1 → Nat :=
  let c2_i32_183_r0 : BitVec 32 := 2#32
  let v280_r0 : BitVec 32 := Scalar.remui arg15_r0 c2_i32_183_r0
  ![v280_r0.toNat]
def k1_off55 (arg17_r0 : BitVec 32) : Fin 3 → Nat :=
  let c2_i32_183_r0 : BitVec 32 := 2#32
  let v280_r0 : BitVec 32 := Scalar.remui arg17_r0 c2_i32_183_r0
  let c0_i32_185_r0 : BitVec 32 := 0#32
  let c0_i32_186_r0 : BitVec 32 := 0#32
  ![v280_r0.toNat, 0, 0]
def k1_cond25 (i : grid1.Coords) (k1_t2 : Fin (k1_t2_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_84_r0 : BitVec 1 := 1#1
  let c1_i32_83_r0 : BitVec 32 := 1#32
  let v112_r0 : BitVec 32 := Scalar.addi arg19_r0 c1_i32_83_r0
  let v113_r0 : BitVec 32 := Scalar.select true_84_r0 v112_r0 arg19_r0
  let v114_r0 : BitVec 1 := Scalar.cmpi .eq v113_r0 v5
  let c0_i32_85_r0 : BitVec 32 := 0#32
  let v115_r0 : BitVec 32 := Scalar.select v114_r0 c0_i32_85_r0 v113_r0
  let v116_r0 : BitVec 32 := Scalar.addi v115_r0 v10
  let v233_r0 : BitVec 1 := Scalar.cmpi .ne v105_r0 v116_r0
  let c0_i32_43_r0 : BitVec 32 := 0#32
  let c1_i32_3 : BitVec 32 := 1#32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_53_r0 : BitVec 32 := 1#32
  let arg10_r0 : BitVec 32 := Scf.iv v63_r0 c1_i32_53_r0 k1_t2
  let c1_i32_76_r0 : BitVec 32 := 1#32
  let v101_r0 : BitVec 32 := Scalar.muli c1_i32_76_r0 v5
  let c1_i32_78_r0 : BitVec 32 := 1#32
  let v103_r0 : BitVec 32 := Scalar.subi v101_r0 c1_i32_78_r0
  let v104_r0 : BitVec 1 := Scalar.cmpi .eq arg10_r0 v103_r0
  let v234_r0 : BitVec 1 := Scalar.ori v233_r0 v104_r0
  let v235_r0 : BitVec 32 := Scalar.extui v234_r0
  let c0_i32_161_r0 : BitVec 32 := 0#32
  let v236_r0 : BitVec 1 := Scalar.cmpi .ne v235_r0 c0_i32_161_r0
  v236_r0

def k1_off56 (i : grid1.Coords) (arg19_r0 : BitVec 32) : Fin 2 → Nat :=
  let c128_i32_184_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let v281_r0 : BitVec 32 := Scalar.muli c128_i32_184_r0 v105_r0
  let c0_i32_187_r0 : BitVec 32 := 0#32
  ![v281_r0.toNat, 0]
def k1_off57 (arg17_r0 : BitVec 32) : Fin 1 → Nat :=
  let c2_i32_183_r0 : BitVec 32 := 2#32
  let v280_r0 : BitVec 32 := Scalar.remui arg17_r0 c2_i32_183_r0
  ![v280_r0.toNat]
def k1_off58 (arg16_r0 : BitVec 32) : Fin 3 → Nat :=
  let c2_i32_183_r0 : BitVec 32 := 2#32
  let v280_r0 : BitVec 32 := Scalar.remui arg16_r0 c2_i32_183_r0
  let c0_i32_185_r0 : BitVec 32 := 0#32
  let c0_i32_186_r0 : BitVec 32 := 0#32
  ![v280_r0.toNat, 0, 0]
def k1_cond28 (i : grid1.Coords) (k1_t2 : Fin (k1_t2_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c1_i32_82_r0 : BitVec 32 := 1#32
  let v109_r0 : BitVec 32 := Scalar.subi v5 c1_i32_82_r0
  let v110_r0 : BitVec 32 := Scalar.select v108_r0 v109_r0 v107_r0
  let v111_r0 : BitVec 32 := Scalar.addi v110_r0 v10
  let v252_r0 : BitVec 1 := Scalar.cmpi .ne v105_r0 v111_r0
  let c0_i32_43_r0 : BitVec 32 := 0#32
  let c1_i32_3 : BitVec 32 := 1#32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_53_r0 : BitVec 32 := 1#32
  let arg10_r0 : BitVec 32 := Scf.iv v63_r0 c1_i32_53_r0 k1_t2
  let c0_i32_77_r0 : BitVec 32 := 0#32
  let v102_r0 : BitVec 1 := Scalar.cmpi .eq arg10_r0 c0_i32_77_r0
  let true_170_r0 : BitVec 1 := 1#1
  let v253_r0 : BitVec 1 := Scalar.xori v102_r0 true_170_r0
  let v254_r0 : BitVec 1 := Scalar.andi v252_r0 v253_r0
  let v255_r0 : BitVec 32 := Scalar.extui v254_r0
  let c0_i32_171_r0 : BitVec 32 := 0#32
  let v256_r0 : BitVec 1 := Scalar.cmpi .ne v255_r0 c0_i32_171_r0
  v256_r0

def k1_off59 (i : grid1.Coords) (arg19_r0 : BitVec 32) : Fin 2 → Nat :=
  let c128_i32_184_r0 : BitVec 32 := 128#32
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_82_r0 : BitVec 32 := 1#32
  let v109_r0 : BitVec 32 := Scalar.subi v5 c1_i32_82_r0
  let v110_r0 : BitVec 32 := Scalar.select v108_r0 v109_r0 v107_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v111_r0 : BitVec 32 := Scalar.addi v110_r0 v10
  let v281_r0 : BitVec 32 := Scalar.muli c128_i32_184_r0 v111_r0
  let c0_i32_187_r0 : BitVec 32 := 0#32
  ![v281_r0.toNat, 0]
def k1_off60 (arg16_r0 : BitVec 32) : Fin 1 → Nat :=
  let c2_i32_183_r0 : BitVec 32 := 2#32
  let v280_r0 : BitVec 32 := Scalar.remui arg16_r0 c2_i32_183_r0
  ![v280_r0.toNat]
def k1_off61 (arg18_r0 : BitVec 32) : Fin 3 → Nat :=
  let c2_i32_183_r0 : BitVec 32 := 2#32
  let v280_r0 : BitVec 32 := Scalar.remui arg18_r0 c2_i32_183_r0
  let c0_i32_185_r0 : BitVec 32 := 0#32
  let c0_i32_186_r0 : BitVec 32 := 0#32
  ![v280_r0.toNat, 0, 0]
def k1_cond29 (i : grid1.Coords) (k1_t2 : Fin (k1_t2_loop i).trips) (arg19_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32_0 : BitVec 32 := 4#32
  let v6 : BitVec 1 := Scalar.cmpi .slt v3 c4_i32_0
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v105_r0 : BitVec 32 := Scalar.addi arg19_r0 v10
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c1_i32_82_r0 : BitVec 32 := 1#32
  let v109_r0 : BitVec 32 := Scalar.subi v5 c1_i32_82_r0
  let v110_r0 : BitVec 32 := Scalar.select v108_r0 v109_r0 v107_r0
  let v111_r0 : BitVec 32 := Scalar.addi v110_r0 v10
  let v260_r0 : BitVec 1 := Scalar.cmpi .ne v105_r0 v111_r0
  let c0_i32_43_r0 : BitVec 32 := 0#32
  let c1_i32_3 : BitVec 32 := 1#32
  let v11 : BitVec 32 := Scalar.muli c1_i32_3 v5
  let v59_r0 : BitVec 32 := Scalar.subi v11 c0_i32_43_r0
  let c1_i32_51_r0 : BitVec 32 := 1#32
  let v61_r0 : BitVec 32 := Scalar.divsi v59_r0 c1_i32_51_r0
  let v62_r0 : BitVec 32 := Scalar.muli v61_r0 c1_i32_51_r0
  let v63_r0 : BitVec 32 := Scalar.addi c0_i32_43_r0 v62_r0
  let c1_i32_53_r0 : BitVec 32 := 1#32
  let arg10_r0 : BitVec 32 := Scf.iv v63_r0 c1_i32_53_r0 k1_t2
  let c0_i32_77_r0 : BitVec 32 := 0#32
  let v102_r0 : BitVec 1 := Scalar.cmpi .eq arg10_r0 c0_i32_77_r0
  let true_174_r0 : BitVec 1 := 1#1
  let v261_r0 : BitVec 1 := Scalar.xori v102_r0 true_174_r0
  let v262_r0 : BitVec 1 := Scalar.andi v260_r0 v261_r0
  let v263_r0 : BitVec 32 := Scalar.extui v262_r0
  let c0_i32_175_r0 : BitVec 32 := 0#32
  let v264_r0 : BitVec 1 := Scalar.cmpi .ne v263_r0 c0_i32_175_r0
  v264_r0

def k1_off62 (i : grid1.Coords) (arg19_r0 : BitVec 32) : Fin 2 → Nat :=
  let c128_i32_184_r0 : BitVec 32 := 128#32
  let true_80_r0 : BitVec 1 := 1#1
  let c1_i32_79_r0 : BitVec 32 := 1#32
  let v106_r0 : BitVec 32 := Scalar.subi arg19_r0 c1_i32_79_r0
  let v107_r0 : BitVec 32 := Scalar.select true_80_r0 v106_r0 arg19_r0
  let c_m1_i32_81_r0 : BitVec 32 := 4294967295#32
  let v108_r0 : BitVec 1 := Scalar.cmpi .eq v107_r0 c_m1_i32_81_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_82_r0 : BitVec 32 := 1#32
  let v109_r0 : BitVec 32 := Scalar.subi v5 c1_i32_82_r0
  let v110_r0 : BitVec 32 := Scalar.select v108_r0 v109_r0 v107_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v111_r0 : BitVec 32 := Scalar.addi v110_r0 v10
  let v281_r0 : BitVec 32 := Scalar.muli c128_i32_184_r0 v111_r0
  let c0_i32_187_r0 : BitVec 32 := 0#32
  ![v281_r0.toNat, 0]
def k1_off63 (arg18_r0 : BitVec 32) : Fin 1 → Nat :=
  let c2_i32_183_r0 : BitVec 32 := 2#32
  let v280_r0 : BitVec 32 := Scalar.remui arg18_r0 c2_i32_183_r0
  ![v280_r0.toNat]

def k1_chk6 (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) : Prop :=
  (∀ (k1_h1 : k1_cond1 i = 1#1), ∀ (k1_h16 : k1_cond16 i k1_t2 arg19_r0 = 1#1), ∀ a, (k1_off34 arg11_r0) a + S1x1x128.size a ≤ S2x1x128.size a) ∧
  (∀ (k1_h1 : k1_cond1 i = 1#1), ∀ (k1_h16 : k1_cond16 i k1_t2 arg19_r0 = 1#1), ∀ a, (k1_off35 i arg19_r0) a + S1x128.size a ≤ S1x320000.size a) ∧
  (∀ (k1_h1 : k1_cond1 i = 1#1), ∀ (k1_h16 : k1_cond16 i k1_t2 arg19_r0 = 1#1), ∀ a, (k1_off36 arg11_r0) a + S1.size a ≤ S2.size a) ∧
  (∀ (k1_h1 : k1_cond1 i = 1#1), ∀ (k1_h17 : k1_cond17 i k1_t2 arg19_r0 = 1#1), ∀ a, (k1_off37 arg13_r0) a + S1x1x128.size a ≤ S2x1x128.size a) ∧
  (∀ (k1_h1 : k1_cond1 i = 1#1), ∀ (k1_h17 : k1_cond17 i k1_t2 arg19_r0 = 1#1), ∀ a, (k1_off38 i arg19_r0) a + S1x128.size a ≤ S1x320000.size a) ∧
  (∀ (k1_h1 : k1_cond1 i = 1#1), ∀ (k1_h17 : k1_cond17 i k1_t2 arg19_r0 = 1#1), ∀ a, (k1_off39 arg13_r0) a + S1.size a ≤ S2.size a) ∧
  (∀ (k1_h1 : k1_cond1 i = 1#1), ∀ (k1_h18 : k1_cond18 i k1_t2 arg19_r0 = 1#1), ∀ a, (k1_off40 arg12_r0) a + S1x1x128.size a ≤ S2x1x128.size a) ∧
  (∀ (k1_h1 : k1_cond1 i = 1#1), ∀ (k1_h18 : k1_cond18 i k1_t2 arg19_r0 = 1#1), ∀ a, (k1_off41 i arg19_r0) a + S1x128.size a ≤ S1x320000.size a) ∧
  (∀ (k1_h1 : k1_cond1 i = 1#1), ∀ (k1_h18 : k1_cond18 i k1_t2 arg19_r0 = 1#1), ∀ a, (k1_off42 arg12_r0) a + S1.size a ≤ S2.size a) ∧
  (∀ (k1_h1 : k1_cond1 i = 1#1), ∀ (k1_h19 : k1_cond19 i k1_t2 arg19_r0 = 1#1), ∀ a, (k1_off43 arg14_r0) a + S1x1x128.size a ≤ S2x1x128.size a) ∧
  (∀ (k1_h1 : k1_cond1 i = 1#1), ∀ (k1_h19 : k1_cond19 i k1_t2 arg19_r0 = 1#1), ∀ a, (k1_off44 i arg19_r0) a + S1x128.size a ≤ S1x320000.size a) ∧
  (∀ (k1_h1 : k1_cond1 i = 1#1), ∀ (k1_h19 : k1_cond19 i k1_t2 arg19_r0 = 1#1), ∀ a, (k1_off45 arg14_r0) a + S1.size a ≤ S2.size a) ∧
  (∀ (k1_h1 : k1_cond1 i = 1#1), ∀ (k1_h24 : k1_cond24 i k1_t2 arg19_r0 = 1#1), ∀ a, (k1_off52 arg15_r0) a + S1x128x128.size a ≤ S2x128x128.size a) ∧
  (∀ (k1_h1 : k1_cond1 i = 1#1), ∀ (k1_h24 : k1_cond24 i k1_t2 arg19_r0 = 1#1), ∀ a, (k1_off53 i arg19_r0) a + S128x128.size a ≤ S320000x128.size a) ∧
  (∀ (k1_h1 : k1_cond1 i = 1#1), ∀ (k1_h24 : k1_cond24 i k1_t2 arg19_r0 = 1#1), ∀ a, (k1_off54 arg15_r0) a + S1.size a ≤ S2.size a) ∧
  (∀ (k1_h1 : k1_cond1 i = 1#1), ∀ (k1_h25 : k1_cond25 i k1_t2 arg19_r0 = 1#1), ∀ a, (k1_off55 arg17_r0) a + S1x128x128.size a ≤ S2x128x128.size a) ∧
  (∀ (k1_h1 : k1_cond1 i = 1#1), ∀ (k1_h25 : k1_cond25 i k1_t2 arg19_r0 = 1#1), ∀ a, (k1_off56 i arg19_r0) a + S128x128.size a ≤ S320000x128.size a) ∧
  (∀ (k1_h1 : k1_cond1 i = 1#1), ∀ (k1_h25 : k1_cond25 i k1_t2 arg19_r0 = 1#1), ∀ a, (k1_off57 arg17_r0) a + S1.size a ≤ S2.size a) ∧
  (∀ (k1_h1 : k1_cond1 i = 1#1), ∀ (k1_h28 : k1_cond28 i k1_t2 arg19_r0 = 1#1), ∀ a, (k1_off58 arg16_r0) a + S1x128x128.size a ≤ S2x128x128.size a) ∧
  (∀ (k1_h1 : k1_cond1 i = 1#1), ∀ (k1_h28 : k1_cond28 i k1_t2 arg19_r0 = 1#1), ∀ a, (k1_off59 i arg19_r0) a + S128x128.size a ≤ S320000x128.size a) ∧
  (∀ (k1_h1 : k1_cond1 i = 1#1), ∀ (k1_h28 : k1_cond28 i k1_t2 arg19_r0 = 1#1), ∀ a, (k1_off60 arg16_r0) a + S1.size a ≤ S2.size a) ∧
  (∀ (k1_h1 : k1_cond1 i = 1#1), ∀ (k1_h29 : k1_cond29 i k1_t2 arg19_r0 = 1#1), ∀ a, (k1_off61 arg18_r0) a + S1x128x128.size a ≤ S2x128x128.size a) ∧
  (∀ (k1_h1 : k1_cond1 i = 1#1), ∀ (k1_h29 : k1_cond29 i k1_t2 arg19_r0 = 1#1), ∀ a, (k1_off62 i arg19_r0) a + S128x128.size a ≤ S320000x128.size a) ∧
  (∀ (k1_h1 : k1_cond1 i = 1#1), ∀ (k1_h29 : k1_cond29 i k1_t2 arg19_r0 = 1#1), ∀ a, (k1_off63 arg18_r0) a + S1.size a ≤ S2.size a)
instance k1_chk6.dec : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32), Decidable (k1_chk6 i k1_t2 arg11_r0 arg12_r0 arg13_r0 arg14_r0 arg15_r0 arg16_r0 arg17_r0 arg18_r0 arg19_r0) := fun i k1_t2 arg11_r0 arg12_r0 arg13_r0 arg14_r0 arg15_r0 arg16_r0 arg17_r0 arg18_r0 arg19_r0 => decidable_of_iff' _ (Iff.of_eq (k1_chk6.eq_1 i k1_t2 arg11_r0 arg12_r0 arg13_r0 arg14_r0 arg15_r0 arg16_r0 arg17_r0 arg18_r0 arg19_r0))
theorem k1_off34_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h16 : k1_cond16 i k1_t2 arg19_r0 = 1#1), ∀ a, (k1_off34 arg11_r0) a + S1x1x128.size a ≤ S2x1x128.size a := fun i k1_t2 arg11_r0 arg12_r0 arg13_r0 arg14_r0 arg15_r0 arg16_r0 arg17_r0 arg18_r0 arg19_r0 k1_hw6 k1_h1 k1_h16 => k1_hw6.1 k1_h1 k1_h16
theorem k1_off35_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h16 : k1_cond16 i k1_t2 arg19_r0 = 1#1), ∀ a, (k1_off35 i arg19_r0) a + S1x128.size a ≤ S1x320000.size a := fun i k1_t2 arg11_r0 arg12_r0 arg13_r0 arg14_r0 arg15_r0 arg16_r0 arg17_r0 arg18_r0 arg19_r0 k1_hw6 k1_h1 k1_h16 => k1_hw6.2.1 k1_h1 k1_h16
theorem k1_off36_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h16 : k1_cond16 i k1_t2 arg19_r0 = 1#1), ∀ a, (k1_off36 arg11_r0) a + S1.size a ≤ S2.size a := fun i k1_t2 arg11_r0 arg12_r0 arg13_r0 arg14_r0 arg15_r0 arg16_r0 arg17_r0 arg18_r0 arg19_r0 k1_hw6 k1_h1 k1_h16 => k1_hw6.2.2.1 k1_h1 k1_h16
theorem k1_off37_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h17 : k1_cond17 i k1_t2 arg19_r0 = 1#1), ∀ a, (k1_off37 arg13_r0) a + S1x1x128.size a ≤ S2x1x128.size a := fun i k1_t2 arg11_r0 arg12_r0 arg13_r0 arg14_r0 arg15_r0 arg16_r0 arg17_r0 arg18_r0 arg19_r0 k1_hw6 k1_h1 k1_h17 => k1_hw6.2.2.2.1 k1_h1 k1_h17
theorem k1_off38_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h17 : k1_cond17 i k1_t2 arg19_r0 = 1#1), ∀ a, (k1_off38 i arg19_r0) a + S1x128.size a ≤ S1x320000.size a := fun i k1_t2 arg11_r0 arg12_r0 arg13_r0 arg14_r0 arg15_r0 arg16_r0 arg17_r0 arg18_r0 arg19_r0 k1_hw6 k1_h1 k1_h17 => k1_hw6.2.2.2.2.1 k1_h1 k1_h17
theorem k1_off39_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h17 : k1_cond17 i k1_t2 arg19_r0 = 1#1), ∀ a, (k1_off39 arg13_r0) a + S1.size a ≤ S2.size a := fun i k1_t2 arg11_r0 arg12_r0 arg13_r0 arg14_r0 arg15_r0 arg16_r0 arg17_r0 arg18_r0 arg19_r0 k1_hw6 k1_h1 k1_h17 => k1_hw6.2.2.2.2.2.1 k1_h1 k1_h17
theorem k1_off40_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h18 : k1_cond18 i k1_t2 arg19_r0 = 1#1), ∀ a, (k1_off40 arg12_r0) a + S1x1x128.size a ≤ S2x1x128.size a := fun i k1_t2 arg11_r0 arg12_r0 arg13_r0 arg14_r0 arg15_r0 arg16_r0 arg17_r0 arg18_r0 arg19_r0 k1_hw6 k1_h1 k1_h18 => k1_hw6.2.2.2.2.2.2.1 k1_h1 k1_h18
theorem k1_off41_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h18 : k1_cond18 i k1_t2 arg19_r0 = 1#1), ∀ a, (k1_off41 i arg19_r0) a + S1x128.size a ≤ S1x320000.size a := fun i k1_t2 arg11_r0 arg12_r0 arg13_r0 arg14_r0 arg15_r0 arg16_r0 arg17_r0 arg18_r0 arg19_r0 k1_hw6 k1_h1 k1_h18 => k1_hw6.2.2.2.2.2.2.2.1 k1_h1 k1_h18
theorem k1_off42_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h18 : k1_cond18 i k1_t2 arg19_r0 = 1#1), ∀ a, (k1_off42 arg12_r0) a + S1.size a ≤ S2.size a := fun i k1_t2 arg11_r0 arg12_r0 arg13_r0 arg14_r0 arg15_r0 arg16_r0 arg17_r0 arg18_r0 arg19_r0 k1_hw6 k1_h1 k1_h18 => k1_hw6.2.2.2.2.2.2.2.2.1 k1_h1 k1_h18
theorem k1_off43_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h19 : k1_cond19 i k1_t2 arg19_r0 = 1#1), ∀ a, (k1_off43 arg14_r0) a + S1x1x128.size a ≤ S2x1x128.size a := fun i k1_t2 arg11_r0 arg12_r0 arg13_r0 arg14_r0 arg15_r0 arg16_r0 arg17_r0 arg18_r0 arg19_r0 k1_hw6 k1_h1 k1_h19 => k1_hw6.2.2.2.2.2.2.2.2.2.1 k1_h1 k1_h19
theorem k1_off44_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h19 : k1_cond19 i k1_t2 arg19_r0 = 1#1), ∀ a, (k1_off44 i arg19_r0) a + S1x128.size a ≤ S1x320000.size a := fun i k1_t2 arg11_r0 arg12_r0 arg13_r0 arg14_r0 arg15_r0 arg16_r0 arg17_r0 arg18_r0 arg19_r0 k1_hw6 k1_h1 k1_h19 => k1_hw6.2.2.2.2.2.2.2.2.2.2.1 k1_h1 k1_h19
theorem k1_off45_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h19 : k1_cond19 i k1_t2 arg19_r0 = 1#1), ∀ a, (k1_off45 arg14_r0) a + S1.size a ≤ S2.size a := fun i k1_t2 arg11_r0 arg12_r0 arg13_r0 arg14_r0 arg15_r0 arg16_r0 arg17_r0 arg18_r0 arg19_r0 k1_hw6 k1_h1 k1_h19 => k1_hw6.2.2.2.2.2.2.2.2.2.2.2.1 k1_h1 k1_h19
theorem k1_off52_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h24 : k1_cond24 i k1_t2 arg19_r0 = 1#1), ∀ a, (k1_off52 arg15_r0) a + S1x128x128.size a ≤ S2x128x128.size a := fun i k1_t2 arg11_r0 arg12_r0 arg13_r0 arg14_r0 arg15_r0 arg16_r0 arg17_r0 arg18_r0 arg19_r0 k1_hw6 k1_h1 k1_h24 => k1_hw6.2.2.2.2.2.2.2.2.2.2.2.2.1 k1_h1 k1_h24
theorem k1_off53_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h24 : k1_cond24 i k1_t2 arg19_r0 = 1#1), ∀ a, (k1_off53 i arg19_r0) a + S128x128.size a ≤ S320000x128.size a := fun i k1_t2 arg11_r0 arg12_r0 arg13_r0 arg14_r0 arg15_r0 arg16_r0 arg17_r0 arg18_r0 arg19_r0 k1_hw6 k1_h1 k1_h24 => k1_hw6.2.2.2.2.2.2.2.2.2.2.2.2.2.1 k1_h1 k1_h24
theorem k1_off54_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h24 : k1_cond24 i k1_t2 arg19_r0 = 1#1), ∀ a, (k1_off54 arg15_r0) a + S1.size a ≤ S2.size a := fun i k1_t2 arg11_r0 arg12_r0 arg13_r0 arg14_r0 arg15_r0 arg16_r0 arg17_r0 arg18_r0 arg19_r0 k1_hw6 k1_h1 k1_h24 => k1_hw6.2.2.2.2.2.2.2.2.2.2.2.2.2.2.1 k1_h1 k1_h24
theorem k1_off55_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h25 : k1_cond25 i k1_t2 arg19_r0 = 1#1), ∀ a, (k1_off55 arg17_r0) a + S1x128x128.size a ≤ S2x128x128.size a := fun i k1_t2 arg11_r0 arg12_r0 arg13_r0 arg14_r0 arg15_r0 arg16_r0 arg17_r0 arg18_r0 arg19_r0 k1_hw6 k1_h1 k1_h25 => k1_hw6.2.2.2.2.2.2.2.2.2.2.2.2.2.2.2.1 k1_h1 k1_h25
theorem k1_off56_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h25 : k1_cond25 i k1_t2 arg19_r0 = 1#1), ∀ a, (k1_off56 i arg19_r0) a + S128x128.size a ≤ S320000x128.size a := fun i k1_t2 arg11_r0 arg12_r0 arg13_r0 arg14_r0 arg15_r0 arg16_r0 arg17_r0 arg18_r0 arg19_r0 k1_hw6 k1_h1 k1_h25 => k1_hw6.2.2.2.2.2.2.2.2.2.2.2.2.2.2.2.2.1 k1_h1 k1_h25
theorem k1_off57_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h25 : k1_cond25 i k1_t2 arg19_r0 = 1#1), ∀ a, (k1_off57 arg17_r0) a + S1.size a ≤ S2.size a := fun i k1_t2 arg11_r0 arg12_r0 arg13_r0 arg14_r0 arg15_r0 arg16_r0 arg17_r0 arg18_r0 arg19_r0 k1_hw6 k1_h1 k1_h25 => k1_hw6.2.2.2.2.2.2.2.2.2.2.2.2.2.2.2.2.2.1 k1_h1 k1_h25
theorem k1_off58_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h28 : k1_cond28 i k1_t2 arg19_r0 = 1#1), ∀ a, (k1_off58 arg16_r0) a + S1x128x128.size a ≤ S2x128x128.size a := fun i k1_t2 arg11_r0 arg12_r0 arg13_r0 arg14_r0 arg15_r0 arg16_r0 arg17_r0 arg18_r0 arg19_r0 k1_hw6 k1_h1 k1_h28 => k1_hw6.2.2.2.2.2.2.2.2.2.2.2.2.2.2.2.2.2.2.1 k1_h1 k1_h28
theorem k1_off59_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h28 : k1_cond28 i k1_t2 arg19_r0 = 1#1), ∀ a, (k1_off59 i arg19_r0) a + S128x128.size a ≤ S320000x128.size a := fun i k1_t2 arg11_r0 arg12_r0 arg13_r0 arg14_r0 arg15_r0 arg16_r0 arg17_r0 arg18_r0 arg19_r0 k1_hw6 k1_h1 k1_h28 => k1_hw6.2.2.2.2.2.2.2.2.2.2.2.2.2.2.2.2.2.2.2.1 k1_h1 k1_h28
theorem k1_off60_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h28 : k1_cond28 i k1_t2 arg19_r0 = 1#1), ∀ a, (k1_off60 arg16_r0) a + S1.size a ≤ S2.size a := fun i k1_t2 arg11_r0 arg12_r0 arg13_r0 arg14_r0 arg15_r0 arg16_r0 arg17_r0 arg18_r0 arg19_r0 k1_hw6 k1_h1 k1_h28 => k1_hw6.2.2.2.2.2.2.2.2.2.2.2.2.2.2.2.2.2.2.2.2.1 k1_h1 k1_h28
theorem k1_off61_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h29 : k1_cond29 i k1_t2 arg19_r0 = 1#1), ∀ a, (k1_off61 arg18_r0) a + S1x128x128.size a ≤ S2x128x128.size a := fun i k1_t2 arg11_r0 arg12_r0 arg13_r0 arg14_r0 arg15_r0 arg16_r0 arg17_r0 arg18_r0 arg19_r0 k1_hw6 k1_h1 k1_h29 => k1_hw6.2.2.2.2.2.2.2.2.2.2.2.2.2.2.2.2.2.2.2.2.2.1 k1_h1 k1_h29
theorem k1_off62_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h29 : k1_cond29 i k1_t2 arg19_r0 = 1#1), ∀ a, (k1_off62 i arg19_r0) a + S128x128.size a ≤ S320000x128.size a := fun i k1_t2 arg11_r0 arg12_r0 arg13_r0 arg14_r0 arg15_r0 arg16_r0 arg17_r0 arg18_r0 arg19_r0 k1_hw6 k1_h1 k1_h29 => k1_hw6.2.2.2.2.2.2.2.2.2.2.2.2.2.2.2.2.2.2.2.2.2.2.1 k1_h1 k1_h29
theorem k1_off63_inb : ∀ (i : grid1.Coords) (k1_t2 : Fin (k1_t2_loop i).trips) (arg11_r0 : BitVec 32) (arg12_r0 : BitVec 32) (arg13_r0 : BitVec 32) (arg14_r0 : BitVec 32) (arg15_r0 : BitVec 32) (arg16_r0 : BitVec 32) (arg17_r0 : BitVec 32) (arg18_r0 : BitVec 32) (arg19_r0 : BitVec 32) (k1_hw6 : k1_chk6 i k1_t2 arg11_r0 arg12_r0 arg13_r0 arg14_r0 arg15_r0 arg16_r0 arg17_r0 arg18_r0 arg19_r0), ∀ (k1_h1 : k1_cond1 i = 1#1), ∀ (k1_h29 : k1_cond29 i k1_t2 arg19_r0 = 1#1), ∀ a, (k1_off63 arg18_r0) a + S1.size a ≤ S2.size a := fun i k1_t2 arg11_r0 arg12_r0 arg13_r0 arg14_r0 arg15_r0 arg16_r0 arg17_r0 arg18_r0 arg19_r0 k1_hw6 k1_h1 k1_h29 => k1_hw6.2.2.2.2.2.2.2.2.2.2.2.2.2.2.2.2.2.2.2.2.2.2.2 k1_h1 k1_h29

def k1_cond32 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let c1_i32_58_r0 : BitVec 32 := 1#32
  let v71_r0 : BitVec 32 := Scalar.subi v11 c1_i32_58_r0
  let c1_i32_59_r0 : BitVec 32 := 1#32
  let v72_r0 : BitVec 32 := Scalar.muli c1_i32_59_r0 v5
  let c1_i32_61_r0 : BitVec 32 := 1#32
  let v74_r0 : BitVec 32 := Scalar.subi v72_r0 c1_i32_61_r0
  let v75_r0 : BitVec 1 := Scalar.cmpi .eq v71_r0 v74_r0
  let v97_r0 : BitVec 32 := Scalar.extui v75_r0
  let c0_i32_74_r0 : BitVec 32 := 0#32
  let v98_r0 : BitVec 1 := Scalar.cmpi .ne v97_r0 c0_i32_74_r0
  v98_r0

def k1_off64 (v65_5_r0 : BitVec 32) : Fin 3 → Nat :=
  let c2_i32_76_r0 : BitVec 32 := 2#32
  let v101_r0 : BitVec 32 := Scalar.remui v65_5_r0 c2_i32_76_r0
  let c0_i32_78_r0 : BitVec 32 := 0#32
  let c0_i32_79_r0 : BitVec 32 := 0#32
  ![v101_r0.toNat, 0, 0]

def k1_off65 (i : grid1.Coords) (v65_8_r0 : BitVec 32) : Fin 2 → Nat :=
  let c128_i32_77_r0 : BitVec 32 := 128#32
  let true_55_r0 : BitVec 1 := 1#1
  let c1_i32_54_r0 : BitVec 32 := 1#32
  let v66_r0 : BitVec 32 := Scalar.subi v65_8_r0 c1_i32_54_r0
  let v67_r0 : BitVec 32 := Scalar.select true_55_r0 v66_r0 v65_8_r0
  let c_m1_i32_56_r0 : BitVec 32 := 4294967295#32
  let v68_r0 : BitVec 1 := Scalar.cmpi .eq v67_r0 c_m1_i32_56_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_57_r0 : BitVec 32 := 1#32
  let v69_r0 : BitVec 32 := Scalar.subi v5 c1_i32_57_r0
  let v70_r0 : BitVec 32 := Scalar.select v68_r0 v69_r0 v67_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v76_r0 : BitVec 32 := Scalar.addi v70_r0 v10
  let v102_r0 : BitVec 32 := Scalar.muli c128_i32_77_r0 v76_r0
  let c0_i32_80_r0 : BitVec 32 := 0#32
  ![v102_r0.toNat, 0]

def k1_off66 (v65_5_r0 : BitVec 32) : Fin 1 → Nat :=
  let c2_i32_76_r0 : BitVec 32 := 2#32
  let v101_r0 : BitVec 32 := Scalar.remui v65_5_r0 c2_i32_76_r0
  ![v101_r0.toNat]
def k1_off67 (v65_5_r0 : BitVec 32) : Fin 3 → Nat :=
  let c2_i32_76_r0 : BitVec 32 := 2#32
  let v101_r0 : BitVec 32 := Scalar.remui v65_5_r0 c2_i32_76_r0
  let c0_i32_82_r0 : BitVec 32 := 0#32
  let c0_i32_83_r0 : BitVec 32 := 0#32
  ![v101_r0.toNat, 0, 0]

def k1_chk11 (i : grid1.Coords) (v65_5_r0 : BitVec 32) : Prop :=
  (∀ (k1_h1 : k1_cond1 i = 1#1), ∀ (k1_h32 : k1_cond32 i = 1#1), ∀ a, (k1_off64 v65_5_r0) a + S1x128x128.size a ≤ S2x128x128.size a) ∧
  (∀ (k1_h1 : k1_cond1 i = 1#1), ∀ (k1_h32 : k1_cond32 i = 1#1), ∀ a, (k1_off66 v65_5_r0) a + S1.size a ≤ S2.size a) ∧
  (∀ (k1_h1 : k1_cond1 i = 1#1), ∀ (k1_h32 : k1_cond32 i = 1#1), ∀ a, (k1_off67 v65_5_r0) a + S1x128x128.size a ≤ S2x128x128.size a)
instance k1_chk11.dec : ∀ (i : grid1.Coords) (v65_5_r0 : BitVec 32), Decidable (k1_chk11 i v65_5_r0) := fun i v65_5_r0 => decidable_of_iff' _ (Iff.of_eq (k1_chk11.eq_1 i v65_5_r0))
theorem k1_off64_inb : ∀ (i : grid1.Coords) (v65_5_r0 : BitVec 32) (k1_hw11 : k1_chk11 i v65_5_r0), ∀ (k1_h1 : k1_cond1 i = 1#1), ∀ (k1_h32 : k1_cond32 i = 1#1), ∀ a, (k1_off64 v65_5_r0) a + S1x128x128.size a ≤ S2x128x128.size a := fun i v65_5_r0 k1_hw11 k1_h1 k1_h32 => k1_hw11.1 k1_h1 k1_h32
theorem k1_off66_inb : ∀ (i : grid1.Coords) (v65_5_r0 : BitVec 32) (k1_hw11 : k1_chk11 i v65_5_r0), ∀ (k1_h1 : k1_cond1 i = 1#1), ∀ (k1_h32 : k1_cond32 i = 1#1), ∀ a, (k1_off66 v65_5_r0) a + S1.size a ≤ S2.size a := fun i v65_5_r0 k1_hw11 k1_h1 k1_h32 => k1_hw11.2.1 k1_h1 k1_h32
theorem k1_off67_inb : ∀ (i : grid1.Coords) (v65_5_r0 : BitVec 32) (k1_hw11 : k1_chk11 i v65_5_r0), ∀ (k1_h1 : k1_cond1 i = 1#1), ∀ (k1_h32 : k1_cond32 i = 1#1), ∀ a, (k1_off67 v65_5_r0) a + S1x128x128.size a ≤ S2x128x128.size a := fun i v65_5_r0 k1_hw11 k1_h1 k1_h32 => k1_hw11.2.2 k1_h1 k1_h32

def k1_cond33 (i : grid1.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let v11 : BitVec 32 := Scalar.muli c1_i32_3 v5
  let c1_i32_58_r0 : BitVec 32 := 1#32
  let v71_r0 : BitVec 32 := Scalar.subi v11 c1_i32_58_r0
  let c1_i32_59_r0 : BitVec 32 := 1#32
  let v72_r0 : BitVec 32 := Scalar.muli c1_i32_59_r0 v5
  let c1_i32_61_r0 : BitVec 32 := 1#32
  let v74_r0 : BitVec 32 := Scalar.subi v72_r0 c1_i32_61_r0
  let v75_r0 : BitVec 1 := Scalar.cmpi .eq v71_r0 v74_r0
  let v99_r0 : BitVec 32 := Scalar.extui v75_r0
  let c0_i32_75_r0 : BitVec 32 := 0#32
  let v100_r0 : BitVec 1 := Scalar.cmpi .ne v99_r0 c0_i32_75_r0
  v100_r0

def k1_off68 (v65_7_r0 : BitVec 32) : Fin 3 → Nat :=
  let c2_i32_76_r0 : BitVec 32 := 2#32
  let v101_r0 : BitVec 32 := Scalar.remui v65_7_r0 c2_i32_76_r0
  let c0_i32_78_r0 : BitVec 32 := 0#32
  let c0_i32_79_r0 : BitVec 32 := 0#32
  ![v101_r0.toNat, 0, 0]

def k1_off69 (i : grid1.Coords) (v65_8_r0 : BitVec 32) : Fin 2 → Nat :=
  let c128_i32_77_r0 : BitVec 32 := 128#32
  let true_55_r0 : BitVec 1 := 1#1
  let c1_i32_54_r0 : BitVec 32 := 1#32
  let v66_r0 : BitVec 32 := Scalar.subi v65_8_r0 c1_i32_54_r0
  let v67_r0 : BitVec 32 := Scalar.select true_55_r0 v66_r0 v65_8_r0
  let c_m1_i32_56_r0 : BitVec 32 := 4294967295#32
  let v68_r0 : BitVec 1 := Scalar.cmpi .eq v67_r0 c_m1_i32_56_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c4_i32 : BitVec 32 := 4#32
  let v4 : BitVec 1 := Scalar.cmpi .slt v3 c4_i32
  let c79_i32 : BitVec 32 := 79#32
  let c78_i32 : BitVec 32 := 78#32
  let v5 : BitVec 32 := Scalar.select v4 c79_i32 c78_i32
  let c1_i32_57_r0 : BitVec 32 := 1#32
  let v69_r0 : BitVec 32 := Scalar.subi v5 c1_i32_57_r0
  let v70_r0 : BitVec 32 := Scalar.select v68_r0 v69_r0 v67_r0
  let c4_i32_0 : BitVec 32 := 4#32
  let v6 : BitVec 1 := Scalar.cmpi .slt v3 c4_i32_0
  let v7 : BitVec 32 := Scalar.muli v3 v5
  let c78_i32_1 : BitVec 32 := 78#32
  let v8 : BitVec 32 := Scalar.muli v3 c78_i32_1
  let c4_i32_2 : BitVec 32 := 4#32
  let v9 : BitVec 32 := Scalar.addi v8 c4_i32_2
  let v10 : BitVec 32 := Scalar.select v6 v7 v9
  let v76_r0 : BitVec 32 := Scalar.addi v70_r0 v10
  let v102_r0 : BitVec 32 := Scalar.muli c128_i32_77_r0 v76_r0
  let c0_i32_80_r0 : BitVec 32 := 0#32
  ![v102_r0.toNat, 0]

def k1_chk12 (i : grid1.Coords) (v65_8_r0 : BitVec 32) : Prop :=
  (∀ (k1_h1 : k1_cond1 i = 1#1), ∀ (k1_h32 : k1_cond32 i = 1#1), ∀ a, (k1_off65 i v65_8_r0) a + S128x128.size a ≤ S320000x128.size a) ∧
  (∀ (k1_h1 : k1_cond1 i = 1#1), ∀ (k1_h33 : k1_cond33 i = 1#1), ∀ a, (k1_off69 i v65_8_r0) a + S128x128.size a ≤ S320000x128.size a)
instance k1_chk12.dec : ∀ (i : grid1.Coords) (v65_8_r0 : BitVec 32), Decidable (k1_chk12 i v65_8_r0) := fun i v65_8_r0 => decidable_of_iff' _ (Iff.of_eq (k1_chk12.eq_1 i v65_8_r0))
theorem k1_off65_inb : ∀ (i : grid1.Coords) (v65_8_r0 : BitVec 32) (k1_hw12 : k1_chk12 i v65_8_r0), ∀ (k1_h1 : k1_cond1 i = 1#1), ∀ (k1_h32 : k1_cond32 i = 1#1), ∀ a, (k1_off65 i v65_8_r0) a + S128x128.size a ≤ S320000x128.size a := fun i v65_8_r0 k1_hw12 k1_h1 k1_h32 => k1_hw12.1 k1_h1 k1_h32
theorem k1_off69_inb : ∀ (i : grid1.Coords) (v65_8_r0 : BitVec 32) (k1_hw12 : k1_chk12 i v65_8_r0), ∀ (k1_h1 : k1_cond1 i = 1#1), ∀ (k1_h33 : k1_cond33 i = 1#1), ∀ a, (k1_off69 i v65_8_r0) a + S128x128.size a ≤ S320000x128.size a := fun i v65_8_r0 k1_hw12 k1_h1 k1_h33 => k1_hw12.2 k1_h1 k1_h33

def k1_off70 (v65_7_r0 : BitVec 32) : Fin 1 → Nat :=
  let c2_i32_76_r0 : BitVec 32 := 2#32
  let v101_r0 : BitVec 32 := Scalar.remui v65_7_r0 c2_i32_76_r0
  ![v101_r0.toNat]

def k1_chk13 (i : grid1.Coords) (v65_7_r0 : BitVec 32) : Prop :=
  (∀ (k1_h1 : k1_cond1 i = 1#1), ∀ (k1_h33 : k1_cond33 i = 1#1), ∀ a, (k1_off68 v65_7_r0) a + S1x128x128.size a ≤ S2x128x128.size a) ∧
  (∀ (k1_h1 : k1_cond1 i = 1#1), ∀ (k1_h33 : k1_cond33 i = 1#1), ∀ a, (k1_off70 v65_7_r0) a + S1.size a ≤ S2.size a)
instance k1_chk13.dec : ∀ (i : grid1.Coords) (v65_7_r0 : BitVec 32), Decidable (k1_chk13 i v65_7_r0) := fun i v65_7_r0 => decidable_of_iff' _ (Iff.of_eq (k1_chk13.eq_1 i v65_7_r0))
theorem k1_off68_inb : ∀ (i : grid1.Coords) (v65_7_r0 : BitVec 32) (k1_hw13 : k1_chk13 i v65_7_r0), ∀ (k1_h1 : k1_cond1 i = 1#1), ∀ (k1_h33 : k1_cond33 i = 1#1), ∀ a, (k1_off68 v65_7_r0) a + S1x128x128.size a ≤ S2x128x128.size a := fun i v65_7_r0 k1_hw13 k1_h1 k1_h33 => k1_hw13.1 k1_h1 k1_h33
theorem k1_off70_inb : ∀ (i : grid1.Coords) (v65_7_r0 : BitVec 32) (k1_hw13 : k1_chk13 i v65_7_r0), ∀ (k1_h1 : k1_cond1 i = 1#1), ∀ (k1_h33 : k1_cond33 i = 1#1), ∀ a, (k1_off70 v65_7_r0) a + S1.size a ≤ S2.size a := fun i v65_7_r0 k1_hw13 k1_h1 k1_h33 => k1_hw13.2 k1_h1 k1_h33

abbrev grid2 : Pipeline.Grid := ⟨1, ![160], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S16x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x16 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x16 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x16 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x16 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S2000x16 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  slices_S272x128_S128x128_0_0 : S272x128.Slices ![0, 0] S128x128
  slices_S272x128_S128x128_128_0 : S272x128.Slices ![128, 0] S128x128
  slices_S272x128_S16x128_256_0 : S272x128.Slices ![256, 0] S16x128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x320000_S1x320000_0_0 : S2x320000.Slices ![0, 0] S1x320000
  shapeCasts_S1x320000_S320000 : S1x320000.ShapeCasts S320000
  pads_S320000_S320000_000 : S320000.Pads (![0] : Fin 1 → Nat) ![0] ![0] S320000
  h_S_ : 0 < S_.numel
  slices_S2x320000_S1x320000_1_0 : S2x320000.Slices ![1, 0] S1x320000
  pads_S320000x16_S320000x16_000_000 : S320000x16.Pads (![0, 0] : Fin 2 → Nat) ![0, 0] ![0, 0] S320000x16
  shapeCasts_S320000_S1x320000 : S320000.ShapeCasts S1x320000
  squeezes_S1x1x128_S1x128 : S1x1x128.Squeezes S1x128
  squeezes_S1_S_ : S1.Squeezes S_
  squeezes_S1x128x128_S128x128 : S1x128x128.Squeezes S128x128
  squeezes_S1x128_S128 : S1x128.Squeezes S128
  gathers_S10000x128_S128x128 : S10000x128.Gathers 0 S128x128
  shapeCasts_S16_S1x16 : S16.ShapeCasts S1x16
  inb_S2000x16_S2000x16_0_0 : ∀ a, (![0, 0] : Fin 2 → Nat) a + S2000x16.size a ≤ S2000x16.size a
  h_S2000x16 : 0 < S2000x16.numel
  shapeCasts_S2000x16_S2000x16 : S2000x16.ShapeCasts S2000x16
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S2000x128 : S1x128.Broadcasts S2000x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  reduces_S2000x16_S2000 : S2000x16.Reduces [1] S2000
  shapeCasts_S2000_S2000x1 : S2000.ShapeCasts S2000x1
  broadcasts_S2000x1_S2000x16 : S2000x1.Broadcasts S2000x16
  dot_S10000x128_S128x128_S10000x128_1_0_0_1_n_n_wf : DotDims.WF S10000x128 S128x128 S10000x128 [1] [0] [0] [1] [] []
  dot_S2000x16_S16x128_S2000x128_1_0_0_1_n_n_wf : DotDims.WF S2000x16 S16x128 S2000x128 [1] [0] [0] [1] [] []
  dot_S2000x128_S128x128_S2000x128_1_0_0_1_n_n_wf : DotDims.WF S2000x128 S128x128 S2000x128 [1] [0] [0] [1] [] []
  dot_S2000x128_S128x16_S2000x16_1_0_0_1_n_n_wf : DotDims.WF S2000x128 S128x16 S2000x16 [1] [0] [0] [1] [] []
  hcc1_scratch0 : 6 + S_.numel ≤ 31
  hcc1_scratch1 : 7 + S_.numel ≤ 31
  hcc1_scoped1 : 8 + S2.numel ≤ 31
  hcc1_scoped3 : 10 + S2.numel ≤ 31
  hcc1_scoped5 : 12 + S2.numel ≤ 31
  hcc1_scoped7 : 14 + S2.numel ≤ 31
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hcore1 : grid1.bound 0 ≤ τ.nSC
  hsub1 : grid1.bound 1 ≤ τ.nSub
  k1_off1_inb : ∀ i : grid1.Coords, ∀ (k1_h1 : k1_cond1 i = 1#1), ∀ a, k1_off1 a + S1x1x128.size a ≤ S2x1x128.size a
  k1_off2_inb : ∀ i : grid1.Coords, ∀ (k1_h1 : k1_cond1 i = 1#1), ∀ a, (k1_off2 i) a + S1x128.size a ≤ S1x320000.size a
  k1_off3_inb : ∀ i : grid1.Coords, ∀ (k1_h1 : k1_cond1 i = 1#1), ∀ a, k1_off3 a + S1.size a ≤ S2.size a
  k1_t1_ok : ∀ i : grid1.Coords, ∀ (k1_h1 : k1_cond1 i = 1#1), (k1_t1_loop i).OK
  k1_t2_ok : ∀ i : grid1.Coords, ∀ (k1_h1 : k1_cond1 i = 1#1), (k1_t2_loop i).OK
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S320000x128.size a
  hwx2_0 : ∀ i : grid2.Coords, EltTy.bits .f32 = 32 ∨ (Rect.block (s := S320000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S320000x128.size a
  hwx2_1 : ∀ i : grid2.Coords, EltTy.bits .f32 = 32 ∨ (Rect.block (s := S320000x128) S2000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S320000x16.size a
  hwx2_2 : ∀ i : grid2.Coords, EltTy.bits .f32 = 32 ∨ (Rect.block (s := S320000x16) S2000x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S16x128.size a ≤ S16x128.size a
  hwx2_3 : ∀ i : grid2.Coords, EltTy.bits .f32 = 32 ∨ (Rect.block (s := S16x128) S16x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x16.size a ≤ S128x16.size a
  hwx2_6 : ∀ i : grid2.Coords, EltTy.bits .f32 = 32 ∨ (Rect.block (s := S128x16) S128x16.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x16.size a ≤ S1x16.size a
  hwx2_7 : ∀ i : grid2.Coords, EltTy.bits .f32 = 32 ∨ (Rect.block (s := S1x16) S1x16.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x16.size a ≤ S1x16.size a
  hwx2_8 : ∀ i : grid2.Coords, EltTy.bits .f32 = 32 ∨ (Rect.block (s := S1x16) S1x16.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x16.size a ≤ S1x16.size a
  hwx2_9 : ∀ i : grid2.Coords, EltTy.bits .f32 = 32 ∨ (Rect.block (s := S1x16) S1x16.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S2000x16.size a ≤ S320000x16.size a
  hwx2_10 : ∀ i : grid2.Coords, EltTy.bits .f32 = 32 ∨ (Rect.block (s := S320000x16) S2000x16.size (cc2_transform_10 i) (hinb2_10 i)).WholeWords (EltTy.packing .f32)

variable [Facts₀]

abbrev cc1_scratch0 : DmaSems sig S_ := SemArray.consecutive 6 S_ hcc1_scratch0
abbrev cc1_scratch1 : DmaSems sig S_ := SemArray.consecutive 7 S_ hcc1_scratch1
abbrev cc1_scoped1 : DmaSems sig S2 := SemArray.consecutive 8 S2 hcc1_scoped1
abbrev cc1_scoped3 : DmaSems sig S2 := SemArray.consecutive 10 S2 hcc1_scoped3
abbrev cc1_scoped5 : DmaSems sig S2 := SemArray.consecutive 12 S2 hcc1_scoped5
abbrev cc1_scoped7 : DmaSems sig S2 := SemArray.consecutive 14 S2 hcc1_scoped7
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S2000x16_S16x128_S2000x128_1_0_0_1_n_n : DotDims S2000x16 S16x128 S2000x128 where
  lhsContracting := [1]
  rhsContracting := [0]
  lhsNonContracting := [0]
  rhsNonContracting := [1]
  lhsBatch := []
  rhsBatch := []
  wf := dot_S2000x16_S16x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x16_S2000x16_1_0_0_1_n_n : DotDims S2000x128 S128x16 S2000x16 where
  lhsContracting := [1]
  rhsContracting := [0]
  lhsNonContracting := [0]
  rhsNonContracting := [1]
  lhsBatch := []
  rhsBatch := []
  wf := dot_S2000x128_S128x16_S2000x16_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_v0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v3) false false (stage0_3 0) (sem0_3 0) (Memref.isWhole_whole _) (hstage0_3 0)

abbrev win0_4 : Pipeline.Window sig grid0 :=
  Pipeline.Window.whole (Memref.whole main_v4_0) true false (stage0_4 0) (sem0_4 0) (Memref.isWhole_whole _) (hstage0_4 0)

abbrev win0_5 : Pipeline.Window sig grid0 :=
  Pipeline.Window.whole (Memref.whole main_v4_1) true false (stage0_5 0) (sem0_5 0) (Memref.isWhole_whole _) (hstage0_5 0)

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win2_0 : Pipeline.Window sig grid2 :=
  Pipeline.Window.ofSpec (Memref.whole main_v14_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14_1) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S2000x16.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S16x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S128x16.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1x16.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S1x16.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v18) S1x16.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v19) S2000x16.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S320000x16 : Shape := ⟨2, ![320000, 16]⟩
abbrev S10000x128 : Shape := ⟨2, ![10000, 128]⟩
abbrev S2x320000 : Shape := ⟨2, ![2, 320000]⟩
abbrev S272x128 : Shape := ⟨2, ![272, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S1 : Shape := ⟨1, ![1]⟩
abbrev S1x1 : Shape := ⟨2, ![1, 1]⟩
abbrev S320000x128 : Shape := ⟨2, ![320000, 128]⟩
abbrev S320000x272 : Shape := ⟨2, ![320000, 272]⟩
abbrev S1x128 : Shape := ⟨2, ![1, 128]⟩
abbrev S1x16 : Shape := ⟨2, ![1, 16]⟩

abbrev nBuf : Space → Nat
  | .hbm => 110
  | .vmem => 0
  | .smem => 0
  | _ => 0

abbrev bufTy : (tb : Table) → Fin (tcTables nBuf tb) → BufTy
  | .hbm, ⟨0, _⟩ => ⟨S320000x16, .f32⟩
  | .hbm, ⟨1, _⟩ => ⟨S10000x128, .f32⟩
  | .hbm, ⟨2, _⟩ => ⟨S2x320000, .i32⟩
  | .hbm, ⟨3, _⟩ => ⟨S272x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S16, .f32⟩
  | .hbm, ⟨10, _⟩ => ⟨S16, .f32⟩
  | .hbm, ⟨11, _⟩ => ⟨S1x320000, .i32⟩
  | .hbm, ⟨12, _⟩ => ⟨S320000, .i32⟩
  | .hbm, ⟨13, _⟩ => ⟨S_, .i32⟩
  | .hbm, ⟨14, _⟩ => ⟨S320000, .i32⟩
  | .hbm, ⟨15, _⟩ => ⟨S320000, .i1⟩
  | .hbm, ⟨16, _⟩ => ⟨S_, .i32⟩
  | .hbm, ⟨17, _⟩ => ⟨S320000, .i32⟩
  | .hbm, ⟨18, _⟩ => ⟨S320000, .i32⟩
  | .hbm, ⟨19, _⟩ => ⟨S320000, .i32⟩
  | .hbm, ⟨20, _⟩ => ⟨S320000x1, .i32⟩
  | .hbm, ⟨21, _⟩ => ⟨S1, .i32⟩
  | .hbm, ⟨22, _⟩ => ⟨S_, .i32⟩
  | .hbm, ⟨23, _⟩ => ⟨S320000x1, .i32⟩
  | .hbm, ⟨24, _⟩ => ⟨S320000x1, .i1⟩
  | .hbm, ⟨25, _⟩ => ⟨S1x1, .i32⟩
  | .hbm, ⟨26, _⟩ => ⟨S320000x1, .i32⟩
  | .hbm, ⟨27, _⟩ => ⟨S320000x1, .i1⟩
  | .hbm, ⟨28, _⟩ => ⟨S320000x1, .i1⟩
  | .hbm, ⟨29, _⟩ => ⟨S_, .i1⟩
  | .hbm, ⟨30, _⟩ => ⟨S320000, .i1⟩
  | .hbm, ⟨31, _⟩ => ⟨S320000x128, .f32⟩
  | .hbm, ⟨32, _⟩ => ⟨S320000x128, .i1⟩
  | .hbm, ⟨33, _⟩ => ⟨S_, .f32⟩
  | .hbm, ⟨34, _⟩ => ⟨S320000x128, .f32⟩
  | .hbm, ⟨35, _⟩ => ⟨S320000x128, .f32⟩
  | .hbm, ⟨36, _⟩ => ⟨S1x320000, .i32⟩
  | .hbm, ⟨37, _⟩ => ⟨S320000, .i32⟩
  | .hbm, ⟨38, _⟩ => ⟨S_, .i32⟩
  | .hbm, ⟨39, _⟩ => ⟨S320000, .i32⟩
  | .hbm, ⟨40, _⟩ => ⟨S320000, .i1⟩
  | .hbm, ⟨41, _⟩ => ⟨S_, .i32⟩
  | .hbm, ⟨42, _⟩ => ⟨S320000, .i32⟩
  | .hbm, ⟨43, _⟩ => ⟨S320000, .i32⟩
  | .hbm, ⟨44, _⟩ => ⟨S320000, .i32⟩
  | .hbm, ⟨45, _⟩ => ⟨S320000x1, .i32⟩
  | .hbm, ⟨46, _⟩ => ⟨S1, .i32⟩
  | .hbm, ⟨47, _⟩ => ⟨S_, .i32⟩
  | .hbm, ⟨48, _⟩ => ⟨S320000x1, .i32⟩
  | .hbm, ⟨49, _⟩ => ⟨S320000x1, .i1⟩
  | .hbm, ⟨50, _⟩ => ⟨S1x1, .i32⟩
  | .hbm, ⟨51, _⟩ => ⟨S320000x1, .i32⟩
  | .hbm, ⟨52, _⟩ => ⟨S320000x1, .i1⟩
  | .hbm, ⟨53, _⟩ => ⟨S320000x1, .i1⟩
  | .hbm, ⟨54, _⟩ => ⟨S_, .i1⟩
  | .hbm, ⟨55, _⟩ => ⟨S320000, .i1⟩
  | .hbm, ⟨56, _⟩ => ⟨S320000x128, .f32⟩
  | .hbm, ⟨57, _⟩ => ⟨S320000x128, .i1⟩
  | .hbm, ⟨58, _⟩ => ⟨S_, .f32⟩
  | .hbm, ⟨59, _⟩ => ⟨S320000x128, .f32⟩
  | .hbm, ⟨60, _⟩ => ⟨S320000x128, .f32⟩
  | .hbm, ⟨61, _⟩ => ⟨S320000x272, .f32⟩
  | .hbm, ⟨62, _⟩ => ⟨S320000x128, .f32⟩
  | .hbm, ⟨63, _⟩ => ⟨S1x128, .f32⟩
  | .hbm, ⟨64, _⟩ => ⟨S320000x128, .f32⟩
  | .hbm, ⟨65, _⟩ => ⟨S320000x128, .f32⟩
  | .hbm, ⟨66, _⟩ => ⟨S_, .f32⟩
  | .hbm, ⟨67, _⟩ => ⟨S320000x128, .f32⟩
  | .hbm, ⟨68, _⟩ => ⟨S320000x128, .f32⟩
  | .hbm, ⟨69, _⟩ => ⟨S320000x128, .f32⟩
  | .hbm, ⟨70, _⟩ => ⟨S1x128, .f32⟩
  | .hbm, ⟨71, _⟩ => ⟨S320000x128, .f32⟩
  | .hbm, ⟨72, _⟩ => ⟨S320000x128, .f32⟩
  | .hbm, ⟨73, _⟩ => ⟨S_, .f32⟩
  | .hbm, ⟨74, _⟩ => ⟨S320000x128, .f32⟩
  | .hbm, ⟨75, _⟩ => ⟨S320000x128, .f32⟩
  | .hbm, ⟨76, _⟩ => ⟨S320000x16, .f32⟩
  | .hbm, ⟨77, _⟩ => ⟨S1x16, .f32⟩
  | .hbm, ⟨78, _⟩ => ⟨S320000x16, .f32⟩
  | .hbm, ⟨79, _⟩ => ⟨S320000x16, .f32⟩
  | .hbm, ⟨80, _⟩ => ⟨S_, .f32⟩
  | .hbm, ⟨81, _⟩ => ⟨S320000, .f32⟩
  | .hbm, ⟨82, _⟩ => ⟨S320000x1, .f32⟩
  | .hbm, ⟨83, _⟩ => ⟨S_, .f32⟩
  | .hbm, ⟨84, _⟩ => ⟨S320000x1, .f32⟩
  | .hbm, ⟨85, _⟩ => ⟨S320000x1, .f32⟩
  | .hbm, ⟨86, _⟩ => ⟨S320000x16, .f32⟩
  | .hbm, ⟨87, _⟩ => ⟨S320000x16, .f32⟩
  | .hbm, ⟨88, _⟩ => ⟨S320000x16, .f32⟩
  | .hbm, ⟨89, _⟩ => ⟨S_, .f32⟩
  | .hbm, ⟨90, _⟩ => ⟨S320000, .f32⟩
  | .hbm, ⟨91, _⟩ => ⟨S320000x1, .f32⟩
  | .hbm, ⟨92, _⟩ => ⟨S_, .f32⟩
  | .hbm, ⟨93, _⟩ => ⟨S320000x1, .f32⟩
  | .hbm, ⟨94, _⟩ => ⟨S320000x1, .f32⟩
  | .hbm, ⟨95, _⟩ => ⟨S320000x16, .f32⟩
  | .hbm, ⟨96, _⟩ => ⟨S320000x16, .f32⟩
  | .hbm, ⟨97, _⟩ => ⟨S_, .f32⟩
  | .hbm, ⟨98, _⟩ => ⟨S320000x1, .f32⟩
  | .hbm, ⟨99, _⟩ => ⟨S320000x1, .f32⟩
  | .hbm, ⟨100, _⟩ => ⟨S320000x1, .f32⟩
  | .hbm, ⟨101, _⟩ => ⟨S320000x16, .f32⟩
  | .hbm, ⟨102, _⟩ => ⟨S320000x16, .f32⟩
  | .hbm, ⟨103, _⟩ => ⟨S1x16, .f32⟩
  | .hbm, ⟨104, _⟩ => ⟨S320000x16, .f32⟩
  | .hbm, ⟨105, _⟩ => ⟨S320000x16, .f32⟩
  | .hbm, ⟨106, _⟩ => ⟨S1x16, .f32⟩
  | .hbm, ⟨107, _⟩ => ⟨S320000x16, .f32⟩
  | .hbm, ⟨108, _⟩ => ⟨S320000x16, .f32⟩
  | .hbm, ⟨109, _⟩ => ⟨S320000x16, .f32⟩
  | _, _ => ⟨S320000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_call0_c : Ref sig .tc := ⟨.hbm, 13, rfl⟩
abbrev main_call0_v0 : Ref sig .tc := ⟨.hbm, 14, rfl⟩
abbrev main_call0_v1 : Ref sig .tc := ⟨.hbm, 15, rfl⟩
abbrev main_call0_c_0 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_c_1 : Ref sig .tc := ⟨.hbm, 21, rfl⟩
abbrev main_call0_c_2 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_3 : Ref sig .tc := ⟨.hbm, 29, rfl⟩
abbrev main_call0_v12 : Ref sig .tc := ⟨.hbm, 30, rfl⟩
abbrev main_call0_v13 : Ref sig .tc := ⟨.hbm, 31, rfl⟩
abbrev main_call0_v14 : Ref sig .tc := ⟨.hbm, 32, rfl⟩
abbrev main_call0_cst : Ref sig .tc := ⟨.hbm, 33, rfl⟩
abbrev main_call0_v15 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_call1_c : Ref sig .tc := ⟨.hbm, 38, rfl⟩
abbrev main_call1_v0 : Ref sig .tc := ⟨.hbm, 39, rfl⟩
abbrev main_call1_v1 : Ref sig .tc := ⟨.hbm, 40, rfl⟩
abbrev main_call1_c_0 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_c_1 : Ref sig .tc := ⟨.hbm, 46, rfl⟩
abbrev main_call1_c_2 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_call1_c_3 : Ref sig .tc := ⟨.hbm, 54, rfl⟩
abbrev main_call1_v12 : Ref sig .tc := ⟨.hbm, 55, rfl⟩
abbrev main_call1_v13 : Ref sig .tc := ⟨.hbm, 56, rfl⟩
abbrev main_call1_v14 : Ref sig .tc := ⟨.hbm, 57, rfl⟩
abbrev main_call1_cst : Ref sig .tc := ⟨.hbm, 58, rfl⟩
abbrev main_call1_v15 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_call2_cst : Ref sig .tc := ⟨.hbm, 66, rfl⟩
abbrev main_call2_v0 : Ref sig .tc := ⟨.hbm, 67, rfl⟩
abbrev main_v11 : Ref sig .tc := ⟨.hbm, 68, rfl⟩
abbrev main_v12 : Ref sig .tc := ⟨.hbm, 69, rfl⟩
abbrev main_v13 : Ref sig .tc := ⟨.hbm, 70, rfl⟩
abbrev main_v14 : Ref sig .tc := ⟨.hbm, 71, rfl⟩
abbrev main_v15 : Ref sig .tc := ⟨.hbm, 72, rfl⟩
abbrev main_call3_cst : Ref sig .tc := ⟨.hbm, 73, rfl⟩
abbrev main_call3_v0 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_v19 : Ref sig .tc := ⟨.hbm, 78, rfl⟩
abbrev main_v20 : Ref sig .tc := ⟨.hbm, 79, rfl⟩
abbrev main_cst : Ref sig .tc := ⟨.hbm, 80, rfl⟩
abbrev main_v21 : Ref sig .tc := ⟨.hbm, 81, rfl⟩
abbrev main_v22 : Ref sig .tc := ⟨.hbm, 82, rfl⟩
abbrev main_cst_0 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_1 : Ref sig .tc := ⟨.hbm, 89, rfl⟩
abbrev main_v28 : Ref sig .tc := ⟨.hbm, 90, rfl⟩
abbrev main_v29 : Ref sig .tc := ⟨.hbm, 91, rfl⟩
abbrev main_cst_2 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_cst_3 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  bcast_S_S320000 : S_.BroadcastsInDim S320000 (![] : Fin 0 → Fin S320000.rank)
  bcast_S320000_S320000x1_0 : S320000.BroadcastsInDim S320000x1 (![0] : Fin 1 → Fin S320000x1.rank)
  bcast_S_S320000x1 : S_.BroadcastsInDim S320000x1 (![] : Fin 0 → Fin S320000x1.rank)
  bcast_S1_S1x1_1 : S1.BroadcastsInDim S1x1 (![1] : Fin 1 → Fin S1x1.rank)
  bcast_S1x1_S320000x1_0_1 : S1x1.BroadcastsInDim S320000x1 (![0, 1] : Fin 2 → Fin S320000x1.rank)
  reducesTo_S320000x1_S320000_d1 : S320000x1.ReducesTo [1] S320000
  h_S_ : 0 < S_.numel
  bcast_S320000_S320000x128_0 : S320000.BroadcastsInDim S320000x128 (![0] : Fin 1 → Fin S320000x128.rank)
  bcast_S_S320000x128 : S_.BroadcastsInDim S320000x128 (![] : Fin 0 → Fin S320000x128.rank)
  slices_S2x320000_S1x320000_1_0 : S2x320000.Slices ![1, 0] S1x320000
  concatenates_S320000x128_S320000x128_S320000x16_S320000x272_d1 : Shape.Concatenates [S320000x128, S320000x128, S320000x16] S320000x272 1
  bcast_S128_S1x128_1 : S128.BroadcastsInDim S1x128 (![1] : Fin 1 → Fin S1x128.rank)
  bcast_S1x128_S320000x128_0_1 : S1x128.BroadcastsInDim S320000x128 (![0, 1] : Fin 2 → Fin S320000x128.rank)
  bcast_S16_S1x16_1 : S16.BroadcastsInDim S1x16 (![1] : Fin 1 → Fin S1x16.rank)
  bcast_S1x16_S320000x16_0_1 : S1x16.BroadcastsInDim S320000x16 (![0, 1] : Fin 2 → Fin S320000x16.rank)
  reducesTo_S320000x16_S320000_d1 : S320000x16.ReducesTo [1] S320000
  bcast_S320000x1_S320000x16_0_1 : S320000x1.BroadcastsInDim S320000x16 (![0, 1] : Fin 2 → Fin S320000x16.rank)
  gather_S10000x128_S320000x1_S320000x128_1_0_n_n_0_1_1128_wf : GatherDims.WF S10000x128 S320000x1 S320000x128 [1] [0] [] [0] [] 1 ![1, 128]
  dot_S320000x272_S272x128_S320000x128_1_0_0_1_n_n_wf : DotDims.WF S320000x272 S272x128 S320000x128 [1] [0] [0] [1] [] []
  dot_S320000x128_S128x128_S320000x128_1_0_0_1_n_n_wf : DotDims.WF S320000x128 S128x128 S320000x128 [1] [0] [0] [1] [] []
  dot_S320000x128_S128x16_S320000x16_1_0_0_1_n_n_wf : DotDims.WF S320000x128 S128x16 S320000x16 [1] [0] [0] [1] [] []

variable [Facts₀]

def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x272_S272x128_S320000x128_1_0_0_1_n_n : DotDims S320000x272 S272x128 S320000x128 where
  lhsContracting := [1]
  rhsContracting := [0]
  lhsNonContracting := [0]
  rhsNonContracting := [1]
  lhsBatch := []
  rhsBatch := []
  wf := dot_S320000x272_S272x128_S320000x128_1_0_0_1_n_n_wf
def dot_S320000x128_S128x128_S320000x128_1_0_0_1_n_n : DotDims S320000x128 S128x128 S320000x128 where
  lhsContracting := [1]
  rhsContracting := [0]
  lhsNonContracting := [0]
  rhsNonContracting := [1]
  lhsBatch := []
  rhsBatch := []
  wf := dot_S320000x128_S128x128_S320000x128_1_0_0_1_n_n_wf
def dot_S320000x128_S128x16_S320000x16_1_0_0_1_n_n : DotDims S320000x128 S128x16 S320000x16 where
  lhsContracting := [1]
  rhsContracting := [0]
  lhsNonContracting := [0]
  rhsNonContracting := [1]
  lhsBatch := []
  rhsBatch := []
  wf := dot_S320000x128_S128x16_S320000x16_1_0_0_1_n_n_wf

class Facts : Prop extends Facts₀ where

variable [Facts]
-- ==== Proof.Common.lean ====
/-
  The setting shared by the frame and value proofs of the gather-MLP program, written once over the idealized program's
  names and generic in the float instance: the program as the SparseCore launch theorem sees it (two TensorCore
  pipelines beside one vector-subcore call), the ghost state (the launch handshakes' rounds, the pipelines' staging
  cells' rounds, and the transfer counters of the tasks' own copies, which need no schedule: every copy of a task is
  local and waited for by the task itself), and the arrays the SparseCore call exchanges with the TensorCore:
  the projected tables u and v (read by every task), the two index rows (read by every task), and the gathered
  rows s and t (each block of 128 rows written by exactly one task).
-/
import proofs.«210884_g88510686036700_cont_sun_m_1211_45_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«210884_g88510686036700_cont_sun_m_1211_45_alg».proof.Proof.Gen.KernelIdeal
import proofs.«210884_g88510686036700_cont_sun_m_1211_45_alg».proof.Proof.Gen.KernelIdeal.Skeleton
import proofs.«210884_g88510686036700_cont_sun_m_1211_45_alg».proof.Proof.Gen.KernelIdeal.Launch
import proofs.«210884_g88510686036700_cont_sun_m_1211_45_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshake rounds, staging-cell rounds, transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays of the SparseCore call -/

abbrev uLoc (d : Dev nD) : Loc nD τ sig := (SparseCore.T d).loc main_v4_0
abbrev vLoc (d : Dev nD) : Loc nD τ sig := (SparseCore.T d).loc main_v4_1
abbrev srcLoc (d : Dev nD) : Loc nD τ sig := (SparseCore.T d).loc main_v12
abbrev dstLoc (d : Dev nD) : Loc nD τ sig := (SparseCore.T d).loc main_v13
abbrev sLoc (d : Dev nD) : Loc nD τ sig := (SparseCore.T d).loc main_v14_0
abbrev tLoc (d : Dev nD) : Loc nD τ sig := (SparseCore.T d).loc main_v14_1

/-- The task number of vector subcore `i` of SparseCore `c`: subcores of core 0 first. -/
def taskNo (c : Fin 2) (i : Fin 16) : Fin 32 := ⟨i.val + 16 * c.val, by omega⟩
/-- How many blocks of 128 edges task `w` moves, and the first of them: 2500 blocks over 32 tasks, the first four tasks one more. -/
def nBlk (w : Fin 32) : ℕ := if w.val < 4 then 79 else 78
def blk0 (w : Fin 32) : ℕ := if w.val < 4 then 79 * w.val else 78 * w.val + 4
theorem blk_le (w : Fin 32) : blk0 w + nBlk w ≤ 2500 := by
  unfold blk0 nBlk; split <;> omega

end Cert.Proof.KI

end
-- ==== Proof.ScPay.lean ====
/-
  What the SparseCore call exchanges, per task. Every task reads the two projected tables and the two index rows whole
  (one read token each out of 32), and owns the rows of the two gathered arrays that its blocks cover: task w moves
  the blocks blk0 w … blk0 w + nBlk w - 1 of 128 rows, and these row ranges partition the 320000 rows.
-/
import proofs.«210884_g88510686036700_cont_sun_m_1211_45_alg».proof.Proof.Common

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The rows of a gathered array that task `w` writes: 128 rows per block, its blocks consecutive. -/
def rowsOf (w : Fin 32) : Finset S320000x128.Idx :=
  Finset.univ.filter fun ix => 128 * blk0 w ≤ (ix 0).val ∧ (ix 0).val < 128 * (blk0 w + nBlk w)

/-- Task `w`'s read token of an array every task reads. -/
abbrev tok (w : Fin 32) : PosShare TreeShare := Transfers.shareTok fullShare 32 w

section Res

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- What task `w` reads: a token of each table and of each index row, at the contents the call finds. -/
def readRes (d : Dev nD) (w : Fin 32) : sProp 𝕄 :=
  iprop((uLoc d ↦{tok w} cu d) ∗ (vLoc d ↦{tok w} cv d) ∗ (srcLoc d ↦{tok w} csrc d) ∗ (dstLoc d ↦{tok w} cdst d))

/-- What task `w` writes: its rows of the two gathered arrays, at some contents. -/
def writeRes (d : Dev nD) (w : Fin 32) : sProp 𝕄 :=
  iprop((∃ f, sLoc d ↦[rowsOf w]{fullShare} f) ∗ (∃ f, tLoc d ↦[rowsOf w]{fullShare} f))

def taskRes (d : Dev nD) (w : Fin 32) : sProp 𝕄 := iprop(readRes cu cv csrc cdst d w ∗ writeRes (F := F) d w)

end Res

end Cert.Proof.KI

end
-- ==== Proof.ScTileSt.lean ====
/-
  The statement of one task of the gather kernel in the launch theorem's own spelling: vector subcore `i` of
  SparseCore `c` of the call's grid, the kernel's program a variable equal to the printed function at that
  subcore's coordinates.
-/
import proofs.«210884_g88510686036700_cont_sun_m_1211_45_alg».proof.Proof.ScPay

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)

/-- The grid coordinates of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The task of subcore `i` of SparseCore `c` of the call's grid. -/
abbrev taskAt (c : Fin ((K (F := F)).nCore 0)) (i : Fin ((K (F := F)).nSub 0)) : Fin 32 := taskNo (Fin.cast nCore_zero c) (Fin.cast nSub_zero i)

section Body

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- The index rows name rows of the tables (10000 rows each). -/
def IdxOK : Prop := ∀ (d : Dev nD) (k : S1x320000.Idx), (csrc d k).toNat < 10000 ∧ (cdst d k).toNat < 10000

variable [FloatOps F]

/-- The task's statement: from its read tokens, its rows of the gathered arrays, its own scoped storage and what it owes,
    the kernel at its coordinates runs to its end and hands all of it back. -/
def TileStmt : Prop :=
  ∀ (_ : (K (F := F)).Facts) (_ : IdxOK csrc cdst) (d : Dev nD) (c : Fin ((K (F := F)).nCore 0)) (i : Fin ((K (F := F)).nSub 0))
    (hc : ((K (F := F)).core 0 c).val < grid1.bound 0 ∧ ((K (F := F)).sub 0 i).val < grid1.bound 1)
    (O : CellTallies nD τ sig (HIx 1)) (W : Waits sig (HIx 1)) (_ : ∀ g, O g none = 0)
    (prog : Prog (TpuEff nD τ sig (Elt F) Λ₀ (Proc.scVector (Fin.castLE hcore1 (coordsV ⟨_, hc.1⟩ ⟨_, hc.2⟩ 0)) (Fin.castLE hsub1 (coordsV ⟨_, hc.1⟩ ⟨_, hc.2⟩ 1)))) PUnit)
    (_ : cc1_gather_kernel (coordsV ⟨_, hc.1⟩ ⟨_, hc.2⟩) uW (Memref.isWhole_whole _) vW (Memref.isWhole_whole _) srcW (Memref.isWhole_whole _) dstW (Memref.isWhole_whole _)
            sW (Memref.isWhole_whole _) tW (Memref.isWhole_whole _) cc1_scratch0 cc1_scratch1 (Memref.whole cc1_scoped0) (Memref.isWhole_whole _) cc1_scoped1
            (Memref.whole cc1_scoped2) (Memref.isWhole_whole _) cc1_scoped3 (Memref.whole cc1_scoped4) (Memref.isWhole_whole _) cc1_scoped5
            (Memref.whole cc1_scoped6) (Memref.isWhole_whole _) cc1_scoped7 = prog),
    iprop(levAts (K (F := F)).L (K (F := F)).lev ∗ emp ∗ taskRes cu cv csrc cdst d (taskAt c i)
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ wp frame (wpE (defs₀ (F := F)) 𝒱₀ (V d ((K (F := F)).core 0 c) ((K (F := F)).sub 0 i)) none) Set.univ prog
          fun _ => iprop(taskRes cu cv csrc cdst d (taskAt c i) ∗ scopedBufs (V d ((K (F := F)).core 0 c) ((K (F := F)).sub 0 i))
            ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W')

end Body

end Cert.Proof.KI

end
-- ==== Proof.ScPayV.lean ====
/-
  What a task hands back, with values: each of its rows of the first gathered array is the row of the first table that
  the first index row names there, and likewise for the second pair.
-/
import proofs.«210884_g88510686036700_cont_sun_m_1211_45_alg».proof.Proof.ScPay
import Idealize.ShloMosaic.Lib.ValueIdx

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The table row an index word names (the word itself when it is below 10000). -/
def rowOfWord (w : BitVec 32) : Fin 10000 := ⟨w.toNat % 10000, Nat.mod_lt _ (by decide)⟩

theorem rowOfWord_val {w : BitVec 32} (h : w.toNat < 10000) : (rowOfWord w).val = w.toNat := Nat.mod_eq_of_lt h

section Res

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- Row `e` of `f` is the row of the first table named by entry `e` of the first index row. -/
def GathS (d : Dev nD) (f : Buf (Elt F) (sLoc d)) (e : Fin 320000) : Prop :=
  ∀ k : Fin 128, f (ix2 e k) = cu d (ix2 (rowOfWord (csrc d (ix2 (0 : Fin 1) e))) k)
def GathT (d : Dev nD) (f : Buf (Elt F) (tLoc d)) (e : Fin 320000) : Prop :=
  ∀ k : Fin 128, f (ix2 e k) = cv d (ix2 (rowOfWord (cdst d (ix2 (0 : Fin 1) e))) k)

/-- The rows (as numbers) task `w` writes. -/
def ownsRow (w : Fin 32) (e : Fin 320000) : Prop := 128 * blk0 w ≤ e.val ∧ e.val < 128 * (blk0 w + nBlk w)

/-- What task `w` hands back of the gathered arrays: its rows, gathered. -/
def writeResOut (d : Dev nD) (w : Fin 32) : sProp 𝕄 :=
  iprop((∃ f, ⌜∀ e, ownsRow w e → GathS cu csrc d f e⌝ ∗ sLoc d ↦[rowsOf w]{fullShare} f)
    ∗ (∃ f, ⌜∀ e, ownsRow w e → GathT cv cdst d f e⌝ ∗ tLoc d ↦[rowsOf w]{fullShare} f))

def taskResOut (d : Dev nD) (w : Fin 32) : sProp 𝕄 := iprop(readRes cu cv csrc cdst d w ∗ writeResOut cu cv csrc cdst d w)

theorem taskResOut_weaken (d : Dev nD) (w : Fin 32) : taskResOut cu cv csrc cdst d w ⊢ taskRes cu cv csrc cdst d w := by
  unfold taskResOut taskRes writeResOut writeRes
  iintro ⟨Hr, ⟨%fs, -, Hs⟩, ⟨%ft, -, Ht⟩⟩
  isplitl [Hr]; · iexact Hr
  isplitl [Hs]; · iexists fs; iexact Hs
  iexists ft; iexact Ht

end Res

end Cert.Proof.KI

end
-- ==== Proof.ScTileStV.lean ====
/-
  The statement of one task of the gather kernel with values: it hands back its rows of the two gathered arrays holding
  the table rows its index blocks name. The frame-only statement follows by forgetting the values.
-/
import proofs.«210884_g88510686036700_cont_sun_m_1211_45_alg».proof.Proof.ScTileSt
import proofs.«210884_g88510686036700_cont_sun_m_1211_45_alg».proof.Proof.ScPayV

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)

section Body

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

variable [FloatOps F]

/-- The task's statement: from its read tokens, its rows of the gathered arrays, its own scoped storage and what it owes,
    the kernel at its coordinates runs to its end and hands all of it back. -/
def TileStmtV : Prop :=
  ∀ (_ : (K (F := F)).Facts) (_ : IdxOK csrc cdst) (d : Dev nD) (c : Fin ((K (F := F)).nCore 0)) (i : Fin ((K (F := F)).nSub 0))
    (hc : ((K (F := F)).core 0 c).val < grid1.bound 0 ∧ ((K (F := F)).sub 0 i).val < grid1.bound 1)
    (O : CellTallies nD τ sig (HIx 1)) (W : Waits sig (HIx 1)) (_ : ∀ g, O g none = 0)
    (prog : Prog (TpuEff nD τ sig (Elt F) Λ₀ (Proc.scVector (Fin.castLE hcore1 (coordsV ⟨_, hc.1⟩ ⟨_, hc.2⟩ 0)) (Fin.castLE hsub1 (coordsV ⟨_, hc.1⟩ ⟨_, hc.2⟩ 1)))) PUnit)
    (_ : cc1_gather_kernel (coordsV ⟨_, hc.1⟩ ⟨_, hc.2⟩) uW (Memref.isWhole_whole _) vW (Memref.isWhole_whole _) srcW (Memref.isWhole_whole _) dstW (Memref.isWhole_whole _)
            sW (Memref.isWhole_whole _) tW (Memref.isWhole_whole _) cc1_scratch0 cc1_scratch1 (Memref.whole cc1_scoped0) (Memref.isWhole_whole _) cc1_scoped1
            (Memref.whole cc1_scoped2) (Memref.isWhole_whole _) cc1_scoped3 (Memref.whole cc1_scoped4) (Memref.isWhole_whole _) cc1_scoped5
            (Memref.whole cc1_scoped6) (Memref.isWhole_whole _) cc1_scoped7 = prog),
    iprop(levAts (K (F := F)).L (K (F := F)).lev ∗ emp ∗ taskRes cu cv csrc cdst d (taskAt c i)
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ wp frame (wpE (defs₀ (F := F)) 𝒱₀ (V d ((K (F := F)).core 0 c) ((K (F := F)).sub 0 i)) none) Set.univ prog
          fun _ => iprop(taskResOut cu cv csrc cdst d (taskAt c i) ∗ scopedBufs (V d ((K (F := F)).core 0 c) ((K (F := F)).sub 0 i))
            ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W')

/-- Forgetting the values, the task's statement for the frame. -/
theorem TileStmt_of_V (h : TileStmtV cu cv csrc cdst) : TileStmt cu cv csrc cdst := by
  intro hF hidx d c i hc O W hO prog hprog
  refine (h hF hidx d c i hc O W hO prog hprog).trans (wp_mono frame _ _ fun _ => ?_)
  iintro ⟨Ht, Hrest⟩
  isplitl [Ht]; · iapply (taskResOut_weaken cu cv csrc cdst d (taskAt c i)); iexact Ht
  iexact Hrest

end Body

end Cert.Proof.KI

end
-- ==== Proof.ScLaunch.lean ====
/-
  The launch of the gather-MLP program: what the SparseCore call hands each task and takes back, the task obligation
  from the task body, the (trivial) split of a SparseCore's share among its sixteen tasks, and the program's run.
-/
import proofs.«210884_g88510686036700_cont_sun_m_1211_45_alg».proof.Proof.ScTileStV

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)

section Launch

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- The one call hands SparseCore `c` its sixteen tasks' shares and takes them back; a task gets its own. -/
def P : (K (F := F)).Pay (nD := nD) (Val := Elt F) (Name := ℕ) (U := UU) where
  st := fun q d c => match q with | 0 => bigSep Finset.univ fun i : Fin ((K (F := F)).nSub 0) => taskRes cu cv csrc cdst d (taskAt c i)
  dn := fun q d c => match q with | 0 => bigSep Finset.univ fun i : Fin ((K (F := F)).nSub 0) => taskResOut cu cv csrc cdst d (taskAt c i)
  go := fun q d c i => match q with | 0 => taskRes cu cv csrc cdst d (taskAt c i)
  td := fun q d c i => match q with | 0 => taskResOut cu cv csrc cdst d (taskAt c i)
  x := fun _ _ => iprop(emp)

instance taskRes_storable (d : Dev nD) (w : Fin 32) : BI.Storable (upEmb : UEmb _ 𝕄) (taskRes cu cv csrc cdst d w) := by
  unfold taskRes readRes writeRes; infer_instance

instance taskResOut_storable (d : Dev nD) (w : Fin 32) : BI.Storable (upEmb : UEmb _ 𝕄) (taskResOut cu cv csrc cdst d w) := by
  unfold taskResOut readRes writeResOut; infer_instance

instance P_storable : (P cu cv csrc cdst).IsStorable where
  st q d c := match q with
    | 0 => (inferInstance : BI.Storable (upEmb : UEmb _ 𝕄) (bigSep Finset.univ fun i : Fin ((K (F := F)).nSub 0) => taskRes cu cv csrc cdst d (taskAt c i)))
  dn q d c := match q with
    | 0 => (inferInstance : BI.Storable (upEmb : UEmb _ 𝕄) (bigSep Finset.univ fun i : Fin ((K (F := F)).nSub 0) => taskResOut cu cv csrc cdst d (taskAt c i)))
  go q d c i := match q with
    | 0 => (inferInstance : BI.Storable (upEmb : UEmb _ 𝕄) (taskRes cu cv csrc cdst d (taskAt c i)))
  td q d c i := match q with
    | 0 => (inferInstance : BI.Storable (upEmb : UEmb _ 𝕄) (taskResOut cu cv csrc cdst d (taskAt c i)))

variable [FloatOps F]

/-! ## The task obligation -/

theorem defs₀_vector (c : Fin τ.nSC) (s : Fin τ.nSub) :
    defs₀ (F := F) (.scVector c s) 1 ()
      = SparseCore.onTile hcore1 hsub1 (fun c s => cc1_gather_kernel (coordsV c s)
          uW (Memref.isWhole_whole _) vW (Memref.isWhole_whole _) srcW (Memref.isWhole_whole _) dstW (Memref.isWhole_whole _)
          sW (Memref.isWhole_whole _) tW (Memref.isWhole_whole _) cc1_scratch0 cc1_scratch1 (Memref.whole cc1_scoped0) (Memref.isWhole_whole _) cc1_scoped1
          (Memref.whole cc1_scoped2) (Memref.isWhole_whole _) cc1_scoped3 (Memref.whole cc1_scoped4) (Memref.isWhole_whole _) cc1_scoped5
          (Memref.whole cc1_scoped6) (Memref.isWhole_whole _) cc1_scoped7) ⟨⟩ c s := rfl

set_option maxHeartbeats 400000 in
theorem tileObl (hT : TileStmtV cu cv csrc cdst) (hF : (K (F := F)).Facts) (hidx : IdxOK csrc cdst) : (K (F := F)).TileObl (D (F := F)) 𝒱 (P cu cv csrc cdst) v₀ 0 := by
  intro d c i O W hO _ _
  simp only [show (P cu cv csrc cdst).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hgo : (P cu cv csrc cdst).go 0 d c i = taskRes cu cv csrc cdst d (taskAt c i) := rfl
  have htd : (P cu cv csrc cdst).td 0 d c i = taskResOut cu cv csrc cdst d (taskAt c i) := rfl
  have hx : (P cu cv csrc cdst).x 0 (V d ((K (F := F)).core 0 c) ((K (F := F)).sub 0 i)) = iprop(emp) := rfl
  rw [hgo, htd, hx]
  generalize hprog : cc1_gather_kernel (coordsV ⟨_, hc.1⟩ ⟨_, hc.2⟩) uW (Memref.isWhole_whole _) vW (Memref.isWhole_whole _) srcW (Memref.isWhole_whole _) dstW (Memref.isWhole_whole _)
            sW (Memref.isWhole_whole _) tW (Memref.isWhole_whole _) cc1_scratch0 cc1_scratch1 (Memref.whole cc1_scoped0) (Memref.isWhole_whole _) cc1_scoped1
            (Memref.whole cc1_scoped2) (Memref.isWhole_whole _) cc1_scoped3 (Memref.whole cc1_scoped4) (Memref.isWhole_whole _) cc1_scoped5
            (Memref.whole cc1_scoped6) (Memref.isWhole_whole _) cc1_scoped7 = prog
  exact hT hF hidx d c i hc O W hO prog hprog

/-! ## A SparseCore's share is its tasks' shares -/

omit [FloatOps F] in
theorem vecSplit : (K (F := F)).VecSplit' (P cu cv csrc cdst) 0 := by
  intro d c
  show (bigSep Finset.univ fun i : Fin ((K (F := F)).nSub 0) => taskRes cu cv csrc cdst d (taskAt c i)) ⊢ |={Set.univ}=> iprop(
      (bigSep Finset.univ fun i : Fin ((K (F := F)).nSub 0) => taskRes cu cv csrc cdst d (taskAt c i))
      ∗ ((bigSep Finset.univ fun i : Fin ((K (F := F)).nSub 0) => taskResOut cu cv csrc cdst d (taskAt c i))
          -∗ (bigSep Finset.univ fun i : Fin ((K (F := F)).nSub 0) => taskResOut cu cv csrc cdst d (taskAt c i))))
  iintro H; imodintro
  isplitl [H]; · iexact H
  iintro H; iexact H

end Launch

end Cert.Proof.KI

end
-- ==== Proof.TcBody0.lean ====
import proofs.«210884_g88510686036700_cont_sun_m_1211_45_alg».proof.Proof.Gen.KernelIdeal.Launch
import proofs.«210884_g88510686036700_cont_sun_m_1211_45_alg».proof.Proof.Gen.KernelIdeal.Skeleton
import proofs.«210884_g88510686036700_cont_sun_m_1211_45_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

/-! ## The projection kernel: the whole-block rectangles its loads and stores go through -/

abbrev rA : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The first result block after the body: the one store, the product of the node block with the first weight
    block, as the canonical contents of a covering list of writes. -/
def out0_4 (x0 : Vec F S10000x128 .f32) (x1 : Vec F S128x128 .f32) : Vec F S10000x128 .f32 :=
  View.canon [⟨rA, k0_pay1 (View.ld x0 rA) (View.ld x1 rW)⟩]

/-- The second result block after the body: the product with the second weight block plus the broadcast bias. -/
def out0_5 (x0 : Vec F S10000x128 .f32) (x2 : Vec F S128x128 .f32) (x3 : Vec F S1x128 .f32) : Vec F S10000x128 .f32 :=
  View.canon [⟨rA, k0_pay2 (View.ld x0 rA) (View.ld x2 rW) (View.ld x3 rB)⟩]

/-- A single whole-block store covers the block. -/
theorem cover0 (p0 : Vec F S10000x128 .f32) (y : S10000x128.Idx) :
    ∃ pc ∈ ([⟨rA, p0⟩] : List (View.Piece (Elt F) S10000x128 .f32)), y ∈ pc.1.set :=
  View.cover_of_tiled [⟨rA, p0⟩] S10000x128.size (by rfl) y

set_option maxHeartbeats 1000000 in
/-- The projection body on whole staging memrefs, the four inputs' at read contents `xW` and the two outputs' at
    anything, runs without fault to the continuation holding the inputs' as they were and the outputs' at
    `out0_4`, `out0_5` of the inputs'. -/
theorem sound_kernel0 (𝒱₀ : Variants) (c : Dev nD) (E : Set Name)
    (arg0 : Memref sig .tc .vmem S10000x128 .f32) (harg0 : arg0.IsWhole) (arg1 : Memref sig .tc .vmem S128x128 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S10000x128 .f32) (harg4 : arg4.IsWhole) (arg5 : Memref sig .tc .vmem S10000x128 .f32) (harg5 : arg5.IsWhole)
    (x0 : Vec F S10000x128 .f32) (x1 : Vec F S128x128 .f32) (x2 : Vec F S128x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1)
            ∗ owns (c : Thread nD τ) arg5 fullShare (out0_5 x0 x2 x3)) -∗ K ⟨⟩))
      ⊢ wp frame (wpE (defs₀ (F := F)) 𝒱₀ c none) E (cc0__project_body arg0 harg0 arg1 harg1 arg2 harg2 arg3 harg3 arg4 harg4 arg5 harg5) K := by
  simp only [cc0__project_body_eq_skeleton]; unfold cc0__project_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

end Cert.KernelIdeal.TcBody

end
-- ==== Proof.TcBody2.lean ====
import proofs.«210884_g88510686036700_cont_sun_m_1211_45_alg».proof.Proof.Gen.KernelIdeal.Launch
import proofs.«210884_g88510686036700_cont_sun_m_1211_45_alg».proof.Proof.Gen.KernelIdeal.Skeleton
import proofs.«210884_g88510686036700_cont_sun_m_1211_45_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

/-! ## The MLP kernel: the whole-block rectangles its loads and its store go through -/

abbrev rS : Rect S2000x128 := Rect.unit (s := S2000x128) ![0, 0] S2000x128.size inb_S2000x128_S2000x128_0_0
abbrev rE : Rect S2000x16 := Rect.unit (s := S2000x16) ![0, 0] S2000x16.size inb_S2000x16_S2000x16_0_0
abbrev rW1 : Rect S16x128 := Rect.unit (s := S16x128) ![0, 0] S16x128.size inb_S16x128_S16x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0
abbrev rW3 : Rect S128x16 := Rect.unit (s := S128x16) ![0, 0] S128x16.size inb_S128x16_S128x16_0_0
abbrev rV : Rect S1x16 := Rect.unit (s := S1x16) ![0, 0] S1x16.size inb_S1x16_S1x16_0_0

/-- The value the body stores, from the ten input blocks (gathered source rows, gathered destination rows, edge
    features, the third weight slice, the second and third layers' weights and biases, the layer norm's scale and
    shift): the residual sum of the edge features and the normalised, scaled and shifted third-layer output. -/
def pay2 (x0 x1 : Vec F S2000x128 .f32) (x2 : Vec F S2000x16 .f32) (x3 : Vec F S16x128 .f32) (x4 : Vec F S128x128 .f32)
    (x5 : Vec F S1x128 .f32) (x6 : Vec F S128x16 .f32) (x7 x8 x9 : Vec F S1x16 .f32) : Vec F S2000x16 .f32 :=
  k2_pay1 (k2_pay2 (View.ld x2 rE))
    (k2_pay3 (View.ld x2 rE) (View.ld x0 rS) (View.ld x1 rS) (View.ld x3 rW1) (View.ld x4 rW2) (View.ld x5 rB2) (View.ld x6 rW3) (View.ld x7 rV))
    (k2_pay4 (View.ld x2 rE) (View.ld x0 rS) (View.ld x1 rS) (View.ld x3 rW1) (View.ld x4 rW2) (View.ld x5 rB2) (View.ld x6 rW3) (View.ld x7 rV))
    (k2_pay5 (View.ld x2 rE) (View.ld x0 rS) (View.ld x1 rS) (View.ld x3 rW1) (View.ld x4 rW2) (View.ld x5 rB2) (View.ld x6 rW3) (View.ld x7 rV))
    (View.ld x8 rV) (View.ld x9 rV)

/-- The result block after the body: the one whole-block store, as the canonical contents of a covering write. -/
def out2_10 (x0 x1 : Vec F S2000x128 .f32) (x2 : Vec F S2000x16 .f32) (x3 : Vec F S16x128 .f32) (x4 : Vec F S128x128 .f32)
    (x5 : Vec F S1x128 .f32) (x6 : Vec F S128x16 .f32) (x7 x8 x9 : Vec F S1x16 .f32) : Vec F S2000x16 .f32 :=
  View.canon [⟨rE, pay2 x0 x1 x2 x3 x4 x5 x6 x7 x8 x9⟩]

/-- A single whole-block store covers the block. -/
theorem cover2 (p0 : Vec F S2000x16 .f32) (y : S2000x16.Idx) :
    ∃ pc ∈ ([⟨rE, p0⟩] : List (View.Piece (Elt F) S2000x16 .f32)), y ∈ pc.1.set :=
  View.cover_of_tiled [⟨rE, p0⟩] S2000x16.size (by rfl) y

set_option maxHeartbeats 2000000 in
/-- The MLP body at any grid coordinates on whole staging memrefs, the ten inputs' at read contents `xW` and the
    output's at anything, runs without fault to the continuation holding the inputs' as they were and the output's
    at `out2_10` of the inputs'. -/
theorem sound_kernel2 (𝒱₀ : Variants) (c : Dev nD) (E : Set Name) (i : grid2.Coords)
    (arg1 : Memref sig .tc .vmem S2000x128 .f32) (harg1 : arg1.IsWhole) (arg2 : Memref sig .tc .vmem S2000x128 .f32) (harg2 : arg2.IsWhole) (arg3 : Memref sig .tc .vmem S2000x16 .f32) (harg3 : arg3.IsWhole) (arg4 : Memref sig .tc .vmem S16x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S2000x16 .f32) (harg11 : arg11.IsWhole)
    (x0 : Vec F S2000x128 .f32) (x1 : Vec F S2000x128 .f32) (x2 : Vec F S2000x16 .f32) (x3 : Vec F S16x128 .f32) (x4 : Vec F S128x128 .f32) (x5 : Vec F S1x128 .f32) (x6 : Vec F S128x16 .f32) (x7 : Vec F S1x16 .f32) (x8 : Vec F S1x16 .f32) (x9 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out2_10 x0 x1 x2 x3 x4 x5 x6 x7 x8 x9)) -∗ K ⟨⟩))
      ⊢ wp frame (wpE (defs₀ (F := F)) 𝒱₀ c none) E (cc2__mlp_body i arg1 harg1 arg2 harg2 arg3 harg3 arg4 harg4 arg5 harg5 arg6 harg6 arg7 harg7 arg8 harg8 arg9 harg9 arg10 harg10 arg11 harg11) K := by
  simp only [cc2__mlp_body_eq_skeleton]; unfold cc2__mlp_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2 _)

end Cert.KernelIdeal.TcBody

end
-- ==== Proof.TcDats.lean ====
import proofs.«210884_g88510686036700_cont_sun_m_1211_45_alg».proof.Proof.TcBody0
import proofs.«210884_g88510686036700_cont_sun_m_1211_45_alg».proof.Proof.TcBody2

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

/-- The regions' invariant on core `c`, at any algebra and index types: the core's scoped buffers that are no staging
    buffer of the pipeline, at some contents each, and its generator register at some state — what these bodies
    neither use nor describe. -/
def ΦTc {gr : Nat} {W : Nat} (win : Fin W → Pipeline.WinSpec sig gr) (c : Dev nD) : sProp 𝕄 :=
  iprop(Pipeline.scopedRest (Ix := Ix) (Name := Name) (U := U) (Lvl := Lvl) (Val := Elt F) win c ∗ ∃ r, prngReg c r)

section Regions
-- the TensorCore's buffer contents when a region is entered, the tallies the core owes all through it and the bound
-- on its recorded pairs: the parameters each region's half is stated at
variable (V : (c : Dev nD) → (b : Ref sig .tc) → Buf (Elt F) ((c : Thread nD τ).loc b)) (O : Dev nD → CellTallies nD τ sig Ix) (Rc : Dev nD → Set (SemLoc sig × Ix))

/-! # The region of pipeline `cfg0`, at the contents `V` its arrays hold when it is entered -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Ix Name U Lvl cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Ix Name U Lvl cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Ix Name U Lvl cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Ix Name U Lvl cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline `cfg0` on core `c`: the arrays as the region finds them; after the body at point
    `t` each input's buffer at its block and each output's at the body's result on the input blocks; the invariant
    the scoped rest and the generator register, untouched; the core owing the same tallies `O c` throughout, its recorded
    pairs within `Rc c`; full shares. -/
def dat0 (c : Dev nD) : Dat τ (Elt F) Ix Name U Lvl cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t) (iblk0 V c 3 t)
  Φ _ := ΦTc spec0 c
  q _ := fullShare
  owed _ := O c
  recorded _ := Rc c

/-- The proof data's arrays are the region-entry contents. -/
theorem A_eq0 (c : Dev nD) (w : Fin cfg0.W) : (dat0 (Ix := Ix) (Name := Name) (U := U) (Lvl := Lvl) V O Rc c).A w = V c (Pipeline.arrRef spec0 w) := by
  dsimp only [dat0]

/-- What the body leaves, window by window. -/
theorem after0_0 (c : Dev nD) (t : Fin cfg0.N) : (dat0 (Ix := Ix) (Name := Name) (U := U) (Lvl := Lvl) V O Rc c).after 0 t = iblk0 V c 0 t := by dsimp only [dat0]
theorem after0_1 (c : Dev nD) (t : Fin cfg0.N) : (dat0 (Ix := Ix) (Name := Name) (U := U) (Lvl := Lvl) V O Rc c).after 1 t = iblk0 V c 1 t := by dsimp only [dat0]
theorem after0_2 (c : Dev nD) (t : Fin cfg0.N) : (dat0 (Ix := Ix) (Name := Name) (U := U) (Lvl := Lvl) V O Rc c).after 2 t = iblk0 V c 2 t := by dsimp only [dat0]
theorem after0_3 (c : Dev nD) (t : Fin cfg0.N) : (dat0 (Ix := Ix) (Name := Name) (U := U) (Lvl := Lvl) V O Rc c).after 3 t = iblk0 V c 3 t := by dsimp only [dat0]
theorem after0_4 (c : Dev nD) (t : Fin cfg0.N) : (dat0 (Ix := Ix) (Name := Name) (U := U) (Lvl := Lvl) V O Rc c).after 4 t = out0_4 (iblk0 V c 0 t) (iblk0 V c 1 t) := by dsimp only [dat0]
theorem after0_5 (c : Dev nD) (t : Fin cfg0.N) : (dat0 (Ix := Ix) (Name := Name) (U := U) (Lvl := Lvl) V O Rc c).after 5 t = out0_5 (iblk0 V c 0 t) (iblk0 V c 2 t) (iblk0 V c 3 t) := by dsimp only [dat0]

/-- Each input's current staging buffer holds its block at every point, fetched there or not. -/
theorem before0_0 (c : Dev nD) (t : Fin cfg0.N) (d) : (dat0 (Ix := Ix) (Name := Name) (U := U) (Lvl := Lvl) V O Rc c).before 0 t d = iblk0 V c 0 t :=
  before0_0_of V (dat0 V O Rc c) (A_eq0 V O Rc c 0) (after0_0 V O Rc c) t d
theorem before0_1 (c : Dev nD) (t : Fin cfg0.N) (d) : (dat0 (Ix := Ix) (Name := Name) (U := U) (Lvl := Lvl) V O Rc c).before 1 t d = iblk0 V c 1 t :=
  before0_1_of V (dat0 V O Rc c) (A_eq0 V O Rc c 1) (after0_1 V O Rc c) t d
theorem before0_2 (c : Dev nD) (t : Fin cfg0.N) (d) : (dat0 (Ix := Ix) (Name := Name) (U := U) (Lvl := Lvl) V O Rc c).before 2 t d = iblk0 V c 2 t :=
  before0_2_of V (dat0 V O Rc c) (A_eq0 V O Rc c 2) (after0_2 V O Rc c) t d
theorem before0_3 (c : Dev nD) (t : Fin cfg0.N) (d) : (dat0 (Ix := Ix) (Name := Name) (U := U) (Lvl := Lvl) V O Rc c).before 3 t d = iblk0 V c 3 t :=
  before0_3_of V (dat0 V O Rc c) (A_eq0 V O Rc c 3) (after0_3 V O Rc c) t d

/-- What the body is called with at point `t` (the body obligation's precondition, the windows one by one), -/
def bodyPre0 (ι : Ix) (c : Dev nD) (t : Fin cfg0.N) : sProp 𝕄 :=
  iprop((dat0 (Ix := Ix) (Name := Name) (U := U) (Lvl := Lvl) V O Rc c).Φ t.castSucc ∗ (dat0 (Ix := Ix) (Name := Name) (U := U) (Lvl := Lvl) V O Rc c).owesAt ι t.castSucc
    ∗ (∃ d, owns (c : Thread nD τ) (st0_0 t) fullShare ((dat0 (Ix := Ix) (Name := Name) (U := U) (Lvl := Lvl) V O Rc c).before 0 t d))
    ∗ (∃ d, owns (c : Thread nD τ) (st0_1 t) fullShare ((dat0 (Ix := Ix) (Name := Name) (U := U) (Lvl := Lvl) V O Rc c).before 1 t d))
    ∗ (∃ d, owns (c : Thread nD τ) (st0_2 t) fullShare ((dat0 (Ix := Ix) (Name := Name) (U := U) (Lvl := Lvl) V O Rc c).before 2 t d))
    ∗ (∃ d, owns (c : Thread nD τ) (st0_3 t) fullShare ((dat0 (Ix := Ix) (Name := Name) (U := U) (Lvl := Lvl) V O Rc c).before 3 t d))
    ∗ (∃ d, owns (c : Thread nD τ) (st0_4 t) fullShare ((dat0 (Ix := Ix) (Name := Name) (U := U) (Lvl := Lvl) V O Rc c).before 4 t d))
    ∗ (∃ d, owns (c : Thread nD τ) (st0_5 t) fullShare ((dat0 (Ix := Ix) (Name := Name) (U := U) (Lvl := Lvl) V O Rc c).before 5 t d)))

/-- and what it returns. -/
def bodyPost0 (ι : Ix) (c : Dev nD) (t : Fin cfg0.N) : sProp 𝕄 :=
  iprop((dat0 (Ix := Ix) (Name := Name) (U := U) (Lvl := Lvl) V O Rc c).Φ t.succ ∗ (dat0 (Ix := Ix) (Name := Name) (U := U) (Lvl := Lvl) V O Rc c).owesAt ι t.succ
    ∗ owns (c : Thread nD τ) (st0_0 t) fullShare ((dat0 (Ix := Ix) (Name := Name) (U := U) (Lvl := Lvl) V O Rc c).after 0 t)
    ∗ owns (c : Thread nD τ) (st0_1 t) fullShare ((dat0 (Ix := Ix) (Name := Name) (U := U) (Lvl := Lvl) V O Rc c).after 1 t)
    ∗ owns (c : Thread nD τ) (st0_2 t) fullShare ((dat0 (Ix := Ix) (Name := Name) (U := U) (Lvl := Lvl) V O Rc c).after 2 t)
    ∗ owns (c : Thread nD τ) (st0_3 t) fullShare ((dat0 (Ix := Ix) (Name := Name) (U := U) (Lvl := Lvl) V O Rc c).after 3 t)
    ∗ owns (c : Thread nD τ) (st0_4 t) fullShare ((dat0 (Ix := Ix) (Name := Name) (U := U) (Lvl := Lvl) V O Rc c).after 4 t)
    ∗ owns (c : Thread nD τ) (st0_5 t) fullShare ((dat0 (Ix := Ix) (Name := Name) (U := U) (Lvl := Lvl) V O Rc c).after 5 t))

set_option maxHeartbeats 1000000 in
/-- The body at any point: the inputs' memrefs hold their blocks, so the kernel's run applies; the invariant and the
    core's `owes` pass through unread. -/
theorem sound_body0 (𝒱₀ : Variants) (ι : Ix) (c : Dev nD) (t : Fin cfg0.N) :
    bodyPre0 V O Rc ι c t ⊢ wp frame (wpE (defs₀ (F := F)) 𝒱₀ c none) Set.univ (bodyAt0 t) (fun _ => bodyPost0 (Ix := Ix) (Name := Name) (U := U) (Lvl := Lvl) V O Rc ι c t) := by
  unfold bodyPre0 bodyPost0 bodyAt0
  simp only [before0_0, before0_1, before0_2, before0_3]
  rw [show (dat0 (Ix := Ix) (Name := Name) (U := U) (Lvl := Lvl) V O Rc c).Φ t.succ = (dat0 (Ix := Ix) (Name := Name) (U := U) (Lvl := Lvl) V O Rc c).Φ t.castSucc from rfl,
    show (dat0 (Ix := Ix) (Name := Name) (U := U) (Lvl := Lvl) V O Rc c).owesAt ι t.succ = (dat0 (Ix := Ix) (Name := Name) (U := U) (Lvl := Lvl) V O Rc c).owesAt ι t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 𝒱₀ c Set.univ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (𝒱₀ : Variants) (ι : Ix) (c : Dev nD) :
    BodyObligation (dat0 (F := F) (Ix := Ix) (Name := Name) (U := U) (Lvl := Lvl) V O Rc c) (defs₀ (F := F)) 𝒱₀ ι Set.univ := fun t => by
  rw [bigSep_W0, bigSep_W0]
  exact sound_body0 V O Rc 𝒱₀ ι c t

/-! # The region of pipeline `cfg2`, at the contents `V` its arrays hold when it is entered -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place. -/
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place. -/
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place. -/
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s and whose body leaves the block in place. -/
theorem before2_8_of {c : Dev nD} (dat : Dat τ (Elt F) Ix Name U Lvl cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not, for any proof
    data whose array is `V`'s and whose body leaves the block in place. -/
theorem before2_9_of {c : Dev nD} (dat : Dat τ (Elt F) Ix Name U Lvl cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline `cfg2` on core `c`: the arrays as the region finds them; after the body at point
    `t` each input's buffer at its block and each output's at the body's result on the input blocks; the invariant
    the scoped rest and the generator register, untouched; the core owing the same tallies `O c` throughout, its recorded
    pairs within `Rc c`; full shares. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := ΦTc spec2 c
  q _ := fullShare
  owed _ := O c
  recorded _ := Rc c

/-- The proof data's arrays are the region-entry contents. -/
theorem A_eq2 (c : Dev nD) (w : Fin cfg2.W) : (dat2 (Ix := Ix) (Name := Name) (U := U) (Lvl := Lvl) V O Rc c).A w = V c (Pipeline.arrRef spec2 w) := by
  dsimp only [dat2]

/-- What the body leaves, window by window. -/
theorem after2_0 (c : Dev nD) (t : Fin cfg2.N) : (dat2 (Ix := Ix) (Name := Name) (U := U) (Lvl := Lvl) V O Rc c).after 0 t = iblk2 V c 0 t := by dsimp only [dat2]
theorem after2_1 (c : Dev nD) (t : Fin cfg2.N) : (dat2 (Ix := Ix) (Name := Name) (U := U) (Lvl := Lvl) V O Rc c).after 1 t = iblk2 V c 1 t := by dsimp only [dat2]
theorem after2_2 (c : Dev nD) (t : Fin cfg2.N) : (dat2 (Ix := Ix) (Name := Name) (U := U) (Lvl := Lvl) V O Rc c).after 2 t = iblk2 V c 2 t := by dsimp only [dat2]
theorem after2_3 (c : Dev nD) (t : Fin cfg2.N) : (dat2 (Ix := Ix) (Name := Name) (U := U) (Lvl := Lvl) V O Rc c).after 3 t = iblk2 V c 3 t := by dsimp only [dat2]
theorem after2_4 (c : Dev nD) (t : Fin cfg2.N) : (dat2 (Ix := Ix) (Name := Name) (U := U) (Lvl := Lvl) V O Rc c).after 4 t = iblk2 V c 4 t := by dsimp only [dat2]
theorem after2_5 (c : Dev nD) (t : Fin cfg2.N) : (dat2 (Ix := Ix) (Name := Name) (U := U) (Lvl := Lvl) V O Rc c).after 5 t = iblk2 V c 5 t := by dsimp only [dat2]
theorem after2_6 (c : Dev nD) (t : Fin cfg2.N) : (dat2 (Ix := Ix) (Name := Name) (U := U) (Lvl := Lvl) V O Rc c).after 6 t = iblk2 V c 6 t := by dsimp only [dat2]
theorem after2_7 (c : Dev nD) (t : Fin cfg2.N) : (dat2 (Ix := Ix) (Name := Name) (U := U) (Lvl := Lvl) V O Rc c).after 7 t = iblk2 V c 7 t := by dsimp only [dat2]
theorem after2_8 (c : Dev nD) (t : Fin cfg2.N) : (dat2 (Ix := Ix) (Name := Name) (U := U) (Lvl := Lvl) V O Rc c).after 8 t = iblk2 V c 8 t := by dsimp only [dat2]
theorem after2_9 (c : Dev nD) (t : Fin cfg2.N) : (dat2 (Ix := Ix) (Name := Name) (U := U) (Lvl := Lvl) V O Rc c).after 9 t = iblk2 V c 9 t := by dsimp only [dat2]
theorem after2_10 (c : Dev nD) (t : Fin cfg2.N) : (dat2 (Ix := Ix) (Name := Name) (U := U) (Lvl := Lvl) V O Rc c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-- Each input's current staging buffer holds its block at every point, fetched there or not. -/
theorem before2_0 (c : Dev nD) (t : Fin cfg2.N) (d) : (dat2 (Ix := Ix) (Name := Name) (U := U) (Lvl := Lvl) V O Rc c).before 0 t d = iblk2 V c 0 t :=
  before2_0_of V (dat2 V O Rc c) (A_eq2 V O Rc c 0) (after2_0 V O Rc c) t d
theorem before2_1 (c : Dev nD) (t : Fin cfg2.N) (d) : (dat2 (Ix := Ix) (Name := Name) (U := U) (Lvl := Lvl) V O Rc c).before 1 t d = iblk2 V c 1 t :=
  before2_1_of V (dat2 V O Rc c) (A_eq2 V O Rc c 1) (after2_1 V O Rc c) t d
theorem before2_2 (c : Dev nD) (t : Fin cfg2.N) (d) : (dat2 (Ix := Ix) (Name := Name) (U := U) (Lvl := Lvl) V O Rc c).before 2 t d = iblk2 V c 2 t :=
  before2_2_of V (dat2 V O Rc c) (A_eq2 V O Rc c 2) (after2_2 V O Rc c) t d
theorem before2_3 (c : Dev nD) (t : Fin cfg2.N) (d) : (dat2 (Ix := Ix) (Name := Name) (U := U) (Lvl := Lvl) V O Rc c).before 3 t d = iblk2 V c 3 t :=
  before2_3_of V (dat2 V O Rc c) (A_eq2 V O Rc c 3) (after2_3 V O Rc c) t d
theorem before2_4 (c : Dev nD) (t : Fin cfg2.N) (d) : (dat2 (Ix := Ix) (Name := Name) (U := U) (Lvl := Lvl) V O Rc c).before 4 t d = iblk2 V c 4 t :=
  before2_4_of V (dat2 V O Rc c) (A_eq2 V O Rc c 4) (after2_4 V O Rc c) t d
theorem before2_5 (c : Dev nD) (t : Fin cfg2.N) (d) : (dat2 (Ix := Ix) (Name := Name) (U := U) (Lvl := Lvl) V O Rc c).before 5 t d = iblk2 V c 5 t :=
  before2_5_of V (dat2 V O Rc c) (A_eq2 V O Rc c 5) (after2_5 V O Rc c) t d
theorem before2_6 (c : Dev nD) (t : Fin cfg2.N) (d) : (dat2 (Ix := Ix) (Name := Name) (U := U) (Lvl := Lvl) V O Rc c).before 6 t d = iblk2 V c 6 t :=
  before2_6_of V (dat2 V O Rc c) (A_eq2 V O Rc c 6) (after2_6 V O Rc c) t d
theorem before2_7 (c : Dev nD) (t : Fin cfg2.N) (d) : (dat2 (Ix := Ix) (Name := Name) (U := U) (Lvl := Lvl) V O Rc c).before 7 t d = iblk2 V c 7 t :=
  before2_7_of V (dat2 V O Rc c) (A_eq2 V O Rc c 7) (after2_7 V O Rc c) t d
theorem before2_8 (c : Dev nD) (t : Fin cfg2.N) (d) : (dat2 (Ix := Ix) (Name := Name) (U := U) (Lvl := Lvl) V O Rc c).before 8 t d = iblk2 V c 8 t :=
  before2_8_of V (dat2 V O Rc c) (A_eq2 V O Rc c 8) (after2_8 V O Rc c) t d
theorem before2_9 (c : Dev nD) (t : Fin cfg2.N) (d) : (dat2 (Ix := Ix) (Name := Name) (U := U) (Lvl := Lvl) V O Rc c).before 9 t d = iblk2 V c 9 t :=
  before2_9_of V (dat2 V O Rc c) (A_eq2 V O Rc c 9) (after2_9 V O Rc c) t d

/-- What the body is called with at point `t` (the body obligation's precondition, the windows one by one), -/
def bodyPre2 (ι : Ix) (c : Dev nD) (t : Fin cfg2.N) : sProp 𝕄 :=
  iprop((dat2 (Ix := Ix) (Name := Name) (U := U) (Lvl := Lvl) V O Rc c).Φ t.castSucc ∗ (dat2 (Ix := Ix) (Name := Name) (U := U) (Lvl := Lvl) V O Rc c).owesAt ι t.castSucc
    ∗ (∃ d, owns (c : Thread nD τ) (st2_0 t) fullShare ((dat2 (Ix := Ix) (Name := Name) (U := U) (Lvl := Lvl) V O Rc c).before 0 t d))
    ∗ (∃ d, owns (c : Thread nD τ) (st2_1 t) fullShare ((dat2 (Ix := Ix) (Name := Name) (U := U) (Lvl := Lvl) V O Rc c).before 1 t d))
    ∗ (∃ d, owns (c : Thread nD τ) (st2_2 t) fullShare ((dat2 (Ix := Ix) (Name := Name) (U := U) (Lvl := Lvl) V O Rc c).before 2 t d))
    ∗ (∃ d, owns (c : Thread nD τ) (st2_3 t) fullShare ((dat2 (Ix := Ix) (Name := Name) (U := U) (Lvl := Lvl) V O Rc c).before 3 t d))
    ∗ (∃ d, owns (c : Thread nD τ) (st2_4 t) fullShare ((dat2 (Ix := Ix) (Name := Name) (U := U) (Lvl := Lvl) V O Rc c).before 4 t d))
    ∗ (∃ d, owns (c : Thread nD τ) (st2_5 t) fullShare ((dat2 (Ix := Ix) (Name := Name) (U := U) (Lvl := Lvl) V O Rc c).before 5 t d))
    ∗ (∃ d, owns (c : Thread nD τ) (st2_6 t) fullShare ((dat2 (Ix := Ix) (Name := Name) (U := U) (Lvl := Lvl) V O Rc c).before 6 t d))
    ∗ (∃ d, owns (c : Thread nD τ) (st2_7 t) fullShare ((dat2 (Ix := Ix) (Name := Name) (U := U) (Lvl := Lvl) V O Rc c).before 7 t d))
    ∗ (∃ d, owns (c : Thread nD τ) (st2_8 t) fullShare ((dat2 (Ix := Ix) (Name := Name) (U := U) (Lvl := Lvl) V O Rc c).before 8 t d))
    ∗ (∃ d, owns (c : Thread nD τ) (st2_9 t) fullShare ((dat2 (Ix := Ix) (Name := Name) (U := U) (Lvl := Lvl) V O Rc c).before 9 t d))
    ∗ (∃ d, owns (c : Thread nD τ) (st2_10 t) fullShare ((dat2 (Ix := Ix) (Name := Name) (U := U) (Lvl := Lvl) V O Rc c).before 10 t d)))

/-- and what it returns. -/
def bodyPost2 (ι : Ix) (c : Dev nD) (t : Fin cfg2.N) : sProp 𝕄 :=
  iprop((dat2 (Ix := Ix) (Name := Name) (U := U) (Lvl := Lvl) V O Rc c).Φ t.succ ∗ (dat2 (Ix := Ix) (Name := Name) (U := U) (Lvl := Lvl) V O Rc c).owesAt ι t.succ
    ∗ owns (c : Thread nD τ) (st2_0 t) fullShare ((dat2 (Ix := Ix) (Name := Name) (U := U) (Lvl := Lvl) V O Rc c).after 0 t)
    ∗ owns (c : Thread nD τ) (st2_1 t) fullShare ((dat2 (Ix := Ix) (Name := Name) (U := U) (Lvl := Lvl) V O Rc c).after 1 t)
    ∗ owns (c : Thread nD τ) (st2_2 t) fullShare ((dat2 (Ix := Ix) (Name := Name) (U := U) (Lvl := Lvl) V O Rc c).after 2 t)
    ∗ owns (c : Thread nD τ) (st2_3 t) fullShare ((dat2 (Ix := Ix) (Name := Name) (U := U) (Lvl := Lvl) V O Rc c).after 3 t)
    ∗ owns (c : Thread nD τ) (st2_4 t) fullShare ((dat2 (Ix := Ix) (Name := Name) (U := U) (Lvl := Lvl) V O Rc c).after 4 t)
    ∗ owns (c : Thread nD τ) (st2_5 t) fullShare ((dat2 (Ix := Ix) (Name := Name) (U := U) (Lvl := Lvl) V O Rc c).after 5 t)
    ∗ owns (c : Thread nD τ) (st2_6 t) fullShare ((dat2 (Ix := Ix) (Name := Name) (U := U) (Lvl := Lvl) V O Rc c).after 6 t)
    ∗ owns (c : Thread nD τ) (st2_7 t) fullShare ((dat2 (Ix := Ix) (Name := Name) (U := U) (Lvl := Lvl) V O Rc c).after 7 t)
    ∗ owns (c : Thread nD τ) (st2_8 t) fullShare ((dat2 (Ix := Ix) (Name := Name) (U := U) (Lvl := Lvl) V O Rc c).after 8 t)
    ∗ owns (c : Thread nD τ) (st2_9 t) fullShare ((dat2 (Ix := Ix) (Name := Name) (U := U) (Lvl := Lvl) V O Rc c).after 9 t)
    ∗ owns (c : Thread nD τ) (st2_10 t) fullShare ((dat2 (Ix := Ix) (Name := Name) (U := U) (Lvl := Lvl) V O Rc c).after 10 t))

set_option maxHeartbeats 1000000 in
/-- The body at any point: the inputs' memrefs hold their blocks, so the kernel's run applies; the invariant and the
    core's `owes` pass through unread. -/
theorem sound_body2 (𝒱₀ : Variants) (ι : Ix) (c : Dev nD) (t : Fin cfg2.N) :
    bodyPre2 V O Rc ι c t ⊢ wp frame (wpE (defs₀ (F := F)) 𝒱₀ c none) Set.univ (bodyAt2 t) (fun _ => bodyPost2 (Ix := Ix) (Name := Name) (U := U) (Lvl := Lvl) V O Rc ι c t) := by
  unfold bodyPre2 bodyPost2 bodyAt2
  simp only [before2_0, before2_1, before2_2, before2_3, before2_4, before2_5, before2_6, before2_7, before2_8, before2_9]
  rw [show (dat2 (Ix := Ix) (Name := Name) (U := U) (Lvl := Lvl) V O Rc c).Φ t.succ = (dat2 (Ix := Ix) (Name := Name) (U := U) (Lvl := Lvl) V O Rc c).Φ t.castSucc from rfl,
    show (dat2 (Ix := Ix) (Name := Name) (U := U) (Lvl := Lvl) V O Rc c).owesAt ι t.succ = (dat2 (Ix := Ix) (Name := Name) (U := U) (Lvl := Lvl) V O Rc c).owesAt ι t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 𝒱₀ c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (𝒱₀ : Variants) (ι : Ix) (c : Dev nD) :
    BodyObligation (dat2 (F := F) (Ix := Ix) (Name := Name) (U := U) (Lvl := Lvl) V O Rc c) (defs₀ (F := F)) 𝒱₀ ι Set.univ := fun t => by
  rw [bigSep_W2, bigSep_W2]
  exact sound_body2 V O Rc 𝒱₀ ι c t

end Regions

/-! # The proof data family -/

/-- The prefetched tables' admissible contents: no pipeline has a table. -/
abbrev adm : (p : Fin 2) → (pcfgs (F := F) p).Adm := fun p => (cfgs p).toPCfg_adm

/-- Both pipelines' proof data, each at its own region's entry contents and owed tallies — a literal match, so that
    the pinned configuration at a numeral reduces to the printed one. -/
def pdats (V0 V2 : (c : Dev nD) → (b : Ref sig .tc) → Buf (Elt F) ((c : Thread nD τ).loc b)) (O0 O2 : Dev nD → CellTallies nD τ sig Ix) (R0 R2 : Dev nD → Set (SemLoc sig × Ix)) :
    (p : Fin 2) → (c : Dev nD) → Dat τ (Elt F) Ix Name U Lvl (Pipeline.pin (pcfgs (F := F)) adm p) c
  | ⟨0, _⟩ => fun c => dat0 V0 O0 R0 c
  | ⟨1, _⟩ => fun c => dat2 V2 O2 R2 c

section Family
variable (V0 V2 : (c : Dev nD) → (b : Ref sig .tc) → Buf (Elt F) ((c : Thread nD τ).loc b)) (O0 O2 : Dev nD → CellTallies nD τ sig Ix) (R0 R2 : Dev nD → Set (SemLoc sig × Ix))

theorem pdats_zero (c : Dev nD) : pdats (Ix := Ix) (Name := Name) (U := U) (Lvl := Lvl) V0 V2 O0 O2 R0 R2 0 c = dat0 V0 O0 R0 c := rfl
theorem pdats_one (c : Dev nD) : pdats (Ix := Ix) (Name := Name) (U := U) (Lvl := Lvl) V0 V2 O0 O2 R0 R2 1 c = dat2 V2 O2 R2 c := rfl

/-- The family's arrays are the regions' entry contents. -/
theorem pdats_A0 (c : Dev nD) (w : Fin cfg0.W) : (pdats (Ix := Ix) (Name := Name) (U := U) (Lvl := Lvl) V0 V2 O0 O2 R0 R2 0 c).A w = V0 c (Pipeline.arrRef spec0 w) := rfl
theorem pdats_A2 (c : Dev nD) (w : Fin cfg2.W) : (pdats (Ix := Ix) (Name := Name) (U := U) (Lvl := Lvl) V0 V2 O0 O2 R0 R2 1 c).A w = V2 c (Pipeline.arrRef spec2 w) := rfl

/-- The family's owed tallies are the regions' own, at every point. -/
theorem pdats_owed0 (c : Dev nD) (t) : (pdats (Ix := Ix) (Name := Name) (U := U) (Lvl := Lvl) V0 V2 O0 O2 R0 R2 0 c).owed t = O0 c := rfl
/-- and so are the bounds on its recorded pairs. -/
theorem pdats_rec0 (c : Dev nD) (t) : (pdats (Ix := Ix) (Name := Name) (U := U) (Lvl := Lvl) V0 V2 O0 O2 R0 R2 0 c).recorded t = R0 c := rfl
theorem pdats_rec2 (c : Dev nD) (t) : (pdats (Ix := Ix) (Name := Name) (U := U) (Lvl := Lvl) V0 V2 O0 O2 R0 R2 1 c).recorded t = R2 c := rfl
theorem pdats_owed2 (c : Dev nD) (t) : (pdats (Ix := Ix) (Name := Name) (U := U) (Lvl := Lvl) V0 V2 O0 O2 R0 R2 1 c).owed t = O2 c := rfl

/-- The family's body obligations, in the loose form the region rules take. -/
theorem hbody0 (𝒱₀ : Variants) (ι : Ix) (c : Dev nD) :
    Pipeline.BodyObligationLoose (pdats (Ix := Ix) (Name := Name) (U := U) (Lvl := Lvl) V0 V2 O0 O2 R0 R2 0 c) (defs₀ (F := F)) 𝒱₀ ι Set.univ :=
  (body_obligation0 V0 O0 R0 𝒱₀ ι c).loose
theorem hbody2 (𝒱₀ : Variants) (ι : Ix) (c : Dev nD) :
    Pipeline.BodyObligationLoose (pdats (Ix := Ix) (Name := Name) (U := U) (Lvl := Lvl) V0 V2 O0 O2 R0 R2 1 c) (defs₀ (F := F)) 𝒱₀ ι Set.univ :=
  (body_obligation2 V2 O2 R2 𝒱₀ ι c).loose

end Family

end Cert.KernelIdeal.TcBody

end
-- ==== Proof.TcRegions.lean ====
import proofs.«210884_g88510686036700_cont_sun_m_1211_45_alg».proof.Proof.TcDats
import Idealize.ShloMosaic.Lib.Pipeline.Regions

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

variable (V0 V2 : (c : Dev nD) → (b : Ref sig .tc) → Buf (Elt F) ((c : Thread nD τ).loc b)) (O0 O2 : Dev nD → CellTallies nD τ sig Ix) (R0 R2 : Dev nD → Set (SemLoc sig × Ix))

/-! ## The regions' protocol entailments: the generator register in and out of the invariant, the wait evidence, the arrays -/

set_option backward.isDefEq.respectTransparency.types false in
/-- The invariant at the first point of pipeline 0, from the generator register, no table, and the scoped rest. -/
theorem hin0 (c : Dev nD) :
    iprop((∃ r, prngReg c r) ∗ Pipeline.prefHeld (Ix := Ix) (Name := Name) (U := U) (Lvl := Lvl) (pcfgs (F := F) 0).pre c (fun _ => fullShare) (adm (F := F) 0).1
        ∗ Pipeline.scopedRest (Pipeline.pin (pcfgs (F := F)) adm 0).spec c)
      ⊢ ((pdats (Ix := Ix) (Name := Name) (U := U) (Lvl := Lvl) V0 V2 O0 O2 R0 R2 0 c).Φ 0 : sProp 𝕄) := by
  rw [show (pdats (Ix := Ix) (Name := Name) (U := U) (Lvl := Lvl) V0 V2 O0 O2 R0 R2 0 c).Φ 0 = ΦTc spec0 c from rfl]; unfold ΦTc
  iintro ⟨Hp, -, Hr⟩
  isplitl [Hr]; · iexact Hr
  iexact Hp

set_option backward.isDefEq.respectTransparency.types false in
/-- The invariant at the last point gives back the generator register, no semaphore of the kernel's own, and the scoped rest. -/
theorem hout0 (c : Dev nD) :
    ((pdats (Ix := Ix) (Name := Name) (U := U) (Lvl := Lvl) V0 V2 O0 O2 R0 R2 0 c).Φ (Fin.last (Pipeline.pin (pcfgs (F := F)) adm 0).N) : sProp 𝕄)
      ⊢ iprop((∃ r, prngReg c r) ∗ Pipeline.ownSems0 (fun k : PEmpty => k.elim) c ∗ Pipeline.scopedRest (Pipeline.pin (pcfgs (F := F)) adm 0).spec c) := by
  rw [Pipeline.ownSems0_none, show (pdats (Ix := Ix) (Name := Name) (U := U) (Lvl := Lvl) V0 V2 O0 O2 R0 R2 0 c).Φ (Fin.last _) = ΦTc spec0 c from rfl]; unfold ΦTc
  iintro ⟨Hr, Hp⟩
  isplitl [Hp]; · iexact Hp
  isplitr; · iempintro
  iexact Hr

/-- The wait evidence for pipeline 0's staging cells, from persistent facts that let the core wait on each of them
    while it owes the region's tallies. -/
theorem hwaits0 (ι : Ix) (c : Dev nD) {R : sProp 𝕄} [BI.Persistent R]
    (h : ∀ (w : Fin cfg0.W) (s : Fin (cfg0.win w).nbuf), R ⊢ MayWait c (.dma ((cfg0.win w).sem s)) ι (O0 c)) :
    R ⊢ Pipeline.cellsWaits (Pipeline.pin (pcfgs (F := F)) adm) (pdats (Ix := Ix) (Name := Name) (U := U) (Lvl := Lvl) V0 V2 O0 O2 R0 R2) ι 0 c :=
  Pipeline.cellsWaits_intro (Pipeline.pin (pcfgs (F := F)) adm) (pdats (Ix := Ix) (Name := Name) (U := U) (Lvl := Lvl) V0 V2 O0 O2 R0 R2) ι 0 c fun w s _ => h w s

/-- Every array of pipeline 0 is held at the full share. -/
theorem share0 (c : Dev nD) (w) : (pdats (Ix := Ix) (Name := Name) (U := U) (Lvl := Lvl) V0 V2 O0 O2 R0 R2 0 c).share w = fullShare :=
  (pdats (Ix := Ix) (Name := Name) (U := U) (Lvl := Lvl) V0 V2 O0 O2 R0 R2 0 c).share_full (fun _ => rfl) w

set_option backward.isDefEq.respectTransparency.types false in
/-- ENTRY, the arrays' part: the core's unscoped buffers at the region's entry contents are the pipeline's arrays
    at the proof data's entry contents and the unscoped rest. -/
theorem arrays_split0 (c : Dev nD) :
    (unscopedBufs c (V0 c) : sProp 𝕄)
      ⊢ iprop((pdats (Ix := Ix) (Name := Name) (U := U) (Lvl := Lvl) V0 V2 O0 O2 R0 R2 0 c).arrays ((pdats (Ix := Ix) (Name := Name) (U := U) (Lvl := Lvl) V0 V2 O0 O2 R0 R2 0 c).arrAt · 0)
          ∗ Pipeline.unscopedRest (Ix := Ix) (Name := Name) (U := U) (Lvl := Lvl) (Pipeline.pin (pcfgs (F := F)) adm 0).spec c (V0 c)) :=
  Pipeline.arrays_of_unscopedBufs (p := 0) (pcfgs (F := F)) adm (pdats (Ix := Ix) (Name := Name) (U := U) (Lvl := Lvl) V0 V2 O0 O2 R0 R2) launch0.win launch0.arr_whole c
    (share0 V0 V2 O0 O2 R0 R2 c) (V0 c) fun _ => rfl

set_option backward.isDefEq.respectTransparency.types false in
/-- The invariant at the first point of pipeline 1, from the generator register, no table, and the scoped rest. -/
theorem hin2 (c : Dev nD) :
    iprop((∃ r, prngReg c r) ∗ Pipeline.prefHeld (Ix := Ix) (Name := Name) (U := U) (Lvl := Lvl) (pcfgs (F := F) 1).pre c (fun _ => fullShare) (adm (F := F) 1).1
        ∗ Pipeline.scopedRest (Pipeline.pin (pcfgs (F := F)) adm 1).spec c)
      ⊢ ((pdats (Ix := Ix) (Name := Name) (U := U) (Lvl := Lvl) V0 V2 O0 O2 R0 R2 1 c).Φ 0 : sProp 𝕄) := by
  rw [show (pdats (Ix := Ix) (Name := Name) (U := U) (Lvl := Lvl) V0 V2 O0 O2 R0 R2 1 c).Φ 0 = ΦTc spec2 c from rfl]; unfold ΦTc
  iintro ⟨Hp, -, Hr⟩
  isplitl [Hr]; · iexact Hr
  iexact Hp

set_option backward.isDefEq.respectTransparency.types false in
/-- The invariant at the last point gives back the generator register, no semaphore of the kernel's own, and the scoped rest. -/
theorem hout2 (c : Dev nD) :
    ((pdats (Ix := Ix) (Name := Name) (U := U) (Lvl := Lvl) V0 V2 O0 O2 R0 R2 1 c).Φ (Fin.last (Pipeline.pin (pcfgs (F := F)) adm 1).N) : sProp 𝕄)
      ⊢ iprop((∃ r, prngReg c r) ∗ Pipeline.ownSems0 (fun k : PEmpty => k.elim) c ∗ Pipeline.scopedRest (Pipeline.pin (pcfgs (F := F)) adm 1).spec c) := by
  rw [Pipeline.ownSems0_none, show (pdats (Ix := Ix) (Name := Name) (U := U) (Lvl := Lvl) V0 V2 O0 O2 R0 R2 1 c).Φ (Fin.last _) = ΦTc spec2 c from rfl]; unfold ΦTc
  iintro ⟨Hr, Hp⟩
  isplitl [Hp]; · iexact Hp
  isplitr; · iempintro
  iexact Hr

/-- The wait evidence for pipeline 1's staging cells, from persistent facts that let the core wait on each of them
    while it owes the region's tallies. -/
theorem hwaits2 (ι : Ix) (c : Dev nD) {R : sProp 𝕄} [BI.Persistent R]
    (h : ∀ (w : Fin cfg2.W) (s : Fin (cfg2.win w).nbuf), R ⊢ MayWait c (.dma ((cfg2.win w).sem s)) ι (O2 c)) :
    R ⊢ Pipeline.cellsWaits (Pipeline.pin (pcfgs (F := F)) adm) (pdats (Ix := Ix) (Name := Name) (U := U) (Lvl := Lvl) V0 V2 O0 O2 R0 R2) ι 1 c :=
  Pipeline.cellsWaits_intro (Pipeline.pin (pcfgs (F := F)) adm) (pdats (Ix := Ix) (Name := Name) (U := U) (Lvl := Lvl) V0 V2 O0 O2 R0 R2) ι 1 c fun w s _ => h w s

/-- Every array of pipeline 1 is held at the full share. -/
theorem share2 (c : Dev nD) (w) : (pdats (Ix := Ix) (Name := Name) (U := U) (Lvl := Lvl) V0 V2 O0 O2 R0 R2 1 c).share w = fullShare :=
  (pdats (Ix := Ix) (Name := Name) (U := U) (Lvl := Lvl) V0 V2 O0 O2 R0 R2 1 c).share_full (fun _ => rfl) w

set_option backward.isDefEq.respectTransparency.types false in
/-- ENTRY, the arrays' part: the core's unscoped buffers at the region's entry contents are the pipeline's arrays
    at the proof data's entry contents and the unscoped rest. -/
theorem arrays_split2 (c : Dev nD) :
    (unscopedBufs c (V2 c) : sProp 𝕄)
      ⊢ iprop((pdats (Ix := Ix) (Name := Name) (U := U) (Lvl := Lvl) V0 V2 O0 O2 R0 R2 1 c).arrays ((pdats (Ix := Ix) (Name := Name) (U := U) (Lvl := Lvl) V0 V2 O0 O2 R0 R2 1 c).arrAt · 0)
          ∗ Pipeline.unscopedRest (Ix := Ix) (Name := Name) (U := U) (Lvl := Lvl) (Pipeline.pin (pcfgs (F := F)) adm 1).spec c (V2 c)) :=
  Pipeline.arrays_of_unscopedBufs (p := 1) (pcfgs (F := F)) adm (pdats (Ix := Ix) (Name := Name) (U := U) (Lvl := Lvl) V0 V2 O0 O2 R0 R2) launch2.win launch2.arr_whole c
    (share2 V0 V2 O0 O2 R0 R2 c) (V2 c) fun _ => rfl

end Cert.KernelIdeal.TcBody

end
-- ==== Proof.TcSegs.lean ====
import proofs.«210884_g88510686036700_cont_sun_m_1211_45_alg».proof.Proof.Common
import proofs.«210884_g88510686036700_cont_sun_m_1211_45_alg».proof.Proof.TcRegions
import Idealize.ShloMosaic.Lib.Pipeline.RegionsLoop

set_option maxRecDepth 16384

noncomputable section

namespace Cert.Proof.KI

open Cert.KernelIdeal Cert.KernelIdeal.Gen Cert.KernelIdeal.TcBody
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Enter

variable (V0 V2 : (c : Dev nD) → (b : Ref sig .tc) → Buf (Elt F) ((c : Thread nD τ).loc b)) (O0 O2 : Dev nD → CellTallies nD τ sig (HIx 1)) (R0 R2 : Dev nD → Set (SemLoc sig × HIx 1))
  (L : GSem nD τ sig → Finset (HIx 1)) (lv : GSem nD τ sig → HIx 1 → ℕ)

set_option backward.isDefEq.respectTransparency.types false in
/-- The region of pipeline 0 over the thread state: entered from every unscoped buffer at `V0`, the generator
    register at some state and the core owing `O0` with its recorded pairs within `R0`; left with the buffers at
    any valuation `V0'` that has the pipeline's arrays at what the write-backs leave and agrees with `V0` off
    them, the same tallies owed, the recorded pairs within `R0` and the staging cells' own. -/
def reg0 (V0' : (c : Dev nD) → (b : Ref sig .tc) → Buf (Elt F) ((c : Thread nD τ).loc b))
    (hF : ∀ c w, (pdats (Ix := HIx 1) (Name := ℕ) (U := UU) (Lvl := ℕ) V0 V2 O0 O2 R0 R2 0 c).arrAt w cfg0.N = V0' c (Pipeline.arrRef spec0 w))
    (hrest : ∀ c b, b ∉ Finset.univ.image (Pipeline.arrRef spec0) → V0' c b = V0 c b)
    (hw : ∀ (c : Dev nD) (w : Fin cfg0.W) (s : Fin (cfg0.win w).nbuf),
      (levAts L lv : sProp 𝕄) ⊢ MayWait c (.dma ((cfg0.win w).sem s)) none (O0 c)) :
    Pipeline.RegionSeg (pcfgs (F := F)) adm (pdats (Ix := HIx 1) (Name := ℕ) (U := UU) (Lvl := ℕ) V0 V2 O0 O2 R0 R2) none defs₀ 𝒱₀ L lv 0 where
  win := launch0.win.to₀
  block_pos := launch0.block_pos
  stage_whole := launch0.stage_whole
  K := PEmpty
  osem k := k.elim
  ho := Pipeline.OwnSemFacts.none _
  hbody c := hbody0 V0 V2 O0 O2 R0 R2 𝒱₀ none c
  hwaits c := hwaits0 V0 V2 O0 O2 R0 R2 none c (hw c)
  pre c := iprop(unscopedBufs c (V0 c) ∗ (∃ r, prngReg c r) ∗ ∃ W : Waits sig (HIx 1), ⌜(↑W : Set (SemLoc sig × HIx 1)) ⊆ R0 c⌝ ∗ owes (c : Thread nD τ) (O0 c) W)
  post c := iprop(unscopedBufs c (V0' c) ∗ (∃ r, prngReg c r)
    ∗ ∃ W : Waits sig (HIx 1), ⌜(↑W : Set (SemLoc sig × HIx 1)) ⊆ R0 c ∪ cfg0.waitPairs none⌝ ∗ owes (c : Thread nD τ) (O0 c) W)
  X c := iprop(∃ r, prngReg c r)
  Y c := iprop(∃ r, prngReg c r)
  Z c := Pipeline.unscopedRest (Ix := HIx 1) (Name := ℕ) (U := UU) (Lvl := ℕ) spec0 c (V0 c)
  hentry c := by
    rw [Pipeline.ownSems0_none]
    iintro ⟨⟨Hub, Hp, HO⟩, -, -⟩
    ihave H := (arrays_split0 V0 V2 O0 O2 R0 R2 c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := hin0 V0 V2 O0 O2 R0 R2 c
  hout c := hout0 V0 V2 O0 O2 R0 R2 c
  hexit c := by
    have hjoin := Pipeline.unscopedBufs_of_arrays (p := 0) (pcfgs (F := F)) adm (Ix := HIx 1) (Name := ℕ) (U := UU) (Lvl := ℕ)
      launch0.win launch0.arr_whole c (pdats (Ix := HIx 1) (Name := ℕ) (U := UU) (Lvl := ℕ) V0 V2 O0 O2 R0 R2) (share0 V0 V2 O0 O2 R0 R2 c)
      (V0 c) (V0' c) ((pdats (Ix := HIx 1) (Name := ℕ) (U := UU) (Lvl := ℕ) V0 V2 O0 O2 R0 R2 0 c).arrAt · cfg0.N) (hF c) (hrest c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact hW
    iexact HO

set_option backward.isDefEq.respectTransparency.types false in
/-- The region of pipeline 1 over the thread state: entered from every unscoped buffer at `V2`, the generator
    register at some state and the core owing `O2` with its recorded pairs within `R2`; left with the buffers at
    any valuation `V2'` that has the pipeline's arrays at what the write-backs leave and agrees with `V2` off
    them, the same tallies owed, the recorded pairs within `R2` and the staging cells' own. -/
def reg2 (V2' : (c : Dev nD) → (b : Ref sig .tc) → Buf (Elt F) ((c : Thread nD τ).loc b))
    (hF : ∀ c w, (pdats (Ix := HIx 1) (Name := ℕ) (U := UU) (Lvl := ℕ) V0 V2 O0 O2 R0 R2 1 c).arrAt w cfg2.N = V2' c (Pipeline.arrRef spec2 w))
    (hrest : ∀ c b, b ∉ Finset.univ.image (Pipeline.arrRef spec2) → V2' c b = V2 c b)
    (hw : ∀ (c : Dev nD) (w : Fin cfg2.W) (s : Fin (cfg2.win w).nbuf),
      (levAts L lv : sProp 𝕄) ⊢ MayWait c (.dma ((cfg2.win w).sem s)) none (O2 c)) :
    Pipeline.RegionSeg (pcfgs (F := F)) adm (pdats (Ix := HIx 1) (Name := ℕ) (U := UU) (Lvl := ℕ) V0 V2 O0 O2 R0 R2) none defs₀ 𝒱₀ L lv 1 where
  win := launch2.win.to₀
  block_pos := launch2.block_pos
  stage_whole := launch2.stage_whole
  K := PEmpty
  osem k := k.elim
  ho := Pipeline.OwnSemFacts.none _
  hbody c := hbody2 V0 V2 O0 O2 R0 R2 𝒱₀ none c
  hwaits c := hwaits2 V0 V2 O0 O2 R0 R2 none c (hw c)
  pre c := iprop(unscopedBufs c (V2 c) ∗ (∃ r, prngReg c r) ∗ ∃ W : Waits sig (HIx 1), ⌜(↑W : Set (SemLoc sig × HIx 1)) ⊆ R2 c⌝ ∗ owes (c : Thread nD τ) (O2 c) W)
  post c := iprop(unscopedBufs c (V2' c) ∗ (∃ r, prngReg c r)
    ∗ ∃ W : Waits sig (HIx 1), ⌜(↑W : Set (SemLoc sig × HIx 1)) ⊆ R2 c ∪ cfg2.waitPairs none⌝ ∗ owes (c : Thread nD τ) (O2 c) W)
  X c := iprop(∃ r, prngReg c r)
  Y c := iprop(∃ r, prngReg c r)
  Z c := Pipeline.unscopedRest (Ix := HIx 1) (Name := ℕ) (U := UU) (Lvl := ℕ) spec2 c (V2 c)
  hentry c := by
    rw [Pipeline.ownSems0_none]
    iintro ⟨⟨Hub, Hp, HO⟩, -, -⟩
    ihave H := (arrays_split2 V0 V2 O0 O2 R0 R2 c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := hin2 V0 V2 O0 O2 R0 R2 c
  hout c := hout2 V0 V2 O0 O2 R0 R2 c
  hexit c := by
    have hjoin := Pipeline.unscopedBufs_of_arrays (p := 1) (pcfgs (F := F)) adm (Ix := HIx 1) (Name := ℕ) (U := UU) (Lvl := ℕ)
      launch2.win launch2.arr_whole c (pdats (Ix := HIx 1) (Name := ℕ) (U := UU) (Lvl := ℕ) V0 V2 O0 O2 R0 R2) (share2 V0 V2 O0 O2 R0 R2 c)
      (V2 c) (V2' c) ((pdats (Ix := HIx 1) (Name := ℕ) (U := UU) (Lvl := ℕ) V0 V2 O0 O2 R0 R2 1 c).arrAt · cfg2.N) (hF c) (hrest c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact hW
    iexact HO

end Enter

end Cert.Proof.KI

end
-- ==== Proof.TcAfter.lean ====
import proofs.«210884_g88510686036700_cont_sun_m_1211_45_alg».proof.Proof.TcDats

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

variable (V0 V2 : (c : Dev nD) → (b : Ref sig .tc) → Buf (Elt F) ((c : Thread nD τ).loc b)) (O0 O2 : Dev nD → CellTallies nD τ sig Ix) (R0 R2 : Dev nD → Set (SemLoc sig × Ix))

/-! ## The TensorCore's buffer contents when a region is left

The projection's two result arrays at what its write-backs leave, every other buffer as the region found it; the
same for the MLP's one result array. -/

/-- After the projection region: the two result arrays at what the pipeline leaves, the rest as entered. -/
def VAfter0 (c : Dev nD) (b : Ref sig .tc) : Buf (Elt F) ((c : Thread nD τ).loc b) :=
  if h4 : b = main_v4_0 then h4 ▸ (pdats (Ix := Ix) (Name := Name) (U := U) (Lvl := Lvl) V0 V2 O0 O2 R0 R2 0 c).arrAt 4 cfg0.N
  else if h5 : b = main_v4_1 then h5 ▸ (pdats (Ix := Ix) (Name := Name) (U := U) (Lvl := Lvl) V0 V2 O0 O2 R0 R2 0 c).arrAt 5 cfg0.N
  else V0 c b

/-- After the MLP region: the result array at what the pipeline leaves, the rest as entered. -/
def VAfter2 (c : Dev nD) (b : Ref sig .tc) : Buf (Elt F) ((c : Thread nD τ).loc b) :=
  if h : b = main_v19 then h ▸ (pdats (Ix := Ix) (Name := Name) (U := U) (Lvl := Lvl) V0 V2 O0 O2 R0 R2 1 c).arrAt 10 cfg2.N
  else V2 c b

theorem VAfter0_v4_0 (c : Dev nD) : VAfter0 (Ix := Ix) (Name := Name) (U := U) (Lvl := Lvl) V0 V2 O0 O2 R0 R2 c main_v4_0 = (pdats (Ix := Ix) (Name := Name) (U := U) (Lvl := Lvl) V0 V2 O0 O2 R0 R2 0 c).arrAt 4 cfg0.N := by
  unfold VAfter0; rw [dif_pos rfl]
theorem VAfter0_v4_1 (c : Dev nD) : VAfter0 (Ix := Ix) (Name := Name) (U := U) (Lvl := Lvl) V0 V2 O0 O2 R0 R2 c main_v4_1 = (pdats (Ix := Ix) (Name := Name) (U := U) (Lvl := Lvl) V0 V2 O0 O2 R0 R2 0 c).arrAt 5 cfg0.N := by
  unfold VAfter0; rw [dif_neg (by decide), dif_pos rfl]
theorem VAfter2_v19 (c : Dev nD) : VAfter2 (Ix := Ix) (Name := Name) (U := U) (Lvl := Lvl) V0 V2 O0 O2 R0 R2 c main_v19 = (pdats (Ix := Ix) (Name := Name) (U := U) (Lvl := Lvl) V0 V2 O0 O2 R0 R2 1 c).arrAt 10 cfg2.N := by
  unfold VAfter2; rw [dif_pos rfl]

/-- A buffer that is neither result array of the projection is as the region found it. -/
theorem VAfter0_of_not_out (c : Dev nD) (b : Ref sig .tc) (h4 : b ≠ main_v4_0) (h5 : b ≠ main_v4_1) :
    VAfter0 (Ix := Ix) (Name := Name) (U := U) (Lvl := Lvl) V0 V2 O0 O2 R0 R2 c b = V0 c b := by
  unfold VAfter0; rw [dif_neg h4, dif_neg h5]
/-- A buffer that is not the MLP's result array is as the region found it. -/
theorem VAfter2_of_not_out (c : Dev nD) (b : Ref sig .tc) (h : b ≠ main_v19) :
    VAfter2 (Ix := Ix) (Name := Name) (U := U) (Lvl := Lvl) V0 V2 O0 O2 R0 R2 c b = V2 c b := by
  unfold VAfter2; rw [dif_neg h]

/-- Each array of the projection's windows is, after the region, what the pipeline leaves in it: an input array is
    never written (`Dat.arrAt_in`), a result array is by definition. -/
theorem hF0 (c : Dev nD) : ∀ w : Fin cfg0.W, (pdats (Ix := Ix) (Name := Name) (U := U) (Lvl := Lvl) V0 V2 O0 O2 R0 R2 0 c).arrAt w cfg0.N = VAfter0 (Ix := Ix) (Name := Name) (U := U) (Lvl := Lvl) V0 V2 O0 O2 R0 R2 c (Pipeline.arrRef spec0 w)
  | ⟨0, _⟩ => ((pdats (Ix := Ix) (Name := Name) (U := U) (Lvl := Lvl) V0 V2 O0 O2 R0 R2 0 c).arrAt_in 0 rfl _).trans (VAfter0_of_not_out V0 V2 O0 O2 R0 R2 c _ (show Pipeline.arrRef spec0 0 ≠ main_v4_0 by decide) (show Pipeline.arrRef spec0 0 ≠ main_v4_1 by decide)).symm
  | ⟨1, _⟩ => ((pdats (Ix := Ix) (Name := Name) (U := U) (Lvl := Lvl) V0 V2 O0 O2 R0 R2 0 c).arrAt_in 1 rfl _).trans (VAfter0_of_not_out V0 V2 O0 O2 R0 R2 c _ (show Pipeline.arrRef spec0 1 ≠ main_v4_0 by decide) (show Pipeline.arrRef spec0 1 ≠ main_v4_1 by decide)).symm
  | ⟨2, _⟩ => ((pdats (Ix := Ix) (Name := Name) (U := U) (Lvl := Lvl) V0 V2 O0 O2 R0 R2 0 c).arrAt_in 2 rfl _).trans (VAfter0_of_not_out V0 V2 O0 O2 R0 R2 c _ (show Pipeline.arrRef spec0 2 ≠ main_v4_0 by decide) (show Pipeline.arrRef spec0 2 ≠ main_v4_1 by decide)).symm
  | ⟨3, _⟩ => ((pdats (Ix := Ix) (Name := Name) (U := U) (Lvl := Lvl) V0 V2 O0 O2 R0 R2 0 c).arrAt_in 3 rfl _).trans (VAfter0_of_not_out V0 V2 O0 O2 R0 R2 c _ (show Pipeline.arrRef spec0 3 ≠ main_v4_0 by decide) (show Pipeline.arrRef spec0 3 ≠ main_v4_1 by decide)).symm
  | ⟨4, _⟩ => (VAfter0_v4_0 V0 V2 O0 O2 R0 R2 c).symm
  | ⟨5, _⟩ => (VAfter0_v4_1 V0 V2 O0 O2 R0 R2 c).symm

/-- Off the windows' arrays nothing changes. -/
theorem hrest0 (c : Dev nD) (b : Ref sig .tc) (hb : b ∉ Finset.univ.image (Pipeline.arrRef spec0)) :
    VAfter0 (Ix := Ix) (Name := Name) (U := U) (Lvl := Lvl) V0 V2 O0 O2 R0 R2 c b = V0 c b :=
  VAfter0_of_not_out V0 V2 O0 O2 R0 R2 c b
    (fun e => hb (Finset.mem_image.mpr ⟨4, Finset.mem_univ _, e.symm⟩))
    (fun e => hb (Finset.mem_image.mpr ⟨5, Finset.mem_univ _, e.symm⟩))

theorem hF2 (c : Dev nD) : ∀ w : Fin cfg2.W, (pdats (Ix := Ix) (Name := Name) (U := U) (Lvl := Lvl) V0 V2 O0 O2 R0 R2 1 c).arrAt w cfg2.N = VAfter2 (Ix := Ix) (Name := Name) (U := U) (Lvl := Lvl) V0 V2 O0 O2 R0 R2 c (Pipeline.arrRef spec2 w)
  | ⟨0, _⟩ => ((pdats (Ix := Ix) (Name := Name) (U := U) (Lvl := Lvl) V0 V2 O0 O2 R0 R2 1 c).arrAt_in 0 rfl _).trans (VAfter2_of_not_out V0 V2 O0 O2 R0 R2 c _ (show Pipeline.arrRef spec2 0 ≠ main_v19 by decide)).symm
  | ⟨1, _⟩ => ((pdats (Ix := Ix) (Name := Name) (U := U) (Lvl := Lvl) V0 V2 O0 O2 R0 R2 1 c).arrAt_in 1 rfl _).trans (VAfter2_of_not_out V0 V2 O0 O2 R0 R2 c _ (show Pipeline.arrRef spec2 1 ≠ main_v19 by decide)).symm
  | ⟨2, _⟩ => ((pdats (Ix := Ix) (Name := Name) (U := U) (Lvl := Lvl) V0 V2 O0 O2 R0 R2 1 c).arrAt_in 2 rfl _).trans (VAfter2_of_not_out V0 V2 O0 O2 R0 R2 c _ (show Pipeline.arrRef spec2 2 ≠ main_v19 by decide)).symm
  | ⟨3, _⟩ => ((pdats (Ix := Ix) (Name := Name) (U := U) (Lvl := Lvl) V0 V2 O0 O2 R0 R2 1 c).arrAt_in 3 rfl _).trans (VAfter2_of_not_out V0 V2 O0 O2 R0 R2 c _ (show Pipeline.arrRef spec2 3 ≠ main_v19 by decide)).symm
  | ⟨4, _⟩ => ((pdats (Ix := Ix) (Name := Name) (U := U) (Lvl := Lvl) V0 V2 O0 O2 R0 R2 1 c).arrAt_in 4 rfl _).trans (VAfter2_of_not_out V0 V2 O0 O2 R0 R2 c _ (show Pipeline.arrRef spec2 4 ≠ main_v19 by decide)).symm
  | ⟨5, _⟩ => ((pdats (Ix := Ix) (Name := Name) (U := U) (Lvl := Lvl) V0 V2 O0 O2 R0 R2 1 c).arrAt_in 5 rfl _).trans (VAfter2_of_not_out V0 V2 O0 O2 R0 R2 c _ (show Pipeline.arrRef spec2 5 ≠ main_v19 by decide)).symm
  | ⟨6, _⟩ => ((pdats (Ix := Ix) (Name := Name) (U := U) (Lvl := Lvl) V0 V2 O0 O2 R0 R2 1 c).arrAt_in 6 rfl _).trans (VAfter2_of_not_out V0 V2 O0 O2 R0 R2 c _ (show Pipeline.arrRef spec2 6 ≠ main_v19 by decide)).symm
  | ⟨7, _⟩ => ((pdats (Ix := Ix) (Name := Name) (U := U) (Lvl := Lvl) V0 V2 O0 O2 R0 R2 1 c).arrAt_in 7 rfl _).trans (VAfter2_of_not_out V0 V2 O0 O2 R0 R2 c _ (show Pipeline.arrRef spec2 7 ≠ main_v19 by decide)).symm
  | ⟨8, _⟩ => ((pdats (Ix := Ix) (Name := Name) (U := U) (Lvl := Lvl) V0 V2 O0 O2 R0 R2 1 c).arrAt_in 8 rfl _).trans (VAfter2_of_not_out V0 V2 O0 O2 R0 R2 c _ (show Pipeline.arrRef spec2 8 ≠ main_v19 by decide)).symm
  | ⟨9, _⟩ => ((pdats (Ix := Ix) (Name := Name) (U := U) (Lvl := Lvl) V0 V2 O0 O2 R0 R2 1 c).arrAt_in 9 rfl _).trans (VAfter2_of_not_out V0 V2 O0 O2 R0 R2 c _ (show Pipeline.arrRef spec2 9 ≠ main_v19 by decide)).symm
  | ⟨10, _⟩ => (VAfter2_v19 V0 V2 O0 O2 R0 R2 c).symm

theorem hrest2 (c : Dev nD) (b : Ref sig .tc) (hb : b ∉ Finset.univ.image (Pipeline.arrRef spec2)) :
    VAfter2 (Ix := Ix) (Name := Name) (U := U) (Lvl := Lvl) V0 V2 O0 O2 R0 R2 c b = V2 c b :=
  VAfter2_of_not_out V0 V2 O0 O2 R0 R2 c b (fun e => hb (Finset.mem_image.mpr ⟨10, Finset.mem_univ _, e.symm⟩))

end Cert.KernelIdeal.TcBody

end
-- ==== Proof.TcEnter.lean ====
import proofs.«210884_g88510686036700_cont_sun_m_1211_45_alg».proof.Proof.TcSegs
import proofs.«210884_g88510686036700_cont_sun_m_1211_45_alg».proof.Proof.TcAfter

set_option maxRecDepth 16384
set_option Elab.async false

noncomputable section

namespace Cert.Proof.KI

open Cert.KernelIdeal Cert.KernelIdeal.Gen Cert.KernelIdeal.TcBody
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A region's custom call in the extended signature is the lifted call of the pipelines' signature. -/
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (Prog.op (.customCall (Pipeline.entry p) ()) fun _ => Prog.ret PUnit.unit) := rfl

section Enter

variable (V0 V2 : (c : Dev nD) → (b : Ref sig .tc) → Buf (Elt F) ((c : Thread nD τ).loc b)) (O0 O2 : Dev nD → CellTallies nD τ sig (HIx 1)) (R0 R2 : Dev nD → Set (SemLoc sig × HIx 1))
  (L : GSem nD τ sig → Finset (HIx 1)) (lv : GSem nD τ sig → HIx 1 → ℕ)

set_option backward.isDefEq.respectTransparency.types false in
/-- Pipeline 0's region in the pipelines' own signature: from the boundary, the region's thread state, the level
    facts and the staging cells' ghost state, the custom call runs to the continuation's assertion. -/
theorem enter0_inner (V0' : (c : Dev nD) → (b : Ref sig .tc) → Buf (Elt F) ((c : Thread nD τ).loc b))
    (hF : ∀ c w, (pdats (Ix := HIx 1) (Name := ℕ) (U := UU) (Lvl := ℕ) V0 V2 O0 O2 R0 R2 0 c).arrAt w cfg0.N = V0' c (Pipeline.arrRef spec0 w))
    (hrest : ∀ c b, b ∉ Finset.univ.image (Pipeline.arrRef spec0) → V0' c b = V0 c b)
    (hw : ∀ (c : Dev nD) (w : Fin cfg0.W) (s : Fin (cfg0.win w).nbuf),
      (levAts L lv : sProp 𝕄) ⊢ MayWait c (.dma ((cfg0.win w).sem s)) none (O0 c))
    (d : Dev nD) (Φ : PUnit → sProp 𝕄) :
    iprop((iprop(boundary (d.tc : Thread nD τ) ∗ (reg0 V0 V2 O0 O2 R0 R2 L lv V0' hF hrest hw).post d) -∗ Φ ⟨⟩)
        ∗ boundary (d.tc : Thread nD τ) ∗ (reg0 V0 V2 O0 O2 R0 R2 L lv V0' hF hrest hw).pre d ∗ levAts L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ
          (Prog.op (.customCall (Pipeline.entry 0) ()) fun _ => Prog.ret PUnit.unit) Φ := by
  refine BIBase.Entails.trans ?_ ((reg0 V0 V2 O0 O2 R0 R2 L lv V0' hF hrest hw).wp (pcfgs (F := F)) adm _ none cellOf_inj EP defs₀ 𝒱₀ L lv d none
    (fun u hu => by cases hu) (fun _ => Prog.ret PUnit.unit) Φ)
  iintro ⟨Hk, Hb, Hpre, Hl, Hg, Ht⟩
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

set_option backward.isDefEq.respectTransparency.types false in
/-- ENTERING pipeline 0's region inside the SparseCore program on the TensorCore of `d`: the same, for the call as
    @main of the extended signature prints it. -/
theorem enter0 (V0' : (c : Dev nD) → (b : Ref sig .tc) → Buf (Elt F) ((c : Thread nD τ).loc b))
    (hF : ∀ c w, (pdats (Ix := HIx 1) (Name := ℕ) (U := UU) (Lvl := ℕ) V0 V2 O0 O2 R0 R2 0 c).arrAt w cfg0.N = V0' c (Pipeline.arrRef spec0 w))
    (hrest : ∀ c b, b ∉ Finset.univ.image (Pipeline.arrRef spec0) → V0' c b = V0 c b)
    (hw : ∀ (c : Dev nD) (w : Fin cfg0.W) (s : Fin (cfg0.win w).nbuf),
      (levAts L lv : sProp 𝕄) ⊢ MayWait c (.dma ((cfg0.win w).sem s)) none (O0 c))
    (d : Dev nD) (Φ : PUnit → sProp 𝕄) :
    iprop((iprop(boundary (T d) ∗ (reg0 V0 V2 O0 O2 R0 R2 L lv V0' hF hrest hw).post d) -∗ Φ ⟨⟩)
        ∗ boundary (T d) ∗ (reg0 V0 V2 O0 O2 R0 R2 L lv V0' hF hrest hw).pre d ∗ levAts L lv
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ
          (Prog.lift (.customCall (SparseCore.inner (Pipeline.entry 0)) ())) Φ := by
  rw [lift_entry]
  exact (enter0_inner V0 V2 O0 O2 R0 R2 L lv V0' hF hrest hw d Φ).trans
    ((K (F := F)).wp_liftProg (D (F := F)) 𝒱 (T d) Set.univ none _ Φ)

set_option backward.isDefEq.respectTransparency.types false in
/-- Pipeline 1's region in the pipelines' own signature: from the boundary, the region's thread state, the level
    facts and the staging cells' ghost state, the custom call runs to the continuation's assertion. -/
theorem enter2_inner (V2' : (c : Dev nD) → (b : Ref sig .tc) → Buf (Elt F) ((c : Thread nD τ).loc b))
    (hF : ∀ c w, (pdats (Ix := HIx 1) (Name := ℕ) (U := UU) (Lvl := ℕ) V0 V2 O0 O2 R0 R2 1 c).arrAt w cfg2.N = V2' c (Pipeline.arrRef spec2 w))
    (hrest : ∀ c b, b ∉ Finset.univ.image (Pipeline.arrRef spec2) → V2' c b = V2 c b)
    (hw : ∀ (c : Dev nD) (w : Fin cfg2.W) (s : Fin (cfg2.win w).nbuf),
      (levAts L lv : sProp 𝕄) ⊢ MayWait c (.dma ((cfg2.win w).sem s)) none (O2 c))
    (d : Dev nD) (Φ : PUnit → sProp 𝕄) :
    iprop((iprop(boundary (d.tc : Thread nD τ) ∗ (reg2 V0 V2 O0 O2 R0 R2 L lv V2' hF hrest hw).post d) -∗ Φ ⟨⟩)
        ∗ boundary (d.tc : Thread nD τ) ∗ (reg2 V0 V2 O0 O2 R0 R2 L lv V2' hF hrest hw).pre d ∗ levAts L lv
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ
          (Prog.op (.customCall (Pipeline.entry 1) ()) fun _ => Prog.ret PUnit.unit) Φ := by
  refine BIBase.Entails.trans ?_ ((reg2 V0 V2 O0 O2 R0 R2 L lv V2' hF hrest hw).wp (pcfgs (F := F)) adm _ none cellOf_inj EP defs₀ 𝒱₀ L lv d none
    (fun u hu => by cases hu) (fun _ => Prog.ret PUnit.unit) Φ)
  iintro ⟨Hk, Hb, Hpre, Hl, Hg, Ht⟩
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

set_option backward.isDefEq.respectTransparency.types false in
/-- ENTERING pipeline 1's region inside the SparseCore program on the TensorCore of `d`: the same, for the call as
    @main of the extended signature prints it. -/
theorem enter2 (V2' : (c : Dev nD) → (b : Ref sig .tc) → Buf (Elt F) ((c : Thread nD τ).loc b))
    (hF : ∀ c w, (pdats (Ix := HIx 1) (Name := ℕ) (U := UU) (Lvl := ℕ) V0 V2 O0 O2 R0 R2 1 c).arrAt w cfg2.N = V2' c (Pipeline.arrRef spec2 w))
    (hrest : ∀ c b, b ∉ Finset.univ.image (Pipeline.arrRef spec2) → V2' c b = V2 c b)
    (hw : ∀ (c : Dev nD) (w : Fin cfg2.W) (s : Fin (cfg2.win w).nbuf),
      (levAts L lv : sProp 𝕄) ⊢ MayWait c (.dma ((cfg2.win w).sem s)) none (O2 c))
    (d : Dev nD) (Φ : PUnit → sProp 𝕄) :
    iprop((iprop(boundary (T d) ∗ (reg2 V0 V2 O0 O2 R0 R2 L lv V2' hF hrest hw).post d) -∗ Φ ⟨⟩)
        ∗ boundary (T d) ∗ (reg2 V0 V2 O0 O2 R0 R2 L lv V2' hF hrest hw).pre d ∗ levAts L lv
        ∗ Pipeline.cellsGhost (Pipeline.pin (pcfgs (F := F)) adm) EP 1 d ∗ Pipeline.toksInit (Pipeline.pin (pcfgs (F := F)) adm) EP 1 d)
      ⊢ wp frame (wpE ((K (F := F)).defs D) 𝒱 (T d) none) Set.univ
          (Prog.lift (.customCall (SparseCore.inner (Pipeline.entry 1)) ())) Φ := by
  rw [lift_entry]
  exact (enter2_inner V0 V2 O0 O2 R0 R2 L lv V2' hF hrest hw d Φ).trans
    ((K (F := F)).wp_liftProg (D (F := F)) 𝒱 (T d) Set.univ none _ Φ)

/-- Pipeline 0's region with the exit contents packaged: the result array(s) at what the write-backs leave, the rest
    as entered (`VAfter0`). -/
abbrev reg0A (hw : ∀ (c : Dev nD) (w : Fin cfg0.W) (s : Fin (cfg0.win w).nbuf),
      (levAts L lv : sProp 𝕄) ⊢ MayWait c (.dma ((cfg0.win w).sem s)) none (O0 c)) :
    Pipeline.RegionSeg (pcfgs (F := F)) adm (pdats (Ix := HIx 1) (Name := ℕ) (U := UU) (Lvl := ℕ) V0 V2 O0 O2 R0 R2) none defs₀ 𝒱₀ L lv 0 :=
  reg0 V0 V2 O0 O2 R0 R2 L lv (VAfter0 (Ix := HIx 1) (Name := ℕ) (U := UU) (Lvl := ℕ) V0 V2 O0 O2 R0 R2) (hF0 (Ix := HIx 1) (Name := ℕ) (U := UU) (Lvl := ℕ) V0 V2 O0 O2 R0 R2) (hrest0 (Ix := HIx 1) (Name := ℕ) (U := UU) (Lvl := ℕ) V0 V2 O0 O2 R0 R2) hw

/-- Entering pipeline 0's region with the exit contents packaged. -/
theorem enter0A (hw : ∀ (c : Dev nD) (w : Fin cfg0.W) (s : Fin (cfg0.win w).nbuf),
      (levAts L lv : sProp 𝕄) ⊢ MayWait c (.dma ((cfg0.win w).sem s)) none (O0 c))
    (d : Dev nD) (Φ : PUnit → sProp 𝕄) :
    iprop((iprop(boundary (T d) ∗ unscopedBufs d (VAfter0 (Ix := HIx 1) (Name := ℕ) (U := UU) (Lvl := ℕ) V0 V2 O0 O2 R0 R2 d) ∗ (∃ r, prngReg d r)
            ∗ ∃ W : Waits sig (HIx 1), ⌜(↑W : Set (SemLoc sig × HIx 1)) ⊆ R0 d ∪ cfg0.waitPairs none⌝ ∗ owes (d : Thread nD τ) (O0 d) W) -∗ Φ ⟨⟩)
        ∗ boundary (T d) ∗ unscopedBufs d (V0 d) ∗ (∃ r, prngReg d r)
        ∗ (∃ W : Waits sig (HIx 1), ⌜(↑W : Set (SemLoc sig × HIx 1)) ⊆ R0 d⌝ ∗ owes (d : Thread nD τ) (O0 d) W) ∗ levAts L lv
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ
          (Prog.lift (.customCall (SparseCore.inner (Pipeline.entry 0)) ())) Φ := by
  have h := enter0 V0 V2 O0 O2 R0 R2 L lv (VAfter0 (Ix := HIx 1) (Name := ℕ) (U := UU) (Lvl := ℕ) V0 V2 O0 O2 R0 R2) (hF0 (Ix := HIx 1) (Name := ℕ) (U := UU) (Lvl := ℕ) V0 V2 O0 O2 R0 R2) (hrest0 (Ix := HIx 1) (Name := ℕ) (U := UU) (Lvl := ℕ) V0 V2 O0 O2 R0 R2) hw d Φ
  dsimp only [reg0] at h
  refine BIBase.Entails.trans ?_ h
  iintro ⟨Hk, Hb, Hu, Hp, Ho, Hl, Hg, Ht⟩
  isplitl [Hk]; · iexact Hk
  isplitl [Hb]; · iexact Hb
  isplitl [Hu Hp Ho]
  · isplitl [Hu]; · iexact Hu
    isplitl [Hp]; · iexact Hp
    iexact Ho
  isplitl [Hl]; · iexact Hl
  isplitl [Hg]; · iexact Hg
  iexact Ht

/-- Pipeline 1's region with the exit contents packaged: the result array(s) at what the write-backs leave, the rest
    as entered (`VAfter2`). -/
abbrev reg2A (hw : ∀ (c : Dev nD) (w : Fin cfg2.W) (s : Fin (cfg2.win w).nbuf),
      (levAts L lv : sProp 𝕄) ⊢ MayWait c (.dma ((cfg2.win w).sem s)) none (O2 c)) :
    Pipeline.RegionSeg (pcfgs (F := F)) adm (pdats (Ix := HIx 1) (Name := ℕ) (U := UU) (Lvl := ℕ) V0 V2 O0 O2 R0 R2) none defs₀ 𝒱₀ L lv 1 :=
  reg2 V0 V2 O0 O2 R0 R2 L lv (VAfter2 (Ix := HIx 1) (Name := ℕ) (U := UU) (Lvl := ℕ) V0 V2 O0 O2 R0 R2) (hF2 (Ix := HIx 1) (Name := ℕ) (U := UU) (Lvl := ℕ) V0 V2 O0 O2 R0 R2) (hrest2 (Ix := HIx 1) (Name := ℕ) (U := UU) (Lvl := ℕ) V0 V2 O0 O2 R0 R2) hw

/-- Entering pipeline 1's region with the exit contents packaged. -/
theorem enter2A (hw : ∀ (c : Dev nD) (w : Fin cfg2.W) (s : Fin (cfg2.win w).nbuf),
      (levAts L lv : sProp 𝕄) ⊢ MayWait c (.dma ((cfg2.win w).sem s)) none (O2 c))
    (d : Dev nD) (Φ : PUnit → sProp 𝕄) :
    iprop((iprop(boundary (T d) ∗ unscopedBufs d (VAfter2 (Ix := HIx 1) (Name := ℕ) (U := UU) (Lvl := ℕ) V0 V2 O0 O2 R0 R2 d) ∗ (∃ r, prngReg d r)
            ∗ ∃ W : Waits sig (HIx 1), ⌜(↑W : Set (SemLoc sig × HIx 1)) ⊆ R2 d ∪ cfg2.waitPairs none⌝ ∗ owes (d : Thread nD τ) (O2 d) W) -∗ Φ ⟨⟩)
        ∗ boundary (T d) ∗ unscopedBufs d (V2 d) ∗ (∃ r, prngReg d r)
        ∗ (∃ W : Waits sig (HIx 1), ⌜(↑W : Set (SemLoc sig × HIx 1)) ⊆ R2 d⌝ ∗ owes (d : Thread nD τ) (O2 d) W) ∗ levAts L lv
        ∗ Pipeline.cellsGhost (Pipeline.pin (pcfgs (F := F)) adm) EP 1 d ∗ Pipeline.toksInit (Pipeline.pin (pcfgs (F := F)) adm) EP 1 d)
      ⊢ wp frame (wpE ((K (F := F)).defs D) 𝒱 (T d) none) Set.univ
          (Prog.lift (.customCall (SparseCore.inner (Pipeline.entry 1)) ())) Φ := by
  have h := enter2 V0 V2 O0 O2 R0 R2 L lv (VAfter2 (Ix := HIx 1) (Name := ℕ) (U := UU) (Lvl := ℕ) V0 V2 O0 O2 R0 R2) (hF2 (Ix := HIx 1) (Name := ℕ) (U := UU) (Lvl := ℕ) V0 V2 O0 O2 R0 R2) (hrest2 (Ix := HIx 1) (Name := ℕ) (U := UU) (Lvl := ℕ) V0 V2 O0 O2 R0 R2) hw d Φ
  dsimp only [reg2] at h
  refine BIBase.Entails.trans ?_ h
  iintro ⟨Hk, Hb, Hu, Hp, Ho, Hl, Hg, Ht⟩
  isplitl [Hk]; · iexact Hk
  isplitl [Hb]; · iexact Hb
  isplitl [Hu Hp Ho]
  · isplitl [Hu]; · iexact Hu
    isplitl [Hp]; · iexact Hp
    iexact Ho
  isplitl [Hl]; · iexact Hl
  isplitl [Hg]; · iexact Hg
  iexact Ht

end Enter

end Cert.Proof.KI

end
-- ==== Proof.ScRun.lean ====
/-
  The launch element (the handshakes' rounds and the two pipelines' staging cells), reading the final memory, and the
  SparseCore call as the TensorCore meets it: the six arrays split among the 32 tasks and joined again.
-/
import proofs.«210884_g88510686036700_cont_sun_m_1211_45_alg».proof.Proof.ScLaunch
import proofs.«210884_g88510686036700_cont_sun_m_1211_45_alg».proof.Proof.TcEnter

noncomputable section

namespace Cert.Proof.KI

open Cert.KernelIdeal Cert.KernelIdeal.Gen
open Cert.KernelIdeal.TcBody (adm)
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-! ## The launch element -/

/-- What @main's proof starts from beyond what the launch deals the TensorCore: both pipelines' staging cells' ghost state. -/
def G (d : Dev nD) : sProp 𝕄 :=
  bigSep Finset.univ fun p : Fin 2 =>
    iprop(Pipeline.cellsGhost (Pipeline.pin (pcfgs (F := F)) adm) EP p d ∗ Pipeline.toksInit (Pipeline.pin (pcfgs (F := F)) adm) EP p d)

def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj),
      (1 : Counters)))

theorem ownU_split3 (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

section HU

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P cu cv csrc cdst).x q thr) := by
  unfold u₀
  iintro Hu
  ihave H := (ownU_split3 _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_congr fun d _ => bigSep_sep' (Finset.univ : Finset (Fin 2)) _ _, bigSep_sep']
    isplitl [Hg]; · iexact Hg
    iexact Ht
  · rw [show (bigSep Finset.univ fun thr : Thread nD τ => bigSep Finset.univ fun q : Fin 1 => (P cu cv csrc cdst).x q thr) = (iprop(emp) : sProp 𝕄) from by
      show (bigSep Finset.univ fun _ : Thread nD τ => bigSep Finset.univ fun _ : Fin 1 => (iprop(emp) : sProp 𝕄)) = iprop(emp)
      rw [bigSep_congr fun _ _ => bigSep_emp' _, bigSep_emp']]
    iempintro

end HU

end Cert.Proof.KI

end
-- ==== Proof.ScRows.lean ====
/-
  The 320000 rows of a gathered array are partitioned by the 32 tasks: task w owns the rows of its consecutive blocks of
  128, the first four tasks 79 blocks each, the others 78. A row's owner is computed from its block number.
-/
import proofs.«210884_g88510686036700_cont_sun_m_1211_45_alg».proof.Proof.ScPay

noncomputable section

namespace Cert.Proof.KI

open Cert.KernelIdeal
open Idealize.ShloMosaic

theorem mem_rowsOf (w : Fin 32) (ix : S320000x128.Idx) :
    ix ∈ rowsOf w ↔ 128 * blk0 w ≤ (ix 0).val ∧ (ix 0).val < 128 * (blk0 w + nBlk w) := by
  simp [rowsOf]

/-- The task that owns row `r`. -/
def ownerOf (r : ℕ) : ℕ := if r / 128 < 316 then r / 128 / 79 else (r / 128 - 4) / 78

theorem owner_spec (w : Fin 32) (r : ℕ) :
    (128 * blk0 w ≤ r ∧ r < 128 * (blk0 w + nBlk w)) ↔ w.val = ownerOf r := by
  have hw := w.isLt
  unfold blk0 nBlk ownerOf
  split <;> split <;> omega

theorem ownerOf_lt (r : ℕ) (hr : r < 320000) : ownerOf r < 32 := by
  unfold ownerOf; split <;> omega

theorem row_lt (ix : S320000x128.Idx) : (ix 0).val < 320000 := (ix 0).isLt

theorem rows_disjoint : ∀ w ∈ (Finset.univ : Finset (Fin 32)), ∀ w' ∈ (Finset.univ : Finset (Fin 32)), w ≠ w' → Disjoint (rowsOf w) (rowsOf w') := by
  intro w _ w' _ hne
  refine Finset.disjoint_left.mpr fun ix h h' => hne (Fin.ext ?_)
  rw [mem_rowsOf, owner_spec] at h h'
  exact h.trans h'.symm

theorem rows_cover : (Finset.univ : Finset (Fin 32)).biUnion rowsOf = Finset.univ := by
  refine Finset.eq_univ_iff_forall.mpr fun ix => Finset.mem_biUnion.mpr ⟨⟨ownerOf (ix 0).val, ownerOf_lt _ (row_lt ix)⟩, Finset.mem_univ _, ?_⟩
  rw [mem_rowsOf, owner_spec]

/-- Task numbers are the pairs (SparseCore, subcore), subcores of core 0 first. -/
theorem taskNo_bij : Function.Bijective (fun p : Fin 2 × Fin 16 => taskNo p.1 p.2) := by
  constructor
  · rintro ⟨c, i⟩ ⟨c', i'⟩ h
    have h' : i.val + 16 * c.val = i'.val + 16 * c'.val := by simpa [taskNo] using congrArg Fin.val h
    have hi := i.isLt; have hi' := i'.isLt
    have h1 : c.val = c'.val := by omega
    have h2 : i.val = i'.val := by omega
    exact Prod.ext (Fin.ext h1) (Fin.ext h2)
  · intro w
    refine ⟨(⟨w.val / 16, by have := w.isLt; omega⟩, ⟨w.val % 16, Nat.mod_lt _ (by decide)⟩), Fin.ext ?_⟩
    show w.val % 16 + 16 * (w.val / 16) = w.val
    omega

end Cert.Proof.KI

end
-- ==== Proof.ScCall.lean ====
/-
  The SparseCore call as the TensorCore meets it. Going in, each of the four read arrays is cut into 32 read tokens
  (and a remainder the TensorCore keeps) and each of the two gathered arrays into the 32 tasks' row ranges; coming
  back the tokens rejoin to the whole arrays at their contents and the row ranges to whole arrays at some contents.
-/
import proofs.«210884_g88510686036700_cont_sun_m_1211_45_alg».proof.Proof.ScRun
import proofs.«210884_g88510686036700_cont_sun_m_1211_45_alg».proof.Proof.ScRows
import Idealize.ShloMosaic.Lib.ValueIdx

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Tasks as (SparseCore, subcore) pairs -/

theorem bigSep_tasks32 (Φ : Fin 32 → sProp 𝕄) :
    (bigSep Finset.univ fun c : Fin ((K (F := F)).nCore 0) => bigSep Finset.univ fun i : Fin ((K (F := F)).nSub 0) => Φ (taskAt (F := F) c i))
      = bigSep Finset.univ Φ := by
  show (bigSep (Finset.univ : Finset (Fin 2)) fun c => bigSep (Finset.univ : Finset (Fin 16)) fun i => Φ (taskNo c i)) = _
  rw [← SparseCore.bigSep_product (Finset.univ : Finset (Fin 2)) (Finset.univ : Finset (Fin 16)) (fun p : Fin 2 × Fin 16 => Φ (taskNo p.1 p.2)),
    Finset.univ_product_univ, ← SparseCore.bigSep_image_of_injOn (f := fun p : Fin 2 × Fin 16 => taskNo p.1 p.2) (taskNo_bij.1.injOn) Φ]
  congr 1

/-! ## An array every task reads: 32 tokens and a remainder -/

theorem toks_split {ℓ : Loc nD τ sig} (f : Buf (Elt F) ℓ) :
    (ℓ ↦{fullShare} f : sProp 𝕄) ⊣⊢ iprop((ℓ ↦{Transfers.shareDrop fullShare 32} f) ∗ bigSep Finset.univ fun w : Fin 32 => ℓ ↦{tok w} f) :=
  Transfers.pointsTo_toks fullShare 32

/-! ## A gathered array: the tasks' row ranges -/

theorem rows_split_s (d : Dev nD) (f : Buf (Elt F) (sLoc d)) :
    (sLoc d ↦{fullShare} f : sProp 𝕄) = bigSep Finset.univ fun w : Fin 32 => sLoc d ↦[rowsOf w]{fullShare} f := by
  rw [← pointsTo_biUnion Finset.univ (ℓ := sLoc d) rowsOf rows_disjoint, rows_cover]; try rfl
theorem rows_split_t (d : Dev nD) (f : Buf (Elt F) (tLoc d)) :
    (tLoc d ↦{fullShare} f : sProp 𝕄) = bigSep Finset.univ fun w : Fin 32 => tLoc d ↦[rowsOf w]{fullShare} f := by
  rw [← pointsTo_biUnion Finset.univ (ℓ := tLoc d) rowsOf rows_disjoint, rows_cover]; try rfl

theorem row_ex_s (d : Dev nD) (f : Buf (Elt F) (sLoc d)) (w : Fin 32) :
    (sLoc d ↦[rowsOf w]{fullShare} f : sProp 𝕄) ⊢ iprop(∃ f, sLoc d ↦[rowsOf w]{fullShare} f) := by
  iintro H; iexists f; iexact H
theorem row_ex_t (d : Dev nD) (f : Buf (Elt F) (tLoc d)) (w : Fin 32) :
    (tLoc d ↦[rowsOf w]{fullShare} f : sProp 𝕄) ⊢ iprop(∃ f, tLoc d ↦[rowsOf w]{fullShare} f) := by
  iintro H; iexists f; iexact H
theorem rows_ex_s (d : Dev nD) (f : Buf (Elt F) (sLoc d)) :
    (bigSep Finset.univ fun w : Fin 32 => (sLoc d ↦[rowsOf w]{fullShare} f : sProp 𝕄)) ⊢ bigSep Finset.univ fun w : Fin 32 => iprop(∃ f, sLoc d ↦[rowsOf w]{fullShare} f) :=
  bigSep_mono fun w _ => row_ex_s d f w
theorem rows_ex_t (d : Dev nD) (f : Buf (Elt F) (tLoc d)) :
    (bigSep Finset.univ fun w : Fin 32 => (tLoc d ↦[rowsOf w]{fullShare} f : sProp 𝕄)) ⊢ bigSep Finset.univ fun w : Fin 32 => iprop(∃ f, tLoc d ↦[rowsOf w]{fullShare} f) :=
  bigSep_mono fun w _ => row_ex_t d f w

theorem rows_join_s [∀ e, Nonempty (Elt F e)] (d : Dev nD) :
    (bigSep Finset.univ fun w : Fin 32 => iprop(∃ f, sLoc d ↦[rowsOf w]{fullShare} f)) ⊢ (iprop(∃ f, sLoc d ↦{fullShare} f) : sProp 𝕄) := by
  refine (bigSep_exists_pi Finset.univ (fun w (f : Buf (Elt F) (sLoc d)) => sLoc d ↦[rowsOf w]{fullShare} f)).trans ?_
  iintro ⟨%fs, H⟩
  ihave H' := (pointsTo_biUnion_join Finset.univ rowsOf fs (fs 0) rows_disjoint) $$ H
  icases H' with ⟨%g, -, Hg⟩
  rw [rows_cover]
  iexists g; iexact Hg
theorem rows_join_t [∀ e, Nonempty (Elt F e)] (d : Dev nD) :
    (bigSep Finset.univ fun w : Fin 32 => iprop(∃ f, tLoc d ↦[rowsOf w]{fullShare} f)) ⊢ (iprop(∃ f, tLoc d ↦{fullShare} f) : sProp 𝕄) := by
  refine (bigSep_exists_pi Finset.univ (fun w (f : Buf (Elt F) (tLoc d)) => tLoc d ↦[rowsOf w]{fullShare} f)).trans ?_
  iintro ⟨%fs, H⟩
  ihave H' := (pointsTo_biUnion_join Finset.univ rowsOf fs (fs 0) rows_disjoint) $$ H
  icases H' with ⟨%g, -, Hg⟩
  rw [rows_cover]
  iexists g; iexact Hg

/-! ## The six arrays, in and out -/

section Call

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- The tasks' gathered row ranges join to the whole first gathered array, every row gathered. -/
theorem rows_join_sV [∀ e, Nonempty (Elt F e)] (d : Dev nD) :
    (bigSep Finset.univ fun w : Fin 32 => iprop(∃ f, ⌜∀ e, ownsRow w e → GathS cu csrc d f e⌝ ∗ sLoc d ↦[rowsOf w]{fullShare} f))
      ⊢ (iprop(∃ f, ⌜∀ e, GathS cu csrc d f e⌝ ∗ sLoc d ↦{fullShare} f) : sProp 𝕄) := by
  refine (bigSep_exists_pi Finset.univ (fun w (f : Buf (Elt F) (sLoc d)) => iprop(⌜∀ e, ownsRow w e → GathS cu csrc d f e⌝ ∗ sLoc d ↦[rowsOf w]{fullShare} f))).trans ?_
  iintro ⟨%fs, H⟩
  ihave H1 := (bigSep_pure_sep Finset.univ (fun w : Fin 32 => ∀ e, ownsRow w e → GathS cu csrc d (fs w) e) (fun w => sLoc d ↦[rowsOf w]{fullShare} fs w)) $$ H
  icases H1 with ⟨%hφ, H2⟩
  ihave H' := (pointsTo_biUnion_join Finset.univ rowsOf fs (fs 0) rows_disjoint) $$ H2
  icases H' with ⟨%g, %hg, Hg⟩
  rw [rows_cover]
  iexists g; isplitr
  · ipureintro; intro e k
    have hw : ownsRow ⟨ownerOf e.val, ownerOf_lt _ e.isLt⟩ e := (owner_spec _ _).mpr rfl
    have hmem : (ValueIdx.ix2 e k : S320000x128.Idx) ∈ rowsOf ⟨ownerOf e.val, ownerOf_lt _ e.isLt⟩ := (mem_rowsOf _ _).mpr hw
    rw [hg _ (Finset.mem_univ _) _ hmem]; exact hφ _ (Finset.mem_univ _) e hw k
  · iexact Hg
theorem rows_join_tV [∀ e, Nonempty (Elt F e)] (d : Dev nD) :
    (bigSep Finset.univ fun w : Fin 32 => iprop(∃ f, ⌜∀ e, ownsRow w e → GathT cv cdst d f e⌝ ∗ tLoc d ↦[rowsOf w]{fullShare} f))
      ⊢ (iprop(∃ f, ⌜∀ e, GathT cv cdst d f e⌝ ∗ tLoc d ↦{fullShare} f) : sProp 𝕄) := by
  refine (bigSep_exists_pi Finset.univ (fun w (f : Buf (Elt F) (tLoc d)) => iprop(⌜∀ e, ownsRow w e → GathT cv cdst d f e⌝ ∗ tLoc d ↦[rowsOf w]{fullShare} f))).trans ?_
  iintro ⟨%fs, H⟩
  ihave H1 := (bigSep_pure_sep Finset.univ (fun w : Fin 32 => ∀ e, ownsRow w e → GathT cv cdst d (fs w) e) (fun w => tLoc d ↦[rowsOf w]{fullShare} fs w)) $$ H
  icases H1 with ⟨%hφ, H2⟩
  ihave H' := (pointsTo_biUnion_join Finset.univ rowsOf fs (fs 0) rows_disjoint) $$ H2
  icases H' with ⟨%g, %hg, Hg⟩
  rw [rows_cover]
  iexists g; isplitr
  · ipureintro; intro e k
    have hw : ownsRow ⟨ownerOf e.val, ownerOf_lt _ e.isLt⟩ e := (owner_spec _ _).mpr rfl
    have hmem : (ValueIdx.ix2 e k : S320000x128.Idx) ∈ rowsOf ⟨ownerOf e.val, ownerOf_lt _ e.isLt⟩ := (mem_rowsOf _ _).mpr hw
    rw [hg _ (Finset.mem_univ _) _ hmem]; exact hφ _ (Finset.mem_univ _) e hw k
  · iexact Hg

/-- What the TensorCore gets back: the two gathered arrays gathered. -/
def callResOut (d : Dev nD) : sProp 𝕄 :=
  iprop((uLoc d ↦{fullShare} cu d) ∗ (vLoc d ↦{fullShare} cv d) ∗ (srcLoc d ↦{fullShare} csrc d) ∗ (dstLoc d ↦{fullShare} cdst d)
    ∗ (∃ f, ⌜∀ e, GathS cu csrc d f e⌝ ∗ sLoc d ↦{fullShare} f) ∗ (∃ f, ⌜∀ e, GathT cv cdst d f e⌝ ∗ tLoc d ↦{fullShare} f))

/-- What the TensorCore holds of the six arrays at the call: the four read arrays at their contents, the two gathered
    arrays at some contents. -/
def callRes (d : Dev nD) : sProp 𝕄 :=
  iprop((uLoc d ↦{fullShare} cu d) ∗ (vLoc d ↦{fullShare} cv d) ∗ (srcLoc d ↦{fullShare} csrc d) ∗ (dstLoc d ↦{fullShare} cdst d)
    ∗ (∃ f, sLoc d ↦{fullShare} f) ∗ (∃ f, tLoc d ↦{fullShare} f))

/-- What it keeps during the call: the remainders of the read arrays. -/
def keepRes (d : Dev nD) : sProp 𝕄 :=
  iprop((uLoc d ↦{Transfers.shareDrop fullShare 32} cu d) ∗ (vLoc d ↦{Transfers.shareDrop fullShare 32} cv d)
    ∗ (srcLoc d ↦{Transfers.shareDrop fullShare 32} csrc d) ∗ (dstLoc d ↦{Transfers.shareDrop fullShare 32} cdst d))

theorem call_split (d : Dev nD) :
    callRes cu cv csrc cdst d ⊢ iprop(keepRes cu cv csrc cdst d ∗ bigSep Finset.univ fun w : Fin 32 => taskRes cu cv csrc cdst d w) := by
  unfold callRes keepRes taskRes readRes writeRes
  rw [bigSep_sep', bigSep_sep', bigSep_sep', bigSep_sep', bigSep_sep']
  iintro ⟨Hu, Hv, Hsrc, Hdst, ⟨%fs, Hs⟩, ⟨%ft, Ht⟩⟩
  have hu := (toks_split (F := F) (cu d)).1
  have hv := (toks_split (F := F) (cv d)).1
  have hsrc := (toks_split (F := F) (csrc d)).1
  have hdst := (toks_split (F := F) (cdst d)).1
  ihave Hu2 := hu $$ Hu
  ihave Hv2 := hv $$ Hv
  ihave Hsrc2 := hsrc $$ Hsrc
  ihave Hdst2 := hdst $$ Hdst
  icases Hu2 with ⟨Hud, Hut⟩
  icases Hv2 with ⟨Hvd, Hvt⟩
  icases Hsrc2 with ⟨Hsrcd, Hsrct⟩
  icases Hdst2 with ⟨Hdstd, Hdstt⟩
  ihave Hs2 := (Entails.of_eq (rows_split_s d fs)) $$ Hs
  ihave Ht2 := (Entails.of_eq (rows_split_t d ft)) $$ Ht
  ihave Hs3 := (rows_ex_s d fs) $$ Hs2
  ihave Ht3 := (rows_ex_t d ft) $$ Ht2
  isplitl [Hud Hvd Hsrcd Hdstd]
  · isplitl [Hud]; · iexact Hud
    isplitl [Hvd]; · iexact Hvd
    isplitl [Hsrcd]; · iexact Hsrcd
    iexact Hdstd
  isplitl [Hut Hvt Hsrct Hdstt]
  · isplitl [Hut]; · iexact Hut
    isplitl [Hvt]; · iexact Hvt
    isplitl [Hsrct]; · iexact Hsrct
    iexact Hdstt
  isplitl [Hs3]; · iexact Hs3
  iexact Ht3

theorem call_join [∀ e, Nonempty (Elt F e)] (d : Dev nD) :
    iprop(keepRes cu cv csrc cdst d ∗ bigSep Finset.univ fun w : Fin 32 => taskResOut cu cv csrc cdst d w) ⊢ callResOut cu cv csrc cdst d := by
  unfold callResOut keepRes taskResOut readRes writeResOut
  rw [bigSep_sep', bigSep_sep', bigSep_sep', bigSep_sep', bigSep_sep']
  iintro ⟨⟨Hud, Hvd, Hsrcd, Hdstd⟩, ⟨Hut, Hvt, Hsrct, Hdstt⟩, Hs, Ht⟩
  isplitl [Hud Hut]
  · have hu := (toks_split (F := F) (cu d)).2
    iapply hu; isplitl [Hud]; · iexact Hud
    iexact Hut
  isplitl [Hvd Hvt]
  · have hv := (toks_split (F := F) (cv d)).2
    iapply hv; isplitl [Hvd]; · iexact Hvd
    iexact Hvt
  isplitl [Hsrcd Hsrct]
  · have hsrc := (toks_split (F := F) (csrc d)).2
    iapply hsrc; isplitl [Hsrcd]; · iexact Hsrcd
    iexact Hsrct
  isplitl [Hdstd Hdstt]
  · have hdst := (toks_split (F := F) (cdst d)).2
    iapply hdst; isplitl [Hdstd]; · iexact Hdstd
    iexact Hdstt
  isplitl [Hs]
  · iapply (rows_join_sV cu csrc d); iexact Hs
  iapply (rows_join_tV cv cdst d); iexact Ht

theorem st0_eq (d : Dev nD) :
    (bigSep Finset.univ fun c : Fin ((K (F := F)).nCore 0) => (P cu cv csrc cdst).st 0 d c) = bigSep Finset.univ fun w : Fin 32 => taskRes cu cv csrc cdst d w :=
  bigSep_tasks32 (fun w => taskRes cu cv csrc cdst d w)
theorem dn0_eq (d : Dev nD) :
    (bigSep Finset.univ fun c : Fin ((K (F := F)).nCore 0) => (P cu cv csrc cdst).dn 0 d c) = bigSep Finset.univ fun w : Fin 32 => taskResOut cu cv csrc cdst d w :=
  bigSep_tasks32 (fun w => taskResOut cu cv csrc cdst d w)

variable [FloatOps F]

/-- The call: the TensorCore hands the six arrays over, every task runs, and it gets them back. -/
theorem wp_call [∀ e, Nonempty (Elt F e)] (κ : GSem nD τ sig → ℕ) (d : Dev nD) (Φ : PUnit → sProp 𝕄) :
    iprop((K (F := F)).ctx EH (P cu cv csrc cdst) κ ∗ (K (F := F)).tcSt EH d 0 ∗ callRes cu cv csrc cdst d
        ∗ (iprop((K (F := F)).tcSt EH d 1 ∗ callResOut cu cv csrc cdst d) -∗ Φ ⟨⟩))
      ⊢ wp frame (wpE ((K (F := F)).defs (D (F := F))) 𝒱 (SparseCore.T d) none) Set.univ ((K (F := F)).run d 0) Φ := by
  iintro ⟨#Hctx, Hst, Hres, Hk⟩
  ihave Hres2 := (call_split cu cv csrc cdst d) $$ Hres
  icases Hres2 with ⟨Hkeep, Htasks⟩
  iapply ((K (F := F)).wp_run (D (F := F)) 𝒱 (EH := EH) (P := P cu cv csrc cdst) κ d 0) $$ [Hst Htasks Hkeep Hk]
  isplitr; · iexact Hctx
  isplitl [Hst]; · iexact Hst
  isplitl [Htasks]
  · iapply (Entails.of_eq (st0_eq cu cv csrc cdst d).symm); iexact Htasks
  iintro ⟨Hst, Hdn⟩
  ihave Hdn2 := (Entails.of_eq (dn0_eq cu cv csrc cdst d)) $$ Hdn
  iapply Hk
  isplitl [Hst]; · iexact Hst
  iapply (call_join cu cv csrc cdst d)
  isplitl [Hkeep]; · iexact Hkeep
  iexact Hdn2

end Call

end Cert.Proof.KI

end
-- ==== Proof.ScHeld.lean ====
/-
  Book-keeping over the TensorCore's unscoped buffers held as one set: the six arrays of the SparseCore call taken out
  of the set and put back with the two gathered arrays at new contents; and what a held set says of the final memory.
-/
import proofs.«210884_g88510686036700_cont_sun_m_1211_45_alg».proof.Proof.ScCall

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 1) (Elt F) ℕ UU ℕ

abbrev u' : DevRef τ sig := Proc.devRef .tc (main_v4_0 : Ref sig .tc)
abbrev v' : DevRef τ sig := Proc.devRef .tc (main_v4_1 : Ref sig .tc)
abbrev src' : DevRef τ sig := Proc.devRef .tc (main_v12 : Ref sig .tc)
abbrev dst' : DevRef τ sig := Proc.devRef .tc (main_v13 : Ref sig .tc)
abbrev s' : DevRef τ sig := Proc.devRef .tc (main_v14_0 : Ref sig .tc)
abbrev t' : DevRef τ sig := Proc.devRef .tc (main_v14_1 : Ref sig .tc)

/-- The six arrays the SparseCore call exchanges. -/
abbrev T6 : Finset (DevRef τ sig) := {u', v', src', dst', s', t'}

theorem T6_sub : T6 ⊆ Pipeline.ucRefs τ sig := by decide

theorem held_T6 (d : Dev nD) (X : Valuation τ sig (Elt F)) :
    (held (T d) T6 X : sProp 𝕄) = iprop((uLoc d ↦{fullShare} X u') ∗ (vLoc d ↦{fullShare} X v') ∗ (srcLoc d ↦{fullShare} X src')
      ∗ (dstLoc d ↦{fullShare} X dst') ∗ (sLoc d ↦{fullShare} X s') ∗ (tLoc d ↦{fullShare} X t')) := by
  unfold held T6
  rw [SparseCore.bigSep_insert' (by decide), SparseCore.bigSep_insert' (by decide), SparseCore.bigSep_insert' (by decide),
    SparseCore.bigSep_insert' (by decide), SparseCore.bigSep_insert' (by decide), bigSep_singleton]

/-- The valuation after the call: the two gathered arrays at what the tasks left. -/
def afterCall (X : Valuation τ sig (Elt F)) (fs : s'.ty.Contents (Elt F)) (ft : t'.ty.Contents (Elt F)) : Valuation τ sig (Elt F) :=
  Function.update (Function.update X s' fs) t' ft

theorem afterCall_s (X : Valuation τ sig (Elt F)) (fs ft) : afterCall X fs ft s' = fs := by
  unfold afterCall; rw [Function.update_of_ne (show s' ≠ t' by decide), Function.update_self]
theorem afterCall_t (X : Valuation τ sig (Elt F)) (fs ft) : afterCall X fs ft t' = ft := by
  unfold afterCall; rw [Function.update_self]
theorem afterCall_of_ne (X : Valuation τ sig (Elt F)) (fs ft) {b : DevRef τ sig} (hs : b ≠ s') (ht : b ≠ t') : afterCall X fs ft b = X b := by
  unfold afterCall; rw [Function.update_of_ne ht, Function.update_of_ne hs]

/-- What a held set says of a memory. -/
theorem held_SI (c : Thread nD τ) (S : Finset (DevRef τ sig)) (X : Valuation τ sig (Elt F)) (st : Phys nD τ sig (Elt F)) :
    iprop((held c S X : sProp 𝕄) ∗ SI st) ⊢ (⌜∀ b ∈ S, st.mem.mem (c.1, b) = X b⌝ : sProp 𝕄) := by
  classical
  induction S using Finset.induction_on with
  | empty => iintro -; ipureintro; intro b hb; exact absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := st) (ℓ := ((c.1, b) : Loc nD τ sig)) (I := Finset.univ) (q := fullShare) (f := X b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

end Cert.Proof.KI

end
-- ==== Proof.ScMain.lean ====
/-
  The program's run from the launch theorem: the task obligation, the split, the launch element, @main on the
  TensorCore, and what the final memory says of the eleven argument arrays.
-/
import proofs.«210884_g88510686036700_cont_sun_m_1211_45_alg».proof.Proof.ScHeld

noncomputable section

namespace Cert.Proof.KI

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 1) (Elt F) ℕ UU ℕ

/-- The eleven argument arrays. -/
abbrev SArgs : Finset (DevRef τ sig) :=
  {Proc.devRef .tc (main_arg0 : Ref sig .tc), Proc.devRef .tc (main_arg1 : Ref sig .tc), Proc.devRef .tc (main_arg2 : Ref sig .tc),
   Proc.devRef .tc (main_arg3 : Ref sig .tc), Proc.devRef .tc (main_arg4 : Ref sig .tc), Proc.devRef .tc (main_arg5 : Ref sig .tc),
   Proc.devRef .tc (main_arg6 : Ref sig .tc), Proc.devRef .tc (main_arg7 : Ref sig .tc), Proc.devRef .tc (main_arg8 : Ref sig .tc),
   Proc.devRef .tc (main_arg9 : Ref sig .tc), Proc.devRef .tc (main_arg10 : Ref sig .tc)}

section Run

variable (m : (ℓ : Loc nD τ sig) → Buf (Elt F) ℓ) (ρ : Dev nD → PrngReg)
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- What @main leaves for the claim: the argument arrays at their launch contents. -/
def FIN (d : Dev nD) : sProp 𝕄 := held (SparseCore.T d) SArgs (StableHlo.launchContents m d)

def fq (d : Dev nD) (st : Phys nD τ sig (Elt F)) : Prop := ∀ b ∈ SArgs, st.mem.mem (d, b) = m (d, b)

theorem hfin (d : Dev nD) (st : Phys nD τ sig (Elt F)) : iprop(FIN m d ∗ SI st) ⊢ (⌜fq m d st⌝ : sProp 𝕄) :=
  held_SI (SparseCore.T d) SArgs (StableHlo.launchContents m d) st

def QC : PUnit × MemSt nD τ sig (Elt F) → Prop := fun r => ∀ c : Dev nD, ∀ b ∈ SArgs, r.2.mem (c, b) = m (c, b)

variable [FloatOps F]

theorem run_main [∀ e, Nonempty (Elt F e)] (hT : TileStmtV cu cv csrc cdst) (hidx : IdxOK csrc cdst)
    (hmain : ∀ (κ : GSem nD τ sig → ℕ) (d : Dev nD),
      iprop((K (F := F)).ctx EH (P cu cv csrc cdst) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P cu cv csrc cdst) facts v₀
    (fun q hq => match q with | 0 => nomatch hq)
    (fun q _ => match q with | 0 => tileObl cu cv csrc cdst hT facts hidx)
    (fun q _ => match q with | 0 => SparseCore.Cfg.VecSplit.of_plain (vecSplit cu cv csrc cdst))
    m ρ main (fun d => G (F := F) d) (FIN m) (u₀ (F := F)) (sep_elim_left.trans (hu₀ cu cv csrc cdst)) hmain (fq m) (hfin m) (QC m) (fun _ h => h)

end Run

end Cert.Proof.KI

end
-- ==== Proof.TcMain.lean ====
import proofs.«210884_g88510686036700_cont_sun_m_1211_45_alg».proof.Proof.TcEnter
import Idealize.ShloMosaic.Lib.Pipeline.FrameSuffix

set_option maxRecDepth 16384
set_option Elab.async false

noncomputable section

namespace Cert.Proof.KI

open Cert.KernelIdeal Cert.KernelIdeal.Gen Cert.KernelIdeal.TcBody
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## @main as three host stretches, two regions and the SparseCore call -/

/-- The extended signature @main runs in. -/
abbrev ΛS : Labels := SparseCore.Sig (ΛP (F := F)) 1
/-- The host operations before the projection: the three weight slices and the bias row. -/
abbrev ops0 : List (HloOp τ sig (Elt F)) :=
  [ StableHlo.unary main_arg3 main_v0 ((extractStridedSlice S128x128 ![0, 0] · slices_S272x128_S128x128_0_0) : (⟨S272x128, .f32⟩ : BufTy).Contents (Elt F) → (⟨S128x128, .f32⟩ : BufTy).Contents (Elt F)),
    StableHlo.unary main_arg3 main_v1 ((extractStridedSlice S128x128 ![128, 0] · slices_S272x128_S128x128_128_0) : (⟨S272x128, .f32⟩ : BufTy).Contents (Elt F) → (⟨S128x128, .f32⟩ : BufTy).Contents (Elt F)),
    StableHlo.unary main_arg3 main_v2 ((extractStridedSlice S16x128 ![256, 0] · slices_S272x128_S16x128_256_0) : (⟨S272x128, .f32⟩ : BufTy).Contents (Elt F) → (⟨S16x128, .f32⟩ : BufTy).Contents (Elt F)),
    StableHlo.reshape main_arg4 main_v3 rfl shapeCasts_S128_S1x128 ]
theorem ops0_sub : (ops0 : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub ..⟩
theorem ops0_fresh : (ops0 : List (HloOp τ sig (Elt F))).Forall fun op => op.fresh = ∅ := by
  simp only [List.Forall]; repeat' constructor

/-- The host operations between the projection and the SparseCore call: the two index rows and the edge features, each through an identity pad. -/
abbrev ops1 : List (HloOp τ sig (Elt F)) :=
  [ StableHlo.unary main_arg2 main_v5 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v5 main_v6 rfl shapeCasts_S1x320000_S320000,
    StableHlo.nullary main_c (constantI S_ 32 0#32),
    StableHlo.TRef.unary (.of main_c : StableHlo.TRef sig ⟨S_, .i32⟩) (.of main_call0_v0 : StableHlo.TRef sig ⟨S_, .i32⟩) id,
    StableHlo.TRef.binary (.of main_v6 : StableHlo.TRef sig ⟨S320000, .i32⟩) (.of main_call0_v0 : StableHlo.TRef sig ⟨S_, .i32⟩) (.of main_v7 : StableHlo.TRef sig ⟨S320000, .i32⟩) (fun x v => pad S320000 ![0] ![0] ![0] x v pads_S320000_S320000_000 h_S_),
    StableHlo.unary main_arg2 main_v8 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v8 main_v9 rfl shapeCasts_S1x320000_S320000,
    StableHlo.nullary main_c_0 (constantI S_ 32 0#32),
    StableHlo.TRef.unary (.of main_c_0 : StableHlo.TRef sig ⟨S_, .i32⟩) (.of main_call1_v0 : StableHlo.TRef sig ⟨S_, .i32⟩) id,
    StableHlo.TRef.binary (.of main_v9 : StableHlo.TRef sig ⟨S320000, .i32⟩) (.of main_call1_v0 : StableHlo.TRef sig ⟨S_, .i32⟩) (.of main_v10 : StableHlo.TRef sig ⟨S320000, .i32⟩) (fun x v => pad S320000 ![0] ![0] ![0] x v pads_S320000_S320000_000 h_S_),
    StableHlo.nullary main_c_1 (constantI S_ 32 0#32),
    StableHlo.TRef.unary (.of main_c_1 : StableHlo.TRef sig ⟨S_, .i32⟩) (.of main_call2_v0 : StableHlo.TRef sig ⟨S_, .f32⟩) (sitofp .f32),
    StableHlo.TRef.binary (.of main_arg0 : StableHlo.TRef sig ⟨S320000x16, .f32⟩) (.of main_call2_v0 : StableHlo.TRef sig ⟨S_, .f32⟩) (.of main_v11 : StableHlo.TRef sig ⟨S320000x16, .f32⟩) (fun x v => pad S320000x16 ![0, 0] ![0, 0] ![0, 0] x v pads_S320000x16_S320000x16_000_000 h_S_),
    StableHlo.reshape main_v7 main_v12 rfl shapeCasts_S320000_S1x320000,
    StableHlo.reshape main_v10 main_v13 rfl shapeCasts_S320000_S1x320000 ]
theorem ops1_sub : (ops1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub ..⟩
theorem ops1_fresh : (ops1 : List (HloOp τ sig (Elt F))).Forall fun op => op.fresh = ∅ := by
  simp only [List.Forall]; repeat' constructor

/-- The host operations between the SparseCore call and the MLP: the bias, scale and shift rows. -/
abbrev ops2 : List (HloOp τ sig (Elt F)) :=
  [ StableHlo.reshape main_arg6 main_v15 rfl shapeCasts_S128_S1x128,
    StableHlo.reshape main_arg8 main_v16 rfl shapeCasts_S16_S1x16,
    StableHlo.reshape main_arg9 main_v17 rfl shapeCasts_S16_S1x16,
    StableHlo.reshape main_arg10 main_v18 rfl shapeCasts_S16_S1x16 ]
theorem ops2_sub : (ops2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
theorem ops2_fresh : (ops2 : List (HloOp τ sig (Elt F))).Forall fun op => op.fresh = ∅ := by
  simp only [List.Forall]; repeat' constructor

/-- @main up to the SparseCore call: the first stretch, the projection's region, the second stretch. -/
def preProg : Prog (TpuEff nD τ sig (Elt F) (ΛS (F := F)) .tc) PUnit :=
  StableHlo.seq ops0 >>= fun _ => Prog.lift (.customCall (SparseCore.inner (Pipeline.entry 0)) ()) >>= fun _ => StableHlo.seq ops1

/-- @main after the SparseCore call: the third stretch, the MLP's region, the return. -/
def postProg : Prog (TpuEff nD τ sig (Elt F) (ΛS (F := F)) .tc) PUnit :=
  StableHlo.seq ops2 >>= fun _ => Prog.lift (.customCall (SparseCore.inner (Pipeline.entry 1)) ()) >>= fun _ => pure ⟨⟩

/-- @main is the three in order, the SparseCore call between the first two and the last. -/
theorem main_split (d : Dev nD) :
    main (F := F) d = (preProg >>= fun _ => (sc (F := F)).run d 0 >>= fun _ => postProg) := by
  unfold preProg postProg
  chain_rfl

/-! ## A host stretch over the unscoped buffers -/

set_option backward.isDefEq.respectTransparency.types false in
/-- A line of host operations at the head of the TensorCore's program, holding the region boundary and every unscoped
    buffer at a valuation: it runs to its end, where the buffers are at the valuation the operations leave. -/
theorem wp_stretch (ops : List (HloOp τ sig (Elt F))) (hsub : ops.Forall fun op => op.bufs ⊆ StableHlo.tcRefs τ sig)
    (hfresh : ops.Forall fun op => op.fresh = ∅) (W : Valuation τ sig (Elt F)) (d : Dev nD) {β : Type}
    (k : PUnit → Prog (TpuEff nD τ sig (Elt F) (ΛS (F := F)) .tc) β) (Ψ : β → sProp 𝕄) :
    iprop(boundary (T d) ∗ unscopedBufs d (fun b => W b)
        ∗ (iprop(boundary (T d) ∗ unscopedBufs d (fun b => StableHlo.after ops W b))
            -∗ wp frame (wpE ((K (F := F)).defs D) 𝒱 (T d) none) Set.univ (k ⟨⟩) Ψ))
      ⊢ wp frame (wpE ((K (F := F)).defs D) 𝒱 (T d) none) Set.univ (StableHlo.seq ops >>= k) Ψ := by
  rw [Pipeline.unscopedBufs_held, Pipeline.unscopedBufs_held]
  iintro ⟨Hb, Hu, Hk⟩
  iapply (StableHlo.wp_seq (defs := (K (F := F)).defs D) 𝒱 none Set.univ d (Pipeline.ucRefs τ sig) k ops
    (fun op h => Pipeline.sub_ucRefs op ((List.forall_iff_forall_mem.mp hsub) op h))
    (fun op h => (List.forall_iff_forall_mem.mp hfresh) op h) W) $$ [Hb Hu]
  · isplitl [Hb]; · iexact Hb
    iexact Hu
  iexact Hk

/-! ## The buffers' contents along @main -/

/-- A valuation of every device read at the TensorCore's references: what the regions' proof data take. -/
abbrev atTc (W : Dev nD → Valuation τ sig (Elt F)) : (c : Dev nD) → (b : Ref sig .tc) → Buf (Elt F) ((c : Thread nD τ).loc b) := fun c b => W c (Proc.devRef .tc b)

section Pre

variable (m : (ℓ : Loc nD τ sig) → Buf (Elt F) ℓ) (O0 : Dev nD → CellTallies nD τ sig (HIx 1)) (R0 : Dev nD → Set (SemLoc sig × HIx 1))
  (L : GSem nD τ sig → Finset (HIx 1)) (lv : GSem nD τ sig → HIx 1 → ℕ)

/-- The device's buffers when the projection's region is entered: the launch contents after the first stretch. -/
def WEntry0 (d : Dev nD) : Valuation τ sig (Elt F) := StableHlo.after ops0 (StableHlo.launchContents m d)

/-- When it is left: the region's arrays at what the pipeline leaves in them, every other buffer as entered. -/
def WExit0 (d : Dev nD) : Valuation τ sig (Elt F) :=
  Pipeline.withArrays spec0 d (WEntry0 m d) fun w => (dat0 (F := F) (Ix := HIx 1) (Name := ℕ) (U := UU) (Lvl := ℕ) (atTc (WEntry0 m)) O0 R0 d).arrAt w cfg0.N

/-- When the SparseCore call is reached: after the second stretch. -/
def VCall (d : Dev nD) : Valuation τ sig (Elt F) := StableHlo.after ops1 (WExit0 m O0 R0 d)

/-- The exit valuation read at a TensorCore reference is the packaged exit contents of the region. -/
theorem WExit0_tc (d : Dev nD) (b : Ref sig .tc) :
    WExit0 m O0 R0 d (Proc.devRef .tc b) = VAfter0 (Ix := HIx 1) (Name := ℕ) (U := UU) (Lvl := ℕ) (atTc (WEntry0 m)) (atTc (WEntry0 m)) O0 O0 R0 R0 d b := by
  by_cases h : ∃ w, Pipeline.arrRef spec0 w = b
  · obtain ⟨w, rfl⟩ := h
    unfold WExit0
    rw [Pipeline.withArrays_arr spec0 launch0.win.arr_inj d _ _ w]
    exact hF0 (Ix := HIx 1) (Name := ℕ) (U := UU) (Lvl := ℕ) (atTc (WEntry0 m)) (atTc (WEntry0 m)) O0 O0 R0 R0 d w
  · unfold WExit0
    rw [Pipeline.withArrays_of_ne spec0 d _ _ b (fun w e => h ⟨w, e⟩)]
    exact (hrest0 (Ix := HIx 1) (Name := ℕ) (U := UU) (Lvl := ℕ) (atTc (WEntry0 m)) (atTc (WEntry0 m)) O0 O0 R0 R0 d b
      (fun hb => by obtain ⟨w, -, e⟩ := Finset.mem_image.mp hb; exact h ⟨w, e⟩)).symm

set_option backward.isDefEq.respectTransparency.types false in
/-- The second stretch, from the projection region's exit contents to the SparseCore call. -/
theorem wp_pre_tail (d : Dev nD) (Φ : PUnit → sProp 𝕄) :
    iprop((iprop(boundary (T d) ∗ unscopedBufs d (fun b => VCall m O0 R0 d b) ∗ (∃ r, prngReg d r)
            ∗ ∃ W : Waits sig (HIx 1), ⌜(↑W : Set (SemLoc sig × HIx 1)) ⊆ R0 d ∪ cfg0.waitPairs none⌝ ∗ owes (d : Thread nD τ) (O0 d) W) -∗ Φ ⟨⟩)
        ∗ boundary (T d) ∗ unscopedBufs d (VAfter0 (Ix := HIx 1) (Name := ℕ) (U := UU) (Lvl := ℕ) (atTc (WEntry0 m)) (atTc (WEntry0 m)) O0 O0 R0 R0 d) ∗ (∃ r, prngReg d r)
        ∗ (∃ W : Waits sig (HIx 1), ⌜(↑W : Set (SemLoc sig × HIx 1)) ⊆ R0 d ∪ cfg0.waitPairs none⌝ ∗ owes (d : Thread nD τ) (O0 d) W))
      ⊢ wp frame (wpE ((K (F := F)).defs D) 𝒱 (T d) none) Set.univ (StableHlo.seq (Λ := ΛS (F := F)) (nD := nD) ops1) Φ := by
  rw [show (unscopedBufs d (VAfter0 (Ix := HIx 1) (Name := ℕ) (U := UU) (Lvl := ℕ) (atTc (WEntry0 m)) (atTc (WEntry0 m)) O0 O0 R0 R0 d) : sProp 𝕄)
      = unscopedBufs d (fun b => WExit0 m O0 R0 d b) from
    congrArg (unscopedBufs d) (funext fun b => (WExit0_tc m O0 R0 d b).symm),
    show (StableHlo.seq (Λ := ΛS (F := F)) (nD := nD) ops1) = (StableHlo.seq ops1 >>= fun _ => Prog.ret PUnit.unit) from (bind_pure _).symm]
  iintro ⟨Hk, Hb, Hu, Hp, Ho⟩
  iapply (wp_stretch ops1 ops1_sub ops1_fresh (WExit0 m O0 R0 d) d (fun _ => Prog.ret PUnit.unit) Φ)
  isplitl [Hb]; · iexact Hb
  isplitl [Hu]; · iexact Hu
  iintro ⟨Hb, Hu⟩
  rw [wp_ret]; imodintro
  iapply Hk
  isplitl [Hb]; · iexact Hb
  isplitl [Hu]; · iexact Hu
  isplitl [Hp]; · iexact Hp
  iexact Ho

set_option backward.isDefEq.respectTransparency.types false in
/-- @MAIN UP TO THE SPARSECORE CALL: from the launch contents, the generator register, what the core owes, the level
    facts and the projection's staging cells' ghost state, to the contents `VCall` with the same owed. -/
theorem wp_pre (hw0 : ∀ (c : Dev nD) (w : Fin cfg0.W) (s : Fin (cfg0.win w).nbuf),
      (levAts L lv : sProp 𝕄) ⊢ MayWait c (.dma ((cfg0.win w).sem s)) none (O0 c))
    (d : Dev nD) (Φ : PUnit → sProp 𝕄) :
    iprop((iprop(boundary (T d) ∗ unscopedBufs d (fun b => VCall m O0 R0 d b) ∗ (∃ r, prngReg d r)
            ∗ ∃ W : Waits sig (HIx 1), ⌜(↑W : Set (SemLoc sig × HIx 1)) ⊆ R0 d ∪ cfg0.waitPairs none⌝ ∗ owes (d : Thread nD τ) (O0 d) W) -∗ Φ ⟨⟩)
        ∗ boundary (T d) ∗ unscopedBufs d (fun b => StableHlo.launchContents m d b) ∗ (∃ r, prngReg d r)
        ∗ (∃ W : Waits sig (HIx 1), ⌜(↑W : Set (SemLoc sig × HIx 1)) ⊆ R0 d⌝ ∗ owes (d : Thread nD τ) (O0 d) W) ∗ levAts L lv
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ (preProg (F := F)) Φ := by
  unfold preProg
  iintro ⟨Hk, Hb, Hu, Hp, Ho, Hl, Hg, Ht⟩
  iapply (wp_stretch ops0 ops0_sub ops0_fresh (StableHlo.launchContents m d) d _ Φ)
  isplitl [Hb]; · iexact Hb
  isplitl [Hu]; · iexact Hu
  iintro ⟨Hb, Hu⟩
  rw [wp_bind]
  iapply (enter0A (atTc (WEntry0 m)) (atTc (WEntry0 m)) O0 O0 R0 R0 L lv hw0 d _)
  isplitr [Hb Hu Hp Ho Hl Hg Ht]
  swap
  · isplitl [Hb]; · iexact Hb
    isplitl [Hu]; · iexact Hu
    isplitl [Hp]; · iexact Hp
    isplitl [Ho]; · iexact Ho
    isplitl [Hl]; · iexact Hl
    isplitl [Hg]; · iexact Hg
    iexact Ht
  iintro H
  iapply (wp_pre_tail m O0 R0 d Φ)
  isplitl [Hk]; · iexact Hk
  iexact H

end Pre

/-! ## What the stretches write, and what reaches the SparseCore call unchanged -/

/-- The references `ops0`'s operations write. -/
abbrev ops0_W : List (Ref sig .tc) := [main_v0, main_v1, main_v2, main_v3]
theorem ops0_writes : (ops0 : List (HloOp τ sig (Elt F))).Forall fun op => op.writes ⊆ (ops0_W.map (Proc.devRef (τ := τ) .tc)).toFinset := by
  simp only [List.Forall]
  refine ⟨?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `ops1`'s operations write. -/
abbrev ops1_W : List (Ref sig .tc) := [main_v5, main_v6, main_c, main_call0_v0, main_v7, main_v8, main_v9, main_c_0, main_call1_v0, main_v10, main_c_1, main_call2_v0, main_v11, main_v12, main_v13]
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `ops2`'s operations write. -/
abbrev ops2_W : List (Ref sig .tc) := [main_v15, main_v16, main_v17, main_v18]
theorem ops2_writes : (ops2 : List (HloOp τ sig (Elt F))).Forall fun op => op.writes ⊆ (ops2_W.map (Proc.devRef (τ := τ) .tc)).toFinset := by
  simp only [List.Forall]
  refine ⟨?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

section PreBook

variable (m : (ℓ : Loc nD τ sig) → Buf (Elt F) ℓ) (O0 : Dev nD → CellTallies nD τ sig (HIx 1)) (R0 : Dev nD → Set (SemLoc sig × HIx 1))

/-- A buffer no stretch writes and that is no result array of the projection holds, at the SparseCore call, its launch contents. -/
theorem VCall_of_not_written (d : Dev nD) (b : Ref sig .tc) (h0 : b ∉ (ops0_W : List (Ref sig .tc))) (h1 : b ∉ (ops1_W : List (Ref sig .tc)))
    (h4 : b ≠ main_v4_0) (h5 : b ≠ main_v4_1) :
    VCall m O0 R0 d (Proc.devRef .tc b) = m (d, Proc.devRef .tc b) := by
  unfold VCall
  rw [StableHlo.after_of_writes_sub ops1 _ ops1_writes h1, WExit0_tc, VAfter0_of_not_out _ _ _ _ _ _ d b h4 h5]
  show WEntry0 m d (Proc.devRef .tc b) = _
  unfold WEntry0
  rw [StableHlo.after_of_writes_sub ops0 _ ops0_writes h0]

/-- The first projected table at the SparseCore call: what the projection's write-back left. -/
theorem VCall_v4_0 (d : Dev nD) :
    VCall m O0 R0 d (Proc.devRef .tc main_v4_0) = (dat0 (F := F) (Ix := HIx 1) (Name := ℕ) (U := UU) (Lvl := ℕ) (atTc (WEntry0 m)) O0 R0 d).arrAt 4 cfg0.N := by
  unfold VCall
  rw [StableHlo.after_of_writes_sub ops1 _ ops1_writes (by decide), WExit0_tc]
  exact VAfter0_v4_0 _ _ _ _ _ _ d
/-- The second projected table at the SparseCore call. -/
theorem VCall_v4_1 (d : Dev nD) :
    VCall m O0 R0 d (Proc.devRef .tc main_v4_1) = (dat0 (F := F) (Ix := HIx 1) (Name := ℕ) (U := UU) (Lvl := ℕ) (atTc (WEntry0 m)) O0 R0 d).arrAt 5 cfg0.N := by
  unfold VCall
  rw [StableHlo.after_of_writes_sub ops1 _ ops1_writes (by decide), WExit0_tc]
  exact VAfter0_v4_1 _ _ _ _ _ _ d

/-- No stretch and no region writes an argument: each holds its launch contents at the SparseCore call. -/
theorem VCall_main_arg0 (d : Dev nD) : VCall m O0 R0 d (Proc.devRef .tc main_arg0) = m (d, Proc.devRef .tc main_arg0) :=
  VCall_of_not_written m O0 R0 d main_arg0 (by decide) (by decide) (by decide) (by decide)
theorem VCall_main_arg1 (d : Dev nD) : VCall m O0 R0 d (Proc.devRef .tc main_arg1) = m (d, Proc.devRef .tc main_arg1) :=
  VCall_of_not_written m O0 R0 d main_arg1 (by decide) (by decide) (by decide) (by decide)
theorem VCall_main_arg2 (d : Dev nD) : VCall m O0 R0 d (Proc.devRef .tc main_arg2) = m (d, Proc.devRef .tc main_arg2) :=
  VCall_of_not_written m O0 R0 d main_arg2 (by decide) (by decide) (by decide) (by decide)
theorem VCall_main_arg3 (d : Dev nD) : VCall m O0 R0 d (Proc.devRef .tc main_arg3) = m (d, Proc.devRef .tc main_arg3) :=
  VCall_of_not_written m O0 R0 d main_arg3 (by decide) (by decide) (by decide) (by decide)
theorem VCall_main_arg4 (d : Dev nD) : VCall m O0 R0 d (Proc.devRef .tc main_arg4) = m (d, Proc.devRef .tc main_arg4) :=
  VCall_of_not_written m O0 R0 d main_arg4 (by decide) (by decide) (by decide) (by decide)
theorem VCall_main_arg5 (d : Dev nD) : VCall m O0 R0 d (Proc.devRef .tc main_arg5) = m (d, Proc.devRef .tc main_arg5) :=
  VCall_of_not_written m O0 R0 d main_arg5 (by decide) (by decide) (by decide) (by decide)
theorem VCall_main_arg6 (d : Dev nD) : VCall m O0 R0 d (Proc.devRef .tc main_arg6) = m (d, Proc.devRef .tc main_arg6) :=
  VCall_of_not_written m O0 R0 d main_arg6 (by decide) (by decide) (by decide) (by decide)
theorem VCall_main_arg7 (d : Dev nD) : VCall m O0 R0 d (Proc.devRef .tc main_arg7) = m (d, Proc.devRef .tc main_arg7) :=
  VCall_of_not_written m O0 R0 d main_arg7 (by decide) (by decide) (by decide) (by decide)
theorem VCall_main_arg8 (d : Dev nD) : VCall m O0 R0 d (Proc.devRef .tc main_arg8) = m (d, Proc.devRef .tc main_arg8) :=
  VCall_of_not_written m O0 R0 d main_arg8 (by decide) (by decide) (by decide) (by decide)
theorem VCall_main_arg9 (d : Dev nD) : VCall m O0 R0 d (Proc.devRef .tc main_arg9) = m (d, Proc.devRef .tc main_arg9) :=
  VCall_of_not_written m O0 R0 d main_arg9 (by decide) (by decide) (by decide) (by decide)
theorem VCall_main_arg10 (d : Dev nD) : VCall m O0 R0 d (Proc.devRef .tc main_arg10) = m (d, Proc.devRef .tc main_arg10) :=
  VCall_of_not_written m O0 R0 d main_arg10 (by decide) (by decide) (by decide) (by decide)

end PreBook

/-! ## After the SparseCore call -/

section Post

variable (X : Dev nD → Valuation τ sig (Elt F)) (O2 : Dev nD → CellTallies nD τ sig (HIx 1)) (R2 : Dev nD → Set (SemLoc sig × HIx 1))
  (L : GSem nD τ sig → Finset (HIx 1)) (lv : GSem nD τ sig → HIx 1 → ℕ)

/-- The device's buffers when the MLP's region is entered: the contents after the SparseCore call, after the third stretch. -/
def WEntry2 (d : Dev nD) : Valuation τ sig (Elt F) := StableHlo.after ops2 (X d)

/-- At the return: the region's arrays at what the pipeline leaves in them, every other buffer as entered. -/
def VEnd (d : Dev nD) : Valuation τ sig (Elt F) :=
  Pipeline.withArrays spec2 d (WEntry2 X d) fun w => (dat2 (F := F) (Ix := HIx 1) (Name := ℕ) (U := UU) (Lvl := ℕ) (atTc (WEntry2 X)) O2 R2 d).arrAt w cfg2.N

theorem VEnd_tc (d : Dev nD) (b : Ref sig .tc) :
    VEnd X O2 R2 d (Proc.devRef .tc b) = VAfter2 (Ix := HIx 1) (Name := ℕ) (U := UU) (Lvl := ℕ) (atTc (WEntry2 X)) (atTc (WEntry2 X)) O2 O2 R2 R2 d b := by
  by_cases h : ∃ w, Pipeline.arrRef spec2 w = b
  · obtain ⟨w, rfl⟩ := h
    unfold VEnd
    rw [Pipeline.withArrays_arr spec2 launch2.win.arr_inj d _ _ w]
    exact hF2 (Ix := HIx 1) (Name := ℕ) (U := UU) (Lvl := ℕ) (atTc (WEntry2 X)) (atTc (WEntry2 X)) O2 O2 R2 R2 d w
  · unfold VEnd
    rw [Pipeline.withArrays_of_ne spec2 d _ _ b (fun w e => h ⟨w, e⟩)]
    exact (hrest2 (Ix := HIx 1) (Name := ℕ) (U := UU) (Lvl := ℕ) (atTc (WEntry2 X)) (atTc (WEntry2 X)) O2 O2 R2 R2 d b
      (fun hb => by obtain ⟨w, -, e⟩ := Finset.mem_image.mp hb; exact h ⟨w, e⟩)).symm

/-- A buffer the third stretch does not write and that is not the result array holds, at the return, what it held after the SparseCore call. -/
theorem VEnd_of_not_written (d : Dev nD) (b : Ref sig .tc) (h2 : b ∉ (ops2_W : List (Ref sig .tc))) (h19 : b ≠ main_v19) :
    VEnd X O2 R2 d (Proc.devRef .tc b) = X d (Proc.devRef .tc b) := by
  rw [VEnd_tc, VAfter2_of_not_out _ _ _ _ _ _ d b h19]
  show WEntry2 X d (Proc.devRef .tc b) = _
  unfold WEntry2
  rw [StableHlo.after_of_writes_sub ops2 _ ops2_writes h2]

/-- The result array at the return: what the MLP's write-backs left. -/
theorem VEnd_v19 (d : Dev nD) :
    VEnd X O2 R2 d (Proc.devRef .tc main_v19) = (dat2 (F := F) (Ix := HIx 1) (Name := ℕ) (U := UU) (Lvl := ℕ) (atTc (WEntry2 X)) O2 R2 d).arrAt 10 cfg2.N := by
  rw [VEnd_tc]; exact VAfter2_v19 _ _ _ _ _ _ d

/-- The third stretch and the MLP's region write no argument. -/
theorem VEnd_main_arg0 (d : Dev nD) : VEnd X O2 R2 d (Proc.devRef .tc main_arg0) = X d (Proc.devRef .tc main_arg0) :=
  VEnd_of_not_written X O2 R2 d main_arg0 (by decide) (by decide)
theorem VEnd_main_arg1 (d : Dev nD) : VEnd X O2 R2 d (Proc.devRef .tc main_arg1) = X d (Proc.devRef .tc main_arg1) :=
  VEnd_of_not_written X O2 R2 d main_arg1 (by decide) (by decide)
theorem VEnd_main_arg2 (d : Dev nD) : VEnd X O2 R2 d (Proc.devRef .tc main_arg2) = X d (Proc.devRef .tc main_arg2) :=
  VEnd_of_not_written X O2 R2 d main_arg2 (by decide) (by decide)
theorem VEnd_main_arg3 (d : Dev nD) : VEnd X O2 R2 d (Proc.devRef .tc main_arg3) = X d (Proc.devRef .tc main_arg3) :=
  VEnd_of_not_written X O2 R2 d main_arg3 (by decide) (by decide)
theorem VEnd_main_arg4 (d : Dev nD) : VEnd X O2 R2 d (Proc.devRef .tc main_arg4) = X d (Proc.devRef .tc main_arg4) :=
  VEnd_of_not_written X O2 R2 d main_arg4 (by decide) (by decide)
theorem VEnd_main_arg5 (d : Dev nD) : VEnd X O2 R2 d (Proc.devRef .tc main_arg5) = X d (Proc.devRef .tc main_arg5) :=
  VEnd_of_not_written X O2 R2 d main_arg5 (by decide) (by decide)
theorem VEnd_main_arg6 (d : Dev nD) : VEnd X O2 R2 d (Proc.devRef .tc main_arg6) = X d (Proc.devRef .tc main_arg6) :=
  VEnd_of_not_written X O2 R2 d main_arg6 (by decide) (by decide)
theorem VEnd_main_arg7 (d : Dev nD) : VEnd X O2 R2 d (Proc.devRef .tc main_arg7) = X d (Proc.devRef .tc main_arg7) :=
  VEnd_of_not_written X O2 R2 d main_arg7 (by decide) (by decide)
theorem VEnd_main_arg8 (d : Dev nD) : VEnd X O2 R2 d (Proc.devRef .tc main_arg8) = X d (Proc.devRef .tc main_arg8) :=
  VEnd_of_not_written X O2 R2 d main_arg8 (by decide) (by decide)
theorem VEnd_main_arg9 (d : Dev nD) : VEnd X O2 R2 d (Proc.devRef .tc main_arg9) = X d (Proc.devRef .tc main_arg9) :=
  VEnd_of_not_written X O2 R2 d main_arg9 (by decide) (by decide)
theorem VEnd_main_arg10 (d : Dev nD) : VEnd X O2 R2 d (Proc.devRef .tc main_arg10) = X d (Proc.devRef .tc main_arg10) :=
  VEnd_of_not_written X O2 R2 d main_arg10 (by decide) (by decide)

set_option backward.isDefEq.respectTransparency.types false in
/-- The return, from the MLP region's exit contents. -/
theorem wp_post_tail (d : Dev nD) (Φ : PUnit → sProp 𝕄) :
    iprop((iprop(boundary (T d) ∗ unscopedBufs d (fun b => VEnd X O2 R2 d b) ∗ (∃ r, prngReg d r)
            ∗ ∃ W : Waits sig (HIx 1), ⌜(↑W : Set (SemLoc sig × HIx 1)) ⊆ R2 d ∪ cfg2.waitPairs none⌝ ∗ owes (d : Thread nD τ) (O2 d) W) -∗ Φ ⟨⟩)
        ∗ boundary (T d) ∗ unscopedBufs d (VAfter2 (Ix := HIx 1) (Name := ℕ) (U := UU) (Lvl := ℕ) (atTc (WEntry2 X)) (atTc (WEntry2 X)) O2 O2 R2 R2 d) ∗ (∃ r, prngReg d r)
        ∗ (∃ W : Waits sig (HIx 1), ⌜(↑W : Set (SemLoc sig × HIx 1)) ⊆ R2 d ∪ cfg2.waitPairs none⌝ ∗ owes (d : Thread nD τ) (O2 d) W))
      ⊢ wp frame (wpE ((K (F := F)).defs D) 𝒱 (T d) none) Set.univ (Prog.ret PUnit.unit) Φ := by
  rw [show (unscopedBufs d (VAfter2 (Ix := HIx 1) (Name := ℕ) (U := UU) (Lvl := ℕ) (atTc (WEntry2 X)) (atTc (WEntry2 X)) O2 O2 R2 R2 d) : sProp 𝕄)
      = unscopedBufs d (fun b => VEnd X O2 R2 d b) from
    congrArg (unscopedBufs d) (funext fun b => (VEnd_tc X O2 R2 d b).symm), wp_ret]
  iintro ⟨Hk, H⟩
  imodintro
  iapply Hk
  iexact H

set_option backward.isDefEq.respectTransparency.types false in
/-- @MAIN AFTER THE SPARSECORE CALL: from the contents `X` the call leaves, the generator register, what the core
    owes, the level facts and the MLP's staging cells' ghost state, to the contents `VEnd` with the same owed. -/
theorem wp_post (hw2 : ∀ (c : Dev nD) (w : Fin cfg2.W) (s : Fin (cfg2.win w).nbuf),
      (levAts L lv : sProp 𝕄) ⊢ MayWait c (.dma ((cfg2.win w).sem s)) none (O2 c))
    (d : Dev nD) (Φ : PUnit → sProp 𝕄) :
    iprop((iprop(boundary (T d) ∗ unscopedBufs d (fun b => VEnd X O2 R2 d b) ∗ (∃ r, prngReg d r)
            ∗ ∃ W : Waits sig (HIx 1), ⌜(↑W : Set (SemLoc sig × HIx 1)) ⊆ R2 d ∪ cfg2.waitPairs none⌝ ∗ owes (d : Thread nD τ) (O2 d) W) -∗ Φ ⟨⟩)
        ∗ boundary (T d) ∗ unscopedBufs d (fun b => X d b) ∗ (∃ r, prngReg d r)
        ∗ (∃ W : Waits sig (HIx 1), ⌜(↑W : Set (SemLoc sig × HIx 1)) ⊆ R2 d⌝ ∗ owes (d : Thread nD τ) (O2 d) W) ∗ levAts L lv
        ∗ Pipeline.cellsGhost (Pipeline.pin (pcfgs (F := F)) adm) EP 1 d ∗ Pipeline.toksInit (Pipeline.pin (pcfgs (F := F)) adm) EP 1 d)
      ⊢ wp frame (wpE ((K (F := F)).defs D) 𝒱 (T d) none) Set.univ (postProg (F := F)) Φ := by
  unfold postProg
  iintro ⟨Hk, Hb, Hu, Hp, Ho, Hl, Hg, Ht⟩
  iapply (wp_stretch ops2 ops2_sub ops2_fresh (X d) d _ Φ)
  isplitl [Hb]; · iexact Hb
  isplitl [Hu]; · iexact Hu
  iintro ⟨Hb, Hu⟩
  rw [wp_bind]
  iapply (enter2A (atTc (WEntry2 X)) (atTc (WEntry2 X)) O2 O2 R2 R2 L lv hw2 d _)
  isplitr [Hb Hu Hp Ho Hl Hg Ht]
  swap
  · isplitl [Hb]; · iexact Hb
    isplitl [Hu]; · iexact Hu
    isplitl [Hp]; · iexact Hp
    isplitl [Ho]; · iexact Ho
    isplitl [Hl]; · iexact Hl
    isplitl [Hg]; · iexact Hg
    iexact Ht
  iintro H
  iapply (wp_post_tail X O2 R2 d Φ)
  isplitl [Hk]; · iexact Hk
  iexact H

end Post

end Cert.Proof.KI

end
-- ==== Proof.ScHmain.lean ====
/-
  @main on the TensorCore: the host operations and the projection region, the SparseCore call, the remaining host
  operations and the MLP region; the argument arrays are never written.
-/
import proofs.«210884_g88510686036700_cont_sun_m_1211_45_alg».proof.Proof.ScMain
import proofs.«210884_g88510686036700_cont_sun_m_1211_45_alg».proof.Proof.TcMain

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type} [FloatOps F]

local notation "𝕄" => MT nD τ sig (HIx 1) (Elt F) ℕ UU ℕ

/-! ## What the TensorCore owes, and where its recorded waits sit -/

abbrev O0 (d : Dev nD) : CellTallies nD τ sig (HIx 1) := (K (F := F)).Otc d 0
abbrev O2 (d : Dev nD) : CellTallies nD τ sig (HIx 1) := (K (F := F)).Otc d 1
def R0 (d : Dev nD) : Set (SemLoc sig × HIx 1) := {p | (K (F := F)).lev (SparseCore.T d, p.1) p.2 ≤ 8 * 0}
def R2 (d : Dev nD) : Set (SemLoc sig × HIx 1) := {p | (K (F := F)).lev (SparseCore.T d, p.1) p.2 ≤ 8 * 1}

theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

theorem hw0 (c : Dev nD) (w : Fin cfg0.W) (s : Fin (cfg0.win w).nbuf) :
    (levAts (K (F := F)).L (K (F := F)).lev : sProp 𝕄) ⊢ MayWait c (.dma ((cfg0.win w).sem s)) none (O0 (F := F) c) :=
  (K (F := F)).mayWait_none (thr := SparseCore.T c) _ (Otc_none c 0)
theorem hw2 (c : Dev nD) (w : Fin cfg2.W) (s : Fin (cfg2.win w).nbuf) :
    (levAts (K (F := F)).L (K (F := F)).lev : sProp 𝕄) ⊢ MayWait c (.dma ((cfg2.win w).sem s)) none (O2 (F := F) c) :=
  (K (F := F)).mayWait_none (thr := SparseCore.T c) _ (Otc_none c 1)

/-! ## The recorded waits' bounds, there and back -/

theorem sub_R0 {d : Dev nD} {W : Waits sig (HIx 1)} (h : (K (F := F)).WBelow (SparseCore.T d) W (8 * 0)) :
    (↑W : Set (SemLoc sig × HIx 1)) ⊆ R0 (F := F) d := fun p hp => h p (Finset.mem_coe.mp hp)
theorem sub_R2 {d : Dev nD} {W : Waits sig (HIx 1)} (h : (K (F := F)).WBelow (SparseCore.T d) W (8 * 1)) :
    (↑W : Set (SemLoc sig × HIx 1)) ⊆ R2 (F := F) d := fun p hp => h p (Finset.mem_coe.mp hp)
theorem wbelow0 {d : Dev nD} {W : Waits sig (HIx 1)} (h : (↑W : Set (SemLoc sig × HIx 1)) ⊆ R0 (F := F) d ∪ cfg0.waitPairs none) :
    (K (F := F)).WBelow (SparseCore.T d) W (8 * 0) := by
  intro p hp
  rcases h (Finset.mem_coe.mpr hp) with h1 | ⟨w, s, rfl⟩
  · exact h1
  · exact le_of_eq_of_le (SparseCore.Cfg.lev_none (K := K (F := F)) _) (Nat.zero_le _)
theorem wbelow2 {d : Dev nD} {W : Waits sig (HIx 1)} (h : (↑W : Set (SemLoc sig × HIx 1)) ⊆ R2 (F := F) d ∪ cfg2.waitPairs none) :
    (K (F := F)).WBelow (SparseCore.T d) W (8 * 1) := by
  intro p hp
  rcases h (Finset.mem_coe.mpr hp) with h1 | ⟨w, s, rfl⟩
  · exact h1
  · exact le_of_eq_of_le (SparseCore.Cfg.lev_none (K := K (F := F)) _) (Nat.zero_le _)

/-! ## The valuations along @main -/

section H

variable (m : (ℓ : Loc nD τ sig) → Buf (Elt F) ℓ) (ρ : Dev nD → PrngReg)

/-- The device's contents when the SparseCore call is reached. -/
abbrev XCall (d : Dev nD) : Valuation τ sig (Elt F) := VCall m (O0 (F := F)) (R0 (F := F)) d
/-- The four arrays the tasks read, as the call finds them. -/
abbrev cuOf (d : Dev nD) : Buf (Elt F) (uLoc d) := XCall m d u'
abbrev cvOf (d : Dev nD) : Buf (Elt F) (vLoc d) := XCall m d v'
abbrev csrcOf (d : Dev nD) : Buf (Elt F) (srcLoc d) := XCall m d src'
abbrev cdstOf (d : Dev nD) : Buf (Elt F) (dstLoc d) := XCall m d dst'
/-- The contents after the call, the gathered arrays at what the tasks left. -/
abbrev XAfter (fs : s'.ty.Contents (Elt F)) (ft : t'.ty.Contents (Elt F)) (d : Dev nD) : Valuation τ sig (Elt F) := afterCall (XCall m d) fs ft

omit [FloatOps F] in
theorem held_T6_after (d : Dev nD) (X : Valuation τ sig (Elt F)) (fs : s'.ty.Contents (Elt F)) (ft : t'.ty.Contents (Elt F)) :
    (held (SparseCore.T d) T6 (afterCall X fs ft) : sProp 𝕄) = iprop((uLoc d ↦{fullShare} X u') ∗ (vLoc d ↦{fullShare} X v') ∗ (srcLoc d ↦{fullShare} X src')
      ∗ (dstLoc d ↦{fullShare} X dst') ∗ (sLoc d ↦{fullShare} fs) ∗ (tLoc d ↦{fullShare} ft)) := by
  rw [held_T6, afterCall_of_ne X fs ft (b := u') (by decide) (by decide), afterCall_of_ne X fs ft (b := v') (by decide) (by decide),
    afterCall_of_ne X fs ft (b := src') (by decide) (by decide), afterCall_of_ne X fs ft (b := dst') (by decide) (by decide), afterCall_s, afterCall_t]

omit [FloatOps F] in
theorem held_rest_after (d : Dev nD) (X : Valuation τ sig (Elt F)) (fs : s'.ty.Contents (Elt F)) (ft : t'.ty.Contents (Elt F)) :
    (held (SparseCore.T d) (Pipeline.ucRefs τ sig \ T6) (afterCall X fs ft) : sProp 𝕄) = held (SparseCore.T d) (Pipeline.ucRefs τ sig \ T6) X :=
  held_congr (SparseCore.T d) fun b hb => by
    have hn : b ∉ T6 := (Finset.mem_sdiff.mp hb).2
    refine afterCall_of_ne X fs ft (fun e => hn (e ▸ ?_)) (fun e => hn (e ▸ ?_)) <;> decide

theorem SArgs_sub : SArgs ⊆ Pipeline.ucRefs τ sig := by decide

/-- No argument array is written along @main. -/
theorem args_kept (fs : s'.ty.Contents (Elt F)) (ft : t'.ty.Contents (Elt F)) (d : Dev nD) :
    ∀ b ∈ SArgs, VEnd (XAfter m fs ft) (O2 (F := F)) (R2 (F := F)) d b = StableHlo.launchContents m d b := by
  intro b hb
  simp only [SArgs, Finset.mem_insert, Finset.mem_singleton] at hb
  rcases hb with rfl | rfl | rfl | rfl | rfl | rfl | rfl | rfl | rfl | rfl | rfl
  · rw [VEnd_main_arg0]; show afterCall _ _ _ _ = _; rw [afterCall_of_ne _ _ _ (by decide) (by decide)]; exact VCall_main_arg0 m _ _ d
  · rw [VEnd_main_arg1]; show afterCall _ _ _ _ = _; rw [afterCall_of_ne _ _ _ (by decide) (by decide)]; exact VCall_main_arg1 m _ _ d
  · rw [VEnd_main_arg2]; show afterCall _ _ _ _ = _; rw [afterCall_of_ne _ _ _ (by decide) (by decide)]; exact VCall_main_arg2 m _ _ d
  · rw [VEnd_main_arg3]; show afterCall _ _ _ _ = _; rw [afterCall_of_ne _ _ _ (by decide) (by decide)]; exact VCall_main_arg3 m _ _ d
  · rw [VEnd_main_arg4]; show afterCall _ _ _ _ = _; rw [afterCall_of_ne _ _ _ (by decide) (by decide)]; exact VCall_main_arg4 m _ _ d
  · rw [VEnd_main_arg5]; show afterCall _ _ _ _ = _; rw [afterCall_of_ne _ _ _ (by decide) (by decide)]; exact VCall_main_arg5 m _ _ d
  · rw [VEnd_main_arg6]; show afterCall _ _ _ _ = _; rw [afterCall_of_ne _ _ _ (by decide) (by decide)]; exact VCall_main_arg6 m _ _ d
  · rw [VEnd_main_arg7]; show afterCall _ _ _ _ = _; rw [afterCall_of_ne _ _ _ (by decide) (by decide)]; exact VCall_main_arg7 m _ _ d
  · rw [VEnd_main_arg8]; show afterCall _ _ _ _ = _; rw [afterCall_of_ne _ _ _ (by decide) (by decide)]; exact VCall_main_arg8 m _ _ d
  · rw [VEnd_main_arg9]; show afterCall _ _ _ _ = _; rw [afterCall_of_ne _ _ _ (by decide) (by decide)]; exact VCall_main_arg9 m _ _ d
  · rw [VEnd_main_arg10]; show afterCall _ _ _ _ = _; rw [afterCall_of_ne _ _ _ (by decide) (by decide)]; exact VCall_main_arg10 m _ _ d

abbrev v19' : DevRef τ sig := Proc.devRef .tc (main_v19 : Ref sig .tc)
/-- The arrays the claim reads at the end: the eleven arguments and the result. -/
abbrev SFin : Finset (DevRef τ sig) := insert v19' SArgs
theorem SFin_sub : SFin ⊆ Pipeline.ucRefs τ sig := by decide

/-- What @main leaves for the claim: for some gathered arrays that hold the gathered rows, the arguments and the result
    at the contents the last region leaves. -/
def FINV (d : Dev nD) : sProp 𝕄 :=
  iprop(∃ (fs : s'.ty.Contents (Elt F)) (ft : t'.ty.Contents (Elt F)),
    ⌜(∀ e, GathS (cuOf m) (csrcOf m) d fs e) ∧ (∀ e, GathT (cvOf m) (cdstOf m) d ft e)⌝
      ∗ held (SparseCore.T d) SFin (VEnd (XAfter m fs ft) (O2 (F := F)) (R2 (F := F)) d))

/-- @main on device `d`'s TensorCore. -/
theorem hmain [∀ e, Nonempty (Elt F e)] (κ : GSem nD τ sig → ℕ) (d : Dev nD) :
    iprop((K (F := F)).ctx EH (P (cuOf m) (cvOf m) (csrcOf m) (cdstOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m d) := by
  rw [main_split, wp_bind]
  have hG : (G (F := F) d : sProp 𝕄) = iprop((Pipeline.cellsGhost (Pipeline.pin (pcfgs (F := F)) Cert.KernelIdeal.TcBody.adm) EP 0 d ∗ Pipeline.toksInit (Pipeline.pin (pcfgs (F := F)) Cert.KernelIdeal.TcBody.adm) EP 0 d)
      ∗ (Pipeline.cellsGhost (Pipeline.pin (pcfgs (F := F)) Cert.KernelIdeal.TcBody.adm) EP 1 d ∗ Pipeline.toksInit (Pipeline.pin (pcfgs (F := F)) Cert.KernelIdeal.TcBody.adm) EP 1 d)) := by
    unfold G; exact bigSep_univ_two _
  rw [hG]
  unfold SparseCore.Cfg.tcRes SparseCore.Cfg.tcSt
  iintro ⟨#Hctx, ⟨⟨%W, %hW, HO⟩, Hat, #Hrd, #Hrs, Htoks⟩, ⟨Hb, Hbufs, Hsems0, Hprng⟩, ⟨Hg0, Ht0⟩, ⟨Hg1, Ht1⟩⟩
  ihave #Hlev := (SparseCore.Cfg.ctx_levAts κ) $$ Hctx
  iapply (wp_pre m (O0 (F := F)) (R0 (F := F)) (K (F := F)).L (K (F := F)).lev hw0 d _)
  isplitr [Hb Hbufs Hprng HO Hg0 Ht0]
  swap
  · isplitl [Hb]; · iexact Hb
    isplitl [Hbufs]; · iexact Hbufs
    isplitl [Hprng]; · iexists _; iexact Hprng
    isplitl [HO]
    · iexists W; isplitr
      · ipureintro; exact sub_R0 hW
      · iexact HO
    isplitr; · iexact Hlev
    isplitl [Hg0]; · iexact Hg0
    iexact Ht0
  -- the SparseCore call
  iintro ⟨Hb, Hbufs, Hprng, ⟨%W1, %hW1, HO⟩⟩
  rw [wp_bind]
  ihave Hh := (Entails.of_eq (Pipeline.unscopedBufs_held d (XCall m d))) $$ Hbufs
  ihave Hh2 := (Entails.of_eq (held_sub_split (SparseCore.T d) T6_sub (XCall m d))) $$ Hh
  icases Hh2 with ⟨H6, Hrest⟩
  ihave H6' := (Entails.of_eq (held_T6 d (XCall m d))) $$ H6
  icases H6' with ⟨Hu, Hv, Hsrc, Hdst, Hs, Ht⟩
  iapply (wp_call (cuOf m) (cvOf m) (csrcOf m) (cdstOf m) κ d _)
  isplitr; · iexact Hctx
  isplitl [HO Hat Htoks]
  · unfold SparseCore.Cfg.tcSt
    isplitl [HO]
    · iexists W1; isplitr
      · ipureintro; exact wbelow0 hW1
      · iexact HO
    isplitl [Hat]; · iexact Hat
    isplitr; · iexact Hrd
    isplitr; · iexact Hrs
    iexact Htoks
  isplitl [Hu Hv Hsrc Hdst Hs Ht]
  · unfold callRes
    isplitl [Hu]; · iexact Hu
    isplitl [Hv]; · iexact Hv
    isplitl [Hsrc]; · iexact Hsrc
    isplitl [Hdst]; · iexact Hdst
    isplitl [Hs]; · iexists _; iexact Hs
    iexists _; iexact Ht
  -- after the call
  iintro ⟨Hst1, Hres⟩
  unfold callResOut SparseCore.Cfg.tcSt
  icases Hres with ⟨Hu, Hv, Hsrc, Hdst, ⟨%fs, %hfs, Hs⟩, ⟨%ft, %hft, Ht⟩⟩
  icases Hst1 with ⟨⟨%W2, %hW2, HO⟩, Hat, #Hrd1, #Hrs1, Htoks⟩
  ihave H6 := (Entails.of_eq (held_T6_after d (XCall m d) fs ft).symm) $$ [Hu Hv Hsrc Hdst Hs Ht]
  · isplitl [Hu]; · iexact Hu
    isplitl [Hv]; · iexact Hv
    isplitl [Hsrc]; · iexact Hsrc
    isplitl [Hdst]; · iexact Hdst
    isplitl [Hs]; · iexact Hs
    iexact Ht
  ihave Hrest' := (Entails.of_eq (held_rest_after d (XCall m d) fs ft).symm) $$ Hrest
  ihave Hh := (Entails.of_eq (held_sub_split (SparseCore.T d) T6_sub (XAfter m fs ft d)).symm) $$ [H6 Hrest']
  · isplitl [H6]; · iexact H6
    iexact Hrest'
  ihave Hbufs := (Entails.of_eq (Pipeline.unscopedBufs_held d (XAfter m fs ft d)).symm) $$ Hh
  iapply (wp_post (XAfter m fs ft) (O2 (F := F)) (R2 (F := F)) (K (F := F)).L (K (F := F)).lev hw2 d _)
  isplitr [Hb Hbufs Hprng HO Hg1 Ht1]
  swap
  · isplitl [Hb]; · iexact Hb
    isplitl [Hbufs]; · iexact Hbufs
    isplitl [Hprng]; · iexact Hprng
    isplitl [HO]
    · iexists W2; isplitr
      · ipureintro; exact sub_R2 hW2
      · iexact HO
    isplitr; · iexact Hlev
    isplitl [Hg1]; · iexact Hg1
    iexact Ht1
  -- the end
  iintro ⟨Hb, Hbufs, Hprng, ⟨%W3, %hW3, HO⟩⟩
  isplitl [HO Hat Htoks]
  · isplitl [HO]
    · iexists W3; isplitr
      · ipureintro; exact wbelow2 hW3
      · iexact HO
    isplitl [Hat]; · iexact Hat
    isplitr; · iexact Hrd1
    isplitr; · iexact Hrs1
    iexact Htoks
  ihave Hh := (Entails.of_eq (Pipeline.unscopedBufs_held d (VEnd (XAfter m fs ft) (O2 (F := F)) (R2 (F := F)) d))) $$ Hbufs
  ihave Hh2 := (Entails.of_eq (held_sub_split (SparseCore.T d) SFin_sub (VEnd (XAfter m fs ft) (O2 (F := F)) (R2 (F := F)) d))) $$ Hh
  icases Hh2 with ⟨HA, -⟩
  unfold FINV
  iexists fs; iexists ft
  isplitr
  · ipureintro; exact ⟨hfs, hft⟩
  iexact HA

end H

end Cert.Proof.KI

end
-- ==== Proof.ScFinal.lean ====
/-
  The program's run: every weakly fair execution of the device's threads terminates without fault, and in every final
  memory the argument arrays are as launched and the result is the MLP region's output over gathered arrays holding
  the gathered rows.
-/
import proofs.«210884_g88510686036700_cont_sun_m_1211_45_alg».proof.Proof.ScHmain

noncomputable section

namespace Cert.Proof.KI

open Cert.KernelIdeal Cert.KernelIdeal.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type} [FloatOps F]

local notation "𝕄" => MT nD τ sig (HIx 1) (Elt F) ℕ UU ℕ

section Final

variable (m : (ℓ : Loc nD τ sig) → Buf (Elt F) ℓ) (ρ : Dev nD → PrngReg)

/-- What a final memory says, per device. -/
def fqV (d : Dev nD) (mem : (ℓ : Loc nD τ sig) → Buf (Elt F) ℓ) : Prop :=
  ∃ (fs : s'.ty.Contents (Elt F)) (ft : t'.ty.Contents (Elt F)),
    (∀ e, GathS (cuOf m) (csrcOf m) d fs e) ∧ (∀ e, GathT (cvOf m) (cdstOf m) d ft e)
      ∧ ∀ b ∈ SFin, mem (d, b) = VEnd (XAfter m fs ft) (O2 (F := F)) (R2 (F := F)) d b

theorem hfinV (d : Dev nD) (st : Phys nD τ sig (Elt F)) : iprop(FINV m d ∗ SI st) ⊢ (⌜fqV m d st.mem.mem⌝ : sProp 𝕄) := by
  unfold FINV
  iintro ⟨⟨%fs, %ft, %h, H⟩, HSI⟩
  ihave H2 := (held_SI (SparseCore.T d) SFin (VEnd (XAfter m fs ft) (O2 (F := F)) (R2 (F := F)) d) st) $$ [H HSI]
  · isplitl [H] <;> iassumption
  icases H2 with %h2
  ipureintro
  exact ⟨fs, ft, h.1, h.2, h2⟩

def QCV : PUnit × MemSt nD τ sig (Elt F) → Prop := fun r => ∀ c : Dev nD, fqV m c r.2.mem

/-- The run, from the task's statement and the index rows' range. -/
theorem run_mainV [∀ e, Nonempty (Elt F e)] (hT : TileStmtV (cuOf m) (cvOf m) (csrcOf m) (cdstOf m)) (hidx : IdxOK (csrcOf m) (cdstOf m)) :
    θ_run (Cert.KernelIdeal.defs (F := F)) (Cert.KernelIdeal.threads (F := F)) ⟨m, fun _ => 0, ρ⟩ (QCV m) :=
  SparseCore.Cfg.θ_run_sc (K := K (F := F)) (D := D (F := F)) (𝒱 := 𝒱) (EH := EH) (P := P (cuOf m) (cvOf m) (csrcOf m) (cdstOf m)) facts v₀
    (fun q hq => match q with | 0 => nomatch hq)
    (fun q _ => match q with | 0 => tileObl (cuOf m) (cvOf m) (csrcOf m) (cdstOf m) hT facts hidx)
    (fun q _ => match q with | 0 => SparseCore.Cfg.VecSplit.of_plain (vecSplit (cuOf m) (cvOf m) (csrcOf m) (cdstOf m)))
    m ρ main (fun d => G (F := F) d) (FINV m) (u₀ (F := F)) (sep_elim_left.trans (hu₀ (cuOf m) (cvOf m) (csrcOf m) (cdstOf m))) (hmain m ρ)
    (fun d st => fqV m d st.mem.mem) (hfinV m) (QCV m) (fun _ h => h)

/-- In a final memory every argument array is as launched. -/
theorem args_of_fqV {d : Dev nD} {mem : (ℓ : Loc nD τ sig) → Buf (Elt F) ℓ} (h : fqV m d mem) : ∀ b ∈ SArgs, mem (d, b) = m (d, b) := by
  obtain ⟨fs, ft, -, -, h⟩ := h
  intro b hb
  rw [h b (Finset.mem_insert_of_mem hb), args_kept m fs ft d b hb]

end Final

end Cert.Proof.KI

end
-- ==== Proof.CommonB.lean ====
/-
  The setting shared by the frame and value proofs of the gather-MLP program, written once over the idealized program's
  names and generic in the float instance: the program as the SparseCore launch theorem sees it (two TensorCore
  pipelines beside one vector-subcore call), the ghost state (the launch handshakes' rounds, the pipelines' staging
  cells' rounds, and the transfer counters of the tasks' own copies, which need no schedule: every copy of a task is
  local and waited for by the task itself), and the arrays the SparseCore call exchanges with the TensorCore:
  the projected tables u and v (read by every task), the two index rows (read by every task), and the gathered
  rows s and t (each block of 128 rows written by exactly one task).
-/
import proofs.«210884_g88510686036700_cont_sun_m_1211_45_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Transfers
import Idealize.ShloMosaic.Lib.Tactic
import proofs.«210884_g88510686036700_cont_sun_m_1211_45_alg».proof.Proof.Gen.Kernel
import proofs.«210884_g88510686036700_cont_sun_m_1211_45_alg».proof.Proof.Gen.Kernel.Skeleton
import proofs.«210884_g88510686036700_cont_sun_m_1211_45_alg».proof.Proof.Gen.Kernel.Launch
import proofs.«210884_g88510686036700_cont_sun_m_1211_45_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: handshake rounds, staging-cell rounds, transfer counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays of the SparseCore call -/

abbrev uLoc (d : Dev nD) : Loc nD τ sig := (SparseCore.T d).loc main_v4_0
abbrev vLoc (d : Dev nD) : Loc nD τ sig := (SparseCore.T d).loc main_v4_1
abbrev srcLoc (d : Dev nD) : Loc nD τ sig := (SparseCore.T d).loc main_v12
abbrev dstLoc (d : Dev nD) : Loc nD τ sig := (SparseCore.T d).loc main_v13
abbrev sLoc (d : Dev nD) : Loc nD τ sig := (SparseCore.T d).loc main_v14_0
abbrev tLoc (d : Dev nD) : Loc nD τ sig := (SparseCore.T d).loc main_v14_1

/-- The task number of vector subcore `i` of SparseCore `c`: subcores of core 0 first. -/
def taskNo (c : Fin 2) (i : Fin 16) : Fin 32 := ⟨i.val + 16 * c.val, by omega⟩
/-- How many blocks of 128 edges task `w` moves, and the first of them: 2500 blocks over 32 tasks, the first four tasks one more. -/
def nBlk (w : Fin 32) : ℕ := if w.val < 4 then 79 else 78
def blk0 (w : Fin 32) : ℕ := if w.val < 4 then 79 * w.val else 78 * w.val + 4
theorem blk_le (w : Fin 32) : blk0 w + nBlk w ≤ 2500 := by
  unfold blk0 nBlk; split <;> omega

end Cert.Proof.KB

end
-- ==== Proof.ScPayB.lean ====
/-
  What the SparseCore call exchanges, per task. Every task reads the two projected tables and the two index rows whole
  (one read token each out of 32), and owns the rows of the two gathered arrays that its blocks cover: task w moves
  the blocks blk0 w … blk0 w + nBlk w - 1 of 128 rows, and these row ranges partition the 320000 rows.
-/
import proofs.«210884_g88510686036700_cont_sun_m_1211_45_alg».proof.Proof.CommonB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The rows of a gathered array that task `w` writes: 128 rows per block, its blocks consecutive. -/
def rowsOf (w : Fin 32) : Finset S320000x128.Idx :=
  Finset.univ.filter fun ix => 128 * blk0 w ≤ (ix 0).val ∧ (ix 0).val < 128 * (blk0 w + nBlk w)

/-- Task `w`'s read token of an array every task reads. -/
abbrev tok (w : Fin 32) : PosShare TreeShare := Transfers.shareTok fullShare 32 w

section Res

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- What task `w` reads: a token of each table and of each index row, at the contents the call finds. -/
def readRes (d : Dev nD) (w : Fin 32) : sProp 𝕄 :=
  iprop((uLoc d ↦{tok w} cu d) ∗ (vLoc d ↦{tok w} cv d) ∗ (srcLoc d ↦{tok w} csrc d) ∗ (dstLoc d ↦{tok w} cdst d))

/-- What task `w` writes: its rows of the two gathered arrays, at some contents. -/
def writeRes (d : Dev nD) (w : Fin 32) : sProp 𝕄 :=
  iprop((∃ f, sLoc d ↦[rowsOf w]{fullShare} f) ∗ (∃ f, tLoc d ↦[rowsOf w]{fullShare} f))

def taskRes (d : Dev nD) (w : Fin 32) : sProp 𝕄 := iprop(readRes cu cv csrc cdst d w ∗ writeRes (F := F) d w)

end Res

end Cert.Proof.KB

end
-- ==== Proof.ScTileStB.lean ====
/-
  The statement of one task of the gather kernel in the launch theorem's own spelling: vector subcore `i` of
  SparseCore `c` of the call's grid, the kernel's program a variable equal to the printed function at that
  subcore's coordinates.
-/
import proofs.«210884_g88510686036700_cont_sun_m_1211_45_alg».proof.Proof.ScPayB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)

/-- The grid coordinates of SparseCore `c`, subcore `s`. -/
def coordsV (c : Fin (grid1.bound 0)) (s : Fin (grid1.bound 1)) : grid1.Coords :=
  fun | 0 => c | 1 => s | ⟨_ + 2, h⟩ => absurd h (Nat.not_lt.2 (Nat.le_add_left _ _))

/-- The task of subcore `i` of SparseCore `c` of the call's grid. -/
abbrev taskAt (c : Fin ((K (F := F)).nCore 0)) (i : Fin ((K (F := F)).nSub 0)) : Fin 32 := taskNo (Fin.cast nCore_zero c) (Fin.cast nSub_zero i)

section Body

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- The index rows name rows of the tables (10000 rows each). -/
def IdxOK : Prop := ∀ (d : Dev nD) (k : S1x320000.Idx), (csrc d k).toNat < 10000 ∧ (cdst d k).toNat < 10000

variable [FloatOps F]

/-- The task's statement: from its read tokens, its rows of the gathered arrays, its own scoped storage and what it owes,
    the kernel at its coordinates runs to its end and hands all of it back. -/
def TileStmt : Prop :=
  ∀ (_ : (K (F := F)).Facts) (_ : IdxOK csrc cdst) (d : Dev nD) (c : Fin ((K (F := F)).nCore 0)) (i : Fin ((K (F := F)).nSub 0))
    (hc : ((K (F := F)).core 0 c).val < grid1.bound 0 ∧ ((K (F := F)).sub 0 i).val < grid1.bound 1)
    (O : CellTallies nD τ sig (HIx 1)) (W : Waits sig (HIx 1)) (_ : ∀ g, O g none = 0)
    (prog : Prog (TpuEff nD τ sig (Elt F) Λ₀ (Proc.scVector (Fin.castLE hcore1 (coordsV ⟨_, hc.1⟩ ⟨_, hc.2⟩ 0)) (Fin.castLE hsub1 (coordsV ⟨_, hc.1⟩ ⟨_, hc.2⟩ 1)))) PUnit)
    (_ : cc1_gather_kernel (coordsV ⟨_, hc.1⟩ ⟨_, hc.2⟩) uW (Memref.isWhole_whole _) vW (Memref.isWhole_whole _) srcW (Memref.isWhole_whole _) dstW (Memref.isWhole_whole _)
            sW (Memref.isWhole_whole _) tW (Memref.isWhole_whole _) cc1_scratch0 cc1_scratch1 (Memref.whole cc1_scoped0) (Memref.isWhole_whole _) cc1_scoped1
            (Memref.whole cc1_scoped2) (Memref.isWhole_whole _) cc1_scoped3 (Memref.whole cc1_scoped4) (Memref.isWhole_whole _) cc1_scoped5
            (Memref.whole cc1_scoped6) (Memref.isWhole_whole _) cc1_scoped7 = prog),
    iprop(levAts (K (F := F)).L (K (F := F)).lev ∗ emp ∗ taskRes cu cv csrc cdst d (taskAt c i)
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ wp frame (wpE (defs₀ (F := F)) 𝒱₀ (V d ((K (F := F)).core 0 c) ((K (F := F)).sub 0 i)) none) Set.univ prog
          fun _ => iprop(taskRes cu cv csrc cdst d (taskAt c i) ∗ scopedBufs (V d ((K (F := F)).core 0 c) ((K (F := F)).sub 0 i))
            ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W')

end Body

end Cert.Proof.KB

end
-- ==== Proof.ScPayVB.lean ====
/-
  What a task hands back, with values: each of its rows of the first gathered array is the row of the first table that
  the first index row names there, and likewise for the second pair.
-/
import proofs.«210884_g88510686036700_cont_sun_m_1211_45_alg».proof.Proof.ScPayB
import Idealize.ShloMosaic.Lib.ValueIdx

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The table row an index word names (the word itself when it is below 10000). -/
def rowOfWord (w : BitVec 32) : Fin 10000 := ⟨w.toNat % 10000, Nat.mod_lt _ (by decide)⟩

theorem rowOfWord_val {w : BitVec 32} (h : w.toNat < 10000) : (rowOfWord w).val = w.toNat := Nat.mod_eq_of_lt h

section Res

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- Row `e` of `f` is the row of the first table named by entry `e` of the first index row. -/
def GathS (d : Dev nD) (f : Buf (Elt F) (sLoc d)) (e : Fin 320000) : Prop :=
  ∀ k : Fin 128, f (ix2 e k) = cu d (ix2 (rowOfWord (csrc d (ix2 (0 : Fin 1) e))) k)
def GathT (d : Dev nD) (f : Buf (Elt F) (tLoc d)) (e : Fin 320000) : Prop :=
  ∀ k : Fin 128, f (ix2 e k) = cv d (ix2 (rowOfWord (cdst d (ix2 (0 : Fin 1) e))) k)

/-- The rows (as numbers) task `w` writes. -/
def ownsRow (w : Fin 32) (e : Fin 320000) : Prop := 128 * blk0 w ≤ e.val ∧ e.val < 128 * (blk0 w + nBlk w)

/-- What task `w` hands back of the gathered arrays: its rows, gathered. -/
def writeResOut (d : Dev nD) (w : Fin 32) : sProp 𝕄 :=
  iprop((∃ f, ⌜∀ e, ownsRow w e → GathS cu csrc d f e⌝ ∗ sLoc d ↦[rowsOf w]{fullShare} f)
    ∗ (∃ f, ⌜∀ e, ownsRow w e → GathT cv cdst d f e⌝ ∗ tLoc d ↦[rowsOf w]{fullShare} f))

def taskResOut (d : Dev nD) (w : Fin 32) : sProp 𝕄 := iprop(readRes cu cv csrc cdst d w ∗ writeResOut cu cv csrc cdst d w)

theorem taskResOut_weaken (d : Dev nD) (w : Fin 32) : taskResOut cu cv csrc cdst d w ⊢ taskRes cu cv csrc cdst d w := by
  unfold taskResOut taskRes writeResOut writeRes
  iintro ⟨Hr, ⟨%fs, -, Hs⟩, ⟨%ft, -, Ht⟩⟩
  isplitl [Hr]; · iexact Hr
  isplitl [Hs]; · iexists fs; iexact Hs
  iexists ft; iexact Ht

end Res

end Cert.Proof.KB

end
-- ==== Proof.ScTileStVB.lean ====
/-
  The statement of one task of the gather kernel with values: it hands back its rows of the two gathered arrays holding
  the table rows its index blocks name. The frame-only statement follows by forgetting the values.
-/
import proofs.«210884_g88510686036700_cont_sun_m_1211_45_alg».proof.Proof.ScTileStB
import proofs.«210884_g88510686036700_cont_sun_m_1211_45_alg».proof.Proof.ScPayVB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)

section Body

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

variable [FloatOps F]

/-- The task's statement: from its read tokens, its rows of the gathered arrays, its own scoped storage and what it owes,
    the kernel at its coordinates runs to its end and hands all of it back. -/
def TileStmtV : Prop :=
  ∀ (_ : (K (F := F)).Facts) (_ : IdxOK csrc cdst) (d : Dev nD) (c : Fin ((K (F := F)).nCore 0)) (i : Fin ((K (F := F)).nSub 0))
    (hc : ((K (F := F)).core 0 c).val < grid1.bound 0 ∧ ((K (F := F)).sub 0 i).val < grid1.bound 1)
    (O : CellTallies nD τ sig (HIx 1)) (W : Waits sig (HIx 1)) (_ : ∀ g, O g none = 0)
    (prog : Prog (TpuEff nD τ sig (Elt F) Λ₀ (Proc.scVector (Fin.castLE hcore1 (coordsV ⟨_, hc.1⟩ ⟨_, hc.2⟩ 0)) (Fin.castLE hsub1 (coordsV ⟨_, hc.1⟩ ⟨_, hc.2⟩ 1)))) PUnit)
    (_ : cc1_gather_kernel (coordsV ⟨_, hc.1⟩ ⟨_, hc.2⟩) uW (Memref.isWhole_whole _) vW (Memref.isWhole_whole _) srcW (Memref.isWhole_whole _) dstW (Memref.isWhole_whole _)
            sW (Memref.isWhole_whole _) tW (Memref.isWhole_whole _) cc1_scratch0 cc1_scratch1 (Memref.whole cc1_scoped0) (Memref.isWhole_whole _) cc1_scoped1
            (Memref.whole cc1_scoped2) (Memref.isWhole_whole _) cc1_scoped3 (Memref.whole cc1_scoped4) (Memref.isWhole_whole _) cc1_scoped5
            (Memref.whole cc1_scoped6) (Memref.isWhole_whole _) cc1_scoped7 = prog),
    iprop(levAts (K (F := F)).L (K (F := F)).lev ∗ emp ∗ taskRes cu cv csrc cdst d (taskAt c i)
        ∗ scopedBufs (V d ((K (F := F)).core 0 c) ((K (F := F)).sub 0 i)) ∗ scopedSems0 (V d ((K (F := F)).core 0 c) ((K (F := F)).sub 0 i))
        ∗ owes (V d ((K (F := F)).core 0 c) ((K (F := F)).sub 0 i)) O W)
      ⊢ wp frame (wpE (defs₀ (F := F)) 𝒱₀ (V d ((K (F := F)).core 0 c) ((K (F := F)).sub 0 i)) none) Set.univ prog
          fun _ => iprop(taskResOut cu cv csrc cdst d (taskAt c i) ∗ scopedBufs (V d ((K (F := F)).core 0 c) ((K (F := F)).sub 0 i))
            ∗ scopedSems0 (V d ((K (F := F)).core 0 c) ((K (F := F)).sub 0 i))
            ∗ ∃ W', ⌜∀ p ∈ W', p ∈ W ∨ p.2 = none ∨ p.2 = some (0 : Fin 1)⌝ ∗ owes (V d ((K (F := F)).core 0 c) ((K (F := F)).sub 0 i)) O W')

/-- Forgetting the values, the task's statement for the frame. -/
theorem TileStmt_of_V (h : TileStmtV cu cv csrc cdst) : TileStmt cu cv csrc cdst := by
  intro hF hidx d c i hc O W hO prog hprog
  refine (h hF hidx d c i hc O W hO prog hprog).trans (wp_mono frame _ _ fun _ => ?_)
  iintro ⟨Ht, Hrest⟩
  isplitl [Ht]; · iapply (taskResOut_weaken cu cv csrc cdst d (taskAt c i)); iexact Ht
  iexact Hrest

end Body

end Cert.Proof.KB

end
-- ==== Proof.ScLaunchB.lean ====
/-
  The launch of the gather-MLP program: what the SparseCore call hands each task and takes back, the task obligation
  from the task body, the (trivial) split of a SparseCore's share among its sixteen tasks, and the program's run.
-/
import proofs.«210884_g88510686036700_cont_sun_m_1211_45_alg».proof.Proof.ScTileStVB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)

section Launch

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- The one call hands SparseCore `c` its sixteen tasks' shares and takes them back; a task gets its own. -/
def P : (K (F := F)).Pay (nD := nD) (Val := Elt F) (Name := ℕ) (U := UU) where
  st := fun q d c => match q with | 0 => bigSep Finset.univ fun i : Fin ((K (F := F)).nSub 0) => taskRes cu cv csrc cdst d (taskAt c i)
  dn := fun q d c => match q with | 0 => bigSep Finset.univ fun i : Fin ((K (F := F)).nSub 0) => taskResOut cu cv csrc cdst d (taskAt c i)
  go := fun q d c i => match q with | 0 => taskRes cu cv csrc cdst d (taskAt c i)
  td := fun q d c i => match q with | 0 => taskResOut cu cv csrc cdst d (taskAt c i)
  x := fun _ _ => iprop(emp)

instance taskRes_storable (d : Dev nD) (w : Fin 32) : BI.Storable (upEmb : UEmb _ 𝕄) (taskRes cu cv csrc cdst d w) := by
  unfold taskRes readRes writeRes; infer_instance

instance taskResOut_storable (d : Dev nD) (w : Fin 32) : BI.Storable (upEmb : UEmb _ 𝕄) (taskResOut cu cv csrc cdst d w) := by
  unfold taskResOut readRes writeResOut; infer_instance

instance P_storable : (P cu cv csrc cdst).IsStorable where
  st q d c := match q with
    | 0 => (inferInstance : BI.Storable (upEmb : UEmb _ 𝕄) (bigSep Finset.univ fun i : Fin ((K (F := F)).nSub 0) => taskRes cu cv csrc cdst d (taskAt c i)))
  dn q d c := match q with
    | 0 => (inferInstance : BI.Storable (upEmb : UEmb _ 𝕄) (bigSep Finset.univ fun i : Fin ((K (F := F)).nSub 0) => taskResOut cu cv csrc cdst d (taskAt c i)))
  go q d c i := match q with
    | 0 => (inferInstance : BI.Storable (upEmb : UEmb _ 𝕄) (taskRes cu cv csrc cdst d (taskAt c i)))
  td q d c i := match q with
    | 0 => (inferInstance : BI.Storable (upEmb : UEmb _ 𝕄) (taskResOut cu cv csrc cdst d (taskAt c i)))

variable [FloatOps F]

/-! ## The task obligation -/

theorem defs₀_vector (c : Fin τ.nSC) (s : Fin τ.nSub) :
    defs₀ (F := F) (.scVector c s) 1 ()
      = SparseCore.onTile hcore1 hsub1 (fun c s => cc1_gather_kernel (coordsV c s)
          uW (Memref.isWhole_whole _) vW (Memref.isWhole_whole _) srcW (Memref.isWhole_whole _) dstW (Memref.isWhole_whole _)
          sW (Memref.isWhole_whole _) tW (Memref.isWhole_whole _) cc1_scratch0 cc1_scratch1 (Memref.whole cc1_scoped0) (Memref.isWhole_whole _) cc1_scoped1
          (Memref.whole cc1_scoped2) (Memref.isWhole_whole _) cc1_scoped3 (Memref.whole cc1_scoped4) (Memref.isWhole_whole _) cc1_scoped5
          (Memref.whole cc1_scoped6) (Memref.isWhole_whole _) cc1_scoped7) ⟨⟩ c s := rfl

set_option maxHeartbeats 400000 in
theorem tileObl (hT : TileStmtV cu cv csrc cdst) (hF : (K (F := F)).Facts) (hidx : IdxOK csrc cdst) : (K (F := F)).TileObl (D (F := F)) 𝒱 (P cu cv csrc cdst) v₀ 0 := by
  intro d c i O W hO _ _
  simp only [show (P cu cv csrc cdst).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  have hgo : (P cu cv csrc cdst).go 0 d c i = taskRes cu cv csrc cdst d (taskAt c i) := rfl
  have htd : (P cu cv csrc cdst).td 0 d c i = taskResOut cu cv csrc cdst d (taskAt c i) := rfl
  have hx : (P cu cv csrc cdst).x 0 (V d ((K (F := F)).core 0 c) ((K (F := F)).sub 0 i)) = iprop(emp) := rfl
  rw [hgo, htd, hx]
  generalize hprog : cc1_gather_kernel (coordsV ⟨_, hc.1⟩ ⟨_, hc.2⟩) uW (Memref.isWhole_whole _) vW (Memref.isWhole_whole _) srcW (Memref.isWhole_whole _) dstW (Memref.isWhole_whole _)
            sW (Memref.isWhole_whole _) tW (Memref.isWhole_whole _) cc1_scratch0 cc1_scratch1 (Memref.whole cc1_scoped0) (Memref.isWhole_whole _) cc1_scoped1
            (Memref.whole cc1_scoped2) (Memref.isWhole_whole _) cc1_scoped3 (Memref.whole cc1_scoped4) (Memref.isWhole_whole _) cc1_scoped5
            (Memref.whole cc1_scoped6) (Memref.isWhole_whole _) cc1_scoped7 = prog
  exact hT hF hidx d c i hc O W hO prog hprog

/-! ## A SparseCore's share is its tasks' shares -/

omit [FloatOps F] in
theorem vecSplit : (K (F := F)).VecSplit' (P cu cv csrc cdst) 0 := by
  intro d c
  show (bigSep Finset.univ fun i : Fin ((K (F := F)).nSub 0) => taskRes cu cv csrc cdst d (taskAt c i)) ⊢ |={Set.univ}=> iprop(
      (bigSep Finset.univ fun i : Fin ((K (F := F)).nSub 0) => taskRes cu cv csrc cdst d (taskAt c i))
      ∗ ((bigSep Finset.univ fun i : Fin ((K (F := F)).nSub 0) => taskResOut cu cv csrc cdst d (taskAt c i))
          -∗ (bigSep Finset.univ fun i : Fin ((K (F := F)).nSub 0) => taskResOut cu cv csrc cdst d (taskAt c i))))
  iintro H; imodintro
  isplitl [H]; · iexact H
  iintro H; iexact H

end Launch

end Cert.Proof.KB

end
-- ==== Proof.TcBody0B.lean ====
import proofs.«210884_g88510686036700_cont_sun_m_1211_45_alg».proof.Proof.Gen.Kernel.Launch
import proofs.«210884_g88510686036700_cont_sun_m_1211_45_alg».proof.Proof.Gen.Kernel.Skeleton
import proofs.«210884_g88510686036700_cont_sun_m_1211_45_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

/-! ## The projection kernel: the whole-block rectangles its loads and stores go through -/

abbrev rA : Rect S10000x128 := Rect.unit (s := S10000x128) ![0, 0] S10000x128.size inb_S10000x128_S10000x128_0_0
abbrev rW : Rect S128x128 := Rect.unit (s := S128x128) ![0, 0] S128x128.size inb_S128x128_S128x128_0_0
abbrev rB : Rect S1x128 := Rect.unit (s := S1x128) ![0, 0] S1x128.size inb_S1x128_S1x128_0_0

/-- The first result block after the body: the one store, the product of the node block with the first weight
    block, as the canonical contents of a covering list of writes. -/
def out0_4 (x0 : Vec F S10000x128 .f32) (x1 : Vec F S128x128 .f32) : Vec F S10000x128 .f32 :=
  View.canon [⟨rA, k0_pay1 (View.ld x0 rA) (View.ld x1 rW)⟩]

/-- The second result block after the body: the product with the second weight block plus the broadcast bias. -/
def out0_5 (x0 : Vec F S10000x128 .f32) (x2 : Vec F S128x128 .f32) (x3 : Vec F S1x128 .f32) : Vec F S10000x128 .f32 :=
  View.canon [⟨rA, k0_pay2 (View.ld x0 rA) (View.ld x2 rW) (View.ld x3 rB)⟩]

/-- A single whole-block store covers the block. -/
theorem cover0 (p0 : Vec F S10000x128 .f32) (y : S10000x128.Idx) :
    ∃ pc ∈ ([⟨rA, p0⟩] : List (View.Piece (Elt F) S10000x128 .f32)), y ∈ pc.1.set :=
  View.cover_of_tiled [⟨rA, p0⟩] S10000x128.size (by rfl) y

set_option maxHeartbeats 1000000 in
/-- The projection body on whole staging memrefs, the four inputs' at read contents `xW` and the two outputs' at
    anything, runs without fault to the continuation holding the inputs' as they were and the outputs' at
    `out0_4`, `out0_5` of the inputs'. -/
theorem sound_kernel0 (𝒱₀ : Variants) (c : Dev nD) (E : Set Name)
    (arg0 : Memref sig .tc .vmem S10000x128 .f32) (harg0 : arg0.IsWhole) (arg1 : Memref sig .tc .vmem S128x128 .f32) (harg1 : arg1.IsWhole)
    (arg2 : Memref sig .tc .vmem S128x128 .f32) (harg2 : arg2.IsWhole) (arg3 : Memref sig .tc .vmem S1x128 .f32) (harg3 : arg3.IsWhole)
    (arg4 : Memref sig .tc .vmem S10000x128 .f32) (harg4 : arg4.IsWhole) (arg5 : Memref sig .tc .vmem S10000x128 .f32) (harg5 : arg5.IsWhole)
    (x0 : Vec F S10000x128 .f32) (x1 : Vec F S128x128 .f32) (x2 : Vec F S128x128 .f32) (x3 : Vec F S1x128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare (out0_4 x0 x1)
            ∗ owns (c : Thread nD τ) arg5 fullShare (out0_5 x0 x2 x3)) -∗ K ⟨⟩))
      ⊢ wp frame (wpE (defs₀ (F := F)) 𝒱₀ c none) E (cc0__project_body arg0 harg0 arg1 harg1 arg2 harg2 arg3 harg3 arg4 harg4 arg5 harg5) K := by
  simp only [cc0__project_body_eq_skeleton]; unfold cc0__project_body_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0 _)
  iexists _; isplitr
  swap; · iexact H5
  ipureintro
  exact View.read_writes_eq_canon _ _ _ (cover0 _)

end Cert.Kernel.TcBody

end
-- ==== Proof.TcBody2B.lean ====
import proofs.«210884_g88510686036700_cont_sun_m_1211_45_alg».proof.Proof.Gen.Kernel.Launch
import proofs.«210884_g88510686036700_cont_sun_m_1211_45_alg».proof.Proof.Gen.Kernel.Skeleton
import proofs.«210884_g88510686036700_cont_sun_m_1211_45_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

/-! ## The MLP kernel: the whole-block rectangles its loads and its store go through -/

abbrev rS : Rect S2000x128 := Rect.unit (s := S2000x128) ![0, 0] S2000x128.size inb_S2000x128_S2000x128_0_0
abbrev rE : Rect S2000x16 := Rect.unit (s := S2000x16) ![0, 0] S2000x16.size inb_S2000x16_S2000x16_0_0
abbrev rW1 : Rect S16x128 := Rect.unit (s := S16x128) ![0, 0] S16x128.size inb_S16x128_S16x128_0_0
abbrev rW2 : Rect S128x128 := Rect.unit (s := S128x128) ![0, 0] S128x128.size inb_S128x128_S128x128_0_0
abbrev rB2 : Rect S1x128 := Rect.unit (s := S1x128) ![0, 0] S1x128.size inb_S1x128_S1x128_0_0
abbrev rW3 : Rect S128x16 := Rect.unit (s := S128x16) ![0, 0] S128x16.size inb_S128x16_S128x16_0_0
abbrev rV : Rect S1x16 := Rect.unit (s := S1x16) ![0, 0] S1x16.size inb_S1x16_S1x16_0_0

/-- The value the body stores, from the ten input blocks (gathered source rows, gathered destination rows, edge
    features, the third weight slice, the second and third layers' weights and biases, the layer norm's scale and
    shift): the residual sum of the edge features and the normalised, scaled and shifted third-layer output. -/
def pay2 (x0 x1 : Vec F S2000x128 .f32) (x2 : Vec F S2000x16 .f32) (x3 : Vec F S16x128 .f32) (x4 : Vec F S128x128 .f32)
    (x5 : Vec F S1x128 .f32) (x6 : Vec F S128x16 .f32) (x7 x8 x9 : Vec F S1x16 .f32) : Vec F S2000x16 .f32 :=
  k2_pay1 (k2_pay2 (View.ld x2 rE))
    (k2_pay3 (View.ld x2 rE) (View.ld x0 rS) (View.ld x1 rS) (View.ld x3 rW1) (View.ld x4 rW2) (View.ld x5 rB2) (View.ld x6 rW3) (View.ld x7 rV))
    (k2_pay4 (View.ld x2 rE) (View.ld x0 rS) (View.ld x1 rS) (View.ld x3 rW1) (View.ld x4 rW2) (View.ld x5 rB2) (View.ld x6 rW3) (View.ld x7 rV))
    (k2_pay5 (View.ld x2 rE) (View.ld x0 rS) (View.ld x1 rS) (View.ld x3 rW1) (View.ld x4 rW2) (View.ld x5 rB2) (View.ld x6 rW3) (View.ld x7 rV))
    (View.ld x8 rV) (View.ld x9 rV)

/-- The result block after the body: the one whole-block store, as the canonical contents of a covering write. -/
def out2_10 (x0 x1 : Vec F S2000x128 .f32) (x2 : Vec F S2000x16 .f32) (x3 : Vec F S16x128 .f32) (x4 : Vec F S128x128 .f32)
    (x5 : Vec F S1x128 .f32) (x6 : Vec F S128x16 .f32) (x7 x8 x9 : Vec F S1x16 .f32) : Vec F S2000x16 .f32 :=
  View.canon [⟨rE, pay2 x0 x1 x2 x3 x4 x5 x6 x7 x8 x9⟩]

/-- A single whole-block store covers the block. -/
theorem cover2 (p0 : Vec F S2000x16 .f32) (y : S2000x16.Idx) :
    ∃ pc ∈ ([⟨rE, p0⟩] : List (View.Piece (Elt F) S2000x16 .f32)), y ∈ pc.1.set :=
  View.cover_of_tiled [⟨rE, p0⟩] S2000x16.size (by rfl) y

set_option maxHeartbeats 2000000 in
/-- The MLP body at any grid coordinates on whole staging memrefs, the ten inputs' at read contents `xW` and the
    output's at anything, runs without fault to the continuation holding the inputs' as they were and the output's
    at `out2_10` of the inputs'. -/
theorem sound_kernel2 (𝒱₀ : Variants) (c : Dev nD) (E : Set Name) (i : grid2.Coords)
    (arg1 : Memref sig .tc .vmem S2000x128 .f32) (harg1 : arg1.IsWhole) (arg2 : Memref sig .tc .vmem S2000x128 .f32) (harg2 : arg2.IsWhole) (arg3 : Memref sig .tc .vmem S2000x16 .f32) (harg3 : arg3.IsWhole) (arg4 : Memref sig .tc .vmem S16x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x16 .f32) (harg7 : arg7.IsWhole) (arg8 : Memref sig .tc .vmem S1x16 .f32) (harg8 : arg8.IsWhole) (arg9 : Memref sig .tc .vmem S1x16 .f32) (harg9 : arg9.IsWhole) (arg10 : Memref sig .tc .vmem S1x16 .f32) (harg10 : arg10.IsWhole) (arg11 : Memref sig .tc .vmem S2000x16 .f32) (harg11 : arg11.IsWhole)
    (x0 : Vec F S2000x128 .f32) (x1 : Vec F S2000x128 .f32) (x2 : Vec F S2000x16 .f32) (x3 : Vec F S16x128 .f32) (x4 : Vec F S128x128 .f32) (x5 : Vec F S1x128 .f32) (x6 : Vec F S128x16 .f32) (x7 : Vec F S1x16 .f32) (x8 : Vec F S1x16 .f32) (x9 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out2_10 x0 x1 x2 x3 x4 x5 x6 x7 x8 x9)) -∗ K ⟨⟩))
      ⊢ wp frame (wpE (defs₀ (F := F)) 𝒱₀ c none) E (cc2__mlp_body i arg1 harg1 arg2 harg2 arg3 harg3 arg4 harg4 arg5 harg5 arg6 harg6 arg7 harg7 arg8 harg8 arg9 harg9 arg10 harg10 arg11 harg11) K := by
  simp only [cc2__mlp_body_eq_skeleton]; unfold cc2__mlp_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover2 _)

end Cert.Kernel.TcBody

end
-- ==== Proof.TcDatsB.lean ====
import proofs.«210884_g88510686036700_cont_sun_m_1211_45_alg».proof.Proof.TcBody0B
import proofs.«210884_g88510686036700_cont_sun_m_1211_45_alg».proof.Proof.TcBody2B

set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

/-- The regions' invariant on core `c`, at any algebra and index types: the core's scoped buffers that are no staging
    buffer of the pipeline, at some contents each, and its generator register at some state — what these bodies
    neither use nor describe. -/
def ΦTc {gr : Nat} {W : Nat} (win : Fin W → Pipeline.WinSpec sig gr) (c : Dev nD) : sProp 𝕄 :=
  iprop(Pipeline.scopedRest (Ix := Ix) (Name := Name) (U := U) (Lvl := Lvl) (Val := Elt F) win c ∗ ∃ r, prngReg c r)

section Regions
-- the TensorCore's buffer contents when a region is entered, the tallies the core owes all through it and the bound
-- on its recorded pairs: the parameters each region's half is stated at
variable (V : (c : Dev nD) → (b : Ref sig .tc) → Buf (Elt F) ((c : Thread nD τ).loc b)) (O : Dev nD → CellTallies nD τ sig Ix) (Rc : Dev nD → Set (SemLoc sig × Ix))

/-! # The region of pipeline `cfg0`, at the contents `V` its arrays hold when it is entered -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Ix Name U Lvl cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Ix Name U Lvl cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place. -/
theorem before0_2_of {c : Dev nD} (dat : Dat τ (Elt F) Ix Name U Lvl cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place. -/
theorem before0_3_of {c : Dev nD} (dat : Dat τ (Elt F) Ix Name U Lvl cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline `cfg0` on core `c`: the arrays as the region finds them; after the body at point
    `t` each input's buffer at its block and each output's at the body's result on the input blocks; the invariant
    the scoped rest and the generator register, untouched; the core owing the same tallies `O c` throughout, its recorded
    pairs within `Rc c`; full shares. -/
def dat0 (c : Dev nD) : Dat τ (Elt F) Ix Name U Lvl cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t) (iblk0 V c 3 t)
  Φ _ := ΦTc spec0 c
  q _ := fullShare
  owed _ := O c
  recorded _ := Rc c

/-- The proof data's arrays are the region-entry contents. -/
theorem A_eq0 (c : Dev nD) (w : Fin cfg0.W) : (dat0 (Ix := Ix) (Name := Name) (U := U) (Lvl := Lvl) V O Rc c).A w = V c (Pipeline.arrRef spec0 w) := by
  dsimp only [dat0]

/-- What the body leaves, window by window. -/
theorem after0_0 (c : Dev nD) (t : Fin cfg0.N) : (dat0 (Ix := Ix) (Name := Name) (U := U) (Lvl := Lvl) V O Rc c).after 0 t = iblk0 V c 0 t := by dsimp only [dat0]
theorem after0_1 (c : Dev nD) (t : Fin cfg0.N) : (dat0 (Ix := Ix) (Name := Name) (U := U) (Lvl := Lvl) V O Rc c).after 1 t = iblk0 V c 1 t := by dsimp only [dat0]
theorem after0_2 (c : Dev nD) (t : Fin cfg0.N) : (dat0 (Ix := Ix) (Name := Name) (U := U) (Lvl := Lvl) V O Rc c).after 2 t = iblk0 V c 2 t := by dsimp only [dat0]
theorem after0_3 (c : Dev nD) (t : Fin cfg0.N) : (dat0 (Ix := Ix) (Name := Name) (U := U) (Lvl := Lvl) V O Rc c).after 3 t = iblk0 V c 3 t := by dsimp only [dat0]
theorem after0_4 (c : Dev nD) (t : Fin cfg0.N) : (dat0 (Ix := Ix) (Name := Name) (U := U) (Lvl := Lvl) V O Rc c).after 4 t = out0_4 (iblk0 V c 0 t) (iblk0 V c 1 t) := by dsimp only [dat0]
theorem after0_5 (c : Dev nD) (t : Fin cfg0.N) : (dat0 (Ix := Ix) (Name := Name) (U := U) (Lvl := Lvl) V O Rc c).after 5 t = out0_5 (iblk0 V c 0 t) (iblk0 V c 2 t) (iblk0 V c 3 t) := by dsimp only [dat0]

/-- Each input's current staging buffer holds its block at every point, fetched there or not. -/
theorem before0_0 (c : Dev nD) (t : Fin cfg0.N) (d) : (dat0 (Ix := Ix) (Name := Name) (U := U) (Lvl := Lvl) V O Rc c).before 0 t d = iblk0 V c 0 t :=
  before0_0_of V (dat0 V O Rc c) (A_eq0 V O Rc c 0) (after0_0 V O Rc c) t d
theorem before0_1 (c : Dev nD) (t : Fin cfg0.N) (d) : (dat0 (Ix := Ix) (Name := Name) (U := U) (Lvl := Lvl) V O Rc c).before 1 t d = iblk0 V c 1 t :=
  before0_1_of V (dat0 V O Rc c) (A_eq0 V O Rc c 1) (after0_1 V O Rc c) t d
theorem before0_2 (c : Dev nD) (t : Fin cfg0.N) (d) : (dat0 (Ix := Ix) (Name := Name) (U := U) (Lvl := Lvl) V O Rc c).before 2 t d = iblk0 V c 2 t :=
  before0_2_of V (dat0 V O Rc c) (A_eq0 V O Rc c 2) (after0_2 V O Rc c) t d
theorem before0_3 (c : Dev nD) (t : Fin cfg0.N) (d) : (dat0 (Ix := Ix) (Name := Name) (U := U) (Lvl := Lvl) V O Rc c).before 3 t d = iblk0 V c 3 t :=
  before0_3_of V (dat0 V O Rc c) (A_eq0 V O Rc c 3) (after0_3 V O Rc c) t d

/-- What the body is called with at point `t` (the body obligation's precondition, the windows one by one), -/
def bodyPre0 (ι : Ix) (c : Dev nD) (t : Fin cfg0.N) : sProp 𝕄 :=
  iprop((dat0 (Ix := Ix) (Name := Name) (U := U) (Lvl := Lvl) V O Rc c).Φ t.castSucc ∗ (dat0 (Ix := Ix) (Name := Name) (U := U) (Lvl := Lvl) V O Rc c).owesAt ι t.castSucc
    ∗ (∃ d, owns (c : Thread nD τ) (st0_0 t) fullShare ((dat0 (Ix := Ix) (Name := Name) (U := U) (Lvl := Lvl) V O Rc c).before 0 t d))
    ∗ (∃ d, owns (c : Thread nD τ) (st0_1 t) fullShare ((dat0 (Ix := Ix) (Name := Name) (U := U) (Lvl := Lvl) V O Rc c).before 1 t d))
    ∗ (∃ d, owns (c : Thread nD τ) (st0_2 t) fullShare ((dat0 (Ix := Ix) (Name := Name) (U := U) (Lvl := Lvl) V O Rc c).before 2 t d))
    ∗ (∃ d, owns (c : Thread nD τ) (st0_3 t) fullShare ((dat0 (Ix := Ix) (Name := Name) (U := U) (Lvl := Lvl) V O Rc c).before 3 t d))
    ∗ (∃ d, owns (c : Thread nD τ) (st0_4 t) fullShare ((dat0 (Ix := Ix) (Name := Name) (U := U) (Lvl := Lvl) V O Rc c).before 4 t d))
    ∗ (∃ d, owns (c : Thread nD τ) (st0_5 t) fullShare ((dat0 (Ix := Ix) (Name := Name) (U := U) (Lvl := Lvl) V O Rc c).before 5 t d)))

/-- and what it returns. -/
def bodyPost0 (ι : Ix) (c : Dev nD) (t : Fin cfg0.N) : sProp 𝕄 :=
  iprop((dat0 (Ix := Ix) (Name := Name) (U := U) (Lvl := Lvl) V O Rc c).Φ t.succ ∗ (dat0 (Ix := Ix) (Name := Name) (U := U) (Lvl := Lvl) V O Rc c).owesAt ι t.succ
    ∗ owns (c : Thread nD τ) (st0_0 t) fullShare ((dat0 (Ix := Ix) (Name := Name) (U := U) (Lvl := Lvl) V O Rc c).after 0 t)
    ∗ owns (c : Thread nD τ) (st0_1 t) fullShare ((dat0 (Ix := Ix) (Name := Name) (U := U) (Lvl := Lvl) V O Rc c).after 1 t)
    ∗ owns (c : Thread nD τ) (st0_2 t) fullShare ((dat0 (Ix := Ix) (Name := Name) (U := U) (Lvl := Lvl) V O Rc c).after 2 t)
    ∗ owns (c : Thread nD τ) (st0_3 t) fullShare ((dat0 (Ix := Ix) (Name := Name) (U := U) (Lvl := Lvl) V O Rc c).after 3 t)
    ∗ owns (c : Thread nD τ) (st0_4 t) fullShare ((dat0 (Ix := Ix) (Name := Name) (U := U) (Lvl := Lvl) V O Rc c).after 4 t)
    ∗ owns (c : Thread nD τ) (st0_5 t) fullShare ((dat0 (Ix := Ix) (Name := Name) (U := U) (Lvl := Lvl) V O Rc c).after 5 t))

set_option maxHeartbeats 1000000 in
/-- The body at any point: the inputs' memrefs hold their blocks, so the kernel's run applies; the invariant and the
    core's `owes` pass through unread. -/
theorem sound_body0 (𝒱₀ : Variants) (ι : Ix) (c : Dev nD) (t : Fin cfg0.N) :
    bodyPre0 V O Rc ι c t ⊢ wp frame (wpE (defs₀ (F := F)) 𝒱₀ c none) Set.univ (bodyAt0 t) (fun _ => bodyPost0 (Ix := Ix) (Name := Name) (U := U) (Lvl := Lvl) V O Rc ι c t) := by
  unfold bodyPre0 bodyPost0 bodyAt0
  simp only [before0_0, before0_1, before0_2, before0_3]
  rw [show (dat0 (Ix := Ix) (Name := Name) (U := U) (Lvl := Lvl) V O Rc c).Φ t.succ = (dat0 (Ix := Ix) (Name := Name) (U := U) (Lvl := Lvl) V O Rc c).Φ t.castSucc from rfl,
    show (dat0 (Ix := Ix) (Name := Name) (U := U) (Lvl := Lvl) V O Rc c).owesAt ι t.succ = (dat0 (Ix := Ix) (Name := Name) (U := U) (Lvl := Lvl) V O Rc c).owesAt ι t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 𝒱₀ c Set.univ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation0 (𝒱₀ : Variants) (ι : Ix) (c : Dev nD) :
    BodyObligation (dat0 (F := F) (Ix := Ix) (Name := Name) (U := U) (Lvl := Lvl) V O Rc c) (defs₀ (F := F)) 𝒱₀ ι Set.univ := fun t => by
  rw [bigSep_W0, bigSep_W0]
  exact sound_body0 V O Rc 𝒱₀ ι c t

/-! # The region of pipeline `cfg2`, at the contents `V` its arrays hold when it is entered -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Ix Name U Lvl cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Ix Name U Lvl cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Ix Name U Lvl cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Ix Name U Lvl cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof
    data whose array is `V`'s and whose body leaves the block in place. -/
theorem before2_4_of {c : Dev nD} (dat : Dat τ (Elt F) Ix Name U Lvl cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not, for any proof
    data whose array is `V`'s and whose body leaves the block in place. -/
theorem before2_5_of {c : Dev nD} (dat : Dat τ (Elt F) Ix Name U Lvl cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not, for any proof
    data whose array is `V`'s and whose body leaves the block in place. -/
theorem before2_6_of {c : Dev nD} (dat : Dat τ (Elt F) Ix Name U Lvl cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-- Input window 7's current staging buffer holds its block at every point, fetched there or not, for any proof
    data whose array is `V`'s and whose body leaves the block in place. -/
theorem before2_7_of {c : Dev nD} (dat : Dat τ (Elt F) Ix Name U Lvl cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-- Input window 8's current staging buffer holds its block at every point, fetched there or not, for any proof
    data whose array is `V`'s and whose body leaves the block in place. -/
theorem before2_8_of {c : Dev nD} (dat : Dat τ (Elt F) Ix Name U Lvl cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)

/-- Input window 9's current staging buffer holds its block at every point, fetched there or not, for any proof
    data whose array is `V`'s and whose body leaves the block in place. -/
theorem before2_9_of {c : Dev nD} (dat : Dat τ (Elt F) Ix Name U Lvl cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline `cfg2` on core `c`: the arrays as the region finds them; after the body at point
    `t` each input's buffer at its block and each output's at the body's result on the input blocks; the invariant
    the scoped rest and the generator register, untouched; the core owing the same tallies `O c` throughout, its recorded
    pairs within `Rc c`; full shares. -/
def dat2 (c : Dev nD) : Dat τ (Elt F) Ix Name U Lvl cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t)
  Φ _ := ΦTc spec2 c
  q _ := fullShare
  owed _ := O c
  recorded _ := Rc c

/-- The proof data's arrays are the region-entry contents. -/
theorem A_eq2 (c : Dev nD) (w : Fin cfg2.W) : (dat2 (Ix := Ix) (Name := Name) (U := U) (Lvl := Lvl) V O Rc c).A w = V c (Pipeline.arrRef spec2 w) := by
  dsimp only [dat2]

/-- What the body leaves, window by window. -/
theorem after2_0 (c : Dev nD) (t : Fin cfg2.N) : (dat2 (Ix := Ix) (Name := Name) (U := U) (Lvl := Lvl) V O Rc c).after 0 t = iblk2 V c 0 t := by dsimp only [dat2]
theorem after2_1 (c : Dev nD) (t : Fin cfg2.N) : (dat2 (Ix := Ix) (Name := Name) (U := U) (Lvl := Lvl) V O Rc c).after 1 t = iblk2 V c 1 t := by dsimp only [dat2]
theorem after2_2 (c : Dev nD) (t : Fin cfg2.N) : (dat2 (Ix := Ix) (Name := Name) (U := U) (Lvl := Lvl) V O Rc c).after 2 t = iblk2 V c 2 t := by dsimp only [dat2]
theorem after2_3 (c : Dev nD) (t : Fin cfg2.N) : (dat2 (Ix := Ix) (Name := Name) (U := U) (Lvl := Lvl) V O Rc c).after 3 t = iblk2 V c 3 t := by dsimp only [dat2]
theorem after2_4 (c : Dev nD) (t : Fin cfg2.N) : (dat2 (Ix := Ix) (Name := Name) (U := U) (Lvl := Lvl) V O Rc c).after 4 t = iblk2 V c 4 t := by dsimp only [dat2]
theorem after2_5 (c : Dev nD) (t : Fin cfg2.N) : (dat2 (Ix := Ix) (Name := Name) (U := U) (Lvl := Lvl) V O Rc c).after 5 t = iblk2 V c 5 t := by dsimp only [dat2]
theorem after2_6 (c : Dev nD) (t : Fin cfg2.N) : (dat2 (Ix := Ix) (Name := Name) (U := U) (Lvl := Lvl) V O Rc c).after 6 t = iblk2 V c 6 t := by dsimp only [dat2]
theorem after2_7 (c : Dev nD) (t : Fin cfg2.N) : (dat2 (Ix := Ix) (Name := Name) (U := U) (Lvl := Lvl) V O Rc c).after 7 t = iblk2 V c 7 t := by dsimp only [dat2]
theorem after2_8 (c : Dev nD) (t : Fin cfg2.N) : (dat2 (Ix := Ix) (Name := Name) (U := U) (Lvl := Lvl) V O Rc c).after 8 t = iblk2 V c 8 t := by dsimp only [dat2]
theorem after2_9 (c : Dev nD) (t : Fin cfg2.N) : (dat2 (Ix := Ix) (Name := Name) (U := U) (Lvl := Lvl) V O Rc c).after 9 t = iblk2 V c 9 t := by dsimp only [dat2]
theorem after2_10 (c : Dev nD) (t : Fin cfg2.N) : (dat2 (Ix := Ix) (Name := Name) (U := U) (Lvl := Lvl) V O Rc c).after 10 t = out2_10 (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) := by dsimp only [dat2]

/-- Each input's current staging buffer holds its block at every point, fetched there or not. -/
theorem before2_0 (c : Dev nD) (t : Fin cfg2.N) (d) : (dat2 (Ix := Ix) (Name := Name) (U := U) (Lvl := Lvl) V O Rc c).before 0 t d = iblk2 V c 0 t :=
  before2_0_of V (dat2 V O Rc c) (A_eq2 V O Rc c 0) (after2_0 V O Rc c) t d
theorem before2_1 (c : Dev nD) (t : Fin cfg2.N) (d) : (dat2 (Ix := Ix) (Name := Name) (U := U) (Lvl := Lvl) V O Rc c).before 1 t d = iblk2 V c 1 t :=
  before2_1_of V (dat2 V O Rc c) (A_eq2 V O Rc c 1) (after2_1 V O Rc c) t d
theorem before2_2 (c : Dev nD) (t : Fin cfg2.N) (d) : (dat2 (Ix := Ix) (Name := Name) (U := U) (Lvl := Lvl) V O Rc c).before 2 t d = iblk2 V c 2 t :=
  before2_2_of V (dat2 V O Rc c) (A_eq2 V O Rc c 2) (after2_2 V O Rc c) t d
theorem before2_3 (c : Dev nD) (t : Fin cfg2.N) (d) : (dat2 (Ix := Ix) (Name := Name) (U := U) (Lvl := Lvl) V O Rc c).before 3 t d = iblk2 V c 3 t :=
  before2_3_of V (dat2 V O Rc c) (A_eq2 V O Rc c 3) (after2_3 V O Rc c) t d
theorem before2_4 (c : Dev nD) (t : Fin cfg2.N) (d) : (dat2 (Ix := Ix) (Name := Name) (U := U) (Lvl := Lvl) V O Rc c).before 4 t d = iblk2 V c 4 t :=
  before2_4_of V (dat2 V O Rc c) (A_eq2 V O Rc c 4) (after2_4 V O Rc c) t d
theorem before2_5 (c : Dev nD) (t : Fin cfg2.N) (d) : (dat2 (Ix := Ix) (Name := Name) (U := U) (Lvl := Lvl) V O Rc c).before 5 t d = iblk2 V c 5 t :=
  before2_5_of V (dat2 V O Rc c) (A_eq2 V O Rc c 5) (after2_5 V O Rc c) t d
theorem before2_6 (c : Dev nD) (t : Fin cfg2.N) (d) : (dat2 (Ix := Ix) (Name := Name) (U := U) (Lvl := Lvl) V O Rc c).before 6 t d = iblk2 V c 6 t :=
  before2_6_of V (dat2 V O Rc c) (A_eq2 V O Rc c 6) (after2_6 V O Rc c) t d
theorem before2_7 (c : Dev nD) (t : Fin cfg2.N) (d) : (dat2 (Ix := Ix) (Name := Name) (U := U) (Lvl := Lvl) V O Rc c).before 7 t d = iblk2 V c 7 t :=
  before2_7_of V (dat2 V O Rc c) (A_eq2 V O Rc c 7) (after2_7 V O Rc c) t d
theorem before2_8 (c : Dev nD) (t : Fin cfg2.N) (d) : (dat2 (Ix := Ix) (Name := Name) (U := U) (Lvl := Lvl) V O Rc c).before 8 t d = iblk2 V c 8 t :=
  before2_8_of V (dat2 V O Rc c) (A_eq2 V O Rc c 8) (after2_8 V O Rc c) t d
theorem before2_9 (c : Dev nD) (t : Fin cfg2.N) (d) : (dat2 (Ix := Ix) (Name := Name) (U := U) (Lvl := Lvl) V O Rc c).before 9 t d = iblk2 V c 9 t :=
  before2_9_of V (dat2 V O Rc c) (A_eq2 V O Rc c 9) (after2_9 V O Rc c) t d

/-- What the body is called with at point `t` (the body obligation's precondition, the windows one by one), -/
def bodyPre2 (ι : Ix) (c : Dev nD) (t : Fin cfg2.N) : sProp 𝕄 :=
  iprop((dat2 (Ix := Ix) (Name := Name) (U := U) (Lvl := Lvl) V O Rc c).Φ t.castSucc ∗ (dat2 (Ix := Ix) (Name := Name) (U := U) (Lvl := Lvl) V O Rc c).owesAt ι t.castSucc
    ∗ (∃ d, owns (c : Thread nD τ) (st2_0 t) fullShare ((dat2 (Ix := Ix) (Name := Name) (U := U) (Lvl := Lvl) V O Rc c).before 0 t d))
    ∗ (∃ d, owns (c : Thread nD τ) (st2_1 t) fullShare ((dat2 (Ix := Ix) (Name := Name) (U := U) (Lvl := Lvl) V O Rc c).before 1 t d))
    ∗ (∃ d, owns (c : Thread nD τ) (st2_2 t) fullShare ((dat2 (Ix := Ix) (Name := Name) (U := U) (Lvl := Lvl) V O Rc c).before 2 t d))
    ∗ (∃ d, owns (c : Thread nD τ) (st2_3 t) fullShare ((dat2 (Ix := Ix) (Name := Name) (U := U) (Lvl := Lvl) V O Rc c).before 3 t d))
    ∗ (∃ d, owns (c : Thread nD τ) (st2_4 t) fullShare ((dat2 (Ix := Ix) (Name := Name) (U := U) (Lvl := Lvl) V O Rc c).before 4 t d))
    ∗ (∃ d, owns (c : Thread nD τ) (st2_5 t) fullShare ((dat2 (Ix := Ix) (Name := Name) (U := U) (Lvl := Lvl) V O Rc c).before 5 t d))
    ∗ (∃ d, owns (c : Thread nD τ) (st2_6 t) fullShare ((dat2 (Ix := Ix) (Name := Name) (U := U) (Lvl := Lvl) V O Rc c).before 6 t d))
    ∗ (∃ d, owns (c : Thread nD τ) (st2_7 t) fullShare ((dat2 (Ix := Ix) (Name := Name) (U := U) (Lvl := Lvl) V O Rc c).before 7 t d))
    ∗ (∃ d, owns (c : Thread nD τ) (st2_8 t) fullShare ((dat2 (Ix := Ix) (Name := Name) (U := U) (Lvl := Lvl) V O Rc c).before 8 t d))
    ∗ (∃ d, owns (c : Thread nD τ) (st2_9 t) fullShare ((dat2 (Ix := Ix) (Name := Name) (U := U) (Lvl := Lvl) V O Rc c).before 9 t d))
    ∗ (∃ d, owns (c : Thread nD τ) (st2_10 t) fullShare ((dat2 (Ix := Ix) (Name := Name) (U := U) (Lvl := Lvl) V O Rc c).before 10 t d)))

/-- and what it returns. -/
def bodyPost2 (ι : Ix) (c : Dev nD) (t : Fin cfg2.N) : sProp 𝕄 :=
  iprop((dat2 (Ix := Ix) (Name := Name) (U := U) (Lvl := Lvl) V O Rc c).Φ t.succ ∗ (dat2 (Ix := Ix) (Name := Name) (U := U) (Lvl := Lvl) V O Rc c).owesAt ι t.succ
    ∗ owns (c : Thread nD τ) (st2_0 t) fullShare ((dat2 (Ix := Ix) (Name := Name) (U := U) (Lvl := Lvl) V O Rc c).after 0 t)
    ∗ owns (c : Thread nD τ) (st2_1 t) fullShare ((dat2 (Ix := Ix) (Name := Name) (U := U) (Lvl := Lvl) V O Rc c).after 1 t)
    ∗ owns (c : Thread nD τ) (st2_2 t) fullShare ((dat2 (Ix := Ix) (Name := Name) (U := U) (Lvl := Lvl) V O Rc c).after 2 t)
    ∗ owns (c : Thread nD τ) (st2_3 t) fullShare ((dat2 (Ix := Ix) (Name := Name) (U := U) (Lvl := Lvl) V O Rc c).after 3 t)
    ∗ owns (c : Thread nD τ) (st2_4 t) fullShare ((dat2 (Ix := Ix) (Name := Name) (U := U) (Lvl := Lvl) V O Rc c).after 4 t)
    ∗ owns (c : Thread nD τ) (st2_5 t) fullShare ((dat2 (Ix := Ix) (Name := Name) (U := U) (Lvl := Lvl) V O Rc c).after 5 t)
    ∗ owns (c : Thread nD τ) (st2_6 t) fullShare ((dat2 (Ix := Ix) (Name := Name) (U := U) (Lvl := Lvl) V O Rc c).after 6 t)
    ∗ owns (c : Thread nD τ) (st2_7 t) fullShare ((dat2 (Ix := Ix) (Name := Name) (U := U) (Lvl := Lvl) V O Rc c).after 7 t)
    ∗ owns (c : Thread nD τ) (st2_8 t) fullShare ((dat2 (Ix := Ix) (Name := Name) (U := U) (Lvl := Lvl) V O Rc c).after 8 t)
    ∗ owns (c : Thread nD τ) (st2_9 t) fullShare ((dat2 (Ix := Ix) (Name := Name) (U := U) (Lvl := Lvl) V O Rc c).after 9 t)
    ∗ owns (c : Thread nD τ) (st2_10 t) fullShare ((dat2 (Ix := Ix) (Name := Name) (U := U) (Lvl := Lvl) V O Rc c).after 10 t))

set_option maxHeartbeats 1000000 in
/-- The body at any point: the inputs' memrefs hold their blocks, so the kernel's run applies; the invariant and the
    core's `owes` pass through unread. -/
theorem sound_body2 (𝒱₀ : Variants) (ι : Ix) (c : Dev nD) (t : Fin cfg2.N) :
    bodyPre2 V O Rc ι c t ⊢ wp frame (wpE (defs₀ (F := F)) 𝒱₀ c none) Set.univ (bodyAt2 t) (fun _ => bodyPost2 (Ix := Ix) (Name := Name) (U := U) (Lvl := Lvl) V O Rc ι c t) := by
  unfold bodyPre2 bodyPost2 bodyAt2
  simp only [before2_0, before2_1, before2_2, before2_3, before2_4, before2_5, before2_6, before2_7, before2_8, before2_9]
  rw [show (dat2 (Ix := Ix) (Name := Name) (U := U) (Lvl := Lvl) V O Rc c).Φ t.succ = (dat2 (Ix := Ix) (Name := Name) (U := U) (Lvl := Lvl) V O Rc c).Φ t.castSucc from rfl,
    show (dat2 (Ix := Ix) (Name := Name) (U := U) (Lvl := Lvl) V O Rc c).owesAt ι t.succ = (dat2 (Ix := Ix) (Name := Name) (U := U) (Lvl := Lvl) V O Rc c).owesAt ι t.castSucc from rfl,
    after2_0, after2_1, after2_2, after2_3, after2_4, after2_5, after2_6, after2_7, after2_8, after2_9, after2_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel2 𝒱₀ c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation2 (𝒱₀ : Variants) (ι : Ix) (c : Dev nD) :
    BodyObligation (dat2 (F := F) (Ix := Ix) (Name := Name) (U := U) (Lvl := Lvl) V O Rc c) (defs₀ (F := F)) 𝒱₀ ι Set.univ := fun t => by
  rw [bigSep_W2, bigSep_W2]
  exact sound_body2 V O Rc 𝒱₀ ι c t

end Regions

/-! # The proof data family -/

/-- The prefetched tables' admissible contents: no pipeline has a table. -/
abbrev adm : (p : Fin 2) → (pcfgs (F := F) p).Adm := fun p => (cfgs p).toPCfg_adm

/-- Both pipelines' proof data, each at its own region's entry contents and owed tallies — a literal match, so that
    the pinned configuration at a numeral reduces to the printed one. -/
def pdats (V0 V2 : (c : Dev nD) → (b : Ref sig .tc) → Buf (Elt F) ((c : Thread nD τ).loc b)) (O0 O2 : Dev nD → CellTallies nD τ sig Ix) (R0 R2 : Dev nD → Set (SemLoc sig × Ix)) :
    (p : Fin 2) → (c : Dev nD) → Dat τ (Elt F) Ix Name U Lvl (Pipeline.pin (pcfgs (F := F)) adm p) c
  | ⟨0, _⟩ => fun c => dat0 V0 O0 R0 c
  | ⟨1, _⟩ => fun c => dat2 V2 O2 R2 c

section Family
variable (V0 V2 : (c : Dev nD) → (b : Ref sig .tc) → Buf (Elt F) ((c : Thread nD τ).loc b)) (O0 O2 : Dev nD → CellTallies nD τ sig Ix) (R0 R2 : Dev nD → Set (SemLoc sig × Ix))

theorem pdats_zero (c : Dev nD) : pdats (Ix := Ix) (Name := Name) (U := U) (Lvl := Lvl) V0 V2 O0 O2 R0 R2 0 c = dat0 V0 O0 R0 c := rfl
theorem pdats_one (c : Dev nD) : pdats (Ix := Ix) (Name := Name) (U := U) (Lvl := Lvl) V0 V2 O0 O2 R0 R2 1 c = dat2 V2 O2 R2 c := rfl

/-- The family's arrays are the regions' entry contents. -/
theorem pdats_A0 (c : Dev nD) (w : Fin cfg0.W) : (pdats (Ix := Ix) (Name := Name) (U := U) (Lvl := Lvl) V0 V2 O0 O2 R0 R2 0 c).A w = V0 c (Pipeline.arrRef spec0 w) := rfl
theorem pdats_A2 (c : Dev nD) (w : Fin cfg2.W) : (pdats (Ix := Ix) (Name := Name) (U := U) (Lvl := Lvl) V0 V2 O0 O2 R0 R2 1 c).A w = V2 c (Pipeline.arrRef spec2 w) := rfl

/-- The family's owed tallies are the regions' own, at every point. -/
theorem pdats_owed0 (c : Dev nD) (t) : (pdats (Ix := Ix) (Name := Name) (U := U) (Lvl := Lvl) V0 V2 O0 O2 R0 R2 0 c).owed t = O0 c := rfl
/-- and so are the bounds on its recorded pairs. -/
theorem pdats_rec0 (c : Dev nD) (t) : (pdats (Ix := Ix) (Name := Name) (U := U) (Lvl := Lvl) V0 V2 O0 O2 R0 R2 0 c).recorded t = R0 c := rfl
theorem pdats_rec2 (c : Dev nD) (t) : (pdats (Ix := Ix) (Name := Name) (U := U) (Lvl := Lvl) V0 V2 O0 O2 R0 R2 1 c).recorded t = R2 c := rfl
theorem pdats_owed2 (c : Dev nD) (t) : (pdats (Ix := Ix) (Name := Name) (U := U) (Lvl := Lvl) V0 V2 O0 O2 R0 R2 1 c).owed t = O2 c := rfl

/-- The family's body obligations, in the loose form the region rules take. -/
theorem hbody0 (𝒱₀ : Variants) (ι : Ix) (c : Dev nD) :
    Pipeline.BodyObligationLoose (pdats (Ix := Ix) (Name := Name) (U := U) (Lvl := Lvl) V0 V2 O0 O2 R0 R2 0 c) (defs₀ (F := F)) 𝒱₀ ι Set.univ :=
  (body_obligation0 V0 O0 R0 𝒱₀ ι c).loose
theorem hbody2 (𝒱₀ : Variants) (ι : Ix) (c : Dev nD) :
    Pipeline.BodyObligationLoose (pdats (Ix := Ix) (Name := Name) (U := U) (Lvl := Lvl) V0 V2 O0 O2 R0 R2 1 c) (defs₀ (F := F)) 𝒱₀ ι Set.univ :=
  (body_obligation2 V2 O2 R2 𝒱₀ ι c).loose

end Family

end Cert.Kernel.TcBody

end
-- ==== Proof.TcRegionsB.lean ====
import proofs.«210884_g88510686036700_cont_sun_m_1211_45_alg».proof.Proof.TcDatsB
import Idealize.ShloMosaic.Lib.Pipeline.Regions

set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

local notation "𝕄" => MT nD τ sig Ix (Elt F) Name U Lvl

variable (V0 V2 : (c : Dev nD) → (b : Ref sig .tc) → Buf (Elt F) ((c : Thread nD τ).loc b)) (O0 O2 : Dev nD → CellTallies nD τ sig Ix) (R0 R2 : Dev nD → Set (SemLoc sig × Ix))

/-! ## The regions' protocol entailments: the generator register in and out of the invariant, the wait evidence, the arrays -/

set_option backward.isDefEq.respectTransparency.types false in
/-- The invariant at the first point of pipeline 0, from the generator register, no table, and the scoped rest. -/
theorem hin0 (c : Dev nD) :
    iprop((∃ r, prngReg c r) ∗ Pipeline.prefHeld (Ix := Ix) (Name := Name) (U := U) (Lvl := Lvl) (pcfgs (F := F) 0).pre c (fun _ => fullShare) (adm (F := F) 0).1
        ∗ Pipeline.scopedRest (Pipeline.pin (pcfgs (F := F)) adm 0).spec c)
      ⊢ ((pdats (Ix := Ix) (Name := Name) (U := U) (Lvl := Lvl) V0 V2 O0 O2 R0 R2 0 c).Φ 0 : sProp 𝕄) := by
  rw [show (pdats (Ix := Ix) (Name := Name) (U := U) (Lvl := Lvl) V0 V2 O0 O2 R0 R2 0 c).Φ 0 = ΦTc spec0 c from rfl]; unfold ΦTc
  iintro ⟨Hp, -, Hr⟩
  isplitl [Hr]; · iexact Hr
  iexact Hp

set_option backward.isDefEq.respectTransparency.types false in
/-- The invariant at the last point gives back the generator register, no semaphore of the kernel's own, and the scoped rest. -/
theorem hout0 (c : Dev nD) :
    ((pdats (Ix := Ix) (Name := Name) (U := U) (Lvl := Lvl) V0 V2 O0 O2 R0 R2 0 c).Φ (Fin.last (Pipeline.pin (pcfgs (F := F)) adm 0).N) : sProp 𝕄)
      ⊢ iprop((∃ r, prngReg c r) ∗ Pipeline.ownSems0 (fun k : PEmpty => k.elim) c ∗ Pipeline.scopedRest (Pipeline.pin (pcfgs (F := F)) adm 0).spec c) := by
  rw [Pipeline.ownSems0_none, show (pdats (Ix := Ix) (Name := Name) (U := U) (Lvl := Lvl) V0 V2 O0 O2 R0 R2 0 c).Φ (Fin.last _) = ΦTc spec0 c from rfl]; unfold ΦTc
  iintro ⟨Hr, Hp⟩
  isplitl [Hp]; · iexact Hp
  isplitr; · iempintro
  iexact Hr

/-- The wait evidence for pipeline 0's staging cells, from persistent facts that let the core wait on each of them
    while it owes the region's tallies. -/
theorem hwaits0 (ι : Ix) (c : Dev nD) {R : sProp 𝕄} [BI.Persistent R]
    (h : ∀ (w : Fin cfg0.W) (s : Fin (cfg0.win w).nbuf), R ⊢ MayWait c (.dma ((cfg0.win w).sem s)) ι (O0 c)) :
    R ⊢ Pipeline.cellsWaits (Pipeline.pin (pcfgs (F := F)) adm) (pdats (Ix := Ix) (Name := Name) (U := U) (Lvl := Lvl) V0 V2 O0 O2 R0 R2) ι 0 c :=
  Pipeline.cellsWaits_intro (Pipeline.pin (pcfgs (F := F)) adm) (pdats (Ix := Ix) (Name := Name) (U := U) (Lvl := Lvl) V0 V2 O0 O2 R0 R2) ι 0 c fun w s _ => h w s

/-- Every array of pipeline 0 is held at the full share. -/
theorem share0 (c : Dev nD) (w) : (pdats (Ix := Ix) (Name := Name) (U := U) (Lvl := Lvl) V0 V2 O0 O2 R0 R2 0 c).share w = fullShare :=
  (pdats (Ix := Ix) (Name := Name) (U := U) (Lvl := Lvl) V0 V2 O0 O2 R0 R2 0 c).share_full (fun _ => rfl) w

set_option backward.isDefEq.respectTransparency.types false in
/-- ENTRY, the arrays' part: the core's unscoped buffers at the region's entry contents are the pipeline's arrays
    at the proof data's entry contents and the unscoped rest. -/
theorem arrays_split0 (c : Dev nD) :
    (unscopedBufs c (V0 c) : sProp 𝕄)
      ⊢ iprop((pdats (Ix := Ix) (Name := Name) (U := U) (Lvl := Lvl) V0 V2 O0 O2 R0 R2 0 c).arrays ((pdats (Ix := Ix) (Name := Name) (U := U) (Lvl := Lvl) V0 V2 O0 O2 R0 R2 0 c).arrAt · 0)
          ∗ Pipeline.unscopedRest (Ix := Ix) (Name := Name) (U := U) (Lvl := Lvl) (Pipeline.pin (pcfgs (F := F)) adm 0).spec c (V0 c)) :=
  Pipeline.arrays_of_unscopedBufs (p := 0) (pcfgs (F := F)) adm (pdats (Ix := Ix) (Name := Name) (U := U) (Lvl := Lvl) V0 V2 O0 O2 R0 R2) launch0.win launch0.arr_whole c
    (share0 V0 V2 O0 O2 R0 R2 c) (V0 c) fun _ => rfl

set_option backward.isDefEq.respectTransparency.types false in
/-- The invariant at the first point of pipeline 1, from the generator register, no table, and the scoped rest. -/
theorem hin2 (c : Dev nD) :
    iprop((∃ r, prngReg c r) ∗ Pipeline.prefHeld (Ix := Ix) (Name := Name) (U := U) (Lvl := Lvl) (pcfgs (F := F) 1).pre c (fun _ => fullShare) (adm (F := F) 1).1
        ∗ Pipeline.scopedRest (Pipeline.pin (pcfgs (F := F)) adm 1).spec c)
      ⊢ ((pdats (Ix := Ix) (Name := Name) (U := U) (Lvl := Lvl) V0 V2 O0 O2 R0 R2 1 c).Φ 0 : sProp 𝕄) := by
  rw [show (pdats (Ix := Ix) (Name := Name) (U := U) (Lvl := Lvl) V0 V2 O0 O2 R0 R2 1 c).Φ 0 = ΦTc spec2 c from rfl]; unfold ΦTc
  iintro ⟨Hp, -, Hr⟩
  isplitl [Hr]; · iexact Hr
  iexact Hp

set_option backward.isDefEq.respectTransparency.types false in
/-- The invariant at the last point gives back the generator register, no semaphore of the kernel's own, and the scoped rest. -/
theorem hout2 (c : Dev nD) :
    ((pdats (Ix := Ix) (Name := Name) (U := U) (Lvl := Lvl) V0 V2 O0 O2 R0 R2 1 c).Φ (Fin.last (Pipeline.pin (pcfgs (F := F)) adm 1).N) : sProp 𝕄)
      ⊢ iprop((∃ r, prngReg c r) ∗ Pipeline.ownSems0 (fun k : PEmpty => k.elim) c ∗ Pipeline.scopedRest (Pipeline.pin (pcfgs (F := F)) adm 1).spec c) := by
  rw [Pipeline.ownSems0_none, show (pdats (Ix := Ix) (Name := Name) (U := U) (Lvl := Lvl) V0 V2 O0 O2 R0 R2 1 c).Φ (Fin.last _) = ΦTc spec2 c from rfl]; unfold ΦTc
  iintro ⟨Hr, Hp⟩
  isplitl [Hp]; · iexact Hp
  isplitr; · iempintro
  iexact Hr

/-- The wait evidence for pipeline 1's staging cells, from persistent facts that let the core wait on each of them
    while it owes the region's tallies. -/
theorem hwaits2 (ι : Ix) (c : Dev nD) {R : sProp 𝕄} [BI.Persistent R]
    (h : ∀ (w : Fin cfg2.W) (s : Fin (cfg2.win w).nbuf), R ⊢ MayWait c (.dma ((cfg2.win w).sem s)) ι (O2 c)) :
    R ⊢ Pipeline.cellsWaits (Pipeline.pin (pcfgs (F := F)) adm) (pdats (Ix := Ix) (Name := Name) (U := U) (Lvl := Lvl) V0 V2 O0 O2 R0 R2) ι 1 c :=
  Pipeline.cellsWaits_intro (Pipeline.pin (pcfgs (F := F)) adm) (pdats (Ix := Ix) (Name := Name) (U := U) (Lvl := Lvl) V0 V2 O0 O2 R0 R2) ι 1 c fun w s _ => h w s

/-- Every array of pipeline 1 is held at the full share. -/
theorem share2 (c : Dev nD) (w) : (pdats (Ix := Ix) (Name := Name) (U := U) (Lvl := Lvl) V0 V2 O0 O2 R0 R2 1 c).share w = fullShare :=
  (pdats (Ix := Ix) (Name := Name) (U := U) (Lvl := Lvl) V0 V2 O0 O2 R0 R2 1 c).share_full (fun _ => rfl) w

set_option backward.isDefEq.respectTransparency.types false in
/-- ENTRY, the arrays' part: the core's unscoped buffers at the region's entry contents are the pipeline's arrays
    at the proof data's entry contents and the unscoped rest. -/
theorem arrays_split2 (c : Dev nD) :
    (unscopedBufs c (V2 c) : sProp 𝕄)
      ⊢ iprop((pdats (Ix := Ix) (Name := Name) (U := U) (Lvl := Lvl) V0 V2 O0 O2 R0 R2 1 c).arrays ((pdats (Ix := Ix) (Name := Name) (U := U) (Lvl := Lvl) V0 V2 O0 O2 R0 R2 1 c).arrAt · 0)
          ∗ Pipeline.unscopedRest (Ix := Ix) (Name := Name) (U := U) (Lvl := Lvl) (Pipeline.pin (pcfgs (F := F)) adm 1).spec c (V2 c)) :=
  Pipeline.arrays_of_unscopedBufs (p := 1) (pcfgs (F := F)) adm (pdats (Ix := Ix) (Name := Name) (U := U) (Lvl := Lvl) V0 V2 O0 O2 R0 R2) launch2.win launch2.arr_whole c
    (share2 V0 V2 O0 O2 R0 R2 c) (V2 c) fun _ => rfl

end Cert.Kernel.TcBody

end
-- ==== Proof.TcSegsB.lean ====
import proofs.«210884_g88510686036700_cont_sun_m_1211_45_alg».proof.Proof.CommonB
import proofs.«210884_g88510686036700_cont_sun_m_1211_45_alg».proof.Proof.TcRegionsB
import Idealize.ShloMosaic.Lib.Pipeline.RegionsLoop

set_option maxRecDepth 16384

noncomputable section

namespace Cert.Proof.KB

open Cert.Kernel Cert.Kernel.Gen Cert.Kernel.TcBody
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

section Enter

variable (V0 V2 : (c : Dev nD) → (b : Ref sig .tc) → Buf (Elt F) ((c : Thread nD τ).loc b)) (O0 O2 : Dev nD → CellTallies nD τ sig (HIx 1)) (R0 R2 : Dev nD → Set (SemLoc sig × HIx 1))
  (L : GSem nD τ sig → Finset (HIx 1)) (lv : GSem nD τ sig → HIx 1 → ℕ)

set_option backward.isDefEq.respectTransparency.types false in
/-- The region of pipeline 0 over the thread state: entered from every unscoped buffer at `V0`, the generator
    register at some state and the core owing `O0` with its recorded pairs within `R0`; left with the buffers at
    any valuation `V0'` that has the pipeline's arrays at what the write-backs leave and agrees with `V0` off
    them, the same tallies owed, the recorded pairs within `R0` and the staging cells' own. -/
def reg0 (V0' : (c : Dev nD) → (b : Ref sig .tc) → Buf (Elt F) ((c : Thread nD τ).loc b))
    (hF : ∀ c w, (pdats (Ix := HIx 1) (Name := ℕ) (U := UU) (Lvl := ℕ) V0 V2 O0 O2 R0 R2 0 c).arrAt w cfg0.N = V0' c (Pipeline.arrRef spec0 w))
    (hrest : ∀ c b, b ∉ Finset.univ.image (Pipeline.arrRef spec0) → V0' c b = V0 c b)
    (hw : ∀ (c : Dev nD) (w : Fin cfg0.W) (s : Fin (cfg0.win w).nbuf),
      (levAts L lv : sProp 𝕄) ⊢ MayWait c (.dma ((cfg0.win w).sem s)) none (O0 c)) :
    Pipeline.RegionSeg (pcfgs (F := F)) adm (pdats (Ix := HIx 1) (Name := ℕ) (U := UU) (Lvl := ℕ) V0 V2 O0 O2 R0 R2) none defs₀ 𝒱₀ L lv 0 where
  win := launch0.win.to₀
  block_pos := launch0.block_pos
  stage_whole := launch0.stage_whole
  K := PEmpty
  osem k := k.elim
  ho := Pipeline.OwnSemFacts.none _
  hbody c := hbody0 V0 V2 O0 O2 R0 R2 𝒱₀ none c
  hwaits c := hwaits0 V0 V2 O0 O2 R0 R2 none c (hw c)
  pre c := iprop(unscopedBufs c (V0 c) ∗ (∃ r, prngReg c r) ∗ ∃ W : Waits sig (HIx 1), ⌜(↑W : Set (SemLoc sig × HIx 1)) ⊆ R0 c⌝ ∗ owes (c : Thread nD τ) (O0 c) W)
  post c := iprop(unscopedBufs c (V0' c) ∗ (∃ r, prngReg c r)
    ∗ ∃ W : Waits sig (HIx 1), ⌜(↑W : Set (SemLoc sig × HIx 1)) ⊆ R0 c ∪ cfg0.waitPairs none⌝ ∗ owes (c : Thread nD τ) (O0 c) W)
  X c := iprop(∃ r, prngReg c r)
  Y c := iprop(∃ r, prngReg c r)
  Z c := Pipeline.unscopedRest (Ix := HIx 1) (Name := ℕ) (U := UU) (Lvl := ℕ) spec0 c (V0 c)
  hentry c := by
    rw [Pipeline.ownSems0_none]
    iintro ⟨⟨Hub, Hp, HO⟩, -, -⟩
    ihave H := (arrays_split0 V0 V2 O0 O2 R0 R2 c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := hin0 V0 V2 O0 O2 R0 R2 c
  hout c := hout0 V0 V2 O0 O2 R0 R2 c
  hexit c := by
    have hjoin := Pipeline.unscopedBufs_of_arrays (p := 0) (pcfgs (F := F)) adm (Ix := HIx 1) (Name := ℕ) (U := UU) (Lvl := ℕ)
      launch0.win launch0.arr_whole c (pdats (Ix := HIx 1) (Name := ℕ) (U := UU) (Lvl := ℕ) V0 V2 O0 O2 R0 R2) (share0 V0 V2 O0 O2 R0 R2 c)
      (V0 c) (V0' c) ((pdats (Ix := HIx 1) (Name := ℕ) (U := UU) (Lvl := ℕ) V0 V2 O0 O2 R0 R2 0 c).arrAt · cfg0.N) (hF c) (hrest c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact hW
    iexact HO

set_option backward.isDefEq.respectTransparency.types false in
/-- The region of pipeline 1 over the thread state: entered from every unscoped buffer at `V2`, the generator
    register at some state and the core owing `O2` with its recorded pairs within `R2`; left with the buffers at
    any valuation `V2'` that has the pipeline's arrays at what the write-backs leave and agrees with `V2` off
    them, the same tallies owed, the recorded pairs within `R2` and the staging cells' own. -/
def reg2 (V2' : (c : Dev nD) → (b : Ref sig .tc) → Buf (Elt F) ((c : Thread nD τ).loc b))
    (hF : ∀ c w, (pdats (Ix := HIx 1) (Name := ℕ) (U := UU) (Lvl := ℕ) V0 V2 O0 O2 R0 R2 1 c).arrAt w cfg2.N = V2' c (Pipeline.arrRef spec2 w))
    (hrest : ∀ c b, b ∉ Finset.univ.image (Pipeline.arrRef spec2) → V2' c b = V2 c b)
    (hw : ∀ (c : Dev nD) (w : Fin cfg2.W) (s : Fin (cfg2.win w).nbuf),
      (levAts L lv : sProp 𝕄) ⊢ MayWait c (.dma ((cfg2.win w).sem s)) none (O2 c)) :
    Pipeline.RegionSeg (pcfgs (F := F)) adm (pdats (Ix := HIx 1) (Name := ℕ) (U := UU) (Lvl := ℕ) V0 V2 O0 O2 R0 R2) none defs₀ 𝒱₀ L lv 1 where
  win := launch2.win.to₀
  block_pos := launch2.block_pos
  stage_whole := launch2.stage_whole
  K := PEmpty
  osem k := k.elim
  ho := Pipeline.OwnSemFacts.none _
  hbody c := hbody2 V0 V2 O0 O2 R0 R2 𝒱₀ none c
  hwaits c := hwaits2 V0 V2 O0 O2 R0 R2 none c (hw c)
  pre c := iprop(unscopedBufs c (V2 c) ∗ (∃ r, prngReg c r) ∗ ∃ W : Waits sig (HIx 1), ⌜(↑W : Set (SemLoc sig × HIx 1)) ⊆ R2 c⌝ ∗ owes (c : Thread nD τ) (O2 c) W)
  post c := iprop(unscopedBufs c (V2' c) ∗ (∃ r, prngReg c r)
    ∗ ∃ W : Waits sig (HIx 1), ⌜(↑W : Set (SemLoc sig × HIx 1)) ⊆ R2 c ∪ cfg2.waitPairs none⌝ ∗ owes (c : Thread nD τ) (O2 c) W)
  X c := iprop(∃ r, prngReg c r)
  Y c := iprop(∃ r, prngReg c r)
  Z c := Pipeline.unscopedRest (Ix := HIx 1) (Name := ℕ) (U := UU) (Lvl := ℕ) spec2 c (V2 c)
  hentry c := by
    rw [Pipeline.ownSems0_none]
    iintro ⟨⟨Hub, Hp, HO⟩, -, -⟩
    ihave H := (arrays_split2 V0 V2 O0 O2 R0 R2 c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun x hx => Or.inl (hW hx)
      iexact HO
    isplitl [Hp]; · iexact Hp
    iexact Hrest
  hin c := hin2 V0 V2 O0 O2 R0 R2 c
  hout c := hout2 V0 V2 O0 O2 R0 R2 c
  hexit c := by
    have hjoin := Pipeline.unscopedBufs_of_arrays (p := 1) (pcfgs (F := F)) adm (Ix := HIx 1) (Name := ℕ) (U := UU) (Lvl := ℕ)
      launch2.win launch2.arr_whole c (pdats (Ix := HIx 1) (Name := ℕ) (U := UU) (Lvl := ℕ) V0 V2 O0 O2 R0 R2) (share2 V0 V2 O0 O2 R0 R2 c)
      (V2 c) (V2' c) ((pdats (Ix := HIx 1) (Name := ℕ) (U := UU) (Lvl := ℕ) V0 V2 O0 O2 R0 R2 1 c).arrAt · cfg2.N) (hF c) (hrest c)
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr; · ipureintro; exact hW
    iexact HO

end Enter

end Cert.Proof.KB

end
-- ==== Proof.TcAfterB.lean ====
import proofs.«210884_g88510686036700_cont_sun_m_1211_45_alg».proof.Proof.TcDatsB

set_option maxRecDepth 16384

noncomputable section

namespace Cert.Kernel.TcBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

variable (V0 V2 : (c : Dev nD) → (b : Ref sig .tc) → Buf (Elt F) ((c : Thread nD τ).loc b)) (O0 O2 : Dev nD → CellTallies nD τ sig Ix) (R0 R2 : Dev nD → Set (SemLoc sig × Ix))

/-! ## The TensorCore's buffer contents when a region is left

The projection's two result arrays at what its write-backs leave, every other buffer as the region found it; the
same for the MLP's one result array. -/

/-- After the projection region: the two result arrays at what the pipeline leaves, the rest as entered. -/
def VAfter0 (c : Dev nD) (b : Ref sig .tc) : Buf (Elt F) ((c : Thread nD τ).loc b) :=
  if h4 : b = main_v4_0 then h4 ▸ (pdats (Ix := Ix) (Name := Name) (U := U) (Lvl := Lvl) V0 V2 O0 O2 R0 R2 0 c).arrAt 4 cfg0.N
  else if h5 : b = main_v4_1 then h5 ▸ (pdats (Ix := Ix) (Name := Name) (U := U) (Lvl := Lvl) V0 V2 O0 O2 R0 R2 0 c).arrAt 5 cfg0.N
  else V0 c b

/-- After the MLP region: the result array at what the pipeline leaves, the rest as entered. -/
def VAfter2 (c : Dev nD) (b : Ref sig .tc) : Buf (Elt F) ((c : Thread nD τ).loc b) :=
  if h : b = main_v19 then h ▸ (pdats (Ix := Ix) (Name := Name) (U := U) (Lvl := Lvl) V0 V2 O0 O2 R0 R2 1 c).arrAt 10 cfg2.N
  else V2 c b

theorem VAfter0_v4_0 (c : Dev nD) : VAfter0 (Ix := Ix) (Name := Name) (U := U) (Lvl := Lvl) V0 V2 O0 O2 R0 R2 c main_v4_0 = (pdats (Ix := Ix) (Name := Name) (U := U) (Lvl := Lvl) V0 V2 O0 O2 R0 R2 0 c).arrAt 4 cfg0.N := by
  unfold VAfter0; rw [dif_pos rfl]
theorem VAfter0_v4_1 (c : Dev nD) : VAfter0 (Ix := Ix) (Name := Name) (U := U) (Lvl := Lvl) V0 V2 O0 O2 R0 R2 c main_v4_1 = (pdats (Ix := Ix) (Name := Name) (U := U) (Lvl := Lvl) V0 V2 O0 O2 R0 R2 0 c).arrAt 5 cfg0.N := by
  unfold VAfter0; rw [dif_neg (by decide), dif_pos rfl]
theorem VAfter2_v19 (c : Dev nD) : VAfter2 (Ix := Ix) (Name := Name) (U := U) (Lvl := Lvl) V0 V2 O0 O2 R0 R2 c main_v19 = (pdats (Ix := Ix) (Name := Name) (U := U) (Lvl := Lvl) V0 V2 O0 O2 R0 R2 1 c).arrAt 10 cfg2.N := by
  unfold VAfter2; rw [dif_pos rfl]

/-- A buffer that is neither result array of the projection is as the region found it. -/
theorem VAfter0_of_not_out (c : Dev nD) (b : Ref sig .tc) (h4 : b ≠ main_v4_0) (h5 : b ≠ main_v4_1) :
    VAfter0 (Ix := Ix) (Name := Name) (U := U) (Lvl := Lvl) V0 V2 O0 O2 R0 R2 c b = V0 c b := by
  unfold VAfter0; rw [dif_neg h4, dif_neg h5]
/-- A buffer that is not the MLP's result array is as the region found it. -/
theorem VAfter2_of_not_out (c : Dev nD) (b : Ref sig .tc) (h : b ≠ main_v19) :
    VAfter2 (Ix := Ix) (Name := Name) (U := U) (Lvl := Lvl) V0 V2 O0 O2 R0 R2 c b = V2 c b := by
  unfold VAfter2; rw [dif_neg h]

/-- Each array of the projection's windows is, after the region, what the pipeline leaves in it: an input array is
    never written (`Dat.arrAt_in`), a result array is by definition. -/
theorem hF0 (c : Dev nD) : ∀ w : Fin cfg0.W, (pdats (Ix := Ix) (Name := Name) (U := U) (Lvl := Lvl) V0 V2 O0 O2 R0 R2 0 c).arrAt w cfg0.N = VAfter0 (Ix := Ix) (Name := Name) (U := U) (Lvl := Lvl) V0 V2 O0 O2 R0 R2 c (Pipeline.arrRef spec0 w)
  | ⟨0, _⟩ => ((pdats (Ix := Ix) (Name := Name) (U := U) (Lvl := Lvl) V0 V2 O0 O2 R0 R2 0 c).arrAt_in 0 rfl _).trans (VAfter0_of_not_out V0 V2 O0 O2 R0 R2 c _ (show Pipeline.arrRef spec0 0 ≠ main_v4_0 by decide) (show Pipeline.arrRef spec0 0 ≠ main_v4_1 by decide)).symm
  | ⟨1, _⟩ => ((pdats (Ix := Ix) (Name := Name) (U := U) (Lvl := Lvl) V0 V2 O0 O2 R0 R2 0 c).arrAt_in 1 rfl _).trans (VAfter0_of_not_out V0 V2 O0 O2 R0 R2 c _ (show Pipeline.arrRef spec0 1 ≠ main_v4_0 by decide) (show Pipeline.arrRef spec0 1 ≠ main_v4_1 by decide)).symm
  | ⟨2, _⟩ => ((pdats (Ix := Ix) (Name := Name) (U := U) (Lvl := Lvl) V0 V2 O0 O2 R0 R2 0 c).arrAt_in 2 rfl _).trans (VAfter0_of_not_out V0 V2 O0 O2 R0 R2 c _ (show Pipeline.arrRef spec0 2 ≠ main_v4_0 by decide) (show Pipeline.arrRef spec0 2 ≠ main_v4_1 by decide)).symm
  | ⟨3, _⟩ => ((pdats (Ix := Ix) (Name := Name) (U := U) (Lvl := Lvl) V0 V2 O0 O2 R0 R2 0 c).arrAt_in 3 rfl _).trans (VAfter0_of_not_out V0 V2 O0 O2 R0 R2 c _ (show Pipeline.arrRef spec0 3 ≠ main_v4_0 by decide) (show Pipeline.arrRef spec0 3 ≠ main_v4_1 by decide)).symm
  | ⟨4, _⟩ => (VAfter0_v4_0 V0 V2 O0 O2 R0 R2 c).symm
  | ⟨5, _⟩ => (VAfter0_v4_1 V0 V2 O0 O2 R0 R2 c).symm

/-- Off the windows' arrays nothing changes. -/
theorem hrest0 (c : Dev nD) (b : Ref sig .tc) (hb : b ∉ Finset.univ.image (Pipeline.arrRef spec0)) :
    VAfter0 (Ix := Ix) (Name := Name) (U := U) (Lvl := Lvl) V0 V2 O0 O2 R0 R2 c b = V0 c b :=
  VAfter0_of_not_out V0 V2 O0 O2 R0 R2 c b
    (fun e => hb (Finset.mem_image.mpr ⟨4, Finset.mem_univ _, e.symm⟩))
    (fun e => hb (Finset.mem_image.mpr ⟨5, Finset.mem_univ _, e.symm⟩))

theorem hF2 (c : Dev nD) : ∀ w : Fin cfg2.W, (pdats (Ix := Ix) (Name := Name) (U := U) (Lvl := Lvl) V0 V2 O0 O2 R0 R2 1 c).arrAt w cfg2.N = VAfter2 (Ix := Ix) (Name := Name) (U := U) (Lvl := Lvl) V0 V2 O0 O2 R0 R2 c (Pipeline.arrRef spec2 w)
  | ⟨0, _⟩ => ((pdats (Ix := Ix) (Name := Name) (U := U) (Lvl := Lvl) V0 V2 O0 O2 R0 R2 1 c).arrAt_in 0 rfl _).trans (VAfter2_of_not_out V0 V2 O0 O2 R0 R2 c _ (show Pipeline.arrRef spec2 0 ≠ main_v19 by decide)).symm
  | ⟨1, _⟩ => ((pdats (Ix := Ix) (Name := Name) (U := U) (Lvl := Lvl) V0 V2 O0 O2 R0 R2 1 c).arrAt_in 1 rfl _).trans (VAfter2_of_not_out V0 V2 O0 O2 R0 R2 c _ (show Pipeline.arrRef spec2 1 ≠ main_v19 by decide)).symm
  | ⟨2, _⟩ => ((pdats (Ix := Ix) (Name := Name) (U := U) (Lvl := Lvl) V0 V2 O0 O2 R0 R2 1 c).arrAt_in 2 rfl _).trans (VAfter2_of_not_out V0 V2 O0 O2 R0 R2 c _ (show Pipeline.arrRef spec2 2 ≠ main_v19 by decide)).symm
  | ⟨3, _⟩ => ((pdats (Ix := Ix) (Name := Name) (U := U) (Lvl := Lvl) V0 V2 O0 O2 R0 R2 1 c).arrAt_in 3 rfl _).trans (VAfter2_of_not_out V0 V2 O0 O2 R0 R2 c _ (show Pipeline.arrRef spec2 3 ≠ main_v19 by decide)).symm
  | ⟨4, _⟩ => ((pdats (Ix := Ix) (Name := Name) (U := U) (Lvl := Lvl) V0 V2 O0 O2 R0 R2 1 c).arrAt_in 4 rfl _).trans (VAfter2_of_not_out V0 V2 O0 O2 R0 R2 c _ (show Pipeline.arrRef spec2 4 ≠ main_v19 by decide)).symm
  | ⟨5, _⟩ => ((pdats (Ix := Ix) (Name := Name) (U := U) (Lvl := Lvl) V0 V2 O0 O2 R0 R2 1 c).arrAt_in 5 rfl _).trans (VAfter2_of_not_out V0 V2 O0 O2 R0 R2 c _ (show Pipeline.arrRef spec2 5 ≠ main_v19 by decide)).symm
  | ⟨6, _⟩ => ((pdats (Ix := Ix) (Name := Name) (U := U) (Lvl := Lvl) V0 V2 O0 O2 R0 R2 1 c).arrAt_in 6 rfl _).trans (VAfter2_of_not_out V0 V2 O0 O2 R0 R2 c _ (show Pipeline.arrRef spec2 6 ≠ main_v19 by decide)).symm
  | ⟨7, _⟩ => ((pdats (Ix := Ix) (Name := Name) (U := U) (Lvl := Lvl) V0 V2 O0 O2 R0 R2 1 c).arrAt_in 7 rfl _).trans (VAfter2_of_not_out V0 V2 O0 O2 R0 R2 c _ (show Pipeline.arrRef spec2 7 ≠ main_v19 by decide)).symm
  | ⟨8, _⟩ => ((pdats (Ix := Ix) (Name := Name) (U := U) (Lvl := Lvl) V0 V2 O0 O2 R0 R2 1 c).arrAt_in 8 rfl _).trans (VAfter2_of_not_out V0 V2 O0 O2 R0 R2 c _ (show Pipeline.arrRef spec2 8 ≠ main_v19 by decide)).symm
  | ⟨9, _⟩ => ((pdats (Ix := Ix) (Name := Name) (U := U) (Lvl := Lvl) V0 V2 O0 O2 R0 R2 1 c).arrAt_in 9 rfl _).trans (VAfter2_of_not_out V0 V2 O0 O2 R0 R2 c _ (show Pipeline.arrRef spec2 9 ≠ main_v19 by decide)).symm
  | ⟨10, _⟩ => (VAfter2_v19 V0 V2 O0 O2 R0 R2 c).symm

theorem hrest2 (c : Dev nD) (b : Ref sig .tc) (hb : b ∉ Finset.univ.image (Pipeline.arrRef spec2)) :
    VAfter2 (Ix := Ix) (Name := Name) (U := U) (Lvl := Lvl) V0 V2 O0 O2 R0 R2 c b = V2 c b :=
  VAfter2_of_not_out V0 V2 O0 O2 R0 R2 c b (fun e => hb (Finset.mem_image.mpr ⟨10, Finset.mem_univ _, e.symm⟩))

end Cert.Kernel.TcBody

end
-- ==== Proof.TcEnterB.lean ====
import proofs.«210884_g88510686036700_cont_sun_m_1211_45_alg».proof.Proof.TcSegsB
import proofs.«210884_g88510686036700_cont_sun_m_1211_45_alg».proof.Proof.TcAfterB

set_option maxRecDepth 16384
set_option Elab.async false

noncomputable section

namespace Cert.Proof.KB

open Cert.Kernel Cert.Kernel.Gen Cert.Kernel.TcBody
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- A region's custom call in the extended signature is the lifted call of the pipelines' signature. -/
theorem lift_entry (p : Fin 2) :
    (Prog.lift (.customCall (SparseCore.inner (Pipeline.entry p)) ()) : Prog (TpuEff nD τ sig (Elt F) (SparseCore.Sig (ΛP (F := F)) 1) .tc) PUnit)
      = SparseCore.liftProg (Prog.op (.customCall (Pipeline.entry p) ()) fun _ => Prog.ret PUnit.unit) := rfl

section Enter

variable (V0 V2 : (c : Dev nD) → (b : Ref sig .tc) → Buf (Elt F) ((c : Thread nD τ).loc b)) (O0 O2 : Dev nD → CellTallies nD τ sig (HIx 1)) (R0 R2 : Dev nD → Set (SemLoc sig × HIx 1))
  (L : GSem nD τ sig → Finset (HIx 1)) (lv : GSem nD τ sig → HIx 1 → ℕ)

set_option backward.isDefEq.respectTransparency.types false in
/-- Pipeline 0's region in the pipelines' own signature: from the boundary, the region's thread state, the level
    facts and the staging cells' ghost state, the custom call runs to the continuation's assertion. -/
theorem enter0_inner (V0' : (c : Dev nD) → (b : Ref sig .tc) → Buf (Elt F) ((c : Thread nD τ).loc b))
    (hF : ∀ c w, (pdats (Ix := HIx 1) (Name := ℕ) (U := UU) (Lvl := ℕ) V0 V2 O0 O2 R0 R2 0 c).arrAt w cfg0.N = V0' c (Pipeline.arrRef spec0 w))
    (hrest : ∀ c b, b ∉ Finset.univ.image (Pipeline.arrRef spec0) → V0' c b = V0 c b)
    (hw : ∀ (c : Dev nD) (w : Fin cfg0.W) (s : Fin (cfg0.win w).nbuf),
      (levAts L lv : sProp 𝕄) ⊢ MayWait c (.dma ((cfg0.win w).sem s)) none (O0 c))
    (d : Dev nD) (Φ : PUnit → sProp 𝕄) :
    iprop((iprop(boundary (d.tc : Thread nD τ) ∗ (reg0 V0 V2 O0 O2 R0 R2 L lv V0' hF hrest hw).post d) -∗ Φ ⟨⟩)
        ∗ boundary (d.tc : Thread nD τ) ∗ (reg0 V0 V2 O0 O2 R0 R2 L lv V0' hF hrest hw).pre d ∗ levAts L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ
          (Prog.op (.customCall (Pipeline.entry 0) ()) fun _ => Prog.ret PUnit.unit) Φ := by
  refine BIBase.Entails.trans ?_ ((reg0 V0 V2 O0 O2 R0 R2 L lv V0' hF hrest hw).wp (pcfgs (F := F)) adm _ none cellOf_inj EP defs₀ 𝒱₀ L lv d none
    (fun u hu => by cases hu) (fun _ => Prog.ret PUnit.unit) Φ)
  iintro ⟨Hk, Hb, Hpre, Hl, Hg, Ht⟩
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

set_option backward.isDefEq.respectTransparency.types false in
/-- ENTERING pipeline 0's region inside the SparseCore program on the TensorCore of `d`: the same, for the call as
    @main of the extended signature prints it. -/
theorem enter0 (V0' : (c : Dev nD) → (b : Ref sig .tc) → Buf (Elt F) ((c : Thread nD τ).loc b))
    (hF : ∀ c w, (pdats (Ix := HIx 1) (Name := ℕ) (U := UU) (Lvl := ℕ) V0 V2 O0 O2 R0 R2 0 c).arrAt w cfg0.N = V0' c (Pipeline.arrRef spec0 w))
    (hrest : ∀ c b, b ∉ Finset.univ.image (Pipeline.arrRef spec0) → V0' c b = V0 c b)
    (hw : ∀ (c : Dev nD) (w : Fin cfg0.W) (s : Fin (cfg0.win w).nbuf),
      (levAts L lv : sProp 𝕄) ⊢ MayWait c (.dma ((cfg0.win w).sem s)) none (O0 c))
    (d : Dev nD) (Φ : PUnit → sProp 𝕄) :
    iprop((iprop(boundary (T d) ∗ (reg0 V0 V2 O0 O2 R0 R2 L lv V0' hF hrest hw).post d) -∗ Φ ⟨⟩)
        ∗ boundary (T d) ∗ (reg0 V0 V2 O0 O2 R0 R2 L lv V0' hF hrest hw).pre d ∗ levAts L lv
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ
          (Prog.lift (.customCall (SparseCore.inner (Pipeline.entry 0)) ())) Φ := by
  rw [lift_entry]
  exact (enter0_inner V0 V2 O0 O2 R0 R2 L lv V0' hF hrest hw d Φ).trans
    ((K (F := F)).wp_liftProg (D (F := F)) 𝒱 (T d) Set.univ none _ Φ)

set_option backward.isDefEq.respectTransparency.types false in
/-- Pipeline 1's region in the pipelines' own signature: from the boundary, the region's thread state, the level
    facts and the staging cells' ghost state, the custom call runs to the continuation's assertion. -/
theorem enter2_inner (V2' : (c : Dev nD) → (b : Ref sig .tc) → Buf (Elt F) ((c : Thread nD τ).loc b))
    (hF : ∀ c w, (pdats (Ix := HIx 1) (Name := ℕ) (U := UU) (Lvl := ℕ) V0 V2 O0 O2 R0 R2 1 c).arrAt w cfg2.N = V2' c (Pipeline.arrRef spec2 w))
    (hrest : ∀ c b, b ∉ Finset.univ.image (Pipeline.arrRef spec2) → V2' c b = V2 c b)
    (hw : ∀ (c : Dev nD) (w : Fin cfg2.W) (s : Fin (cfg2.win w).nbuf),
      (levAts L lv : sProp 𝕄) ⊢ MayWait c (.dma ((cfg2.win w).sem s)) none (O2 c))
    (d : Dev nD) (Φ : PUnit → sProp 𝕄) :
    iprop((iprop(boundary (d.tc : Thread nD τ) ∗ (reg2 V0 V2 O0 O2 R0 R2 L lv V2' hF hrest hw).post d) -∗ Φ ⟨⟩)
        ∗ boundary (d.tc : Thread nD τ) ∗ (reg2 V0 V2 O0 O2 R0 R2 L lv V2' hF hrest hw).pre d ∗ levAts L lv
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ
          (Prog.op (.customCall (Pipeline.entry 1) ()) fun _ => Prog.ret PUnit.unit) Φ := by
  refine BIBase.Entails.trans ?_ ((reg2 V0 V2 O0 O2 R0 R2 L lv V2' hF hrest hw).wp (pcfgs (F := F)) adm _ none cellOf_inj EP defs₀ 𝒱₀ L lv d none
    (fun u hu => by cases hu) (fun _ => Prog.ret PUnit.unit) Φ)
  iintro ⟨Hk, Hb, Hpre, Hl, Hg, Ht⟩
  isplitl [Hk]
  · iintro H; rw [wp_ret]; imodintro; iapply Hk; iexact H
  isplitl [Hb]; · iexact Hb
  isplitl [Hpre]; · iexact Hpre
  isplitl [Hl]; · iexact Hl
  isplitl [Hg]; · iexact Hg
  iexact Ht

set_option backward.isDefEq.respectTransparency.types false in
/-- ENTERING pipeline 1's region inside the SparseCore program on the TensorCore of `d`: the same, for the call as
    @main of the extended signature prints it. -/
theorem enter2 (V2' : (c : Dev nD) → (b : Ref sig .tc) → Buf (Elt F) ((c : Thread nD τ).loc b))
    (hF : ∀ c w, (pdats (Ix := HIx 1) (Name := ℕ) (U := UU) (Lvl := ℕ) V0 V2 O0 O2 R0 R2 1 c).arrAt w cfg2.N = V2' c (Pipeline.arrRef spec2 w))
    (hrest : ∀ c b, b ∉ Finset.univ.image (Pipeline.arrRef spec2) → V2' c b = V2 c b)
    (hw : ∀ (c : Dev nD) (w : Fin cfg2.W) (s : Fin (cfg2.win w).nbuf),
      (levAts L lv : sProp 𝕄) ⊢ MayWait c (.dma ((cfg2.win w).sem s)) none (O2 c))
    (d : Dev nD) (Φ : PUnit → sProp 𝕄) :
    iprop((iprop(boundary (T d) ∗ (reg2 V0 V2 O0 O2 R0 R2 L lv V2' hF hrest hw).post d) -∗ Φ ⟨⟩)
        ∗ boundary (T d) ∗ (reg2 V0 V2 O0 O2 R0 R2 L lv V2' hF hrest hw).pre d ∗ levAts L lv
        ∗ Pipeline.cellsGhost (Pipeline.pin (pcfgs (F := F)) adm) EP 1 d ∗ Pipeline.toksInit (Pipeline.pin (pcfgs (F := F)) adm) EP 1 d)
      ⊢ wp frame (wpE ((K (F := F)).defs D) 𝒱 (T d) none) Set.univ
          (Prog.lift (.customCall (SparseCore.inner (Pipeline.entry 1)) ())) Φ := by
  rw [lift_entry]
  exact (enter2_inner V0 V2 O0 O2 R0 R2 L lv V2' hF hrest hw d Φ).trans
    ((K (F := F)).wp_liftProg (D (F := F)) 𝒱 (T d) Set.univ none _ Φ)

/-- Pipeline 0's region with the exit contents packaged: the result array(s) at what the write-backs leave, the rest
    as entered (`VAfter0`). -/
abbrev reg0A (hw : ∀ (c : Dev nD) (w : Fin cfg0.W) (s : Fin (cfg0.win w).nbuf),
      (levAts L lv : sProp 𝕄) ⊢ MayWait c (.dma ((cfg0.win w).sem s)) none (O0 c)) :
    Pipeline.RegionSeg (pcfgs (F := F)) adm (pdats (Ix := HIx 1) (Name := ℕ) (U := UU) (Lvl := ℕ) V0 V2 O0 O2 R0 R2) none defs₀ 𝒱₀ L lv 0 :=
  reg0 V0 V2 O0 O2 R0 R2 L lv (VAfter0 (Ix := HIx 1) (Name := ℕ) (U := UU) (Lvl := ℕ) V0 V2 O0 O2 R0 R2) (hF0 (Ix := HIx 1) (Name := ℕ) (U := UU) (Lvl := ℕ) V0 V2 O0 O2 R0 R2) (hrest0 (Ix := HIx 1) (Name := ℕ) (U := UU) (Lvl := ℕ) V0 V2 O0 O2 R0 R2) hw

/-- Entering pipeline 0's region with the exit contents packaged. -/
theorem enter0A (hw : ∀ (c : Dev nD) (w : Fin cfg0.W) (s : Fin (cfg0.win w).nbuf),
      (levAts L lv : sProp 𝕄) ⊢ MayWait c (.dma ((cfg0.win w).sem s)) none (O0 c))
    (d : Dev nD) (Φ : PUnit → sProp 𝕄) :
    iprop((iprop(boundary (T d) ∗ unscopedBufs d (VAfter0 (Ix := HIx 1) (Name := ℕ) (U := UU) (Lvl := ℕ) V0 V2 O0 O2 R0 R2 d) ∗ (∃ r, prngReg d r)
            ∗ ∃ W : Waits sig (HIx 1), ⌜(↑W : Set (SemLoc sig × HIx 1)) ⊆ R0 d ∪ cfg0.waitPairs none⌝ ∗ owes (d : Thread nD τ) (O0 d) W) -∗ Φ ⟨⟩)
        ∗ boundary (T d) ∗ unscopedBufs d (V0 d) ∗ (∃ r, prngReg d r)
        ∗ (∃ W : Waits sig (HIx 1), ⌜(↑W : Set (SemLoc sig × HIx 1)) ⊆ R0 d⌝ ∗ owes (d : Thread nD τ) (O0 d) W) ∗ levAts L lv
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ
          (Prog.lift (.customCall (SparseCore.inner (Pipeline.entry 0)) ())) Φ := by
  have h := enter0 V0 V2 O0 O2 R0 R2 L lv (VAfter0 (Ix := HIx 1) (Name := ℕ) (U := UU) (Lvl := ℕ) V0 V2 O0 O2 R0 R2) (hF0 (Ix := HIx 1) (Name := ℕ) (U := UU) (Lvl := ℕ) V0 V2 O0 O2 R0 R2) (hrest0 (Ix := HIx 1) (Name := ℕ) (U := UU) (Lvl := ℕ) V0 V2 O0 O2 R0 R2) hw d Φ
  dsimp only [reg0] at h
  refine BIBase.Entails.trans ?_ h
  iintro ⟨Hk, Hb, Hu, Hp, Ho, Hl, Hg, Ht⟩
  isplitl [Hk]; · iexact Hk
  isplitl [Hb]; · iexact Hb
  isplitl [Hu Hp Ho]
  · isplitl [Hu]; · iexact Hu
    isplitl [Hp]; · iexact Hp
    iexact Ho
  isplitl [Hl]; · iexact Hl
  isplitl [Hg]; · iexact Hg
  iexact Ht

/-- Pipeline 1's region with the exit contents packaged: the result array(s) at what the write-backs leave, the rest
    as entered (`VAfter2`). -/
abbrev reg2A (hw : ∀ (c : Dev nD) (w : Fin cfg2.W) (s : Fin (cfg2.win w).nbuf),
      (levAts L lv : sProp 𝕄) ⊢ MayWait c (.dma ((cfg2.win w).sem s)) none (O2 c)) :
    Pipeline.RegionSeg (pcfgs (F := F)) adm (pdats (Ix := HIx 1) (Name := ℕ) (U := UU) (Lvl := ℕ) V0 V2 O0 O2 R0 R2) none defs₀ 𝒱₀ L lv 1 :=
  reg2 V0 V2 O0 O2 R0 R2 L lv (VAfter2 (Ix := HIx 1) (Name := ℕ) (U := UU) (Lvl := ℕ) V0 V2 O0 O2 R0 R2) (hF2 (Ix := HIx 1) (Name := ℕ) (U := UU) (Lvl := ℕ) V0 V2 O0 O2 R0 R2) (hrest2 (Ix := HIx 1) (Name := ℕ) (U := UU) (Lvl := ℕ) V0 V2 O0 O2 R0 R2) hw

/-- Entering pipeline 1's region with the exit contents packaged. -/
theorem enter2A (hw : ∀ (c : Dev nD) (w : Fin cfg2.W) (s : Fin (cfg2.win w).nbuf),
      (levAts L lv : sProp 𝕄) ⊢ MayWait c (.dma ((cfg2.win w).sem s)) none (O2 c))
    (d : Dev nD) (Φ : PUnit → sProp 𝕄) :
    iprop((iprop(boundary (T d) ∗ unscopedBufs d (VAfter2 (Ix := HIx 1) (Name := ℕ) (U := UU) (Lvl := ℕ) V0 V2 O0 O2 R0 R2 d) ∗ (∃ r, prngReg d r)
            ∗ ∃ W : Waits sig (HIx 1), ⌜(↑W : Set (SemLoc sig × HIx 1)) ⊆ R2 d ∪ cfg2.waitPairs none⌝ ∗ owes (d : Thread nD τ) (O2 d) W) -∗ Φ ⟨⟩)
        ∗ boundary (T d) ∗ unscopedBufs d (V2 d) ∗ (∃ r, prngReg d r)
        ∗ (∃ W : Waits sig (HIx 1), ⌜(↑W : Set (SemLoc sig × HIx 1)) ⊆ R2 d⌝ ∗ owes (d : Thread nD τ) (O2 d) W) ∗ levAts L lv
        ∗ Pipeline.cellsGhost (Pipeline.pin (pcfgs (F := F)) adm) EP 1 d ∗ Pipeline.toksInit (Pipeline.pin (pcfgs (F := F)) adm) EP 1 d)
      ⊢ wp frame (wpE ((K (F := F)).defs D) 𝒱 (T d) none) Set.univ
          (Prog.lift (.customCall (SparseCore.inner (Pipeline.entry 1)) ())) Φ := by
  have h := enter2 V0 V2 O0 O2 R0 R2 L lv (VAfter2 (Ix := HIx 1) (Name := ℕ) (U := UU) (Lvl := ℕ) V0 V2 O0 O2 R0 R2) (hF2 (Ix := HIx 1) (Name := ℕ) (U := UU) (Lvl := ℕ) V0 V2 O0 O2 R0 R2) (hrest2 (Ix := HIx 1) (Name := ℕ) (U := UU) (Lvl := ℕ) V0 V2 O0 O2 R0 R2) hw d Φ
  dsimp only [reg2] at h
  refine BIBase.Entails.trans ?_ h
  iintro ⟨Hk, Hb, Hu, Hp, Ho, Hl, Hg, Ht⟩
  isplitl [Hk]; · iexact Hk
  isplitl [Hb]; · iexact Hb
  isplitl [Hu Hp Ho]
  · isplitl [Hu]; · iexact Hu
    isplitl [Hp]; · iexact Hp
    iexact Ho
  isplitl [Hl]; · iexact Hl
  isplitl [Hg]; · iexact Hg
  iexact Ht

end Enter

end Cert.Proof.KB

end
-- ==== Proof.ScRunB.lean ====
/-
  The launch element (the handshakes' rounds and the two pipelines' staging cells), reading the final memory, and the
  SparseCore call as the TensorCore meets it: the six arrays split among the 32 tasks and joined again.
-/
import proofs.«210884_g88510686036700_cont_sun_m_1211_45_alg».proof.Proof.ScLaunchB
import proofs.«210884_g88510686036700_cont_sun_m_1211_45_alg».proof.Proof.TcEnterB

noncomputable section

namespace Cert.Proof.KB

open Cert.Kernel Cert.Kernel.Gen
open Cert.Kernel.TcBody (adm)
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)

variable {F : FTy → Type}

local notation "𝕄" => MT nD τ sig (HIx 1) (Elt F) ℕ UU ℕ

/-! ## The launch element -/

/-- What @main's proof starts from beyond what the launch deals the TensorCore: both pipelines' staging cells' ghost state. -/
def G (d : Dev nD) : sProp 𝕄 :=
  bigSep Finset.univ fun p : Fin 2 =>
    iprop(Pipeline.cellsGhost (Pipeline.pin (pcfgs (F := F)) adm) EP p d ∗ Pipeline.toksInit (Pipeline.pin (pcfgs (F := F)) adm) EP p d)

def u₀ : UU :=
  (initOf (K (F := F)).hsCells (K (F := F)).hsToks,
    (initOf (Pipeline.cells (nD := nD) (τ := τ) (Pipeline.pin (pcfgs (F := F)) adm) cellOf_inj) (Pipeline.launchToks (nD := nD) (τ := τ) (Pipeline.pin (pcfgs (F := F)) adm) cellOf_inj),
      (1 : Counters)))

theorem ownU_split3 (a : UH) (b : UP) : (ownU (a, (b, (1 : Counters))) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

section HU

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P cu cv csrc cdst).x q thr) := by
  unfold u₀
  iintro Hu
  ihave H := (ownU_split3 _ _) $$ Hu
  icases H with ⟨HH, HP⟩
  imod (Pipeline.fund_ghost (Pipeline.pin (pcfgs (F := F)) adm) EP cellOf_inj) $$ HP with ⟨Hg, Ht⟩
  imodintro
  isplitl [HH]; · iexact HH
  isplitl [Hg Ht]
  · unfold G
    rw [bigSep_congr fun d _ => bigSep_sep' (Finset.univ : Finset (Fin 2)) _ _, bigSep_sep']
    isplitl [Hg]; · iexact Hg
    iexact Ht
  · rw [show (bigSep Finset.univ fun thr : Thread nD τ => bigSep Finset.univ fun q : Fin 1 => (P cu cv csrc cdst).x q thr) = (iprop(emp) : sProp 𝕄) from by
      show (bigSep Finset.univ fun _ : Thread nD τ => bigSep Finset.univ fun _ : Fin 1 => (iprop(emp) : sProp 𝕄)) = iprop(emp)
      rw [bigSep_congr fun _ _ => bigSep_emp' _, bigSep_emp']]
    iempintro

end HU

end Cert.Proof.KB

end
-- ==== Proof.ScRowsB.lean ====
/-
  The 320000 rows of a gathered array are partitioned by the 32 tasks: task w owns the rows of its consecutive blocks of
  128, the first four tasks 79 blocks each, the others 78. A row's owner is computed from its block number.
-/
import proofs.«210884_g88510686036700_cont_sun_m_1211_45_alg».proof.Proof.ScPayB

noncomputable section

namespace Cert.Proof.KB

open Cert.Kernel
open Idealize.ShloMosaic

theorem mem_rowsOf (w : Fin 32) (ix : S320000x128.Idx) :
    ix ∈ rowsOf w ↔ 128 * blk0 w ≤ (ix 0).val ∧ (ix 0).val < 128 * (blk0 w + nBlk w) := by
  simp [rowsOf]

/-- The task that owns row `r`. -/
def ownerOf (r : ℕ) : ℕ := if r / 128 < 316 then r / 128 / 79 else (r / 128 - 4) / 78

theorem owner_spec (w : Fin 32) (r : ℕ) :
    (128 * blk0 w ≤ r ∧ r < 128 * (blk0 w + nBlk w)) ↔ w.val = ownerOf r := by
  have hw := w.isLt
  unfold blk0 nBlk ownerOf
  split <;> split <;> omega

theorem ownerOf_lt (r : ℕ) (hr : r < 320000) : ownerOf r < 32 := by
  unfold ownerOf; split <;> omega

theorem row_lt (ix : S320000x128.Idx) : (ix 0).val < 320000 := (ix 0).isLt

theorem rows_disjoint : ∀ w ∈ (Finset.univ : Finset (Fin 32)), ∀ w' ∈ (Finset.univ : Finset (Fin 32)), w ≠ w' → Disjoint (rowsOf w) (rowsOf w') := by
  intro w _ w' _ hne
  refine Finset.disjoint_left.mpr fun ix h h' => hne (Fin.ext ?_)
  rw [mem_rowsOf, owner_spec] at h h'
  exact h.trans h'.symm

theorem rows_cover : (Finset.univ : Finset (Fin 32)).biUnion rowsOf = Finset.univ := by
  refine Finset.eq_univ_iff_forall.mpr fun ix => Finset.mem_biUnion.mpr ⟨⟨ownerOf (ix 0).val, ownerOf_lt _ (row_lt ix)⟩, Finset.mem_univ _, ?_⟩
  rw [mem_rowsOf, owner_spec]

/-- Task numbers are the pairs (SparseCore, subcore), subcores of core 0 first. -/
theorem taskNo_bij : Function.Bijective (fun p : Fin 2 × Fin 16 => taskNo p.1 p.2) := by
  constructor
  · rintro ⟨c, i⟩ ⟨c', i'⟩ h
    have h' : i.val + 16 * c.val = i'.val + 16 * c'.val := by simpa [taskNo] using congrArg Fin.val h
    have hi := i.isLt; have hi' := i'.isLt
    have h1 : c.val = c'.val := by omega
    have h2 : i.val = i'.val := by omega
    exact Prod.ext (Fin.ext h1) (Fin.ext h2)
  · intro w
    refine ⟨(⟨w.val / 16, by have := w.isLt; omega⟩, ⟨w.val % 16, Nat.mod_lt _ (by decide)⟩), Fin.ext ?_⟩
    show w.val % 16 + 16 * (w.val / 16) = w.val
    omega

end Cert.Proof.KB

end
-- ==== Proof.ScCallB.lean ====
/-
  The SparseCore call as the TensorCore meets it. Going in, each of the four read arrays is cut into 32 read tokens
  (and a remainder the TensorCore keeps) and each of the two gathered arrays into the 32 tasks' row ranges; coming
  back the tokens rejoin to the whole arrays at their contents and the row ranges to whole arrays at some contents.
-/
import proofs.«210884_g88510686036700_cont_sun_m_1211_45_alg».proof.Proof.ScRunB
import proofs.«210884_g88510686036700_cont_sun_m_1211_45_alg».proof.Proof.ScRowsB
import Idealize.ShloMosaic.Lib.ValueIdx

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-! ## Tasks as (SparseCore, subcore) pairs -/

theorem bigSep_tasks32 (Φ : Fin 32 → sProp 𝕄) :
    (bigSep Finset.univ fun c : Fin ((K (F := F)).nCore 0) => bigSep Finset.univ fun i : Fin ((K (F := F)).nSub 0) => Φ (taskAt (F := F) c i))
      = bigSep Finset.univ Φ := by
  show (bigSep (Finset.univ : Finset (Fin 2)) fun c => bigSep (Finset.univ : Finset (Fin 16)) fun i => Φ (taskNo c i)) = _
  rw [← SparseCore.bigSep_product (Finset.univ : Finset (Fin 2)) (Finset.univ : Finset (Fin 16)) (fun p : Fin 2 × Fin 16 => Φ (taskNo p.1 p.2)),
    Finset.univ_product_univ, ← SparseCore.bigSep_image_of_injOn (f := fun p : Fin 2 × Fin 16 => taskNo p.1 p.2) (taskNo_bij.1.injOn) Φ]
  congr 1

/-! ## An array every task reads: 32 tokens and a remainder -/

theorem toks_split {ℓ : Loc nD τ sig} (f : Buf (Elt F) ℓ) :
    (ℓ ↦{fullShare} f : sProp 𝕄) ⊣⊢ iprop((ℓ ↦{Transfers.shareDrop fullShare 32} f) ∗ bigSep Finset.univ fun w : Fin 32 => ℓ ↦{tok w} f) :=
  Transfers.pointsTo_toks fullShare 32

/-! ## A gathered array: the tasks' row ranges -/

theorem rows_split_s (d : Dev nD) (f : Buf (Elt F) (sLoc d)) :
    (sLoc d ↦{fullShare} f : sProp 𝕄) = bigSep Finset.univ fun w : Fin 32 => sLoc d ↦[rowsOf w]{fullShare} f := by
  rw [← pointsTo_biUnion Finset.univ (ℓ := sLoc d) rowsOf rows_disjoint, rows_cover]; try rfl
theorem rows_split_t (d : Dev nD) (f : Buf (Elt F) (tLoc d)) :
    (tLoc d ↦{fullShare} f : sProp 𝕄) = bigSep Finset.univ fun w : Fin 32 => tLoc d ↦[rowsOf w]{fullShare} f := by
  rw [← pointsTo_biUnion Finset.univ (ℓ := tLoc d) rowsOf rows_disjoint, rows_cover]; try rfl

theorem row_ex_s (d : Dev nD) (f : Buf (Elt F) (sLoc d)) (w : Fin 32) :
    (sLoc d ↦[rowsOf w]{fullShare} f : sProp 𝕄) ⊢ iprop(∃ f, sLoc d ↦[rowsOf w]{fullShare} f) := by
  iintro H; iexists f; iexact H
theorem row_ex_t (d : Dev nD) (f : Buf (Elt F) (tLoc d)) (w : Fin 32) :
    (tLoc d ↦[rowsOf w]{fullShare} f : sProp 𝕄) ⊢ iprop(∃ f, tLoc d ↦[rowsOf w]{fullShare} f) := by
  iintro H; iexists f; iexact H
theorem rows_ex_s (d : Dev nD) (f : Buf (Elt F) (sLoc d)) :
    (bigSep Finset.univ fun w : Fin 32 => (sLoc d ↦[rowsOf w]{fullShare} f : sProp 𝕄)) ⊢ bigSep Finset.univ fun w : Fin 32 => iprop(∃ f, sLoc d ↦[rowsOf w]{fullShare} f) :=
  bigSep_mono fun w _ => row_ex_s d f w
theorem rows_ex_t (d : Dev nD) (f : Buf (Elt F) (tLoc d)) :
    (bigSep Finset.univ fun w : Fin 32 => (tLoc d ↦[rowsOf w]{fullShare} f : sProp 𝕄)) ⊢ bigSep Finset.univ fun w : Fin 32 => iprop(∃ f, tLoc d ↦[rowsOf w]{fullShare} f) :=
  bigSep_mono fun w _ => row_ex_t d f w

theorem rows_join_s [∀ e, Nonempty (Elt F e)] (d : Dev nD) :
    (bigSep Finset.univ fun w : Fin 32 => iprop(∃ f, sLoc d ↦[rowsOf w]{fullShare} f)) ⊢ (iprop(∃ f, sLoc d ↦{fullShare} f) : sProp 𝕄) := by
  refine (bigSep_exists_pi Finset.univ (fun w (f : Buf (Elt F) (sLoc d)) => sLoc d ↦[rowsOf w]{fullShare} f)).trans ?_
  iintro ⟨%fs, H⟩
  ihave H' := (pointsTo_biUnion_join Finset.univ rowsOf fs (fs 0) rows_disjoint) $$ H
  icases H' with ⟨%g, -, Hg⟩
  rw [rows_cover]
  iexists g; iexact Hg
theorem rows_join_t [∀ e, Nonempty (Elt F e)] (d : Dev nD) :
    (bigSep Finset.univ fun w : Fin 32 => iprop(∃ f, tLoc d ↦[rowsOf w]{fullShare} f)) ⊢ (iprop(∃ f, tLoc d ↦{fullShare} f) : sProp 𝕄) := by
  refine (bigSep_exists_pi Finset.univ (fun w (f : Buf (Elt F) (tLoc d)) => tLoc d ↦[rowsOf w]{fullShare} f)).trans ?_
  iintro ⟨%fs, H⟩
  ihave H' := (pointsTo_biUnion_join Finset.univ rowsOf fs (fs 0) rows_disjoint) $$ H
  icases H' with ⟨%g, -, Hg⟩
  rw [rows_cover]
  iexists g; iexact Hg

/-! ## The six arrays, in and out -/

section Call

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- The tasks' gathered row ranges join to the whole first gathered array, every row gathered. -/
theorem rows_join_sV [∀ e, Nonempty (Elt F e)] (d : Dev nD) :
    (bigSep Finset.univ fun w : Fin 32 => iprop(∃ f, ⌜∀ e, ownsRow w e → GathS cu csrc d f e⌝ ∗ sLoc d ↦[rowsOf w]{fullShare} f))
      ⊢ (iprop(∃ f, ⌜∀ e, GathS cu csrc d f e⌝ ∗ sLoc d ↦{fullShare} f) : sProp 𝕄) := by
  refine (bigSep_exists_pi Finset.univ (fun w (f : Buf (Elt F) (sLoc d)) => iprop(⌜∀ e, ownsRow w e → GathS cu csrc d f e⌝ ∗ sLoc d ↦[rowsOf w]{fullShare} f))).trans ?_
  iintro ⟨%fs, H⟩
  ihave H1 := (bigSep_pure_sep Finset.univ (fun w : Fin 32 => ∀ e, ownsRow w e → GathS cu csrc d (fs w) e) (fun w => sLoc d ↦[rowsOf w]{fullShare} fs w)) $$ H
  icases H1 with ⟨%hφ, H2⟩
  ihave H' := (pointsTo_biUnion_join Finset.univ rowsOf fs (fs 0) rows_disjoint) $$ H2
  icases H' with ⟨%g, %hg, Hg⟩
  rw [rows_cover]
  iexists g; isplitr
  · ipureintro; intro e k
    have hw : ownsRow ⟨ownerOf e.val, ownerOf_lt _ e.isLt⟩ e := (owner_spec _ _).mpr rfl
    have hmem : (ValueIdx.ix2 e k : S320000x128.Idx) ∈ rowsOf ⟨ownerOf e.val, ownerOf_lt _ e.isLt⟩ := (mem_rowsOf _ _).mpr hw
    rw [hg _ (Finset.mem_univ _) _ hmem]; exact hφ _ (Finset.mem_univ _) e hw k
  · iexact Hg
theorem rows_join_tV [∀ e, Nonempty (Elt F e)] (d : Dev nD) :
    (bigSep Finset.univ fun w : Fin 32 => iprop(∃ f, ⌜∀ e, ownsRow w e → GathT cv cdst d f e⌝ ∗ tLoc d ↦[rowsOf w]{fullShare} f))
      ⊢ (iprop(∃ f, ⌜∀ e, GathT cv cdst d f e⌝ ∗ tLoc d ↦{fullShare} f) : sProp 𝕄) := by
  refine (bigSep_exists_pi Finset.univ (fun w (f : Buf (Elt F) (tLoc d)) => iprop(⌜∀ e, ownsRow w e → GathT cv cdst d f e⌝ ∗ tLoc d ↦[rowsOf w]{fullShare} f))).trans ?_
  iintro ⟨%fs, H⟩
  ihave H1 := (bigSep_pure_sep Finset.univ (fun w : Fin 32 => ∀ e, ownsRow w e → GathT cv cdst d (fs w) e) (fun w => tLoc d ↦[rowsOf w]{fullShare} fs w)) $$ H
  icases H1 with ⟨%hφ, H2⟩
  ihave H' := (pointsTo_biUnion_join Finset.univ rowsOf fs (fs 0) rows_disjoint) $$ H2
  icases H' with ⟨%g, %hg, Hg⟩
  rw [rows_cover]
  iexists g; isplitr
  · ipureintro; intro e k
    have hw : ownsRow ⟨ownerOf e.val, ownerOf_lt _ e.isLt⟩ e := (owner_spec _ _).mpr rfl
    have hmem : (ValueIdx.ix2 e k : S320000x128.Idx) ∈ rowsOf ⟨ownerOf e.val, ownerOf_lt _ e.isLt⟩ := (mem_rowsOf _ _).mpr hw
    rw [hg _ (Finset.mem_univ _) _ hmem]; exact hφ _ (Finset.mem_univ _) e hw k
  · iexact Hg

/-- What the TensorCore gets back: the two gathered arrays gathered. -/
def callResOut (d : Dev nD) : sProp 𝕄 :=
  iprop((uLoc d ↦{fullShare} cu d) ∗ (vLoc d ↦{fullShare} cv d) ∗ (srcLoc d ↦{fullShare} csrc d) ∗ (dstLoc d ↦{fullShare} cdst d)
    ∗ (∃ f, ⌜∀ e, GathS cu csrc d f e⌝ ∗ sLoc d ↦{fullShare} f) ∗ (∃ f, ⌜∀ e, GathT cv cdst d f e⌝ ∗ tLoc d ↦{fullShare} f))

/-- What the TensorCore holds of the six arrays at the call: the four read arrays at their contents, the two gathered
    arrays at some contents. -/
def callRes (d : Dev nD) : sProp 𝕄 :=
  iprop((uLoc d ↦{fullShare} cu d) ∗ (vLoc d ↦{fullShare} cv d) ∗ (srcLoc d ↦{fullShare} csrc d) ∗ (dstLoc d ↦{fullShare} cdst d)
    ∗ (∃ f, sLoc d ↦{fullShare} f) ∗ (∃ f, tLoc d ↦{fullShare} f))

/-- What it keeps during the call: the remainders of the read arrays. -/
def keepRes (d : Dev nD) : sProp 𝕄 :=
  iprop((uLoc d ↦{Transfers.shareDrop fullShare 32} cu d) ∗ (vLoc d ↦{Transfers.shareDrop fullShare 32} cv d)
    ∗ (srcLoc d ↦{Transfers.shareDrop fullShare 32} csrc d) ∗ (dstLoc d ↦{Transfers.shareDrop fullShare 32} cdst d))

theorem call_split (d : Dev nD) :
    callRes cu cv csrc cdst d ⊢ iprop(keepRes cu cv csrc cdst d ∗ bigSep Finset.univ fun w : Fin 32 => taskRes cu cv csrc cdst d w) := by
  unfold callRes keepRes taskRes readRes writeRes
  rw [bigSep_sep', bigSep_sep', bigSep_sep', bigSep_sep', bigSep_sep']
  iintro ⟨Hu, Hv, Hsrc, Hdst, ⟨%fs, Hs⟩, ⟨%ft, Ht⟩⟩
  have hu := (toks_split (F := F) (cu d)).1
  have hv := (toks_split (F := F) (cv d)).1
  have hsrc := (toks_split (F := F) (csrc d)).1
  have hdst := (toks_split (F := F) (cdst d)).1
  ihave Hu2 := hu $$ Hu
  ihave Hv2 := hv $$ Hv
  ihave Hsrc2 := hsrc $$ Hsrc
  ihave Hdst2 := hdst $$ Hdst
  icases Hu2 with ⟨Hud, Hut⟩
  icases Hv2 with ⟨Hvd, Hvt⟩
  icases Hsrc2 with ⟨Hsrcd, Hsrct⟩
  icases Hdst2 with ⟨Hdstd, Hdstt⟩
  ihave Hs2 := (Entails.of_eq (rows_split_s d fs)) $$ Hs
  ihave Ht2 := (Entails.of_eq (rows_split_t d ft)) $$ Ht
  ihave Hs3 := (rows_ex_s d fs) $$ Hs2
  ihave Ht3 := (rows_ex_t d ft) $$ Ht2
  isplitl [Hud Hvd Hsrcd Hdstd]
  · isplitl [Hud]; · iexact Hud
    isplitl [Hvd]; · iexact Hvd
    isplitl [Hsrcd]; · iexact Hsrcd
    iexact Hdstd
  isplitl [Hut Hvt Hsrct Hdstt]
  · isplitl [Hut]; · iexact Hut
    isplitl [Hvt]; · iexact Hvt
    isplitl [Hsrct]; · iexact Hsrct
    iexact Hdstt
  isplitl [Hs3]; · iexact Hs3
  iexact Ht3

theorem call_join [∀ e, Nonempty (Elt F e)] (d : Dev nD) :
    iprop(keepRes cu cv csrc cdst d ∗ bigSep Finset.univ fun w : Fin 32 => taskResOut cu cv csrc cdst d w) ⊢ callResOut cu cv csrc cdst d := by
  unfold callResOut keepRes taskResOut readRes writeResOut
  rw [bigSep_sep', bigSep_sep', bigSep_sep', bigSep_sep', bigSep_sep']
  iintro ⟨⟨Hud, Hvd, Hsrcd, Hdstd⟩, ⟨Hut, Hvt, Hsrct, Hdstt⟩, Hs, Ht⟩
  isplitl [Hud Hut]
  · have hu := (toks_split (F := F) (cu d)).2
    iapply hu; isplitl [Hud]; · iexact Hud
    iexact Hut
  isplitl [Hvd Hvt]
  · have hv := (toks_split (F := F) (cv d)).2
    iapply hv; isplitl [Hvd]; · iexact Hvd
    iexact Hvt
  isplitl [Hsrcd Hsrct]
  · have hsrc := (toks_split (F := F) (csrc d)).2
    iapply hsrc; isplitl [Hsrcd]; · iexact Hsrcd
    iexact Hsrct
  isplitl [Hdstd Hdstt]
  · have hdst := (toks_split (F := F) (cdst d)).2
    iapply hdst; isplitl [Hdstd]; · iexact Hdstd
    iexact Hdstt
  isplitl [Hs]
  · iapply (rows_join_sV cu csrc d); iexact Hs
  iapply (rows_join_tV cv cdst d); iexact Ht

theorem st0_eq (d : Dev nD) :
    (bigSep Finset.univ fun c : Fin ((K (F := F)).nCore 0) => (P cu cv csrc cdst).st 0 d c) = bigSep Finset.univ fun w : Fin 32 => taskRes cu cv csrc cdst d w :=
  bigSep_tasks32 (fun w => taskRes cu cv csrc cdst d w)
theorem dn0_eq (d : Dev nD) :
    (bigSep Finset.univ fun c : Fin ((K (F := F)).nCore 0) => (P cu cv csrc cdst).dn 0 d c) = bigSep Finset.univ fun w : Fin 32 => taskResOut cu cv csrc cdst d w :=
  bigSep_tasks32 (fun w => taskResOut cu cv csrc cdst d w)

variable [FloatOps F]

/-- The call: the TensorCore hands the six arrays over, every task runs, and it gets them back. -/
theorem wp_call [∀ e, Nonempty (Elt F e)] (κ : GSem nD τ sig → ℕ) (d : Dev nD) (Φ : PUnit → sProp 𝕄) :
    iprop((K (F := F)).ctx EH (P cu cv csrc cdst) κ ∗ (K (F := F)).tcSt EH d 0 ∗ callRes cu cv csrc cdst d
        ∗ (iprop((K (F := F)).tcSt EH d 1 ∗ callResOut cu cv csrc cdst d) -∗ Φ ⟨⟩))
      ⊢ wp frame (wpE ((K (F := F)).defs (D (F := F))) 𝒱 (SparseCore.T d) none) Set.univ ((K (F := F)).run d 0) Φ := by
  iintro ⟨#Hctx, Hst, Hres, Hk⟩
  ihave Hres2 := (call_split cu cv csrc cdst d) $$ Hres
  icases Hres2 with ⟨Hkeep, Htasks⟩
  iapply ((K (F := F)).wp_run (D (F := F)) 𝒱 (EH := EH) (P := P cu cv csrc cdst) κ d 0) $$ [Hst Htasks Hkeep Hk]
  isplitr; · iexact Hctx
  isplitl [Hst]; · iexact Hst
  isplitl [Htasks]
  · iapply (Entails.of_eq (st0_eq cu cv csrc cdst d).symm); iexact Htasks
  iintro ⟨Hst, Hdn⟩
  ihave Hdn2 := (Entails.of_eq (dn0_eq cu cv csrc cdst d)) $$ Hdn
  iapply Hk
  isplitl [Hst]; · iexact Hst
  iapply (call_join cu cv csrc cdst d)
  isplitl [Hkeep]; · iexact Hkeep
  iexact Hdn2

end Call

end Cert.Proof.KB

end
-- ==== Proof.ScHeldB.lean ====
/-
  Book-keeping over the TensorCore's unscoped buffers held as one set: the six arrays of the SparseCore call taken out
  of the set and put back with the two gathered arrays at new contents; and what a held set says of the final memory.
-/
import proofs.«210884_g88510686036700_cont_sun_m_1211_45_alg».proof.Proof.ScCallB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 1) (Elt F) ℕ UU ℕ

abbrev u' : DevRef τ sig := Proc.devRef .tc (main_v4_0 : Ref sig .tc)
abbrev v' : DevRef τ sig := Proc.devRef .tc (main_v4_1 : Ref sig .tc)
abbrev src' : DevRef τ sig := Proc.devRef .tc (main_v12 : Ref sig .tc)
abbrev dst' : DevRef τ sig := Proc.devRef .tc (main_v13 : Ref sig .tc)
abbrev s' : DevRef τ sig := Proc.devRef .tc (main_v14_0 : Ref sig .tc)
abbrev t' : DevRef τ sig := Proc.devRef .tc (main_v14_1 : Ref sig .tc)

/-- The six arrays the SparseCore call exchanges. -/
abbrev T6 : Finset (DevRef τ sig) := {u', v', src', dst', s', t'}

theorem T6_sub : T6 ⊆ Pipeline.ucRefs τ sig := by decide

theorem held_T6 (d : Dev nD) (X : Valuation τ sig (Elt F)) :
    (held (T d) T6 X : sProp 𝕄) = iprop((uLoc d ↦{fullShare} X u') ∗ (vLoc d ↦{fullShare} X v') ∗ (srcLoc d ↦{fullShare} X src')
      ∗ (dstLoc d ↦{fullShare} X dst') ∗ (sLoc d ↦{fullShare} X s') ∗ (tLoc d ↦{fullShare} X t')) := by
  unfold held T6
  rw [SparseCore.bigSep_insert' (by decide), SparseCore.bigSep_insert' (by decide), SparseCore.bigSep_insert' (by decide),
    SparseCore.bigSep_insert' (by decide), SparseCore.bigSep_insert' (by decide), bigSep_singleton]

/-- The valuation after the call: the two gathered arrays at what the tasks left. -/
def afterCall (X : Valuation τ sig (Elt F)) (fs : s'.ty.Contents (Elt F)) (ft : t'.ty.Contents (Elt F)) : Valuation τ sig (Elt F) :=
  Function.update (Function.update X s' fs) t' ft

theorem afterCall_s (X : Valuation τ sig (Elt F)) (fs ft) : afterCall X fs ft s' = fs := by
  unfold afterCall; rw [Function.update_of_ne (show s' ≠ t' by decide), Function.update_self]
theorem afterCall_t (X : Valuation τ sig (Elt F)) (fs ft) : afterCall X fs ft t' = ft := by
  unfold afterCall; rw [Function.update_self]
theorem afterCall_of_ne (X : Valuation τ sig (Elt F)) (fs ft) {b : DevRef τ sig} (hs : b ≠ s') (ht : b ≠ t') : afterCall X fs ft b = X b := by
  unfold afterCall; rw [Function.update_of_ne ht, Function.update_of_ne hs]

/-- What a held set says of a memory. -/
theorem held_SI (c : Thread nD τ) (S : Finset (DevRef τ sig)) (X : Valuation τ sig (Elt F)) (st : Phys nD τ sig (Elt F)) :
    iprop((held c S X : sProp 𝕄) ∗ SI st) ⊢ (⌜∀ b ∈ S, st.mem.mem (c.1, b) = X b⌝ : sProp 𝕄) := by
  classical
  induction S using Finset.induction_on with
  | empty => iintro -; ipureintro; intro b hb; exact absurd hb (Finset.notMem_empty b)
  | insert b S hb ih =>
    unfold held at ih ⊢
    rw [SparseCore.bigSep_insert' hb]
    iintro ⟨⟨Hb, HS⟩, HSI⟩
    ihave H := (persistent_entails_right (SI_pointsTo_agree (st := st) (ℓ := ((c.1, b) : Loc nD τ sig)) (I := Finset.univ) (q := fullShare) (f := X b))) $$ [HSI Hb]
    · isplitl [HSI] <;> iassumption
    icases H with ⟨%h1, HSI, -⟩
    ihave H2 := ih $$ [HS HSI]
    · isplitl [HS] <;> iassumption
    icases H2 with %h2
    ipureintro
    intro b' hb'
    rcases Finset.mem_insert.mp hb' with rfl | h
    · exact funext fun i => h1 i (Finset.mem_univ i)
    · exact h2 b' h

end Cert.Proof.KB

end
-- ==== Proof.ScMainB.lean ====
/-
  The program's run from the launch theorem: the task obligation, the split, the launch element, @main on the
  TensorCore, and what the final memory says of the eleven argument arrays.
-/
import proofs.«210884_g88510686036700_cont_sun_m_1211_45_alg».proof.Proof.ScHeldB

noncomputable section

namespace Cert.Proof.KB

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type}

local notation "𝕄" => MT nD τ sig (HIx 1) (Elt F) ℕ UU ℕ

/-- The eleven argument arrays. -/
abbrev SArgs : Finset (DevRef τ sig) :=
  {Proc.devRef .tc (main_arg0 : Ref sig .tc), Proc.devRef .tc (main_arg1 : Ref sig .tc), Proc.devRef .tc (main_arg2 : Ref sig .tc),
   Proc.devRef .tc (main_arg3 : Ref sig .tc), Proc.devRef .tc (main_arg4 : Ref sig .tc), Proc.devRef .tc (main_arg5 : Ref sig .tc),
   Proc.devRef .tc (main_arg6 : Ref sig .tc), Proc.devRef .tc (main_arg7 : Ref sig .tc), Proc.devRef .tc (main_arg8 : Ref sig .tc),
   Proc.devRef .tc (main_arg9 : Ref sig .tc), Proc.devRef .tc (main_arg10 : Ref sig .tc)}

section Run

variable (m : (ℓ : Loc nD τ sig) → Buf (Elt F) ℓ) (ρ : Dev nD → PrngReg)
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

/-- What @main leaves for the claim: the argument arrays at their launch contents. -/
def FIN (d : Dev nD) : sProp 𝕄 := held (SparseCore.T d) SArgs (StableHlo.launchContents m d)

def fq (d : Dev nD) (st : Phys nD τ sig (Elt F)) : Prop := ∀ b ∈ SArgs, st.mem.mem (d, b) = m (d, b)

theorem hfin (d : Dev nD) (st : Phys nD τ sig (Elt F)) : iprop(FIN m d ∗ SI st) ⊢ (⌜fq m d st⌝ : sProp 𝕄) :=
  held_SI (SparseCore.T d) SArgs (StableHlo.launchContents m d) st

def QC : PUnit × MemSt nD τ sig (Elt F) → Prop := fun r => ∀ c : Dev nD, ∀ b ∈ SArgs, r.2.mem (c, b) = m (c, b)

variable [FloatOps F]

theorem run_main [∀ e, Nonempty (Elt F e)] (hT : TileStmtV cu cv csrc cdst) (hidx : IdxOK csrc cdst)
    (hmain : ∀ (κ : GSem nD τ sig → ℕ) (d : Dev nD),
      iprop((K (F := F)).ctx EH (P cu cv csrc cdst) κ ∗ (K (F := F)).tcSt EH d 0 ∗ (K (F := F)).tcRes m ρ d ∗ G (F := F) d)
        ⊢ wp frame (wpE ((K (F := F)).defs (D (F := F))) 𝒱 (SparseCore.T d) none) Set.univ (main d)
            fun _ => iprop((K (F := F)).tcSt EH d 1 ∗ FIN m d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P cu cv csrc cdst) facts v₀
    (fun q hq => match q with | 0 => nomatch hq)
    (fun q _ => match q with | 0 => tileObl cu cv csrc cdst hT facts hidx)
    (fun q _ => match q with | 0 => SparseCore.Cfg.VecSplit.of_plain (vecSplit cu cv csrc cdst))
    m ρ main (fun d => G (F := F) d) (FIN m) (u₀ (F := F)) (sep_elim_left.trans (hu₀ cu cv csrc cdst)) hmain (fq m) (hfin m) (QC m) (fun _ h => h)

end Run

end Cert.Proof.KB

end
-- ==== Proof.TcMainB.lean ====
import proofs.«210884_g88510686036700_cont_sun_m_1211_45_alg».proof.Proof.TcEnterB
import Idealize.ShloMosaic.Lib.Pipeline.FrameSuffix

set_option maxRecDepth 16384
set_option Elab.async false

noncomputable section

namespace Cert.Proof.KB

open Cert.Kernel Cert.Kernel.Gen Cert.Kernel.TcBody
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-! ## @main as three host stretches, two regions and the SparseCore call -/

/-- The extended signature @main runs in. -/
abbrev ΛS : Labels := SparseCore.Sig (ΛP (F := F)) 1
/-- The host operations before the projection: the three weight slices and the bias row. -/
abbrev ops0 : List (HloOp τ sig (Elt F)) :=
  [ StableHlo.unary main_arg3 main_v0 ((extractStridedSlice S128x128 ![0, 0] · slices_S272x128_S128x128_0_0) : (⟨S272x128, .f32⟩ : BufTy).Contents (Elt F) → (⟨S128x128, .f32⟩ : BufTy).Contents (Elt F)),
    StableHlo.unary main_arg3 main_v1 ((extractStridedSlice S128x128 ![128, 0] · slices_S272x128_S128x128_128_0) : (⟨S272x128, .f32⟩ : BufTy).Contents (Elt F) → (⟨S128x128, .f32⟩ : BufTy).Contents (Elt F)),
    StableHlo.unary main_arg3 main_v2 ((extractStridedSlice S16x128 ![256, 0] · slices_S272x128_S16x128_256_0) : (⟨S272x128, .f32⟩ : BufTy).Contents (Elt F) → (⟨S16x128, .f32⟩ : BufTy).Contents (Elt F)),
    StableHlo.reshape main_arg4 main_v3 rfl shapeCasts_S128_S1x128 ]
theorem ops0_sub : (ops0 : List (HloOp τ sig (Elt F))).Forall fun op => op.bufs ⊆ StableHlo.tcRefs τ sig :=
  ⟨StableHlo.unary_bufs_sub .., StableHlo.unary_bufs_sub .., StableHlo.unary_bufs_sub .., StableHlo.reshape_bufs_sub ..⟩
theorem ops0_fresh : (ops0 : List (HloOp τ sig (Elt F))).Forall fun op => op.fresh = ∅ := by
  simp only [List.Forall]; repeat' constructor

/-- The host operations between the projection and the SparseCore call: the two index rows and the edge features, each through an identity pad. -/
abbrev ops1 : List (HloOp τ sig (Elt F)) :=
  [ StableHlo.unary main_arg2 main_v5 ((extractStridedSlice S1x320000 ![0, 0] · slices_S2x320000_S1x320000_0_0) : (⟨S2x320000, .i32⟩ : BufTy).Contents (Elt F) → (⟨S1x320000, .i32⟩ : BufTy).Contents (Elt F)),
    StableHlo.reshape main_v5 main_v6 rfl shapeCasts_S1x320000_S320000,
    StableHlo.nullary main_c (constantI S_ 32 0#32),
    StableHlo.TRef.unary (.of main_c : StableHlo.TRef sig ⟨S_, .i32⟩) (.of main_call0_v0 : StableHlo.TRef sig ⟨S_, .i32⟩) id,
    StableHlo.TRef.binary (.of main_v6 : StableHlo.TRef sig ⟨S320000, .i32⟩) (.of main_call0_v0 : StableHlo.TRef sig ⟨S_, .i32⟩) (.of main_v7 : StableHlo.TRef sig ⟨S320000, .i32⟩) (fun x v => pad S320000 ![0] ![0] ![0] x v pads_S320000_S320000_000 h_S_),
    StableHlo.unary main_arg2 main_v8 ((extractStridedSlice S1x320000 ![1, 0] · slices_S2x320000_S1x320000_1_0) : (⟨S2x320000, .i32⟩ : BufTy).Contents (Elt F) → (⟨S1x320000, .i32⟩ : BufTy).Contents (Elt F)),
    StableHlo.reshape main_v8 main_v9 rfl shapeCasts_S1x320000_S320000,
    StableHlo.nullary main_c_0 (constantI S_ 32 0#32),
    StableHlo.TRef.unary (.of main_c_0 : StableHlo.TRef sig ⟨S_, .i32⟩) (.of main_call1_v0 : StableHlo.TRef sig ⟨S_, .i32⟩) id,
    StableHlo.TRef.binary (.of main_v9 : StableHlo.TRef sig ⟨S320000, .i32⟩) (.of main_call1_v0 : StableHlo.TRef sig ⟨S_, .i32⟩) (.of main_v10 : StableHlo.TRef sig ⟨S320000, .i32⟩) (fun x v => pad S320000 ![0] ![0] ![0] x v pads_S320000_S320000_000 h_S_),
    StableHlo.nullary main_c_1 (constantI S_ 32 0#32),
    StableHlo.TRef.unary (.of main_c_1 : StableHlo.TRef sig ⟨S_, .i32⟩) (.of main_call2_v0 : StableHlo.TRef sig ⟨S_, .f32⟩) (sitofp .f32),
    StableHlo.TRef.binary (.of main_arg0 : StableHlo.TRef sig ⟨S320000x16, .f32⟩) (.of main_call2_v0 : StableHlo.TRef sig ⟨S_, .f32⟩) (.of main_v11 : StableHlo.TRef sig ⟨S320000x16, .f32⟩) (fun x v => pad S320000x16 ![0, 0] ![0, 0] ![0, 0] x v pads_S320000x16_S320000x16_000_000 h_S_),
    StableHlo.reshape main_v7 main_v12 rfl shapeCasts_S320000_S1x320000,
    StableHlo.reshape main_v10 main_v13 rfl shapeCasts_S320000_S1x320000 ]
theorem ops1_sub : (ops1 : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.reshape_bufs_sub .., StableHlo.reshape_bufs_sub ..⟩
theorem ops1_fresh : (ops1 : List (HloOp τ sig (Elt F))).Forall fun op => op.fresh = ∅ := by
  simp only [List.Forall]; repeat' constructor

/-- The host operations between the SparseCore call and the MLP: the bias, scale and shift rows. -/
abbrev ops2 : List (HloOp τ sig (Elt F)) :=
  [ StableHlo.reshape main_arg6 main_v15 rfl shapeCasts_S128_S1x128,
    StableHlo.reshape main_arg8 main_v16 rfl shapeCasts_S16_S1x16,
    StableHlo.reshape main_arg9 main_v17 rfl shapeCasts_S16_S1x16,
    StableHlo.reshape main_arg10 main_v18 rfl shapeCasts_S16_S1x16 ]
theorem ops2_sub : (ops2 : List (HloOp τ sig (Elt F))).Forall fun op => op.bufs ⊆ StableHlo.tcRefs τ sig :=
  ⟨StableHlo.reshape_bufs_sub .., StableHlo.reshape_bufs_sub .., StableHlo.reshape_bufs_sub .., StableHlo.reshape_bufs_sub ..⟩
theorem ops2_fresh : (ops2 : List (HloOp τ sig (Elt F))).Forall fun op => op.fresh = ∅ := by
  simp only [List.Forall]; repeat' constructor

/-- @main up to the SparseCore call: the first stretch, the projection's region, the second stretch. -/
def preProg : Prog (TpuEff nD τ sig (Elt F) (ΛS (F := F)) .tc) PUnit :=
  StableHlo.seq ops0 >>= fun _ => Prog.lift (.customCall (SparseCore.inner (Pipeline.entry 0)) ()) >>= fun _ => StableHlo.seq ops1

/-- @main after the SparseCore call: the third stretch, the MLP's region, the return. -/
def postProg : Prog (TpuEff nD τ sig (Elt F) (ΛS (F := F)) .tc) PUnit :=
  StableHlo.seq ops2 >>= fun _ => Prog.lift (.customCall (SparseCore.inner (Pipeline.entry 1)) ()) >>= fun _ => pure ⟨⟩

/-- @main is the three in order, the SparseCore call between the first two and the last. -/
theorem main_split (d : Dev nD) :
    main (F := F) d = (preProg >>= fun _ => (sc (F := F)).run d 0 >>= fun _ => postProg) := by
  unfold preProg postProg
  chain_rfl

/-! ## A host stretch over the unscoped buffers -/

set_option backward.isDefEq.respectTransparency.types false in
/-- A line of host operations at the head of the TensorCore's program, holding the region boundary and every unscoped
    buffer at a valuation: it runs to its end, where the buffers are at the valuation the operations leave. -/
theorem wp_stretch (ops : List (HloOp τ sig (Elt F))) (hsub : ops.Forall fun op => op.bufs ⊆ StableHlo.tcRefs τ sig)
    (hfresh : ops.Forall fun op => op.fresh = ∅) (W : Valuation τ sig (Elt F)) (d : Dev nD) {β : Type}
    (k : PUnit → Prog (TpuEff nD τ sig (Elt F) (ΛS (F := F)) .tc) β) (Ψ : β → sProp 𝕄) :
    iprop(boundary (T d) ∗ unscopedBufs d (fun b => W b)
        ∗ (iprop(boundary (T d) ∗ unscopedBufs d (fun b => StableHlo.after ops W b))
            -∗ wp frame (wpE ((K (F := F)).defs D) 𝒱 (T d) none) Set.univ (k ⟨⟩) Ψ))
      ⊢ wp frame (wpE ((K (F := F)).defs D) 𝒱 (T d) none) Set.univ (StableHlo.seq ops >>= k) Ψ := by
  rw [Pipeline.unscopedBufs_held, Pipeline.unscopedBufs_held]
  iintro ⟨Hb, Hu, Hk⟩
  iapply (StableHlo.wp_seq (defs := (K (F := F)).defs D) 𝒱 none Set.univ d (Pipeline.ucRefs τ sig) k ops
    (fun op h => Pipeline.sub_ucRefs op ((List.forall_iff_forall_mem.mp hsub) op h))
    (fun op h => (List.forall_iff_forall_mem.mp hfresh) op h) W) $$ [Hb Hu]
  · isplitl [Hb]; · iexact Hb
    iexact Hu
  iexact Hk

/-! ## The buffers' contents along @main -/

/-- A valuation of every device read at the TensorCore's references: what the regions' proof data take. -/
abbrev atTc (W : Dev nD → Valuation τ sig (Elt F)) : (c : Dev nD) → (b : Ref sig .tc) → Buf (Elt F) ((c : Thread nD τ).loc b) := fun c b => W c (Proc.devRef .tc b)

section Pre

variable (m : (ℓ : Loc nD τ sig) → Buf (Elt F) ℓ) (O0 : Dev nD → CellTallies nD τ sig (HIx 1)) (R0 : Dev nD → Set (SemLoc sig × HIx 1))
  (L : GSem nD τ sig → Finset (HIx 1)) (lv : GSem nD τ sig → HIx 1 → ℕ)

/-- The device's buffers when the projection's region is entered: the launch contents after the first stretch. -/
def WEntry0 (d : Dev nD) : Valuation τ sig (Elt F) := StableHlo.after ops0 (StableHlo.launchContents m d)

/-- When it is left: the region's arrays at what the pipeline leaves in them, every other buffer as entered. -/
def WExit0 (d : Dev nD) : Valuation τ sig (Elt F) :=
  Pipeline.withArrays spec0 d (WEntry0 m d) fun w => (dat0 (F := F) (Ix := HIx 1) (Name := ℕ) (U := UU) (Lvl := ℕ) (atTc (WEntry0 m)) O0 R0 d).arrAt w cfg0.N

/-- When the SparseCore call is reached: after the second stretch. -/
def VCall (d : Dev nD) : Valuation τ sig (Elt F) := StableHlo.after ops1 (WExit0 m O0 R0 d)

/-- The exit valuation read at a TensorCore reference is the packaged exit contents of the region. -/
theorem WExit0_tc (d : Dev nD) (b : Ref sig .tc) :
    WExit0 m O0 R0 d (Proc.devRef .tc b) = VAfter0 (Ix := HIx 1) (Name := ℕ) (U := UU) (Lvl := ℕ) (atTc (WEntry0 m)) (atTc (WEntry0 m)) O0 O0 R0 R0 d b := by
  by_cases h : ∃ w, Pipeline.arrRef spec0 w = b
  · obtain ⟨w, rfl⟩ := h
    unfold WExit0
    rw [Pipeline.withArrays_arr spec0 launch0.win.arr_inj d _ _ w]
    exact hF0 (Ix := HIx 1) (Name := ℕ) (U := UU) (Lvl := ℕ) (atTc (WEntry0 m)) (atTc (WEntry0 m)) O0 O0 R0 R0 d w
  · unfold WExit0
    rw [Pipeline.withArrays_of_ne spec0 d _ _ b (fun w e => h ⟨w, e⟩)]
    exact (hrest0 (Ix := HIx 1) (Name := ℕ) (U := UU) (Lvl := ℕ) (atTc (WEntry0 m)) (atTc (WEntry0 m)) O0 O0 R0 R0 d b
      (fun hb => by obtain ⟨w, -, e⟩ := Finset.mem_image.mp hb; exact h ⟨w, e⟩)).symm

set_option backward.isDefEq.respectTransparency.types false in
/-- The second stretch, from the projection region's exit contents to the SparseCore call. -/
theorem wp_pre_tail (d : Dev nD) (Φ : PUnit → sProp 𝕄) :
    iprop((iprop(boundary (T d) ∗ unscopedBufs d (fun b => VCall m O0 R0 d b) ∗ (∃ r, prngReg d r)
            ∗ ∃ W : Waits sig (HIx 1), ⌜(↑W : Set (SemLoc sig × HIx 1)) ⊆ R0 d ∪ cfg0.waitPairs none⌝ ∗ owes (d : Thread nD τ) (O0 d) W) -∗ Φ ⟨⟩)
        ∗ boundary (T d) ∗ unscopedBufs d (VAfter0 (Ix := HIx 1) (Name := ℕ) (U := UU) (Lvl := ℕ) (atTc (WEntry0 m)) (atTc (WEntry0 m)) O0 O0 R0 R0 d) ∗ (∃ r, prngReg d r)
        ∗ (∃ W : Waits sig (HIx 1), ⌜(↑W : Set (SemLoc sig × HIx 1)) ⊆ R0 d ∪ cfg0.waitPairs none⌝ ∗ owes (d : Thread nD τ) (O0 d) W))
      ⊢ wp frame (wpE ((K (F := F)).defs D) 𝒱 (T d) none) Set.univ (StableHlo.seq (Λ := ΛS (F := F)) (nD := nD) ops1) Φ := by
  rw [show (unscopedBufs d (VAfter0 (Ix := HIx 1) (Name := ℕ) (U := UU) (Lvl := ℕ) (atTc (WEntry0 m)) (atTc (WEntry0 m)) O0 O0 R0 R0 d) : sProp 𝕄)
      = unscopedBufs d (fun b => WExit0 m O0 R0 d b) from
    congrArg (unscopedBufs d) (funext fun b => (WExit0_tc m O0 R0 d b).symm),
    show (StableHlo.seq (Λ := ΛS (F := F)) (nD := nD) ops1) = (StableHlo.seq ops1 >>= fun _ => Prog.ret PUnit.unit) from (bind_pure _).symm]
  iintro ⟨Hk, Hb, Hu, Hp, Ho⟩
  iapply (wp_stretch ops1 ops1_sub ops1_fresh (WExit0 m O0 R0 d) d (fun _ => Prog.ret PUnit.unit) Φ)
  isplitl [Hb]; · iexact Hb
  isplitl [Hu]; · iexact Hu
  iintro ⟨Hb, Hu⟩
  rw [wp_ret]; imodintro
  iapply Hk
  isplitl [Hb]; · iexact Hb
  isplitl [Hu]; · iexact Hu
  isplitl [Hp]; · iexact Hp
  iexact Ho

set_option backward.isDefEq.respectTransparency.types false in
/-- @MAIN UP TO THE SPARSECORE CALL: from the launch contents, the generator register, what the core owes, the level
    facts and the projection's staging cells' ghost state, to the contents `VCall` with the same owed. -/
theorem wp_pre (hw0 : ∀ (c : Dev nD) (w : Fin cfg0.W) (s : Fin (cfg0.win w).nbuf),
      (levAts L lv : sProp 𝕄) ⊢ MayWait c (.dma ((cfg0.win w).sem s)) none (O0 c))
    (d : Dev nD) (Φ : PUnit → sProp 𝕄) :
    iprop((iprop(boundary (T d) ∗ unscopedBufs d (fun b => VCall m O0 R0 d b) ∗ (∃ r, prngReg d r)
            ∗ ∃ W : Waits sig (HIx 1), ⌜(↑W : Set (SemLoc sig × HIx 1)) ⊆ R0 d ∪ cfg0.waitPairs none⌝ ∗ owes (d : Thread nD τ) (O0 d) W) -∗ Φ ⟨⟩)
        ∗ boundary (T d) ∗ unscopedBufs d (fun b => StableHlo.launchContents m d b) ∗ (∃ r, prngReg d r)
        ∗ (∃ W : Waits sig (HIx 1), ⌜(↑W : Set (SemLoc sig × HIx 1)) ⊆ R0 d⌝ ∗ owes (d : Thread nD τ) (O0 d) W) ∗ levAts L lv
        ∗ Pipeline.cellsGhost (Pipeline.pin (pcfgs (F := F)) adm) EP 0 d ∗ Pipeline.toksInit (Pipeline.pin (pcfgs (F := F)) adm) EP 0 d)
      ⊢ wp frame (wpE ((K (F := F)).defs D) 𝒱 (T d) none) Set.univ (preProg (F := F)) Φ := by
  unfold preProg
  iintro ⟨Hk, Hb, Hu, Hp, Ho, Hl, Hg, Ht⟩
  iapply (wp_stretch ops0 ops0_sub ops0_fresh (StableHlo.launchContents m d) d _ Φ)
  isplitl [Hb]; · iexact Hb
  isplitl [Hu]; · iexact Hu
  iintro ⟨Hb, Hu⟩
  rw [wp_bind]
  iapply (enter0A (atTc (WEntry0 m)) (atTc (WEntry0 m)) O0 O0 R0 R0 L lv hw0 d _)
  isplitr [Hb Hu Hp Ho Hl Hg Ht]
  swap
  · isplitl [Hb]; · iexact Hb
    isplitl [Hu]; · iexact Hu
    isplitl [Hp]; · iexact Hp
    isplitl [Ho]; · iexact Ho
    isplitl [Hl]; · iexact Hl
    isplitl [Hg]; · iexact Hg
    iexact Ht
  iintro H
  iapply (wp_pre_tail m O0 R0 d Φ)
  isplitl [Hk]; · iexact Hk
  iexact H

end Pre

/-! ## What the stretches write, and what reaches the SparseCore call unchanged -/

/-- The references `ops0`'s operations write. -/
abbrev ops0_W : List (Ref sig .tc) := [main_v0, main_v1, main_v2, main_v3]
theorem ops0_writes : (ops0 : List (HloOp τ sig (Elt F))).Forall fun op => op.writes ⊆ (ops0_W.map (Proc.devRef (τ := τ) .tc)).toFinset := by
  simp only [List.Forall]
  refine ⟨?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `ops1`'s operations write. -/
abbrev ops1_W : List (Ref sig .tc) := [main_v5, main_v6, main_c, main_call0_v0, main_v7, main_v8, main_v9, main_c_0, main_call1_v0, main_v10, main_c_1, main_call2_v0, main_v11, main_v12, main_v13]
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-- The references `ops2`'s operations write. -/
abbrev ops2_W : List (Ref sig .tc) := [main_v15, main_v16, main_v17, main_v18]
theorem ops2_writes : (ops2 : List (HloOp τ sig (Elt F))).Forall fun op => op.writes ⊆ (ops2_W.map (Proc.devRef (τ := τ) .tc)).toFinset := by
  simp only [List.Forall]
  refine ⟨?_, ?_, ?_, ?_⟩ <;> (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

section PreBook

variable (m : (ℓ : Loc nD τ sig) → Buf (Elt F) ℓ) (O0 : Dev nD → CellTallies nD τ sig (HIx 1)) (R0 : Dev nD → Set (SemLoc sig × HIx 1))

/-- A buffer no stretch writes and that is no result array of the projection holds, at the SparseCore call, its launch contents. -/
theorem VCall_of_not_written (d : Dev nD) (b : Ref sig .tc) (h0 : b ∉ (ops0_W : List (Ref sig .tc))) (h1 : b ∉ (ops1_W : List (Ref sig .tc)))
    (h4 : b ≠ main_v4_0) (h5 : b ≠ main_v4_1) :
    VCall m O0 R0 d (Proc.devRef .tc b) = m (d, Proc.devRef .tc b) := by
  unfold VCall
  rw [StableHlo.after_of_writes_sub ops1 _ ops1_writes h1, WExit0_tc, VAfter0_of_not_out _ _ _ _ _ _ d b h4 h5]
  show WEntry0 m d (Proc.devRef .tc b) = _
  unfold WEntry0
  rw [StableHlo.after_of_writes_sub ops0 _ ops0_writes h0]

/-- The first projected table at the SparseCore call: what the projection's write-back left. -/
theorem VCall_v4_0 (d : Dev nD) :
    VCall m O0 R0 d (Proc.devRef .tc main_v4_0) = (dat0 (F := F) (Ix := HIx 1) (Name := ℕ) (U := UU) (Lvl := ℕ) (atTc (WEntry0 m)) O0 R0 d).arrAt 4 cfg0.N := by
  unfold VCall
  rw [StableHlo.after_of_writes_sub ops1 _ ops1_writes (by decide), WExit0_tc]
  exact VAfter0_v4_0 _ _ _ _ _ _ d
/-- The second projected table at the SparseCore call. -/
theorem VCall_v4_1 (d : Dev nD) :
    VCall m O0 R0 d (Proc.devRef .tc main_v4_1) = (dat0 (F := F) (Ix := HIx 1) (Name := ℕ) (U := UU) (Lvl := ℕ) (atTc (WEntry0 m)) O0 R0 d).arrAt 5 cfg0.N := by
  unfold VCall
  rw [StableHlo.after_of_writes_sub ops1 _ ops1_writes (by decide), WExit0_tc]
  exact VAfter0_v4_1 _ _ _ _ _ _ d

/-- No stretch and no region writes an argument: each holds its launch contents at the SparseCore call. -/
theorem VCall_main_arg0 (d : Dev nD) : VCall m O0 R0 d (Proc.devRef .tc main_arg0) = m (d, Proc.devRef .tc main_arg0) :=
  VCall_of_not_written m O0 R0 d main_arg0 (by decide) (by decide) (by decide) (by decide)
theorem VCall_main_arg1 (d : Dev nD) : VCall m O0 R0 d (Proc.devRef .tc main_arg1) = m (d, Proc.devRef .tc main_arg1) :=
  VCall_of_not_written m O0 R0 d main_arg1 (by decide) (by decide) (by decide) (by decide)
theorem VCall_main_arg2 (d : Dev nD) : VCall m O0 R0 d (Proc.devRef .tc main_arg2) = m (d, Proc.devRef .tc main_arg2) :=
  VCall_of_not_written m O0 R0 d main_arg2 (by decide) (by decide) (by decide) (by decide)
theorem VCall_main_arg3 (d : Dev nD) : VCall m O0 R0 d (Proc.devRef .tc main_arg3) = m (d, Proc.devRef .tc main_arg3) :=
  VCall_of_not_written m O0 R0 d main_arg3 (by decide) (by decide) (by decide) (by decide)
theorem VCall_main_arg4 (d : Dev nD) : VCall m O0 R0 d (Proc.devRef .tc main_arg4) = m (d, Proc.devRef .tc main_arg4) :=
  VCall_of_not_written m O0 R0 d main_arg4 (by decide) (by decide) (by decide) (by decide)
theorem VCall_main_arg5 (d : Dev nD) : VCall m O0 R0 d (Proc.devRef .tc main_arg5) = m (d, Proc.devRef .tc main_arg5) :=
  VCall_of_not_written m O0 R0 d main_arg5 (by decide) (by decide) (by decide) (by decide)
theorem VCall_main_arg6 (d : Dev nD) : VCall m O0 R0 d (Proc.devRef .tc main_arg6) = m (d, Proc.devRef .tc main_arg6) :=
  VCall_of_not_written m O0 R0 d main_arg6 (by decide) (by decide) (by decide) (by decide)
theorem VCall_main_arg7 (d : Dev nD) : VCall m O0 R0 d (Proc.devRef .tc main_arg7) = m (d, Proc.devRef .tc main_arg7) :=
  VCall_of_not_written m O0 R0 d main_arg7 (by decide) (by decide) (by decide) (by decide)
theorem VCall_main_arg8 (d : Dev nD) : VCall m O0 R0 d (Proc.devRef .tc main_arg8) = m (d, Proc.devRef .tc main_arg8) :=
  VCall_of_not_written m O0 R0 d main_arg8 (by decide) (by decide) (by decide) (by decide)
theorem VCall_main_arg9 (d : Dev nD) : VCall m O0 R0 d (Proc.devRef .tc main_arg9) = m (d, Proc.devRef .tc main_arg9) :=
  VCall_of_not_written m O0 R0 d main_arg9 (by decide) (by decide) (by decide) (by decide)
theorem VCall_main_arg10 (d : Dev nD) : VCall m O0 R0 d (Proc.devRef .tc main_arg10) = m (d, Proc.devRef .tc main_arg10) :=
  VCall_of_not_written m O0 R0 d main_arg10 (by decide) (by decide) (by decide) (by decide)

end PreBook

/-! ## After the SparseCore call -/

section Post

variable (X : Dev nD → Valuation τ sig (Elt F)) (O2 : Dev nD → CellTallies nD τ sig (HIx 1)) (R2 : Dev nD → Set (SemLoc sig × HIx 1))
  (L : GSem nD τ sig → Finset (HIx 1)) (lv : GSem nD τ sig → HIx 1 → ℕ)

/-- The device's buffers when the MLP's region is entered: the contents after the SparseCore call, after the third stretch. -/
def WEntry2 (d : Dev nD) : Valuation τ sig (Elt F) := StableHlo.after ops2 (X d)

/-- At the return: the region's arrays at what the pipeline leaves in them, every other buffer as entered. -/
def VEnd (d : Dev nD) : Valuation τ sig (Elt F) :=
  Pipeline.withArrays spec2 d (WEntry2 X d) fun w => (dat2 (F := F) (Ix := HIx 1) (Name := ℕ) (U := UU) (Lvl := ℕ) (atTc (WEntry2 X)) O2 R2 d).arrAt w cfg2.N

theorem VEnd_tc (d : Dev nD) (b : Ref sig .tc) :
    VEnd X O2 R2 d (Proc.devRef .tc b) = VAfter2 (Ix := HIx 1) (Name := ℕ) (U := UU) (Lvl := ℕ) (atTc (WEntry2 X)) (atTc (WEntry2 X)) O2 O2 R2 R2 d b := by
  by_cases h : ∃ w, Pipeline.arrRef spec2 w = b
  · obtain ⟨w, rfl⟩ := h
    unfold VEnd
    rw [Pipeline.withArrays_arr spec2 launch2.win.arr_inj d _ _ w]
    exact hF2 (Ix := HIx 1) (Name := ℕ) (U := UU) (Lvl := ℕ) (atTc (WEntry2 X)) (atTc (WEntry2 X)) O2 O2 R2 R2 d w
  · unfold VEnd
    rw [Pipeline.withArrays_of_ne spec2 d _ _ b (fun w e => h ⟨w, e⟩)]
    exact (hrest2 (Ix := HIx 1) (Name := ℕ) (U := UU) (Lvl := ℕ) (atTc (WEntry2 X)) (atTc (WEntry2 X)) O2 O2 R2 R2 d b
      (fun hb => by obtain ⟨w, -, e⟩ := Finset.mem_image.mp hb; exact h ⟨w, e⟩)).symm

/-- A buffer the third stretch does not write and that is not the result array holds, at the return, what it held after the SparseCore call. -/
theorem VEnd_of_not_written (d : Dev nD) (b : Ref sig .tc) (h2 : b ∉ (ops2_W : List (Ref sig .tc))) (h19 : b ≠ main_v19) :
    VEnd X O2 R2 d (Proc.devRef .tc b) = X d (Proc.devRef .tc b) := by
  rw [VEnd_tc, VAfter2_of_not_out _ _ _ _ _ _ d b h19]
  show WEntry2 X d (Proc.devRef .tc b) = _
  unfold WEntry2
  rw [StableHlo.after_of_writes_sub ops2 _ ops2_writes h2]

/-- The result array at the return: what the MLP's write-backs left. -/
theorem VEnd_v19 (d : Dev nD) :
    VEnd X O2 R2 d (Proc.devRef .tc main_v19) = (dat2 (F := F) (Ix := HIx 1) (Name := ℕ) (U := UU) (Lvl := ℕ) (atTc (WEntry2 X)) O2 R2 d).arrAt 10 cfg2.N := by
  rw [VEnd_tc]; exact VAfter2_v19 _ _ _ _ _ _ d

/-- The third stretch and the MLP's region write no argument. -/
theorem VEnd_main_arg0 (d : Dev nD) : VEnd X O2 R2 d (Proc.devRef .tc main_arg0) = X d (Proc.devRef .tc main_arg0) :=
  VEnd_of_not_written X O2 R2 d main_arg0 (by decide) (by decide)
theorem VEnd_main_arg1 (d : Dev nD) : VEnd X O2 R2 d (Proc.devRef .tc main_arg1) = X d (Proc.devRef .tc main_arg1) :=
  VEnd_of_not_written X O2 R2 d main_arg1 (by decide) (by decide)
theorem VEnd_main_arg2 (d : Dev nD) : VEnd X O2 R2 d (Proc.devRef .tc main_arg2) = X d (Proc.devRef .tc main_arg2) :=
  VEnd_of_not_written X O2 R2 d main_arg2 (by decide) (by decide)
theorem VEnd_main_arg3 (d : Dev nD) : VEnd X O2 R2 d (Proc.devRef .tc main_arg3) = X d (Proc.devRef .tc main_arg3) :=
  VEnd_of_not_written X O2 R2 d main_arg3 (by decide) (by decide)
theorem VEnd_main_arg4 (d : Dev nD) : VEnd X O2 R2 d (Proc.devRef .tc main_arg4) = X d (Proc.devRef .tc main_arg4) :=
  VEnd_of_not_written X O2 R2 d main_arg4 (by decide) (by decide)
theorem VEnd_main_arg5 (d : Dev nD) : VEnd X O2 R2 d (Proc.devRef .tc main_arg5) = X d (Proc.devRef .tc main_arg5) :=
  VEnd_of_not_written X O2 R2 d main_arg5 (by decide) (by decide)
theorem VEnd_main_arg6 (d : Dev nD) : VEnd X O2 R2 d (Proc.devRef .tc main_arg6) = X d (Proc.devRef .tc main_arg6) :=
  VEnd_of_not_written X O2 R2 d main_arg6 (by decide) (by decide)
theorem VEnd_main_arg7 (d : Dev nD) : VEnd X O2 R2 d (Proc.devRef .tc main_arg7) = X d (Proc.devRef .tc main_arg7) :=
  VEnd_of_not_written X O2 R2 d main_arg7 (by decide) (by decide)
theorem VEnd_main_arg8 (d : Dev nD) : VEnd X O2 R2 d (Proc.devRef .tc main_arg8) = X d (Proc.devRef .tc main_arg8) :=
  VEnd_of_not_written X O2 R2 d main_arg8 (by decide) (by decide)
theorem VEnd_main_arg9 (d : Dev nD) : VEnd X O2 R2 d (Proc.devRef .tc main_arg9) = X d (Proc.devRef .tc main_arg9) :=
  VEnd_of_not_written X O2 R2 d main_arg9 (by decide) (by decide)
theorem VEnd_main_arg10 (d : Dev nD) : VEnd X O2 R2 d (Proc.devRef .tc main_arg10) = X d (Proc.devRef .tc main_arg10) :=
  VEnd_of_not_written X O2 R2 d main_arg10 (by decide) (by decide)

set_option backward.isDefEq.respectTransparency.types false in
/-- The return, from the MLP region's exit contents. -/
theorem wp_post_tail (d : Dev nD) (Φ : PUnit → sProp 𝕄) :
    iprop((iprop(boundary (T d) ∗ unscopedBufs d (fun b => VEnd X O2 R2 d b) ∗ (∃ r, prngReg d r)
            ∗ ∃ W : Waits sig (HIx 1), ⌜(↑W : Set (SemLoc sig × HIx 1)) ⊆ R2 d ∪ cfg2.waitPairs none⌝ ∗ owes (d : Thread nD τ) (O2 d) W) -∗ Φ ⟨⟩)
        ∗ boundary (T d) ∗ unscopedBufs d (VAfter2 (Ix := HIx 1) (Name := ℕ) (U := UU) (Lvl := ℕ) (atTc (WEntry2 X)) (atTc (WEntry2 X)) O2 O2 R2 R2 d) ∗ (∃ r, prngReg d r)
        ∗ (∃ W : Waits sig (HIx 1), ⌜(↑W : Set (SemLoc sig × HIx 1)) ⊆ R2 d ∪ cfg2.waitPairs none⌝ ∗ owes (d : Thread nD τ) (O2 d) W))
      ⊢ wp frame (wpE ((K (F := F)).defs D) 𝒱 (T d) none) Set.univ (Prog.ret PUnit.unit) Φ := by
  rw [show (unscopedBufs d (VAfter2 (Ix := HIx 1) (Name := ℕ) (U := UU) (Lvl := ℕ) (atTc (WEntry2 X)) (atTc (WEntry2 X)) O2 O2 R2 R2 d) : sProp 𝕄)
      = unscopedBufs d (fun b => VEnd X O2 R2 d b) from
    congrArg (unscopedBufs d) (funext fun b => (VEnd_tc X O2 R2 d b).symm), wp_ret]
  iintro ⟨Hk, H⟩
  imodintro
  iapply Hk
  iexact H

set_option backward.isDefEq.respectTransparency.types false in
/-- @MAIN AFTER THE SPARSECORE CALL: from the contents `X` the call leaves, the generator register, what the core
    owes, the level facts and the MLP's staging cells' ghost state, to the contents `VEnd` with the same owed. -/
theorem wp_post (hw2 : ∀ (c : Dev nD) (w : Fin cfg2.W) (s : Fin (cfg2.win w).nbuf),
      (levAts L lv : sProp 𝕄) ⊢ MayWait c (.dma ((cfg2.win w).sem s)) none (O2 c))
    (d : Dev nD) (Φ : PUnit → sProp 𝕄) :
    iprop((iprop(boundary (T d) ∗ unscopedBufs d (fun b => VEnd X O2 R2 d b) ∗ (∃ r, prngReg d r)
            ∗ ∃ W : Waits sig (HIx 1), ⌜(↑W : Set (SemLoc sig × HIx 1)) ⊆ R2 d ∪ cfg2.waitPairs none⌝ ∗ owes (d : Thread nD τ) (O2 d) W) -∗ Φ ⟨⟩)
        ∗ boundary (T d) ∗ unscopedBufs d (fun b => X d b) ∗ (∃ r, prngReg d r)
        ∗ (∃ W : Waits sig (HIx 1), ⌜(↑W : Set (SemLoc sig × HIx 1)) ⊆ R2 d⌝ ∗ owes (d : Thread nD τ) (O2 d) W) ∗ levAts L lv
        ∗ Pipeline.cellsGhost (Pipeline.pin (pcfgs (F := F)) adm) EP 1 d ∗ Pipeline.toksInit (Pipeline.pin (pcfgs (F := F)) adm) EP 1 d)
      ⊢ wp frame (wpE ((K (F := F)).defs D) 𝒱 (T d) none) Set.univ (postProg (F := F)) Φ := by
  unfold postProg
  iintro ⟨Hk, Hb, Hu, Hp, Ho, Hl, Hg, Ht⟩
  iapply (wp_stretch ops2 ops2_sub ops2_fresh (X d) d _ Φ)
  isplitl [Hb]; · iexact Hb
  isplitl [Hu]; · iexact Hu
  iintro ⟨Hb, Hu⟩
  rw [wp_bind]
  iapply (enter2A (atTc (WEntry2 X)) (atTc (WEntry2 X)) O2 O2 R2 R2 L lv hw2 d _)
  isplitr [Hb Hu Hp Ho Hl Hg Ht]
  swap
  · isplitl [Hb]; · iexact Hb
    isplitl [Hu]; · iexact Hu
    isplitl [Hp]; · iexact Hp
    isplitl [Ho]; · iexact Ho
    isplitl [Hl]; · iexact Hl
    isplitl [Hg]; · iexact Hg
    iexact Ht
  iintro H
  iapply (wp_post_tail X O2 R2 d Φ)
  isplitl [Hk]; · iexact Hk
  iexact H

end Post

end Cert.Proof.KB

end
-- ==== Proof.ScHmainB.lean ====
/-
  @main on the TensorCore: the host operations and the projection region, the SparseCore call, the remaining host
  operations and the MLP region; the argument arrays are never written.
-/
import proofs.«210884_g88510686036700_cont_sun_m_1211_45_alg».proof.Proof.ScMainB
import proofs.«210884_g88510686036700_cont_sun_m_1211_45_alg».proof.Proof.TcMainB

noncomputable section

namespace Cert.Proof.KB

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type} [FloatOps F]

local notation "𝕄" => MT nD τ sig (HIx 1) (Elt F) ℕ UU ℕ

/-! ## What the TensorCore owes, and where its recorded waits sit -/

abbrev O0 (d : Dev nD) : CellTallies nD τ sig (HIx 1) := (K (F := F)).Otc d 0
abbrev O2 (d : Dev nD) : CellTallies nD τ sig (HIx 1) := (K (F := F)).Otc d 1
def R0 (d : Dev nD) : Set (SemLoc sig × HIx 1) := {p | (K (F := F)).lev (SparseCore.T d, p.1) p.2 ≤ 8 * 0}
def R2 (d : Dev nD) : Set (SemLoc sig × HIx 1) := {p | (K (F := F)).lev (SparseCore.T d, p.1) p.2 ≤ 8 * 1}

theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

theorem hw0 (c : Dev nD) (w : Fin cfg0.W) (s : Fin (cfg0.win w).nbuf) :
    (levAts (K (F := F)).L (K (F := F)).lev : sProp 𝕄) ⊢ MayWait c (.dma ((cfg0.win w).sem s)) none (O0 (F := F) c) :=
  (K (F := F)).mayWait_none (thr := SparseCore.T c) _ (Otc_none c 0)
theorem hw2 (c : Dev nD) (w : Fin cfg2.W) (s : Fin (cfg2.win w).nbuf) :
    (levAts (K (F := F)).L (K (F := F)).lev : sProp 𝕄) ⊢ MayWait c (.dma ((cfg2.win w).sem s)) none (O2 (F := F) c) :=
  (K (F := F)).mayWait_none (thr := SparseCore.T c) _ (Otc_none c 1)

/-! ## The recorded waits' bounds, there and back -/

theorem sub_R0 {d : Dev nD} {W : Waits sig (HIx 1)} (h : (K (F := F)).WBelow (SparseCore.T d) W (8 * 0)) :
    (↑W : Set (SemLoc sig × HIx 1)) ⊆ R0 (F := F) d := fun p hp => h p (Finset.mem_coe.mp hp)
theorem sub_R2 {d : Dev nD} {W : Waits sig (HIx 1)} (h : (K (F := F)).WBelow (SparseCore.T d) W (8 * 1)) :
    (↑W : Set (SemLoc sig × HIx 1)) ⊆ R2 (F := F) d := fun p hp => h p (Finset.mem_coe.mp hp)
theorem wbelow0 {d : Dev nD} {W : Waits sig (HIx 1)} (h : (↑W : Set (SemLoc sig × HIx 1)) ⊆ R0 (F := F) d ∪ cfg0.waitPairs none) :
    (K (F := F)).WBelow (SparseCore.T d) W (8 * 0) := by
  intro p hp
  rcases h (Finset.mem_coe.mpr hp) with h1 | ⟨w, s, rfl⟩
  · exact h1
  · exact le_of_eq_of_le (SparseCore.Cfg.lev_none (K := K (F := F)) _) (Nat.zero_le _)
theorem wbelow2 {d : Dev nD} {W : Waits sig (HIx 1)} (h : (↑W : Set (SemLoc sig × HIx 1)) ⊆ R2 (F := F) d ∪ cfg2.waitPairs none) :
    (K (F := F)).WBelow (SparseCore.T d) W (8 * 1) := by
  intro p hp
  rcases h (Finset.mem_coe.mpr hp) with h1 | ⟨w, s, rfl⟩
  · exact h1
  · exact le_of_eq_of_le (SparseCore.Cfg.lev_none (K := K (F := F)) _) (Nat.zero_le _)

/-! ## The valuations along @main -/

section H

variable (m : (ℓ : Loc nD τ sig) → Buf (Elt F) ℓ) (ρ : Dev nD → PrngReg)

/-- The device's contents when the SparseCore call is reached. -/
abbrev XCall (d : Dev nD) : Valuation τ sig (Elt F) := VCall m (O0 (F := F)) (R0 (F := F)) d
/-- The four arrays the tasks read, as the call finds them. -/
abbrev cuOf (d : Dev nD) : Buf (Elt F) (uLoc d) := XCall m d u'
abbrev cvOf (d : Dev nD) : Buf (Elt F) (vLoc d) := XCall m d v'
abbrev csrcOf (d : Dev nD) : Buf (Elt F) (srcLoc d) := XCall m d src'
abbrev cdstOf (d : Dev nD) : Buf (Elt F) (dstLoc d) := XCall m d dst'
/-- The contents after the call, the gathered arrays at what the tasks left. -/
abbrev XAfter (fs : s'.ty.Contents (Elt F)) (ft : t'.ty.Contents (Elt F)) (d : Dev nD) : Valuation τ sig (Elt F) := afterCall (XCall m d) fs ft

omit [FloatOps F] in
theorem held_T6_after (d : Dev nD) (X : Valuation τ sig (Elt F)) (fs : s'.ty.Contents (Elt F)) (ft : t'.ty.Contents (Elt F)) :
    (held (SparseCore.T d) T6 (afterCall X fs ft) : sProp 𝕄) = iprop((uLoc d ↦{fullShare} X u') ∗ (vLoc d ↦{fullShare} X v') ∗ (srcLoc d ↦{fullShare} X src')
      ∗ (dstLoc d ↦{fullShare} X dst') ∗ (sLoc d ↦{fullShare} fs) ∗ (tLoc d ↦{fullShare} ft)) := by
  rw [held_T6, afterCall_of_ne X fs ft (b := u') (by decide) (by decide), afterCall_of_ne X fs ft (b := v') (by decide) (by decide),
    afterCall_of_ne X fs ft (b := src') (by decide) (by decide), afterCall_of_ne X fs ft (b := dst') (by decide) (by decide), afterCall_s, afterCall_t]

omit [FloatOps F] in
theorem held_rest_after (d : Dev nD) (X : Valuation τ sig (Elt F)) (fs : s'.ty.Contents (Elt F)) (ft : t'.ty.Contents (Elt F)) :
    (held (SparseCore.T d) (Pipeline.ucRefs τ sig \ T6) (afterCall X fs ft) : sProp 𝕄) = held (SparseCore.T d) (Pipeline.ucRefs τ sig \ T6) X :=
  held_congr (SparseCore.T d) fun b hb => by
    have hn : b ∉ T6 := (Finset.mem_sdiff.mp hb).2
    refine afterCall_of_ne X fs ft (fun e => hn (e ▸ ?_)) (fun e => hn (e ▸ ?_)) <;> decide

theorem SArgs_sub : SArgs ⊆ Pipeline.ucRefs τ sig := by decide

/-- No argument array is written along @main. -/
theorem args_kept (fs : s'.ty.Contents (Elt F)) (ft : t'.ty.Contents (Elt F)) (d : Dev nD) :
    ∀ b ∈ SArgs, VEnd (XAfter m fs ft) (O2 (F := F)) (R2 (F := F)) d b = StableHlo.launchContents m d b := by
  intro b hb
  simp only [SArgs, Finset.mem_insert, Finset.mem_singleton] at hb
  rcases hb with rfl | rfl | rfl | rfl | rfl | rfl | rfl | rfl | rfl | rfl | rfl
  · rw [VEnd_main_arg0]; show afterCall _ _ _ _ = _; rw [afterCall_of_ne _ _ _ (by decide) (by decide)]; exact VCall_main_arg0 m _ _ d
  · rw [VEnd_main_arg1]; show afterCall _ _ _ _ = _; rw [afterCall_of_ne _ _ _ (by decide) (by decide)]; exact VCall_main_arg1 m _ _ d
  · rw [VEnd_main_arg2]; show afterCall _ _ _ _ = _; rw [afterCall_of_ne _ _ _ (by decide) (by decide)]; exact VCall_main_arg2 m _ _ d
  · rw [VEnd_main_arg3]; show afterCall _ _ _ _ = _; rw [afterCall_of_ne _ _ _ (by decide) (by decide)]; exact VCall_main_arg3 m _ _ d
  · rw [VEnd_main_arg4]; show afterCall _ _ _ _ = _; rw [afterCall_of_ne _ _ _ (by decide) (by decide)]; exact VCall_main_arg4 m _ _ d
  · rw [VEnd_main_arg5]; show afterCall _ _ _ _ = _; rw [afterCall_of_ne _ _ _ (by decide) (by decide)]; exact VCall_main_arg5 m _ _ d
  · rw [VEnd_main_arg6]; show afterCall _ _ _ _ = _; rw [afterCall_of_ne _ _ _ (by decide) (by decide)]; exact VCall_main_arg6 m _ _ d
  · rw [VEnd_main_arg7]; show afterCall _ _ _ _ = _; rw [afterCall_of_ne _ _ _ (by decide) (by decide)]; exact VCall_main_arg7 m _ _ d
  · rw [VEnd_main_arg8]; show afterCall _ _ _ _ = _; rw [afterCall_of_ne _ _ _ (by decide) (by decide)]; exact VCall_main_arg8 m _ _ d
  · rw [VEnd_main_arg9]; show afterCall _ _ _ _ = _; rw [afterCall_of_ne _ _ _ (by decide) (by decide)]; exact VCall_main_arg9 m _ _ d
  · rw [VEnd_main_arg10]; show afterCall _ _ _ _ = _; rw [afterCall_of_ne _ _ _ (by decide) (by decide)]; exact VCall_main_arg10 m _ _ d

abbrev v19' : DevRef τ sig := Proc.devRef .tc (main_v19 : Ref sig .tc)
/-- The arrays the claim reads at the end: the eleven arguments and the result. -/
abbrev SFin : Finset (DevRef τ sig) := insert v19' SArgs
theorem SFin_sub : SFin ⊆ Pipeline.ucRefs τ sig := by decide

/-- What @main leaves for the claim: for some gathered arrays that hold the gathered rows, the arguments and the result
    at the contents the last region leaves. -/
def FINV (d : Dev nD) : sProp 𝕄 :=
  iprop(∃ (fs : s'.ty.Contents (Elt F)) (ft : t'.ty.Contents (Elt F)),
    ⌜(∀ e, GathS (cuOf m) (csrcOf m) d fs e) ∧ (∀ e, GathT (cvOf m) (cdstOf m) d ft e)⌝
      ∗ held (SparseCore.T d) SFin (VEnd (XAfter m fs ft) (O2 (F := F)) (R2 (F := F)) d))

/-- @main on device `d`'s TensorCore. -/
theorem hmain [∀ e, Nonempty (Elt F e)] (κ : GSem nD τ sig → ℕ) (d : Dev nD) :
    iprop((K (F := F)).ctx EH (P (cuOf m) (cvOf m) (csrcOf m) (cdstOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FINV m d) := by
  rw [main_split, wp_bind]
  have hG : (G (F := F) d : sProp 𝕄) = iprop((Pipeline.cellsGhost (Pipeline.pin (pcfgs (F := F)) Cert.Kernel.TcBody.adm) EP 0 d ∗ Pipeline.toksInit (Pipeline.pin (pcfgs (F := F)) Cert.Kernel.TcBody.adm) EP 0 d)
      ∗ (Pipeline.cellsGhost (Pipeline.pin (pcfgs (F := F)) Cert.Kernel.TcBody.adm) EP 1 d ∗ Pipeline.toksInit (Pipeline.pin (pcfgs (F := F)) Cert.Kernel.TcBody.adm) EP 1 d)) := by
    unfold G; exact bigSep_univ_two _
  rw [hG]
  unfold SparseCore.Cfg.tcRes SparseCore.Cfg.tcSt
  iintro ⟨#Hctx, ⟨⟨%W, %hW, HO⟩, Hat, #Hrd, #Hrs, Htoks⟩, ⟨Hb, Hbufs, Hsems0, Hprng⟩, ⟨Hg0, Ht0⟩, ⟨Hg1, Ht1⟩⟩
  ihave #Hlev := (SparseCore.Cfg.ctx_levAts κ) $$ Hctx
  iapply (wp_pre m (O0 (F := F)) (R0 (F := F)) (K (F := F)).L (K (F := F)).lev hw0 d _)
  isplitr [Hb Hbufs Hprng HO Hg0 Ht0]
  swap
  · isplitl [Hb]; · iexact Hb
    isplitl [Hbufs]; · iexact Hbufs
    isplitl [Hprng]; · iexists _; iexact Hprng
    isplitl [HO]
    · iexists W; isplitr
      · ipureintro; exact sub_R0 hW
      · iexact HO
    isplitr; · iexact Hlev
    isplitl [Hg0]; · iexact Hg0
    iexact Ht0
  -- the SparseCore call
  iintro ⟨Hb, Hbufs, Hprng, ⟨%W1, %hW1, HO⟩⟩
  rw [wp_bind]
  ihave Hh := (Entails.of_eq (Pipeline.unscopedBufs_held d (XCall m d))) $$ Hbufs
  ihave Hh2 := (Entails.of_eq (held_sub_split (SparseCore.T d) T6_sub (XCall m d))) $$ Hh
  icases Hh2 with ⟨H6, Hrest⟩
  ihave H6' := (Entails.of_eq (held_T6 d (XCall m d))) $$ H6
  icases H6' with ⟨Hu, Hv, Hsrc, Hdst, Hs, Ht⟩
  iapply (wp_call (cuOf m) (cvOf m) (csrcOf m) (cdstOf m) κ d _)
  isplitr; · iexact Hctx
  isplitl [HO Hat Htoks]
  · unfold SparseCore.Cfg.tcSt
    isplitl [HO]
    · iexists W1; isplitr
      · ipureintro; exact wbelow0 hW1
      · iexact HO
    isplitl [Hat]; · iexact Hat
    isplitr; · iexact Hrd
    isplitr; · iexact Hrs
    iexact Htoks
  isplitl [Hu Hv Hsrc Hdst Hs Ht]
  · unfold callRes
    isplitl [Hu]; · iexact Hu
    isplitl [Hv]; · iexact Hv
    isplitl [Hsrc]; · iexact Hsrc
    isplitl [Hdst]; · iexact Hdst
    isplitl [Hs]; · iexists _; iexact Hs
    iexists _; iexact Ht
  -- after the call
  iintro ⟨Hst1, Hres⟩
  unfold callResOut SparseCore.Cfg.tcSt
  icases Hres with ⟨Hu, Hv, Hsrc, Hdst, ⟨%fs, %hfs, Hs⟩, ⟨%ft, %hft, Ht⟩⟩
  icases Hst1 with ⟨⟨%W2, %hW2, HO⟩, Hat, #Hrd1, #Hrs1, Htoks⟩
  ihave H6 := (Entails.of_eq (held_T6_after d (XCall m d) fs ft).symm) $$ [Hu Hv Hsrc Hdst Hs Ht]
  · isplitl [Hu]; · iexact Hu
    isplitl [Hv]; · iexact Hv
    isplitl [Hsrc]; · iexact Hsrc
    isplitl [Hdst]; · iexact Hdst
    isplitl [Hs]; · iexact Hs
    iexact Ht
  ihave Hrest' := (Entails.of_eq (held_rest_after d (XCall m d) fs ft).symm) $$ Hrest
  ihave Hh := (Entails.of_eq (held_sub_split (SparseCore.T d) T6_sub (XAfter m fs ft d)).symm) $$ [H6 Hrest']
  · isplitl [H6]; · iexact H6
    iexact Hrest'
  ihave Hbufs := (Entails.of_eq (Pipeline.unscopedBufs_held d (XAfter m fs ft d)).symm) $$ Hh
  iapply (wp_post (XAfter m fs ft) (O2 (F := F)) (R2 (F := F)) (K (F := F)).L (K (F := F)).lev hw2 d _)
  isplitr [Hb Hbufs Hprng HO Hg1 Ht1]
  swap
  · isplitl [Hb]; · iexact Hb
    isplitl [Hbufs]; · iexact Hbufs
    isplitl [Hprng]; · iexact Hprng
    isplitl [HO]
    · iexists W2; isplitr
      · ipureintro; exact sub_R2 hW2
      · iexact HO
    isplitr; · iexact Hlev
    isplitl [Hg1]; · iexact Hg1
    iexact Ht1
  -- the end
  iintro ⟨Hb, Hbufs, Hprng, ⟨%W3, %hW3, HO⟩⟩
  isplitl [HO Hat Htoks]
  · isplitl [HO]
    · iexists W3; isplitr
      · ipureintro; exact wbelow2 hW3
      · iexact HO
    isplitl [Hat]; · iexact Hat
    isplitr; · iexact Hrd1
    isplitr; · iexact Hrs1
    iexact Htoks
  ihave Hh := (Entails.of_eq (Pipeline.unscopedBufs_held d (VEnd (XAfter m fs ft) (O2 (F := F)) (R2 (F := F)) d))) $$ Hbufs
  ihave Hh2 := (Entails.of_eq (held_sub_split (SparseCore.T d) SFin_sub (VEnd (XAfter m fs ft) (O2 (F := F)) (R2 (F := F)) d))) $$ Hh
  icases Hh2 with ⟨HA, -⟩
  unfold FINV
  iexists fs; iexists ft
  isplitr
  · ipureintro; exact ⟨hfs, hft⟩
  iexact HA

end H

end Cert.Proof.KB

end
-- ==== Proof.ScFinalB.lean ====
/-
  The program's run: every weakly fair execution of the device's threads terminates without fault, and in every final
  memory the argument arrays are as launched and the result is the MLP region's output over gathered arrays holding
  the gathered rows.
-/
import proofs.«210884_g88510686036700_cont_sun_m_1211_45_alg».proof.Proof.ScHmainB

noncomputable section

namespace Cert.Proof.KB

open Cert.Kernel Cert.Kernel.Gen
open Idealize.ShloMosaic Idealize.ShloMosaic.TcCoe
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_sub_split held_congr)

variable {F : FTy → Type} [FloatOps F]

local notation "𝕄" => MT nD τ sig (HIx 1) (Elt F) ℕ UU ℕ

section Final

variable (m : (ℓ : Loc nD τ sig) → Buf (Elt F) ℓ) (ρ : Dev nD → PrngReg)

/-- What a final memory says, per device. -/
def fqV (d : Dev nD) (mem : (ℓ : Loc nD τ sig) → Buf (Elt F) ℓ) : Prop :=
  ∃ (fs : s'.ty.Contents (Elt F)) (ft : t'.ty.Contents (Elt F)),
    (∀ e, GathS (cuOf m) (csrcOf m) d fs e) ∧ (∀ e, GathT (cvOf m) (cdstOf m) d ft e)
      ∧ ∀ b ∈ SFin, mem (d, b) = VEnd (XAfter m fs ft) (O2 (F := F)) (R2 (F := F)) d b

theorem hfinV (d : Dev nD) (st : Phys nD τ sig (Elt F)) : iprop(FINV m d ∗ SI st) ⊢ (⌜fqV m d st.mem.mem⌝ : sProp 𝕄) := by
  unfold FINV
  iintro ⟨⟨%fs, %ft, %h, H⟩, HSI⟩
  ihave H2 := (held_SI (SparseCore.T d) SFin (VEnd (XAfter m fs ft) (O2 (F := F)) (R2 (F := F)) d) st) $$ [H HSI]
  · isplitl [H] <;> iassumption
  icases H2 with %h2
  ipureintro
  exact ⟨fs, ft, h.1, h.2, h2⟩

def QCV : PUnit × MemSt nD τ sig (Elt F) → Prop := fun r => ∀ c : Dev nD, fqV m c r.2.mem

/-- The run, from the task's statement and the index rows' range. -/
theorem run_mainV [∀ e, Nonempty (Elt F e)] (hT : TileStmtV (cuOf m) (cvOf m) (csrcOf m) (cdstOf m)) (hidx : IdxOK (csrcOf m) (cdstOf m)) :
    θ_run (Cert.Kernel.defs (F := F)) (Cert.Kernel.threads (F := F)) ⟨m, fun _ => 0, ρ⟩ (QCV m) :=
  SparseCore.Cfg.θ_run_sc (K := K (F := F)) (D := D (F := F)) (𝒱 := 𝒱) (EH := EH) (P := P (cuOf m) (cvOf m) (csrcOf m) (cdstOf m)) facts v₀
    (fun q hq => match q with | 0 => nomatch hq)
    (fun q _ => match q with | 0 => tileObl (cuOf m) (cvOf m) (csrcOf m) (cdstOf m) hT facts hidx)
    (fun q _ => match q with | 0 => SparseCore.Cfg.VecSplit.of_plain (vecSplit (cuOf m) (cvOf m) (csrcOf m) (cdstOf m)))
    m ρ main (fun d => G (F := F) d) (FINV m) (u₀ (F := F)) (sep_elim_left.trans (hu₀ (cuOf m) (cvOf m) (csrcOf m) (cdstOf m))) (hmain m ρ)
    (fun d st => fqV m d st.mem.mem) (hfinV m) (QCV m) (fun _ h => h)

/-- In a final memory every argument array is as launched. -/
theorem args_of_fqV {d : Dev nD} {mem : (ℓ : Loc nD τ sig) → Buf (Elt F) ℓ} (h : fqV m d mem) : ∀ b ∈ SArgs, mem (d, b) = m (d, b) := by
  obtain ⟨fs, ft, -, -, h⟩ := h
  intro b hb
  rw [h b (Finset.mem_insert_of_mem hb), args_kept m fs ft d b hb]

end Final

end Cert.Proof.KB

end
-- ==== Proof.RefOps.lean ====
/- The reference's @main as a list of its StableHLO operations, each call replaced by the callee's operations over that
   call's buffer record (a table copied from the printed program's lines), the same list cut in three stretches, and the
   per-operation fact that each touches TensorCore references only. -/
import proofs.«210884_g88510686036700_cont_sun_m_1211_45_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 99 operations, in order. -/
abbrev ops : List (HloOp τ sig (Elt F)) :=
  [ unary main_arg2 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    TRef.nullary main_call0.c (constantI S_ 32 0#32),
    TRef.unary main_call0.c main_call0.v0 (broadcastInDim S320000 ![] bcast_S_S320000),
    TRef.binary (.of main_v1) main_call0.v0 main_call0.v1 (cmpi .slt),
    TRef.nullary main_call0.c_0 (constantI S_ 32 10000#32),
    TRef.unary main_call0.c_0 main_call0.v2 (broadcastInDim S320000 ![] bcast_S_S320000),
    TRef.binary (.of main_v1) main_call0.v2 main_call0.v3 addi,
    TRef.ternary main_call0.v1 main_call0.v3 (.of main_v1) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg1) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    unary main_arg2 main_v3 ((extractStridedSlice S1x320000 ![1, 0] · slices_S2x320000_S1x320000_1_0) : (⟨S2x320000, .i32⟩ : BufTy).Contents (Elt F) → (⟨S1x320000, .i32⟩ : BufTy).Contents (Elt F)),
    reshape main_v3 main_v4 rfl shapeCasts_S1x320000_S320000,
    TRef.nullary main_call1.c (constantI S_ 32 0#32),
    TRef.unary main_call1.c main_call1.v0 (broadcastInDim S320000 ![] bcast_S_S320000),
    TRef.binary (.of main_v4) main_call1.v0 main_call1.v1 (cmpi .slt),
    TRef.nullary main_call1.c_0 (constantI S_ 32 10000#32),
    TRef.unary main_call1.c_0 main_call1.v2 (broadcastInDim S320000 ![] bcast_S_S320000),
    TRef.binary (.of main_v4) main_call1.v2 main_call1.v3 addi,
    TRef.ternary main_call1.v1 main_call1.v3 (.of main_v4) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg1) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select,
    nary ![main_v2, main_v5, main_arg0] main_v6 (fun u => concatenate S320000x272 1 [⟨S320000x128, u 0⟩, ⟨S320000x128, u 1⟩, ⟨S320000x16, u 2⟩] concatenates_S320000x128_S320000x128_S320000x16_S320000x272_d1),
    binary main_v6 main_arg3 main_v7 ((fun l r => Host.dotGeneral dot_S320000x272_S272x128_S320000x128_1_0_0_1_n_n none l r) : (⟨S320000x272, .f32⟩ : BufTy).Contents (Elt F) → (⟨S272x128, .f32⟩ : BufTy).Contents (Elt F) → (⟨S320000x128, .f32⟩ : BufTy).Contents (Elt F)),
    unary main_arg4 main_v8 (broadcastInDim S1x128 ![1] bcast_S128_S1x128_1 : (⟨S128, .f32⟩ : BufTy).Contents (Elt F) → (⟨S1x128, .f32⟩ : BufTy).Contents (Elt F)),
    unary main_v8 main_v9 (broadcastInDim S320000x128 ![0, 1] bcast_S1x128_S320000x128_0_1 : (⟨S1x128, .f32⟩ : BufTy).Contents (Elt F) → (⟨S320000x128, .f32⟩ : BufTy).Contents (Elt F)),
    binary main_v7 main_v9 main_v10 (addf : (⟨S320000x128, .f32⟩ : BufTy).Contents (Elt F) → (⟨S320000x128, .f32⟩ : BufTy).Contents (Elt F) → (⟨S320000x128, .f32⟩ : BufTy).Contents (Elt F)),
    TRef.nullary main_call2.cst (constant S_ .f32 0x00000000#32),
    TRef.unary main_call2.cst main_call2.v0 (broadcastInDim S320000x128 ![] bcast_S_S320000x128),
    TRef.binary (.of main_v10) main_call2.v0 main_call2.v1 maximumf,
    binary main_v11 main_arg5 main_v12 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg6 main_v13 (broadcastInDim S1x128 ![1] bcast_S128_S1x128_1 : (⟨S128, .f32⟩ : BufTy).Contents (Elt F) → (⟨S1x128, .f32⟩ : BufTy).Contents (Elt F)),
    unary main_v13 main_v14 (broadcastInDim S320000x128 ![0, 1] bcast_S1x128_S320000x128_0_1 : (⟨S1x128, .f32⟩ : BufTy).Contents (Elt F) → (⟨S320000x128, .f32⟩ : BufTy).Contents (Elt F)),
    binary main_v12 main_v14 main_v15 (addf : (⟨S320000x128, .f32⟩ : BufTy).Contents (Elt F) → (⟨S320000x128, .f32⟩ : BufTy).Contents (Elt F) → (⟨S320000x128, .f32⟩ : BufTy).Contents (Elt F)),
    TRef.nullary main_call3.cst (constant S_ .f32 0x00000000#32),
    TRef.unary main_call3.cst main_call3.v0 (broadcastInDim S320000x128 ![] bcast_S_S320000x128),
    TRef.binary (.of main_v15) main_call3.v0 main_call3.v1 maximumf,
    binary main_v16 main_arg7 main_v17 ((fun l r => Host.dotGeneral dot_S320000x128_S128x16_S320000x16_1_0_0_1_n_n none l r) : (⟨S320000x128, .f32⟩ : BufTy).Contents (Elt F) → (⟨S128x16, .f32⟩ : BufTy).Contents (Elt F) → (⟨S320000x16, .f32⟩ : BufTy).Contents (Elt F)),
    unary main_arg8 main_v18 (broadcastInDim S1x16 ![1] bcast_S16_S1x16_1 : (⟨S16, .f32⟩ : BufTy).Contents (Elt F) → (⟨S1x16, .f32⟩ : BufTy).Contents (Elt F)),
    unary main_v18 main_v19 (broadcastInDim S320000x16 ![0, 1] bcast_S1x16_S320000x16_0_1 : (⟨S1x16, .f32⟩ : BufTy).Contents (Elt F) → (⟨S320000x16, .f32⟩ : BufTy).Contents (Elt F)),
    binary main_v17 main_v19 main_v20 (addf : (⟨S320000x16, .f32⟩ : BufTy).Contents (Elt F) → (⟨S320000x16, .f32⟩ : BufTy).Contents (Elt F) → (⟨S320000x16, .f32⟩ : BufTy).Contents (Elt F)),
    nullary main_cst (constant S_ .f32 0x00000000#32),
    binary main_v20 main_cst main_v21 ((fun x v => Host.reduceAdd x v reducesTo_S320000x16_S320000_d1 h_S_) : (⟨S320000x16, .f32⟩ : BufTy).Contents (Elt F) → (⟨S_, .f32⟩ : BufTy).Contents (Elt F) → (⟨S320000, .f32⟩ : BufTy).Contents (Elt F)),
    unary main_v21 main_v22 (broadcastInDim S320000x1 ![0] bcast_S320000_S320000x1_0 : (⟨S320000, .f32⟩ : BufTy).Contents (Elt F) → (⟨S320000x1, .f32⟩ : BufTy).Contents (Elt F)),
    nullary main_cst_0 (constant S_ .f32 0x41800000#32),
    unary main_cst_0 main_v23 (broadcastInDim S320000x1 ![] bcast_S_S320000x1 : (⟨S_, .f32⟩ : BufTy).Contents (Elt F) → (⟨S320000x1, .f32⟩ : BufTy).Contents (Elt F)),
    binary main_v22 main_v23 main_v24 (Host.divf : (⟨S320000x1, .f32⟩ : BufTy).Contents (Elt F) → (⟨S320000x1, .f32⟩ : BufTy).Contents (Elt F) → (⟨S320000x1, .f32⟩ : BufTy).Contents (Elt F)),
    unary main_v24 main_v25 (broadcastInDim S320000x16 ![0, 1] bcast_S320000x1_S320000x16_0_1 : (⟨S320000x1, .f32⟩ : BufTy).Contents (Elt F) → (⟨S320000x16, .f32⟩ : BufTy).Contents (Elt F)),
    binary main_v20 main_v25 main_v26 (subf : (⟨S320000x16, .f32⟩ : BufTy).Contents (Elt F) → (⟨S320000x16, .f32⟩ : BufTy).Contents (Elt F) → (⟨S320000x16, .f32⟩ : BufTy).Contents (Elt F)),
    binary main_v26 main_v26 main_v27 (mulf : (⟨S320000x16, .f32⟩ : BufTy).Contents (Elt F) → (⟨S320000x16, .f32⟩ : BufTy).Contents (Elt F) → (⟨S320000x16, .f32⟩ : BufTy).Contents (Elt F)),
    nullary main_cst_1 (constant S_ .f32 0x00000000#32),
    binary main_v27 main_cst_1 main_v28 ((fun x v => Host.reduceAdd x v reducesTo_S320000x16_S320000_d1 h_S_) : (⟨S320000x16, .f32⟩ : BufTy).Contents (Elt F) → (⟨S_, .f32⟩ : BufTy).Contents (Elt F) → (⟨S320000, .f32⟩ : BufTy).Contents (Elt F)),
    unary main_v28 main_v29 (broadcastInDim S320000x1 ![0] bcast_S320000_S320000x1_0 : (⟨S320000, .f32⟩ : BufTy).Contents (Elt F) → (⟨S320000x1, .f32⟩ : BufTy).Contents (Elt F)),
    nullary main_cst_2 (constant S_ .f32 0x41800000#32),
    unary main_cst_2 main_v30 (broadcastInDim S320000x1 ![] bcast_S_S320000x1 : (⟨S_, .f32⟩ : BufTy).Contents (Elt F) → (⟨S320000x1, .f32⟩ : BufTy).Contents (Elt F)),
    binary main_v29 main_v30 main_v31 (Host.divf : (⟨S320000x1, .f32⟩ : BufTy).Contents (Elt F) → (⟨S320000x1, .f32⟩ : BufTy).Contents (Elt F) → (⟨S320000x1, .f32⟩ : BufTy).Contents (Elt F)),
    unary main_v24 main_v32 (broadcastInDim S320000x16 ![0, 1] bcast_S320000x1_S320000x16_0_1 : (⟨S320000x1, .f32⟩ : BufTy).Contents (Elt F) → (⟨S320000x16, .f32⟩ : BufTy).Contents (Elt F)),
    binary main_v20 main_v32 main_v33 (subf : (⟨S320000x16, .f32⟩ : BufTy).Contents (Elt F) → (⟨S320000x16, .f32⟩ : BufTy).Contents (Elt F) → (⟨S320000x16, .f32⟩ : BufTy).Contents (Elt F)),
    nullary main_cst_3 (constant S_ .f32 0x3727C5AC#32),
    unary main_cst_3 main_v34 (broadcastInDim S320000x1 ![] bcast_S_S320000x1 : (⟨S_, .f32⟩ : BufTy).Contents (Elt F) → (⟨S320000x1, .f32⟩ : BufTy).Contents (Elt F)),
    binary main_v31 main_v34 main_v35 (addf : (⟨S320000x1, .f32⟩ : BufTy).Contents (Elt F) → (⟨S320000x1, .f32⟩ : BufTy).Contents (Elt F) → (⟨S320000x1, .f32⟩ : BufTy).Contents (Elt F)),
    unary main_v35 main_v36 (Host.sqrt : (⟨S320000x1, .f32⟩ : BufTy).Contents (Elt F) → (⟨S320000x1, .f32⟩ : BufTy).Contents (Elt F)),
    unary main_v36 main_v37 (broadcastInDim S320000x16 ![0, 1] bcast_S320000x1_S320000x16_0_1 : (⟨S320000x1, .f32⟩ : BufTy).Contents (Elt F) → (⟨S320000x16, .f32⟩ : BufTy).Contents (Elt F)),
    binary main_v33 main_v37 main_v38 (Host.divf : (⟨S320000x16, .f32⟩ : BufTy).Contents (Elt F) → (⟨S320000x16, .f32⟩ : BufTy).Contents (Elt F) → (⟨S320000x16, .f32⟩ : BufTy).Contents (Elt F)),
    unary main_arg9 main_v39 (broadcastInDim S1x16 ![1] bcast_S16_S1x16_1 : (⟨S16, .f32⟩ : BufTy).Contents (Elt F) → (⟨S1x16, .f32⟩ : BufTy).Contents (Elt F)),
    unary main_v39 main_v40 (broadcastInDim S320000x16 ![0, 1] bcast_S1x16_S320000x16_0_1 : (⟨S1x16, .f32⟩ : BufTy).Contents (Elt F) → (⟨S320000x16, .f32⟩ : BufTy).Contents (Elt F)),
    binary main_v38 main_v40 main_v41 (mulf : (⟨S320000x16, .f32⟩ : BufTy).Contents (Elt F) → (⟨S320000x16, .f32⟩ : BufTy).Contents (Elt F) → (⟨S320000x16, .f32⟩ : BufTy).Contents (Elt F)),
    unary main_arg10 main_v42 (broadcastInDim S1x16 ![1] bcast_S16_S1x16_1 : (⟨S16, .f32⟩ : BufTy).Contents (Elt F) → (⟨S1x16, .f32⟩ : BufTy).Contents (Elt F)),
    unary main_v42 main_v43 (broadcastInDim S320000x16 ![0, 1] bcast_S1x16_S320000x16_0_1 : (⟨S1x16, .f32⟩ : BufTy).Contents (Elt F) → (⟨S320000x16, .f32⟩ : BufTy).Contents (Elt F)),
    binary main_v41 main_v43 main_v44 (addf : (⟨S320000x16, .f32⟩ : BufTy).Contents (Elt F) → (⟨S320000x16, .f32⟩ : BufTy).Contents (Elt F) → (⟨S320000x16, .f32⟩ : BufTy).Contents (Elt F)),
    binary main_arg0 main_v44 main_v45 (addf : (⟨S320000x16, .f32⟩ : BufTy).Contents (Elt F) → (⟨S320000x16, .f32⟩ : BufTy).Contents (Elt F) → (⟨S320000x16, .f32⟩ : BufTy).Contents (Elt F)) ]

/-- Operations 1–50: the two takes. -/
abbrev opsAB : List (HloOp τ sig (Elt F)) :=
  [ unary main_arg2 main_v0 ((extractStridedSlice S1x320000 ![0, 0] · slices_S2x320000_S1x320000_0_0) : (⟨S2x320000, .i32⟩ : BufTy).Contents (Elt F) → (⟨S1x320000, .i32⟩ : BufTy).Contents (Elt F)),
    reshape main_v0 main_v1 rfl shapeCasts_S1x320000_S320000,
    TRef.nullary main_call0.c (constantI S_ 32 0#32),
    TRef.unary main_call0.c main_call0.v0 (broadcastInDim S320000 ![] bcast_S_S320000),
    TRef.binary (.of main_v1) main_call0.v0 main_call0.v1 (cmpi .slt),
    TRef.nullary main_call0.c_0 (constantI S_ 32 10000#32),
    TRef.unary main_call0.c_0 main_call0.v2 (broadcastInDim S320000 ![] bcast_S_S320000),
    TRef.binary (.of main_v1) main_call0.v2 main_call0.v3 addi,
    TRef.ternary main_call0.v1 main_call0.v3 (.of main_v1) main_call0.call0.v0 select,
    TRef.unary main_call0.call0.v0 main_call0.v5 (broadcastInDim S320000x1 ![0] bcast_S320000_S320000x1_0),
    TRef.nullary main_call0.c_1 (constantI S1 32 9999#32),
    TRef.nullary main_call0.c_2 (constantI S_ 32 0#32),
    TRef.unary main_call0.c_2 main_call0.v6 (broadcastInDim S320000x1 ![] bcast_S_S320000x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S320000x1 ![0, 1] bcast_S1x1_S320000x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S320000x1_S320000_d1 h_S_),
    TRef.binary (.of main_arg1) main_call0.v5 main_call0.v13 (fun x i => Host.gather gather_S10000x128_S320000x1_S320000x128_1_0_n_n_0_1_1128 x i),
    TRef.unary main_call0.v12 main_call0.v14 (broadcastInDim S320000x128 ![0] bcast_S320000_S320000x128_0),
    TRef.nullary main_call0.cst (constant S_ .f32 0x7FC00000#32),
    TRef.unary main_call0.cst main_call0.v15 (broadcastInDim S320000x128 ![] bcast_S_S320000x128),
    TRef.ternary main_call0.v14 main_call0.v13 main_call0.v15 main_call0.v16 select,
    unary main_arg2 main_v3 ((extractStridedSlice S1x320000 ![1, 0] · slices_S2x320000_S1x320000_1_0) : (⟨S2x320000, .i32⟩ : BufTy).Contents (Elt F) → (⟨S1x320000, .i32⟩ : BufTy).Contents (Elt F)),
    reshape main_v3 main_v4 rfl shapeCasts_S1x320000_S320000,
    TRef.nullary main_call1.c (constantI S_ 32 0#32),
    TRef.unary main_call1.c main_call1.v0 (broadcastInDim S320000 ![] bcast_S_S320000),
    TRef.binary (.of main_v4) main_call1.v0 main_call1.v1 (cmpi .slt),
    TRef.nullary main_call1.c_0 (constantI S_ 32 10000#32),
    TRef.unary main_call1.c_0 main_call1.v2 (broadcastInDim S320000 ![] bcast_S_S320000),
    TRef.binary (.of main_v4) main_call1.v2 main_call1.v3 addi,
    TRef.ternary main_call1.v1 main_call1.v3 (.of main_v4) main_call1.call0.v0 select,
    TRef.unary main_call1.call0.v0 main_call1.v5 (broadcastInDim S320000x1 ![0] bcast_S320000_S320000x1_0),
    TRef.nullary main_call1.c_1 (constantI S1 32 9999#32),
    TRef.nullary main_call1.c_2 (constantI S_ 32 0#32),
    TRef.unary main_call1.c_2 main_call1.v6 (broadcastInDim S320000x1 ![] bcast_S_S320000x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S320000x1 ![0, 1] bcast_S1x1_S320000x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S320000x1_S320000_d1 h_S_),
    TRef.binary (.of main_arg1) main_call1.v5 main_call1.v13 (fun x i => Host.gather gather_S10000x128_S320000x1_S320000x128_1_0_n_n_0_1_1128 x i),
    TRef.unary main_call1.v12 main_call1.v14 (broadcastInDim S320000x128 ![0] bcast_S320000_S320000x128_0),
    TRef.nullary main_call1.cst (constant S_ .f32 0x7FC00000#32),
    TRef.unary main_call1.cst main_call1.v15 (broadcastInDim S320000x128 ![] bcast_S_S320000x128),
    TRef.ternary main_call1.v14 main_call1.v13 main_call1.v15 main_call1.v16 select ]

/-- Operations 51–69: the concatenation and the three dense layers. -/
abbrev opsM : List (HloOp τ sig (Elt F)) :=
  [ nary ![main_v2, main_v5, main_arg0] main_v6 (fun u => concatenate S320000x272 1 [⟨S320000x128, u 0⟩, ⟨S320000x128, u 1⟩, ⟨S320000x16, u 2⟩] concatenates_S320000x128_S320000x128_S320000x16_S320000x272_d1),
    binary main_v6 main_arg3 main_v7 ((fun l r => Host.dotGeneral dot_S320000x272_S272x128_S320000x128_1_0_0_1_n_n none l r) : (⟨S320000x272, .f32⟩ : BufTy).Contents (Elt F) → (⟨S272x128, .f32⟩ : BufTy).Contents (Elt F) → (⟨S320000x128, .f32⟩ : BufTy).Contents (Elt F)),
    unary main_arg4 main_v8 (broadcastInDim S1x128 ![1] bcast_S128_S1x128_1 : (⟨S128, .f32⟩ : BufTy).Contents (Elt F) → (⟨S1x128, .f32⟩ : BufTy).Contents (Elt F)),
    unary main_v8 main_v9 (broadcastInDim S320000x128 ![0, 1] bcast_S1x128_S320000x128_0_1 : (⟨S1x128, .f32⟩ : BufTy).Contents (Elt F) → (⟨S320000x128, .f32⟩ : BufTy).Contents (Elt F)),
    binary main_v7 main_v9 main_v10 (addf : (⟨S320000x128, .f32⟩ : BufTy).Contents (Elt F) → (⟨S320000x128, .f32⟩ : BufTy).Contents (Elt F) → (⟨S320000x128, .f32⟩ : BufTy).Contents (Elt F)),
    TRef.nullary main_call2.cst (constant S_ .f32 0x00000000#32),
    TRef.unary main_call2.cst main_call2.v0 (broadcastInDim S320000x128 ![] bcast_S_S320000x128),
    TRef.binary (.of main_v10) main_call2.v0 main_call2.v1 maximumf,
    binary main_v11 main_arg5 main_v12 ((fun l r => Host.dotGeneral dot_S320000x128_S128x128_S320000x128_1_0_0_1_n_n none l r) : (⟨S320000x128, .f32⟩ : BufTy).Contents (Elt F) → (⟨S128x128, .f32⟩ : BufTy).Contents (Elt F) → (⟨S320000x128, .f32⟩ : BufTy).Contents (Elt F)),
    unary main_arg6 main_v13 (broadcastInDim S1x128 ![1] bcast_S128_S1x128_1 : (⟨S128, .f32⟩ : BufTy).Contents (Elt F) → (⟨S1x128, .f32⟩ : BufTy).Contents (Elt F)),
    unary main_v13 main_v14 (broadcastInDim S320000x128 ![0, 1] bcast_S1x128_S320000x128_0_1 : (⟨S1x128, .f32⟩ : BufTy).Contents (Elt F) → (⟨S320000x128, .f32⟩ : BufTy).Contents (Elt F)),
    binary main_v12 main_v14 main_v15 (addf : (⟨S320000x128, .f32⟩ : BufTy).Contents (Elt F) → (⟨S320000x128, .f32⟩ : BufTy).Contents (Elt F) → (⟨S320000x128, .f32⟩ : BufTy).Contents (Elt F)),
    TRef.nullary main_call3.cst (constant S_ .f32 0x00000000#32),
    TRef.unary main_call3.cst main_call3.v0 (broadcastInDim S320000x128 ![] bcast_S_S320000x128),
    TRef.binary (.of main_v15) main_call3.v0 main_call3.v1 maximumf,
    binary main_v16 main_arg7 main_v17 ((fun l r => Host.dotGeneral dot_S320000x128_S128x16_S320000x16_1_0_0_1_n_n none l r) : (⟨S320000x128, .f32⟩ : BufTy).Contents (Elt F) → (⟨S128x16, .f32⟩ : BufTy).Contents (Elt F) → (⟨S320000x16, .f32⟩ : BufTy).Contents (Elt F)),
    unary main_arg8 main_v18 (broadcastInDim S1x16 ![1] bcast_S16_S1x16_1 : (⟨S16, .f32⟩ : BufTy).Contents (Elt F) → (⟨S1x16, .f32⟩ : BufTy).Contents (Elt F)),
    unary main_v18 main_v19 (broadcastInDim S320000x16 ![0, 1] bcast_S1x16_S320000x16_0_1 : (⟨S1x16, .f32⟩ : BufTy).Contents (Elt F) → (⟨S320000x16, .f32⟩ : BufTy).Contents (Elt F)),
    binary main_v17 main_v19 main_v20 (addf : (⟨S320000x16, .f32⟩ : BufTy).Contents (Elt F) → (⟨S320000x16, .f32⟩ : BufTy).Contents (Elt F) → (⟨S320000x16, .f32⟩ : BufTy).Contents (Elt F)) ]

/-- Operations 70–99: the layer norm and the residual. -/
abbrev opsF : List (HloOp τ sig (Elt F)) :=
  [ nullary main_cst (constant S_ .f32 0x00000000#32),
    binary main_v20 main_cst main_v21 ((fun x v => Host.reduceAdd x v reducesTo_S320000x16_S320000_d1 h_S_) : (⟨S320000x16, .f32⟩ : BufTy).Contents (Elt F) → (⟨S_, .f32⟩ : BufTy).Contents (Elt F) → (⟨S320000, .f32⟩ : BufTy).Contents (Elt F)),
    unary main_v21 main_v22 (broadcastInDim S320000x1 ![0] bcast_S320000_S320000x1_0 : (⟨S320000, .f32⟩ : BufTy).Contents (Elt F) → (⟨S320000x1, .f32⟩ : BufTy).Contents (Elt F)),
    nullary main_cst_0 (constant S_ .f32 0x41800000#32),
    unary main_cst_0 main_v23 (broadcastInDim S320000x1 ![] bcast_S_S320000x1 : (⟨S_, .f32⟩ : BufTy).Contents (Elt F) → (⟨S320000x1, .f32⟩ : BufTy).Contents (Elt F)),
    binary main_v22 main_v23 main_v24 (Host.divf : (⟨S320000x1, .f32⟩ : BufTy).Contents (Elt F) → (⟨S320000x1, .f32⟩ : BufTy).Contents (Elt F) → (⟨S320000x1, .f32⟩ : BufTy).Contents (Elt F)),
    unary main_v24 main_v25 (broadcastInDim S320000x16 ![0, 1] bcast_S320000x1_S320000x16_0_1 : (⟨S320000x1, .f32⟩ : BufTy).Contents (Elt F) → (⟨S320000x16, .f32⟩ : BufTy).Contents (Elt F)),
    binary main_v20 main_v25 main_v26 (subf : (⟨S320000x16, .f32⟩ : BufTy).Contents (Elt F) → (⟨S320000x16, .f32⟩ : BufTy).Contents (Elt F) → (⟨S320000x16, .f32⟩ : BufTy).Contents (Elt F)),
    binary main_v26 main_v26 main_v27 (mulf : (⟨S320000x16, .f32⟩ : BufTy).Contents (Elt F) → (⟨S320000x16, .f32⟩ : BufTy).Contents (Elt F) → (⟨S320000x16, .f32⟩ : BufTy).Contents (Elt F)),
    nullary main_cst_1 (constant S_ .f32 0x00000000#32),
    binary main_v27 main_cst_1 main_v28 ((fun x v => Host.reduceAdd x v reducesTo_S320000x16_S320000_d1 h_S_) : (⟨S320000x16, .f32⟩ : BufTy).Contents (Elt F) → (⟨S_, .f32⟩ : BufTy).Contents (Elt F) → (⟨S320000, .f32⟩ : BufTy).Contents (Elt F)),
    unary main_v28 main_v29 (broadcastInDim S320000x1 ![0] bcast_S320000_S320000x1_0 : (⟨S320000, .f32⟩ : BufTy).Contents (Elt F) → (⟨S320000x1, .f32⟩ : BufTy).Contents (Elt F)),
    nullary main_cst_2 (constant S_ .f32 0x41800000#32),
    unary main_cst_2 main_v30 (broadcastInDim S320000x1 ![] bcast_S_S320000x1 : (⟨S_, .f32⟩ : BufTy).Contents (Elt F) → (⟨S320000x1, .f32⟩ : BufTy).Contents (Elt F)),
    binary main_v29 main_v30 main_v31 (Host.divf : (⟨S320000x1, .f32⟩ : BufTy).Contents (Elt F) → (⟨S320000x1, .f32⟩ : BufTy).Contents (Elt F) → (⟨S320000x1, .f32⟩ : BufTy).Contents (Elt F)),
    unary main_v24 main_v32 (broadcastInDim S320000x16 ![0, 1] bcast_S320000x1_S320000x16_0_1 : (⟨S320000x1, .f32⟩ : BufTy).Contents (Elt F) → (⟨S320000x16, .f32⟩ : BufTy).Contents (Elt F)),
    binary main_v20 main_v32 main_v33 (subf : (⟨S320000x16, .f32⟩ : BufTy).Contents (Elt F) → (⟨S320000x16, .f32⟩ : BufTy).Contents (Elt F) → (⟨S320000x16, .f32⟩ : BufTy).Contents (Elt F)),
    nullary main_cst_3 (constant S_ .f32 0x3727C5AC#32),
    unary main_cst_3 main_v34 (broadcastInDim S320000x1 ![] bcast_S_S320000x1 : (⟨S_, .f32⟩ : BufTy).Contents (Elt F) → (⟨S320000x1, .f32⟩ : BufTy).Contents (Elt F)),
    binary main_v31 main_v34 main_v35 (addf : (⟨S320000x1, .f32⟩ : BufTy).Contents (Elt F) → (⟨S320000x1, .f32⟩ : BufTy).Contents (Elt F) → (⟨S320000x1, .f32⟩ : BufTy).Contents (Elt F)),
    unary main_v35 main_v36 (Host.sqrt : (⟨S320000x1, .f32⟩ : BufTy).Contents (Elt F) → (⟨S320000x1, .f32⟩ : BufTy).Contents (Elt F)),
    unary main_v36 main_v37 (broadcastInDim S320000x16 ![0, 1] bcast_S320000x1_S320000x16_0_1 : (⟨S320000x1, .f32⟩ : BufTy).Contents (Elt F) → (⟨S320000x16, .f32⟩ : BufTy).Contents (Elt F)),
    binary main_v33 main_v37 main_v38 (Host.divf : (⟨S320000x16, .f32⟩ : BufTy).Contents (Elt F) → (⟨S320000x16, .f32⟩ : BufTy).Contents (Elt F) → (⟨S320000x16, .f32⟩ : BufTy).Contents (Elt F)),
    unary main_arg9 main_v39 (broadcastInDim S1x16 ![1] bcast_S16_S1x16_1 : (⟨S16, .f32⟩ : BufTy).Contents (Elt F) → (⟨S1x16, .f32⟩ : BufTy).Contents (Elt F)),
    unary main_v39 main_v40 (broadcastInDim S320000x16 ![0, 1] bcast_S1x16_S320000x16_0_1 : (⟨S1x16, .f32⟩ : BufTy).Contents (Elt F) → (⟨S320000x16, .f32⟩ : BufTy).Contents (Elt F)),
    binary main_v38 main_v40 main_v41 (mulf : (⟨S320000x16, .f32⟩ : BufTy).Contents (Elt F) → (⟨S320000x16, .f32⟩ : BufTy).Contents (Elt F) → (⟨S320000x16, .f32⟩ : BufTy).Contents (Elt F)),
    unary main_arg10 main_v42 (broadcastInDim S1x16 ![1] bcast_S16_S1x16_1 : (⟨S16, .f32⟩ : BufTy).Contents (Elt F) → (⟨S1x16, .f32⟩ : BufTy).Contents (Elt F)),
    unary main_v42 main_v43 (broadcastInDim S320000x16 ![0, 1] bcast_S1x16_S320000x16_0_1 : (⟨S1x16, .f32⟩ : BufTy).Contents (Elt F) → (⟨S320000x16, .f32⟩ : BufTy).Contents (Elt F)),
    binary main_v41 main_v43 main_v44 (addf : (⟨S320000x16, .f32⟩ : BufTy).Contents (Elt F) → (⟨S320000x16, .f32⟩ : BufTy).Contents (Elt F) → (⟨S320000x16, .f32⟩ : BufTy).Contents (Elt F)),
    binary main_arg0 main_v44 main_v45 (addf : (⟨S320000x16, .f32⟩ : BufTy).Contents (Elt F) → (⟨S320000x16, .f32⟩ : BufTy).Contents (Elt F) → (⟨S320000x16, .f32⟩ : BufTy).Contents (Elt F)) ]

/-- Every operation touches TensorCore references only. -/
theorem ops_sub : (ops : List (HloOp τ sig (Elt F))).Forall fun op => op.bufs ⊆ tcRefs τ sig :=
  ⟨
    unary_bufs_sub .., reshape_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    unary_bufs_sub .., reshape_bufs_sub .., nullary_bufs_sub .., unary_bufs_sub .., binary_bufs_sub ..,
    nullary_bufs_sub .., unary_bufs_sub .., binary_bufs_sub .., ternary_bufs_sub .., unary_bufs_sub ..,
    nullary_bufs_sub .., nullary_bufs_sub .., unary_bufs_sub .., binary_bufs_sub .., unary_bufs_sub ..,
    unary_bufs_sub .., binary_bufs_sub .., binary_bufs_sub .., nullary_bufs_sub .., binary_bufs_sub ..,
    binary_bufs_sub .., unary_bufs_sub .., nullary_bufs_sub .., unary_bufs_sub .., ternary_bufs_sub ..,
    nary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub .., nullary_bufs_sub .., unary_bufs_sub .., binary_bufs_sub ..,
    binary_bufs_sub .., unary_bufs_sub .., unary_bufs_sub .., binary_bufs_sub .., nullary_bufs_sub ..,
    binary_bufs_sub .., unary_bufs_sub .., nullary_bufs_sub .., unary_bufs_sub .., binary_bufs_sub ..,
    unary_bufs_sub .., binary_bufs_sub .., binary_bufs_sub .., nullary_bufs_sub .., binary_bufs_sub ..,
    unary_bufs_sub .., nullary_bufs_sub .., unary_bufs_sub .., binary_bufs_sub .., unary_bufs_sub ..,
    binary_bufs_sub .., nullary_bufs_sub .., unary_bufs_sub .., binary_bufs_sub .., unary_bufs_sub ..,
    unary_bufs_sub .., binary_bufs_sub .., unary_bufs_sub .., unary_bufs_sub .., binary_bufs_sub ..,
    unary_bufs_sub .., unary_bufs_sub .., binary_bufs_sub .., binary_bufs_sub ..⟩

end Cert.ReferenceIdeal.RefRun

end
-- ==== Proof.RefRun.lean ====
/-
  The reference program's run, written by hand (untrusted). @main of the reference is a straight line of
  StableHLO operations once its four calls (two `_take`, each with a nested `_where`, and two `relu`) are
  unfolded at their call sites over the calls' buffer records: the list `ops` of the 99 operations in order is
  the imported table; `main_eq` says @main is their sequence, and `run` reads the fold of their results back at the
  result buffer and at the eleven argument buffers: from any memory with zero counters every weakly fair execution
  terminates with the result at `refTerm` of the arguments' launch contents and the arguments unchanged. No
  precondition is needed: an index out of range only changes which branch of the `select` a row takes.
-/
import proofs.«210884_g88510686036700_cont_sun_m_1211_45_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- ninety-nine binds re-associated: the rewriting recurses once per statement
set_option maxRecDepth 4096 in
set_option maxHeartbeats 4000000 in
/-- @main is that straight line: the callees' definitions unfolded at their calls, both sides are one chain of
    `hlo` steps once sequencing is re-associated. -/
theorem main_eq (c : Dev nD) : main (F := F) c = seq ops := by
  simp only [main, fn_take.body, fn_where.body, fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters every weakly fair execution of @main terminates, each TensorCore buffer at
    the fold of the operations' results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The result as a term of the arguments

The operations' composed pure term, in named stages (each a plain definition, no `let`: the read-back below compares it
with the fold by unfolding the names). Everything is stated for any float instance. -/

/-- Row 0 of the index array (`edge_index[0]`): the slice `[0:1, :]` reshaped to a flat vector. -/
def row0 (ei : IVec S2x320000 32) : IVec S320000 32 :=
  shapeCast S320000 (extractStridedSlice S1x320000 ![0, 0] ei slices_S2x320000_S1x320000_0_0) shapeCasts_S1x320000_S320000

/-- Row 1 of the index array (`edge_index[1]`). -/
def row1 (ei : IVec S2x320000 32) : IVec S320000 32 :=
  shapeCast S320000 (extractStridedSlice S1x320000 ![1, 0] ei slices_S2x320000_S1x320000_1_0) shapeCasts_S1x320000_S320000

/-- `take`'s index normalisation, as a column of start indices: a negative index has the table's height added once. -/
def tkIdx (idx : IVec S320000 32) : IVec S320000x1 32 :=
  broadcastInDim S320000x1 ![0] bcast_S320000_S320000x1_0
    (select (cmpi .slt idx (broadcastInDim S320000 ![] bcast_S_S320000 (constantI S_ 32 0#32)))
      (addi idx (broadcastInDim S320000 ![] bcast_S_S320000 (constantI S_ 32 10000#32))) idx)

/-- `take`'s mask: the normalised index of row `e` lies in `[0, 9999]`. -/
def tkMask (idx : IVec S320000 32) : IVec S320000 1 :=
  Host.reduce IntOp.andi
    (andi (cmpi .sge (tkIdx idx) (broadcastInDim S320000x1 ![] bcast_S_S320000x1 (constantI S_ 32 0#32)))
      (cmpi .sle (tkIdx idx) (broadcastInDim S320000x1 ![0, 1] bcast_S1x1_S320000x1_0_1
        (broadcastInDim S1x1 ![1] bcast_S1_S1x1_1 (constantI S1 32 9999#32)))))
    (constantI S_ 1 1#1) reducesTo_S320000x1_S320000_d1 h_S_

/-- `jnp.take(nf, idx, axis=0)`: the gathered rows where the mask holds, the quiet NaN elsewhere. -/
def tkRows (nf : FVec F S10000x128 .f32) (idx : IVec S320000 32) : FVec F S320000x128 .f32 :=
  select (broadcastInDim S320000x128 ![0] bcast_S320000_S320000x128_0 (tkMask idx))
    (Host.gather gather_S10000x128_S320000x1_S320000x128_1_0_n_n_0_1_1128 nf (tkIdx idx))
    (broadcastInDim S320000x128 ![] bcast_S_S320000x128 (constant S_ .f32 0x7FC00000#32))

/-- The MLP's input: source rows, destination rows and the edge features side by side. -/
def xcat (s d : FVec F S320000x128 .f32) (ef : FVec F S320000x16 .f32) : FVec F S320000x272 .f32 :=
  concatenate S320000x272 1 [⟨S320000x128, s⟩, ⟨S320000x128, d⟩, ⟨S320000x16, ef⟩]
    concatenates_S320000x128_S320000x128_S320000x16_S320000x272_d1

/-- A bias of width 128 as a full array: first a row, then every row. -/
def bias128 (b : FVec F S128 .f32) : FVec F S320000x128 .f32 :=
  broadcastInDim S320000x128 ![0, 1] bcast_S1x128_S320000x128_0_1 (broadcastInDim S1x128 ![1] bcast_S128_S1x128_1 b)

/-- A vector of width 16 as a full array. -/
def row16 (b : FVec F S16 .f32) : FVec F S320000x16 .f32 :=
  broadcastInDim S320000x16 ![0, 1] bcast_S1x16_S320000x16_0_1 (broadcastInDim S1x16 ![1] bcast_S16_S1x16_1 b)

/-- A column (one value per edge) as a full array of width 16. -/
def col16 (v : FVec F S320000x1 .f32) : FVec F S320000x16 .f32 :=
  broadcastInDim S320000x16 ![0, 1] bcast_S320000x1_S320000x16_0_1 v

/-- `relu`: the maximum with the zero splat. -/
def relu128 (x : FVec F S320000x128 .f32) : FVec F S320000x128 .f32 :=
  maximumf x (broadcastInDim S320000x128 ![] bcast_S_S320000x128 (constant S_ .f32 0x00000000#32))

/-- The first dense layer with its relu. -/
def h1 (x : FVec F S320000x272 .f32) (W1 : FVec F S272x128 .f32) (b1 : FVec F S128 .f32) : FVec F S320000x128 .f32 :=
  relu128 (addf (Host.dotGeneral dot_S320000x272_S272x128_S320000x128_1_0_0_1_n_n none x W1) (bias128 b1))

/-- The second dense layer with its relu. -/
def h2 (h : FVec F S320000x128 .f32) (W2 : FVec F S128x128 .f32) (b2 : FVec F S128 .f32) : FVec F S320000x128 .f32 :=
  relu128 (addf (Host.dotGeneral dot_S320000x128_S128x128_S320000x128_1_0_0_1_n_n none h W2) (bias128 b2))

/-- The third dense layer: the layer norm's input `y`. -/
def y3 (h : FVec F S320000x128 .f32) (W3 : FVec F S128x16 .f32) (b3 : FVec F S16 .f32) : FVec F S320000x16 .f32 :=
  addf (Host.dotGeneral dot_S320000x128_S128x16_S320000x16_1_0_0_1_n_n none h W3) (row16 b3)

/-- The row sum (from the zero splat) divided by 16, as a column: `jnp.mean(·, axis=-1, keepdims=True)`. -/
def mean16 (y : FVec F S320000x16 .f32) : FVec F S320000x1 .f32 :=
  Host.divf (broadcastInDim S320000x1 ![0] bcast_S320000_S320000x1_0
      (Host.reduceAdd y (constant S_ .f32 0x00000000#32) reducesTo_S320000x16_S320000_d1 h_S_))
    (broadcastInDim S320000x1 ![] bcast_S_S320000x1 (constant S_ .f32 0x41800000#32))

/-- `y - mu`. -/
def centred (y : FVec F S320000x16 .f32) : FVec F S320000x16 .f32 := subf y (col16 (mean16 y))

/-- The variance column: the mean of the squared centred values. -/
def var16 (y : FVec F S320000x16 .f32) : FVec F S320000x1 .f32 := mean16 (mulf (centred y) (centred y))

/-- `sqrt(var + eps)`, as a column. -/
def sd16 (y : FVec F S320000x16 .f32) : FVec F S320000x1 .f32 :=
  Host.sqrt (addf (var16 y) (broadcastInDim S320000x1 ![] bcast_S_S320000x1 (constant S_ .f32 0x3727C5AC#32)))

/-- The layer norm: `(y - mu) / sqrt(var + eps) * gamma + beta`. -/
def layerNorm (y : FVec F S320000x16 .f32) (gamma beta : FVec F S16 .f32) : FVec F S320000x16 .f32 :=
  addf (mulf (Host.divf (centred y) (col16 (sd16 y))) (row16 gamma)) (row16 beta)

/-- The reference's result as a term of its eleven arguments. -/
def refTerm (ef : FVec F S320000x16 .f32) (nf : FVec F S10000x128 .f32) (ei : IVec S2x320000 32)
    (W1 : FVec F S272x128 .f32) (b1 : FVec F S128 .f32) (W2 : FVec F S128x128 .f32) (b2 : FVec F S128 .f32)
    (W3 : FVec F S128x16 .f32) (b3 : FVec F S16 .f32) (gamma beta : FVec F S16 .f32) : FVec F S320000x16 .f32 :=
  addf ef (layerNorm (y3 (h2 (h1 (xcat (tkRows nf (row0 ei)) (tkRows nf (row1 ei)) ef) W1 b1) W2 b2) W3 b3) gamma beta)

/-! ## The fold read back, in three stretches

The line is cut after the second `take` and after the third dense layer; what a buffer holds after the whole line is
what the later stretches make of what the earlier ones left (`after_append`). -/

theorem ops_eq : (ops : List (HloOp τ sig (Elt F))) = opsAB ++ (opsM ++ opsF) := rfl

/-- Two lines run one after the other: the second's fold from the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- A three-operand `nary` over a literal family (the concatenation): its result with each operand's contents at its
    own reference. -/
theorem nary3_result' {x a b y : Ref sig .tc}
    (f : ((k : Fin 3) → ((![x, a, b] : Fin 3 → Ref sig .tc) k).ty.Contents (Elt F)) → y.ty.Contents (Elt F)) (hxs hy)
    (V : Valuation τ sig (Elt F)) :
    (nary (τ := τ) ![x, a, b] y f hxs hy).result V (no_index (Proc.devRef .tc y))
      = f (Fin.cons (V (Proc.devRef .tc x)) (Fin.cons (V (Proc.devRef .tc a)) (Fin.cons (V (Proc.devRef .tc b)) (fun i => i.elim0)))) := by
  rw [nary_result]; congr 1; funext k; fin_cases k <;> rfl

attribute [local irreducible] Host.reduce Host.gather in
set_option maxRecDepth 16384 in
set_option maxHeartbeats 1000000 in
/-- After the first stretch the first `take`'s result holds the source rows. -/
theorem opsAB_v2 (V : Valuation τ sig (Elt F)) :
    after opsAB V (main_v2 : DevRef τ sig) = tkRows (V (main_arg1 : DevRef τ sig)) (row0 (V (main_arg2 : DevRef τ sig))) := by
  simp (disch := decide) only [after_cons, after_nil,
    nullary_result', unary_result', binary_result', ternary_result', reshape_result', nary3_result',
    nullary_result_ne', unary_result_ne', binary_result_ne', ternary_result_ne', reshape_result_ne', nary_result_ne']
  rfl

attribute [local irreducible] Host.reduce Host.gather in
set_option maxRecDepth 16384 in
set_option maxHeartbeats 1000000 in
/-- After the first stretch the second `take`'s result holds the destination rows. -/
theorem opsAB_v5 (V : Valuation τ sig (Elt F)) :
    after opsAB V (main_v5 : DevRef τ sig) = tkRows (V (main_arg1 : DevRef τ sig)) (row1 (V (main_arg2 : DevRef τ sig))) := by
  simp (disch := decide) only [after_cons, after_nil,
    nullary_result', unary_result', binary_result', ternary_result', reshape_result', nary3_result',
    nullary_result_ne', unary_result_ne', binary_result_ne', ternary_result_ne', reshape_result_ne', nary_result_ne']
  rfl

theorem opsAB_main_arg0 (V : Valuation τ sig (Elt F)) : after opsAB V (main_arg0 : DevRef τ sig) = V (main_arg0 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg3 (V : Valuation τ sig (Elt F)) : after opsAB V (main_arg3 : DevRef τ sig) = V (main_arg3 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg4 (V : Valuation τ sig (Elt F)) : after opsAB V (main_arg4 : DevRef τ sig) = V (main_arg4 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg5 (V : Valuation τ sig (Elt F)) : after opsAB V (main_arg5 : DevRef τ sig) = V (main_arg5 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg6 (V : Valuation τ sig (Elt F)) : after opsAB V (main_arg6 : DevRef τ sig) = V (main_arg6 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg7 (V : Valuation τ sig (Elt F)) : after opsAB V (main_arg7 : DevRef τ sig) = V (main_arg7 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg8 (V : Valuation τ sig (Elt F)) : after opsAB V (main_arg8 : DevRef τ sig) = V (main_arg8 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg9 (V : Valuation τ sig (Elt F)) : after opsAB V (main_arg9 : DevRef τ sig) = V (main_arg9 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg10 (V : Valuation τ sig (Elt F)) : after opsAB V (main_arg10 : DevRef τ sig) = V (main_arg10 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg1 (V : Valuation τ sig (Elt F)) : after opsAB V (main_arg1 : DevRef τ sig) = V (main_arg1 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsAB_main_arg2 (V : Valuation τ sig (Elt F)) : after opsAB V (main_arg2 : DevRef τ sig) = V (main_arg2 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

attribute [local irreducible] concatenate in
set_option maxRecDepth 16384 in
set_option maxHeartbeats 1000000 in
/-- After the second stretch the third dense layer's result holds the layer norm's input. -/
theorem opsM_v20 (V : Valuation τ sig (Elt F)) :
    after opsM V (main_v20 : DevRef τ sig)
      = y3 (h2 (h1 (xcat (V (main_v2 : DevRef τ sig)) (V (main_v5 : DevRef τ sig)) (V (main_arg0 : DevRef τ sig)))
            (V (main_arg3 : DevRef τ sig)) (V (main_arg4 : DevRef τ sig)))
          (V (main_arg5 : DevRef τ sig)) (V (main_arg6 : DevRef τ sig)))
        (V (main_arg7 : DevRef τ sig)) (V (main_arg8 : DevRef τ sig)) := by
  simp (disch := decide) only [after_cons, after_nil,
    nullary_result', unary_result', binary_result', ternary_result', reshape_result', nary3_result',
    nullary_result_ne', unary_result_ne', binary_result_ne', ternary_result_ne', reshape_result_ne', nary_result_ne']
  rfl

theorem opsM_main_arg0 (V : Valuation τ sig (Elt F)) : after opsM V (main_arg0 : DevRef τ sig) = V (main_arg0 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsM_main_arg9 (V : Valuation τ sig (Elt F)) : after opsM V (main_arg9 : DevRef τ sig) = V (main_arg9 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

theorem opsM_main_arg10 (V : Valuation τ sig (Elt F)) : after opsM V (main_arg10 : DevRef τ sig) = V (main_arg10 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

attribute [local irreducible] Host.reduceAdd in
set_option maxRecDepth 16384 in
set_option maxHeartbeats 1000000 in
/-- After the last stretch the result buffer holds the argument plus the layer norm of what the third layer left. -/
theorem opsF_v45 (V : Valuation τ sig (Elt F)) :
    after opsF V (main_v45 : DevRef τ sig)
      = addf (V (main_arg0 : DevRef τ sig))
          (layerNorm (V (main_v20 : DevRef τ sig)) (V (main_arg9 : DevRef τ sig)) (V (main_arg10 : DevRef τ sig))) := by
  simp (disch := decide) only [after_cons, after_nil,
    nullary_result', unary_result', binary_result', ternary_result', reshape_result', nary3_result',
    nullary_result_ne', unary_result_ne', binary_result_ne', ternary_result_ne', reshape_result_ne', nary_result_ne']
  rfl

/-- The fold at the result buffer is `refTerm` of the arguments' contents. -/
theorem out_eq (V : Valuation τ sig (Elt F)) :
    after ops V (main_v45 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig))
          (V (main_arg9 : DevRef τ sig)) (V (main_arg10 : DevRef τ sig)) := by
  rw [ops_eq, after_append, after_append, opsF_v45, opsM_v20, opsM_main_arg0, opsM_main_arg9, opsM_main_arg10,
    opsAB_v2, opsAB_v5, opsAB_main_arg0, opsAB_main_arg3, opsAB_main_arg4, opsAB_main_arg5, opsAB_main_arg6,
    opsAB_main_arg7, opsAB_main_arg8, opsAB_main_arg9, opsAB_main_arg10]
  rfl

set_option maxRecDepth 16384 in
set_option maxHeartbeats 4000000 in
/-- No operation writes argument 0's buffer. -/
theorem arg0_eq (V : Valuation τ sig (Elt F)) : after ops V (main_arg0 : DevRef τ sig) = V (main_arg0 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 1's buffer. -/
theorem arg1_eq (V : Valuation τ sig (Elt F)) : after ops V (main_arg1 : DevRef τ sig) = V (main_arg1 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 2's buffer. -/
theorem arg2_eq (V : Valuation τ sig (Elt F)) : after ops V (main_arg2 : DevRef τ sig) = V (main_arg2 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 3's buffer. -/
theorem arg3_eq (V : Valuation τ sig (Elt F)) : after ops V (main_arg3 : DevRef τ sig) = V (main_arg3 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 4's buffer. -/
theorem arg4_eq (V : Valuation τ sig (Elt F)) : after ops V (main_arg4 : DevRef τ sig) = V (main_arg4 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 5's buffer. -/
theorem arg5_eq (V : Valuation τ sig (Elt F)) : after ops V (main_arg5 : DevRef τ sig) = V (main_arg5 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 6's buffer. -/
theorem arg6_eq (V : Valuation τ sig (Elt F)) : after ops V (main_arg6 : DevRef τ sig) = V (main_arg6 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 7's buffer. -/
theorem arg7_eq (V : Valuation τ sig (Elt F)) : after ops V (main_arg7 : DevRef τ sig) = V (main_arg7 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 8's buffer. -/
theorem arg8_eq (V : Valuation τ sig (Elt F)) : after ops V (main_arg8 : DevRef τ sig) = V (main_arg8 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 9's buffer. -/
theorem arg9_eq (V : Valuation τ sig (Elt F)) : after ops V (main_arg9 : DevRef τ sig) = V (main_arg9 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

set_option maxRecDepth 16384 in
set_option maxHeartbeats 4000000 in
/-- No operation writes argument 10's buffer. -/
theorem arg10_eq (V : Valuation τ sig (Elt F)) : after ops V (main_arg10 : DevRef τ sig) = V (main_arg10 : DevRef τ sig) := by
  simp (disch := decide) only [after_cons, after_nil,
    nullary_result', unary_result', binary_result', ternary_result', reshape_result', nary3_result',
    nullary_result_ne', unary_result_ne', binary_result_ne', ternary_result_ne', reshape_result_ne', nary_result_ne']

/-- On every device, for any float values, from any memory with zero counters: every weakly fair execution of
    @main terminates with the result at `refTerm` of the arguments and the arguments unchanged. No precondition. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v45).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_after m ρ)

end Cert.ReferenceIdeal.RefRun

end
-- ==== Proof.RefValue.lean ====
/-
  The reference's result read at an index (untrusted), at the ideal instance: with every entry of the index array in
  `[0, 9999]` each `take`'s mask is all ones and its select picks the gathered row, and `refTerm` at `(e, j)` is the
  edge feature plus the layer norm of the three-layer MLP's output row: each matrix product a finite sum over the
  contraction coordinate (the first split by the three pieces of the concatenated input), the mean and the variance
  the zero plus a sum of sixteen terms divided by the literal 16, all in the extended reals' own operations.
-/
import proofs.«210884_g88510686036700_cont_sun_m_1211_45_alg».proof.Proof.RefRun
import Idealize.ShloMosaic.Lib.ValueLayout
import Idealize.ShloMosaic.PureOps.Ideal.Laws
import Idealize.ShloMosaic.Lib.Affine

noncomputable section

open scoped BigOperators

namespace Cert.ReferenceIdeal.RefValue

open Cert.ReferenceIdeal Cert.ReferenceIdeal.Gen Cert.ReferenceIdeal.RefRun Idealize.ShloMosaic Idealize.ShloMosaic.ValueIdx

/-! ## The index array's rows, `take`'s index and mask -/

/-- Row 0 of the index array at `e`. -/
theorem row0_apply (ei : IVec S2x320000 32) (e : Fin 320000) : row0 ei (ix1 e) = ei (ix2 (0 : Fin 2) e) := by
  unfold row0
  refine (shapeCast_1a_a_apply (a := 320000) _ _ e).trans ?_
  refine extractStridedSlice_apply _ _ _ _ (ix2 (0 : Fin 2) e) fun a => ?_
  match a with
  | ⟨0, _⟩ => rfl
  | ⟨1, _⟩ => exact (Nat.zero_add _).symm

/-- Row 1 of the index array at `e`. -/
theorem row1_apply (ei : IVec S2x320000 32) (e : Fin 320000) : row1 ei (ix1 e) = ei (ix2 (1 : Fin 2) e) := by
  unfold row1
  refine (shapeCast_1a_a_apply (a := 320000) _ _ e).trans ?_
  refine extractStridedSlice_apply _ _ _ _ (ix2 (1 : Fin 2) e) fun a => ?_
  match a with
  | ⟨0, _⟩ => rfl
  | ⟨1, _⟩ => exact (Nat.zero_add _).symm

/-- A nonnegative index is not wrapped: the column of start indices holds the index itself. -/
theorem tkIdx_apply (idx : IVec S320000 32) (e : Fin 320000) (u : Fin 1) (h0 : 0 ≤ (idx (ix1 e)).toInt) :
    tkIdx idx (ix2 e u) = idx (ix1 e) := by
  unfold tkIdx
  refine (broadcastInDim_apply _ _ _ (ix2 e u) (ix1 e) fun a => ?_).trans ?_
  · match a with
    | ⟨0, _⟩ => exact (if_neg (show ¬ (320000 : ℕ) = 1 by decide)).symm
  · rw [select_apply]
    have hc : cmpi .slt idx (broadcastInDim S320000 ![] bcast_S_S320000 (constantI S_ 32 0#32)) (ix1 e) = 0#1 := by
      refine eq_zero_of_ne_one fun h1 => ?_
      have h2 : (idx (ix1 e)).toInt < (0#32 : BitVec 32).toInt := IntOp.cmpi_slt.1 h1
      have h3 : (0#32 : BitVec 32).toInt = 0 := by decide
      omega
    rw [hc, select_zero]

/-- A left fold by `and` from 1 over words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    have h11 : IntOp.andi (1#1 : BitVec 1) 1#1 = 1#1 := by decide
    rw [List.foldl_cons, h a List.mem_cons_self, h11]
    exact foldl_andi_one f l fun n hn => h n (List.mem_cons_of_mem _ hn)

/-- With every index in `[0, 9999]` the mask is all ones. -/
theorem tkMask_apply (idx : IVec S320000 32)
    (h : ∀ e : Fin 320000, 0 ≤ (idx (ix1 e)).toInt ∧ (idx (ix1 e)).toInt ≤ 9999) (e : Fin 320000) :
    tkMask idx (ix1 e) = 1#1 := by
  unfold tkMask
  rw [Host.reduce_eq_foldl]
  refine foldl_andi_one _ _ fun i _ => ?_
  obtain ⟨a, u, rfl⟩ : ∃ (a : Fin 320000) (u : Fin 1), i = ix2 a u := ⟨i 0, i 1, eq_ix2 i⟩
  show IntOp.andi (IntOp.cmpi .sge (tkIdx idx (ix2 a u)) 0#32) (IntOp.cmpi .sle (tkIdx idx (ix2 a u)) 9999#32) = 1#1
  rw [tkIdx_apply idx a u (h a).1, IntOp.andi_eq_one, IntOp.cmpi_sge, IntOp.cmpi_sle]
  have h3 : (0#32 : BitVec 32).toInt = 0 := by decide
  have h4 : (9999#32 : BitVec 32).toInt = 9999 := by decide
  rw [h3, h4]
  exact h a

/-! ## The gather -/

/-- A start index read signed and clamped into the table's rows. -/
def clampRow (w : BitVec 32) : Fin 10000 := ⟨min w.toInt.toNat 9999, by omega⟩

/-- An in-range index is its own clamp. -/
theorem clampRow_val {w : BitVec 32} (h0 : 0 ≤ w.toInt) (h1 : w.toInt ≤ 9999) : (clampRow w).val = w.toNat := by
  have hlt : 2 * w.toNat < 2 ^ 32 := BitVec.toInt_pos_iff.1 h0
  have hw : w.toInt = (w.toNat : Int) := BitVec.toInt_eq_toNat_of_lt hlt
  show min w.toInt.toNat 9999 = w.toNat
  rw [hw] at h1 ⊢
  rw [Int.toNat_natCast]
  omega

/-- The gather of whole rows read at `(e, j)`: the table at the clamped start index of row `e`, column `j`. -/
theorem gather_rows_apply {α : Type} (x : S10000x128.Idx → α) (idx : IVec S320000x1 32) (e : Fin 320000) (j : Fin 128) :
    Host.gather gather_S10000x128_S320000x1_S320000x128_1_0_n_n_0_1_1128 x idx (ix2 e j) = x (ix2 (clampRow (idx (ix2 e (0 : Fin 1)))) j) := by
  unfold Host.gather
  refine congrArg x (funext fun a => Fin.ext ?_)
  match a with
  | ⟨0, _⟩ =>
    show gather_S10000x128_S320000x1_S320000x128_1_0_n_n_0_1_1128.start (ix2 e j) idx 0 + gather_S10000x128_S320000x1_S320000x128_1_0_n_n_0_1_1128.batchCoord (ix2 e j) 0 + gather_S10000x128_S320000x1_S320000x128_1_0_n_n_0_1_1128.offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x128_S320000x1_S320000x128_1_0_n_n_0_1_1128.startIndexMap from List.mem_singleton.mpr rfl)]
    have hsi : gather_S10000x128_S320000x1_S320000x128_1_0_n_n_0_1_1128.siIdx (ix2 e j) ⟨List.idxOf (0 : Fin 2) gather_S10000x128_S320000x1_S320000x128_1_0_n_n_0_1_1128.startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x128_S320000x1_S320000x128_1_0_n_n_0_1_1128.start (ix2 e j) idx 1 + gather_S10000x128_S320000x1_S320000x128_1_0_n_n_0_1_1128.batchCoord (ix2 e j) 1 + gather_S10000x128_S320000x1_S320000x128_1_0_n_n_0_1_1128.offCoord (ix2 e j) 1 = j.val
    rw [GatherDims.batchCoord_eq_zero _ _ _ List.not_mem_nil]
    unfold GatherDims.start
    rw [dif_neg (show (1 : Fin 2) ∉ gather_S10000x128_S320000x1_S320000x128_1_0_n_n_0_1_1128.startIndexMap by decide)]
    unfold GatherDims.offCoord
    rw [dif_pos (show (1 : Fin 2) ∈ gather_S10000x128_S320000x1_S320000x128_1_0_n_n_0_1_1128.sKept by decide)]
    have hoff : ∀ (p : Nat) (hp : p < gather_S10000x128_S320000x1_S320000x128_1_0_n_n_0_1_1128.offsetDims.length), gather_S10000x128_S320000x1_S320000x128_1_0_n_n_0_1_1128.offsetDims[p]'hp = (1 : Fin 2) := by
      intro p hp
      have hl : gather_S10000x128_S320000x1_S320000x128_1_0_n_n_0_1_1128.offsetDims.length = 1 := rfl
      have hp0 : p = 0 := by omega
      subst hp0
      rfl
    rw [hoff]
    show 0 + 0 + j.val = j.val
    omega

/-- `take` read at `(e, j)` when every index is in `[0, 9999]`: the table's row at the index, column `j`. -/
theorem tkRows_apply (nf : FVec Ideal S10000x128 .f32) (idx : IVec S320000 32)
    (h : ∀ e : Fin 320000, 0 ≤ (idx (ix1 e)).toInt ∧ (idx (ix1 e)).toInt ≤ 9999) (e : Fin 320000) (j : Fin 128) :
    tkRows nf idx (ix2 e j) = nf (ix2 (clampRow (idx (ix1 e))) j) := by
  unfold tkRows
  rw [select_apply]
  have hm : broadcastInDim S320000x128 ![0] bcast_S320000_S320000x128_0 (tkMask idx) (ix2 e j) = 1#1 := by
    refine (broadcastInDim_apply _ _ _ (ix2 e j) (ix1 e) fun a => ?_).trans (tkMask_apply idx h e)
    match a with
    | ⟨0, _⟩ => exact (if_neg (show ¬ (320000 : ℕ) = 1 by decide)).symm
  rw [hm, select_one, gather_rows_apply, tkIdx_apply idx e 0 (h e).1]

/-! ## The concatenation, the biases, the matrix products -/

/-- Column `k` of the source rows in the concatenated input. -/
abbrev c0 (k : Fin 128) : Fin 272 := ⟨k.val, Nat.lt_of_lt_of_le k.isLt (by decide)⟩
/-- Column `k` of the destination rows in the concatenated input. -/
abbrev c1 (k : Fin 128) : Fin 272 := ⟨128 + k.val, by have := k.isLt; omega⟩
/-- Column `k` of the edge features in the concatenated input. -/
abbrev c2 (k : Fin 16) : Fin 272 := ⟨256 + k.val, by have := k.isLt; omega⟩

theorem xcat_apply0 (s d : FVec Ideal S320000x128 .f32) (ef : FVec Ideal S320000x16 .f32) (e : Fin 320000) (k : Fin 128) :
    xcat s d ef (ix2 e (c0 k)) = s (ix2 e k) := by
  unfold xcat
  refine concatenate_apply_piece (t := S320000x272) (1 : Fin 2) _ _ (ix2 e (c0 k)) 0 ?hk S320000x128 s ?hxk rfl 0 ?hpre (ix2 e k) ?hi (Nat.zero_add _)
  case hk => exact (show (0 : ℕ) < 3 by decide)
  case hxk => rfl
  case hpre => rfl
  case hi =>
    intro b hb
    match b with
    | ⟨0, _⟩ => rfl
    | ⟨1, _⟩ => exact absurd rfl hb

theorem xcat_apply1 (s d : FVec Ideal S320000x128 .f32) (ef : FVec Ideal S320000x16 .f32) (e : Fin 320000) (k : Fin 128) :
    xcat s d ef (ix2 e (c1 k)) = d (ix2 e k) := by
  unfold xcat
  refine concatenate_apply_piece (t := S320000x272) (1 : Fin 2) _ _ (ix2 e (c1 k)) 1 ?hk S320000x128 d ?hxk rfl 128 ?hpre (ix2 e k) ?hi rfl
  case hk => exact (show (1 : ℕ) < 3 by decide)
  case hxk => rfl
  case hpre => rfl
  case hi =>
    intro b hb
    match b with
    | ⟨0, _⟩ => rfl
    | ⟨1, _⟩ => exact absurd rfl hb

theorem xcat_apply2 (s d : FVec Ideal S320000x128 .f32) (ef : FVec Ideal S320000x16 .f32) (e : Fin 320000) (k : Fin 16) :
    xcat s d ef (ix2 e (c2 k)) = ef (ix2 e k) := by
  unfold xcat
  refine concatenate_apply_piece (t := S320000x272) (1 : Fin 2) _ _ (ix2 e (c2 k)) 2 ?hk S320000x16 ef ?hxk rfl 256 ?hpre (ix2 e k) ?hi rfl
  case hk => exact (show (2 : ℕ) < 3 by decide)
  case hxk => rfl
  case hpre => rfl
  case hi =>
    intro b hb
    match b with
    | ⟨0, _⟩ => rfl
    | ⟨1, _⟩ => exact absurd rfl hb

theorem bias128_apply (b : FVec Ideal S128 .f32) (e : Fin 320000) (j : Fin 128) : bias128 b (ix2 e j) = b (ix1 j) := by
  unfold bias128
  refine (broadcastInDim_apply _ _ _ (ix2 e j) (ix2 (0 : Fin 1) j) fun a => ?_).trans ?_
  · match a with
    | ⟨0, _⟩ => exact (if_pos rfl).symm
    | ⟨1, _⟩ => exact (if_neg (show ¬ (128 : ℕ) = 1 by decide)).symm
  · refine broadcastInDim_apply _ _ _ (ix2 (0 : Fin 1) j) (ix1 j) fun a => ?_
    match a with
    | ⟨0, _⟩ => exact (if_neg (show ¬ (128 : ℕ) = 1 by decide)).symm

theorem row16_apply (b : FVec Ideal S16 .f32) (e : Fin 320000) (j : Fin 16) : row16 b (ix2 e j) = b (ix1 j) := by
  unfold row16
  refine (broadcastInDim_apply _ _ _ (ix2 e j) (ix2 (0 : Fin 1) j) fun a => ?_).trans ?_
  · match a with
    | ⟨0, _⟩ => exact (if_pos rfl).symm
    | ⟨1, _⟩ => exact (if_neg (show ¬ (16 : ℕ) = 1 by decide)).symm
  · refine broadcastInDim_apply _ _ _ (ix2 (0 : Fin 1) j) (ix1 j) fun a => ?_
    match a with
    | ⟨0, _⟩ => exact (if_neg (show ¬ (16 : ℕ) = 1 by decide)).symm

theorem col16_apply (v : FVec Ideal S320000x1 .f32) (e : Fin 320000) (j : Fin 16) : col16 v (ix2 e j) = v (ix2 e (0 : Fin 1)) := by
  unfold col16
  refine broadcastInDim_apply _ _ _ (ix2 e j) (ix2 e (0 : Fin 1)) fun a => ?_
  match a with
  | ⟨0, _⟩ => exact (if_neg (show ¬ (320000 : ℕ) = 1 by decide)).symm
  | ⟨1, _⟩ => exact (if_pos rfl).symm

/-- A host `dot_general` with one contracting axis read at an index: the sum over that axis's coordinate, the
    operands' indices given per coordinate. -/
theorem dot_apply_of {sl sr so : Shape} (D : DotDims sl sr so) (n : Nat) (hr : D.contr.rank = 1)
    (hs : D.contr.size ⟨0, by omega⟩ = n) (x : FVec Ideal sl .f32) (W : FVec Ideal sr .f32) (j : so.Idx)
    (L : Fin n → sl.Idx) (R : Fin n → sr.Idx)
    (hL : ∀ k, D.lhsIdx j ((contrEquiv1 D n hr hs).symm k) = L k) (hR : ∀ k, D.rhsIdx j ((contrEquiv1 D n hr hs).symm k) = R k) :
    Host.dotGeneral D none x W j = ∑ k : Fin n, x (L k) * W (R k) := by
  show FloatOps.dotGeneral D none .single x W j = _
  rw [Ideal.dotGeneral_apply, ← Equiv.sum_comp (contrEquiv1 D n hr hs).symm]
  exact Finset.sum_congr rfl fun k _ => by rw [hL k, hR k]

theorem dot1_apply (x : FVec Ideal S320000x272 .f32) (W : FVec Ideal S272x128 .f32) (e : Fin 320000) (j : Fin 128) :
    Host.dotGeneral dot_S320000x272_S272x128_S320000x128_1_0_0_1_n_n none x W (ix2 e j) = ∑ k : Fin 272, x (ix2 e k) * W (ix2 k j) := by
  refine dot_apply_of dot_S320000x272_S272x128_S320000x128_1_0_0_1_n_n 272 rfl rfl x W (ix2 e j) (fun k => ix2 e k) (fun k => ix2 k j) (fun k => ?_) (fun k => ?_)
  · funext a; refine Fin.ext ?_
    match a with
    | ⟨0, _⟩ => rfl
    | ⟨1, _⟩ => exact (DotDims.lhsIdx_val_of_single dot_S320000x272_S272x128_S320000x128_1_0_0_1_n_n (cl := 1) rfl _ _).trans (contrEquiv1_symm_val dot_S320000x272_S272x128_S320000x128_1_0_0_1_n_n 272 rfl rfl k)
  · funext a; refine Fin.ext ?_
    match a with
    | ⟨0, _⟩ => exact (DotDims.rhsIdx_val_of_single dot_S320000x272_S272x128_S320000x128_1_0_0_1_n_n (cr := 0) rfl _ _).trans (contrEquiv1_symm_val dot_S320000x272_S272x128_S320000x128_1_0_0_1_n_n 272 rfl rfl k)
    | ⟨1, _⟩ => rfl

theorem dot2_apply (x : FVec Ideal S320000x128 .f32) (W : FVec Ideal S128x128 .f32) (e : Fin 320000) (j : Fin 128) :
    Host.dotGeneral dot_S320000x128_S128x128_S320000x128_1_0_0_1_n_n none x W (ix2 e j) = ∑ k : Fin 128, x (ix2 e k) * W (ix2 k j) := by
  refine dot_apply_of dot_S320000x128_S128x128_S320000x128_1_0_0_1_n_n 128 rfl rfl x W (ix2 e j) (fun k => ix2 e k) (fun k => ix2 k j) (fun k => ?_) (fun k => ?_)
  · funext a; refine Fin.ext ?_
    match a with
    | ⟨0, _⟩ => rfl
    | ⟨1, _⟩ => exact (DotDims.lhsIdx_val_of_single dot_S320000x128_S128x128_S320000x128_1_0_0_1_n_n (cl := 1) rfl _ _).trans (contrEquiv1_symm_val dot_S320000x128_S128x128_S320000x128_1_0_0_1_n_n 128 rfl rfl k)
  · funext a; refine Fin.ext ?_
    match a with
    | ⟨0, _⟩ => exact (DotDims.rhsIdx_val_of_single dot_S320000x128_S128x128_S320000x128_1_0_0_1_n_n (cr := 0) rfl _ _).trans (contrEquiv1_symm_val dot_S320000x128_S128x128_S320000x128_1_0_0_1_n_n 128 rfl rfl k)
    | ⟨1, _⟩ => rfl

theorem dot3_apply (x : FVec Ideal S320000x128 .f32) (W : FVec Ideal S128x16 .f32) (e : Fin 320000) (j : Fin 16) :
    Host.dotGeneral dot_S320000x128_S128x16_S320000x16_1_0_0_1_n_n none x W (ix2 e j) = ∑ k : Fin 128, x (ix2 e k) * W (ix2 k j) := by
  refine dot_apply_of dot_S320000x128_S128x16_S320000x16_1_0_0_1_n_n 128 rfl rfl x W (ix2 e j) (fun k => ix2 e k) (fun k => ix2 k j) (fun k => ?_) (fun k => ?_)
  · funext a; refine Fin.ext ?_
    match a with
    | ⟨0, _⟩ => rfl
    | ⟨1, _⟩ => exact (DotDims.lhsIdx_val_of_single dot_S320000x128_S128x16_S320000x16_1_0_0_1_n_n (cl := 1) rfl _ _).trans (contrEquiv1_symm_val dot_S320000x128_S128x16_S320000x16_1_0_0_1_n_n 128 rfl rfl k)
  · funext a; refine Fin.ext ?_
    match a with
    | ⟨0, _⟩ => exact (DotDims.rhsIdx_val_of_single dot_S320000x128_S128x16_S320000x16_1_0_0_1_n_n (cr := 0) rfl _ _).trans (contrEquiv1_symm_val dot_S320000x128_S128x16_S320000x16_1_0_0_1_n_n 128 rfl rfl k)
    | ⟨1, _⟩ => rfl

/-- The mean column read at `e`: the zero plus the row's sum, divided by the literal 16. -/
theorem mean16_apply (y : FVec Ideal S320000x16 .f32) (e : Fin 320000) (u : Fin 1) :
    mean16 y (ix2 e u) = Ideal.div (0 + ∑ j : Fin 16, y (ix2 e j)) (Ideal.ofBits .f32 0x41800000#32) := by
  unfold mean16
  show Ideal.div (broadcastInDim S320000x1 ![0] bcast_S320000_S320000x1_0
      (Host.reduceAdd y (constant S_ .f32 0x00000000#32) reducesTo_S320000x16_S320000_d1 h_S_) (ix2 e u))
    (Ideal.ofBits .f32 0x41800000#32) = _
  refine congrArg (Ideal.div · (Ideal.ofBits .f32 0x41800000#32)) ?_
  refine (broadcastInDim_apply _ _ _ (ix2 e u) (ix1 e) fun a => ?_).trans ?_
  · match a with
    | ⟨0, _⟩ => exact (if_neg (show ¬ (320000 : ℕ) = 1 by decide)).symm
  · show Ideal.hostReduceAdd reducesTo_S320000x16_S320000_d1 y (Ideal.ofBits .f32 0x00000000#32) (ix1 e) = _
    rw [Ideal.hostReduceAdd_single reducesTo_S320000x16_S320000_d1 (by decide : S320000x16.Reduces [1] S320000) y _ (ix1 e),
      Ideal.ofBits_zero_f32]
    refine congrArg ((0 : EReal) + ·) (Finset.sum_congr rfl fun k _ => congrArg y (funext fun a => Fin.ext ?_))
    match a with
    | ⟨0, _⟩ => rfl
    | ⟨1, _⟩ => rfl

/-! ## The layers and the layer norm at an index -/

/-- The sum over the concatenated input's 272 columns, split by piece. -/
theorem sum272 (f : Fin 272 → EReal) :
    ∑ k, f k = ∑ k : Fin 128, f (c0 k) + ∑ k : Fin 128, f (c1 k) + ∑ k : Fin 16, f (c2 k) := by
  have h1 : ∑ k : Fin 272, f k = ∑ i : Fin 256, f (Fin.castAdd 16 i) + ∑ i : Fin 16, f (Fin.natAdd 256 i) :=
    @Fin.sum_univ_add EReal _ 256 16 f
  have h2 : ∑ i : Fin 256, f (Fin.castAdd 16 i)
      = ∑ i : Fin 128, f (Fin.castAdd 16 (Fin.castAdd 128 i)) + ∑ i : Fin 128, f (Fin.castAdd 16 (Fin.natAdd 128 i)) :=
    @Fin.sum_univ_add EReal _ 128 128 fun i => f (Fin.castAdd 16 i)
  rw [h1, h2]
  rfl

theorem relu128_apply (x : FVec Ideal S320000x128 .f32) (e : Fin 320000) (j : Fin 128) :
    relu128 x (ix2 e j) = max (x (ix2 e j)) 0 := by
  unfold relu128
  show max (x (ix2 e j)) (Ideal.ofBits .f32 0x00000000#32) = _
  rw [Ideal.ofBits_zero_f32]

theorem h1_apply (x : FVec Ideal S320000x272 .f32) (W1 : FVec Ideal S272x128 .f32) (b1 : FVec Ideal S128 .f32)
    (e : Fin 320000) (j : Fin 128) :
    h1 x W1 b1 (ix2 e j) = max ((∑ k : Fin 272, x (ix2 e k) * W1 (ix2 k j)) + b1 (ix1 j)) 0 := by
  unfold h1
  rw [relu128_apply, addf_apply, dot1_apply, bias128_apply]

theorem h2_apply (h : FVec Ideal S320000x128 .f32) (W2 : FVec Ideal S128x128 .f32) (b2 : FVec Ideal S128 .f32)
    (e : Fin 320000) (j : Fin 128) :
    h2 h W2 b2 (ix2 e j) = max ((∑ k : Fin 128, h (ix2 e k) * W2 (ix2 k j)) + b2 (ix1 j)) 0 := by
  unfold h2
  rw [relu128_apply, addf_apply, dot2_apply, bias128_apply]

theorem y3_apply (h : FVec Ideal S320000x128 .f32) (W3 : FVec Ideal S128x16 .f32) (b3 : FVec Ideal S16 .f32)
    (e : Fin 320000) (j : Fin 16) :
    y3 h W3 b3 (ix2 e j) = (∑ k : Fin 128, h (ix2 e k) * W3 (ix2 k j)) + b3 (ix1 j) := by
  unfold y3
  rw [addf_apply, dot3_apply, row16_apply]

/-- The mean of a row of sixteen values: the zero plus their sum, divided by the literal 16. -/
def muOf (Y : Fin 16 → EReal) : EReal := Ideal.div (0 + ∑ j : Fin 16, Y j) (Ideal.ofBits .f32 0x41800000#32)

/-- The variance of a row: the mean of the squared differences from the mean. -/
def varOf (Y : Fin 16 → EReal) : EReal :=
  Ideal.div (0 + ∑ j : Fin 16, (Y j - muOf Y) * (Y j - muOf Y)) (Ideal.ofBits .f32 0x41800000#32)

/-- The layer norm of a row at column `j`, with that column's scale and shift. -/
def lnOf (Y : Fin 16 → EReal) (g b : EReal) (j : Fin 16) : EReal :=
  Ideal.div (Y j - muOf Y) (Ideal.sqrt (varOf Y + Ideal.ofBits .f32 0x3727C5AC#32)) * g + b

theorem centred_apply (y : FVec Ideal S320000x16 .f32) (e : Fin 320000) (j : Fin 16) :
    centred y (ix2 e j) = y (ix2 e j) - muOf fun j' => y (ix2 e j') := by
  unfold centred
  rw [subf_apply, col16_apply, mean16_apply]
  rfl

theorem var16_apply (y : FVec Ideal S320000x16 .f32) (e : Fin 320000) (u : Fin 1) :
    var16 y (ix2 e u) = varOf fun j' => y (ix2 e j') := by
  unfold var16
  rw [mean16_apply]
  unfold varOf
  refine congrArg (fun s => Ideal.div ((0 : EReal) + s) (Ideal.ofBits .f32 0x41800000#32)) (Finset.sum_congr rfl fun j _ => ?_)
  rw [mulf_apply, centred_apply]

theorem layerNorm_apply (y : FVec Ideal S320000x16 .f32) (g b : FVec Ideal S16 .f32) (e : Fin 320000) (j : Fin 16) :
    layerNorm y g b (ix2 e j) = lnOf (fun j' => y (ix2 e j')) (g (ix1 j)) (b (ix1 j)) j := by
  unfold layerNorm
  rw [addf_apply, mulf_apply, row16_apply, row16_apply]
  show Ideal.div (centred y (ix2 e j)) (col16 (sd16 y) (ix2 e j)) * g (ix1 j) + b (ix1 j) = _
  rw [col16_apply, centred_apply]
  show Ideal.div _ (Ideal.sqrt (var16 y (ix2 e (0 : Fin 1)) + Ideal.ofBits .f32 0x3727C5AC#32)) * _ + _ = _
  rw [var16_apply]
  rfl

/-! ## The result at an index -/

section Pointwise

variable (ef : FVec Ideal S320000x16 .f32) (nf : FVec Ideal S10000x128 .f32) (ei : IVec S2x320000 32)
  (W1 : FVec Ideal S272x128 .f32) (b1 : FVec Ideal S128 .f32) (W2 : FVec Ideal S128x128 .f32) (b2 : FVec Ideal S128 .f32)
  (W3 : FVec Ideal S128x16 .f32) (b3 : FVec Ideal S16 .f32) (gamma beta : FVec Ideal S16 .f32)

/-- The table row edge `e` reads on side `r` (0: source, 1: destination). -/
def node (r : Fin 2) (e : Fin 320000) : Fin 10000 := clampRow (ei (ix2 r e))

/-- With the index in range, that row is the index word read unsigned. -/
theorem node_val (hidx : ∀ i : S2x320000.Idx, 0 ≤ (ei i).toInt ∧ (ei i).toInt ≤ 9999) (r : Fin 2) (e : Fin 320000) :
    (node ei r e).val = (ei (ix2 r e)).toNat :=
  clampRow_val (hidx _).1 (hidx _).2

/-- The first layer before its relu: the three pieces' products with their rows of `W1`, and the bias. -/
def z1At (e : Fin 320000) (j : Fin 128) : EReal :=
  (∑ k : Fin 128, nf (ix2 (node ei 0 e) k) * W1 (ix2 (c0 k) j)) + (∑ k : Fin 128, nf (ix2 (node ei 1 e) k) * W1 (ix2 (c1 k) j))
    + (∑ k : Fin 16, ef (ix2 e k) * W1 (ix2 (c2 k) j)) + b1 (ix1 j)

/-- The first hidden layer. -/
def h1At (e : Fin 320000) (j : Fin 128) : EReal := max (z1At ef nf ei W1 b1 e j) 0

/-- The second hidden layer. -/
def h2At (e : Fin 320000) (j : Fin 128) : EReal :=
  max ((∑ k : Fin 128, h1At ef nf ei W1 b1 e k * W2 (ix2 k j)) + b2 (ix1 j)) 0

/-- The layer norm's input. -/
def yAt (e : Fin 320000) (j : Fin 16) : EReal :=
  (∑ k : Fin 128, h2At ef nf ei W1 b1 W2 b2 e k * W3 (ix2 k j)) + b3 (ix1 j)

/-- The reference's result at `(e, j)`. -/
def outAt (e : Fin 320000) (j : Fin 16) : EReal :=
  ef (ix2 e j) + lnOf (yAt ef nf ei W1 b1 W2 b2 W3 b3 e) (gamma (ix1 j)) (beta (ix1 j)) j

variable (hidx : ∀ i : S2x320000.Idx, 0 ≤ (ei i).toInt ∧ (ei i).toInt ≤ 9999)
include hidx

theorem h1_eq (e : Fin 320000) (j : Fin 128) :
    h1 (xcat (tkRows nf (row0 ei)) (tkRows nf (row1 ei)) ef) W1 b1 (ix2 e j) = h1At ef nf ei W1 b1 e j := by
  have hr0 : ∀ e : Fin 320000, 0 ≤ (row0 ei (ix1 e)).toInt ∧ (row0 ei (ix1 e)).toInt ≤ 9999 := fun e => by
    rw [row0_apply]; exact hidx _
  have hr1 : ∀ e : Fin 320000, 0 ≤ (row1 ei (ix1 e)).toInt ∧ (row1 ei (ix1 e)).toInt ≤ 9999 := fun e => by
    rw [row1_apply]; exact hidx _
  rw [h1_apply, sum272]
  unfold h1At z1At node
  refine congrArg (fun s => max (s + b1 (ix1 j)) 0) ?_
  refine congrArg₂ (· + ·) (congrArg₂ (· + ·) ?_ ?_) ?_
  · exact Finset.sum_congr rfl fun k _ => by rw [xcat_apply0, tkRows_apply nf (row0 ei) hr0, row0_apply]
  · exact Finset.sum_congr rfl fun k _ => by rw [xcat_apply1, tkRows_apply nf (row1 ei) hr1, row1_apply]
  · exact Finset.sum_congr rfl fun k _ => by rw [xcat_apply2]

/-- THE REFERENCE'S RESULT READ AT `(e, j)`, every index in `[0, 9999]`. -/
theorem refTerm_apply (e : Fin 320000) (j : Fin 16) :
    refTerm ef nf ei W1 b1 W2 b2 W3 b3 gamma beta (ix2 e j) = outAt ef nf ei W1 b1 W2 b2 W3 b3 gamma beta e j := by
  unfold refTerm outAt
  rw [addf_apply, layerNorm_apply]
  refine congrArg (fun Y => ef (ix2 e j) + lnOf Y (gamma (ix1 j)) (beta (ix1 j)) j) (funext fun j' => ?_)
  rw [y3_apply]
  unfold yAt
  refine congrArg (· + b3 (ix1 j')) (Finset.sum_congr rfl fun k _ => congrArg (· * W3 (ix2 k j')) ?_)
  rw [h2_apply]
  unfold h2At
  refine congrArg (fun s => max (s + b2 (ix1 k)) 0) (Finset.sum_congr rfl fun k' _ => congrArg (· * W2 (ix2 k' k)) ?_)
  exact h1_eq ef nf ei W1 b1 hidx e k'

end Pointwise

end Cert.ReferenceIdeal.RefValue

end
-- ==== Proof.PreFacts.lean ====
/-
  What the precondition says of the inputs (untrusted), read back from the printed predicate `input_domain`: the
  predicate is a conjunction of `jnp.all`s, one per argument; from "it is all ones" follow, for any float instance, that
  every entry of the index array lies in `[0, 9999]`, and, at the ideal instance, that every entry of every float
  argument is a real number.
-/
import proofs.«210884_g88510686036700_cont_sun_m_1211_45_alg».proof.Pre_input_domain
import proofs.«210884_g88510686036700_cont_sun_m_1211_45_alg».proof.Proof.Gen.Pre_input_domain
import Idealize.ShloMosaic.Lib.ReduceAll
import Idealize.ShloMosaic.Lib.ValueIdx
import Idealize.ShloMosaic.PureOps.Ideal.Laws

noncomputable section

namespace Cert.Pre_input_domain.PreFacts

open Cert.Pre_input_domain Cert.Pre_input_domain.Gen Idealize.ShloMosaic Idealize.ShloMosaic.ValueIdx

/-- The scalar shape has one index. -/
instance : Subsingleton S_.Idx := ⟨fun _ _ => funext fun d => d.elim0⟩

section AnyInstance

variable {F : FTy → Type} [FloatOps F]
variable (a0 : FVec F S320000x16 .f32) (a1 : FVec F S10000x128 .f32) (a2 : IVec S2x320000 32) (a3 : FVec F S272x128 .f32)
  (a4 : FVec F S128 .f32) (a5 : FVec F S128x128 .f32) (a6 : FVec F S128 .f32) (a7 : FVec F S128x16 .f32)
  (a8 : FVec F S16 .f32) (a9 : FVec F S16 .f32) (a10 : FVec F S16 .f32)

/-- The last conjunct of the predicate, at any float instance: every entry of the index array, read signed, lies in
    `[0, 9999]`. -/
theorem idx_range (h : fn (F := F) a0 a1 a2 a3 a4 a5 a6 a7 a8 a9 a10 = fun _ => 1#1) (i : S2x320000.Idx) :
    0 ≤ (a2 i).toInt ∧ (a2 i).toInt ≤ 9999 := by
  have h0 := congrFun h ix0
  obtain ⟨-, h2⟩ := IntOp.andi_eq_one.1
    (show IntOp.andi _ (Host.reduce IntOp.andi
        (andi (cmpi .sge a2 (broadcastInDim S2x320000 ![] bcast_S_S2x320000 (constantI S_ 32 0#32)))
          (cmpi .sle a2 (broadcastInDim S2x320000 ![] bcast_S_S2x320000 (constantI S_ 32 9999#32))))
        (constantI S_ 1 1#1) reducesTo_S2x320000_S_d0_1 h_S_ ix0) = 1#1 from h0)
  have h3 := Host.reduce_andi_all _ _ _ _ _ h2 i
  obtain ⟨hge, hle⟩ := IntOp.andi_eq_one.1
    (show IntOp.andi (IntOp.cmpi .sge (a2 i) 0#32) (IntOp.cmpi .sle (a2 i) 9999#32) = 1#1 from h3)
  have hge' := IntOp.cmpi_sge.1 hge
  have hle' := IntOp.cmpi_sle.1 hle
  have z0 : (0#32 : BitVec 32).toInt = 0 := by decide
  have z9 : (9999#32 : BitVec 32).toInt = 9999 := by decide
  rw [z0] at hge'; rw [z9] at hle'
  exact ⟨hge', hle'⟩

/-- So every entry, read unsigned, is a row of the node table. -/
theorem idx_toNat_lt (h : fn (F := F) a0 a1 a2 a3 a4 a5 a6 a7 a8 a9 a10 = fun _ => 1#1) (i : S2x320000.Idx) :
    (a2 i).toNat < 10000 := by
  obtain ⟨h0, h1⟩ := idx_range a0 a1 a2 a3 a4 a5 a6 a7 a8 a9 a10 h i
  have hlt : 2 * (a2 i).toNat < 2 ^ 32 := BitVec.toInt_pos_iff.1 h0
  rw [BitVec.toInt_eq_toNat_of_lt hlt] at h1
  omega

end AnyInstance

section AtIdeal

/-- `jnp.all(|x| < inf)` as the predicate prints it: the reduce by `and`, from 1, of the comparison of the absolute
    values with the splat of the pattern of `+∞`. -/
abbrev allFin {F : FTy → Type} [FloatOps F] {s : Shape} {axes : List (Fin s.rank)} (x : FVec F s .f32)
    (hb : S_.BroadcastsInDim s (![] : Fin 0 → Fin s.rank)) (hr : s.ReducesTo axes S_) : IVec S_ 1 :=
  Host.reduce IntOp.andi (cmpf .olt (Host.absf x) (broadcastInDim s ![] hb (constant S_ .f32 0x7F800000#32)))
    (constantI S_ 1 1#1) hr h_S_

/-- The f32 pattern of `+∞` denotes `⊤`. -/
theorem ofBits_inf : Ideal.ofBits .f32 0x7F800000#32 = (⊤ : EReal) := by simp [Ideal.ofBits, Ideal.ieee]

/-- An extended real whose absolute value compares below `+∞` is neither infinity. -/
theorem real_of_abs_lt (x : EReal) (h : Ideal.cmp .olt (max x (-x)) (Ideal.ofBits .f32 0x7F800000#32) = 1#1) :
    x ≠ ⊤ ∧ x ≠ ⊥ := by
  have h' : BitVec.ofBool (decide (max x (-x) < Ideal.ofBits .f32 0x7F800000#32)) = 1#1 := h
  have hlt : max x (-x) < Ideal.ofBits .f32 0x7F800000#32 := by
    by_contra hn
    rw [decide_eq_false hn] at h'
    exact absurd h' (by decide)
  rw [ofBits_inf] at hlt
  obtain ⟨h1, h2⟩ := max_lt_iff.1 hlt
  refine ⟨ne_of_lt h1, fun e => ?_⟩
  rw [e, EReal.neg_bot] at h2
  exact lt_irrefl _ h2

/-- So when such a `jnp.all` is 1 every entry of the array is a real number. -/
theorem all_real {s : Shape} {axes : List (Fin s.rank)} (x : FVec Ideal s .f32)
    (hb : S_.BroadcastsInDim s (![] : Fin 0 → Fin s.rank)) (hr : s.ReducesTo axes S_)
    (h : allFin x hb hr ix0 = 1#1) (i : s.Idx) : x i ≠ ⊤ ∧ x i ≠ ⊥ :=
  real_of_abs_lt (x i) (Host.reduce_andi_all _ _ _ _ _ h i)

variable (a0 : FVec Ideal S320000x16 .f32) (a1 : FVec Ideal S10000x128 .f32) (a2 : IVec S2x320000 32) (a3 : FVec Ideal S272x128 .f32)
  (a4 : FVec Ideal S128 .f32) (a5 : FVec Ideal S128x128 .f32) (a6 : FVec Ideal S128 .f32) (a7 : FVec Ideal S128x16 .f32)
  (a8 : FVec Ideal S16 .f32) (a9 : FVec Ideal S16 .f32) (a10 : FVec Ideal S16 .f32)

/-- The first ten conjuncts of the predicate at the ideal instance: every entry of every float argument is a real
    number (in the order of the arguments: 0, 1, 3, 4, …, 10). -/
theorem finite_args (h : fn (F := Ideal) a0 a1 a2 a3 a4 a5 a6 a7 a8 a9 a10 = fun _ => 1#1) :
    (∀ i, a0 i ≠ ⊤ ∧ a0 i ≠ ⊥) ∧ (∀ i, a1 i ≠ ⊤ ∧ a1 i ≠ ⊥) ∧ (∀ i, a3 i ≠ ⊤ ∧ a3 i ≠ ⊥) ∧ (∀ i, a4 i ≠ ⊤ ∧ a4 i ≠ ⊥)
      ∧ (∀ i, a5 i ≠ ⊤ ∧ a5 i ≠ ⊥) ∧ (∀ i, a6 i ≠ ⊤ ∧ a6 i ≠ ⊥) ∧ (∀ i, a7 i ≠ ⊤ ∧ a7 i ≠ ⊥) ∧ (∀ i, a8 i ≠ ⊤ ∧ a8 i ≠ ⊥)
      ∧ (∀ i, a9 i ≠ ⊤ ∧ a9 i ≠ ⊥) ∧ (∀ i, a10 i ≠ ⊤ ∧ a10 i ≠ ⊥) := by
  have h0 := congrFun h ix0
  obtain ⟨g9, -⟩ := IntOp.andi_eq_one.1
    (show IntOp.andi (IntOp.andi (IntOp.andi (IntOp.andi (IntOp.andi (IntOp.andi (IntOp.andi (IntOp.andi (IntOp.andi (IntOp.andi (allFin a0 bcast_S_S320000x16 reducesTo_S320000x16_S_d0_1 ix0)
      (allFin a1 bcast_S_S10000x128 reducesTo_S10000x128_S_d0_1 ix0))
      (allFin a3 bcast_S_S272x128 reducesTo_S272x128_S_d0_1 ix0))
      (allFin a4 bcast_S_S128 reducesTo_S128_S_d0 ix0))
      (allFin a5 bcast_S_S128x128 reducesTo_S128x128_S_d0_1 ix0))
      (allFin a6 bcast_S_S128 reducesTo_S128_S_d0 ix0))
      (allFin a7 bcast_S_S128x16 reducesTo_S128x16_S_d0_1 ix0))
      (allFin a8 bcast_S_S16 reducesTo_S16_S_d0 ix0))
      (allFin a9 bcast_S_S16 reducesTo_S16_S_d0 ix0))
      (allFin a10 bcast_S_S16 reducesTo_S16_S_d0 ix0)) _ = 1#1 from h0)
  obtain ⟨g8, r10⟩ := IntOp.andi_eq_one.1 g9
  obtain ⟨g7, r9⟩ := IntOp.andi_eq_one.1 g8
  obtain ⟨g6, r8⟩ := IntOp.andi_eq_one.1 g7
  obtain ⟨g5, r7⟩ := IntOp.andi_eq_one.1 g6
  obtain ⟨g4, r6⟩ := IntOp.andi_eq_one.1 g5
  obtain ⟨g3, r5⟩ := IntOp.andi_eq_one.1 g4
  obtain ⟨g2, r4⟩ := IntOp.andi_eq_one.1 g3
  obtain ⟨g1, r3⟩ := IntOp.andi_eq_one.1 g2
  obtain ⟨r0, r1⟩ := IntOp.andi_eq_one.1 g1
  exact ⟨all_real a0 _ _ r0, all_real a1 _ _ r1, all_real a3 _ _ r3, all_real a4 _ _ r4, all_real a5 _ _ r5,
    all_real a6 _ _ r6, all_real a7 _ _ r7, all_real a8 _ _ r8, all_real a9 _ _ r9, all_real a10 _ _ r10⟩

end AtIdeal

end Cert.Pre_input_domain.PreFacts

end
-- ==== Proof.RefPoint.lean ====
/-
  The reference's run at the ideal instance, read point by point under the precondition (untrusted): the run of
  Proof/RefRun.lean, its result read at `(e, j)` by Proof/RefValue.lean with the index range the precondition gives
  (Proof/PreFacts.lean).
-/
import proofs.«210884_g88510686036700_cont_sun_m_1211_45_alg».proof.Defs
import proofs.«210884_g88510686036700_cont_sun_m_1211_45_alg».proof.Proof.Gen.ReferenceIdeal
import proofs.«210884_g88510686036700_cont_sun_m_1211_45_alg».proof.Proof.Gen.Pre_input_domain
import proofs.«210884_g88510686036700_cont_sun_m_1211_45_alg».proof.Proof.RefRun
import proofs.«210884_g88510686036700_cont_sun_m_1211_45_alg».proof.Proof.RefValue
import proofs.«210884_g88510686036700_cont_sun_m_1211_45_alg».proof.Proof.PreFacts

noncomputable section

namespace Cert.Proof.RefClaims

open Idealize.ShloMosaic Idealize.ShloMosaic.ValueIdx Idealize.SL.Sem Cert.ReferenceIdeal

/-- Under the precondition every entry of the reference's index array lies in `[0, 9999]`. -/
theorem ref_idx_range (m : (ℓ : Loc nD τ sig) → Buf (Elt Ideal) ℓ) (hpre : Cert.Pre_ReferenceIdeal m) (c : Dev nD)
    (i : S2x320000.Idx) :
    0 ≤ ((m ((c.tc : Thread nD τ).loc main_arg2) : IVec S2x320000 32) i).toInt
      ∧ ((m ((c.tc : Thread nD τ).loc main_arg2) : IVec S2x320000 32) i).toInt ≤ 9999 :=
  Cert.Pre_input_domain.PreFacts.idx_range (F := Ideal) _ _ _ _ _ _ _ _ _ _ _ (hpre c) i

/-- Under the precondition the reference runs, its result at `(e, j)` is `RefValue.outAt` of the arguments' launch
    contents, and the arguments are unchanged. -/
theorem ref_run_at (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ fun r => ∀ c : Dev nD,
      (∀ (e : Fin 320000) (j : Fin 16),
        (r.2.mem ((c.tc : Thread nD τ).loc main_v45) : FVec Ideal S320000x16 .f32) (ix2 e j)
          = RefValue.outAt (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
              (m ((c.tc : Thread nD τ).loc main_arg8)) (m ((c.tc : Thread nD τ).loc main_arg9))
              (m ((c.tc : Thread nD τ).loc main_arg10)) e j)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun _ h c => ⟨fun e j => by
      rw [(h c).1]
      exact RefValue.refTerm_apply _ _ _ _ _ _ _ _ _ _ _ (ref_idx_range m hpre c) e j, (h c).2⟩)
    (RefRun.run (F := Ideal) m ρ)

end Cert.Proof.RefClaims

end
-- ==== Proof.Claims.lean ====
/-
  The certificate's claims about the kernel's two programs and the value claim, assembled (untrusted) from the
  program's run (Proof/ScFinal.lean and its copy over the bit-exact program), the reference's run read point by point
  (Proof/RefPoint.lean), and three facts taken here as hypotheses: the task's statement, the index rows' range from the
  precondition, and the value the last region leaves in the result array.
-/
import proofs.«210884_g88510686036700_cont_sun_m_1211_45_alg».proof.Defs
import proofs.«210884_g88510686036700_cont_sun_m_1211_45_alg».proof.Proof.ScFinal
import proofs.«210884_g88510686036700_cont_sun_m_1211_45_alg».proof.Proof.ScFinalB
import proofs.«210884_g88510686036700_cont_sun_m_1211_45_alg».proof.Proof.RefPoint

noncomputable section

namespace Cert.Proof.Claims

open Idealize.ShloMosaic Idealize.ShloMosaic.ValueIdx Idealize.SL.Sem

/-- The idealized kernel's frame: it runs to the end, faults nowhere, and leaves its argument arrays unchanged. -/
theorem frame_pi
    (hT : ∀ cu cv csrc cdst, Cert.Proof.KI.TileStmtV (F := Ideal) cu cv csrc cdst)
    (hI : ∀ (m : (ℓ : Loc Cert.KernelIdeal.nD Cert.KernelIdeal.τ Cert.KernelIdeal.sig) → Buf (Elt Ideal) ℓ),
      (∀ c : Dev Cert.KernelIdeal.nD, Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = fun _ => 1#1) →
      Cert.Proof.KI.IdxOK (Cert.Proof.KI.csrcOf m) (Cert.Proof.KI.cdstOf m)) :
    Cert.frame_KernelIdeal := fun m g hpre =>
  (θ_run (Cert.KernelIdeal.defs (F := Ideal)) _ _).mono
    (fun _ h c => ⟨Cert.Proof.KI.args_of_fqV m (h c) (Proc.devRef .tc (Cert.KernelIdeal.main_arg0 : Ref Cert.KernelIdeal.sig .tc)) (by decide),
      Cert.Proof.KI.args_of_fqV m (h c) (Proc.devRef .tc (Cert.KernelIdeal.main_arg1 : Ref Cert.KernelIdeal.sig .tc)) (by decide),
      Cert.Proof.KI.args_of_fqV m (h c) (Proc.devRef .tc (Cert.KernelIdeal.main_arg2 : Ref Cert.KernelIdeal.sig .tc)) (by decide),
      Cert.Proof.KI.args_of_fqV m (h c) (Proc.devRef .tc (Cert.KernelIdeal.main_arg3 : Ref Cert.KernelIdeal.sig .tc)) (by decide),
      Cert.Proof.KI.args_of_fqV m (h c) (Proc.devRef .tc (Cert.KernelIdeal.main_arg4 : Ref Cert.KernelIdeal.sig .tc)) (by decide),
      Cert.Proof.KI.args_of_fqV m (h c) (Proc.devRef .tc (Cert.KernelIdeal.main_arg5 : Ref Cert.KernelIdeal.sig .tc)) (by decide),
      Cert.Proof.KI.args_of_fqV m (h c) (Proc.devRef .tc (Cert.KernelIdeal.main_arg6 : Ref Cert.KernelIdeal.sig .tc)) (by decide),
      Cert.Proof.KI.args_of_fqV m (h c) (Proc.devRef .tc (Cert.KernelIdeal.main_arg7 : Ref Cert.KernelIdeal.sig .tc)) (by decide),
      Cert.Proof.KI.args_of_fqV m (h c) (Proc.devRef .tc (Cert.KernelIdeal.main_arg8 : Ref Cert.KernelIdeal.sig .tc)) (by decide),
      Cert.Proof.KI.args_of_fqV m (h c) (Proc.devRef .tc (Cert.KernelIdeal.main_arg9 : Ref Cert.KernelIdeal.sig .tc)) (by decide),
      Cert.Proof.KI.args_of_fqV m (h c) (Proc.devRef .tc (Cert.KernelIdeal.main_arg10 : Ref Cert.KernelIdeal.sig .tc)) (by decide)⟩)
    (Cert.Proof.KI.run_mainV (F := Ideal) m g (hT _ _ _ _) (hI m hpre))

/-- The bit-exact kernel's frame, over the copies of the same modules. -/
theorem frame_p
    (hT : ∀ cu cv csrc cdst, Cert.Proof.KB.TileStmtV (F := Bits) cu cv csrc cdst)
    (hI : ∀ (m : (ℓ : Loc Cert.Kernel.nD Cert.Kernel.τ Cert.Kernel.sig) → Buf (Elt Bits) ℓ),
      (∀ c : Dev Cert.Kernel.nD, Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) = fun _ => 1#1) →
      Cert.Proof.KB.IdxOK (Cert.Proof.KB.csrcOf m) (Cert.Proof.KB.cdstOf m)) :
    Cert.frame_Kernel := fun m g hpre =>
  (θ_run (Cert.Kernel.defs (F := Bits)) _ _).mono
    (fun _ h c => ⟨Cert.Proof.KB.args_of_fqV m (h c) (Proc.devRef .tc (Cert.Kernel.main_arg0 : Ref Cert.Kernel.sig .tc)) (by decide),
      Cert.Proof.KB.args_of_fqV m (h c) (Proc.devRef .tc (Cert.Kernel.main_arg1 : Ref Cert.Kernel.sig .tc)) (by decide),
      Cert.Proof.KB.args_of_fqV m (h c) (Proc.devRef .tc (Cert.Kernel.main_arg2 : Ref Cert.Kernel.sig .tc)) (by decide),
      Cert.Proof.KB.args_of_fqV m (h c) (Proc.devRef .tc (Cert.Kernel.main_arg3 : Ref Cert.Kernel.sig .tc)) (by decide),
      Cert.Proof.KB.args_of_fqV m (h c) (Proc.devRef .tc (Cert.Kernel.main_arg4 : Ref Cert.Kernel.sig .tc)) (by decide),
      Cert.Proof.KB.args_of_fqV m (h c) (Proc.devRef .tc (Cert.Kernel.main_arg5 : Ref Cert.Kernel.sig .tc)) (by decide),
      Cert.Proof.KB.args_of_fqV m (h c) (Proc.devRef .tc (Cert.Kernel.main_arg6 : Ref Cert.Kernel.sig .tc)) (by decide),
      Cert.Proof.KB.args_of_fqV m (h c) (Proc.devRef .tc (Cert.Kernel.main_arg7 : Ref Cert.Kernel.sig .tc)) (by decide),
      Cert.Proof.KB.args_of_fqV m (h c) (Proc.devRef .tc (Cert.Kernel.main_arg8 : Ref Cert.Kernel.sig .tc)) (by decide),
      Cert.Proof.KB.args_of_fqV m (h c) (Proc.devRef .tc (Cert.Kernel.main_arg9 : Ref Cert.Kernel.sig .tc)) (by decide),
      Cert.Proof.KB.args_of_fqV m (h c) (Proc.devRef .tc (Cert.Kernel.main_arg10 : Ref Cert.Kernel.sig .tc)) (by decide)⟩)
    (Cert.Proof.KB.run_mainV (F := Bits) m g (hT _ _ _ _) (hI m hpre))

/-- The value claim: from memories agreeing on the arguments both programs run, leave their arguments unchanged, and
    end with equal results: on each device the array whose entry `(e, j)` is the reference's `outAt` of the arguments. -/
theorem algebraic
    (hT : ∀ cu cv csrc cdst, Cert.Proof.KI.TileStmtV (F := Ideal) cu cv csrc cdst)
    (hI : ∀ (m : (ℓ : Loc Cert.KernelIdeal.nD Cert.KernelIdeal.τ Cert.KernelIdeal.sig) → Buf (Elt Ideal) ℓ),
      (∀ c : Dev Cert.KernelIdeal.nD, Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = fun _ => 1#1) →
      Cert.Proof.KI.IdxOK (Cert.Proof.KI.csrcOf m) (Cert.Proof.KI.cdstOf m))
    (hV : ∀ (m : (ℓ : Loc Cert.KernelIdeal.nD Cert.KernelIdeal.τ Cert.KernelIdeal.sig) → Buf (Elt Ideal) ℓ),
      (∀ c : Dev Cert.KernelIdeal.nD, Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) = fun _ => 1#1) →
      ∀ (c : Dev Cert.KernelIdeal.nD) (fs : Cert.Proof.KI.s'.ty.Contents (Elt Ideal)) (ft : Cert.Proof.KI.t'.ty.Contents (Elt Ideal)),
        (∀ e, Cert.Proof.KI.GathS (Cert.Proof.KI.cuOf m) (Cert.Proof.KI.csrcOf m) c fs e) →
        (∀ e, Cert.Proof.KI.GathT (Cert.Proof.KI.cvOf m) (Cert.Proof.KI.cdstOf m) c ft e) →
        Cert.Proof.KI.VEnd (Cert.Proof.KI.XAfter m fs ft) (Cert.Proof.KI.O2 (F := Ideal)) (Cert.Proof.KI.R2 (F := Ideal)) c
            (Proc.devRef .tc (Cert.KernelIdeal.main_v19 : Ref Cert.KernelIdeal.sig .tc))
          = fun ix : Cert.ReferenceIdeal.S320000x16.Idx =>
              Cert.ReferenceIdeal.RefValue.outAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (ix 0) (ix 1)) :
    Cert.algebraic_KernelIdeal_ReferenceIdeal := by
  intro m g m' g' hpre hagree
  have hpre' : Cert.Pre_ReferenceIdeal m' := fun c => by
    obtain ⟨h0, h1, h2, h3, h4, h5, h6, h7, h8, h9, h10⟩ := hagree c
    rw [h0, h1, h2, h3, h4, h5, h6, h7, h8, h9, h10]
    exact hpre c
  refine ⟨fun c => fun ix : Cert.ReferenceIdeal.S320000x16.Idx =>
      Cert.ReferenceIdeal.RefValue.outAt (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (ix 0) (ix 1), ?_, ?_⟩
  · refine (θ_run (Cert.KernelIdeal.defs (F := Ideal)) _ _).mono (fun _ h c => ?_)
      (Cert.Proof.KI.run_mainV (F := Ideal) m g (hT _ _ _ _) (hI m hpre))
    obtain ⟨fs, ft, hfs, hft, hS⟩ := h c
    exact ⟨(hS (Proc.devRef .tc (Cert.KernelIdeal.main_v19 : Ref Cert.KernelIdeal.sig .tc)) (by decide)).trans (hV m hpre c fs ft hfs hft),
      Cert.Proof.KI.args_of_fqV m (h c) (Proc.devRef .tc (Cert.KernelIdeal.main_arg0 : Ref Cert.KernelIdeal.sig .tc)) (by decide),
      Cert.Proof.KI.args_of_fqV m (h c) (Proc.devRef .tc (Cert.KernelIdeal.main_arg1 : Ref Cert.KernelIdeal.sig .tc)) (by decide),
      Cert.Proof.KI.args_of_fqV m (h c) (Proc.devRef .tc (Cert.KernelIdeal.main_arg2 : Ref Cert.KernelIdeal.sig .tc)) (by decide),
      Cert.Proof.KI.args_of_fqV m (h c) (Proc.devRef .tc (Cert.KernelIdeal.main_arg3 : Ref Cert.KernelIdeal.sig .tc)) (by decide),
      Cert.Proof.KI.args_of_fqV m (h c) (Proc.devRef .tc (Cert.KernelIdeal.main_arg4 : Ref Cert.KernelIdeal.sig .tc)) (by decide),
      Cert.Proof.KI.args_of_fqV m (h c) (Proc.devRef .tc (Cert.KernelIdeal.main_arg5 : Ref Cert.KernelIdeal.sig .tc)) (by decide),
      Cert.Proof.KI.args_of_fqV m (h c) (Proc.devRef .tc (Cert.KernelIdeal.main_arg6 : Ref Cert.KernelIdeal.sig .tc)) (by decide),
      Cert.Proof.KI.args_of_fqV m (h c) (Proc.devRef .tc (Cert.KernelIdeal.main_arg7 : Ref Cert.KernelIdeal.sig .tc)) (by decide),
      Cert.Proof.KI.args_of_fqV m (h c) (Proc.devRef .tc (Cert.KernelIdeal.main_arg8 : Ref Cert.KernelIdeal.sig .tc)) (by decide),
      Cert.Proof.KI.args_of_fqV m (h c) (Proc.devRef .tc (Cert.KernelIdeal.main_arg9 : Ref Cert.KernelIdeal.sig .tc)) (by decide),
      Cert.Proof.KI.args_of_fqV m (h c) (Proc.devRef .tc (Cert.KernelIdeal.main_arg10 : Ref Cert.KernelIdeal.sig .tc)) (by decide)⟩
  · refine (θ_run (Cert.ReferenceIdeal.defs (F := Ideal)) _ _).mono (fun r h c => ⟨?_, (h c).2⟩)
      (Cert.Proof.RefClaims.ref_run_at m' g' hpre')
    obtain ⟨h0, h1, h2, h3, h4, h5, h6, h7, h8, h9, h10⟩ := hagree c
    refine funext fun ix : Cert.ReferenceIdeal.S320000x16.Idx => ?_
    refine (congrArg (r.2.mem ((c.tc : Thread Cert.ReferenceIdeal.nD Cert.ReferenceIdeal.τ).loc Cert.ReferenceIdeal.main_v45)) (eq_ix2 ix)).trans (((h c).1 (ix 0) (ix 1)).trans ?_)
    rw [h0, h1, h2, h3, h4, h5, h6, h7, h8, h9, h10]

end Cert.Proof.Claims

end
-- ==== Proof.RefFrame.lean ====
/-
  The reference's frame claim (untrusted): it runs to the end, faults nowhere and leaves its argument arrays unchanged:
  the hand-written run of its @main (Proof/RefRun.lean) with the value of the result dropped. The run needs no
  precondition, so the claim's is not used.
-/
import proofs.«210884_g88510686036700_cont_sun_m_1211_45_alg».proof.Defs
import proofs.«210884_g88510686036700_cont_sun_m_1211_45_alg».proof.Proof.Gen.ReferenceIdeal
import proofs.«210884_g88510686036700_cont_sun_m_1211_45_alg».proof.Proof.Gen.Pre_input_domain
import proofs.«210884_g88510686036700_cont_sun_m_1211_45_alg».proof.Proof.RefRun

noncomputable section

namespace Cert.Proof.RefClaims

open Idealize.ShloMosaic Idealize.SL.Sem

theorem frame_ri : Cert.frame_ReferenceIdeal := fun m ρ _ =>
  (θ_run Cert.ReferenceIdeal.defs _ _).mono (fun _ h c => (h c).2) (Cert.ReferenceIdeal.RefRun.run (F := Ideal) m ρ)

end Cert.Proof.RefClaims

end
-- ==== Proof.TcHost.lean ====
import proofs.«210884_g88510686036700_cont_sun_m_1211_45_alg».proof.Proof.TcMain
import Idealize.ShloMosaic.Lib.ValueIdx
import Idealize.ShloMosaic.Lib.ValueLayout
import Idealize.ShloMosaic.Lib.Pipeline.Value

set_option maxRecDepth 16384

noncomputable section

namespace Cert.Proof.KI

open Cert.KernelIdeal Cert.KernelIdeal.Gen Cert.KernelIdeal.TcBody
open Idealize.ShloMosaic Idealize.ShloMosaic.TcCoe Idealize.ShloMosaic.ValueIdx
open Idealize.ShloMosaic.SparseCore (S V T)
open Idealize.ShloMosaic.SparseCore.Cfg (HIx)
open Idealize.SL Idealize.SL.Sem

variable {F : FTy → Type} [FloatOps F]

/-! ## A pad that adds nothing is the identity -/

/-- Padding by nothing on either side and nothing between the elements leaves the array as it is. -/
theorem pad_id {α : Type} {s : Shape} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x := by
  funext j
  unfold pad
  have hc : ∀ a : Fin s.rank, a.cast h.1 = a := fun a => Fin.ext rfl
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hlo a, hint a, hc a]
    exact ⟨Nat.zero_le _, by simp [Nat.mod_one], by simpa using (j a).isLt⟩
  rw [dif_pos hin]
  refine congrArg x (funext fun a => Fin.ext ?_)
  show ((j (a.cast h.1)).val - lo a) / (interior a + 1) = (j a).val
  rw [hlo a, hint a, hc a]; simp

/-! ## The arrays the projection's windows read, from the launch contents -/

section Entry0
variable (m : (ℓ : Loc nD τ sig) → Buf (Elt F) ℓ)

/-- A buffer the first stretch does not write enters the projection's region at its launch contents. -/
theorem WEntry0_of_not_written (d : Dev nD) (b : Ref sig .tc) (h0 : b ∉ (ops0_W : List (Ref sig .tc))) :
    WEntry0 m d (Proc.devRef .tc b) = m (d, Proc.devRef .tc b) := by
  unfold WEntry0
  rw [StableHlo.after_of_writes_sub ops0 _ ops0_writes h0]

/-- The first weight block: rows 0 to 127 of the first layer's weights. -/
theorem WEntry0_v0 (d : Dev nD) :
    WEntry0 m d (Proc.devRef .tc main_v0)
      = ((extractStridedSlice S128x128 ![0, 0] · slices_S272x128_S128x128_0_0) : (⟨S272x128, .f32⟩ : BufTy).Contents (Elt F) → (⟨S128x128, .f32⟩ : BufTy).Contents (Elt F))
          (m (d, Proc.devRef .tc main_arg3)) := by
  unfold WEntry0
  after_results
  try rfl

/-- The second weight block: rows 128 to 255. -/
theorem WEntry0_v1 (d : Dev nD) :
    WEntry0 m d (Proc.devRef .tc main_v1)
      = ((extractStridedSlice S128x128 ![128, 0] · slices_S272x128_S128x128_128_0) : (⟨S272x128, .f32⟩ : BufTy).Contents (Elt F) → (⟨S128x128, .f32⟩ : BufTy).Contents (Elt F))
          (m (d, Proc.devRef .tc main_arg3)) := by
  unfold WEntry0
  after_results
  try rfl

/-- The third weight block: rows 256 to 271. -/
theorem WEntry0_v2 (d : Dev nD) :
    WEntry0 m d (Proc.devRef .tc main_v2)
      = ((extractStridedSlice S16x128 ![256, 0] · slices_S272x128_S16x128_256_0) : (⟨S272x128, .f32⟩ : BufTy).Contents (Elt F) → (⟨S16x128, .f32⟩ : BufTy).Contents (Elt F))
          (m (d, Proc.devRef .tc main_arg3)) := by
  unfold WEntry0
  after_results
  try rfl

/-- The first bias as a row. -/
theorem WEntry0_v3 (d : Dev nD) :
    WEntry0 m d (Proc.devRef .tc main_v3)
      = (shapeCast S1x128 · shapeCasts_S128_S1x128 : (⟨S128, .f32⟩ : BufTy).Contents (Elt F) → (⟨S1x128, .f32⟩ : BufTy).Contents (Elt F))
          (m (d, Proc.devRef .tc main_arg4)) := by
  unfold WEntry0
  after_results
  try rfl

end Entry0

/-! ## Reading a buffer's contents as an array of a stated shape and element type -/

/-- The identity, fixing the type: a valuation read at a reference has a type that mentions the reference's table entry. -/
abbrev asArr (S : Shape) (e : EltTy) (x : S.Idx → Elt F e) : S.Idx → Elt F e := x

section Entry0Idx
variable (m : (ℓ : Loc nD τ sig) → Buf (Elt F) ℓ)

/-- The first weight block at `(k, q)` is the first layer's weights at row `k`. -/
theorem WEntry0_v0_apply (d : Dev nD) (k q : Fin 128) :
    asArr (F := F) S128x128 .f32 (WEntry0 m d (Proc.devRef .tc main_v0)) (ix2 k q)
      = asArr (F := F) S272x128 .f32 (m (d, Proc.devRef .tc main_arg3)) (ix2 (⟨k.val, by omega⟩ : Fin 272) q) := by
  rw [WEntry0_v0]
  exact slice2_axis0_apply 0 _ _ k q ⟨k.val, by omega⟩ (by simp)

/-- The second weight block at `(k, q)` is the first layer's weights at row `128 + k`. -/
theorem WEntry0_v1_apply (d : Dev nD) (k q : Fin 128) :
    asArr (F := F) S128x128 .f32 (WEntry0 m d (Proc.devRef .tc main_v1)) (ix2 k q)
      = asArr (F := F) S272x128 .f32 (m (d, Proc.devRef .tc main_arg3)) (ix2 (⟨128 + k.val, by omega⟩ : Fin 272) q) := by
  rw [WEntry0_v1]
  exact slice2_axis0_apply 128 _ _ k q ⟨128 + k.val, by omega⟩ rfl

/-- The third weight block at `(j, q)` is the first layer's weights at row `256 + j`. -/
theorem WEntry0_v2_apply (d : Dev nD) (j : Fin 16) (q : Fin 128) :
    asArr (F := F) S16x128 .f32 (WEntry0 m d (Proc.devRef .tc main_v2)) (ix2 j q)
      = asArr (F := F) S272x128 .f32 (m (d, Proc.devRef .tc main_arg3)) (ix2 (⟨256 + j.val, by omega⟩ : Fin 272) q) := by
  rw [WEntry0_v2]
  exact slice2_axis0_apply 256 _ _ j q ⟨256 + j.val, by omega⟩ rfl

/-- The first bias row at `(0, q)` is the bias at `q`. -/
theorem WEntry0_v3_apply (d : Dev nD) (u : Fin 1) (q : Fin 128) :
    asArr (F := F) S1x128 .f32 (WEntry0 m d (Proc.devRef .tc main_v3)) (ix2 u q)
      = asArr (F := F) S128 .f32 (m (d, Proc.devRef .tc main_arg4)) (ix1 q) := by
  rw [WEntry0_v3]
  exact shapeCast_a_1a_apply _ _ u q

end Entry0Idx

/-! ## What the SparseCore call finds: the index rows, the edge features, the third weight block -/

section AtCall
variable (m : (ℓ : Loc nD τ sig) → Buf (Elt F) ℓ) (O0 : Dev nD → CellTallies nD τ sig (HIx 1)) (R0 : Dev nD → Set (SemLoc sig × HIx 1))

/-- A buffer the first stretch does not write and that is no result array leaves the projection's region at its launch contents. -/
theorem WExit0_of_not_written (d : Dev nD) (b : Ref sig .tc) (h0 : b ∉ (ops0_W : List (Ref sig .tc)))
    (h4 : b ≠ main_v4_0) (h5 : b ≠ main_v4_1) : WExit0 m O0 R0 d (Proc.devRef .tc b) = m (d, Proc.devRef .tc b) := by
  rw [WExit0_tc, VAfter0_of_not_out _ _ _ _ _ _ d b h4 h5]
  exact WEntry0_of_not_written m d b h0

/-- A buffer the second stretch does not write and that is no result array reaches the SparseCore call as the projection's region found it. -/
theorem VCall_eq_entry0 (d : Dev nD) (b : Ref sig .tc) (h1 : b ∉ (ops1_W : List (Ref sig .tc))) (h4 : b ≠ main_v4_0) (h5 : b ≠ main_v4_1) :
    VCall m O0 R0 d (Proc.devRef .tc b) = WEntry0 m d (Proc.devRef .tc b) := by
  unfold VCall
  rw [StableHlo.after_of_writes_sub ops1 _ ops1_writes h1, WExit0_tc, VAfter0_of_not_out _ _ _ _ _ _ d b h4 h5]

/-- The edge features reach the SparseCore call (and the MLP) through a pad that adds nothing. -/
theorem VCall_v11 (d : Dev nD) : VCall m O0 R0 d (Proc.devRef .tc main_v11) = m (d, Proc.devRef .tc main_arg0) := by
  unfold VCall
  after_results
  refine (show _ = pad S320000x16 ![0, 0] ![0, 0] ![0, 0] (WExit0 m O0 R0 d (Proc.devRef .tc main_arg0) : (⟨S320000x16, .f32⟩ : BufTy).Contents (Elt F))
      (sitofp .f32 (constantI S_ 32 0#32) : (⟨S_, .f32⟩ : BufTy).Contents (Elt F)) pads_S320000x16_S320000x16_000_000 h_S_ from rfl).trans ?_
  exact (pad_id (s := S320000x16) ![0, 0] ![0, 0] ![0, 0] _ _ pads_S320000x16_S320000x16_000_000 h_S_
    (fun a => by fin_cases a <;> rfl) (fun a => by fin_cases a <;> rfl)).trans
    (WExit0_of_not_written m O0 R0 d main_arg0 (by decide) (by decide) (by decide))

/-- The source-index row at the SparseCore call is row 0 of the edge-index argument. -/
theorem VCall_v12_apply (d : Dev nD) (u : Fin 1) (e : Fin 320000) :
    asArr (F := F) S1x320000 .i32 (VCall m O0 R0 d (Proc.devRef .tc main_v12)) (ix2 u e)
      = asArr (F := F) S2x320000 .i32 (m (d, Proc.devRef .tc main_arg2)) (ix2 (0 : Fin 2) e) := by
  unfold VCall
  after_results
  refine (show _ = shapeCast S1x320000 (pad S320000 ![0] ![0] ![0]
      (shapeCast S320000 (extractStridedSlice S1x320000 ![0, 0] (WExit0 m O0 R0 d (Proc.devRef .tc main_arg2) : (⟨S2x320000, .i32⟩ : BufTy).Contents (Elt F)) slices_S2x320000_S1x320000_0_0) shapeCasts_S1x320000_S320000)
      (constantI S_ 32 0#32 : (⟨S_, .i32⟩ : BufTy).Contents (Elt F)) pads_S320000_S320000_000 h_S_) shapeCasts_S320000_S1x320000 (ix2 u e) from rfl).trans ?_
  have hp := pad_id (s := S320000) ![0] ![0] ![0]
    (shapeCast S320000 (extractStridedSlice S1x320000 ![0, 0] (WExit0 m O0 R0 d (Proc.devRef .tc main_arg2) : (⟨S2x320000, .i32⟩ : BufTy).Contents (Elt F)) slices_S2x320000_S1x320000_0_0) shapeCasts_S1x320000_S320000)
    (constantI S_ 32 0#32 : (⟨S_, .i32⟩ : BufTy).Contents (Elt F)) pads_S320000_S320000_000 h_S_
    (fun a => by fin_cases a <;> rfl) (fun a => by fin_cases a <;> rfl)
  rw [hp, shapeCast_shapeCast, WExit0_of_not_written m O0 R0 d main_arg2 (by decide) (by decide) (by decide)]
  exact slice2_axis0_apply 0 _ _ u e (0 : Fin 2) (by have := u.isLt; simp)

/-- The destination-index row at the SparseCore call is row 1 of the edge-index argument. -/
theorem VCall_v13_apply (d : Dev nD) (u : Fin 1) (e : Fin 320000) :
    asArr (F := F) S1x320000 .i32 (VCall m O0 R0 d (Proc.devRef .tc main_v13)) (ix2 u e)
      = asArr (F := F) S2x320000 .i32 (m (d, Proc.devRef .tc main_arg2)) (ix2 (1 : Fin 2) e) := by
  unfold VCall
  after_results
  refine (show _ = shapeCast S1x320000 (pad S320000 ![0] ![0] ![0]
      (shapeCast S320000 (extractStridedSlice S1x320000 ![1, 0] (WExit0 m O0 R0 d (Proc.devRef .tc main_arg2) : (⟨S2x320000, .i32⟩ : BufTy).Contents (Elt F)) slices_S2x320000_S1x320000_1_0) shapeCasts_S1x320000_S320000)
      (constantI S_ 32 0#32 : (⟨S_, .i32⟩ : BufTy).Contents (Elt F)) pads_S320000_S320000_000 h_S_) shapeCasts_S320000_S1x320000 (ix2 u e) from rfl).trans ?_
  have hp := pad_id (s := S320000) ![0] ![0] ![0]
    (shapeCast S320000 (extractStridedSlice S1x320000 ![1, 0] (WExit0 m O0 R0 d (Proc.devRef .tc main_arg2) : (⟨S2x320000, .i32⟩ : BufTy).Contents (Elt F)) slices_S2x320000_S1x320000_1_0) shapeCasts_S1x320000_S320000)
    (constantI S_ 32 0#32 : (⟨S_, .i32⟩ : BufTy).Contents (Elt F)) pads_S320000_S320000_000 h_S_
    (fun a => by fin_cases a <;> rfl) (fun a => by fin_cases a <;> rfl)
  rw [hp, shapeCast_shapeCast, WExit0_of_not_written m O0 R0 d main_arg2 (by decide) (by decide) (by decide)]
  exact slice2_axis0_apply 1 _ _ u e (1 : Fin 2) (by have := u.isLt; simp)

end AtCall

/-! ## The arrays the MLP's windows read, from what the SparseCore call leaves -/

section Entry2
variable (X : Dev nD → Valuation τ sig (Elt F))

/-- A buffer the third stretch does not write enters the MLP's region as the SparseCore call left it. -/
theorem WEntry2_of_not_written (d : Dev nD) (b : Ref sig .tc) (h2 : b ∉ (ops2_W : List (Ref sig .tc))) :
    WEntry2 X d (Proc.devRef .tc b) = X d (Proc.devRef .tc b) := by
  unfold WEntry2
  rw [StableHlo.after_of_writes_sub ops2 _ ops2_writes h2]

theorem WEntry2_v15 (d : Dev nD) :
    WEntry2 X d (Proc.devRef .tc main_v15)
      = (shapeCast S1x128 · shapeCasts_S128_S1x128 : (⟨S128, .f32⟩ : BufTy).Contents (Elt F) → (⟨S1x128, .f32⟩ : BufTy).Contents (Elt F))
          (X d (Proc.devRef .tc main_arg6)) := by
  unfold WEntry2
  after_results
  try rfl
theorem WEntry2_v15_apply (d : Dev nD) (u : Fin 1) (q : Fin 128) :
    asArr (F := F) S1x128 .f32 (WEntry2 X d (Proc.devRef .tc main_v15)) (ix2 u q)
      = asArr (F := F) S128 .f32 (X d (Proc.devRef .tc main_arg6)) (ix1 q) := by
  rw [WEntry2_v15]
  exact shapeCast_a_1a_apply _ _ u q

theorem WEntry2_v16 (d : Dev nD) :
    WEntry2 X d (Proc.devRef .tc main_v16)
      = (shapeCast S1x16 · shapeCasts_S16_S1x16 : (⟨S16, .f32⟩ : BufTy).Contents (Elt F) → (⟨S1x16, .f32⟩ : BufTy).Contents (Elt F))
          (X d (Proc.devRef .tc main_arg8)) := by
  unfold WEntry2
  after_results
  try rfl
theorem WEntry2_v16_apply (d : Dev nD) (u : Fin 1) (q : Fin 16) :
    asArr (F := F) S1x16 .f32 (WEntry2 X d (Proc.devRef .tc main_v16)) (ix2 u q)
      = asArr (F := F) S16 .f32 (X d (Proc.devRef .tc main_arg8)) (ix1 q) := by
  rw [WEntry2_v16]
  exact shapeCast_a_1a_apply _ _ u q

theorem WEntry2_v17 (d : Dev nD) :
    WEntry2 X d (Proc.devRef .tc main_v17)
      = (shapeCast S1x16 · shapeCasts_S16_S1x16 : (⟨S16, .f32⟩ : BufTy).Contents (Elt F) → (⟨S1x16, .f32⟩ : BufTy).Contents (Elt F))
          (X d (Proc.devRef .tc main_arg9)) := by
  unfold WEntry2
  after_results
  try rfl
theorem WEntry2_v17_apply (d : Dev nD) (u : Fin 1) (q : Fin 16) :
    asArr (F := F) S1x16 .f32 (WEntry2 X d (Proc.devRef .tc main_v17)) (ix2 u q)
      = asArr (F := F) S16 .f32 (X d (Proc.devRef .tc main_arg9)) (ix1 q) := by
  rw [WEntry2_v17]
  exact shapeCast_a_1a_apply _ _ u q

theorem WEntry2_v18 (d : Dev nD) :
    WEntry2 X d (Proc.devRef .tc main_v18)
      = (shapeCast S1x16 · shapeCasts_S16_S1x16 : (⟨S16, .f32⟩ : BufTy).Contents (Elt F) → (⟨S1x16, .f32⟩ : BufTy).Contents (Elt F))
          (X d (Proc.devRef .tc main_arg10)) := by
  unfold WEntry2
  after_results
  try rfl
theorem WEntry2_v18_apply (d : Dev nD) (u : Fin 1) (q : Fin 16) :
    asArr (F := F) S1x16 .f32 (WEntry2 X d (Proc.devRef .tc main_v18)) (ix2 u q)
      = asArr (F := F) S16 .f32 (X d (Proc.devRef .tc main_arg10)) (ix1 q) := by
  rw [WEntry2_v18]
  exact shapeCast_a_1a_apply _ _ u q

end Entry2

end Cert.Proof.KI

end
-- ==== Proof.KernelIdx.lean ====
import proofs.«210884_g88510686036700_cont_sun_m_1211_45_alg».proof.Proof.ScHmain
import proofs.«210884_g88510686036700_cont_sun_m_1211_45_alg».proof.Proof.TcHost
import proofs.«210884_g88510686036700_cont_sun_m_1211_45_alg».proof.Proof.PreFacts

set_option maxRecDepth 16384

noncomputable section

namespace Cert.Proof.KI

open Cert.KernelIdeal Cert.KernelIdeal.Gen Cert.KernelIdeal.TcBody
open Idealize.ShloMosaic Idealize.ShloMosaic.TcCoe Idealize.ShloMosaic.ValueIdx
open Idealize.ShloMosaic.SparseCore (S V T)
open Idealize.ShloMosaic.SparseCore.Cfg (HIx)
open Idealize.SL Idealize.SL.Sem

variable {F : FTy → Type} [FloatOps F]

/-- Under the precondition every entry of the two index rows the SparseCore call reads names a row of the node tables:
    the rows are the two rows of the edge-index argument, whose entries the precondition bounds. -/
theorem idxOK_of_pre (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = fun _ => 1#1) :
    IdxOK (csrcOf m) (cdstOf m) := by
  intro d k
  obtain ⟨u, e, rfl⟩ : ∃ (u : Fin 1) (e : Fin 320000), k = ix2 u e := ⟨k 0, k 1, eq_ix2 k⟩
  have e12 : csrcOf m d (ix2 u e) = (m ((d.tc : Thread nD τ).loc main_arg2) : IVec S2x320000 32) (ix2 (0 : Fin 2) e) :=
    VCall_v12_apply m (O0 (F := F)) (R0 (F := F)) d u e
  have e13 : cdstOf m d (ix2 u e) = (m ((d.tc : Thread nD τ).loc main_arg2) : IVec S2x320000 32) (ix2 (1 : Fin 2) e) :=
    VCall_v13_apply m (O0 (F := F)) (R0 (F := F)) d u e
  rw [e12, e13]
  exact ⟨Cert.Pre_input_domain.PreFacts.idx_toNat_lt _ _ _ _ _ _ _ _ _ _ _ (hpre d) (ix2 (0 : Fin 2) e),
    Cert.Pre_input_domain.PreFacts.idx_toNat_lt _ _ _ _ _ _ _ _ _ _ _ (hpre d) (ix2 (1 : Fin 2) e)⟩

end Cert.Proof.KI

end
-- ==== Proof.TcFinal0.lean ====
import proofs.«210884_g88510686036700_cont_sun_m_1211_45_alg».proof.Proof.TcDats
import Idealize.ShloMosaic.Lib.Pipeline.Value

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable {Ix : Type} [DecidableEq Ix] {Name : Type} [DecidableEq Name] {U : Type} [URA U] {Lvl : Type} [Preorder Lvl]

/-! ## The projection's result arrays after the region, as functions of the arrays the region finds -/

theorem hz2 : (![0, 0] : Fin 2 → Nat) = fun _ => 0 := funext fun a => by fin_cases a <;> rfl

/-- Window 0 of the projection is its whole array: the block's embedding is the identity. -/
theorem emb0_0 (t : Fin cfg0.N) (j) : ((cfg0.win 0).blk t).view.emb j = j := by
  funext a; apply Fin.ext
  match a with
  | ⟨0, _⟩ => show 0 * 10000 + 1 * (j 0).val = (j 0).val; omega
  | ⟨1, _⟩ => show 0 * 128 + 1 * (j 1).val = (j 1).val; omega

/-- Window 1 of the projection is its whole array: the block's embedding is the identity. -/
theorem emb0_1 (t : Fin cfg0.N) (j) : ((cfg0.win 1).blk t).view.emb j = j := by
  funext a; apply Fin.ext
  match a with
  | ⟨0, _⟩ => show 0 * 128 + 1 * (j 0).val = (j 0).val; omega
  | ⟨1, _⟩ => show 0 * 128 + 1 * (j 1).val = (j 1).val; omega

/-- Window 2 of the projection is its whole array: the block's embedding is the identity. -/
theorem emb0_2 (t : Fin cfg0.N) (j) : ((cfg0.win 2).blk t).view.emb j = j := by
  funext a; apply Fin.ext
  match a with
  | ⟨0, _⟩ => show 0 * 128 + 1 * (j 0).val = (j 0).val; omega
  | ⟨1, _⟩ => show 0 * 128 + 1 * (j 1).val = (j 1).val; omega

/-- Window 3 of the projection is its whole array: the block's embedding is the identity. -/
theorem emb0_3 (t : Fin cfg0.N) (j) : ((cfg0.win 3).blk t).view.emb j = j := by
  funext a; apply Fin.ext
  match a with
  | ⟨0, _⟩ => show 0 * 1 + 1 * (j 0).val = (j 0).val; omega
  | ⟨1, _⟩ => show 0 * 128 + 1 * (j 1).val = (j 1).val; omega

/-- Window 4 of the projection is its whole array: the block's embedding is the identity. -/
theorem emb0_4 (t : Fin cfg0.N) (j) : ((cfg0.win 4).blk t).view.emb j = j := by
  funext a; apply Fin.ext
  match a with
  | ⟨0, _⟩ => show 0 * 10000 + 1 * (j 0).val = (j 0).val; omega
  | ⟨1, _⟩ => show 0 * 128 + 1 * (j 1).val = (j 1).val; omega

/-- Window 5 of the projection is its whole array: the block's embedding is the identity. -/
theorem emb0_5 (t : Fin cfg0.N) (j) : ((cfg0.win 5).blk t).view.emb j = j := by
  funext a; apply Fin.ext
  match a with
  | ⟨0, _⟩ => show 0 * 10000 + 1 * (j 0).val = (j 0).val; omega
  | ⟨1, _⟩ => show 0 * 128 + 1 * (j 1).val = (j 1).val; omega

section
variable (V : (c : Dev nD) → (b : Ref sig .tc) → Buf (Elt F) ((c : Thread nD τ).loc b)) (O : Dev nD → CellTallies nD τ sig Ix) (Rc : Dev nD → Set (SemLoc sig × Ix))

/-- Each input block of the projection is its whole array as the region finds it. -/
theorem iblk0_0_eq (c : Dev nD) (t : Fin cfg0.N) : iblk0 V c 0 t = V c main_arg1 := by
  funext j; show V c main_arg1 (((cfg0.win 0).blk t).view.emb j) = V c main_arg1 j; rw [emb0_0]
theorem iblk0_1_eq (c : Dev nD) (t : Fin cfg0.N) : iblk0 V c 1 t = V c main_v0 := by
  funext j; show V c main_v0 (((cfg0.win 1).blk t).view.emb j) = V c main_v0 j; rw [emb0_1]
theorem iblk0_2_eq (c : Dev nD) (t : Fin cfg0.N) : iblk0 V c 2 t = V c main_v1 := by
  funext j; show V c main_v1 (((cfg0.win 2).blk t).view.emb j) = V c main_v1 j; rw [emb0_2]
theorem iblk0_3_eq (c : Dev nD) (t : Fin cfg0.N) : iblk0 V c 3 t = V c main_v3 := by
  funext j; show V c main_v3 (((cfg0.win 3).blk t).view.emb j) = V c main_v3 j; rw [emb0_3]

/-- What the one point writes back into the first result array is the product of the node array with the first weight array, -/
theorem flushed0_4_eq (c : Dev nD) (t : Fin cfg0.N) :
    (dat0 (Ix := Ix) (Name := Name) (U := U) (Lvl := Lvl) V O Rc c).flushed 4 t = ((cfg0.win 4).blk t).view.read (Elt F) (k0_pay1 (V c main_arg1) (V c main_v0)) := by
  show (cfg0.win 4).cut (grid0.coords t) ((dat0 (Ix := Ix) (Name := Name) (U := U) (Lvl := Lvl) V O Rc c).after 4 t) = _
  rw [after0_4]
  unfold out0_4
  rw [View.canon_unit_zero hz2]
  simp only [View.ld_unit_zero (S := S10000x128) hz2, View.ld_unit_zero (S := S128x128) hz2]
  rw [iblk0_0_eq, iblk0_1_eq]
  funext j
  show k0_pay1 (V c main_arg1) (V c main_v0) j = k0_pay1 (V c main_arg1) (V c main_v0) (((cfg0.win 4).blk t).view.emb j)
  rw [emb0_4]

/-- and into the second the product with the second weight array plus the bias row. -/
theorem flushed0_5_eq (c : Dev nD) (t : Fin cfg0.N) :
    (dat0 (Ix := Ix) (Name := Name) (U := U) (Lvl := Lvl) V O Rc c).flushed 5 t = ((cfg0.win 5).blk t).view.read (Elt F) (k0_pay2 (V c main_arg1) (V c main_v1) (V c main_v3)) := by
  show (cfg0.win 5).cut (grid0.coords t) ((dat0 (Ix := Ix) (Name := Name) (U := U) (Lvl := Lvl) V O Rc c).after 5 t) = _
  rw [after0_5]
  unfold out0_5
  rw [View.canon_unit_zero hz2]
  simp only [View.ld_unit_zero (S := S10000x128) hz2, View.ld_unit_zero (S := S128x128) hz2, View.ld_unit_zero (S := S1x128) hz2]
  rw [iblk0_0_eq, iblk0_2_eq, iblk0_3_eq]
  funext j
  show k0_pay2 (V c main_arg1) (V c main_v1) (V c main_v3) j = k0_pay2 (V c main_arg1) (V c main_v1) (V c main_v3) (((cfg0.win 5).blk t).view.emb j)
  rw [emb0_5]

/-- The one point's block is the whole array. -/
theorem cover0_4 (i : S10000x128.Idx) : ∃ t : Fin cfg0.N, (cfg0.win 4).flush t = true ∧ i ∈ ((cfg0.win 4).blk t).view.set :=
  ⟨t0_0, flush0_4 _, by rw [← emb0_4 t0_0 i]; exact ((cfg0.win 4).blk t0_0).view.emb_mem_set i⟩
theorem cover0_5 (i : S10000x128.Idx) : ∃ t : Fin cfg0.N, (cfg0.win 5).flush t = true ∧ i ∈ ((cfg0.win 5).blk t).view.set :=
  ⟨t0_0, flush0_5 _, by rw [← emb0_5 t0_0 i]; exact ((cfg0.win 5).blk t0_0).view.emb_mem_set i⟩

/-- THE FIRST RESULT ARRAY after the region. -/
theorem final0_4 (c : Dev nD) : (dat0 (Ix := Ix) (Name := Name) (U := U) (Lvl := Lvl) V O Rc c).arrAt 4 cfg0.N = k0_pay1 (V c main_arg1) (V c main_v0) :=
  (dat0 (Ix := Ix) (Name := Name) (U := U) (Lvl := Lvl) V O Rc c).arrAt_eq_of_cover 4 _ (fun t _ => flushed0_4_eq V O Rc c t) cover0_4
/-- THE SECOND RESULT ARRAY after the region. -/
theorem final0_5 (c : Dev nD) : (dat0 (Ix := Ix) (Name := Name) (U := U) (Lvl := Lvl) V O Rc c).arrAt 5 cfg0.N = k0_pay2 (V c main_arg1) (V c main_v1) (V c main_v3) :=
  (dat0 (Ix := Ix) (Name := Name) (U := U) (Lvl := Lvl) V O Rc c).arrAt_eq_of_cover 5 _ (fun t _ => flushed0_5_eq V O Rc c t) cover0_5

end

end Cert.KernelIdeal.TcBody

end
-- ==== Proof.TcValue2.lean ====
import proofs.«210884_g88510686036700_cont_sun_m_1211_45_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TcBody

open Cert.KernelIdeal Cert.KernelIdeal.Gen
open Idealize.ShloMosaic Idealize.ShloMosaic.ValueIdx
open scoped BigOperators

/-! ## The MLP kernel's stored value at an index, at the ideal values -/

/-! ### Layout steps of a row statistic: a column of row values, and its broadcast along the rows -/

/-- An `[a]` array cast to the column `[a, 1]` reads, at `(p, u)`, the operand at `p`. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, q)`, the column at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- A reciprocal square root at an index is that of the element. -/
theorem rsqrt_apply {s : Shape} {φ : FTy} (a : FVec Ideal s φ) (i : s.Idx) : rsqrt a i = Ideal.rsqrt (a i) := rfl

/-- A lane sum of a `2000×16` block, at row `p`: the sum of the row's sixteen entries. -/
theorem rowSum_apply (src : FVec Ideal S2000x16 .f32) (hφ : FKind.Formats .f32) (hacc : (0x00000000#32 : BitVec 32) = 0x00000000#32) (p : Fin 2000) :
    multiReduction (F := Ideal) .add [1] S2000 src 0x00000000#32 reduces_S2000x16_S2000 hφ hacc (ix1 p) = ∑ q : Fin 16, src (ix2 p q) := by
  refine (Ideal.multiReduction_add_single src 0x00000000#32 reduces_S2000x16_S2000 hφ hacc (ix1 p)).trans ?_
  refine Finset.sum_congr rfl fun q _ => congrArg src ?_
  funext a
  match a with
  | ⟨0, _⟩ => rfl
  | ⟨1, _⟩ => rfl

/-- A matrix product of an `2000×16` by a `16×128` block into the zero block, at an index: the sum over the shared axis. -/
theorem matmul_l1_apply (a : FVec Ideal S2000x16 .f32) (b : FVec Ideal S16x128 .f32) (p : Fin 2000) (q : Fin 128) :
    matmul dot_S2000x16_S16x128_S2000x128_1_0_0_1_n_n none a b (constant (F := Ideal) S2000x128 .f32 0x00000000#32) (ix2 p q)
      = ∑ k : Fin 16, a (ix2 p k) * b (ix2 k q) := by
  refine (Ideal.matmul_constant_zero_apply dot_S2000x16_S16x128_S2000x128_1_0_0_1_n_n none a b (ix2 p q)).trans ?_
  rw [← Equiv.sum_comp (contrEquiv1 dot_S2000x16_S16x128_S2000x128_1_0_0_1_n_n 16 rfl rfl).symm]
  refine Finset.sum_congr rfl fun k _ => ?_
  have hl : dot_S2000x16_S16x128_S2000x128_1_0_0_1_n_n.lhsIdx (ix2 p q) ((contrEquiv1 dot_S2000x16_S16x128_S2000x128_1_0_0_1_n_n 16 rfl rfl).symm k) = ix2 p k := by
    funext a
    match a with
    | ⟨0, _⟩ => rfl
    | ⟨1, _⟩ => exact Fin.ext ((DotDims.lhsIdx_val_of_single _ rfl _ _).trans (contrEquiv1_symm_val _ 16 rfl rfl k))
  have hr : dot_S2000x16_S16x128_S2000x128_1_0_0_1_n_n.rhsIdx (ix2 p q) ((contrEquiv1 dot_S2000x16_S16x128_S2000x128_1_0_0_1_n_n 16 rfl rfl).symm k) = ix2 k q := by
    funext a
    match a with
    | ⟨0, _⟩ => exact Fin.ext ((DotDims.rhsIdx_val_of_single _ rfl _ _).trans (contrEquiv1_symm_val _ 16 rfl rfl k))
    | ⟨1, _⟩ => rfl
  rw [hl, hr]

/-- A matrix product of an `2000×128` by a `128×128` block into the zero block, at an index: the sum over the shared axis. -/
theorem matmul_l2_apply (a : FVec Ideal S2000x128 .f32) (b : FVec Ideal S128x128 .f32) (p : Fin 2000) (q : Fin 128) :
    matmul dot_S2000x128_S128x128_S2000x128_1_0_0_1_n_n none a b (constant (F := Ideal) S2000x128 .f32 0x00000000#32) (ix2 p q)
      = ∑ k : Fin 128, a (ix2 p k) * b (ix2 k q) := by
  refine (Ideal.matmul_constant_zero_apply dot_S2000x128_S128x128_S2000x128_1_0_0_1_n_n none a b (ix2 p q)).trans ?_
  rw [← Equiv.sum_comp (contrEquiv1 dot_S2000x128_S128x128_S2000x128_1_0_0_1_n_n 128 rfl rfl).symm]
  refine Finset.sum_congr rfl fun k _ => ?_
  have hl : dot_S2000x128_S128x128_S2000x128_1_0_0_1_n_n.lhsIdx (ix2 p q) ((contrEquiv1 dot_S2000x128_S128x128_S2000x128_1_0_0_1_n_n 128 rfl rfl).symm k) = ix2 p k := by
    funext a
    match a with
    | ⟨0, _⟩ => rfl
    | ⟨1, _⟩ => exact Fin.ext ((DotDims.lhsIdx_val_of_single _ rfl _ _).trans (contrEquiv1_symm_val _ 128 rfl rfl k))
  have hr : dot_S2000x128_S128x128_S2000x128_1_0_0_1_n_n.rhsIdx (ix2 p q) ((contrEquiv1 dot_S2000x128_S128x128_S2000x128_1_0_0_1_n_n 128 rfl rfl).symm k) = ix2 k q := by
    funext a
    match a with
    | ⟨0, _⟩ => exact Fin.ext ((DotDims.rhsIdx_val_of_single _ rfl _ _).trans (contrEquiv1_symm_val _ 128 rfl rfl k))
    | ⟨1, _⟩ => rfl
  rw [hl, hr]

/-- A matrix product of an `2000×128` by a `128×16` block into the zero block, at an index: the sum over the shared axis. -/
theorem matmul_l3_apply (a : FVec Ideal S2000x128 .f32) (b : FVec Ideal S128x16 .f32) (p : Fin 2000) (q : Fin 16) :
    matmul dot_S2000x128_S128x16_S2000x16_1_0_0_1_n_n none a b (constant (F := Ideal) S2000x16 .f32 0x00000000#32) (ix2 p q)
      = ∑ k : Fin 128, a (ix2 p k) * b (ix2 k q) := by
  refine (Ideal.matmul_constant_zero_apply dot_S2000x128_S128x16_S2000x16_1_0_0_1_n_n none a b (ix2 p q)).trans ?_
  rw [← Equiv.sum_comp (contrEquiv1 dot_S2000x128_S128x16_S2000x16_1_0_0_1_n_n 128 rfl rfl).symm]
  refine Finset.sum_congr rfl fun k _ => ?_
  have hl : dot_S2000x128_S128x16_S2000x16_1_0_0_1_n_n.lhsIdx (ix2 p q) ((contrEquiv1 dot_S2000x128_S128x16_S2000x16_1_0_0_1_n_n 128 rfl rfl).symm k) = ix2 p k := by
    funext a
    match a with
    | ⟨0, _⟩ => rfl
    | ⟨1, _⟩ => exact Fin.ext ((DotDims.lhsIdx_val_of_single _ rfl _ _).trans (contrEquiv1_symm_val _ 128 rfl rfl k))
  have hr : dot_S2000x128_S128x16_S2000x16_1_0_0_1_n_n.rhsIdx (ix2 p q) ((contrEquiv1 dot_S2000x128_S128x16_S2000x16_1_0_0_1_n_n 128 rfl rfl).symm k) = ix2 k q := by
    funext a
    match a with
    | ⟨0, _⟩ => exact Fin.ext ((DotDims.rhsIdx_val_of_single _ rfl _ _).trans (contrEquiv1_symm_val _ 128 rfl rfl k))
    | ⟨1, _⟩ => rfl
  rw [hl, hr]

/-! ### The three dense layers, the row statistics and the result, entry by entry -/

section Spec
-- stated over any number `n` of edge rows: a block of 2000 rows and the whole 320000-row arrays are two instances
variable {n : ℕ} (ef : (⟨2, ![n, 16]⟩ : Shape).Idx → EReal) (s t : (⟨2, ![n, 128]⟩ : Shape).Idx → EReal) (w1c : S16x128.Idx → EReal)
  (w2 : S128x128.Idx → EReal) (b2 : S1x128.Idx → EReal) (w3 : S128x16.Idx → EReal) (b3 g be : S1x16.Idx → EReal)

/-- First hidden layer at edge `p`, unit `k`: the rectified sum of the two gathered rows and the edge features' product with the third weight slice. -/
def mlpH1 (p : Fin n) (k : Fin 128) : EReal :=
  max (s (ix2 p k) + t (ix2 p k) + ∑ j : Fin 16, ef (ix2 p j) * w1c (ix2 j k)) 0
/-- Second hidden layer. -/
def mlpH2 (p : Fin n) (k : Fin 128) : EReal :=
  max ((∑ j : Fin 128, mlpH1 ef s t w1c p j * w2 (ix2 j k)) + b2 (ix2 (0 : Fin 1) k)) 0
/-- Third layer's output, before the normalisation. -/
def mlpY (p : Fin n) (q : Fin 16) : EReal :=
  (∑ j : Fin 128, mlpH2 ef s t w1c w2 b2 p j * w3 (ix2 j q)) + b3 (ix2 (0 : Fin 1) q)
/-- Row mean. -/
def mlpMu (p : Fin n) : EReal :=
  Ideal.div (∑ q : Fin 16, mlpY ef s t w1c w2 b2 w3 b3 p q) (Ideal.ofBits .f32 0x41800000#32)
/-- Row variance. -/
def mlpVar (p : Fin n) : EReal :=
  Ideal.div (∑ q : Fin 16, (mlpY ef s t w1c w2 b2 w3 b3 p q - mlpMu ef s t w1c w2 b2 w3 b3 p) * (mlpY ef s t w1c w2 b2 w3 b3 p q - mlpMu ef s t w1c w2 b2 w3 b3 p))
    (Ideal.ofBits .f32 0x41800000#32)
/-- The stored value: the edge features plus the normalised, scaled and shifted output. -/
def mlpOut (p : Fin n) (q : Fin 16) : EReal :=
  ef (ix2 p q) + ((mlpY ef s t w1c w2 b2 w3 b3 p q - mlpMu ef s t w1c w2 b2 w3 b3 p)
      * Ideal.rsqrt (mlpVar ef s t w1c w2 b2 w3 b3 p + Ideal.ofBits .f32 0x3727C5AC#32) * g (ix2 (0 : Fin 1) q) + be (ix2 (0 : Fin 1) q))

/-- The result at a row reads that row only: arrays that agree along a map of rows give the same value there. -/
theorem mlpOut_rows {m : ℕ} (ρ : Fin n → Fin m) (ef' : (⟨2, ![m, 16]⟩ : Shape).Idx → EReal) (s' t' : (⟨2, ![m, 128]⟩ : Shape).Idx → EReal)
    (hef : ∀ p j, ef (ix2 p j) = ef' (ix2 (ρ p) j)) (hs : ∀ p k, s (ix2 p k) = s' (ix2 (ρ p) k)) (ht : ∀ p k, t (ix2 p k) = t' (ix2 (ρ p) k))
    (p : Fin n) (q : Fin 16) :
    mlpOut ef s t w1c w2 b2 w3 b3 g be p q = mlpOut ef' s' t' w1c w2 b2 w3 b3 g be (ρ p) q := by
  simp only [mlpOut, mlpVar, mlpMu, mlpY, mlpH2, mlpH1, hef, hs, ht]

end Spec

section Block
variable (ef : Vec Ideal S2000x16 .f32) (s t : Vec Ideal S2000x128 .f32) (w1c : Vec Ideal S16x128 .f32)
  (w2 : Vec Ideal S128x128 .f32) (b2 : Vec Ideal S1x128 .f32) (w3 : Vec Ideal S128x16 .f32) (b3 g be : Vec Ideal S1x16 .f32)

theorem pay2_2_apply (p : Fin 2000) (q : Fin 16) : k2_pay2 ef (ix2 p q) = ef (ix2 p q) := by
  unfold k2_pay2; rw [shapeCast_self]

theorem pay2_3_apply (p : Fin 2000) (q : Fin 16) :
    k2_pay3 ef s t w1c w2 b2 w3 b3 (ix2 p q) = mlpY (n := 2000) ef s t w1c w2 b2 w3 b3 p q := by
  unfold k2_pay3 k2_pay2 mlpY
  simp only [shapeCast_self]
  rw [addf_apply, matmul_l3_apply, broadcastTo_1b_ab_apply]
  refine congrArg (· + b3 (ix2 (0 : Fin 1) q)) (Finset.sum_congr rfl fun j _ => congrArg (· * w3 (ix2 j q)) ?_)
  unfold mlpH2
  rw [maximumf_apply, addf_apply, matmul_l2_apply, broadcastTo_1b_ab_apply, broadcast_apply]
  refine congrArg₂ max (congrArg (· + b2 (ix2 (0 : Fin 1) j)) (Finset.sum_congr rfl fun i _ => congrArg (· * w2 (ix2 i j)) ?_)) Ideal.ofBits_zero_f32
  unfold mlpH1
  rw [maximumf_apply, addf_apply, addf_apply, matmul_l1_apply, broadcast_apply]
  exact congrArg₂ max rfl Ideal.ofBits_zero_f32

theorem pay2_4_apply (p : Fin 2000) (u : Fin 1) :
    k2_pay4 ef s t w1c w2 b2 w3 b3 (ix2 p u) = mlpMu (n := 2000) ef s t w1c w2 b2 w3 b3 p := by
  unfold k2_pay4 mlpMu
  rw [divf_apply, shapeCast_a_a1_apply, broadcast_apply]
  exact congrArg₂ Ideal.div ((rowSum_apply _ _ _ p).trans (Finset.sum_congr rfl fun q _ => pay2_3_apply ef s t w1c w2 b2 w3 b3 p q)) rfl

theorem pay2_5_apply (p : Fin 2000) :
    k2_pay5 ef s t w1c w2 b2 w3 b3 (ix1 p)
      = ∑ q : Fin 16, (mlpY (n := 2000) ef s t w1c w2 b2 w3 b3 p q - mlpMu (n := 2000) ef s t w1c w2 b2 w3 b3 p) * (mlpY (n := 2000) ef s t w1c w2 b2 w3 b3 p q - mlpMu (n := 2000) ef s t w1c w2 b2 w3 b3 p) := by
  unfold k2_pay5
  refine (rowSum_apply _ _ _ p).trans (Finset.sum_congr rfl fun q _ => ?_)
  rw [mulf_apply, subf_apply, broadcastTo_a1_ab_apply, pay2_3_apply, pay2_4_apply]

/-- The normalisation's last step at an index, over any row values. -/
theorem pay2_1_apply (v1 v26 : FVec Ideal S2000x16 .f32) (v30 : FVec Ideal S2000x1 .f32) (v34 : FVec Ideal S2000 .f32)
    (v45 v49 : Vec Ideal S1x16 .f32) (p : Fin 2000) (q : Fin 16) :
    k2_pay1 v1 v26 v30 v34 v45 v49 (ix2 p q)
      = v1 (ix2 p q) + ((v26 (ix2 p q) - v30 (ix2 p (0 : Fin 1)))
          * Ideal.rsqrt (Ideal.div (v34 (ix1 p)) (Ideal.ofBits .f32 0x41800000#32) + Ideal.ofBits .f32 0x3727C5AC#32)
          * v45 (ix2 (0 : Fin 1) q) + v49 (ix2 (0 : Fin 1) q)) := by
  unfold k2_pay1
  simp only [shapeCast_self]
  rw [addf_apply, addf_apply, mulf_apply, mulf_apply, subf_apply, broadcastTo_a1_ab_apply, broadcastTo_a1_ab_apply,
    broadcastTo_1b_ab_apply, broadcastTo_1b_ab_apply, rsqrt_apply, addf_apply, divf_apply, shapeCast_a_a1_apply,
    broadcast_apply, broadcast_apply]
  rfl

/-- THE MLP'S STORED VALUE at `(p, q)`, from the ten input blocks. -/
theorem mlp_value_apply (p : Fin 2000) (q : Fin 16) :
    k2_pay1 (k2_pay2 ef) (k2_pay3 ef s t w1c w2 b2 w3 b3) (k2_pay4 ef s t w1c w2 b2 w3 b3) (k2_pay5 ef s t w1c w2 b2 w3 b3) g be (ix2 p q)
      = mlpOut (n := 2000) ef s t w1c w2 b2 w3 b3 g be p q := by
  rw [pay2_1_apply, pay2_2_apply, pay2_3_apply, pay2_4_apply, pay2_5_apply]
  rfl

end Block

end Cert.KernelIdeal.TcBody

end
-- ==== Proof.TcFinal2.lean ====
import proofs.«210884_g88510686036700_cont_sun_m_1211_45_alg».proof.Proof.TcDats
import proofs.«210884_g88510686036700_cont_sun_m_1211_45_alg».proof.Proof.TcValue2
import Idealize.ShloMosaic.Lib.Pipeline.Value

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {Ix : Type} [DecidableEq Ix] {Name : Type} [DecidableEq Name] {U : Type} [URA U] {Lvl : Type} [Preorder Lvl]

/-! ## The MLP's result array after the region, as one function of the arrays the region finds, at the ideal values -/

theorem hz2' : (![0, 0] : Fin 2 → Nat) = fun _ => 0 := funext fun a => by fin_cases a <;> rfl

/-- The printed index maps, decided over the grid: the three edge-row windows and the result window move with the point
    along the rows, every other window stays at block zero. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_10.index t (0 : Fin 2) = t.val
    ∧ win2_10.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0 :=
  (by decide +kernel : ∀ t : Fin grid2.N, _)

/-- The array row that row `p` of point `t`'s block is. -/
def rowOf (t : Fin cfg2.N) (p : Fin 2000) : Fin 320000 := ⟨t.val * 2000 + p.val, by have := t.isLt; have := p.isLt; have hN : cfg2.N = 160 := N_2; omega⟩

section
variable (V : (c : Dev nD) → (b : Ref sig .tc) → Buf (Elt Ideal) ((c : Thread nD τ).loc b)) (O : Dev nD → CellTallies nD τ sig Ix) (Rc : Dev nD → Set (SemLoc sig × Ix))

/-- Window 3's block is its whole array at every point. -/
theorem iblk2_3_eq (c : Dev nD) (t : Fin cfg2.N) : iblk2 V c 3 t = V c main_v2 := by
  obtain ⟨e0r, e0c, e1r, e1c, e2r, e2c, e10r, e10c, e3r, e3c, e4r, e4c, e5r, e5c, e6r, e6c, e7r, e7c, e8r, e8c, e9r, e9c⟩ := idx_facts2 t
  funext j
  show V c main_v2 (((cfg2.win 3).blk t).view.emb j) = V c main_v2 j
  refine congrArg _ (funext fun a => Fin.ext ?_)
  match a with
  | ⟨0, _⟩ => show win2_3.index t (0 : Fin 2) * 16 + 1 * (j 0).val = (j 0).val; omega
  | ⟨1, _⟩ => show win2_3.index t (1 : Fin 2) * 128 + 1 * (j 1).val = (j 1).val; omega

/-- Window 4's block is its whole array at every point. -/
theorem iblk2_4_eq (c : Dev nD) (t : Fin cfg2.N) : iblk2 V c 4 t = V c main_arg5 := by
  obtain ⟨e0r, e0c, e1r, e1c, e2r, e2c, e10r, e10c, e3r, e3c, e4r, e4c, e5r, e5c, e6r, e6c, e7r, e7c, e8r, e8c, e9r, e9c⟩ := idx_facts2 t
  funext j
  show V c main_arg5 (((cfg2.win 4).blk t).view.emb j) = V c main_arg5 j
  refine congrArg _ (funext fun a => Fin.ext ?_)
  match a with
  | ⟨0, _⟩ => show win2_4.index t (0 : Fin 2) * 128 + 1 * (j 0).val = (j 0).val; omega
  | ⟨1, _⟩ => show win2_4.index t (1 : Fin 2) * 128 + 1 * (j 1).val = (j 1).val; omega

/-- Window 5's block is its whole array at every point. -/
theorem iblk2_5_eq (c : Dev nD) (t : Fin cfg2.N) : iblk2 V c 5 t = V c main_v15 := by
  obtain ⟨e0r, e0c, e1r, e1c, e2r, e2c, e10r, e10c, e3r, e3c, e4r, e4c, e5r, e5c, e6r, e6c, e7r, e7c, e8r, e8c, e9r, e9c⟩ := idx_facts2 t
  funext j
  show V c main_v15 (((cfg2.win 5).blk t).view.emb j) = V c main_v15 j
  refine congrArg _ (funext fun a => Fin.ext ?_)
  match a with
  | ⟨0, _⟩ => show win2_5.index t (0 : Fin 2) * 1 + 1 * (j 0).val = (j 0).val; omega
  | ⟨1, _⟩ => show win2_5.index t (1 : Fin 2) * 128 + 1 * (j 1).val = (j 1).val; omega

/-- Window 6's block is its whole array at every point. -/
theorem iblk2_6_eq (c : Dev nD) (t : Fin cfg2.N) : iblk2 V c 6 t = V c main_arg7 := by
  obtain ⟨e0r, e0c, e1r, e1c, e2r, e2c, e10r, e10c, e3r, e3c, e4r, e4c, e5r, e5c, e6r, e6c, e7r, e7c, e8r, e8c, e9r, e9c⟩ := idx_facts2 t
  funext j
  show V c main_arg7 (((cfg2.win 6).blk t).view.emb j) = V c main_arg7 j
  refine congrArg _ (funext fun a => Fin.ext ?_)
  match a with
  | ⟨0, _⟩ => show win2_6.index t (0 : Fin 2) * 128 + 1 * (j 0).val = (j 0).val; omega
  | ⟨1, _⟩ => show win2_6.index t (1 : Fin 2) * 16 + 1 * (j 1).val = (j 1).val; omega

/-- Window 7's block is its whole array at every point. -/
theorem iblk2_7_eq (c : Dev nD) (t : Fin cfg2.N) : iblk2 V c 7 t = V c main_v16 := by
  obtain ⟨e0r, e0c, e1r, e1c, e2r, e2c, e10r, e10c, e3r, e3c, e4r, e4c, e5r, e5c, e6r, e6c, e7r, e7c, e8r, e8c, e9r, e9c⟩ := idx_facts2 t
  funext j
  show V c main_v16 (((cfg2.win 7).blk t).view.emb j) = V c main_v16 j
  refine congrArg _ (funext fun a => Fin.ext ?_)
  match a with
  | ⟨0, _⟩ => show win2_7.index t (0 : Fin 2) * 1 + 1 * (j 0).val = (j 0).val; omega
  | ⟨1, _⟩ => show win2_7.index t (1 : Fin 2) * 16 + 1 * (j 1).val = (j 1).val; omega

/-- Window 8's block is its whole array at every point. -/
theorem iblk2_8_eq (c : Dev nD) (t : Fin cfg2.N) : iblk2 V c 8 t = V c main_v17 := by
  obtain ⟨e0r, e0c, e1r, e1c, e2r, e2c, e10r, e10c, e3r, e3c, e4r, e4c, e5r, e5c, e6r, e6c, e7r, e7c, e8r, e8c, e9r, e9c⟩ := idx_facts2 t
  funext j
  show V c main_v17 (((cfg2.win 8).blk t).view.emb j) = V c main_v17 j
  refine congrArg _ (funext fun a => Fin.ext ?_)
  match a with
  | ⟨0, _⟩ => show win2_8.index t (0 : Fin 2) * 1 + 1 * (j 0).val = (j 0).val; omega
  | ⟨1, _⟩ => show win2_8.index t (1 : Fin 2) * 16 + 1 * (j 1).val = (j 1).val; omega

/-- Window 9's block is its whole array at every point. -/
theorem iblk2_9_eq (c : Dev nD) (t : Fin cfg2.N) : iblk2 V c 9 t = V c main_v18 := by
  obtain ⟨e0r, e0c, e1r, e1c, e2r, e2c, e10r, e10c, e3r, e3c, e4r, e4c, e5r, e5c, e6r, e6c, e7r, e7c, e8r, e8c, e9r, e9c⟩ := idx_facts2 t
  funext j
  show V c main_v18 (((cfg2.win 9).blk t).view.emb j) = V c main_v18 j
  refine congrArg _ (funext fun a => Fin.ext ?_)
  match a with
  | ⟨0, _⟩ => show win2_9.index t (0 : Fin 2) * 1 + 1 * (j 0).val = (j 0).val; omega
  | ⟨1, _⟩ => show win2_9.index t (1 : Fin 2) * 16 + 1 * (j 1).val = (j 1).val; omega

/-- Row `p` of window 0's block at point `t` is row `2000 t + p` of its array. -/
theorem iblk2_0_row (c : Dev nD) (t : Fin cfg2.N) (p : Fin 2000) (k : Fin 128) :
    iblk2 V c 0 t (ix2 p k) = V c main_v14_0 (ix2 (rowOf t p) k) := by
  obtain ⟨e0r, e0c, e1r, e1c, e2r, e2c, e10r, e10c, e3r, e3c, e4r, e4c, e5r, e5c, e6r, e6c, e7r, e7c, e8r, e8c, e9r, e9c⟩ := idx_facts2 t
  show V c main_v14_0 (((cfg2.win 0).blk t).view.emb (ix2 p k)) = V c main_v14_0 (ix2 (rowOf t p) k)
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

/-- Row `p` of window 1's block at point `t` is row `2000 t + p` of its array. -/
theorem iblk2_1_row (c : Dev nD) (t : Fin cfg2.N) (p : Fin 2000) (k : Fin 128) :
    iblk2 V c 1 t (ix2 p k) = V c main_v14_1 (ix2 (rowOf t p) k) := by
  obtain ⟨e0r, e0c, e1r, e1c, e2r, e2c, e10r, e10c, e3r, e3c, e4r, e4c, e5r, e5c, e6r, e6c, e7r, e7c, e8r, e8c, e9r, e9c⟩ := idx_facts2 t
  show V c main_v14_1 (((cfg2.win 1).blk t).view.emb (ix2 p k)) = V c main_v14_1 (ix2 (rowOf t p) k)
  refine congrArg _ (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

/-- Row `p` of window 2's block at point `t` is row `2000 t + p` of its array. -/
theorem iblk2_2_row (c : Dev nD) (t : Fin cfg2.N) (p : Fin 2000) (k : Fin 16) :
    iblk2 V c 2 t (ix2 p k) = V c main_v11 (ix2 (rowOf t p) k) := by
  obtain ⟨e0r, e0c, e1r, e1c, e2r, e2c, e10r, e10c, e3r, e3c, e4r, e4c, e5r, e5c, e6r, e6c, e7r, e7c, e8r, e8c, e9r, e9c⟩ := idx_facts2 t
  show V c main_v11 (((cfg2.win 2).blk t).view.emb (ix2 p k)) = V c main_v11 (ix2 (rowOf t p) k)
  refine congrArg _ (funext fun a => Fin.ext ?_)
  match a with
  | ⟨0, _⟩ => show win2_2.index t (0 : Fin 2) * 2000 + 1 * p.val = t.val * 2000 + p.val; omega
  | ⟨1, _⟩ => show win2_2.index t (1 : Fin 2) * 16 + 1 * k.val = k.val; omega

/-- The result array's contents after the region, entry by entry: the residual sum of the edge features and the
    layer-normalised MLP of the gathered rows and the edge features. -/
def G2 (c : Dev nD) : S320000x16.Idx → EReal := fun i =>
  mlpOut (n := 320000) (V c main_v11) (V c main_v14_0) (V c main_v14_1) (V c main_v2) (V c main_arg5) (V c main_v15) (V c main_arg7)
    (V c main_v16) (V c main_v17) (V c main_v18) (i 0) (i 1)

/-- WHAT POINT `t` WRITES BACK is block `t` of `G2`. -/
theorem flushed2_10_eq (c : Dev nD) (t : Fin cfg2.N) :
    (dat2 (F := Ideal) (Ix := Ix) (Name := Name) (U := U) (Lvl := Lvl) V O Rc c).flushed 10 t = ((cfg2.win 10).blk t).view.read (Elt Ideal) (G2 V c) := by
  show (cfg2.win 10).cut (grid2.coords t) ((dat2 (F := Ideal) (Ix := Ix) (Name := Name) (U := U) (Lvl := Lvl) V O Rc c).after 10 t) = _
  rw [after2_10]
  unfold out2_10
  rw [View.canon_unit_zero hz2']
  unfold pay2
  simp only [View.ld_unit_zero (S := S2000x16) hz2', View.ld_unit_zero (S := S2000x128) hz2', View.ld_unit_zero (S := S16x128) hz2',
    View.ld_unit_zero (S := S128x128) hz2', View.ld_unit_zero (S := S1x128) hz2', View.ld_unit_zero (S := S128x16) hz2',
    View.ld_unit_zero (S := S1x16) hz2']
  funext j
  obtain ⟨p, q, rfl⟩ : ∃ (p : Fin 2000) (q : Fin 16), j = ix2 p q := ⟨j 0, j 1, eq_ix2 j⟩
  refine (mlp_value_apply (iblk2 V c 2 t) (iblk2 V c 0 t) (iblk2 V c 1 t) (iblk2 V c 3 t) (iblk2 V c 4 t) (iblk2 V c 5 t) (iblk2 V c 6 t)
    (iblk2 V c 7 t) (iblk2 V c 8 t) (iblk2 V c 9 t) p q).trans ?_
  rw [iblk2_3_eq, iblk2_4_eq, iblk2_5_eq, iblk2_6_eq, iblk2_7_eq, iblk2_8_eq, iblk2_9_eq]
  refine (mlpOut_rows (n := 2000) (m := 320000) _ _ _ _ _ _ _ _ _ _ (rowOf t) (V c main_v11) (V c main_v14_0) (V c main_v14_1)
    (fun p j => iblk2_2_row V c t p j) (fun p k => iblk2_0_row V c t p k) (fun p k => iblk2_1_row V c t p k) p q).trans ?_
  obtain ⟨e0r, e0c, e1r, e1c, e2r, e2c, e10r, e10c, e3r, e3c, e4r, e4c, e5r, e5c, e6r, e6c, e7r, e7c, e8r, e8c, e9r, e9c⟩ := idx_facts2 t
  show _ = G2 V c (((cfg2.win 10).blk t).view.emb (ix2 p q))
  unfold G2
  have h0 : (((cfg2.win 10).blk t).view.emb (ix2 p q)) 0 = rowOf t p := Fin.ext (by
    show win2_10.index t (0 : Fin 2) * 2000 + 1 * p.val = t.val * 2000 + p.val; omega)
  have h1 : (((cfg2.win 10).blk t).view.emb (ix2 p q)) 1 = q := Fin.ext (by
    show win2_10.index t (1 : Fin 2) * 16 + 1 * q.val = q.val; omega)
  rw [h0, h1]

/-- An index of the array is in point `t`'s block iff each coordinate is in the block's range on its axis. -/
theorem mem_blk2_10 (t : Fin cfg2.N) (i : S320000x16.Idx) :
    i ∈ ((cfg2.win 10).blk t).view.set ↔ ∀ a : Fin 2, win2_10.index t a * S2000x16.size a ≤ (i a).val ∧ (i a).val < win2_10.index t a * S2000x16.size a + S2000x16.size a := by
  show i ∈ ((View.whole main_v19).slice (win2_10.rect t)).set ↔ _
  rw [View.set_slice_whole, Rect.mem_set_unit]
  exact Iff.rfl

/-- Every row is in the block of the point it falls in. -/
theorem cover2_10 (i : S320000x16.Idx) : ∃ t : Fin cfg2.N, (cfg2.win 10).flush t = true ∧ i ∈ ((cfg2.win 10).blk t).view.set := by
  have hi0 : (i 0).val < 320000 := (i 0).isLt
  have hi1 : (i 1).val < 16 := (i 1).isLt
  have hN : cfg2.N = 160 := N_2
  refine ⟨⟨(i 0).val / 2000, by omega⟩, flush2_10 _, ?_⟩
  rw [mem_blk2_10]
  obtain ⟨e0r, e0c, e1r, e1c, e2r, e2c, e10r, e10c, e3r, e3c, e4r, e4c, e5r, e5c, e6r, e6c, e7r, e7c, e8r, e8c, e9r, e9c⟩ := idx_facts2 ⟨(i 0).val / 2000, by omega⟩
  intro a
  match a with
  | ⟨0, _⟩ =>
    show win2_10.index ⟨(i 0).val / 2000, _⟩ (0 : Fin 2) * 2000 ≤ (i 0).val ∧ (i 0).val < win2_10.index ⟨(i 0).val / 2000, _⟩ (0 : Fin 2) * 2000 + 2000
    rw [e10r]; dsimp only; omega
  | ⟨1, _⟩ =>
    show win2_10.index ⟨(i 0).val / 2000, _⟩ (1 : Fin 2) * 16 ≤ (i 1).val ∧ (i 1).val < win2_10.index ⟨(i 0).val / 2000, _⟩ (1 : Fin 2) * 16 + 16
    rw [e10c]; omega

/-- THE RESULT ARRAY after the region. -/
theorem final2_10 (c : Dev nD) : (dat2 (F := Ideal) (Ix := Ix) (Name := Name) (U := U) (Lvl := Lvl) V O Rc c).arrAt 10 cfg2.N = G2 V c :=
  (dat2 (F := Ideal) (Ix := Ix) (Name := Name) (U := U) (Lvl := Lvl) V O Rc c).arrAt_eq_of_cover 10 _ (fun t _ => flushed2_10_eq V O Rc c t) cover2_10

end

end Cert.KernelIdeal.TcBody

end
-- ==== Proof.TcValue0.lean ====
import proofs.«210884_g88510686036700_cont_sun_m_1211_45_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TcBody

open Cert.KernelIdeal Cert.KernelIdeal.Gen
open Idealize.ShloMosaic Idealize.ShloMosaic.ValueIdx
open scoped BigOperators

/-! ## The projection kernel's stored values at an index, at the ideal values -/

/-- A matrix product of an `10000×128` by a `128×128` block into the zero block, at an index: the sum over the shared axis. -/
theorem matmul_proj_apply (a : FVec Ideal S10000x128 .f32) (b : FVec Ideal S128x128 .f32) (p : Fin 10000) (q : Fin 128) :
    matmul dot_S10000x128_S128x128_S10000x128_1_0_0_1_n_n none a b (constant (F := Ideal) S10000x128 .f32 0x00000000#32) (ix2 p q)
      = ∑ k : Fin 128, a (ix2 p k) * b (ix2 k q) := by
  refine (Ideal.matmul_constant_zero_apply dot_S10000x128_S128x128_S10000x128_1_0_0_1_n_n none a b (ix2 p q)).trans ?_
  rw [← Equiv.sum_comp (contrEquiv1 dot_S10000x128_S128x128_S10000x128_1_0_0_1_n_n 128 rfl rfl).symm]
  refine Finset.sum_congr rfl fun k _ => ?_
  have hl : dot_S10000x128_S128x128_S10000x128_1_0_0_1_n_n.lhsIdx (ix2 p q) ((contrEquiv1 dot_S10000x128_S128x128_S10000x128_1_0_0_1_n_n 128 rfl rfl).symm k) = ix2 p k := by
    funext a
    match a with
    | ⟨0, _⟩ => rfl
    | ⟨1, _⟩ => exact Fin.ext ((DotDims.lhsIdx_val_of_single _ rfl _ _).trans (contrEquiv1_symm_val _ 128 rfl rfl k))
  have hr : dot_S10000x128_S128x128_S10000x128_1_0_0_1_n_n.rhsIdx (ix2 p q) ((contrEquiv1 dot_S10000x128_S128x128_S10000x128_1_0_0_1_n_n 128 rfl rfl).symm k) = ix2 k q := by
    funext a
    match a with
    | ⟨0, _⟩ => exact Fin.ext ((DotDims.rhsIdx_val_of_single _ rfl _ _).trans (contrEquiv1_symm_val _ 128 rfl rfl k))
    | ⟨1, _⟩ => rfl
  rw [hl, hr]

/-- The first stored value at `(p, q)`: row `p` of the node block times column `q` of the first weight block. -/
theorem pay0_1_apply (v0 : Vec Ideal S10000x128 .f32) (v1 : Vec Ideal S128x128 .f32) (p : Fin 10000) (q : Fin 128) :
    k0_pay1 v0 v1 (ix2 p q) = ∑ k : Fin 128, v0 (ix2 p k) * v1 (ix2 k q) := by
  unfold k0_pay1
  rw [shapeCast_self]
  exact matmul_proj_apply v0 v1 p q

/-- The second stored value at `(p, q)`: row `p` times column `q` of the second weight block, plus the bias at `q`. -/
theorem pay0_2_apply (v0 : Vec Ideal S10000x128 .f32) (v5 : Vec Ideal S128x128 .f32) (v8 : Vec Ideal S1x128 .f32) (p : Fin 10000) (q : Fin 128) :
    k0_pay2 v0 v5 v8 (ix2 p q) = (∑ k : Fin 128, v0 (ix2 p k) * v5 (ix2 k q)) + v8 (ix2 (0 : Fin 1) q) := by
  unfold k0_pay2
  rw [shapeCast_self, shapeCast_self, addf_apply, matmul_proj_apply, broadcastTo_1b_ab_apply]

end Cert.KernelIdeal.TcBody

end
-- ==== Proof.TcValue.lean ====
import proofs.«210884_g88510686036700_cont_sun_m_1211_45_alg».proof.Proof.TcFinal0
import proofs.«210884_g88510686036700_cont_sun_m_1211_45_alg».proof.Proof.TcFinal2
import proofs.«210884_g88510686036700_cont_sun_m_1211_45_alg».proof.Proof.TcValue0

set_option maxRecDepth 16384

noncomputable section

namespace Cert.KernelIdeal.TcBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {Ix : Type} [DecidableEq Ix] {Name : Type} [DecidableEq Name] {U : Type} [URA U] {Lvl : Type} [Preorder Lvl]

/-! ## The three result arrays after their regions, entry by entry, at the ideal values -/

/-- A buffer's contents read as an array of extended reals of a stated shape (the identity: it only fixes the type). -/
abbrev asReal (S : Shape) (x : S.Idx → EReal) : S.Idx → EReal := x

variable (V0 V2 : (c : Dev nD) → (b : Ref sig .tc) → Buf (Elt Ideal) ((c : Thread nD τ).loc b)) (O0 O2 : Dev nD → CellTallies nD τ sig Ix) (R0 R2 : Dev nD → Set (SemLoc sig × Ix))

/-- The first projected table: node features times the first weight block. -/
theorem proj_u_apply (c : Dev nD) (p : Fin 10000) (q : Fin 128) :
    asReal S10000x128 ((pdats (F := Ideal) (Ix := Ix) (Name := Name) (U := U) (Lvl := Lvl) V0 V2 O0 O2 R0 R2 0 c).arrAt 4 cfg0.N) (ix2 p q)
      = ∑ k : Fin 128, asReal S10000x128 (V0 c main_arg1) (ix2 p k) * asReal S128x128 (V0 c main_v0) (ix2 k q) :=
  (congrFun (final0_4 V0 O0 R0 c) (ix2 p q)).trans (pay0_1_apply _ _ p q)

/-- The second projected table: node features times the second weight block, plus the bias row. -/
theorem proj_v_apply (c : Dev nD) (p : Fin 10000) (q : Fin 128) :
    asReal S10000x128 ((pdats (F := Ideal) (Ix := Ix) (Name := Name) (U := U) (Lvl := Lvl) V0 V2 O0 O2 R0 R2 0 c).arrAt 5 cfg0.N) (ix2 p q)
      = (∑ k : Fin 128, asReal S10000x128 (V0 c main_arg1) (ix2 p k) * asReal S128x128 (V0 c main_v1) (ix2 k q))
        + asReal S1x128 (V0 c main_v3) (ix2 (0 : Fin 1) q) :=
  (congrFun (final0_5 V0 O0 R0 c) (ix2 p q)).trans (pay0_2_apply _ _ _ p q)

/-- The program's result: the residual sum of the edge features and the layer-normalised MLP of the gathered rows. -/
theorem mlp_out_apply (c : Dev nD) (r : Fin 320000) (j : Fin 16) :
    asReal S320000x16 ((pdats (F := Ideal) (Ix := Ix) (Name := Name) (U := U) (Lvl := Lvl) V0 V2 O0 O2 R0 R2 1 c).arrAt 10 cfg2.N) (ix2 r j)
      = mlpOut (n := 320000) (V2 c main_v11) (V2 c main_v14_0) (V2 c main_v14_1) (V2 c main_v2) (V2 c main_arg5) (V2 c main_v15)
          (V2 c main_arg7) (V2 c main_v16) (V2 c main_v17) (V2 c main_v18) r j :=
  congrFun (final2_10 V2 O2 R2 c) (ix2 r j)

end Cert.KernelIdeal.TcBody

end
-- ==== Proof.TcOut.lean ====
import proofs.«210884_g88510686036700_cont_sun_m_1211_45_alg».proof.Proof.TcHost
import proofs.«210884_g88510686036700_cont_sun_m_1211_45_alg».proof.Proof.TcValue

set_option maxRecDepth 16384

noncomputable section

namespace Cert.Proof.KI

open Cert.KernelIdeal Cert.KernelIdeal.Gen Cert.KernelIdeal.TcBody
open Idealize.ShloMosaic Idealize.ShloMosaic.TcCoe Idealize.ShloMosaic.ValueIdx
open Idealize.ShloMosaic.SparseCore (S V T)
open Idealize.ShloMosaic.SparseCore.Cfg (HIx)
open Idealize.SL Idealize.SL.Sem

/-! ## The program's result, entry by entry, from the arguments and the two gathered arrays, at the ideal values -/

section Out
variable (m : (ℓ : Loc nD τ sig) → Buf (Elt Ideal) ℓ) (O0 O2 : Dev nD → CellTallies nD τ sig (HIx 1)) (R0 R2 : Dev nD → Set (SemLoc sig × HIx 1))
  (X : Dev nD → Valuation τ sig (Elt Ideal))

/-- The third block of the first layer's weights, the biases and the normalisation's scale and shift as rows: the
    operands of the MLP as the host prepares them from the arguments. -/
abbrev w1cOf (d : Dev nD) : S16x128.Idx → EReal :=
  extractStridedSlice S16x128 ![256, 0] (m (d, Proc.devRef .tc main_arg3) : (⟨S272x128, .f32⟩ : BufTy).Contents (Elt Ideal)) slices_S272x128_S16x128_256_0
abbrev b2Of (d : Dev nD) : S1x128.Idx → EReal :=
  shapeCast S1x128 (m (d, Proc.devRef .tc main_arg6) : (⟨S128, .f32⟩ : BufTy).Contents (Elt Ideal)) shapeCasts_S128_S1x128
abbrev b3Of (d : Dev nD) : S1x16.Idx → EReal :=
  shapeCast S1x16 (m (d, Proc.devRef .tc main_arg8) : (⟨S16, .f32⟩ : BufTy).Contents (Elt Ideal)) shapeCasts_S16_S1x16
abbrev gOf (d : Dev nD) : S1x16.Idx → EReal :=
  shapeCast S1x16 (m (d, Proc.devRef .tc main_arg9) : (⟨S16, .f32⟩ : BufTy).Contents (Elt Ideal)) shapeCasts_S16_S1x16
abbrev beOf (d : Dev nD) : S1x16.Idx → EReal :=
  shapeCast S1x16 (m (d, Proc.devRef .tc main_arg10) : (⟨S16, .f32⟩ : BufTy).Contents (Elt Ideal)) shapeCasts_S16_S1x16

/-- THE RESULT ARRAY AT THE RETURN, at `(e, j)`: when the SparseCore call changes the two gathered arrays only, it is the
    residual sum of the edge features and the layer-normalised MLP of the gathered rows, over the arguments. -/
theorem out_value (d : Dev nD)
    (hX : ∀ b : Ref sig .tc, b ≠ main_v14_0 → b ≠ main_v14_1 → X d (Proc.devRef .tc b) = VCall m O0 R0 d (Proc.devRef .tc b))
    (e : Fin 320000) (j : Fin 16) :
    asReal S320000x16 (VEnd X O2 R2 d (Proc.devRef .tc main_v19)) (ix2 e j)
      = mlpOut (n := 320000) (m (d, Proc.devRef .tc main_arg0)) (X d (Proc.devRef .tc main_v14_0)) (X d (Proc.devRef .tc main_v14_1))
          (w1cOf m d) (m (d, Proc.devRef .tc main_arg5)) (b2Of m d) (m (d, Proc.devRef .tc main_arg7)) (b3Of m d) (gOf m d) (beOf m d) e j := by
  have h11 : atTc (WEntry2 X) d main_v11 = m (d, Proc.devRef .tc main_arg0) :=
    (WEntry2_of_not_written X d main_v11 (by decide)).trans ((hX main_v11 (by decide) (by decide)).trans (VCall_v11 m O0 R0 d))
  have h140 : atTc (WEntry2 X) d main_v14_0 = X d (Proc.devRef .tc main_v14_0) := WEntry2_of_not_written X d main_v14_0 (by decide)
  have h141 : atTc (WEntry2 X) d main_v14_1 = X d (Proc.devRef .tc main_v14_1) := WEntry2_of_not_written X d main_v14_1 (by decide)
  have h2 : atTc (WEntry2 X) d main_v2 = w1cOf m d :=
    (WEntry2_of_not_written X d main_v2 (by decide)).trans ((hX main_v2 (by decide) (by decide)).trans
      ((VCall_eq_entry0 m O0 R0 d main_v2 (by decide) (by decide) (by decide)).trans (WEntry0_v2 m d)))
  have h5 : atTc (WEntry2 X) d main_arg5 = m (d, Proc.devRef .tc main_arg5) :=
    (WEntry2_of_not_written X d main_arg5 (by decide)).trans ((hX main_arg5 (by decide) (by decide)).trans (VCall_main_arg5 m O0 R0 d))
  have h7 : atTc (WEntry2 X) d main_arg7 = m (d, Proc.devRef .tc main_arg7) :=
    (WEntry2_of_not_written X d main_arg7 (by decide)).trans ((hX main_arg7 (by decide) (by decide)).trans (VCall_main_arg7 m O0 R0 d))
  have h15 : atTc (WEntry2 X) d main_v15 = b2Of m d :=
    (WEntry2_v15 X d).trans (congrArg (fun x : (⟨S128, .f32⟩ : BufTy).Contents (Elt Ideal) => (shapeCast S1x128 x shapeCasts_S128_S1x128 : S1x128.Idx → EReal)) ((hX main_arg6 (by decide) (by decide)).trans (VCall_main_arg6 m O0 R0 d)))
  have h16 : atTc (WEntry2 X) d main_v16 = b3Of m d :=
    (WEntry2_v16 X d).trans (congrArg (fun x : (⟨S16, .f32⟩ : BufTy).Contents (Elt Ideal) => (shapeCast S1x16 x shapeCasts_S16_S1x16 : S1x16.Idx → EReal)) ((hX main_arg8 (by decide) (by decide)).trans (VCall_main_arg8 m O0 R0 d)))
  have h17 : atTc (WEntry2 X) d main_v17 = gOf m d :=
    (WEntry2_v17 X d).trans (congrArg (fun x : (⟨S16, .f32⟩ : BufTy).Contents (Elt Ideal) => (shapeCast S1x16 x shapeCasts_S16_S1x16 : S1x16.Idx → EReal)) ((hX main_arg9 (by decide) (by decide)).trans (VCall_main_arg9 m O0 R0 d)))
  have h18 : atTc (WEntry2 X) d main_v18 = beOf m d :=
    (WEntry2_v18 X d).trans (congrArg (fun x : (⟨S16, .f32⟩ : BufTy).Contents (Elt Ideal) => (shapeCast S1x16 x shapeCasts_S16_S1x16 : S1x16.Idx → EReal)) ((hX main_arg10 (by decide) (by decide)).trans (VCall_main_arg10 m O0 R0 d)))
  rw [VEnd_v19, final2_10 (atTc (WEntry2 X)) O2 R2 d]
  unfold G2
  rw [h11, h140, h141, h2, h5, h7, h15, h16, h17, h18]

end Out

/-! ## The two projected tables the SparseCore call reads, entry by entry, from the arguments -/

section Tables
variable (m : (ℓ : Loc nD τ sig) → Buf (Elt Ideal) ℓ) (O0 : Dev nD → CellTallies nD τ sig (HIx 1)) (R0 : Dev nD → Set (SemLoc sig × HIx 1))

open scoped BigOperators in
/-- The first table at node `p`, unit `q`: the node's features times rows 0 to 127 of the first layer's weights. -/
theorem u_value (d : Dev nD) (p : Fin 10000) (q : Fin 128) :
    asReal S10000x128 (VCall m O0 R0 d (Proc.devRef .tc main_v4_0)) (ix2 p q)
      = ∑ k : Fin 128, asReal S10000x128 (m (d, Proc.devRef .tc main_arg1)) (ix2 p k)
          * asReal S272x128 (m (d, Proc.devRef .tc main_arg3)) (ix2 (⟨k.val, by omega⟩ : Fin 272) q) := by
  rw [VCall_v4_0]
  refine (proj_u_apply (Ix := HIx 1) (Name := ℕ) (U := UU) (Lvl := ℕ) (atTc (WEntry0 m)) (atTc (WEntry0 m)) O0 O0 R0 R0 d p q).trans ?_
  refine Finset.sum_congr rfl fun k _ => ?_
  refine congrArg₂ (· * ·) ?_ (WEntry0_v0_apply m d k q)
  exact congrFun (WEntry0_of_not_written m d main_arg1 (by decide)) (ix2 p k)

open scoped BigOperators in
/-- The second table at node `p`, unit `q`: the node's features times rows 128 to 255 of the weights, plus the first bias. -/
theorem v_value (d : Dev nD) (p : Fin 10000) (q : Fin 128) :
    asReal S10000x128 (VCall m O0 R0 d (Proc.devRef .tc main_v4_1)) (ix2 p q)
      = (∑ k : Fin 128, asReal S10000x128 (m (d, Proc.devRef .tc main_arg1)) (ix2 p k)
          * asReal S272x128 (m (d, Proc.devRef .tc main_arg3)) (ix2 (⟨128 + k.val, by omega⟩ : Fin 272) q))
        + asReal S128 (m (d, Proc.devRef .tc main_arg4)) (ix1 q) := by
  rw [VCall_v4_1]
  refine (proj_v_apply (Ix := HIx 1) (Name := ℕ) (U := UU) (Lvl := ℕ) (atTc (WEntry0 m)) (atTc (WEntry0 m)) O0 O0 R0 R0 d p q).trans ?_
  refine congrArg₂ (· + ·) (Finset.sum_congr rfl fun k _ => ?_) (WEntry0_v3_apply m d 0 q)
  refine congrArg₂ (· * ·) ?_ (WEntry0_v1_apply m d k q)
  exact congrFun (WEntry0_of_not_written m d main_arg1 (by decide)) (ix2 p k)

end Tables

end Cert.Proof.KI

end
-- ==== Proof.Bridge.lean ====
/-
  The kernel's entry-by-entry value is the reference's (untrusted; pure mathematics, no program): the three-layer MLP
  and layer norm as the kernel computes them — the first layer from the two projected-and-gathered rows, the bias
  folded into the second, and the normalisation a product with the reciprocal square root — against the reference's
  `outAt`: the first layer's three-way sum re-associated (addition of extended reals is commutative and associative),
  the next two layers and the row statistics equal by congruence, and the one law that needs finiteness: for a real
  variance `v ≥ 0` and the positive real `eps`, `a · rsqrt (v + eps) = a / sqrt (v + eps)`. Every intermediate is a
  real because sums, products, differences and maxima of reals are reals.
-/
import proofs.«210884_g88510686036700_cont_sun_m_1211_45_alg».proof.Proof.RefValue
import proofs.«210884_g88510686036700_cont_sun_m_1211_45_alg».proof.Proof.TcValue2

noncomputable section

open scoped BigOperators

namespace Cert.Proof.Bridge

open Idealize.ShloMosaic Idealize.ShloMosaic.ValueIdx Cert.ReferenceIdeal.RefValue Cert.KernelIdeal.TcBody

/-! ## Extended reals that are real numbers -/

/-- `x` is a real number. -/
def IsR (x : EReal) : Prop := ∃ r : ℝ, x = (r : EReal)

/-- `x` is a nonnegative real number. -/
def IsNN (x : EReal) : Prop := ∃ r : ℝ, 0 ≤ r ∧ x = (r : EReal)

theorem isR_of_ne {x : EReal} (h : x ≠ ⊤ ∧ x ≠ ⊥) : IsR x := ⟨x.toReal, (EReal.coe_toReal h.1 h.2).symm⟩
theorem isR_zero : IsR 0 := ⟨0, EReal.coe_zero.symm⟩
theorem isR_add {x y : EReal} (hx : IsR x) (hy : IsR y) : IsR (x + y) := by
  obtain ⟨a, rfl⟩ := hx; obtain ⟨b, rfl⟩ := hy; exact ⟨a + b, (EReal.coe_add a b).symm⟩
theorem isR_mul {x y : EReal} (hx : IsR x) (hy : IsR y) : IsR (x * y) := by
  obtain ⟨a, rfl⟩ := hx; obtain ⟨b, rfl⟩ := hy; exact ⟨a * b, (EReal.coe_mul a b).symm⟩
theorem isR_sub {x y : EReal} (hx : IsR x) (hy : IsR y) : IsR (x - y) := by
  obtain ⟨a, rfl⟩ := hx; obtain ⟨b, rfl⟩ := hy; exact ⟨a - b, (EReal.coe_sub a b).symm⟩
theorem isR_max {x y : EReal} (hx : IsR x) (hy : IsR y) : IsR (max x y) := by
  obtain ⟨a, rfl⟩ := hx; obtain ⟨b, rfl⟩ := hy; exact ⟨max a b, (EReal.coe_strictMono.monotone.map_max).symm⟩
theorem isR_sum {ι : Type} (s : Finset ι) (f : ι → EReal) (h : ∀ i ∈ s, IsR (f i)) : IsR (∑ i ∈ s, f i) :=
  Finset.sum_induction f IsR (fun _ _ => isR_add) isR_zero h

theorem isNN_zero : IsNN 0 := ⟨0, le_rfl, EReal.coe_zero.symm⟩
theorem isNN_add {x y : EReal} (hx : IsNN x) (hy : IsNN y) : IsNN (x + y) := by
  obtain ⟨a, ha, rfl⟩ := hx; obtain ⟨b, hb, rfl⟩ := hy; exact ⟨a + b, add_nonneg ha hb, (EReal.coe_add a b).symm⟩
theorem isNN_sum {ι : Type} (s : Finset ι) (f : ι → EReal) (h : ∀ i ∈ s, IsNN (f i)) : IsNN (∑ i ∈ s, f i) :=
  Finset.sum_induction f IsNN (fun _ _ => isNN_add) isNN_zero h
theorem isNN_mul_self {x : EReal} (hx : IsR x) : IsNN (x * x) := by
  obtain ⟨a, rfl⟩ := hx; exact ⟨a * a, mul_self_nonneg a, (EReal.coe_mul a a).symm⟩

/-! ## The two literals and the law -/

/-- The pattern of `16.0` denotes the real 16. -/
theorem ofBits_16 : Ideal.ofBits .f32 0x41800000#32 = ((16 : ℝ) : EReal) := by
  simp [Ideal.ofBits, Ideal.ieee, -EReal.coe_mul]; norm_num

/-- The pattern of `eps` denotes a positive real. -/
theorem ofBits_eps : ∃ ε : ℝ, 0 < ε ∧ Ideal.ofBits .f32 0x3727C5AC#32 = (ε : EReal) := by
  refine ⟨(10995116 : ℝ) / 2 ^ 40, by positivity, ?_⟩
  simp [Ideal.ofBits, Ideal.ieee, -EReal.coe_mul]; norm_num

/-- Division by the literal 16 is the product with the real 1/16. -/
theorem div16 (x : EReal) : Ideal.div x (Ideal.ofBits .f32 0x41800000#32) = x * (((1 / 16 : ℝ) : ℝ) : EReal) := by
  rw [ofBits_16]; exact Ideal.div_coe (by norm_num) x
theorem isR_div16 {x : EReal} (hx : IsR x) : IsR (Ideal.div x (Ideal.ofBits .f32 0x41800000#32)) := by
  rw [div16]; exact isR_mul hx ⟨_, rfl⟩
theorem isNN_div16 {x : EReal} (hx : IsNN x) : IsNN (Ideal.div x (Ideal.ofBits .f32 0x41800000#32)) := by
  rw [div16]; obtain ⟨a, ha, rfl⟩ := hx
  exact ⟨a * (1 / 16), mul_nonneg ha (by norm_num), (EReal.coe_mul _ _).symm⟩

/-- Over a positive real the product with the reciprocal square root is the quotient by the square root. -/
theorem mul_rsqrt_eq (a : EReal) {p : ℝ} (hp : 0 < p) :
    a * Ideal.rsqrt (p : EReal) = Ideal.div a (Ideal.sqrt (p : EReal)) := by
  have hs : Real.sqrt p ≠ 0 := (Real.sqrt_pos.2 hp).ne'
  rw [Ideal.sqrt_coe, Ideal.rsqrt_coe, if_neg (not_lt.2 hp.le), if_neg (not_lt.2 hp.le), if_neg hp.ne',
    Ideal.div_coe hs, one_div]

/-- The layer norm's normalisation of a row of reals, both ways. -/
theorem ln_law (Y : Fin 16 → EReal) (hY : ∀ q, IsR (Y q)) (q : Fin 16) :
    (Y q - muOf Y) * Ideal.rsqrt (varOf Y + Ideal.ofBits .f32 0x3727C5AC#32)
      = Ideal.div (Y q - muOf Y) (Ideal.sqrt (varOf Y + Ideal.ofBits .f32 0x3727C5AC#32)) := by
  have hmu : IsR (muOf Y) := by
    unfold muOf; exact isR_div16 (isR_add isR_zero (isR_sum _ _ fun q _ => hY q))
  have hvar : IsNN (varOf Y) := by
    unfold varOf
    exact isNN_div16 (isNN_add isNN_zero (isNN_sum _ _ fun q _ => isNN_mul_self (isR_sub (hY q) hmu)))
  obtain ⟨v, hv, hve⟩ := hvar
  obtain ⟨ε, hε, hεe⟩ := ofBits_eps
  rw [hve, hεe, ← EReal.coe_add]
  exact mul_rsqrt_eq _ (add_pos_of_nonneg_of_pos hv hε)

/-! ## The bridge -/

section Bridge

variable (ef : FVec Ideal Cert.ReferenceIdeal.S320000x16 .f32) (nf : FVec Ideal Cert.ReferenceIdeal.S10000x128 .f32) (ei : IVec Cert.ReferenceIdeal.S2x320000 32)
  (W1 : FVec Ideal Cert.ReferenceIdeal.S272x128 .f32) (b1 : FVec Ideal Cert.ReferenceIdeal.S128 .f32) (W2 : FVec Ideal Cert.ReferenceIdeal.S128x128 .f32)
  (b2 : FVec Ideal Cert.ReferenceIdeal.S128 .f32) (W3 : FVec Ideal Cert.ReferenceIdeal.S128x16 .f32) (b3 gamma beta : FVec Ideal Cert.ReferenceIdeal.S16 .f32)
  (s t : (⟨2, ![320000, 128]⟩ : Shape).Idx → EReal) (w1c : Cert.KernelIdeal.S16x128.Idx → EReal) (w2 : Cert.KernelIdeal.S128x128.Idx → EReal)
  (b2' : Cert.KernelIdeal.S1x128.Idx → EReal) (w3 : Cert.KernelIdeal.S128x16.Idx → EReal) (b3' g' be' : Cert.KernelIdeal.S1x16.Idx → EReal)

/-- The first hidden layer: the bias moved out of the second gathered row. -/
theorem h1_bridge
    (hs : ∀ (e : Fin 320000) (k : Fin 128), s (ix2 e k) = ∑ k' : Fin 128, nf (ix2 (node ei 0 e) k') * W1 (ix2 (c0 k') k))
    (ht : ∀ (e : Fin 320000) (k : Fin 128),
      t (ix2 e k) = (∑ k' : Fin 128, nf (ix2 (node ei 1 e) k') * W1 (ix2 (c1 k') k)) + b1 (ix1 k))
    (hw1c : ∀ (j : Fin 16) (k : Fin 128), w1c (ix2 j k) = W1 (ix2 (c2 j) k))
    (e : Fin 320000) (k : Fin 128) :
    mlpH1 (n := 320000) ef s t w1c e k = h1At ef nf ei W1 b1 e k := by
  have h3 : ∑ j : Fin 16, ef (ix2 e j) * w1c (ix2 j k) = ∑ k' : Fin 16, ef (ix2 e k') * W1 (ix2 (c2 k') k) :=
    Finset.sum_congr rfl fun j _ => by rw [hw1c j k]
  unfold mlpH1 h1At z1At
  rw [hs e k, ht e k, h3]
  refine congrArg (max · 0) ?_
  ac_rfl

/-- The second hidden layer. -/
theorem h2_bridge
    (hs : ∀ (e : Fin 320000) (k : Fin 128), s (ix2 e k) = ∑ k' : Fin 128, nf (ix2 (node ei 0 e) k') * W1 (ix2 (c0 k') k))
    (ht : ∀ (e : Fin 320000) (k : Fin 128),
      t (ix2 e k) = (∑ k' : Fin 128, nf (ix2 (node ei 1 e) k') * W1 (ix2 (c1 k') k)) + b1 (ix1 k))
    (hw1c : ∀ (j : Fin 16) (k : Fin 128), w1c (ix2 j k) = W1 (ix2 (c2 j) k))
    (hw2 : ∀ j k : Fin 128, w2 (ix2 j k) = W2 (ix2 j k)) (hb2 : ∀ k : Fin 128, b2' (ix2 (0 : Fin 1) k) = b2 (ix1 k))
    (e : Fin 320000) (k : Fin 128) :
    mlpH2 (n := 320000) ef s t w1c w2 b2' e k = h2At ef nf ei W1 b1 W2 b2 e k := by
  have hsum : ∑ j : Fin 128, mlpH1 (n := 320000) ef s t w1c e j * w2 (ix2 j k)
      = ∑ j : Fin 128, h1At ef nf ei W1 b1 e j * W2 (ix2 j k) :=
    Finset.sum_congr rfl fun j _ => by rw [h1_bridge ef nf ei W1 b1 s t w1c hs ht hw1c e j, hw2 j k]
  unfold mlpH2 h2At
  rw [hsum, hb2 k]

/-- The third layer. -/
theorem y_bridge
    (hs : ∀ (e : Fin 320000) (k : Fin 128), s (ix2 e k) = ∑ k' : Fin 128, nf (ix2 (node ei 0 e) k') * W1 (ix2 (c0 k') k))
    (ht : ∀ (e : Fin 320000) (k : Fin 128),
      t (ix2 e k) = (∑ k' : Fin 128, nf (ix2 (node ei 1 e) k') * W1 (ix2 (c1 k') k)) + b1 (ix1 k))
    (hw1c : ∀ (j : Fin 16) (k : Fin 128), w1c (ix2 j k) = W1 (ix2 (c2 j) k))
    (hw2 : ∀ j k : Fin 128, w2 (ix2 j k) = W2 (ix2 j k)) (hb2 : ∀ k : Fin 128, b2' (ix2 (0 : Fin 1) k) = b2 (ix1 k))
    (hw3 : ∀ (j : Fin 128) (q : Fin 16), w3 (ix2 j q) = W3 (ix2 j q)) (hb3 : ∀ q : Fin 16, b3' (ix2 (0 : Fin 1) q) = b3 (ix1 q))
    (e : Fin 320000) (q : Fin 16) :
    mlpY (n := 320000) ef s t w1c w2 b2' w3 b3' e q = yAt ef nf ei W1 b1 W2 b2 W3 b3 e q := by
  have hsum : ∑ j : Fin 128, mlpH2 (n := 320000) ef s t w1c w2 b2' e j * w3 (ix2 j q)
      = ∑ j : Fin 128, h2At ef nf ei W1 b1 W2 b2 e j * W3 (ix2 j q) :=
    Finset.sum_congr rfl fun j _ => by
      rw [h2_bridge ef nf ei W1 b1 W2 b2 s t w1c w2 b2' hs ht hw1c hw2 hb2 e j, hw3 j q]
  unfold mlpY yAt
  rw [hsum, hb3 q]

/-- With real inputs the third layer's output is real. -/
theorem isR_yAt
    (fef : ∀ i, ef i ≠ ⊤ ∧ ef i ≠ ⊥) (fnf : ∀ i, nf i ≠ ⊤ ∧ nf i ≠ ⊥) (fW1 : ∀ i, W1 i ≠ ⊤ ∧ W1 i ≠ ⊥)
    (fb1 : ∀ i, b1 i ≠ ⊤ ∧ b1 i ≠ ⊥) (fW2 : ∀ i, W2 i ≠ ⊤ ∧ W2 i ≠ ⊥) (fb2 : ∀ i, b2 i ≠ ⊤ ∧ b2 i ≠ ⊥)
    (fW3 : ∀ i, W3 i ≠ ⊤ ∧ W3 i ≠ ⊥) (fb3 : ∀ i, b3 i ≠ ⊤ ∧ b3 i ≠ ⊥) (e : Fin 320000) (q : Fin 16) :
    IsR (yAt ef nf ei W1 b1 W2 b2 W3 b3 e q) := by
  have hz : ∀ k, IsR (z1At ef nf ei W1 b1 e k) := fun k => by
    unfold z1At
    exact isR_add (isR_add (isR_add
        (isR_sum _ _ fun k' _ => isR_mul (isR_of_ne (fnf _)) (isR_of_ne (fW1 _)))
        (isR_sum _ _ fun k' _ => isR_mul (isR_of_ne (fnf _)) (isR_of_ne (fW1 _))))
        (isR_sum _ _ fun k' _ => isR_mul (isR_of_ne (fef _)) (isR_of_ne (fW1 _))))
      (isR_of_ne (fb1 _))
  have h1 : ∀ k, IsR (h1At ef nf ei W1 b1 e k) := fun k => by
    unfold h1At; exact isR_max (hz k) isR_zero
  have h2 : ∀ k, IsR (h2At ef nf ei W1 b1 W2 b2 e k) := fun k => by
    unfold h2At
    exact isR_max (isR_add (isR_sum _ _ fun k' _ => isR_mul (h1 k') (isR_of_ne (fW2 _))) (isR_of_ne (fb2 _))) isR_zero
  unfold yAt
  exact isR_add (isR_sum _ _ fun k' _ => isR_mul (h2 k') (isR_of_ne (fW3 _))) (isR_of_ne (fb3 _))

/-- THE BRIDGE: the kernel's entry-by-entry value, over operands that are the projected-and-gathered rows and the
    reference's weights, is the reference's `outAt`, the eight float inputs the MLP reads being real. -/
theorem bridge
    (hs : ∀ (e : Fin 320000) (k : Fin 128), s (ix2 e k) = ∑ k' : Fin 128, nf (ix2 (node ei 0 e) k') * W1 (ix2 (c0 k') k))
    (ht : ∀ (e : Fin 320000) (k : Fin 128),
      t (ix2 e k) = (∑ k' : Fin 128, nf (ix2 (node ei 1 e) k') * W1 (ix2 (c1 k') k)) + b1 (ix1 k))
    (hw1c : ∀ (j : Fin 16) (k : Fin 128), w1c (ix2 j k) = W1 (ix2 (c2 j) k))
    (hw2 : ∀ j k : Fin 128, w2 (ix2 j k) = W2 (ix2 j k)) (hb2 : ∀ k : Fin 128, b2' (ix2 (0 : Fin 1) k) = b2 (ix1 k))
    (hw3 : ∀ (j : Fin 128) (q : Fin 16), w3 (ix2 j q) = W3 (ix2 j q)) (hb3 : ∀ q : Fin 16, b3' (ix2 (0 : Fin 1) q) = b3 (ix1 q))
    (hg : ∀ q : Fin 16, g' (ix2 (0 : Fin 1) q) = gamma (ix1 q)) (hbe : ∀ q : Fin 16, be' (ix2 (0 : Fin 1) q) = beta (ix1 q))
    (fef : ∀ i, ef i ≠ ⊤ ∧ ef i ≠ ⊥) (fnf : ∀ i, nf i ≠ ⊤ ∧ nf i ≠ ⊥) (fW1 : ∀ i, W1 i ≠ ⊤ ∧ W1 i ≠ ⊥)
    (fb1 : ∀ i, b1 i ≠ ⊤ ∧ b1 i ≠ ⊥) (fW2 : ∀ i, W2 i ≠ ⊤ ∧ W2 i ≠ ⊥) (fb2 : ∀ i, b2 i ≠ ⊤ ∧ b2 i ≠ ⊥)
    (fW3 : ∀ i, W3 i ≠ ⊤ ∧ W3 i ≠ ⊥) (fb3 : ∀ i, b3 i ≠ ⊤ ∧ b3 i ≠ ⊥)
    (e : Fin 320000) (j : Fin 16) :
    mlpOut (n := 320000) ef s t w1c w2 b2' w3 b3' g' be' e j = outAt ef nf ei W1 b1 W2 b2 W3 b3 gamma beta e j := by
  have hy : ∀ q, mlpY (n := 320000) ef s t w1c w2 b2' w3 b3' e q = yAt ef nf ei W1 b1 W2 b2 W3 b3 e q :=
    y_bridge ef nf ei W1 b1 W2 b2 W3 b3 s t w1c w2 b2' w3 b3' hs ht hw1c hw2 hb2 hw3 hb3 e
  have hmu : mlpMu (n := 320000) ef s t w1c w2 b2' w3 b3' e = muOf (yAt ef nf ei W1 b1 W2 b2 W3 b3 e) := by
    unfold mlpMu muOf
    rw [zero_add]
    exact congrArg (Ideal.div · _) (Finset.sum_congr rfl fun q _ => hy q)
  have hvar : mlpVar (n := 320000) ef s t w1c w2 b2' w3 b3' e = varOf (yAt ef nf ei W1 b1 W2 b2 W3 b3 e) := by
    unfold mlpVar varOf
    rw [zero_add]
    exact congrArg (Ideal.div · _) (Finset.sum_congr rfl fun q _ => by rw [hy q, hmu])
  unfold mlpOut outAt lnOf
  rw [hy j, hmu, hvar, hg j, hbe j,
    ln_law (yAt ef nf ei W1 b1 W2 b2 W3 b3 e) (isR_yAt ef nf ei W1 b1 W2 b2 W3 b3 fef fnf fW1 fb1 fW2 fb2 fW3 fb3 e) j]

end Bridge

end Cert.Proof.Bridge

end
-- ==== Proof.Bridge2.lean ====
/-
  The bridge with the gathered rows spelt as the SparseCore hands them back (untrusted; pure mathematics): the two
  gathered arrays hold, row by row, the rows of the two projected tables that the index words name; with every index
  word in `[0, 9999]` the row a word names is the reference's clamped row, so the kernel's entry-by-entry value over
  those arrays is the reference's `outAt`.
-/
import proofs.«210884_g88510686036700_cont_sun_m_1211_45_alg».proof.Proof.Bridge
import proofs.«210884_g88510686036700_cont_sun_m_1211_45_alg».proof.Proof.ScPayV

noncomputable section

open scoped BigOperators

namespace Cert.Proof.Bridge

open Idealize.ShloMosaic Idealize.ShloMosaic.ValueIdx Cert.ReferenceIdeal.RefValue Cert.KernelIdeal.TcBody
open Cert.Proof.KI (rowOfWord rowOfWord_val)

/-- An index word in `[0, 9999]`, read unsigned, is below 10000. -/
theorem toNat_lt_of_range {w : BitVec 32} (h0 : 0 ≤ w.toInt) (h1 : w.toInt ≤ 9999) : w.toNat < 10000 := by
  have hlt : 2 * w.toNat < 2 ^ 32 := BitVec.toInt_pos_iff.1 h0
  rw [BitVec.toInt_eq_toNat_of_lt hlt] at h1
  omega

/-- With the index in range the row its word names is the reference's clamped row. -/
theorem rowOfWord_eq_node (ei : IVec Cert.ReferenceIdeal.S2x320000 32)
    (hidx : ∀ i : Cert.ReferenceIdeal.S2x320000.Idx, 0 ≤ (ei i).toInt ∧ (ei i).toInt ≤ 9999) (r : Fin 2) (e : Fin 320000) :
    rowOfWord (ei (ix2 r e)) = node ei r e :=
  Fin.ext (by rw [rowOfWord_val (toNat_lt_of_range (hidx _).1 (hidx _).2), node_val ei hidx r e])

section Bridge2

variable (ef : FVec Ideal Cert.ReferenceIdeal.S320000x16 .f32) (nf : FVec Ideal Cert.ReferenceIdeal.S10000x128 .f32) (ei : IVec Cert.ReferenceIdeal.S2x320000 32)
  (W1 : FVec Ideal Cert.ReferenceIdeal.S272x128 .f32) (b1 : FVec Ideal Cert.ReferenceIdeal.S128 .f32) (W2 : FVec Ideal Cert.ReferenceIdeal.S128x128 .f32)
  (b2 : FVec Ideal Cert.ReferenceIdeal.S128 .f32) (W3 : FVec Ideal Cert.ReferenceIdeal.S128x16 .f32) (b3 gamma beta : FVec Ideal Cert.ReferenceIdeal.S16 .f32)
  (fs ft : (⟨2, ![320000, 128]⟩ : Shape).Idx → EReal) (u v : Cert.KernelIdeal.S10000x128.Idx → EReal)
  (src dst : Cert.KernelIdeal.S1x320000.Idx → BitVec 32)
  (w1c : Cert.KernelIdeal.S16x128.Idx → EReal) (w2 : Cert.KernelIdeal.S128x128.Idx → EReal)
  (b2' : Cert.KernelIdeal.S1x128.Idx → EReal) (w3 : Cert.KernelIdeal.S128x16.Idx → EReal) (b3' g' be' : Cert.KernelIdeal.S1x16.Idx → EReal)

/-- THE KERNEL'S VALUE AT `(e, j)` over the gathered arrays is the reference's. -/
theorem kernel_point
    (hidx : ∀ i : Cert.ReferenceIdeal.S2x320000.Idx, 0 ≤ (ei i).toInt ∧ (ei i).toInt ≤ 9999)
    (hfs : ∀ (e : Fin 320000) (k : Fin 128), fs (ix2 e k) = u (ix2 (rowOfWord (src (ix2 (0 : Fin 1) e))) k))
    (hft : ∀ (e : Fin 320000) (k : Fin 128), ft (ix2 e k) = v (ix2 (rowOfWord (dst (ix2 (0 : Fin 1) e))) k))
    (hu : ∀ (p : Fin 10000) (q : Fin 128), u (ix2 p q) = ∑ k : Fin 128, nf (ix2 p k) * W1 (ix2 (c0 k) q))
    (hv : ∀ (p : Fin 10000) (q : Fin 128), v (ix2 p q) = (∑ k : Fin 128, nf (ix2 p k) * W1 (ix2 (c1 k) q)) + b1 (ix1 q))
    (hsrc : ∀ e : Fin 320000, src (ix2 (0 : Fin 1) e) = ei (ix2 (0 : Fin 2) e))
    (hdst : ∀ e : Fin 320000, dst (ix2 (0 : Fin 1) e) = ei (ix2 (1 : Fin 2) e))
    (hw1c : ∀ (j : Fin 16) (k : Fin 128), w1c (ix2 j k) = W1 (ix2 (c2 j) k))
    (hw2 : ∀ j k : Fin 128, w2 (ix2 j k) = W2 (ix2 j k)) (hb2 : ∀ k : Fin 128, b2' (ix2 (0 : Fin 1) k) = b2 (ix1 k))
    (hw3 : ∀ (j : Fin 128) (q : Fin 16), w3 (ix2 j q) = W3 (ix2 j q)) (hb3 : ∀ q : Fin 16, b3' (ix2 (0 : Fin 1) q) = b3 (ix1 q))
    (hg : ∀ q : Fin 16, g' (ix2 (0 : Fin 1) q) = gamma (ix1 q)) (hbe : ∀ q : Fin 16, be' (ix2 (0 : Fin 1) q) = beta (ix1 q))
    (fef : ∀ i, ef i ≠ ⊤ ∧ ef i ≠ ⊥) (fnf : ∀ i, nf i ≠ ⊤ ∧ nf i ≠ ⊥) (fW1 : ∀ i, W1 i ≠ ⊤ ∧ W1 i ≠ ⊥)
    (fb1 : ∀ i, b1 i ≠ ⊤ ∧ b1 i ≠ ⊥) (fW2 : ∀ i, W2 i ≠ ⊤ ∧ W2 i ≠ ⊥) (fb2 : ∀ i, b2 i ≠ ⊤ ∧ b2 i ≠ ⊥)
    (fW3 : ∀ i, W3 i ≠ ⊤ ∧ W3 i ≠ ⊥) (fb3 : ∀ i, b3 i ≠ ⊤ ∧ b3 i ≠ ⊥)
    (e : Fin 320000) (j : Fin 16) :
    mlpOut (n := 320000) ef fs ft w1c w2 b2' w3 b3' g' be' e j = outAt ef nf ei W1 b1 W2 b2 W3 b3 gamma beta e j :=
  bridge ef nf ei W1 b1 W2 b2 W3 b3 gamma beta fs ft w1c w2 b2' w3 b3' g' be'
    (fun e k => by rw [hfs e k, hsrc e, rowOfWord_eq_node ei hidx 0 e, hu])
    (fun e k => by rw [hft e k, hdst e, rowOfWord_eq_node ei hidx 1 e, hv])
    hw1c hw2 hb2 hw3 hb3 hg hbe fef fnf fW1 fb1 fW2 fb2 fW3 fb3 e j

/-- The same for the whole arrays. -/
theorem kernel_array
    (hidx : ∀ i : Cert.ReferenceIdeal.S2x320000.Idx, 0 ≤ (ei i).toInt ∧ (ei i).toInt ≤ 9999)
    (hfs : ∀ (e : Fin 320000) (k : Fin 128), fs (ix2 e k) = u (ix2 (rowOfWord (src (ix2 (0 : Fin 1) e))) k))
    (hft : ∀ (e : Fin 320000) (k : Fin 128), ft (ix2 e k) = v (ix2 (rowOfWord (dst (ix2 (0 : Fin 1) e))) k))
    (hu : ∀ (p : Fin 10000) (q : Fin 128), u (ix2 p q) = ∑ k : Fin 128, nf (ix2 p k) * W1 (ix2 (c0 k) q))
    (hv : ∀ (p : Fin 10000) (q : Fin 128), v (ix2 p q) = (∑ k : Fin 128, nf (ix2 p k) * W1 (ix2 (c1 k) q)) + b1 (ix1 q))
    (hsrc : ∀ e : Fin 320000, src (ix2 (0 : Fin 1) e) = ei (ix2 (0 : Fin 2) e))
    (hdst : ∀ e : Fin 320000, dst (ix2 (0 : Fin 1) e) = ei (ix2 (1 : Fin 2) e))
    (hw1c : ∀ (j : Fin 16) (k : Fin 128), w1c (ix2 j k) = W1 (ix2 (c2 j) k))
    (hw2 : ∀ j k : Fin 128, w2 (ix2 j k) = W2 (ix2 j k)) (hb2 : ∀ k : Fin 128, b2' (ix2 (0 : Fin 1) k) = b2 (ix1 k))
    (hw3 : ∀ (j : Fin 128) (q : Fin 16), w3 (ix2 j q) = W3 (ix2 j q)) (hb3 : ∀ q : Fin 16, b3' (ix2 (0 : Fin 1) q) = b3 (ix1 q))
    (hg : ∀ q : Fin 16, g' (ix2 (0 : Fin 1) q) = gamma (ix1 q)) (hbe : ∀ q : Fin 16, be' (ix2 (0 : Fin 1) q) = beta (ix1 q))
    (fef : ∀ i, ef i ≠ ⊤ ∧ ef i ≠ ⊥) (fnf : ∀ i, nf i ≠ ⊤ ∧ nf i ≠ ⊥) (fW1 : ∀ i, W1 i ≠ ⊤ ∧ W1 i ≠ ⊥)
    (fb1 : ∀ i, b1 i ≠ ⊤ ∧ b1 i ≠ ⊥) (fW2 : ∀ i, W2 i ≠ ⊤ ∧ W2 i ≠ ⊥) (fb2 : ∀ i, b2 i ≠ ⊤ ∧ b2 i ≠ ⊥)
    (fW3 : ∀ i, W3 i ≠ ⊤ ∧ W3 i ≠ ⊥) (fb3 : ∀ i, b3 i ≠ ⊤ ∧ b3 i ≠ ⊥) :
    (fun ix : Cert.ReferenceIdeal.S320000x16.Idx => mlpOut (n := 320000) ef fs ft w1c w2 b2' w3 b3' g' be' (ix 0) (ix 1))
      = fun ix : Cert.ReferenceIdeal.S320000x16.Idx => outAt ef nf ei W1 b1 W2 b2 W3 b3 gamma beta (ix 0) (ix 1) :=
  funext fun ix => kernel_point ef nf ei W1 b1 W2 b2 W3 b3 gamma beta fs ft u v src dst w1c w2 b2' w3 b3' g' be'
    hidx hfs hft hu hv hsrc hdst hw1c hw2 hb2 hw3 hb3 hg hbe fef fnf fW1 fb1 fW2 fb2 fW3 fb3 (ix 0) (ix 1)

end Bridge2

end Cert.Proof.Bridge

end
-- ==== Proof.KernelValue.lean ====
import proofs.«210884_g88510686036700_cont_sun_m_1211_45_alg».proof.Proof.KernelIdx
import proofs.«210884_g88510686036700_cont_sun_m_1211_45_alg».proof.Proof.TcOut
import proofs.«210884_g88510686036700_cont_sun_m_1211_45_alg».proof.Proof.Bridge2

set_option maxRecDepth 16384

noncomputable section

namespace Cert.Proof.KI

open Cert.KernelIdeal Cert.KernelIdeal.Gen Cert.KernelIdeal.TcBody
open Idealize.ShloMosaic Idealize.ShloMosaic.TcCoe Idealize.ShloMosaic.ValueIdx
open Idealize.ShloMosaic.SparseCore (S V T)
open Idealize.ShloMosaic.SparseCore.Cfg (HIx)
open Idealize.SL Idealize.SL.Sem
open Cert.ReferenceIdeal.RefValue (outAt c0 c1 c2)

/-- THE RESULT ARRAY AT THE RETURN IS THE REFERENCE'S: under the precondition, with the two gathered arrays holding,
    row by row, the rows of the projected tables that the index rows name, the result array at the return is the
    reference's result entry by entry, over the argument arrays. -/
theorem result_value (m : (ℓ : Loc nD τ sig) → Buf (Elt Ideal) ℓ)
    (hpre : ∀ c : Dev nD, Cert.Pre_input_domain.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = fun _ => 1#1)
    (d : Dev nD) (fs : s'.ty.Contents (Elt Ideal)) (ft : t'.ty.Contents (Elt Ideal))
    (hfs : ∀ e, GathS (cuOf m) (csrcOf m) d fs e) (hft : ∀ e, GathT (cvOf m) (cdstOf m) d ft e) :
    VEnd (XAfter m fs ft) (O2 (F := Ideal)) (R2 (F := Ideal)) d (Proc.devRef .tc main_v19)
      = fun ix => outAt (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10)) (ix 0) (ix 1) := by
  funext ix
  obtain ⟨e, j, rfl⟩ : ∃ (e : Fin 320000) (j : Fin 16), ix = ix2 e j := ⟨ix 0, ix 1, eq_ix2 ix⟩
  have hX : ∀ b : Ref sig .tc, b ≠ main_v14_0 → b ≠ main_v14_1 →
      XAfter m fs ft d (Proc.devRef .tc b) = VCall m (O0 (F := Ideal)) (R0 (F := Ideal)) d (Proc.devRef .tc b) :=
    fun b h0 h1 => afterCall_of_ne _ fs ft (StableHlo.devRef_ne_of_ne h0) (StableHlo.devRef_ne_of_ne h1)
  have hv := out_value m (O0 (F := Ideal)) (O2 (F := Ideal)) (R0 (F := Ideal)) (R2 (F := Ideal)) (XAfter m fs ft) d hX e j
  have hs : XAfter m fs ft d (Proc.devRef .tc main_v14_0) = fs := afterCall_s _ fs ft
  have ht : XAfter m fs ft d (Proc.devRef .tc main_v14_1) = ft := afterCall_t _ fs ft
  rw [hs, ht] at hv
  refine hv.trans ?_
  obtain ⟨fef, fnf, fW1, fb1, fW2, fb2, fW3, fb3, -, -⟩ :=
    Cert.Pre_input_domain.PreFacts.finite_args _ _ _ _ _ _ _ _ _ _ _ (hpre d)
  exact Cert.Proof.Bridge.kernel_point (m (d, Proc.devRef .tc main_arg0)) (m (d, Proc.devRef .tc main_arg1)) (m (d, Proc.devRef .tc main_arg2)) (m (d, Proc.devRef .tc main_arg3)) (m (d, Proc.devRef .tc main_arg4)) (m (d, Proc.devRef .tc main_arg5)) (m (d, Proc.devRef .tc main_arg6)) (m (d, Proc.devRef .tc main_arg7)) (m (d, Proc.devRef .tc main_arg8)) (m (d, Proc.devRef .tc main_arg9)) (m (d, Proc.devRef .tc main_arg10))
    fs ft (cuOf m d) (cvOf m d) (csrcOf m d) (cdstOf m d) (w1cOf m d) (m (d, Proc.devRef .tc main_arg5)) (b2Of m d) (m (d, Proc.devRef .tc main_arg7)) (b3Of m d) (gOf m d) (beOf m d)
    (Cert.Pre_input_domain.PreFacts.idx_range _ _ _ _ _ _ _ _ _ _ _ (hpre d))
    (fun e k => hfs e k) (fun e k => hft e k)
    (u_value m (O0 (F := Ideal)) (R0 (F := Ideal)) d) (v_value m (O0 (F := Ideal)) (R0 (F := Ideal)) d)
    (fun e => VCall_v12_apply m (O0 (F := Ideal)) (R0 (F := Ideal)) d 0 e) (fun e => VCall_v13_apply m (O0 (F := Ideal)) (R0 (F := Ideal)) d 0 e)
    (fun j k => slice2_axis0_apply 256 _ _ j k (c2 j) rfl)
    (fun _ _ => rfl) (fun k => shapeCast_a_1a_apply _ _ 0 k)
    (fun _ _ => rfl) (fun q => shapeCast_a_1a_apply _ _ 0 q)
    (fun q => shapeCast_a_1a_apply _ _ 0 q) (fun q => shapeCast_a_1a_apply _ _ 0 q)
    fef fnf fW1 fb1 fW2 fb2 fW3 fb3 e j

end Cert.Proof.KI

end
-- ==== Proof.TcHostB.lean ====
import proofs.«210884_g88510686036700_cont_sun_m_1211_45_alg».proof.Proof.TcMainB
import Idealize.ShloMosaic.Lib.ValueIdx
import Idealize.ShloMosaic.Lib.ValueLayout
import Idealize.ShloMosaic.Lib.Pipeline.Value

set_option maxRecDepth 16384

noncomputable section

namespace Cert.Proof.KB

open Cert.Kernel Cert.Kernel.Gen Cert.Kernel.TcBody
open Idealize.ShloMosaic Idealize.ShloMosaic.TcCoe Idealize.ShloMosaic.ValueIdx
open Idealize.ShloMosaic.SparseCore (S V T)
open Idealize.ShloMosaic.SparseCore.Cfg (HIx)
open Idealize.SL Idealize.SL.Sem

variable {F : FTy → Type} [FloatOps F]

/-! ## A pad that adds nothing is the identity -/

/-- Padding by nothing on either side and nothing between the elements leaves the array as it is. -/
theorem pad_id {α : Type} {s : Shape} (lo hi interior : Fin s.rank → Nat) (x : s.Idx → α) {u : Shape} (v : u.Idx → α)
    (h : s.Pads lo hi interior s) (hu : 0 < u.numel) (hlo : ∀ a, lo a = 0) (hint : ∀ a, interior a = 0) :
    pad s lo hi interior x v h hu = x := by
  funext j
  unfold pad
  have hc : ∀ a : Fin s.rank, a.cast h.1 = a := fun a => Fin.ext rfl
  have hin : ∀ a : Fin s.rank, lo a ≤ (j (a.cast h.1)).val ∧ ((j (a.cast h.1)).val - lo a) % (interior a + 1) = 0
      ∧ ((j (a.cast h.1)).val - lo a) / (interior a + 1) < s.size a := fun a => by
    rw [hlo a, hint a, hc a]
    exact ⟨Nat.zero_le _, by simp [Nat.mod_one], by simpa using (j a).isLt⟩
  rw [dif_pos hin]
  refine congrArg x (funext fun a => Fin.ext ?_)
  show ((j (a.cast h.1)).val - lo a) / (interior a + 1) = (j a).val
  rw [hlo a, hint a, hc a]; simp

/-! ## The arrays the projection's windows read, from the launch contents -/

section Entry0
variable (m : (ℓ : Loc nD τ sig) → Buf (Elt F) ℓ)

/-- A buffer the first stretch does not write enters the projection's region at its launch contents. -/
theorem WEntry0_of_not_written (d : Dev nD) (b : Ref sig .tc) (h0 : b ∉ (ops0_W : List (Ref sig .tc))) :
    WEntry0 m d (Proc.devRef .tc b) = m (d, Proc.devRef .tc b) := by
  unfold WEntry0
  rw [StableHlo.after_of_writes_sub ops0 _ ops0_writes h0]

/-- The first weight block: rows 0 to 127 of the first layer's weights. -/
theorem WEntry0_v0 (d : Dev nD) :
    WEntry0 m d (Proc.devRef .tc main_v0)
      = ((extractStridedSlice S128x128 ![0, 0] · slices_S272x128_S128x128_0_0) : (⟨S272x128, .f32⟩ : BufTy).Contents (Elt F) → (⟨S128x128, .f32⟩ : BufTy).Contents (Elt F))
          (m (d, Proc.devRef .tc main_arg3)) := by
  unfold WEntry0
  after_results
  try rfl

/-- The second weight block: rows 128 to 255. -/
theorem WEntry0_v1 (d : Dev nD) :
    WEntry0 m d (Proc.devRef .tc main_v1)
      = ((extractStridedSlice S128x128 ![128, 0] · slices_S272x128_S128x128_128_0) : (⟨S272x128, .f32⟩ : BufTy).Contents (Elt F) → (⟨S128x128, .f32⟩ : BufTy).Contents (Elt F))
          (m (d, Proc.devRef .tc main_arg3)) := by
  unfold WEntry0
  after_results
  try rfl

/-- The third weight block: rows 256 to 271. -/
theorem WEntry0_v2 (d : Dev nD) :
    WEntry0 m d (Proc.devRef .tc main_v2)
      = ((extractStridedSlice S16x128 ![256, 0] · slices_S272x128_S16x128_256_0) : (⟨S272x128, .f32⟩ : BufTy).Contents (Elt F) → (⟨S16x128, .f32⟩ : BufTy).Contents (Elt F))
          (m (d, Proc.devRef .tc main_arg3)) := by
  unfold WEntry0
  after_results
  try rfl

/-- The first bias as a row. -/
theorem WEntry0_v3 (d : Dev nD) :
    WEntry0 m d (Proc.devRef .tc main_v3)
      = (shapeCast S1x128 · shapeCasts_S128_S1x128 : (⟨S128, .f32⟩ : BufTy).Contents (Elt F) → (⟨S1x128, .f32⟩ : BufTy).Contents (Elt F))
          (m (d, Proc.devRef .tc main_arg4)) := by
  unfold WEntry0
  after_results
  try rfl

end Entry0

/-! ## Reading a buffer's contents as an array of a stated shape and element type -/

/-- The identity, fixing the type: a valuation read at a reference has a type that mentions the reference's table entry. -/
abbrev asArr (S : Shape) (e : EltTy) (x : S.Idx → Elt F e) : S.Idx → Elt F e := x

section Entry0Idx
variable (m : (ℓ : Loc nD τ sig) → Buf (Elt F) ℓ)

/-- The first weight block at `(k, q)` is the first layer's weights at row `k`. -/
theorem WEntry0_v0_apply (d : Dev nD) (k q : Fin 128) :
    asArr (F := F) S128x128 .f32 (WEntry0 m d (Proc.devRef .tc main_v0)) (ix2 k q)
      = asArr (F := F) S272x128 .f32 (m (d, Proc.devRef .tc main_arg3)) (ix2 (⟨k.val, by omega⟩ : Fin 272) q) := by
  rw [WEntry0_v0]
  exact slice2_axis0_apply 0 _ _ k q ⟨k.val, by omega⟩ (by simp)

/-- The second weight block at `(k, q)` is the first layer's weights at row `128 + k`. -/
theorem WEntry0_v1_apply (d : Dev nD) (k q : Fin 128) :
    asArr (F := F) S128x128 .f32 (WEntry0 m d (Proc.devRef .tc main_v1)) (ix2 k q)
      = asArr (F := F) S272x128 .f32 (m (d, Proc.devRef .tc main_arg3)) (ix2 (⟨128 + k.val, by omega⟩ : Fin 272) q) := by
  rw [WEntry0_v1]
  exact slice2_axis0_apply 128 _ _ k q ⟨128 + k.val, by omega⟩ rfl

/-- The third weight block at `(j, q)` is the first layer's weights at row `256 + j`. -/
theorem WEntry0_v2_apply (d : Dev nD) (j : Fin 16) (q : Fin 128) :
    asArr (F := F) S16x128 .f32 (WEntry0 m d (Proc.devRef .tc main_v2)) (ix2 j q)
      = asArr (F := F) S272x128 .f32 (m (d, Proc.devRef .tc main_arg3)) (ix2 (⟨256 + j.val, by omega⟩ : Fin 272) q) := by
  rw [WEntry0_v2]
  exact slice2_axis0_apply 256 _ _ j q ⟨256 + j.val, by omega⟩ rfl

/-- The first bias row at `(0, q)` is the bias at `q`. -/
theorem WEntry0_v3_apply (d : Dev nD) (u : Fin 1) (q : Fin 128) :
    asArr (F := F) S1x128 .f32 (WEntry0 m d (Proc.devRef .tc main_v3)) (ix2 u q)
      = asArr (F := F) S128 .f32 (m (d, Proc.devRef .tc main_arg4)) (ix1 q) := by
  rw [WEntry0_v3]
  exact shapeCast_a_1a_apply _ _ u q

end Entry0Idx

/-! ## What the SparseCore call finds: the index rows, the edge features, the third weight block -/

section AtCall
variable (m : (ℓ : Loc nD τ sig) → Buf (Elt F) ℓ) (O0 : Dev nD → CellTallies nD τ sig (HIx 1)) (R0 : Dev nD → Set (SemLoc sig × HIx 1))

/-- A buffer the first stretch does not write and that is no result array leaves the projection's region at its launch contents. -/
theorem WExit0_of_not_written (d : Dev nD) (b : Ref sig .tc) (h0 : b ∉ (ops0_W : List (Ref sig .tc)))
    (h4 : b ≠ main_v4_0) (h5 : b ≠ main_v4_1) : WExit0 m O0 R0 d (Proc.devRef .tc b) = m (d, Proc.devRef .tc b) := by
  rw [WExit0_tc, VAfter0_of_not_out _ _ _ _ _ _ d b h4 h5]
  exact WEntry0_of_not_written m d b h0

/-- A buffer the second stretch does not write and that is no result array reaches the SparseCore call as the projection's region found it. -/
theorem VCall_eq_entry0 (d : Dev nD) (b : Ref sig .tc) (h1 : b ∉ (ops1_W : List (Ref sig .tc))) (h4 : b ≠ main_v4_0) (h5 : b ≠ main_v4_1) :
    VCall m O0 R0 d (Proc.devRef .tc b) = WEntry0 m d (Proc.devRef .tc b) := by
  unfold VCall
  rw [StableHlo.after_of_writes_sub ops1 _ ops1_writes h1, WExit0_tc, VAfter0_of_not_out _ _ _ _ _ _ d b h4 h5]

/-- The edge features reach the SparseCore call (and the MLP) through a pad that adds nothing. -/
theorem VCall_v11 (d : Dev nD) : VCall m O0 R0 d (Proc.devRef .tc main_v11) = m (d, Proc.devRef .tc main_arg0) := by
  unfold VCall
  after_results
  refine (show _ = pad S320000x16 ![0, 0] ![0, 0] ![0, 0] (WExit0 m O0 R0 d (Proc.devRef .tc main_arg0) : (⟨S320000x16, .f32⟩ : BufTy).Contents (Elt F))
      (sitofp .f32 (constantI S_ 32 0#32) : (⟨S_, .f32⟩ : BufTy).Contents (Elt F)) pads_S320000x16_S320000x16_000_000 h_S_ from rfl).trans ?_
  exact (pad_id (s := S320000x16) ![0, 0] ![0, 0] ![0, 0] _ _ pads_S320000x16_S320000x16_000_000 h_S_
    (fun a => by fin_cases a <;> rfl) (fun a => by fin_cases a <;> rfl)).trans
    (WExit0_of_not_written m O0 R0 d main_arg0 (by decide) (by decide) (by decide))

/-- The source-index row at the SparseCore call is row 0 of the edge-index argument. -/
theorem VCall_v12_apply (d : Dev nD) (u : Fin 1) (e : Fin 320000) :
    asArr (F := F) S1x320000 .i32 (VCall m O0 R0 d (Proc.devRef .tc main_v12)) (ix2 u e)
      = asArr (F := F) S2x320000 .i32 (m (d, Proc.devRef .tc main_arg2)) (ix2 (0 : Fin 2) e) := by
  unfold VCall
  after_results
  refine (show _ = shapeCast S1x320000 (pad S320000 ![0] ![0] ![0]
      (shapeCast S320000 (extractStridedSlice S1x320000 ![0, 0] (WExit0 m O0 R0 d (Proc.devRef .tc main_arg2) : (⟨S2x320000, .i32⟩ : BufTy).Contents (Elt F)) slices_S2x320000_S1x320000_0_0) shapeCasts_S1x320000_S320000)
      (constantI S_ 32 0#32 : (⟨S_, .i32⟩ : BufTy).Contents (Elt F)) pads_S320000_S320000_000 h_S_) shapeCasts_S320000_S1x320000 (ix2 u e) from rfl).trans ?_
  have hp := pad_id (s := S320000) ![0] ![0] ![0]
    (shapeCast S320000 (extractStridedSlice S1x320000 ![0, 0] (WExit0 m O0 R0 d (Proc.devRef .tc main_arg2) : (⟨S2x320000, .i32⟩ : BufTy).Contents (Elt F)) slices_S2x320000_S1x320000_0_0) shapeCasts_S1x320000_S320000)
    (constantI S_ 32 0#32 : (⟨S_, .i32⟩ : BufTy).Contents (Elt F)) pads_S320000_S320000_000 h_S_
    (fun a => by fin_cases a <;> rfl) (fun a => by fin_cases a <;> rfl)
  rw [hp, shapeCast_shapeCast, WExit0_of_not_written m O0 R0 d main_arg2 (by decide) (by decide) (by decide)]
  exact slice2_axis0_apply 0 _ _ u e (0 : Fin 2) (by have := u.isLt; simp)

/-- The destination-index row at the SparseCore call is row 1 of the edge-index argument. -/
theorem VCall_v13_apply (d : Dev nD) (u : Fin 1) (e : Fin 320000) :
    asArr (F := F) S1x320000 .i32 (VCall m O0 R0 d (Proc.devRef .tc main_v13)) (ix2 u e)
      = asArr (F := F) S2x320000 .i32 (m (d, Proc.devRef .tc main_arg2)) (ix2 (1 : Fin 2) e) := by
  unfold VCall
  after_results
  refine (show _ = shapeCast S1x320000 (pad S320000 ![0] ![0] ![0]
      (shapeCast S320000 (extractStridedSlice S1x320000 ![1, 0] (WExit0 m O0 R0 d (Proc.devRef .tc main_arg2) : (⟨S2x320000, .i32⟩ : BufTy).Contents (Elt F)) slices_S2x320000_S1x320000_1_0) shapeCasts_S1x320000_S320000)
      (constantI S_ 32 0#32 : (⟨S_, .i32⟩ : BufTy).Contents (Elt F)) pads_S320000_S320000_000 h_S_) shapeCasts_S320000_S1x320000 (ix2 u e) from rfl).trans ?_
  have hp := pad_id (s := S320000) ![0] ![0] ![0]
    (shapeCast S320000 (extractStridedSlice S1x320000 ![1, 0] (WExit0 m O0 R0 d (Proc.devRef .tc main_arg2) : (⟨S2x320000, .i32⟩ : BufTy).Contents (Elt F)) slices_S2x320000_S1x320000_1_0) shapeCasts_S1x320000_S320000)
    (constantI S_ 32 0#32 : (⟨S_, .i32⟩ : BufTy).Contents (Elt F)) pads_S320000_S320000_000 h_S_
    (fun a => by fin_cases a <;> rfl) (fun a => by fin_cases a <;> rfl)
  rw [hp, shapeCast_shapeCast, WExit0_of_not_written m O0 R0 d main_arg2 (by decide) (by decide) (by decide)]
  exact slice2_axis0_apply 1 _ _ u e (1 : Fin 2) (by have := u.isLt; simp)

end AtCall

/-! ## The arrays the MLP's windows read, from what the SparseCore call leaves -/

section Entry2
variable (X : Dev nD → Valuation τ sig (Elt F))

/-- A buffer the third stretch does not write enters the MLP's region as the SparseCore call left it. -/
theorem WEntry2_of_not_written (d : Dev nD) (b : Ref sig .tc) (h2 : b ∉ (ops2_W : List (Ref sig .tc))) :
    WEntry2 X d (Proc.devRef .tc b) = X d (Proc.devRef .tc b) := by
  unfold WEntry2
  rw [StableHlo.after_of_writes_sub ops2 _ ops2_writes h2]

theorem WEntry2_v15 (d : Dev nD) :
    WEntry2 X d (Proc.devRef .tc main_v15)
      = (shapeCast S1x128 · shapeCasts_S128_S1x128 : (⟨S128, .f32⟩ : BufTy).Contents (Elt F) → (⟨S1x128, .f32⟩ : BufTy).Contents (Elt F))
          (X d (Proc.devRef .tc main_arg6)) := by
  unfold WEntry2
  after_results
  try rfl
theorem WEntry2_v15_apply (d : Dev nD) (u : Fin 1) (q : Fin 128) :
    asArr (F := F) S1x128 .f32 (WEntry2 X d (Proc.devRef .tc main_v15)) (ix2 u q)
      = asArr (F := F) S128 .f32 (X d (Proc.devRef .tc main_arg6)) (ix1 q) := by
  rw [WEntry2_v15]
  exact shapeCast_a_1a_apply _ _ u q

theorem WEntry2_v16 (d : Dev nD) :
    WEntry2 X d (Proc.devRef .tc main_v16)
      = (shapeCast S1x16 · shapeCasts_S16_S1x16 : (⟨S16, .f32⟩ : BufTy).Contents (Elt F) → (⟨S1x16, .f32⟩ : BufTy).Contents (Elt F))
          (X d (Proc.devRef .tc main_arg8)) := by
  unfold WEntry2
  after_results
  try rfl
theorem WEntry2_v16_apply (d : Dev nD) (u : Fin 1) (q : Fin 16) :
    asArr (F := F) S1x16 .f32 (WEntry2 X d (Proc.devRef .tc main_v16)) (ix2 u q)
      = asArr (F := F) S16 .f32 (X d (Proc.devRef .tc main_arg8)) (ix1 q) := by
  rw [WEntry2_v16]
  exact shapeCast_a_1a_apply _ _ u q

theorem WEntry2_v17 (d : Dev nD) :
    WEntry2 X d (Proc.devRef .tc main_v17)
      = (shapeCast S1x16 · shapeCasts_S16_S1x16 : (⟨S16, .f32⟩ : BufTy).Contents (Elt F) → (⟨S1x16, .f32⟩ : BufTy).Contents (Elt F))
          (X d (Proc.devRef .tc main_arg9)) := by
  unfold WEntry2
  after_results
  try rfl
theorem WEntry2_v17_apply (d : Dev nD) (u : Fin 1) (q : Fin 16) :
    asArr (F := F) S1x16 .f32 (WEntry2 X d (Proc.devRef .tc main_v17)) (ix2 u q)
      = asArr (F := F) S16 .f32 (X d (Proc.devRef .tc main_arg9)) (ix1 q) := by
  rw [WEntry2_v17]
  exact shapeCast_a_1a_apply _ _ u q

theorem WEntry2_v18 (d : Dev nD) :
    WEntry2 X d (Proc.devRef .tc main_v18)
      = (shapeCast S1x16 · shapeCasts_S16_S1x16 : (⟨S16, .f32⟩ : BufTy).Contents (Elt F) → (⟨S1x16, .f32⟩ : BufTy).Contents (Elt F))
          (X d (Proc.devRef .tc main_arg10)) := by
  unfold WEntry2
  after_results
  try rfl
theorem WEntry2_v18_apply (d : Dev nD) (u : Fin 1) (q : Fin 16) :
    asArr (F := F) S1x16 .f32 (WEntry2 X d (Proc.devRef .tc main_v18)) (ix2 u q)
      = asArr (F := F) S16 .f32 (X d (Proc.devRef .tc main_arg10)) (ix1 q) := by
  rw [WEntry2_v18]
  exact shapeCast_a_1a_apply _ _ u q

end Entry2

end Cert.Proof.KB

end
-- ==== Proof.KernelIdxB.lean ====
import proofs.«210884_g88510686036700_cont_sun_m_1211_45_alg».proof.Proof.ScHmainB
import proofs.«210884_g88510686036700_cont_sun_m_1211_45_alg».proof.Proof.TcHostB
import proofs.«210884_g88510686036700_cont_sun_m_1211_45_alg».proof.Proof.PreFacts

set_option maxRecDepth 16384

noncomputable section

namespace Cert.Proof.KB

open Cert.Kernel Cert.Kernel.Gen Cert.Kernel.TcBody
open Idealize.ShloMosaic Idealize.ShloMosaic.TcCoe Idealize.ShloMosaic.ValueIdx
open Idealize.ShloMosaic.SparseCore (S V T)
open Idealize.ShloMosaic.SparseCore.Cfg (HIx)
open Idealize.SL Idealize.SL.Sem

variable {F : FTy → Type} [FloatOps F]

/-- Under the precondition every entry of the two index rows the SparseCore call reads names a row of the node tables:
    the rows are the two rows of the edge-index argument, whose entries the precondition bounds. -/
theorem idxOK_of_pre (m : (ℓ : Loc nD τ sig) → Buf (Elt F) ℓ)
    (hpre : ∀ c : Dev nD, Cert.Pre_input_domain.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) = fun _ => 1#1) :
    IdxOK (csrcOf m) (cdstOf m) := by
  intro d k
  obtain ⟨u, e, rfl⟩ : ∃ (u : Fin 1) (e : Fin 320000), k = ix2 u e := ⟨k 0, k 1, eq_ix2 k⟩
  have e12 : csrcOf m d (ix2 u e) = (m ((d.tc : Thread nD τ).loc main_arg2) : IVec S2x320000 32) (ix2 (0 : Fin 2) e) :=
    VCall_v12_apply m (O0 (F := F)) (R0 (F := F)) d u e
  have e13 : cdstOf m d (ix2 u e) = (m ((d.tc : Thread nD τ).loc main_arg2) : IVec S2x320000 32) (ix2 (1 : Fin 2) e) :=
    VCall_v13_apply m (O0 (F := F)) (R0 (F := F)) d u e
  rw [e12, e13]
  exact ⟨Cert.Pre_input_domain.PreFacts.idx_toNat_lt _ _ _ _ _ _ _ _ _ _ _ (hpre d) (ix2 (0 : Fin 2) e),
    Cert.Pre_input_domain.PreFacts.idx_toNat_lt _ _ _ _ _ _ _ _ _ _ _ (hpre d) (ix2 (1 : Fin 2) e)⟩

end Cert.Proof.KB

end
-- ==== Proof.ScTileSetup.lean ====
import proofs.«210884_g88510686036700_cont_sun_m_1211_45_alg».proof.Proof.ScPay

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The task's own storage: its ten DMA semaphores and its four scoped buffers -/

/-- DMA semaphore number `n` of a thread, as a cell. -/
abbrev dcell (thr : Thread nD τ) (n : ℕ) (h : n < sig.nDmaSem) : GSem nD τ sig := (thr, SemLoc.dma (⟨n, h⟩ : DmaSem sig))

omit [FloatOps F] in
theorem dcell_ne (thr : Thread nD τ) {n m : ℕ} {hn : n < sig.nDmaSem} {hm : m < sig.nDmaSem} (h : n ≠ m) : dcell thr n hn ≠ dcell thr m hm :=
  fun e => h (congrArg Fin.val (SemLoc.dma.inj (Prod.mk.inj e).2))

omit [FloatOps F] in
/-- The ten DMA semaphores of the task are among the subcore's own: they are them, all at zero, and the rest. -/
theorem ownSems0_split (d : Dev nD) (c : Fin τ.nSC) (i : Fin τ.nSub) :
    (ownSems0 (V d c i) : sProp 𝕄)
      = iprop(semVal (dcell (V d c i) 6 (by decide)) 0 ∗ semVal (dcell (V d c i) 7 (by decide)) 0 ∗ semVal (dcell (V d c i) 8 (by decide)) 0 ∗ semVal (dcell (V d c i) 9 (by decide)) 0 ∗ semVal (dcell (V d c i) 10 (by decide)) 0 ∗ semVal (dcell (V d c i) 11 (by decide)) 0 ∗ semVal (dcell (V d c i) 12 (by decide)) 0 ∗ semVal (dcell (V d c i) 13 (by decide)) 0 ∗ semVal (dcell (V d c i) 14 (by decide)) 0 ∗ semVal (dcell (V d c i) 15 (by decide)) 0
          ∗ bigSep (((((((((((ownCells (V d c i)).erase (dcell (V d c i) 6 (by decide))).erase (dcell (V d c i) 7 (by decide))).erase (dcell (V d c i) 8 (by decide))).erase (dcell (V d c i) 9 (by decide))).erase (dcell (V d c i) 10 (by decide))).erase (dcell (V d c i) 11 (by decide))).erase (dcell (V d c i) 12 (by decide))).erase (dcell (V d c i) 13 (by decide))).erase (dcell (V d c i) 14 (by decide))).erase (dcell (V d c i) 15 (by decide))) fun g => semVal g 0) := by
  unfold SparseCore.Cfg.ownSems0
  rw [SparseCore.bigSep_erase' ((mem_ownCells (g := (dcell (V d c i) 6 (by decide)))).mpr ⟨rfl, by show (SemLoc.dma (⟨6, by decide⟩ : DmaSem sig) : SemLoc sig).isScoped .scVector = true; decide⟩),
    SparseCore.bigSep_erase' (Finset.mem_erase.mpr ⟨dcell_ne (V d c i) (by decide), (mem_ownCells (g := (dcell (V d c i) 7 (by decide)))).mpr ⟨rfl, by show (SemLoc.dma (⟨7, by decide⟩ : DmaSem sig) : SemLoc sig).isScoped .scVector = true; decide⟩⟩),
    SparseCore.bigSep_erase' (Finset.mem_erase.mpr ⟨dcell_ne (V d c i) (by decide), Finset.mem_erase.mpr ⟨dcell_ne (V d c i) (by decide), (mem_ownCells (g := (dcell (V d c i) 8 (by decide)))).mpr ⟨rfl, by show (SemLoc.dma (⟨8, by decide⟩ : DmaSem sig) : SemLoc sig).isScoped .scVector = true; decide⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), (mem_ownCells (g := (dcell (V d c i) 9 (by decide)))).mpr ⟨rfl, by show (SemLoc.dma (⟨9, by decide⟩ : DmaSem sig) : SemLoc sig).isScoped .scVector = true; decide⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 10 (by decide)))).mpr ⟨rfl, by show (SemLoc.dma (⟨10, by decide⟩ : DmaSem sig) : SemLoc sig).isScoped .scVector = true; decide⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 11 (by decide)))).mpr ⟨rfl, by show (SemLoc.dma (⟨11, by decide⟩ : DmaSem sig) : SemLoc sig).isScoped .scVector = true; decide⟩⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 12 (by decide)))).mpr ⟨rfl, by show (SemLoc.dma (⟨12, by decide⟩ : DmaSem sig) : SemLoc sig).isScoped .scVector = true; decide⟩⟩⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 13 (by decide)))).mpr ⟨rfl, by show (SemLoc.dma (⟨13, by decide⟩ : DmaSem sig) : SemLoc sig).isScoped .scVector = true; decide⟩⟩⟩⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 14 (by decide)))).mpr ⟨rfl, by show (SemLoc.dma (⟨14, by decide⟩ : DmaSem sig) : SemLoc sig).isScoped .scVector = true; decide⟩⟩⟩⟩⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 15 (by decide)))).mpr ⟨rfl, by show (SemLoc.dma (⟨15, by decide⟩ : DmaSem sig) : SemLoc sig).isScoped .scVector = true; decide⟩⟩⟩⟩⟩⟩⟩⟩⟩⟩)]

omit [FloatOps F] in
/-- The four scoped buffers are among the subcore's own: they are them, at some contents, and the rest. -/
theorem ownBufs_split (d : Dev nD) (c : Fin τ.nSC) (i : Fin τ.nSub) :
    (ownBufs (V d c i) : sProp 𝕄)
      = iprop((∃ f, (V d c i).loc cc1_scoped0 ↦{fullShare} f) ∗ (∃ f, (V d c i).loc cc1_scoped2 ↦{fullShare} f) ∗ (∃ f, (V d c i).loc cc1_scoped4 ↦{fullShare} f) ∗ (∃ f, (V d c i).loc cc1_scoped6 ↦{fullShare} f)
          ∗ bigSep (((((ownRefs (τ := τ) (.scVector c i)).erase ((Proc.scVector c i).devRef cc1_scoped0)).erase ((Proc.scVector c i).devRef cc1_scoped2)).erase ((Proc.scVector c i).devRef cc1_scoped4)).erase ((Proc.scVector c i).devRef cc1_scoped6))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc1_scoped0)) rfl)).trans ?_
  rw [SparseCore.bigSep_erase' (Finset.mem_erase.mpr ⟨fun e => absurd (Proc.devRef_injective _ e) (show (cc1_scoped2 : Ref sig .scVector) ≠ cc1_scoped0 by decide), SparseCore.Cfg.mem_ownRefs_of_owner (p := Proc.scVector c i) (b := ((Proc.scVector c i).devRef cc1_scoped2)) rfl⟩),
    SparseCore.bigSep_erase' (Finset.mem_erase.mpr ⟨fun e => absurd (Proc.devRef_injective _ e) (show (cc1_scoped4 : Ref sig .scVector) ≠ cc1_scoped2 by decide), Finset.mem_erase.mpr ⟨fun e => absurd (Proc.devRef_injective _ e) (show (cc1_scoped4 : Ref sig .scVector) ≠ cc1_scoped0 by decide), SparseCore.Cfg.mem_ownRefs_of_owner (p := Proc.scVector c i) (b := ((Proc.scVector c i).devRef cc1_scoped4)) rfl⟩⟩),
    SparseCore.bigSep_erase' (Finset.mem_erase.mpr ⟨fun e => absurd (Proc.devRef_injective _ e) (show (cc1_scoped6 : Ref sig .scVector) ≠ cc1_scoped4 by decide), Finset.mem_erase.mpr ⟨fun e => absurd (Proc.devRef_injective _ e) (show (cc1_scoped6 : Ref sig .scVector) ≠ cc1_scoped2 by decide), Finset.mem_erase.mpr ⟨fun e => absurd (Proc.devRef_injective _ e) (show (cc1_scoped6 : Ref sig .scVector) ≠ cc1_scoped0 by decide), SparseCore.Cfg.mem_ownRefs_of_owner (p := Proc.scVector c i) (b := ((Proc.scVector c i).devRef cc1_scoped6)) rfl⟩⟩⟩)]

end Cert.Proof.KI

end
-- ==== Proof.ScTileArith.lean ====
import proofs.«210884_g88510686036700_cont_sun_m_1211_45_alg».proof.Proof.ScTileSt

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The task at a subcore's grid coordinates: its number, its blocks -/

/-- The task number of the subcore at grid coordinates `L`. -/
def taskOf (L : grid1.Coords) : Fin 32 :=
  ⟨(L 1).val + 16 * (L 0).val, by
    have h0 : (L 0).val < 2 := (L 0).isLt
    have h1 : (L 1).val < 16 := (L 1).isLt
    omega⟩

/-- How many blocks the task at `L` moves, and its first block. -/
abbrev nT (L : grid1.Coords) : ℕ := nBlk (taskOf L)
abbrev bT (L : grid1.Coords) : ℕ := blk0 (taskOf L)

theorem nT_le (L : grid1.Coords) : nT L ≤ 79 := by unfold nT nBlk; split <;> omega
theorem nT_ge (L : grid1.Coords) : 78 ≤ nT L := by unfold nT nBlk; split <;> omega
theorem bT_add (L : grid1.Coords) : bT L + nT L ≤ 2500 := blk_le _

/-- Every task has at least one block: the kernel's outer condition holds at every subcore. -/
theorem k1_h1_all : ∀ L : grid1.Coords, k1_cond1 L = 1#1 := by decide +kernel

/-- The loop runs once per block. -/
theorem trips_eq : ∀ L : grid1.Coords, (k1_t1_loop L).trips = nT L := by decide +kernel

/-! ## The kernel's block offsets and branch conditions at trip `j`, decided over all tasks and trips -/

theorem off2_eq' : ∀ L : grid1.Coords, ∀ j : Fin 79, k1_off2 L = ![0, 128 * bT L] := by decide +kernel

theorem off5_eq' : ∀ L : grid1.Coords, ∀ j : Fin 79, j.val + 1 < nT L → k1_off5 L (BitVec.ofNat 32 j.val) = ![0, 128 * (bT L + (j.val + 1))] := by decide +kernel

theorem off8_eq' : ∀ L : grid1.Coords, ∀ j : Fin 79, j.val + 1 < nT L → k1_off8 L (BitVec.ofNat 32 j.val) = ![0, 128 * (bT L + (j.val + 1))] := by decide +kernel

theorem off11_eq' : ∀ L : grid1.Coords, ∀ j : Fin 79, j.val < nT L → k1_off11 L (BitVec.ofNat 32 j.val) = ![0, 128 * (bT L + j.val)] := by decide +kernel

theorem off14_eq' : ∀ L : grid1.Coords, ∀ j : Fin 79, j.val < nT L → k1_off14 L (BitVec.ofNat 32 j.val) = ![0, 128 * (bT L + j.val)] := by decide +kernel

theorem off23_eq' : ∀ L : grid1.Coords, ∀ j : Fin 79, j.val < nT L → k1_off23 L (BitVec.ofNat 32 j.val) = ![128 * (bT L + j.val), 0] := by decide +kernel

theorem off26_eq' : ∀ L : grid1.Coords, ∀ j : Fin 79, j.val < nT L → k1_off26 L (BitVec.ofNat 32 j.val) = ![128 * (bT L + j.val), 0] := by decide +kernel

theorem off29_eq' : ∀ L : grid1.Coords, ∀ j : Fin 79, j.val + 1 < nT L → k1_off29 L (BitVec.ofNat 32 (j.val + 1)) = ![128 * (bT L + j.val), 0] := by decide +kernel

theorem off32_eq' : ∀ L : grid1.Coords, ∀ j : Fin 79, j.val + 1 < nT L → k1_off32 L (BitVec.ofNat 32 (j.val + 1)) = ![128 * (bT L + j.val), 0] := by decide +kernel

theorem off65_eq' : ∀ L : grid1.Coords, k1_off65 L 0#32 = ![128 * (bT L + (nT L - 1)), 0] := by decide +kernel
theorem off69_eq' : ∀ L : grid1.Coords, k1_off69 L 0#32 = ![128 * (bT L + (nT L - 1)), 0] := by decide +kernel
theorem cond32_eq : ∀ L : grid1.Coords, k1_cond32 L = 1#1 := by decide +kernel
theorem cond33_eq : ∀ L : grid1.Coords, k1_cond33 L = 1#1 := by decide +kernel
theorem cond2_eq : ∀ L : grid1.Coords, ∀ k : Fin (k1_t1_loop L).trips, k1_cond2 L k (BitVec.ofNat 32 k.val) = if k.val + 1 < nT L then 1#1 else 0#1 := by decide +kernel
theorem cond3_eq : ∀ L : grid1.Coords, ∀ k : Fin (k1_t1_loop L).trips, k1_cond3 L k (BitVec.ofNat 32 k.val) = if k.val + 1 < nT L then 1#1 else 0#1 := by decide +kernel
theorem cond4_eq : ∀ L : grid1.Coords, ∀ k : Fin (k1_t1_loop L).trips, k1_cond4 L k (BitVec.ofNat 32 k.val) = 1#1 := by decide +kernel
theorem cond5_eq : ∀ L : grid1.Coords, ∀ k : Fin (k1_t1_loop L).trips, k1_cond5 L k (BitVec.ofNat 32 k.val) = 1#1 := by decide +kernel
theorem cond10_eq : ∀ L : grid1.Coords, ∀ k : Fin (k1_t1_loop L).trips, k1_cond10 L k (BitVec.ofNat 32 k.val) = 1#1 := by decide +kernel
theorem cond11_eq : ∀ L : grid1.Coords, ∀ k : Fin (k1_t1_loop L).trips, k1_cond11 L k (BitVec.ofNat 32 k.val) = 1#1 := by decide +kernel
theorem cond14_eq : ∀ L : grid1.Coords, ∀ k : Fin (k1_t1_loop L).trips, k1_cond14 L k (BitVec.ofNat 32 k.val) = if k.val = 0 then 0#1 else 1#1 := by decide +kernel
theorem cond15_eq : ∀ L : grid1.Coords, ∀ k : Fin (k1_t1_loop L).trips, k1_cond15 L k (BitVec.ofNat 32 k.val) = if k.val = 0 then 0#1 else 1#1 := by decide +kernel

/-- The second loop has no trip. -/
theorem trips2_eq : ∀ L : grid1.Coords, (k1_t2_loop L).trips = 0 := by decide +kernel

/-! ## The slot a counter names: its parity -/

theorem toNat_ofNat_mod2 (x : ℕ) : (BitVec.ofNat 32 x).toNat % 2 = x % 2 := by
  rw [BitVec.toNat_ofNat]; omega

theorem remui2 (w : BitVec 32) : (Scalar.remui w 2#32).toNat = w.toNat % 2 := by
  have h : Scalar.remui w 2#32 = w % 2#32 := by unfold Scalar.remui IntOp.remui; exact if_neg (by decide)
  rw [h, BitVec.toNat_umod]; rfl
theorem off4_nat (x : ℕ) : k1_off4 (BitVec.ofNat 32 x) = ![x % 2, 0, 0] := by
  unfold k1_off4; simp only [remui2, toNat_ofNat_mod2]
theorem off7_nat (x : ℕ) : k1_off7 (BitVec.ofNat 32 x) = ![x % 2, 0, 0] := by
  unfold k1_off7; simp only [remui2, toNat_ofNat_mod2]
theorem off10_nat (x : ℕ) : k1_off10 (BitVec.ofNat 32 x) = ![x % 2, 0, 0] := by
  unfold k1_off10; simp only [remui2, toNat_ofNat_mod2]
theorem off13_nat (x : ℕ) : k1_off13 (BitVec.ofNat 32 x) = ![x % 2, 0, 0] := by
  unfold k1_off13; simp only [remui2, toNat_ofNat_mod2]
theorem off16_nat (x : ℕ) : k1_off16 (BitVec.ofNat 32 x) = ![x % 2, 0, 0] := by
  unfold k1_off16; simp only [remui2, toNat_ofNat_mod2]
theorem off17_nat (x : ℕ) : k1_off17 (BitVec.ofNat 32 x) = ![x % 2, 0, 0] := by
  unfold k1_off17; simp only [remui2, toNat_ofNat_mod2]
theorem off18_nat (x : ℕ) : k1_off18 (BitVec.ofNat 32 x) = ![x % 2, 0, 0] := by
  unfold k1_off18; simp only [remui2, toNat_ofNat_mod2]
theorem off19_nat (x : ℕ) : k1_off19 (BitVec.ofNat 32 x) = ![x % 2, 0, 0] := by
  unfold k1_off19; simp only [remui2, toNat_ofNat_mod2]
theorem off20_nat (x : ℕ) : k1_off20 (BitVec.ofNat 32 x) = ![x % 2, 0, 0] := by
  unfold k1_off20; simp only [remui2, toNat_ofNat_mod2]
theorem off21_nat (x : ℕ) : k1_off21 (BitVec.ofNat 32 x) = ![x % 2, 0, 0] := by
  unfold k1_off21; simp only [remui2, toNat_ofNat_mod2]
theorem off22_nat (x : ℕ) : k1_off22 (BitVec.ofNat 32 x) = ![x % 2, 0, 0] := by
  unfold k1_off22; simp only [remui2, toNat_ofNat_mod2]
theorem off25_nat (x : ℕ) : k1_off25 (BitVec.ofNat 32 x) = ![x % 2, 0, 0] := by
  unfold k1_off25; simp only [remui2, toNat_ofNat_mod2]
theorem off28_nat (x : ℕ) : k1_off28 (BitVec.ofNat 32 x) = ![x % 2, 0, 0] := by
  unfold k1_off28; simp only [remui2, toNat_ofNat_mod2]
theorem off31_nat (x : ℕ) : k1_off31 (BitVec.ofNat 32 x) = ![x % 2, 0, 0] := by
  unfold k1_off31; simp only [remui2, toNat_ofNat_mod2]
theorem off64_nat (x : ℕ) : k1_off64 (BitVec.ofNat 32 x) = ![x % 2, 0, 0] := by
  unfold k1_off64; simp only [remui2, toNat_ofNat_mod2]
theorem off67_nat (x : ℕ) : k1_off67 (BitVec.ofNat 32 x) = ![x % 2, 0, 0] := by
  unfold k1_off67; simp only [remui2, toNat_ofNat_mod2]
theorem off68_nat (x : ℕ) : k1_off68 (BitVec.ofNat 32 x) = ![x % 2, 0, 0] := by
  unfold k1_off68; simp only [remui2, toNat_ofNat_mod2]
theorem off6_nat (x : ℕ) : k1_off6 (BitVec.ofNat 32 x) = ![x % 2] := by
  unfold k1_off6; simp only [remui2, toNat_ofNat_mod2]
theorem off9_nat (x : ℕ) : k1_off9 (BitVec.ofNat 32 x) = ![x % 2] := by
  unfold k1_off9; simp only [remui2, toNat_ofNat_mod2]
theorem off12_nat (x : ℕ) : k1_off12 (BitVec.ofNat 32 x) = ![x % 2] := by
  unfold k1_off12; simp only [remui2, toNat_ofNat_mod2]
theorem off15_nat (x : ℕ) : k1_off15 (BitVec.ofNat 32 x) = ![x % 2] := by
  unfold k1_off15; simp only [remui2, toNat_ofNat_mod2]
theorem off24_nat (x : ℕ) : k1_off24 (BitVec.ofNat 32 x) = ![x % 2] := by
  unfold k1_off24; simp only [remui2, toNat_ofNat_mod2]
theorem off27_nat (x : ℕ) : k1_off27 (BitVec.ofNat 32 x) = ![x % 2] := by
  unfold k1_off27; simp only [remui2, toNat_ofNat_mod2]
theorem off30_nat (x : ℕ) : k1_off30 (BitVec.ofNat 32 x) = ![x % 2] := by
  unfold k1_off30; simp only [remui2, toNat_ofNat_mod2]
theorem off33_nat (x : ℕ) : k1_off33 (BitVec.ofNat 32 x) = ![x % 2] := by
  unfold k1_off33; simp only [remui2, toNat_ofNat_mod2]
theorem off66_nat (x : ℕ) : k1_off66 (BitVec.ofNat 32 x) = ![x % 2] := by
  unfold k1_off66; simp only [remui2, toNat_ofNat_mod2]
theorem off70_nat (x : ℕ) : k1_off70 (BitVec.ofNat 32 x) = ![x % 2] := by
  unfold k1_off70; simp only [remui2, toNat_ofNat_mod2]

end Cert.Proof.KI

end
-- ==== Proof.ScTileNames.lean ====
import Idealize.ShloMosaic.Lib.Ring
import proofs.«210884_g88510686036700_cont_sun_m_1211_45_alg».proof.Proof.ScTileSetup
import proofs.«210884_g88510686036700_cont_sun_m_1211_45_alg».proof.Proof.ScTileArith

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)
local notation "b0W" => (Memref.whole Cert.KernelIdeal.cc1_scoped0 : Memref Cert.KernelIdeal.sig Kind.scVector Space.vmem Cert.KernelIdeal.S2x1x128 EltTy.i32)
local notation "b2W" => (Memref.whole Cert.KernelIdeal.cc1_scoped2 : Memref Cert.KernelIdeal.sig Kind.scVector Space.vmem Cert.KernelIdeal.S2x1x128 EltTy.i32)
local notation "b4W" => (Memref.whole Cert.KernelIdeal.cc1_scoped4 : Memref Cert.KernelIdeal.sig Kind.scVector Space.vmem Cert.KernelIdeal.S2x128x128 EltTy.f32)
local notation "b6W" => (Memref.whole Cert.KernelIdeal.cc1_scoped6 : Memref Cert.KernelIdeal.sig Kind.scVector Space.vmem Cert.KernelIdeal.S2x128x128 EltTy.f32)

/-! ## The slots of the four scoped buffers -/

theorem inb_i0 : ∀ a, (![0, 0, 0] : Fin 3 → ℕ) a + S1x1x128.size a ≤ S2x1x128.size a := by decide
theorem inb_i1 : ∀ a, (![1, 0, 0] : Fin 3 → ℕ) a + S1x1x128.size a ≤ S2x1x128.size a := by decide
theorem inb_r0 : ∀ a, (![0, 0, 0] : Fin 3 → ℕ) a + S1x128x128.size a ≤ S2x128x128.size a := by decide
theorem inb_r1 : ∀ a, (![1, 0, 0] : Fin 3 → ℕ) a + S1x128x128.size a ≤ S2x128x128.size a := by decide
theorem inb_m0 : ∀ a, (![0] : Fin 1 → ℕ) a + S1.size a ≤ S2.size a := by decide
theorem inb_m1 : ∀ a, (![1] : Fin 1 → ℕ) a + S1.size a ≤ S2.size a := by decide
/-- Slot 0 of the buffer, as the kernel slices it, and squeezed. -/
def iC0 : Memref sig .scVector .vmem S1x1x128 .i32 := (b0W).slice (Rect.unit ![0, 0, 0] S1x1x128.size inb_i0) (fun _ => rfl)
def iS0 : Memref sig .scVector .vmem S1x128 .i32 := iC0.squeeze S1x128 squeezes_S1x1x128_S1x128
/-- Slot 1 of the buffer, as the kernel slices it, and squeezed. -/
def iC1 : Memref sig .scVector .vmem S1x1x128 .i32 := (b0W).slice (Rect.unit ![1, 0, 0] S1x1x128.size inb_i1) (fun _ => rfl)
def iS1 : Memref sig .scVector .vmem S1x128 .i32 := iC1.squeeze S1x128 squeezes_S1x1x128_S1x128
/-- Slot 0 of the buffer, as the kernel slices it, and squeezed. -/
def jC0 : Memref sig .scVector .vmem S1x1x128 .i32 := (b2W).slice (Rect.unit ![0, 0, 0] S1x1x128.size inb_i0) (fun _ => rfl)
def jS0 : Memref sig .scVector .vmem S1x128 .i32 := jC0.squeeze S1x128 squeezes_S1x1x128_S1x128
/-- Slot 1 of the buffer, as the kernel slices it, and squeezed. -/
def jC1 : Memref sig .scVector .vmem S1x1x128 .i32 := (b2W).slice (Rect.unit ![1, 0, 0] S1x1x128.size inb_i1) (fun _ => rfl)
def jS1 : Memref sig .scVector .vmem S1x128 .i32 := jC1.squeeze S1x128 squeezes_S1x1x128_S1x128
/-- Slot 0 of the buffer, as the kernel slices it, and squeezed. -/
def rC0 : Memref sig .scVector .vmem S1x128x128 .f32 := (b4W).slice (Rect.unit ![0, 0, 0] S1x128x128.size inb_r0) (fun _ => rfl)
def rS0 : Memref sig .scVector .vmem S128x128 .f32 := rC0.squeeze S128x128 squeezes_S1x128x128_S128x128
/-- Slot 1 of the buffer, as the kernel slices it, and squeezed. -/
def rC1 : Memref sig .scVector .vmem S1x128x128 .f32 := (b4W).slice (Rect.unit ![1, 0, 0] S1x128x128.size inb_r1) (fun _ => rfl)
def rS1 : Memref sig .scVector .vmem S128x128 .f32 := rC1.squeeze S128x128 squeezes_S1x128x128_S128x128
/-- Slot 0 of the buffer, as the kernel slices it, and squeezed. -/
def qC0 : Memref sig .scVector .vmem S1x128x128 .f32 := (b6W).slice (Rect.unit ![0, 0, 0] S1x128x128.size inb_r0) (fun _ => rfl)
def qS0 : Memref sig .scVector .vmem S128x128 .f32 := qC0.squeeze S128x128 squeezes_S1x128x128_S128x128
/-- Slot 1 of the buffer, as the kernel slices it, and squeezed. -/
def qC1 : Memref sig .scVector .vmem S1x128x128 .f32 := (b6W).slice (Rect.unit ![1, 0, 0] S1x128x128.size inb_r1) (fun _ => rfl)
def qS1 : Memref sig .scVector .vmem S128x128 .f32 := qC1.squeeze S128x128 squeezes_S1x128x128_S128x128

/-! ## The blocks of the index rows and of the gathered arrays -/

theorem inb_row (x : ℕ) (hx : x < 2500) : ∀ a, (![0, 128 * x] : Fin 2 → ℕ) a + S1x128.size a ≤ S1x320000.size a := by
  intro a; fin_cases a
  · show 0 + 1 ≤ 1; omega
  · show 128 * x + 128 ≤ 320000; omega
theorem inb_blk (x : ℕ) (hx : x < 2500) : ∀ a, (![128 * x, 0] : Fin 2 → ℕ) a + S128x128.size a ≤ S320000x128.size a := by
  intro a; fin_cases a
  · show 128 * x + 128 ≤ 320000; omega
  · show 0 + 128 ≤ 128; omega

/-- Block `x` (128 entries) of an index row; block `x` (128 rows) of a gathered array. -/
def srcB (x : ℕ) (hx : x < 2500) : Memref sig .scVector .hbm S1x128 .i32 := (srcW).slice (Rect.unit ![0, 128 * x] S1x128.size (inb_row x hx)) (fun _ => rfl)
def dstB (x : ℕ) (hx : x < 2500) : Memref sig .scVector .hbm S1x128 .i32 := (dstW).slice (Rect.unit ![0, 128 * x] S1x128.size (inb_row x hx)) (fun _ => rfl)
def sB (x : ℕ) (hx : x < 2500) : Memref sig .scVector .hbm S128x128 .f32 := (sW).slice (Rect.unit ![128 * x, 0] S128x128.size (inb_blk x hx)) (fun _ => rfl)
def tB (x : ℕ) (hx : x < 2500) : Memref sig .scVector .hbm S128x128 .f32 := (tW).slice (Rect.unit ![128 * x, 0] S128x128.size (inb_blk x hx)) (fun _ => rfl)

theorem blk_lt (L : grid1.Coords) (j : ℕ) (hj : j < nT L) : bT L + j < 2500 := by have := bT_add L; omega

/-! ## The kernel's slices under these names -/
@[sl_canon] theorem canon_off4_0 (x : ℕ) (hx : x % 2 = 0) (h : ∀ a, k1_off4 (BitVec.ofNat 32 x) a + S1x1x128.size a ≤ S2x1x128.size a) (hs) :
    (b0W).slice (Rect.unit (k1_off4 (BitVec.ofNat 32 x)) S1x1x128.size h) hs = iC0 :=
  Memref.slice_unit_congr _ (by rw [off4_nat, hx]) _ _ _ (fun _ => rfl)
@[sl_canon] theorem canon_off4_1 (x : ℕ) (hx : x % 2 = 1) (h : ∀ a, k1_off4 (BitVec.ofNat 32 x) a + S1x1x128.size a ≤ S2x1x128.size a) (hs) :
    (b0W).slice (Rect.unit (k1_off4 (BitVec.ofNat 32 x)) S1x1x128.size h) hs = iC1 :=
  Memref.slice_unit_congr _ (by rw [off4_nat, hx]) _ _ _ (fun _ => rfl)
@[sl_canon] theorem canon_off7_0 (x : ℕ) (hx : x % 2 = 0) (h : ∀ a, k1_off7 (BitVec.ofNat 32 x) a + S1x1x128.size a ≤ S2x1x128.size a) (hs) :
    (b2W).slice (Rect.unit (k1_off7 (BitVec.ofNat 32 x)) S1x1x128.size h) hs = jC0 :=
  Memref.slice_unit_congr _ (by rw [off7_nat, hx]) _ _ _ (fun _ => rfl)
@[sl_canon] theorem canon_off7_1 (x : ℕ) (hx : x % 2 = 1) (h : ∀ a, k1_off7 (BitVec.ofNat 32 x) a + S1x1x128.size a ≤ S2x1x128.size a) (hs) :
    (b2W).slice (Rect.unit (k1_off7 (BitVec.ofNat 32 x)) S1x1x128.size h) hs = jC1 :=
  Memref.slice_unit_congr _ (by rw [off7_nat, hx]) _ _ _ (fun _ => rfl)
@[sl_canon] theorem canon_off10_0 (x : ℕ) (hx : x % 2 = 0) (h : ∀ a, k1_off10 (BitVec.ofNat 32 x) a + S1x1x128.size a ≤ S2x1x128.size a) (hs) :
    (b0W).slice (Rect.unit (k1_off10 (BitVec.ofNat 32 x)) S1x1x128.size h) hs = iC0 :=
  Memref.slice_unit_congr _ (by rw [off10_nat, hx]) _ _ _ (fun _ => rfl)
@[sl_canon] theorem canon_off10_1 (x : ℕ) (hx : x % 2 = 1) (h : ∀ a, k1_off10 (BitVec.ofNat 32 x) a + S1x1x128.size a ≤ S2x1x128.size a) (hs) :
    (b0W).slice (Rect.unit (k1_off10 (BitVec.ofNat 32 x)) S1x1x128.size h) hs = iC1 :=
  Memref.slice_unit_congr _ (by rw [off10_nat, hx]) _ _ _ (fun _ => rfl)
@[sl_canon] theorem canon_off13_0 (x : ℕ) (hx : x % 2 = 0) (h : ∀ a, k1_off13 (BitVec.ofNat 32 x) a + S1x1x128.size a ≤ S2x1x128.size a) (hs) :
    (b2W).slice (Rect.unit (k1_off13 (BitVec.ofNat 32 x)) S1x1x128.size h) hs = jC0 :=
  Memref.slice_unit_congr _ (by rw [off13_nat, hx]) _ _ _ (fun _ => rfl)
@[sl_canon] theorem canon_off13_1 (x : ℕ) (hx : x % 2 = 1) (h : ∀ a, k1_off13 (BitVec.ofNat 32 x) a + S1x1x128.size a ≤ S2x1x128.size a) (hs) :
    (b2W).slice (Rect.unit (k1_off13 (BitVec.ofNat 32 x)) S1x1x128.size h) hs = jC1 :=
  Memref.slice_unit_congr _ (by rw [off13_nat, hx]) _ _ _ (fun _ => rfl)
@[sl_canon] theorem canon_off16_0 (x : ℕ) (hx : x % 2 = 0) (h : ∀ a, k1_off16 (BitVec.ofNat 32 x) a + S1x128x128.size a ≤ S2x128x128.size a) (hs) :
    (b4W).slice (Rect.unit (k1_off16 (BitVec.ofNat 32 x)) S1x128x128.size h) hs = rC0 :=
  Memref.slice_unit_congr _ (by rw [off16_nat, hx]) _ _ _ (fun _ => rfl)
@[sl_canon] theorem canon_off16_1 (x : ℕ) (hx : x % 2 = 1) (h : ∀ a, k1_off16 (BitVec.ofNat 32 x) a + S1x128x128.size a ≤ S2x128x128.size a) (hs) :
    (b4W).slice (Rect.unit (k1_off16 (BitVec.ofNat 32 x)) S1x128x128.size h) hs = rC1 :=
  Memref.slice_unit_congr _ (by rw [off16_nat, hx]) _ _ _ (fun _ => rfl)
@[sl_canon] theorem canon_off17_0 (x : ℕ) (hx : x % 2 = 0) (h : ∀ a, k1_off17 (BitVec.ofNat 32 x) a + S1x1x128.size a ≤ S2x1x128.size a) (hs) :
    (b0W).slice (Rect.unit (k1_off17 (BitVec.ofNat 32 x)) S1x1x128.size h) hs = iC0 :=
  Memref.slice_unit_congr _ (by rw [off17_nat, hx]) _ _ _ (fun _ => rfl)
@[sl_canon] theorem canon_off17_1 (x : ℕ) (hx : x % 2 = 1) (h : ∀ a, k1_off17 (BitVec.ofNat 32 x) a + S1x1x128.size a ≤ S2x1x128.size a) (hs) :
    (b0W).slice (Rect.unit (k1_off17 (BitVec.ofNat 32 x)) S1x1x128.size h) hs = iC1 :=
  Memref.slice_unit_congr _ (by rw [off17_nat, hx]) _ _ _ (fun _ => rfl)
@[sl_canon] theorem canon_off18_0 (x : ℕ) (hx : x % 2 = 0) (h : ∀ a, k1_off18 (BitVec.ofNat 32 x) a + S1x128x128.size a ≤ S2x128x128.size a) (hs) :
    (b6W).slice (Rect.unit (k1_off18 (BitVec.ofNat 32 x)) S1x128x128.size h) hs = qC0 :=
  Memref.slice_unit_congr _ (by rw [off18_nat, hx]) _ _ _ (fun _ => rfl)
@[sl_canon] theorem canon_off18_1 (x : ℕ) (hx : x % 2 = 1) (h : ∀ a, k1_off18 (BitVec.ofNat 32 x) a + S1x128x128.size a ≤ S2x128x128.size a) (hs) :
    (b6W).slice (Rect.unit (k1_off18 (BitVec.ofNat 32 x)) S1x128x128.size h) hs = qC1 :=
  Memref.slice_unit_congr _ (by rw [off18_nat, hx]) _ _ _ (fun _ => rfl)
@[sl_canon] theorem canon_off19_0 (x : ℕ) (hx : x % 2 = 0) (h : ∀ a, k1_off19 (BitVec.ofNat 32 x) a + S1x1x128.size a ≤ S2x1x128.size a) (hs) :
    (b2W).slice (Rect.unit (k1_off19 (BitVec.ofNat 32 x)) S1x1x128.size h) hs = jC0 :=
  Memref.slice_unit_congr _ (by rw [off19_nat, hx]) _ _ _ (fun _ => rfl)
@[sl_canon] theorem canon_off19_1 (x : ℕ) (hx : x % 2 = 1) (h : ∀ a, k1_off19 (BitVec.ofNat 32 x) a + S1x1x128.size a ≤ S2x1x128.size a) (hs) :
    (b2W).slice (Rect.unit (k1_off19 (BitVec.ofNat 32 x)) S1x1x128.size h) hs = jC1 :=
  Memref.slice_unit_congr _ (by rw [off19_nat, hx]) _ _ _ (fun _ => rfl)
@[sl_canon] theorem canon_off20_0 (x : ℕ) (hx : x % 2 = 0) (h : ∀ a, k1_off20 (BitVec.ofNat 32 x) a + S1x128x128.size a ≤ S2x128x128.size a) (hs) :
    (b4W).slice (Rect.unit (k1_off20 (BitVec.ofNat 32 x)) S1x128x128.size h) hs = rC0 :=
  Memref.slice_unit_congr _ (by rw [off20_nat, hx]) _ _ _ (fun _ => rfl)
@[sl_canon] theorem canon_off20_1 (x : ℕ) (hx : x % 2 = 1) (h : ∀ a, k1_off20 (BitVec.ofNat 32 x) a + S1x128x128.size a ≤ S2x128x128.size a) (hs) :
    (b4W).slice (Rect.unit (k1_off20 (BitVec.ofNat 32 x)) S1x128x128.size h) hs = rC1 :=
  Memref.slice_unit_congr _ (by rw [off20_nat, hx]) _ _ _ (fun _ => rfl)
@[sl_canon] theorem canon_off21_0 (x : ℕ) (hx : x % 2 = 0) (h : ∀ a, k1_off21 (BitVec.ofNat 32 x) a + S1x1x128.size a ≤ S2x1x128.size a) (hs) :
    (b0W).slice (Rect.unit (k1_off21 (BitVec.ofNat 32 x)) S1x1x128.size h) hs = iC0 :=
  Memref.slice_unit_congr _ (by rw [off21_nat, hx]) _ _ _ (fun _ => rfl)
@[sl_canon] theorem canon_off21_1 (x : ℕ) (hx : x % 2 = 1) (h : ∀ a, k1_off21 (BitVec.ofNat 32 x) a + S1x1x128.size a ≤ S2x1x128.size a) (hs) :
    (b0W).slice (Rect.unit (k1_off21 (BitVec.ofNat 32 x)) S1x1x128.size h) hs = iC1 :=
  Memref.slice_unit_congr _ (by rw [off21_nat, hx]) _ _ _ (fun _ => rfl)
@[sl_canon] theorem canon_off22_0 (x : ℕ) (hx : x % 2 = 0) (h : ∀ a, k1_off22 (BitVec.ofNat 32 x) a + S1x128x128.size a ≤ S2x128x128.size a) (hs) :
    (b4W).slice (Rect.unit (k1_off22 (BitVec.ofNat 32 x)) S1x128x128.size h) hs = rC0 :=
  Memref.slice_unit_congr _ (by rw [off22_nat, hx]) _ _ _ (fun _ => rfl)
@[sl_canon] theorem canon_off22_1 (x : ℕ) (hx : x % 2 = 1) (h : ∀ a, k1_off22 (BitVec.ofNat 32 x) a + S1x128x128.size a ≤ S2x128x128.size a) (hs) :
    (b4W).slice (Rect.unit (k1_off22 (BitVec.ofNat 32 x)) S1x128x128.size h) hs = rC1 :=
  Memref.slice_unit_congr _ (by rw [off22_nat, hx]) _ _ _ (fun _ => rfl)
@[sl_canon] theorem canon_off25_0 (x : ℕ) (hx : x % 2 = 0) (h : ∀ a, k1_off25 (BitVec.ofNat 32 x) a + S1x128x128.size a ≤ S2x128x128.size a) (hs) :
    (b6W).slice (Rect.unit (k1_off25 (BitVec.ofNat 32 x)) S1x128x128.size h) hs = qC0 :=
  Memref.slice_unit_congr _ (by rw [off25_nat, hx]) _ _ _ (fun _ => rfl)
@[sl_canon] theorem canon_off25_1 (x : ℕ) (hx : x % 2 = 1) (h : ∀ a, k1_off25 (BitVec.ofNat 32 x) a + S1x128x128.size a ≤ S2x128x128.size a) (hs) :
    (b6W).slice (Rect.unit (k1_off25 (BitVec.ofNat 32 x)) S1x128x128.size h) hs = qC1 :=
  Memref.slice_unit_congr _ (by rw [off25_nat, hx]) _ _ _ (fun _ => rfl)
@[sl_canon] theorem canon_off28_0 (x : ℕ) (hx : x % 2 = 0) (h : ∀ a, k1_off28 (BitVec.ofNat 32 x) a + S1x128x128.size a ≤ S2x128x128.size a) (hs) :
    (b4W).slice (Rect.unit (k1_off28 (BitVec.ofNat 32 x)) S1x128x128.size h) hs = rC0 :=
  Memref.slice_unit_congr _ (by rw [off28_nat, hx]) _ _ _ (fun _ => rfl)
@[sl_canon] theorem canon_off28_1 (x : ℕ) (hx : x % 2 = 1) (h : ∀ a, k1_off28 (BitVec.ofNat 32 x) a + S1x128x128.size a ≤ S2x128x128.size a) (hs) :
    (b4W).slice (Rect.unit (k1_off28 (BitVec.ofNat 32 x)) S1x128x128.size h) hs = rC1 :=
  Memref.slice_unit_congr _ (by rw [off28_nat, hx]) _ _ _ (fun _ => rfl)
@[sl_canon] theorem canon_off31_0 (x : ℕ) (hx : x % 2 = 0) (h : ∀ a, k1_off31 (BitVec.ofNat 32 x) a + S1x128x128.size a ≤ S2x128x128.size a) (hs) :
    (b6W).slice (Rect.unit (k1_off31 (BitVec.ofNat 32 x)) S1x128x128.size h) hs = qC0 :=
  Memref.slice_unit_congr _ (by rw [off31_nat, hx]) _ _ _ (fun _ => rfl)
@[sl_canon] theorem canon_off31_1 (x : ℕ) (hx : x % 2 = 1) (h : ∀ a, k1_off31 (BitVec.ofNat 32 x) a + S1x128x128.size a ≤ S2x128x128.size a) (hs) :
    (b6W).slice (Rect.unit (k1_off31 (BitVec.ofNat 32 x)) S1x128x128.size h) hs = qC1 :=
  Memref.slice_unit_congr _ (by rw [off31_nat, hx]) _ _ _ (fun _ => rfl)
@[sl_canon] theorem canon_off64_0 (x : ℕ) (hx : x % 2 = 0) (h : ∀ a, k1_off64 (BitVec.ofNat 32 x) a + S1x128x128.size a ≤ S2x128x128.size a) (hs) :
    (b4W).slice (Rect.unit (k1_off64 (BitVec.ofNat 32 x)) S1x128x128.size h) hs = rC0 :=
  Memref.slice_unit_congr _ (by rw [off64_nat, hx]) _ _ _ (fun _ => rfl)
@[sl_canon] theorem canon_off64_1 (x : ℕ) (hx : x % 2 = 1) (h : ∀ a, k1_off64 (BitVec.ofNat 32 x) a + S1x128x128.size a ≤ S2x128x128.size a) (hs) :
    (b4W).slice (Rect.unit (k1_off64 (BitVec.ofNat 32 x)) S1x128x128.size h) hs = rC1 :=
  Memref.slice_unit_congr _ (by rw [off64_nat, hx]) _ _ _ (fun _ => rfl)
@[sl_canon] theorem canon_off67_0 (x : ℕ) (hx : x % 2 = 0) (h : ∀ a, k1_off67 (BitVec.ofNat 32 x) a + S1x128x128.size a ≤ S2x128x128.size a) (hs) :
    (b4W).slice (Rect.unit (k1_off67 (BitVec.ofNat 32 x)) S1x128x128.size h) hs = rC0 :=
  Memref.slice_unit_congr _ (by rw [off67_nat, hx]) _ _ _ (fun _ => rfl)
@[sl_canon] theorem canon_off67_1 (x : ℕ) (hx : x % 2 = 1) (h : ∀ a, k1_off67 (BitVec.ofNat 32 x) a + S1x128x128.size a ≤ S2x128x128.size a) (hs) :
    (b4W).slice (Rect.unit (k1_off67 (BitVec.ofNat 32 x)) S1x128x128.size h) hs = rC1 :=
  Memref.slice_unit_congr _ (by rw [off67_nat, hx]) _ _ _ (fun _ => rfl)
@[sl_canon] theorem canon_off68_0 (x : ℕ) (hx : x % 2 = 0) (h : ∀ a, k1_off68 (BitVec.ofNat 32 x) a + S1x128x128.size a ≤ S2x128x128.size a) (hs) :
    (b6W).slice (Rect.unit (k1_off68 (BitVec.ofNat 32 x)) S1x128x128.size h) hs = qC0 :=
  Memref.slice_unit_congr _ (by rw [off68_nat, hx]) _ _ _ (fun _ => rfl)
@[sl_canon] theorem canon_off68_1 (x : ℕ) (hx : x % 2 = 1) (h : ∀ a, k1_off68 (BitVec.ofNat 32 x) a + S1x128x128.size a ≤ S2x128x128.size a) (hs) :
    (b6W).slice (Rect.unit (k1_off68 (BitVec.ofNat 32 x)) S1x128x128.size h) hs = qC1 :=
  Memref.slice_unit_congr _ (by rw [off68_nat, hx]) _ _ _ (fun _ => rfl)
@[sl_canon] theorem canon_off6_0 (x : ℕ) (hx : x % 2 = 0) (h : ∀ a, k1_off6 (BitVec.ofNat 32 x) a + S1.size a ≤ S2.size a) :
    cc1_scoped1.slice (Rect.unit (k1_off6 (BitVec.ofNat 32 x)) S1.size h) = cc1_scoped1.slice (Rect.unit ![0] S1.size inb_m0) :=
  SemArray.slice_unit_congr _ (by rw [off6_nat, hx]) _ _
@[sl_canon] theorem canon_off6_1 (x : ℕ) (hx : x % 2 = 1) (h : ∀ a, k1_off6 (BitVec.ofNat 32 x) a + S1.size a ≤ S2.size a) :
    cc1_scoped1.slice (Rect.unit (k1_off6 (BitVec.ofNat 32 x)) S1.size h) = cc1_scoped1.slice (Rect.unit ![1] S1.size inb_m1) :=
  SemArray.slice_unit_congr _ (by rw [off6_nat, hx]) _ _
@[sl_canon] theorem canon_off9_0 (x : ℕ) (hx : x % 2 = 0) (h : ∀ a, k1_off9 (BitVec.ofNat 32 x) a + S1.size a ≤ S2.size a) :
    cc1_scoped3.slice (Rect.unit (k1_off9 (BitVec.ofNat 32 x)) S1.size h) = cc1_scoped3.slice (Rect.unit ![0] S1.size inb_m0) :=
  SemArray.slice_unit_congr _ (by rw [off9_nat, hx]) _ _
@[sl_canon] theorem canon_off9_1 (x : ℕ) (hx : x % 2 = 1) (h : ∀ a, k1_off9 (BitVec.ofNat 32 x) a + S1.size a ≤ S2.size a) :
    cc1_scoped3.slice (Rect.unit (k1_off9 (BitVec.ofNat 32 x)) S1.size h) = cc1_scoped3.slice (Rect.unit ![1] S1.size inb_m1) :=
  SemArray.slice_unit_congr _ (by rw [off9_nat, hx]) _ _
@[sl_canon] theorem canon_off12_0 (x : ℕ) (hx : x % 2 = 0) (h : ∀ a, k1_off12 (BitVec.ofNat 32 x) a + S1.size a ≤ S2.size a) :
    cc1_scoped1.slice (Rect.unit (k1_off12 (BitVec.ofNat 32 x)) S1.size h) = cc1_scoped1.slice (Rect.unit ![0] S1.size inb_m0) :=
  SemArray.slice_unit_congr _ (by rw [off12_nat, hx]) _ _
@[sl_canon] theorem canon_off12_1 (x : ℕ) (hx : x % 2 = 1) (h : ∀ a, k1_off12 (BitVec.ofNat 32 x) a + S1.size a ≤ S2.size a) :
    cc1_scoped1.slice (Rect.unit (k1_off12 (BitVec.ofNat 32 x)) S1.size h) = cc1_scoped1.slice (Rect.unit ![1] S1.size inb_m1) :=
  SemArray.slice_unit_congr _ (by rw [off12_nat, hx]) _ _
@[sl_canon] theorem canon_off15_0 (x : ℕ) (hx : x % 2 = 0) (h : ∀ a, k1_off15 (BitVec.ofNat 32 x) a + S1.size a ≤ S2.size a) :
    cc1_scoped3.slice (Rect.unit (k1_off15 (BitVec.ofNat 32 x)) S1.size h) = cc1_scoped3.slice (Rect.unit ![0] S1.size inb_m0) :=
  SemArray.slice_unit_congr _ (by rw [off15_nat, hx]) _ _
@[sl_canon] theorem canon_off15_1 (x : ℕ) (hx : x % 2 = 1) (h : ∀ a, k1_off15 (BitVec.ofNat 32 x) a + S1.size a ≤ S2.size a) :
    cc1_scoped3.slice (Rect.unit (k1_off15 (BitVec.ofNat 32 x)) S1.size h) = cc1_scoped3.slice (Rect.unit ![1] S1.size inb_m1) :=
  SemArray.slice_unit_congr _ (by rw [off15_nat, hx]) _ _
@[sl_canon] theorem canon_off24_0 (x : ℕ) (hx : x % 2 = 0) (h : ∀ a, k1_off24 (BitVec.ofNat 32 x) a + S1.size a ≤ S2.size a) :
    cc1_scoped5.slice (Rect.unit (k1_off24 (BitVec.ofNat 32 x)) S1.size h) = cc1_scoped5.slice (Rect.unit ![0] S1.size inb_m0) :=
  SemArray.slice_unit_congr _ (by rw [off24_nat, hx]) _ _
@[sl_canon] theorem canon_off24_1 (x : ℕ) (hx : x % 2 = 1) (h : ∀ a, k1_off24 (BitVec.ofNat 32 x) a + S1.size a ≤ S2.size a) :
    cc1_scoped5.slice (Rect.unit (k1_off24 (BitVec.ofNat 32 x)) S1.size h) = cc1_scoped5.slice (Rect.unit ![1] S1.size inb_m1) :=
  SemArray.slice_unit_congr _ (by rw [off24_nat, hx]) _ _
@[sl_canon] theorem canon_off27_0 (x : ℕ) (hx : x % 2 = 0) (h : ∀ a, k1_off27 (BitVec.ofNat 32 x) a + S1.size a ≤ S2.size a) :
    cc1_scoped7.slice (Rect.unit (k1_off27 (BitVec.ofNat 32 x)) S1.size h) = cc1_scoped7.slice (Rect.unit ![0] S1.size inb_m0) :=
  SemArray.slice_unit_congr _ (by rw [off27_nat, hx]) _ _
@[sl_canon] theorem canon_off27_1 (x : ℕ) (hx : x % 2 = 1) (h : ∀ a, k1_off27 (BitVec.ofNat 32 x) a + S1.size a ≤ S2.size a) :
    cc1_scoped7.slice (Rect.unit (k1_off27 (BitVec.ofNat 32 x)) S1.size h) = cc1_scoped7.slice (Rect.unit ![1] S1.size inb_m1) :=
  SemArray.slice_unit_congr _ (by rw [off27_nat, hx]) _ _
@[sl_canon] theorem canon_off30_0 (x : ℕ) (hx : x % 2 = 0) (h : ∀ a, k1_off30 (BitVec.ofNat 32 x) a + S1.size a ≤ S2.size a) :
    cc1_scoped5.slice (Rect.unit (k1_off30 (BitVec.ofNat 32 x)) S1.size h) = cc1_scoped5.slice (Rect.unit ![0] S1.size inb_m0) :=
  SemArray.slice_unit_congr _ (by rw [off30_nat, hx]) _ _
@[sl_canon] theorem canon_off30_1 (x : ℕ) (hx : x % 2 = 1) (h : ∀ a, k1_off30 (BitVec.ofNat 32 x) a + S1.size a ≤ S2.size a) :
    cc1_scoped5.slice (Rect.unit (k1_off30 (BitVec.ofNat 32 x)) S1.size h) = cc1_scoped5.slice (Rect.unit ![1] S1.size inb_m1) :=
  SemArray.slice_unit_congr _ (by rw [off30_nat, hx]) _ _
@[sl_canon] theorem canon_off33_0 (x : ℕ) (hx : x % 2 = 0) (h : ∀ a, k1_off33 (BitVec.ofNat 32 x) a + S1.size a ≤ S2.size a) :
    cc1_scoped7.slice (Rect.unit (k1_off33 (BitVec.ofNat 32 x)) S1.size h) = cc1_scoped7.slice (Rect.unit ![0] S1.size inb_m0) :=
  SemArray.slice_unit_congr _ (by rw [off33_nat, hx]) _ _
@[sl_canon] theorem canon_off33_1 (x : ℕ) (hx : x % 2 = 1) (h : ∀ a, k1_off33 (BitVec.ofNat 32 x) a + S1.size a ≤ S2.size a) :
    cc1_scoped7.slice (Rect.unit (k1_off33 (BitVec.ofNat 32 x)) S1.size h) = cc1_scoped7.slice (Rect.unit ![1] S1.size inb_m1) :=
  SemArray.slice_unit_congr _ (by rw [off33_nat, hx]) _ _
@[sl_canon] theorem canon_off66_0 (x : ℕ) (hx : x % 2 = 0) (h : ∀ a, k1_off66 (BitVec.ofNat 32 x) a + S1.size a ≤ S2.size a) :
    cc1_scoped5.slice (Rect.unit (k1_off66 (BitVec.ofNat 32 x)) S1.size h) = cc1_scoped5.slice (Rect.unit ![0] S1.size inb_m0) :=
  SemArray.slice_unit_congr _ (by rw [off66_nat, hx]) _ _
@[sl_canon] theorem canon_off66_1 (x : ℕ) (hx : x % 2 = 1) (h : ∀ a, k1_off66 (BitVec.ofNat 32 x) a + S1.size a ≤ S2.size a) :
    cc1_scoped5.slice (Rect.unit (k1_off66 (BitVec.ofNat 32 x)) S1.size h) = cc1_scoped5.slice (Rect.unit ![1] S1.size inb_m1) :=
  SemArray.slice_unit_congr _ (by rw [off66_nat, hx]) _ _
@[sl_canon] theorem canon_off70_0 (x : ℕ) (hx : x % 2 = 0) (h : ∀ a, k1_off70 (BitVec.ofNat 32 x) a + S1.size a ≤ S2.size a) :
    cc1_scoped7.slice (Rect.unit (k1_off70 (BitVec.ofNat 32 x)) S1.size h) = cc1_scoped7.slice (Rect.unit ![0] S1.size inb_m0) :=
  SemArray.slice_unit_congr _ (by rw [off70_nat, hx]) _ _
@[sl_canon] theorem canon_off70_1 (x : ℕ) (hx : x % 2 = 1) (h : ∀ a, k1_off70 (BitVec.ofNat 32 x) a + S1.size a ≤ S2.size a) :
    cc1_scoped7.slice (Rect.unit (k1_off70 (BitVec.ofNat 32 x)) S1.size h) = cc1_scoped7.slice (Rect.unit ![1] S1.size inb_m1) :=
  SemArray.slice_unit_congr _ (by rw [off70_nat, hx]) _ _
@[sl_canon] theorem canon_off5 (L : grid1.Coords) (j : ℕ) (hj : j + 1 < nT L) (h : ∀ a, k1_off5 L (BitVec.ofNat 32 j) a + S1x128.size a ≤ S1x320000.size a) (hs) :
    (srcW).slice (Rect.unit (k1_off5 L (BitVec.ofNat 32 j)) S1x128.size h) hs = srcB (bT L + (j + 1)) (blk_lt L _ (by omega)) :=
  Memref.slice_unit_congr _ (off5_eq' L ⟨j, by have := nT_le L; omega⟩ hj) _ _ _ (fun _ => rfl)
@[sl_canon] theorem canon_off8 (L : grid1.Coords) (j : ℕ) (hj : j + 1 < nT L) (h : ∀ a, k1_off8 L (BitVec.ofNat 32 j) a + S1x128.size a ≤ S1x320000.size a) (hs) :
    (dstW).slice (Rect.unit (k1_off8 L (BitVec.ofNat 32 j)) S1x128.size h) hs = dstB (bT L + (j + 1)) (blk_lt L _ (by omega)) :=
  Memref.slice_unit_congr _ (off8_eq' L ⟨j, by have := nT_le L; omega⟩ hj) _ _ _ (fun _ => rfl)
@[sl_canon] theorem canon_off11 (L : grid1.Coords) (j : ℕ) (hj : j < nT L) (h : ∀ a, k1_off11 L (BitVec.ofNat 32 j) a + S1x128.size a ≤ S1x320000.size a) (hs) :
    (srcW).slice (Rect.unit (k1_off11 L (BitVec.ofNat 32 j)) S1x128.size h) hs = srcB (bT L + j) (blk_lt L _ (by omega)) :=
  Memref.slice_unit_congr _ (off11_eq' L ⟨j, by have := nT_le L; omega⟩ hj) _ _ _ (fun _ => rfl)
@[sl_canon] theorem canon_off14 (L : grid1.Coords) (j : ℕ) (hj : j < nT L) (h : ∀ a, k1_off14 L (BitVec.ofNat 32 j) a + S1x128.size a ≤ S1x320000.size a) (hs) :
    (dstW).slice (Rect.unit (k1_off14 L (BitVec.ofNat 32 j)) S1x128.size h) hs = dstB (bT L + j) (blk_lt L _ (by omega)) :=
  Memref.slice_unit_congr _ (off14_eq' L ⟨j, by have := nT_le L; omega⟩ hj) _ _ _ (fun _ => rfl)
@[sl_canon] theorem canon_off23 (L : grid1.Coords) (j : ℕ) (hj : j < nT L) (h : ∀ a, k1_off23 L (BitVec.ofNat 32 j) a + S128x128.size a ≤ S320000x128.size a) (hs) :
    (sW).slice (Rect.unit (k1_off23 L (BitVec.ofNat 32 j)) S128x128.size h) hs = sB (bT L + j) (blk_lt L _ (by omega)) :=
  Memref.slice_unit_congr _ (off23_eq' L ⟨j, by have := nT_le L; omega⟩ hj) _ _ _ (fun _ => rfl)
@[sl_canon] theorem canon_off26 (L : grid1.Coords) (j : ℕ) (hj : j < nT L) (h : ∀ a, k1_off26 L (BitVec.ofNat 32 j) a + S128x128.size a ≤ S320000x128.size a) (hs) :
    (tW).slice (Rect.unit (k1_off26 L (BitVec.ofNat 32 j)) S128x128.size h) hs = tB (bT L + j) (blk_lt L _ (by omega)) :=
  Memref.slice_unit_congr _ (off26_eq' L ⟨j, by have := nT_le L; omega⟩ hj) _ _ _ (fun _ => rfl)
@[sl_canon] theorem canon_off29 (L : grid1.Coords) (j : ℕ) (hj : j + 1 < nT L) (h : ∀ a, k1_off29 L (BitVec.ofNat 32 (j + 1)) a + S128x128.size a ≤ S320000x128.size a) (hs) :
    (sW).slice (Rect.unit (k1_off29 L (BitVec.ofNat 32 (j + 1))) S128x128.size h) hs = sB (bT L + j) (blk_lt L _ (by omega)) :=
  Memref.slice_unit_congr _ (off29_eq' L ⟨j, by have := nT_le L; omega⟩ hj) _ _ _ (fun _ => rfl)
@[sl_canon] theorem canon_off32 (L : grid1.Coords) (j : ℕ) (hj : j + 1 < nT L) (h : ∀ a, k1_off32 L (BitVec.ofNat 32 (j + 1)) a + S128x128.size a ≤ S320000x128.size a) (hs) :
    (tW).slice (Rect.unit (k1_off32 L (BitVec.ofNat 32 (j + 1))) S128x128.size h) hs = tB (bT L + j) (blk_lt L _ (by omega)) :=
  Memref.slice_unit_congr _ (off32_eq' L ⟨j, by have := nT_le L; omega⟩ hj) _ _ _ (fun _ => rfl)
@[sl_canon] theorem canon_off2_src (L : grid1.Coords) (h : ∀ a, k1_off2 L a + S1x128.size a ≤ S1x320000.size a) (hs) :
    (srcW).slice (Rect.unit (k1_off2 L) S1x128.size h) hs = srcB (bT L + 0) (blk_lt L _ (by have := nT_ge L; omega)) :=
  Memref.slice_unit_congr _ (off2_eq' L 0) _ _ _ (fun _ => rfl)
@[sl_canon] theorem canon_off2_dst (L : grid1.Coords) (h : ∀ a, k1_off2 L a + S1x128.size a ≤ S1x320000.size a) (hs) :
    (dstW).slice (Rect.unit (k1_off2 L) S1x128.size h) hs = dstB (bT L + 0) (blk_lt L _ (by have := nT_ge L; omega)) :=
  Memref.slice_unit_congr _ (off2_eq' L 0) _ _ _ (fun _ => rfl)
@[sl_canon] theorem canon_off65 (L : grid1.Coords) (h : ∀ a, k1_off65 L 0#32 a + S128x128.size a ≤ S320000x128.size a) (hs) :
    (sW).slice (Rect.unit (k1_off65 L 0#32) S128x128.size h) hs = sB (bT L + (nT L - 1)) (blk_lt L _ (by have := nT_ge L; omega)) :=
  Memref.slice_unit_congr _ (off65_eq' L) _ _ _ (fun _ => rfl)
@[sl_canon] theorem canon_off69 (L : grid1.Coords) (h : ∀ a, k1_off69 L 0#32 a + S128x128.size a ≤ S320000x128.size a) (hs) :
    (tW).slice (Rect.unit (k1_off69 L 0#32) S128x128.size h) hs = tB (bT L + (nT L - 1)) (blk_lt L _ (by have := nT_ge L; omega)) :=
  Memref.slice_unit_congr _ (off69_eq' L) _ _ _ (fun _ => rfl)

end Cert.Proof.KI

end
-- ==== Proof.ScTileSplit.lean ====
import proofs.«210884_g88510686036700_cont_sun_m_1211_45_alg».proof.Proof.ScTileNames

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)
local notation "b0W" => (Memref.whole Cert.KernelIdeal.cc1_scoped0 : Memref Cert.KernelIdeal.sig Kind.scVector Space.vmem Cert.KernelIdeal.S2x1x128 EltTy.i32)
local notation "b2W" => (Memref.whole Cert.KernelIdeal.cc1_scoped2 : Memref Cert.KernelIdeal.sig Kind.scVector Space.vmem Cert.KernelIdeal.S2x1x128 EltTy.i32)
local notation "b4W" => (Memref.whole Cert.KernelIdeal.cc1_scoped4 : Memref Cert.KernelIdeal.sig Kind.scVector Space.vmem Cert.KernelIdeal.S2x128x128 EltTy.f32)
local notation "b6W" => (Memref.whole Cert.KernelIdeal.cc1_scoped6 : Memref Cert.KernelIdeal.sig Kind.scVector Space.vmem Cert.KernelIdeal.S2x128x128 EltTy.f32)

/-! ## A two-slot scoped buffer as its two slots, and back -/

def offSlot : Fin 2 → Fin 3 → ℕ := fun b => ![b.val, 0, 0]
theorem inb_islot : ∀ (b : Fin 2) a, offSlot b a + S1x1x128.size a ≤ S2x1x128.size a := by decide
theorem inb_rslot : ∀ (b : Fin 2) a, offSlot b a + S1x128x128.size a ≤ S2x128x128.size a := by decide

def Ji : Fin 2 → Finset S2x1x128.Idx := fun b => (Rect.unit (s := S2x1x128) (offSlot b) S1x1x128.size (inb_islot b)).set
def Jr : Fin 2 → Finset S2x128x128.Idx := fun b => (Rect.unit (s := S2x128x128) (offSlot b) S1x128x128.size (inb_rslot b)).set

theorem Ji_disj : ∀ s s', s ≠ s' → Disjoint (Ji s) (Ji s') := fun s s' h =>
  Ring.lead_disjoint (s := S2x1x128) (NB := 2) (a₀ := 0) (R := 1) (off := offSlot) (size := S1x1x128.size) (inb := inb_islot)
    (hoff₀ := by decide) (hsz₀ := by decide) s s' h
theorem Ji_cover : Finset.univ.biUnion Ji = Finset.univ :=
  Ring.lead_cover (s := S2x1x128) (NB := 2) (a₀ := 0) (R := 1) (off := offSlot) (size := S1x1x128.size) (inb := inb_islot)
    (hoff₀ := by decide) (hoff := by decide) (hsz₀ := by decide) (hsz := by decide) (hN := by decide)
theorem Jr_disj : ∀ s s', s ≠ s' → Disjoint (Jr s) (Jr s') := fun s s' h =>
  Ring.lead_disjoint (s := S2x128x128) (NB := 2) (a₀ := 0) (R := 1) (off := offSlot) (size := S1x128x128.size) (inb := inb_rslot)
    (hoff₀ := by decide) (hsz₀ := by decide) s s' h
theorem Jr_cover : Finset.univ.biUnion Jr = Finset.univ :=
  Ring.lead_cover (s := S2x128x128) (NB := 2) (a₀ := 0) (R := 1) (off := offSlot) (size := S1x128x128.size) (inb := inb_rslot)
    (hoff₀ := by decide) (hoff := by decide) (hsz₀ := by decide) (hsz := by decide) (hN := by decide)
theorem iS0_set : (iS0).view.set = Ji 0 := by
  unfold iS0 iC0; simp only [Memref.view_squeeze, View.set_reshape, Memref.view_slice, Memref.view_whole, View.set_slice_whole]; rfl
theorem iS1_set : (iS1).view.set = Ji 1 := by
  unfold iS1 iC1; simp only [Memref.view_squeeze, View.set_reshape, Memref.view_slice, Memref.view_whole, View.set_slice_whole]; rfl
theorem jS0_set : (jS0).view.set = Ji 0 := by
  unfold jS0 jC0; simp only [Memref.view_squeeze, View.set_reshape, Memref.view_slice, Memref.view_whole, View.set_slice_whole]; rfl
theorem jS1_set : (jS1).view.set = Ji 1 := by
  unfold jS1 jC1; simp only [Memref.view_squeeze, View.set_reshape, Memref.view_slice, Memref.view_whole, View.set_slice_whole]; rfl
theorem rS0_set : (rS0).view.set = Jr 0 := by
  unfold rS0 rC0; simp only [Memref.view_squeeze, View.set_reshape, Memref.view_slice, Memref.view_whole, View.set_slice_whole]; rfl
theorem rS1_set : (rS1).view.set = Jr 1 := by
  unfold rS1 rC1; simp only [Memref.view_squeeze, View.set_reshape, Memref.view_slice, Memref.view_whole, View.set_slice_whole]; rfl
theorem qS0_set : (qS0).view.set = Jr 0 := by
  unfold qS0 qC0; simp only [Memref.view_squeeze, View.set_reshape, Memref.view_slice, Memref.view_whole, View.set_slice_whole]; rfl
theorem qS1_set : (qS1).view.set = Jr 1 := by
  unfold qS1 qC1; simp only [Memref.view_squeeze, View.set_reshape, Memref.view_slice, Memref.view_whole, View.set_slice_whole]; rfl

section Slots
variable (d : Dev nD) (c : Fin τ.nSC) (i : Fin τ.nSub)
theorem i_split :
    (iprop(∃ f, (V d c i).loc cc1_scoped0 ↦{fullShare} f) : sProp 𝕄)
      ⊢ iprop((∃ f, (iS0).view.loc (V d c i) ↦[(iS0).view.set]{fullShare} f) ∗ ∃ f, (iS1).view.loc (V d c i) ↦[(iS1).view.set]{fullShare} f) :=
  Ring.slots2_split (ℓ := (V d c i).loc cc1_scoped0) Ji Ji_disj Ji_cover (fun f => ((iS0).view.loc (V d c i) ↦[(iS0).view.set]{fullShare} f : sProp 𝕄)) (fun f => ((iS1).view.loc (V d c i) ↦[(iS1).view.set]{fullShare} f : sProp 𝕄)) (fun f => by show ((V d c i).loc cc1_scoped0 ↦[(iS0).view.set]{fullShare} f : sProp 𝕄) = _; rw [iS0_set]) (fun f => by show ((V d c i).loc cc1_scoped0 ↦[(iS1).view.set]{fullShare} f : sProp 𝕄) = _; rw [iS1_set])
theorem i_join :
    (iprop((∃ f, (iS0).view.loc (V d c i) ↦[(iS0).view.set]{fullShare} f) ∗ ∃ f, (iS1).view.loc (V d c i) ↦[(iS1).view.set]{fullShare} f) : sProp 𝕄)
      ⊢ iprop(∃ f, (V d c i).loc cc1_scoped0 ↦{fullShare} f) :=
  Ring.slots2_join (ℓ := (V d c i).loc cc1_scoped0) Ji Ji_disj Ji_cover (fun f => ((iS0).view.loc (V d c i) ↦[(iS0).view.set]{fullShare} f : sProp 𝕄)) (fun f => ((iS1).view.loc (V d c i) ↦[(iS1).view.set]{fullShare} f : sProp 𝕄)) (fun f => by show ((V d c i).loc cc1_scoped0 ↦[(iS0).view.set]{fullShare} f : sProp 𝕄) = _; rw [iS0_set]) (fun f => by show ((V d c i).loc cc1_scoped0 ↦[(iS1).view.set]{fullShare} f : sProp 𝕄) = _; rw [iS1_set])
theorem j_split :
    (iprop(∃ f, (V d c i).loc cc1_scoped2 ↦{fullShare} f) : sProp 𝕄)
      ⊢ iprop((∃ f, (jS0).view.loc (V d c i) ↦[(jS0).view.set]{fullShare} f) ∗ ∃ f, (jS1).view.loc (V d c i) ↦[(jS1).view.set]{fullShare} f) :=
  Ring.slots2_split (ℓ := (V d c i).loc cc1_scoped2) Ji Ji_disj Ji_cover (fun f => ((jS0).view.loc (V d c i) ↦[(jS0).view.set]{fullShare} f : sProp 𝕄)) (fun f => ((jS1).view.loc (V d c i) ↦[(jS1).view.set]{fullShare} f : sProp 𝕄)) (fun f => by show ((V d c i).loc cc1_scoped2 ↦[(jS0).view.set]{fullShare} f : sProp 𝕄) = _; rw [jS0_set]) (fun f => by show ((V d c i).loc cc1_scoped2 ↦[(jS1).view.set]{fullShare} f : sProp 𝕄) = _; rw [jS1_set])
theorem j_join :
    (iprop((∃ f, (jS0).view.loc (V d c i) ↦[(jS0).view.set]{fullShare} f) ∗ ∃ f, (jS1).view.loc (V d c i) ↦[(jS1).view.set]{fullShare} f) : sProp 𝕄)
      ⊢ iprop(∃ f, (V d c i).loc cc1_scoped2 ↦{fullShare} f) :=
  Ring.slots2_join (ℓ := (V d c i).loc cc1_scoped2) Ji Ji_disj Ji_cover (fun f => ((jS0).view.loc (V d c i) ↦[(jS0).view.set]{fullShare} f : sProp 𝕄)) (fun f => ((jS1).view.loc (V d c i) ↦[(jS1).view.set]{fullShare} f : sProp 𝕄)) (fun f => by show ((V d c i).loc cc1_scoped2 ↦[(jS0).view.set]{fullShare} f : sProp 𝕄) = _; rw [jS0_set]) (fun f => by show ((V d c i).loc cc1_scoped2 ↦[(jS1).view.set]{fullShare} f : sProp 𝕄) = _; rw [jS1_set])
theorem r_split :
    (iprop(∃ f, (V d c i).loc cc1_scoped4 ↦{fullShare} f) : sProp 𝕄)
      ⊢ iprop((∃ f, (rS0).view.loc (V d c i) ↦[(rS0).view.set]{fullShare} f) ∗ ∃ f, (rS1).view.loc (V d c i) ↦[(rS1).view.set]{fullShare} f) :=
  Ring.slots2_split (ℓ := (V d c i).loc cc1_scoped4) Jr Jr_disj Jr_cover (fun f => ((rS0).view.loc (V d c i) ↦[(rS0).view.set]{fullShare} f : sProp 𝕄)) (fun f => ((rS1).view.loc (V d c i) ↦[(rS1).view.set]{fullShare} f : sProp 𝕄)) (fun f => by show ((V d c i).loc cc1_scoped4 ↦[(rS0).view.set]{fullShare} f : sProp 𝕄) = _; rw [rS0_set]) (fun f => by show ((V d c i).loc cc1_scoped4 ↦[(rS1).view.set]{fullShare} f : sProp 𝕄) = _; rw [rS1_set])
theorem r_join :
    (iprop((∃ f, (rS0).view.loc (V d c i) ↦[(rS0).view.set]{fullShare} f) ∗ ∃ f, (rS1).view.loc (V d c i) ↦[(rS1).view.set]{fullShare} f) : sProp 𝕄)
      ⊢ iprop(∃ f, (V d c i).loc cc1_scoped4 ↦{fullShare} f) :=
  Ring.slots2_join (ℓ := (V d c i).loc cc1_scoped4) Jr Jr_disj Jr_cover (fun f => ((rS0).view.loc (V d c i) ↦[(rS0).view.set]{fullShare} f : sProp 𝕄)) (fun f => ((rS1).view.loc (V d c i) ↦[(rS1).view.set]{fullShare} f : sProp 𝕄)) (fun f => by show ((V d c i).loc cc1_scoped4 ↦[(rS0).view.set]{fullShare} f : sProp 𝕄) = _; rw [rS0_set]) (fun f => by show ((V d c i).loc cc1_scoped4 ↦[(rS1).view.set]{fullShare} f : sProp 𝕄) = _; rw [rS1_set])
theorem q_split :
    (iprop(∃ f, (V d c i).loc cc1_scoped6 ↦{fullShare} f) : sProp 𝕄)
      ⊢ iprop((∃ f, (qS0).view.loc (V d c i) ↦[(qS0).view.set]{fullShare} f) ∗ ∃ f, (qS1).view.loc (V d c i) ↦[(qS1).view.set]{fullShare} f) :=
  Ring.slots2_split (ℓ := (V d c i).loc cc1_scoped6) Jr Jr_disj Jr_cover (fun f => ((qS0).view.loc (V d c i) ↦[(qS0).view.set]{fullShare} f : sProp 𝕄)) (fun f => ((qS1).view.loc (V d c i) ↦[(qS1).view.set]{fullShare} f : sProp 𝕄)) (fun f => by show ((V d c i).loc cc1_scoped6 ↦[(qS0).view.set]{fullShare} f : sProp 𝕄) = _; rw [qS0_set]) (fun f => by show ((V d c i).loc cc1_scoped6 ↦[(qS1).view.set]{fullShare} f : sProp 𝕄) = _; rw [qS1_set])
theorem q_join :
    (iprop((∃ f, (qS0).view.loc (V d c i) ↦[(qS0).view.set]{fullShare} f) ∗ ∃ f, (qS1).view.loc (V d c i) ↦[(qS1).view.set]{fullShare} f) : sProp 𝕄)
      ⊢ iprop(∃ f, (V d c i).loc cc1_scoped6 ↦{fullShare} f) :=
  Ring.slots2_join (ℓ := (V d c i).loc cc1_scoped6) Jr Jr_disj Jr_cover (fun f => ((qS0).view.loc (V d c i) ↦[(qS0).view.set]{fullShare} f : sProp 𝕄)) (fun f => ((qS1).view.loc (V d c i) ↦[(qS1).view.set]{fullShare} f : sProp 𝕄)) (fun f => by show ((V d c i).loc cc1_scoped6 ↦[(qS0).view.set]{fullShare} f : sProp 𝕄) = _; rw [qS0_set]) (fun f => by show ((V d c i).loc cc1_scoped6 ↦[(qS1).view.set]{fullShare} f : sProp 𝕄) = _; rw [qS1_set])
end Slots

/-! ## The rows of a block of a gathered array -/

/-- The rows of block `x`: 128 consecutive rows. -/
def rowsBlk (x : ℕ) : Finset S320000x128.Idx :=
  Finset.univ.filter fun ix => 128 * x ≤ (ix 0).val ∧ (ix 0).val < 128 * (x + 1)

theorem mem_blkRect (x : ℕ) (hx : x < 2500) (ix : S320000x128.Idx) :
    ix ∈ (Rect.unit (s := S320000x128) ![128 * x, 0] S128x128.size (inb_blk x hx)).set ↔ ix ∈ rowsBlk x := by
  rw [Rect.mem_set_unit]; simp only [rowsBlk, Finset.mem_filter, Finset.mem_univ, true_and]
  constructor
  · intro h
    have h0 := h 0
    change 128 * x ≤ (ix 0).val ∧ (ix 0).val < 128 * x + 128 at h0
    omega
  · intro h a
    fin_cases a
    · change 128 * x ≤ (ix 0).val ∧ (ix 0).val < 128 * x + 128; omega
    · have := (ix 1).isLt
      change 0 ≤ (ix 1).val ∧ (ix 1).val < 0 + 128
      change (ix 1).val < 128 at this
      omega

theorem sB_set (x : ℕ) (hx : x < 2500) : (sB x hx).view.set = rowsBlk x := by
  unfold sB; simp only [Memref.view_slice, Memref.view_whole, View.set_slice_whole]; ext ix; exact mem_blkRect x hx ix
theorem tB_set (x : ℕ) (hx : x < 2500) : (tB x hx).view.set = rowsBlk x := by
  unfold tB; simp only [Memref.view_slice, Memref.view_whole, View.set_slice_whole]; ext ix; exact mem_blkRect x hx ix

theorem rowsBlk_sub (w : Fin 32) (j : ℕ) (hj : j < nBlk w) : rowsBlk (blk0 w + j) ⊆ rowsOf w := by
  intro ix; simp only [rowsBlk, rowsOf, Finset.mem_filter, Finset.mem_univ, true_and]; intro h
  constructor
  · have : 128 * blk0 w ≤ 128 * (blk0 w + j) := Nat.mul_le_mul_left _ (Nat.le_add_right _ _); omega
  · have : 128 * (blk0 w + j + 1) ≤ 128 * (blk0 w + nBlk w) := Nat.mul_le_mul_left _ (by omega); omega

theorem rowsBlk_disj (x y : ℕ) (h : x ≠ y) : Disjoint (rowsBlk x) (rowsBlk y) := by
  rw [Finset.disjoint_left]; intro ix; simp only [rowsBlk, Finset.mem_filter, Finset.mem_univ, true_and]; intro h1 h2
  rcases Nat.lt_or_gt_of_ne h with hl | hl
  · have : 128 * (x + 1) ≤ 128 * y := Nat.mul_le_mul_left _ hl; omega
  · have : 128 * (y + 1) ≤ 128 * x := Nat.mul_le_mul_left _ hl; omega

end Cert.Proof.KI

end
-- ==== Proof.ScTileInv.lean ====
import proofs.«210884_g88510686036700_cont_sun_m_1211_45_alg».proof.Proof.ScTileSplit

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)
local notation "b0W" => (Memref.whole Cert.KernelIdeal.cc1_scoped0 : Memref Cert.KernelIdeal.sig Kind.scVector Space.vmem Cert.KernelIdeal.S2x1x128 EltTy.i32)
local notation "b2W" => (Memref.whole Cert.KernelIdeal.cc1_scoped2 : Memref Cert.KernelIdeal.sig Kind.scVector Space.vmem Cert.KernelIdeal.S2x1x128 EltTy.i32)
local notation "b4W" => (Memref.whole Cert.KernelIdeal.cc1_scoped4 : Memref Cert.KernelIdeal.sig Kind.scVector Space.vmem Cert.KernelIdeal.S2x128x128 EltTy.f32)
local notation "b6W" => (Memref.whole Cert.KernelIdeal.cc1_scoped6 : Memref Cert.KernelIdeal.sig Kind.scVector Space.vmem Cert.KernelIdeal.S2x128x128 EltTy.f32)

/-! ## The offset lists the gathers read: a slot of an index buffer, whole, as a vector of 128 words -/
def iL0 : Memref sig .scVector .vmem S128 .i32 :=
  ((iS0).slice (Rect.unit (s := S1x128) ![0, 0] S1x128.size inb_S1x128_S1x128_0_0) (fun _ => rfl)).squeeze S128 squeezes_S1x128_S128
def iL1 : Memref sig .scVector .vmem S128 .i32 :=
  ((iS1).slice (Rect.unit (s := S1x128) ![0, 0] S1x128.size inb_S1x128_S1x128_0_0) (fun _ => rfl)).squeeze S128 squeezes_S1x128_S128
def jL0 : Memref sig .scVector .vmem S128 .i32 :=
  ((jS0).slice (Rect.unit (s := S1x128) ![0, 0] S1x128.size inb_S1x128_S1x128_0_0) (fun _ => rfl)).squeeze S128 squeezes_S1x128_S128
def jL1 : Memref sig .scVector .vmem S128 .i32 :=
  ((jS1).slice (Rect.unit (s := S1x128) ![0, 0] S1x128.size inb_S1x128_S1x128_0_0) (fun _ => rfl)).squeeze S128 squeezes_S1x128_S128

omit [FloatOps F] in
theorem rect_S1x128_whole : (Rect.unit (s := S1x128) ![0, 0] S1x128.size inb_S1x128_S1x128_0_0).set = Finset.univ := by
  ext ix; simp only [Rect.mem_set_unit, Finset.mem_univ, iff_true]; intro a; fin_cases a
  · have := (ix 0).isLt; change 0 ≤ (ix 0).val ∧ (ix 0).val < 0 + 1; change (ix 0).val < 1 at this; omega
  · have := (ix 1).isLt; change 0 ≤ (ix 1).val ∧ (ix 1).val < 0 + 128; change (ix 1).val < 128 at this; omega
omit [FloatOps F] in
theorem iL0_set : (iL0).view.set = (iS0).view.set := by
  unfold iL0; simp only [Memref.view_squeeze, View.set_reshape, Memref.view_slice]
  rw [View.set_slice, rect_S1x128_whole]; rfl
omit [FloatOps F] in
/-- The list's words are the slot's: in range when the slot's are. -/
theorem hin_i0 (d : Dev nD) (c : Fin τ.nSC) (i : Fin τ.nSub) (g : Buf (Elt F) ((iS0).view.loc (V d c i))) (r : S1x128.Idx → Elt F .i32)
    (hr : (iS0).view.read (Elt F) g = r) (hb : ∀ y, (r y).toNat < 10000) :
    ∀ y, ((iL0).view.read (Elt F) g y).toNat < S10000x128.size gathers_S10000x128_S128x128.axis := by
  intro y
  have hy : (iL0).view.emb y ∈ (iS0).view.set := by
    rw [← iL0_set]; exact Finset.mem_map_of_mem _ (Finset.mem_univ _)
  obtain ⟨y', -, hy'⟩ := Finset.mem_map.mp hy
  have h1 : (iL0).view.read (Elt F) g y = (iS0).view.read (Elt F) g y' := by
    change _root_.cast _ (g ((iL0).view.emb y)) = _root_.cast _ (g ((iS0).view.emb y'))
    exact congrArg (_root_.cast _) (congrArg g hy'.symm)
  rw [h1, hr]; exact hb y'
omit [FloatOps F] in
theorem iL1_set : (iL1).view.set = (iS1).view.set := by
  unfold iL1; simp only [Memref.view_squeeze, View.set_reshape, Memref.view_slice]
  rw [View.set_slice, rect_S1x128_whole]; rfl
omit [FloatOps F] in
/-- The list's words are the slot's: in range when the slot's are. -/
theorem hin_i1 (d : Dev nD) (c : Fin τ.nSC) (i : Fin τ.nSub) (g : Buf (Elt F) ((iS1).view.loc (V d c i))) (r : S1x128.Idx → Elt F .i32)
    (hr : (iS1).view.read (Elt F) g = r) (hb : ∀ y, (r y).toNat < 10000) :
    ∀ y, ((iL1).view.read (Elt F) g y).toNat < S10000x128.size gathers_S10000x128_S128x128.axis := by
  intro y
  have hy : (iL1).view.emb y ∈ (iS1).view.set := by
    rw [← iL1_set]; exact Finset.mem_map_of_mem _ (Finset.mem_univ _)
  obtain ⟨y', -, hy'⟩ := Finset.mem_map.mp hy
  have h1 : (iL1).view.read (Elt F) g y = (iS1).view.read (Elt F) g y' := by
    change _root_.cast _ (g ((iL1).view.emb y)) = _root_.cast _ (g ((iS1).view.emb y'))
    exact congrArg (_root_.cast _) (congrArg g hy'.symm)
  rw [h1, hr]; exact hb y'
omit [FloatOps F] in
theorem jL0_set : (jL0).view.set = (jS0).view.set := by
  unfold jL0; simp only [Memref.view_squeeze, View.set_reshape, Memref.view_slice]
  rw [View.set_slice, rect_S1x128_whole]; rfl
omit [FloatOps F] in
/-- The list's words are the slot's: in range when the slot's are. -/
theorem hin_j0 (d : Dev nD) (c : Fin τ.nSC) (i : Fin τ.nSub) (g : Buf (Elt F) ((jS0).view.loc (V d c i))) (r : S1x128.Idx → Elt F .i32)
    (hr : (jS0).view.read (Elt F) g = r) (hb : ∀ y, (r y).toNat < 10000) :
    ∀ y, ((jL0).view.read (Elt F) g y).toNat < S10000x128.size gathers_S10000x128_S128x128.axis := by
  intro y
  have hy : (jL0).view.emb y ∈ (jS0).view.set := by
    rw [← jL0_set]; exact Finset.mem_map_of_mem _ (Finset.mem_univ _)
  obtain ⟨y', -, hy'⟩ := Finset.mem_map.mp hy
  have h1 : (jL0).view.read (Elt F) g y = (jS0).view.read (Elt F) g y' := by
    change _root_.cast _ (g ((jL0).view.emb y)) = _root_.cast _ (g ((jS0).view.emb y'))
    exact congrArg (_root_.cast _) (congrArg g hy'.symm)
  rw [h1, hr]; exact hb y'
omit [FloatOps F] in
theorem jL1_set : (jL1).view.set = (jS1).view.set := by
  unfold jL1; simp only [Memref.view_squeeze, View.set_reshape, Memref.view_slice]
  rw [View.set_slice, rect_S1x128_whole]; rfl
omit [FloatOps F] in
/-- The list's words are the slot's: in range when the slot's are. -/
theorem hin_j1 (d : Dev nD) (c : Fin τ.nSC) (i : Fin τ.nSub) (g : Buf (Elt F) ((jS1).view.loc (V d c i))) (r : S1x128.Idx → Elt F .i32)
    (hr : (jS1).view.read (Elt F) g = r) (hb : ∀ y, (r y).toNat < 10000) :
    ∀ y, ((jL1).view.read (Elt F) g y).toNat < S10000x128.size gathers_S10000x128_S128x128.axis := by
  intro y
  have hy : (jL1).view.emb y ∈ (jS1).view.set := by
    rw [← jL1_set]; exact Finset.mem_map_of_mem _ (Finset.mem_univ _)
  obtain ⟨y', -, hy'⟩ := Finset.mem_map.mp hy
  have h1 : (jL1).view.read (Elt F) g y = (jS1).view.read (Elt F) g y' := by
    change _root_.cast _ (g ((jL1).view.emb y)) = _root_.cast _ (g ((jS1).view.emb y'))
    exact congrArg (_root_.cast _) (congrArg g hy'.symm)
  rw [h1, hr]; exact hb y'

section Inv

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

/-! ## What is in flight before a trip -/
/-- Index fetches of block `x` in flight into slot 0; slot 1 at rest. -/
def fetchAt0 (x : ℕ) (hx : x < 2500) : sProp 𝕄 :=
  iprop(((srcW).view.loc (V d c i) ↦[Finset.univ \ (srcB x hx).view.set]{tok w} csrc d)
    ∗ (∃ g, ⌜(iS0).view.read (Elt F) g = (srcB x hx).view.read (Elt F) (csrc d)⌝
        ∗ Transfers.Flight countersEmb (V d c i) (SemLoc.dma (⟨8, by decide⟩ : DmaSem sig)) (default : HIx 1) 4096
            iprop(((iS0).view.loc (V d c i) ↦[(iS0).view.set]{fullShare} g) ∗ (srcW).view.loc (V d c i) ↦[(srcB x hx).view.set]{tok w} csrc d))
    ∗ (∃ g, (iS1).view.loc (V d c i) ↦[(iS1).view.set]{fullShare} g) ∗ semVal (dcell (V d c i) 9 (by decide)) 0
    ∗ ((dstW).view.loc (V d c i) ↦[Finset.univ \ (dstB x hx).view.set]{tok w} cdst d)
    ∗ (∃ g, ⌜(jS0).view.read (Elt F) g = (dstB x hx).view.read (Elt F) (cdst d)⌝
        ∗ Transfers.Flight countersEmb (V d c i) (SemLoc.dma (⟨10, by decide⟩ : DmaSem sig)) (default : HIx 1) 4096
            iprop(((jS0).view.loc (V d c i) ↦[(jS0).view.set]{fullShare} g) ∗ (dstW).view.loc (V d c i) ↦[(dstB x hx).view.set]{tok w} cdst d))
    ∗ (∃ g, (jS1).view.loc (V d c i) ↦[(jS1).view.set]{fullShare} g) ∗ semVal (dcell (V d c i) 11 (by decide)) 0)
/-- Write-outs of row slot 0 to block `x` in flight; row slot 1 at rest. -/
def outAt0 (x : ℕ) (hx : x < 2500) : sProp 𝕄 :=
  iprop((∃ f, (sW).view.loc (V d c i) ↦[rowsOf w \ rowsBlk x]{fullShare} f)
    ∗ (∃ f g, Transfers.Flight countersEmb (V d c i) (SemLoc.dma (⟨12, by decide⟩ : DmaSem sig)) (default : HIx 1) 524288
            iprop(((sB x hx).view.loc (V d c i) ↦[(sB x hx).view.set]{fullShare} f) ∗ (rS0).view.loc (V d c i) ↦[(rS0).view.set]{fullShare} g))
    ∗ (∃ g, (rS1).view.loc (V d c i) ↦[(rS1).view.set]{fullShare} g) ∗ semVal (dcell (V d c i) 13 (by decide)) 0
    ∗ (∃ f, (tW).view.loc (V d c i) ↦[rowsOf w \ rowsBlk x]{fullShare} f)
    ∗ (∃ f g, Transfers.Flight countersEmb (V d c i) (SemLoc.dma (⟨14, by decide⟩ : DmaSem sig)) (default : HIx 1) 524288
            iprop(((tB x hx).view.loc (V d c i) ↦[(tB x hx).view.set]{fullShare} f) ∗ (qS0).view.loc (V d c i) ↦[(qS0).view.set]{fullShare} g))
    ∗ (∃ g, (qS1).view.loc (V d c i) ↦[(qS1).view.set]{fullShare} g) ∗ semVal (dcell (V d c i) 15 (by decide)) 0)
/-- Index fetches of block `x` in flight into slot 1; slot 0 at rest. -/
def fetchAt1 (x : ℕ) (hx : x < 2500) : sProp 𝕄 :=
  iprop(((srcW).view.loc (V d c i) ↦[Finset.univ \ (srcB x hx).view.set]{tok w} csrc d)
    ∗ (∃ g, ⌜(iS1).view.read (Elt F) g = (srcB x hx).view.read (Elt F) (csrc d)⌝
        ∗ Transfers.Flight countersEmb (V d c i) (SemLoc.dma (⟨9, by decide⟩ : DmaSem sig)) (default : HIx 1) 4096
            iprop(((iS1).view.loc (V d c i) ↦[(iS1).view.set]{fullShare} g) ∗ (srcW).view.loc (V d c i) ↦[(srcB x hx).view.set]{tok w} csrc d))
    ∗ (∃ g, (iS0).view.loc (V d c i) ↦[(iS0).view.set]{fullShare} g) ∗ semVal (dcell (V d c i) 8 (by decide)) 0
    ∗ ((dstW).view.loc (V d c i) ↦[Finset.univ \ (dstB x hx).view.set]{tok w} cdst d)
    ∗ (∃ g, ⌜(jS1).view.read (Elt F) g = (dstB x hx).view.read (Elt F) (cdst d)⌝
        ∗ Transfers.Flight countersEmb (V d c i) (SemLoc.dma (⟨11, by decide⟩ : DmaSem sig)) (default : HIx 1) 4096
            iprop(((jS1).view.loc (V d c i) ↦[(jS1).view.set]{fullShare} g) ∗ (dstW).view.loc (V d c i) ↦[(dstB x hx).view.set]{tok w} cdst d))
    ∗ (∃ g, (jS0).view.loc (V d c i) ↦[(jS0).view.set]{fullShare} g) ∗ semVal (dcell (V d c i) 10 (by decide)) 0)
/-- Write-outs of row slot 1 to block `x` in flight; row slot 0 at rest. -/
def outAt1 (x : ℕ) (hx : x < 2500) : sProp 𝕄 :=
  iprop((∃ f, (sW).view.loc (V d c i) ↦[rowsOf w \ rowsBlk x]{fullShare} f)
    ∗ (∃ f g, Transfers.Flight countersEmb (V d c i) (SemLoc.dma (⟨13, by decide⟩ : DmaSem sig)) (default : HIx 1) 524288
            iprop(((sB x hx).view.loc (V d c i) ↦[(sB x hx).view.set]{fullShare} f) ∗ (rS1).view.loc (V d c i) ↦[(rS1).view.set]{fullShare} g))
    ∗ (∃ g, (rS0).view.loc (V d c i) ↦[(rS0).view.set]{fullShare} g) ∗ semVal (dcell (V d c i) 12 (by decide)) 0
    ∗ (∃ f, (tW).view.loc (V d c i) ↦[rowsOf w \ rowsBlk x]{fullShare} f)
    ∗ (∃ f g, Transfers.Flight countersEmb (V d c i) (SemLoc.dma (⟨15, by decide⟩ : DmaSem sig)) (default : HIx 1) 524288
            iprop(((tB x hx).view.loc (V d c i) ↦[(tB x hx).view.set]{fullShare} f) ∗ (qS1).view.loc (V d c i) ↦[(qS1).view.set]{fullShare} g))
    ∗ (∃ g, (qS0).view.loc (V d c i) ↦[(qS0).view.set]{fullShare} g) ∗ semVal (dcell (V d c i) 14 (by decide)) 0)
/-- No index fetch in flight. -/
def fetchRest : sProp 𝕄 :=
  iprop(((srcW).view.loc (V d c i) ↦{tok w} csrc d) ∗ ((dstW).view.loc (V d c i) ↦{tok w} cdst d)
    ∗ (∃ g, (iS0).view.loc (V d c i) ↦[(iS0).view.set]{fullShare} g) ∗ (∃ g, (iS1).view.loc (V d c i) ↦[(iS1).view.set]{fullShare} g)
    ∗ (∃ g, (jS0).view.loc (V d c i) ↦[(jS0).view.set]{fullShare} g) ∗ (∃ g, (jS1).view.loc (V d c i) ↦[(jS1).view.set]{fullShare} g)
    ∗ semVal (dcell (V d c i) 8 (by decide)) 0 ∗ semVal (dcell (V d c i) 9 (by decide)) 0
    ∗ semVal (dcell (V d c i) 10 (by decide)) 0 ∗ semVal (dcell (V d c i) 11 (by decide)) 0)
/-- No write-out in flight. -/
def outRest : sProp 𝕄 :=
  iprop((∃ f, (sW).view.loc (V d c i) ↦[rowsOf w]{fullShare} f) ∗ (∃ f, (tW).view.loc (V d c i) ↦[rowsOf w]{fullShare} f)
    ∗ (∃ g, (rS0).view.loc (V d c i) ↦[(rS0).view.set]{fullShare} g) ∗ (∃ g, (rS1).view.loc (V d c i) ↦[(rS1).view.set]{fullShare} g)
    ∗ (∃ g, (qS0).view.loc (V d c i) ↦[(qS0).view.set]{fullShare} g) ∗ (∃ g, (qS1).view.loc (V d c i) ↦[(qS1).view.set]{fullShare} g)
    ∗ semVal (dcell (V d c i) 12 (by decide)) 0 ∗ semVal (dcell (V d c i) 13 (by decide)) 0
    ∗ semVal (dcell (V d c i) 14 (by decide)) 0 ∗ semVal (dcell (V d c i) 15 (by decide)) 0)

/-- The carried words before trip `k` of `n`. -/
def wordsAt (n k : ℕ) : BitVec 32 × BitVec 32 × BitVec 32 × BitVec 32 × BitVec 32 × BitVec 32 × BitVec 32 × BitVec 32 × BitVec 32 :=
  (BitVec.ofNat 32 (if k + 1 < n then k + 1 else n), BitVec.ofNat 32 k, BitVec.ofNat 32 (if k + 1 < n then k + 1 else n), BitVec.ofNat 32 k,
    BitVec.ofNat 32 k, BitVec.ofNat 32 (k - 1), BitVec.ofNat 32 k, BitVec.ofNat 32 (k - 1), if k < n then BitVec.ofNat 32 k else 0#32)

variable (L : grid1.Coords) (O : CellTallies nD τ sig (HIx 1)) (W : Waits sig (HIx 1))

def fetchPart (k : ℕ) : sProp 𝕄 :=
  if h : k < nT L then
    (if k % 2 = 0 then fetchAt0 csrc cdst d c i (taskOf L) (bT L + k) (blk_lt L k h) else fetchAt1 csrc cdst d c i (taskOf L) (bT L + k) (blk_lt L k h))
  else fetchRest csrc cdst d c i (taskOf L)
def outPart (k : ℕ) : sProp 𝕄 :=
  if h : 0 < k ∧ k ≤ nT L then
    (if k % 2 = 0 then outAt1 (F := F) d c i (taskOf L) (bT L + (k - 1)) (blk_lt L _ (by omega)) else outAt0 (F := F) d c i (taskOf L) (bT L + (k - 1)) (blk_lt L _ (by omega)))
  else outRest (F := F) d c i (taskOf L)

/-- Before trip `k`: the carried words, the tables' read tokens, the gather semaphores at rest, the fetches of block `k` and the
    write-outs of block `k - 1` in flight, and what the task owes. -/
def inv (k : ℕ) (acc : BitVec 32 × BitVec 32 × BitVec 32 × BitVec 32 × BitVec 32 × BitVec 32 × BitVec 32 × BitVec 32 × BitVec 32) : sProp 𝕄 :=
  iprop(⌜acc = wordsAt (nT L) k⌝ ∗ Transfers.MayWaits (V d c i) (none : HIx 1) O
    ∗ ((uW).view.loc (V d c i) ↦{tok (taskOf L)} cu d) ∗ ((vW).view.loc (V d c i) ↦{tok (taskOf L)} cv d)
    ∗ semVal (dcell (V d c i) 6 (by decide)) 0 ∗ semVal (dcell (V d c i) 7 (by decide)) 0
    ∗ fetchPart csrc cdst d c i L k ∗ outPart (F := F) d c i L k
    ∗ ∃ W', ⌜∀ p ∈ W', p ∈ W ∨ p.2 = none⌝ ∗ owes (V d c i) O W')

omit [FloatOps F] in
theorem fetchPart_even (k : ℕ) (h : k < nT L) (hp : k % 2 = 0) :
    fetchPart csrc cdst d c i L k = fetchAt0 csrc cdst d c i (taskOf L) (bT L + k) (blk_lt L k h) := by unfold fetchPart; rw [dif_pos h, if_pos hp]
omit [FloatOps F] in
theorem fetchPart_odd (k : ℕ) (h : k < nT L) (hp : k % 2 = 1) :
    fetchPart csrc cdst d c i L k = fetchAt1 csrc cdst d c i (taskOf L) (bT L + k) (blk_lt L k h) := by unfold fetchPart; rw [dif_pos h, if_neg (by omega)]
omit [FloatOps F] in
theorem fetchPart_rest (k : ℕ) (h : ¬ k < nT L) : fetchPart csrc cdst d c i L k = fetchRest csrc cdst d c i (taskOf L) := by unfold fetchPart; rw [dif_neg h]
omit [FloatOps F] in
theorem outPart_zero (k : ℕ) (h : k = 0) : outPart (F := F) d c i L k = outRest (F := F) d c i (taskOf L) := by unfold outPart; rw [dif_neg (by omega)]
omit [FloatOps F] in
theorem outPart_even (k : ℕ) (h : 0 < k ∧ k ≤ nT L) (hp : k % 2 = 0) :
    outPart (F := F) d c i L k = outAt1 (F := F) d c i (taskOf L) (bT L + (k - 1)) (blk_lt L _ (by omega)) := by unfold outPart; rw [dif_pos h, if_pos hp]
omit [FloatOps F] in
theorem outPart_odd (k : ℕ) (h : 0 < k ∧ k ≤ nT L) (hp : k % 2 = 1) :
    outPart (F := F) d c i L k = outAt0 (F := F) d c i (taskOf L) (bT L + (k - 1)) (blk_lt L _ (by omega)) := by unfold outPart; rw [dif_pos h, if_neg (by omega)]

end Inv

/-! ## The previous block's slice, at a positive trip -/
omit [FloatOps F] in
@[sl_canon] theorem canon_off29' (L : grid1.Coords) (j : ℕ) (hj : 0 < j ∧ j < nT L) (h : ∀ a, k1_off29 L (BitVec.ofNat 32 j) a + S128x128.size a ≤ S320000x128.size a) (hs) :
    (sW).slice (Rect.unit (k1_off29 L (BitVec.ofNat 32 j)) S128x128.size h) hs = sB (bT L + (j - 1)) (blk_lt L _ (by omega)) := by
  obtain ⟨j', rfl⟩ : ∃ j', j = j' + 1 := ⟨j - 1, by omega⟩
  exact Memref.slice_unit_congr _ (off29_eq' L ⟨j', by have := nT_le L; omega⟩ hj.2) _ _ _ (fun _ => rfl)
omit [FloatOps F] in
@[sl_canon] theorem canon_off32' (L : grid1.Coords) (j : ℕ) (hj : 0 < j ∧ j < nT L) (h : ∀ a, k1_off32 L (BitVec.ofNat 32 j) a + S128x128.size a ≤ S320000x128.size a) (hs) :
    (tW).slice (Rect.unit (k1_off32 L (BitVec.ofNat 32 j)) S128x128.size h) hs = tB (bT L + (j - 1)) (blk_lt L _ (by omega)) := by
  obtain ⟨j', rfl⟩ : ∃ j', j = j' + 1 := ⟨j - 1, by omega⟩
  exact Memref.slice_unit_congr _ (off32_eq' L ⟨j', by have := nT_le L; omega⟩ hj.2) _ _ _ (fun _ => rfl)

end Cert.Proof.KI

end
-- ==== Proof.ScTileDisj.lean ====
import proofs.«210884_g88510686036700_cont_sun_m_1211_45_alg».proof.Proof.ScTileInv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)
local notation "b0W" => (Memref.whole Cert.KernelIdeal.cc1_scoped0 : Memref Cert.KernelIdeal.sig Kind.scVector Space.vmem Cert.KernelIdeal.S2x1x128 EltTy.i32)
local notation "b2W" => (Memref.whole Cert.KernelIdeal.cc1_scoped2 : Memref Cert.KernelIdeal.sig Kind.scVector Space.vmem Cert.KernelIdeal.S2x1x128 EltTy.i32)
local notation "b4W" => (Memref.whole Cert.KernelIdeal.cc1_scoped4 : Memref Cert.KernelIdeal.sig Kind.scVector Space.vmem Cert.KernelIdeal.S2x128x128 EltTy.f32)
local notation "b6W" => (Memref.whole Cert.KernelIdeal.cc1_scoped6 : Memref Cert.KernelIdeal.sig Kind.scVector Space.vmem Cert.KernelIdeal.S2x128x128 EltTy.f32)

/-! ## Distinct blocks are disjoint -/

theorem srcB_disj (x y : ℕ) (hx : x < 2500) (hy : y < 2500) (h : x ≠ y) : Disjoint (srcB x hx).view.set (srcB y hy).view.set := by
  unfold srcB; simp only [Memref.view_slice, Memref.view_whole, View.set_slice_whole]
  refine Rect.unit_disjoint 1 ?_
  show 128 * x + 128 ≤ 128 * y ∨ 128 * y + 128 ≤ 128 * x
  omega
theorem dstB_disj (x y : ℕ) (hx : x < 2500) (hy : y < 2500) (h : x ≠ y) : Disjoint (dstB x hx).view.set (dstB y hy).view.set := by
  unfold dstB; simp only [Memref.view_slice, Memref.view_whole, View.set_slice_whole]
  refine Rect.unit_disjoint 1 ?_
  show 128 * x + 128 ≤ 128 * y ∨ 128 * y + 128 ≤ 128 * x
  omega

/-! ## The squeezed slot slices and the offset lists under their names -/
@[sl_canon] theorem canon_iS0 : iC0.squeeze S1x128 squeezes_S1x1x128_S1x128 = iS0 := rfl
theorem canon_iL0 (h) (hs) : (iS0.slice (Rect.unit (s := S1x128) ![0, 0] S1x128.size h) hs).squeeze S128 squeezes_S1x128_S128 = iL0 := rfl
@[sl_canon] theorem canon_iS1 : iC1.squeeze S1x128 squeezes_S1x1x128_S1x128 = iS1 := rfl
theorem canon_iL1 (h) (hs) : (iS1.slice (Rect.unit (s := S1x128) ![0, 0] S1x128.size h) hs).squeeze S128 squeezes_S1x128_S128 = iL1 := rfl
@[sl_canon] theorem canon_jS0 : jC0.squeeze S1x128 squeezes_S1x1x128_S1x128 = jS0 := rfl
theorem canon_jL0 (h) (hs) : (jS0.slice (Rect.unit (s := S1x128) ![0, 0] S1x128.size h) hs).squeeze S128 squeezes_S1x128_S128 = jL0 := rfl
@[sl_canon] theorem canon_jS1 : jC1.squeeze S1x128 squeezes_S1x1x128_S1x128 = jS1 := rfl
theorem canon_jL1 (h) (hs) : (jS1.slice (Rect.unit (s := S1x128) ![0, 0] S1x128.size h) hs).squeeze S128 squeezes_S1x128_S128 = jL1 := rfl
@[sl_canon] theorem canon_rS0 : rC0.squeeze S128x128 squeezes_S1x128x128_S128x128 = rS0 := rfl
@[sl_canon] theorem canon_rS1 : rC1.squeeze S128x128 squeezes_S1x128x128_S128x128 = rS1 := rfl
@[sl_canon] theorem canon_qS0 : qC0.squeeze S128x128 squeezes_S1x128x128_S128x128 = qS0 := rfl
@[sl_canon] theorem canon_qS1 : qC1.squeeze S128x128 squeezes_S1x128x128_S128x128 = qS1 := rfl

/-! ## The epilogue's slot offsets, at any word by its parity -/

theorem off66_w (w : BitVec 32) : k1_off66 w = ![w.toNat % 2] := by unfold k1_off66; simp only [remui2]
theorem off70_w (w : BitVec 32) : k1_off70 w = ![w.toNat % 2] := by unfold k1_off70; simp only [remui2]
theorem off67_w (w : BitVec 32) : k1_off67 w = ![w.toNat % 2, 0, 0] := by unfold k1_off67; simp only [remui2]
theorem off68_w (w : BitVec 32) : k1_off68 w = ![w.toNat % 2, 0, 0] := by unfold k1_off68; simp only [remui2]
@[sl_canon] theorem canon_off66_w0 (w : BitVec 32) (hw : w.toNat % 2 = 0) (h : ∀ a, k1_off66 w a + S1.size a ≤ S2.size a) :
    cc1_scoped5.slice (Rect.unit (k1_off66 w) S1.size h) = cc1_scoped5.slice (Rect.unit ![0] S1.size inb_m0) :=
  SemArray.slice_unit_congr _ (by rw [off66_w, hw]) _ _
@[sl_canon] theorem canon_off70_w0 (w : BitVec 32) (hw : w.toNat % 2 = 0) (h : ∀ a, k1_off70 w a + S1.size a ≤ S2.size a) :
    cc1_scoped7.slice (Rect.unit (k1_off70 w) S1.size h) = cc1_scoped7.slice (Rect.unit ![0] S1.size inb_m0) :=
  SemArray.slice_unit_congr _ (by rw [off70_w, hw]) _ _
@[sl_canon] theorem canon_off67_w0 (w : BitVec 32) (hw : w.toNat % 2 = 0) (h : ∀ a, k1_off67 w a + S1x128x128.size a ≤ S2x128x128.size a) (hs) :
    (b4W).slice (Rect.unit (k1_off67 w) S1x128x128.size h) hs = rC0 :=
  Memref.slice_unit_congr _ (by rw [off67_w, hw]) _ _ _ (fun _ => rfl)
@[sl_canon] theorem canon_off68_w0 (w : BitVec 32) (hw : w.toNat % 2 = 0) (h : ∀ a, k1_off68 w a + S1x128x128.size a ≤ S2x128x128.size a) (hs) :
    (b6W).slice (Rect.unit (k1_off68 w) S1x128x128.size h) hs = qC0 :=
  Memref.slice_unit_congr _ (by rw [off68_w, hw]) _ _ _ (fun _ => rfl)
@[sl_canon] theorem canon_off66_w1 (w : BitVec 32) (hw : w.toNat % 2 = 1) (h : ∀ a, k1_off66 w a + S1.size a ≤ S2.size a) :
    cc1_scoped5.slice (Rect.unit (k1_off66 w) S1.size h) = cc1_scoped5.slice (Rect.unit ![1] S1.size inb_m1) :=
  SemArray.slice_unit_congr _ (by rw [off66_w, hw]) _ _
@[sl_canon] theorem canon_off70_w1 (w : BitVec 32) (hw : w.toNat % 2 = 1) (h : ∀ a, k1_off70 w a + S1.size a ≤ S2.size a) :
    cc1_scoped7.slice (Rect.unit (k1_off70 w) S1.size h) = cc1_scoped7.slice (Rect.unit ![1] S1.size inb_m1) :=
  SemArray.slice_unit_congr _ (by rw [off70_w, hw]) _ _
@[sl_canon] theorem canon_off67_w1 (w : BitVec 32) (hw : w.toNat % 2 = 1) (h : ∀ a, k1_off67 w a + S1x128x128.size a ≤ S2x128x128.size a) (hs) :
    (b4W).slice (Rect.unit (k1_off67 w) S1x128x128.size h) hs = rC1 :=
  Memref.slice_unit_congr _ (by rw [off67_w, hw]) _ _ _ (fun _ => rfl)
@[sl_canon] theorem canon_off68_w1 (w : BitVec 32) (hw : w.toNat % 2 = 1) (h : ∀ a, k1_off68 w a + S1x128x128.size a ≤ S2x128x128.size a) (hs) :
    (b6W).slice (Rect.unit (k1_off68 w) S1x128x128.size h) hs = qC1 :=
  Memref.slice_unit_congr _ (by rw [off68_w, hw]) _ _ _ (fun _ => rfl)

/-! ## Waits recorded at the trivial level -/

theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

theorem waits_insert3 {W W' : Waits sig (HIx 1)} {s : SemLoc sig} (h : ∀ p ∈ W', p ∈ W ∨ p.2 = none ∨ p.2 = some (0 : Fin 1)) :
    ∀ p ∈ insert (s, (default : HIx 1)) W', p ∈ W ∨ p.2 = none ∨ p.2 = some (0 : Fin 1) := by
  intro p hp
  rcases Finset.mem_insert.mp hp with hp | hp
  · exact .inr (.inl (hp ▸ rfl))
  · exact h p hp

/-! ## Putting a block back -/

section Rejoin
variable {ℓ : Loc nD τ sig} {A I J : Finset (Idx ℓ)} {q : PosShare TreeShare} {f g : Buf (Elt F) ℓ}

/-- A read block back into the row held less it and the next block: the row less the next block. -/
theorem pts_rejoin (h : Disjoint I J) :
    iprop((ℓ ↦[I]{q} f) ∗ ℓ ↦[(Finset.univ \ I) \ J]{q} f) ⊢ (ℓ ↦[Finset.univ \ J]{q} f : sProp 𝕄) := by
  have e : I ∪ ((Finset.univ \ I) \ J) = Finset.univ \ J := by
    ext x
    have hxd : x ∈ I → x ∉ J := fun hx => Finset.disjoint_left.mp h hx
    simp only [Finset.mem_union, Finset.mem_sdiff, Finset.mem_univ, true_and]
    tauto
  have hd : Disjoint I ((Finset.univ \ I) \ J) :=
    Finset.disjoint_left.mpr fun x hx hx' => (Finset.mem_sdiff.mp (Finset.mem_sdiff.mp hx').1).2 hx
  exact (pointsTo_union hd).2.trans (Entails.of_eq (by rw [e]))

/-- A written block back into the rows held less it and the next block: the rows less the next block, at some contents. -/
theorem pts_swap_join (hI : I ⊆ A) (hd : Disjoint I J) :
    iprop((ℓ ↦[I]{q} g) ∗ ℓ ↦[(A \ I) \ J]{q} f) ⊢ (iprop(∃ f', ℓ ↦[A \ J]{q} f') : sProp 𝕄) := by
  have hI' : I ⊆ A \ J := fun x hx => Finset.mem_sdiff.mpr ⟨hI hx, Finset.disjoint_left.mp hd hx⟩
  rw [sdiff_right_comm]
  iintro H
  iexists _
  iapply (pointsTo_join_subset hI') $$ H

/-- A block back into the rows held less it: the rows, at some contents. -/
theorem pts_join_ex (hI : I ⊆ A) :
    iprop((ℓ ↦[I]{q} g) ∗ ℓ ↦[A \ I]{q} f) ⊢ (iprop(∃ f', ℓ ↦[A]{q} f') : sProp 𝕄) := by
  iintro H
  iexists _
  iapply (pointsTo_join_subset hI) $$ H

end Rejoin

/-! ## The task's rows of a gathered array, a block at a time -/

section Rows
variable (d : Dev nD) (c : Fin τ.nSC) (i : Fin τ.nSub) (w : Fin 32)

/-- Block `y` out of the task's rows held whole. -/
theorem s_carve0 (y : ℕ) (hy : y < 2500) (hsub : rowsBlk y ⊆ rowsOf w) (f : Buf (Elt F) ((sW).view.loc (V d c i))) :
    ((sW).view.loc (V d c i) ↦[rowsOf w]{fullShare} f : sProp 𝕄)
      ⊢ iprop(((sB y hy).view.loc (V d c i) ↦[(sB y hy).view.set]{fullShare} f) ∗ (sW).view.loc (V d c i) ↦[rowsOf w \ (sB y hy).view.set]{fullShare} f) := by
  have h : (sB y hy).view.set ⊆ rowsOf w := by rw [sB_set]; exact hsub
  exact (pointsTo_split_subset h).1
/-- Block `y` out of the task's rows held less block `x`. -/
theorem s_carve (x y : ℕ) (hy : y < 2500) (hxy : x ≠ y) (hsub : rowsBlk y ⊆ rowsOf w) (f : Buf (Elt F) ((sW).view.loc (V d c i))) :
    ((sW).view.loc (V d c i) ↦[rowsOf w \ rowsBlk x]{fullShare} f : sProp 𝕄)
      ⊢ iprop(((sB y hy).view.loc (V d c i) ↦[(sB y hy).view.set]{fullShare} f) ∗ (sW).view.loc (V d c i) ↦[(rowsOf w \ rowsBlk x) \ (sB y hy).view.set]{fullShare} f) := by
  have h : (sB y hy).view.set ⊆ rowsOf w \ rowsBlk x := by
    rw [sB_set]; exact fun z hz => Finset.mem_sdiff.mpr ⟨hsub hz, Finset.disjoint_left.mp (rowsBlk_disj y x (Ne.symm hxy)) hz⟩
  exact (pointsTo_split_subset h).1
/-- The rows less block `y`, respelt. -/
theorem s_rest (y : ℕ) (hy : y < 2500) (f : Buf (Elt F) ((sW).view.loc (V d c i))) :
    ((sW).view.loc (V d c i) ↦[rowsOf w \ (sB y hy).view.set]{fullShare} f : sProp 𝕄) ⊢ (sW).view.loc (V d c i) ↦[rowsOf w \ rowsBlk y]{fullShare} f :=
  Entails.of_eq (by rw [sB_set])
/-- Block `x`, back from its write-out, joined to the rows held less it and block `y`. -/
theorem s_join (x y : ℕ) (hx : x < 2500) (hy : y < 2500) (hxy : x ≠ y) (hsub : rowsBlk x ⊆ rowsOf w)
    (g : Buf (Elt F) ((sB x hx).view.loc (V d c i))) (f : Buf (Elt F) ((sW).view.loc (V d c i))) :
    (iprop(((sB x hx).view.loc (V d c i) ↦[(sB x hx).view.set]{fullShare} g) ∗ (sW).view.loc (V d c i) ↦[(rowsOf w \ rowsBlk x) \ (sB y hy).view.set]{fullShare} f) : sProp 𝕄)
      ⊢ iprop(∃ f', (sW).view.loc (V d c i) ↦[rowsOf w \ rowsBlk y]{fullShare} f') := by
  rw [sB_set, sB_set]
  exact pts_swap_join (ℓ := (sW).view.loc (V d c i)) hsub (rowsBlk_disj x y hxy)
/-- The last block, back from its write-out, joined to the rows held less it. -/
theorem s_join_last (x : ℕ) (hx : x < 2500) (hsub : rowsBlk x ⊆ rowsOf w)
    (g : Buf (Elt F) ((sB x hx).view.loc (V d c i))) (f : Buf (Elt F) ((sW).view.loc (V d c i))) :
    (iprop(((sB x hx).view.loc (V d c i) ↦[(sB x hx).view.set]{fullShare} g) ∗ (sW).view.loc (V d c i) ↦[rowsOf w \ rowsBlk x]{fullShare} f) : sProp 𝕄)
      ⊢ iprop(∃ f', (sW).view.loc (V d c i) ↦[rowsOf w]{fullShare} f') := by
  rw [sB_set]
  exact pts_join_ex (ℓ := (sW).view.loc (V d c i)) hsub

/-- Block `y` out of the task's rows held whole. -/
theorem t_carve0 (y : ℕ) (hy : y < 2500) (hsub : rowsBlk y ⊆ rowsOf w) (f : Buf (Elt F) ((tW).view.loc (V d c i))) :
    ((tW).view.loc (V d c i) ↦[rowsOf w]{fullShare} f : sProp 𝕄)
      ⊢ iprop(((tB y hy).view.loc (V d c i) ↦[(tB y hy).view.set]{fullShare} f) ∗ (tW).view.loc (V d c i) ↦[rowsOf w \ (tB y hy).view.set]{fullShare} f) := by
  have h : (tB y hy).view.set ⊆ rowsOf w := by rw [tB_set]; exact hsub
  exact (pointsTo_split_subset h).1
/-- Block `y` out of the task's rows held less block `x`. -/
theorem t_carve (x y : ℕ) (hy : y < 2500) (hxy : x ≠ y) (hsub : rowsBlk y ⊆ rowsOf w) (f : Buf (Elt F) ((tW).view.loc (V d c i))) :
    ((tW).view.loc (V d c i) ↦[rowsOf w \ rowsBlk x]{fullShare} f : sProp 𝕄)
      ⊢ iprop(((tB y hy).view.loc (V d c i) ↦[(tB y hy).view.set]{fullShare} f) ∗ (tW).view.loc (V d c i) ↦[(rowsOf w \ rowsBlk x) \ (tB y hy).view.set]{fullShare} f) := by
  have h : (tB y hy).view.set ⊆ rowsOf w \ rowsBlk x := by
    rw [tB_set]; exact fun z hz => Finset.mem_sdiff.mpr ⟨hsub hz, Finset.disjoint_left.mp (rowsBlk_disj y x (Ne.symm hxy)) hz⟩
  exact (pointsTo_split_subset h).1
/-- The rows less block `y`, respelt. -/
theorem t_rest (y : ℕ) (hy : y < 2500) (f : Buf (Elt F) ((tW).view.loc (V d c i))) :
    ((tW).view.loc (V d c i) ↦[rowsOf w \ (tB y hy).view.set]{fullShare} f : sProp 𝕄) ⊢ (tW).view.loc (V d c i) ↦[rowsOf w \ rowsBlk y]{fullShare} f :=
  Entails.of_eq (by rw [tB_set])
/-- Block `x`, back from its write-out, joined to the rows held less it and block `y`. -/
theorem t_join (x y : ℕ) (hx : x < 2500) (hy : y < 2500) (hxy : x ≠ y) (hsub : rowsBlk x ⊆ rowsOf w)
    (g : Buf (Elt F) ((tB x hx).view.loc (V d c i))) (f : Buf (Elt F) ((tW).view.loc (V d c i))) :
    (iprop(((tB x hx).view.loc (V d c i) ↦[(tB x hx).view.set]{fullShare} g) ∗ (tW).view.loc (V d c i) ↦[(rowsOf w \ rowsBlk x) \ (tB y hy).view.set]{fullShare} f) : sProp 𝕄)
      ⊢ iprop(∃ f', (tW).view.loc (V d c i) ↦[rowsOf w \ rowsBlk y]{fullShare} f') := by
  rw [tB_set, tB_set]
  exact pts_swap_join (ℓ := (tW).view.loc (V d c i)) hsub (rowsBlk_disj x y hxy)
/-- The last block, back from its write-out, joined to the rows held less it. -/
theorem t_join_last (x : ℕ) (hx : x < 2500) (hsub : rowsBlk x ⊆ rowsOf w)
    (g : Buf (Elt F) ((tB x hx).view.loc (V d c i))) (f : Buf (Elt F) ((tW).view.loc (V d c i))) :
    (iprop(((tB x hx).view.loc (V d c i) ↦[(tB x hx).view.set]{fullShare} g) ∗ (tW).view.loc (V d c i) ↦[rowsOf w \ rowsBlk x]{fullShare} f) : sProp 𝕄)
      ⊢ iprop(∃ f', (tW).view.loc (V d c i) ↦[rowsOf w]{fullShare} f') := by
  rw [tB_set]
  exact pts_join_ex (ℓ := (tW).view.loc (V d c i)) hsub

end Rows

end Cert.Proof.KI

end
-- ==== Proof.ScTileYield.lean ====
import proofs.«210884_g88510686036700_cont_sun_m_1211_45_alg».proof.Proof.ScTileInv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The words a trip yields: the kernel's own arithmetic, as a function of the words it carries in -/

def yieldFn (i : grid1.Coords) (k1_t1 : Fin (k1_t1_loop i).trips)
    (arg11_r0 arg12_r0 arg13_r0 arg14_r0 arg15_r0 arg16_r0 arg17_r0 arg18_r0 arg19_r0 : BitVec 32) :
    BitVec 32 × BitVec 32 × BitVec 32 × BitVec 32 × BitVec 32 × BitVec 32 × BitVec 32 × BitVec 32 × BitVec 32 :=
  let arg0 : BitVec 32 := BitVec.ofNat 32 (i 0).val
  let arg1 : BitVec 32 := BitVec.ofNat 32 (i 1).val
  let v0 : BitVec 32 := Scalar.muli arg1 1#32
  let v1 : BitVec 32 := Scalar.addi 0#32 v0
  let v2 : BitVec 32 := Scalar.muli arg0 16#32
  let v3 : BitVec 32 := Scalar.addi v1 v2
  let v4 : BitVec 1 := Scalar.cmpi .slt v3 4#32
  let v5 : BitVec 32 := Scalar.select v4 79#32 78#32
  let v6 : BitVec 1 := Scalar.cmpi .slt v3 4#32
  let v7 : BitVec 32 := Scalar.muli v3 v5
  let v8 : BitVec 32 := Scalar.muli v3 78#32
  let v9 : BitVec 32 := Scalar.addi v8 4#32
  let v10 : BitVec 32 := Scalar.select v6 v7 v9
  let v11 : BitVec 32 := Scalar.muli 1#32 v5
  let arg10_r0 : BitVec 32 := Scf.iv 0#32 1#32 k1_t1
  let c2_i32_95_r0 : BitVec 32 := 2#32
  let v101_r0 : BitVec 32 := Scalar.muli 1#32 v5
  let v102_r0 : BitVec 1 := Scalar.cmpi .eq arg10_r0 0#32
  let v103_r0 : BitVec 32 := Scalar.subi v101_r0 1#32
  let v104_r0 : BitVec 1 := Scalar.cmpi .eq arg10_r0 v103_r0
  let v105_r0 : BitVec 32 := Scalar.addi arg19_r0 v10
  let v106_r0 : BitVec 32 := Scalar.subi arg19_r0 1#32
  let v107_r0 : BitVec 32 := Scalar.select 1#1 v106_r0 arg19_r0
  let v108_r0 : BitVec 1 := Scalar.cmpi .eq v107_r0 4294967295#32
  let v109_r0 : BitVec 32 := Scalar.subi v5 1#32
  let v110_r0 : BitVec 32 := Scalar.select v108_r0 v109_r0 v107_r0
  let v111_r0 : BitVec 32 := Scalar.addi v110_r0 v10
  let v112_r0 : BitVec 32 := Scalar.addi arg19_r0 1#32
  let v113_r0 : BitVec 32 := Scalar.select 1#1 v112_r0 arg19_r0
  let v114_r0 : BitVec 1 := Scalar.cmpi .eq v113_r0 v5
  let v115_r0 : BitVec 32 := Scalar.select v114_r0 0#32 v113_r0
  let v116_r0 : BitVec 32 := Scalar.addi v115_r0 v10
  let v122_r0 : BitVec 1 := Scalar.cmpi .ne v105_r0 v116_r0
  let v123_r0 : BitVec 32 := Scalar.subi v101_r0 2#32
  let v124_r0 : BitVec 32 := Scalar.addi v123_r0 1#32
  let v125_r0 : BitVec 1 := Scalar.cmpi .sge arg10_r0 v124_r0
  let v126_r0 : BitVec 1 := Scalar.xori v125_r0 1#1
  let v127_r0 : BitVec 1 := Scalar.andi v122_r0 v126_r0
  let v130_r0 : BitVec 1 := Scalar.andi v127_r0 1#1
  let v131_r0 : BitVec 32 := Scalar.addi arg11_r0 1#32
  let v132_r0 : BitVec 32 := Scalar.select v130_r0 v131_r0 arg11_r0
  let v133_r0 : BitVec 1 := Scalar.cmpi .ne v105_r0 v116_r0
  let v134_r0 : BitVec 32 := Scalar.subi v101_r0 c2_i32_95_r0
  let v135_r0 : BitVec 32 := Scalar.addi v134_r0 1#32
  let v136_r0 : BitVec 1 := Scalar.cmpi .sge arg10_r0 v135_r0
  let v137_r0 : BitVec 1 := Scalar.xori v136_r0 1#1
  let v138_r0 : BitVec 1 := Scalar.andi v133_r0 v137_r0
  let v141_r0 : BitVec 1 := Scalar.andi v138_r0 1#1
  let v142_r0 : BitVec 32 := Scalar.addi arg13_r0 1#32
  let v143_r0 : BitVec 32 := Scalar.select v141_r0 v142_r0 arg13_r0
  let v170_r0 : BitVec 1 := Scalar.cmpi .ne v105_r0 v111_r0
  let v171_r0 : BitVec 1 := Scalar.ori v170_r0 v102_r0
  let v172_r0 : BitVec 1 := Scalar.cmpi .slt arg10_r0 0#32
  let v216_r0 : BitVec 1 := Scalar.cmpi .ne v105_r0 v116_r0
  let v217_r0 : BitVec 1 := Scalar.ori v216_r0 v104_r0
  let v218_r0 : BitVec 32 := Scalar.extui v217_r0
  let v219_r0 : BitVec 1 := Scalar.cmpi .ne v218_r0 0#32
  let v221_r0 : BitVec 1 := Scalar.cmpi .ne v105_r0 v116_r0
  let v222_r0 : BitVec 1 := Scalar.ori v221_r0 v104_r0
  let v223_r0 : BitVec 32 := Scalar.extui v222_r0
  let v224_r0 : BitVec 1 := Scalar.cmpi .ne v223_r0 0#32
  let v226_r0 : BitVec 1 := Scalar.cmpi .ne v105_r0 v116_r0
  let v227_r0 : BitVec 1 := Scalar.ori v226_r0 v104_r0
  let v230_r0 : BitVec 1 := Scalar.andi v227_r0 1#1
  let v231_r0 : BitVec 32 := Scalar.addi arg15_r0 1#32
  let v232_r0 : BitVec 32 := Scalar.select v230_r0 v231_r0 arg15_r0
  let v233_r0 : BitVec 1 := Scalar.cmpi .ne v105_r0 v116_r0
  let v234_r0 : BitVec 1 := Scalar.ori v233_r0 v104_r0
  let v235_r0 : BitVec 32 := Scalar.extui v234_r0
  let v237_r0 : BitVec 1 := Scalar.andi v234_r0 1#1
  let v238_r0 : BitVec 32 := Scalar.addi arg17_r0 1#32
  let v239_r0 : BitVec 32 := Scalar.select v237_r0 v238_r0 arg17_r0
  let v240_r0 : BitVec 1 := Scalar.cmpi .ne v105_r0 v111_r0
  let v241_r0 : BitVec 1 := Scalar.xori v102_r0 1#1
  let v242_r0 : BitVec 1 := Scalar.andi v240_r0 v241_r0
  let v243_r0 : BitVec 32 := Scalar.extui v242_r0
  let v244_r0 : BitVec 1 := Scalar.cmpi .ne v243_r0 0#32
  let v246_r0 : BitVec 1 := Scalar.cmpi .ne v105_r0 v111_r0
  let v247_r0 : BitVec 1 := Scalar.xori v102_r0 1#1
  let v248_r0 : BitVec 1 := Scalar.andi v246_r0 v247_r0
  let v249_r0 : BitVec 32 := Scalar.extui v248_r0
  let v250_r0 : BitVec 1 := Scalar.cmpi .ne v249_r0 0#32
  let v252_r0 : BitVec 1 := Scalar.cmpi .ne v105_r0 v111_r0
  let v253_r0 : BitVec 1 := Scalar.xori v102_r0 1#1
  let v254_r0 : BitVec 1 := Scalar.andi v252_r0 v253_r0
  let v257_r0 : BitVec 1 := Scalar.andi v254_r0 1#1
  let v258_r0 : BitVec 32 := Scalar.addi arg16_r0 1#32
  let v259_r0 : BitVec 32 := Scalar.select v257_r0 v258_r0 arg16_r0
  let v260_r0 : BitVec 1 := Scalar.cmpi .ne v105_r0 v111_r0
  let v261_r0 : BitVec 1 := Scalar.xori v102_r0 1#1
  let v262_r0 : BitVec 1 := Scalar.andi v260_r0 v261_r0
  let v265_r0 : BitVec 1 := Scalar.andi v262_r0 1#1
  let v266_r0 : BitVec 32 := Scalar.addi arg18_r0 1#32
  let v267_r0 : BitVec 32 := Scalar.select v265_r0 v266_r0 arg18_r0
  let v268_r0 : BitVec 1 := Scalar.cmpi .ne v105_r0 v116_r0
  let v269_r0 : BitVec 1 := Scalar.ori v268_r0 v104_r0
  let v270_r0 : BitVec 32 := Scalar.addi arg12_r0 1#32
  let v271_r0 : BitVec 32 := Scalar.select v269_r0 v270_r0 arg12_r0
  let v272_r0 : BitVec 1 := Scalar.cmpi .ne v105_r0 v116_r0
  let v273_r0 : BitVec 1 := Scalar.ori v272_r0 v104_r0
  let v274_r0 : BitVec 32 := Scalar.addi arg14_r0 1#32
  let v275_r0 : BitVec 32 := Scalar.select v273_r0 v274_r0 arg14_r0
  let v276_r0 : BitVec 32 := Scalar.addi arg19_r0 1#32
  let v277_r0 : BitVec 32 := Scalar.select 1#1 v276_r0 arg19_r0
  let v278_r0 : BitVec 1 := Scalar.cmpi .eq v277_r0 v5
  let v279_r0 : BitVec 32 := Scalar.select v278_r0 0#32 v277_r0
  (v132_r0, v271_r0, v143_r0, v275_r0, v232_r0, v259_r0, v239_r0, v267_r0, v279_r0)

set_option synthInstance.maxSize 100000 in
set_option synthInstance.maxHeartbeats 0 in
/-- From the words before trip `k`, the trip yields the words before trip `k + 1`. -/
theorem yield_eq : ∀ L : grid1.Coords, ∀ k : Fin (k1_t1_loop L).trips,
    yieldFn L k (BitVec.ofNat 32 (if k.val + 1 < nT L then k.val + 1 else nT L)) (BitVec.ofNat 32 k.val) (BitVec.ofNat 32 (if k.val + 1 < nT L then k.val + 1 else nT L)) (BitVec.ofNat 32 k.val) (BitVec.ofNat 32 k.val) (BitVec.ofNat 32 (k.val - 1)) (BitVec.ofNat 32 k.val) (BitVec.ofNat 32 (k.val - 1)) (BitVec.ofNat 32 k.val) = wordsAt (nT L) (k.val + 1) := by decide +kernel

end Cert.Proof.KI

end
-- ==== Proof.ScTileChk.lean ====
import proofs.«210884_g88510686036700_cont_sun_m_1211_45_alg».proof.Proof.ScTileArith

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The side conditions the kernel assumes, at the words the loop carries -/

theorem chk2_ok : ∀ L : grid1.Coords, ∀ j : Fin 80, k1_chk2 L (BitVec.ofNat 32 j.val) := by decide +kernel
theorem chk3_ok : ∀ L : grid1.Coords, ∀ j : Fin 80, k1_chk3 L (BitVec.ofNat 32 j.val) := by decide +kernel
theorem chk4_ok : ∀ L : grid1.Coords, ∀ j : Fin 80, k1_chk4 L (BitVec.ofNat 32 j.val) := by decide +kernel
theorem chk5_ok : ∀ L : grid1.Coords, ∀ j : Fin 80, k1_chk5 L (BitVec.ofNat 32 j.val) := by decide +kernel
theorem chk11_ok : ∀ L : grid1.Coords, ∀ j : Fin 80, k1_chk11 L (BitVec.ofNat 32 j.val) := by decide +kernel
theorem chk13_ok : ∀ L : grid1.Coords, ∀ j : Fin 80, k1_chk13 L (BitVec.ofNat 32 j.val) := by decide +kernel
theorem chk12_ok : ∀ L : grid1.Coords, k1_chk12 L 0#32 := by decide +kernel

theorem chk1_all : ∀ L : grid1.Coords, ∀ k : Fin (k1_t1_loop L).trips,
    k1_chk1 L k (BitVec.ofNat 32 (if k.val + 1 < nT L then k.val + 1 else nT L)) (BitVec.ofNat 32 k.val) (BitVec.ofNat 32 (if k.val + 1 < nT L then k.val + 1 else nT L)) (BitVec.ofNat 32 k.val) (BitVec.ofNat 32 k.val) (BitVec.ofNat 32 (k.val - 1)) (BitVec.ofNat 32 k.val) (BitVec.ofNat 32 (k.val - 1)) (BitVec.ofNat 32 k.val) := by decide +kernel

end Cert.Proof.KI

end
-- ==== Proof.ScTileChk2.lean ====
import proofs.«210884_g88510686036700_cont_sun_m_1211_45_alg».proof.Proof.ScTileChk

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The side conditions over a natural below 80 -/
theorem chk2_nat (L : grid1.Coords) (x : ℕ) (hx : x < 80) : k1_chk2 L (BitVec.ofNat 32 x) := chk2_ok L ⟨x, hx⟩
theorem chk3_nat (L : grid1.Coords) (x : ℕ) (hx : x < 80) : k1_chk3 L (BitVec.ofNat 32 x) := chk3_ok L ⟨x, hx⟩
theorem chk4_nat (L : grid1.Coords) (x : ℕ) (hx : x < 80) : k1_chk4 L (BitVec.ofNat 32 x) := chk4_ok L ⟨x, hx⟩
theorem chk5_nat (L : grid1.Coords) (x : ℕ) (hx : x < 80) : k1_chk5 L (BitVec.ofNat 32 x) := chk5_ok L ⟨x, hx⟩
theorem chk11_nat (L : grid1.Coords) (x : ℕ) (hx : x < 80) : k1_chk11 L (BitVec.ofNat 32 x) := chk11_ok L ⟨x, hx⟩
theorem chk13_nat (L : grid1.Coords) (x : ℕ) (hx : x < 80) : k1_chk13 L (BitVec.ofNat 32 x) := chk13_ok L ⟨x, hx⟩

end Cert.Proof.KI

end
-- ==== Proof.ScTileFin.lean ====
/-
  The end of a task, as a pure entailment: with no fetch and no write-out in flight, the read tokens, the slots of the
  four scoped buffers, the ten semaphores at zero and the rests of the subcore's own storage are what the task was
  handed: its resources and the subcore's scoped buffers and semaphores.
-/
import proofs.«210884_g88510686036700_cont_sun_m_1211_45_alg».proof.Proof.ScTileInv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)
local notation "b0W" => (Memref.whole Cert.KernelIdeal.cc1_scoped0 : Memref Cert.KernelIdeal.sig Kind.scVector Space.vmem Cert.KernelIdeal.S2x1x128 EltTy.i32)
local notation "b2W" => (Memref.whole Cert.KernelIdeal.cc1_scoped2 : Memref Cert.KernelIdeal.sig Kind.scVector Space.vmem Cert.KernelIdeal.S2x1x128 EltTy.i32)
local notation "b4W" => (Memref.whole Cert.KernelIdeal.cc1_scoped4 : Memref Cert.KernelIdeal.sig Kind.scVector Space.vmem Cert.KernelIdeal.S2x128x128 EltTy.f32)
local notation "b6W" => (Memref.whole Cert.KernelIdeal.cc1_scoped6 : Memref Cert.KernelIdeal.sig Kind.scVector Space.vmem Cert.KernelIdeal.S2x128x128 EltTy.f32)

section Fin

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

/-- The slots joined back to their buffers, the whole-array points-to facts respelt at the arrays' own locations. -/
theorem reassemble (hF : (K (F := F)).Facts) :
    iprop(((uW).view.loc (V d c i) ↦{tok w} cu d) ∗ ((vW).view.loc (V d c i) ↦{tok w} cv d)
        ∗ semVal (dcell (V d c i) 6 (by decide)) 0 ∗ semVal (dcell (V d c i) 7 (by decide)) 0
        ∗ fetchRest csrc cdst d c i w ∗ outRest (F := F) d c i w
        ∗ bigSep (((((ownRefs (τ := τ) (.scVector c i)).erase ((Proc.scVector c i).devRef cc1_scoped0)).erase ((Proc.scVector c i).devRef cc1_scoped2)).erase ((Proc.scVector c i).devRef cc1_scoped4)).erase ((Proc.scVector c i).devRef cc1_scoped6))
          (fun b => iprop(∃ f, ((d, b) : Loc nD τ sig) ↦{fullShare} f) : DevRef τ sig → sProp 𝕄)
        ∗ bigSep (((((((((((ownCells (V d c i)).erase (dcell (V d c i) 6 (by decide))).erase (dcell (V d c i) 7 (by decide))).erase (dcell (V d c i) 8 (by decide))).erase (dcell (V d c i) 9 (by decide))).erase (dcell (V d c i) 10 (by decide))).erase (dcell (V d c i) 11 (by decide))).erase (dcell (V d c i) 12 (by decide))).erase (dcell (V d c i) 13 (by decide))).erase (dcell (V d c i) 14 (by decide))).erase (dcell (V d c i) 15 (by decide)))
          (fun g => semVal g 0 : GSem nD τ sig → sProp 𝕄))
      ⊢ (iprop(taskRes cu cv csrc cdst d w ∗ scopedBufs (V d c i) ∗ scopedSems0 (V d c i)) : sProp 𝕄) := by
  unfold fetchRest outRest taskRes readRes writeRes
  rw [(K (F := F)).scopedBufs_V hF d c i, SparseCore.Cfg.scopedSems0_V (Val := Elt F) d c i, ownSems0_split, ownBufs_split]
  iintro ⟨Hu, Hv, Hm6, Hm7, ⟨Hsrc, Hdst, Hi0, Hi1, Hj0, Hj1, Hm8, Hm9, Hm10, Hm11⟩, ⟨Hs, Ht, Hr0, Hr1, Hq0, Hq1, Hm12, Hm13, Hm14, Hm15⟩, Hbufs, Hsems⟩
  ihave Hb0 := (i_join (F := F) d c i) $$ [Hi0 Hi1]
  · isplitl [Hi0]
    · iexact Hi0
    · iexact Hi1
  ihave Hb2 := (j_join (F := F) d c i) $$ [Hj0 Hj1]
  · isplitl [Hj0]
    · iexact Hj0
    · iexact Hj1
  ihave Hb4 := (r_join (F := F) d c i) $$ [Hr0 Hr1]
  · isplitl [Hr0]
    · iexact Hr0
    · iexact Hr1
  ihave Hb6 := (q_join (F := F) d c i) $$ [Hq0 Hq1]
  · isplitl [Hq0]
    · iexact Hq0
    · iexact Hq1
  ihave Hu := (Entails.of_eq (show (((uW).view.loc (V d c i) ↦{tok w} cu d : sProp 𝕄)) = (uLoc d ↦{tok w} cu d) from rfl)) $$ Hu
  ihave Hv := (Entails.of_eq (show (((vW).view.loc (V d c i) ↦{tok w} cv d : sProp 𝕄)) = (vLoc d ↦{tok w} cv d) from rfl)) $$ Hv
  ihave Hsrc := (Entails.of_eq (show (((srcW).view.loc (V d c i) ↦{tok w} csrc d : sProp 𝕄)) = (srcLoc d ↦{tok w} csrc d) from rfl)) $$ Hsrc
  ihave Hdst := (Entails.of_eq (show (((dstW).view.loc (V d c i) ↦{tok w} cdst d : sProp 𝕄)) = (dstLoc d ↦{tok w} cdst d) from rfl)) $$ Hdst
  icases Hs with ⟨%fs, Hs⟩
  icases Ht with ⟨%ft, Ht⟩
  ihave Hs := (Entails.of_eq (show (((sW).view.loc (V d c i) ↦[rowsOf w]{fullShare} fs : sProp 𝕄)) = (sLoc d ↦[rowsOf w]{fullShare} fs) from rfl)) $$ Hs
  ihave Ht := (Entails.of_eq (show (((tW).view.loc (V d c i) ↦[rowsOf w]{fullShare} ft : sProp 𝕄)) = (tLoc d ↦[rowsOf w]{fullShare} ft) from rfl)) $$ Ht
  isplitl [Hu Hv Hsrc Hdst Hs Ht]
  · isplitl [Hu Hv Hsrc Hdst]
    · isplitl [Hu]; · iexact Hu
      isplitl [Hv]; · iexact Hv
      isplitl [Hsrc]; · iexact Hsrc
      iexact Hdst
    · isplitl [Hs]
      · iexists fs; iexact Hs
      · iexists ft; iexact Ht
  · isplitl [Hb0 Hb2 Hb4 Hb6 Hbufs]
    · isplitl [Hb0]; · iexact Hb0
      isplitl [Hb2]; · iexact Hb2
      isplitl [Hb4]; · iexact Hb4
      isplitl [Hb6]; · iexact Hb6
      iexact Hbufs
    · isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      iexact Hsems

end Fin

end Cert.Proof.KI

end
-- ==== Proof.ScGatherVal.lean ====
/-
  What an indirect row gather of a [10000, 128] table into a [128, 128] slot writes, read at a row and a column: row p of
  the slot is the table's row named by entry p of the offset list.
-/
import proofs.«210884_g88510686036700_cont_sun_m_1211_45_alg».proof.Proof.Common
import Idealize.ShloMosaic.Lib.SparseCore.Stream
import Idealize.ShloMosaic.Lib.ValueIdx

noncomputable section

namespace Cert.Proof.KI

open Cert.KernelIdeal Cert.KernelIdeal.Gen
open Idealize.ShloMosaic Idealize.ShloMosaic.ValueIdx

variable {F : FTy → Type}

/-- The source index of the gather for the slot's element (p, k): the named row, the same column. -/
theorem gather_idx (r : Fin (S128x128.size gathers_S10000x128_S128x128.axis') → Fin (S10000x128.size gathers_S10000x128_S128x128.axis)) (p k : Fin 128) :
    gathers_S10000x128_S128x128.idx r (ix2 p k) = (ix2 (r p) k : S10000x128.Idx) := by
  funext b
  match b with
  | ⟨0, _⟩ => exact Shape.Gathers.idx_axis gathers_S10000x128_S128x128 r (ix2 p k)
  | ⟨1, _⟩ => exact Fin.ext (Shape.Gathers.idx_of_ne gathers_S10000x128_S128x128 r (ix2 p k) ⟨1, by decide⟩ (by decide))

/-- The gather's payload at (p, k). -/
theorem gatherPayload_apply {e : EltTy} (g : S10000x128.Idx → Elt F e)
    (r : Fin (S128x128.size gathers_S10000x128_S128x128.axis') → Fin (S10000x128.size gathers_S10000x128_S128x128.axis)) (p k : Fin 128) :
    SparseCore.gatherPayload gathers_S10000x128_S128x128 g r (ix2 p k) = g (ix2 (r p) k) := by
  unfold SparseCore.gatherPayload; rw [gather_idx]

/-- The row an offset list of 128 words names at entry p is the word there. -/
theorem rows_val (idx : S128.Idx → Elt F .i32) (hn : S128.numel = S128x128.size gathers_S10000x128_S128x128.axis')
    (h : ∀ x, (idx x).toNat < S10000x128.size gathers_S10000x128_S128x128.axis) (p : Fin 128) :
    (SparseCore.rows idx hn h p).val = (idx (ix1 p)).toNat := by
  unfold SparseCore.rows
  show (idx (S128.rowMajor.symm (Fin.cast hn.symm p))).toNat = (idx (ix1 p)).toNat
  congr 2
  apply S128.rowMajor.injective
  rw [Equiv.apply_symm_apply]
  apply Fin.ext
  show p.val = (S128.rowMajor (ix1 p)).val
  simp [Shape.rowMajor_val_one]

end Cert.Proof.KI

end
-- ==== Proof.ScTileVal.lean ====
import proofs.«210884_g88510686036700_cont_sun_m_1211_45_alg».proof.Proof.ScTileInv
import proofs.«210884_g88510686036700_cont_sun_m_1211_45_alg».proof.Proof.ScGatherVal
import proofs.«210884_g88510686036700_cont_sun_m_1211_45_alg».proof.Proof.ScPayV
import Idealize.ShloMosaic.Lib.ValueLayout
import Idealize.ShloMosaic.Lib.Pipeline.Value

set_option maxRecDepth 16384

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)

/-! ## The values the task moves: the gather's payload, the row slots, the blocks written out, and their accumulation -/

section Val
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub)

/-- Entry `p` of the offset list of slot 0 is the slot's word at `(0, p)`. -/
theorem iL0_read (g : Buf (Elt F) ((iS0).view.loc (V d c i))) (p : Fin 128) :
    (iL0).view.read (Elt F) g (ix1 p) = (iS0).view.read (Elt F) g (ix2 (0 : Fin 1) p) := by
  have hc : (Rect.unit (s := S1x128) ![0, 0] S1x128.size inb_S1x128_S1x128_0_0).shape.ShapeCasts S128 := by decide
  have h : (iL0).view.read (Elt F) g
      = shapeCast S128 ((iS0).view.readAt (Elt F) (Rect.unit (s := S1x128) ![0, 0] S1x128.size inb_S1x128_S1x128_0_0).toLoadRect g) hc := rfl
  rw [h]
  refine (shapeCast_1a_a_apply _ hc p).trans ?_
  rw [View.readAt_eq_ld, View.ld_unit_zero (funext fun a => by fin_cases a <;> rfl)]

/-- Entry `p` of the offset list of slot 1 is the slot's word at `(0, p)`. -/
theorem iL1_read (g : Buf (Elt F) ((iS1).view.loc (V d c i))) (p : Fin 128) :
    (iL1).view.read (Elt F) g (ix1 p) = (iS1).view.read (Elt F) g (ix2 (0 : Fin 1) p) := by
  have hc : (Rect.unit (s := S1x128) ![0, 0] S1x128.size inb_S1x128_S1x128_0_0).shape.ShapeCasts S128 := by decide
  have h : (iL1).view.read (Elt F) g
      = shapeCast S128 ((iS1).view.readAt (Elt F) (Rect.unit (s := S1x128) ![0, 0] S1x128.size inb_S1x128_S1x128_0_0).toLoadRect g) hc := rfl
  rw [h]
  refine (shapeCast_1a_a_apply _ hc p).trans ?_
  rw [View.readAt_eq_ld, View.ld_unit_zero (funext fun a => by fin_cases a <;> rfl)]

/-- Entry `(u, p)` of block `x` of the index row is the row's entry `128 x + p`. -/
theorem srcB_read (x : ℕ) (hx : x < 2500) (f : Buf (Elt F) (srcLoc d)) (u : Fin 1) (p : Fin 128) :
    (srcB x hx).view.read (Elt F) f (ix2 u p) = f (ix2 (0 : Fin 1) (⟨128 * x + p.val, by omega⟩ : Fin 320000)) := by
  show f ((Rect.unit (s := S1x320000) ![0, 128 * x] S1x128.size (inb_row x hx)).emb (ix2 u p)) = _
  refine congrArg f (funext fun a => Fin.ext ?_)
  match a with
  | ⟨0, _⟩ => show 0 + 1 * u.val = 0; omega
  | ⟨1, _⟩ => show 128 * x + 1 * p.val = 128 * x + p.val; omega

/-- Entry `(p, k)` of block `x` of the gathered array is the array's row `128 x + p`. -/
theorem sB_read (x : ℕ) (hx : x < 2500) (f : Buf (Elt F) (sLoc d)) (p k : Fin 128) :
    (sB x hx).view.read (Elt F) f (ix2 p k) = f (ix2 (⟨128 * x + p.val, by omega⟩ : Fin 320000) k) := by
  show f ((Rect.unit (s := S320000x128) ![128 * x, 0] S128x128.size (inb_blk x hx)).emb (ix2 p k)) = _
  refine congrArg f (funext fun a => Fin.ext ?_)
  match a with
  | ⟨0, _⟩ => show 128 * x + 1 * p.val = 128 * x + p.val; omega
  | ⟨1, _⟩ => show 0 + 1 * k.val = k.val; omega

/-- THE GATHER'S PAYLOAD through the offset list of slot 0, when the slot holds block `x` of the index row and every
    index names a table row: row `p` is the table's row named by entry `128 x + p` of the index row. -/
theorem gath_s0 (x : ℕ) (hx : x < 2500) (gi : Buf (Elt F) ((iS0).view.loc (V d c i)))
    (hr : (iS0).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL0).view.read (Elt F) gi y).toNat < S10000x128.size gathers_S10000x128_S128x128.axis) (p k : Fin 128) :
    SparseCore.gatherPayload gathers_S10000x128_S128x128 ((uW).view.read (Elt F) (cu d))
        (SparseCore.rows ((iL0).view.read (Elt F) gi) hn hin) (ix2 p k)
      = cu d (ix2 (rowOfWord (csrc d (ix2 (0 : Fin 1) (⟨128 * x + p.val, by omega⟩ : Fin 320000)))) k) := by
  rw [gatherPayload_apply]
  show cu d (ix2 (SparseCore.rows ((iL0).view.read (Elt F) gi) hn hin p) k) = _
  refine congrArg (cu d) ?_
  funext a
  match a with
  | ⟨0, _⟩ =>
    refine Fin.ext ?_
    show (SparseCore.rows ((iL0).view.read (Elt F) gi) hn hin p).val = (rowOfWord _).val
    rw [rows_val, iL0_read, hr, srcB_read, rowOfWord_val (hb _)]
  | ⟨1, _⟩ => rfl

/-- THE ROW SLOT 0 AFTER THE GATHER has landed: read back, it is that payload. -/
theorem slot_s0 (x : ℕ) (hx : x < 2500) (gi : Buf (Elt F) ((iS0).view.loc (V d c i)))
    (hr : (iS0).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL0).view.read (Elt F) gi y).toNat < S10000x128.size gathers_S10000x128_S128x128.axis)
    (g0 : Buf (Elt F) ((rS0).view.loc (V d c i))) (p k : Fin 128) :
    (rS0).view.read (Elt F) ((rS0).view.write (Elt F) g0
        (SparseCore.gatherPayload gathers_S10000x128_S128x128 ((uW).view.read (Elt F) (cu d))
          (SparseCore.rows ((iL0).view.read (Elt F) gi) hn hin)) Finset.univ) (ix2 p k)
      = cu d (ix2 (rowOfWord (csrc d (ix2 (0 : Fin 1) (⟨128 * x + p.val, by omega⟩ : Fin 320000)))) k) := by
  rw [View.read_write_univ]
  exact gath_s0 cu csrc d c i x hx gi hr hb hn hin p k

/-- THE GATHER'S PAYLOAD through the offset list of slot 1, when the slot holds block `x` of the index row and every
    index names a table row: row `p` is the table's row named by entry `128 x + p` of the index row. -/
theorem gath_s1 (x : ℕ) (hx : x < 2500) (gi : Buf (Elt F) ((iS1).view.loc (V d c i)))
    (hr : (iS1).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL1).view.read (Elt F) gi y).toNat < S10000x128.size gathers_S10000x128_S128x128.axis) (p k : Fin 128) :
    SparseCore.gatherPayload gathers_S10000x128_S128x128 ((uW).view.read (Elt F) (cu d))
        (SparseCore.rows ((iL1).view.read (Elt F) gi) hn hin) (ix2 p k)
      = cu d (ix2 (rowOfWord (csrc d (ix2 (0 : Fin 1) (⟨128 * x + p.val, by omega⟩ : Fin 320000)))) k) := by
  rw [gatherPayload_apply]
  show cu d (ix2 (SparseCore.rows ((iL1).view.read (Elt F) gi) hn hin p) k) = _
  refine congrArg (cu d) ?_
  funext a
  match a with
  | ⟨0, _⟩ =>
    refine Fin.ext ?_
    show (SparseCore.rows ((iL1).view.read (Elt F) gi) hn hin p).val = (rowOfWord _).val
    rw [rows_val, iL1_read, hr, srcB_read, rowOfWord_val (hb _)]
  | ⟨1, _⟩ => rfl

/-- THE ROW SLOT 1 AFTER THE GATHER has landed: read back, it is that payload. -/
theorem slot_s1 (x : ℕ) (hx : x < 2500) (gi : Buf (Elt F) ((iS1).view.loc (V d c i)))
    (hr : (iS1).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL1).view.read (Elt F) gi y).toNat < S10000x128.size gathers_S10000x128_S128x128.axis)
    (g0 : Buf (Elt F) ((rS1).view.loc (V d c i))) (p k : Fin 128) :
    (rS1).view.read (Elt F) ((rS1).view.write (Elt F) g0
        (SparseCore.gatherPayload gathers_S10000x128_S128x128 ((uW).view.read (Elt F) (cu d))
          (SparseCore.rows ((iL1).view.read (Elt F) gi) hn hin)) Finset.univ) (ix2 p k)
      = cu d (ix2 (rowOfWord (csrc d (ix2 (0 : Fin 1) (⟨128 * x + p.val, by omega⟩ : Fin 320000)))) k) := by
  rw [View.read_write_univ]
  exact gath_s1 cu csrc d c i x hx gi hr hb hn hin p k

/-- The gathered array written through block `x`, at a row of the block: the payload there; -/
theorem out_s_at (x : ℕ) (hx : x < 2500) (f : Buf (Elt F) (sLoc d)) (w : S128x128.Idx → Elt F .f32) (p k : Fin 128) :
    (sB x hx).view.write (Elt F) f w Finset.univ (ix2 (⟨128 * x + p.val, by omega⟩ : Fin 320000) k) = w (ix2 p k) := by
  have h2 : (sB x hx).view.read (Elt F) ((sB x hx).view.write (Elt F) f w Finset.univ) (ix2 p k) = w (ix2 p k) :=
    View.read_write_of_mem (v := (sB x hx).view) _ w (Finset.mem_univ _)
  exact ((sB_read d x hx ((sB x hx).view.write (Elt F) f w Finset.univ) p k).symm).trans h2
/-- off the block's rows: unchanged. -/
theorem out_s_off (x : ℕ) (hx : x < 2500) (f : Buf (Elt F) (sLoc d)) (w : S128x128.Idx → Elt F .f32) (ix : S320000x128.Idx)
    (h : ix ∉ rowsBlk x) : (sB x hx).view.write (Elt F) f w Finset.univ ix = f ix := by
  have h' : ix ∉ (sB x hx).view.setOn Finset.univ := by rw [View.setOn_univ, sB_set]; exact h
  exact View.write_of_not_mem f w _ h'

/-- The rows of the blocks from `lo` up to `hi` hold the table rows their index entries name. -/
def GathSBelow (f : Buf (Elt F) (sLoc d)) (lo hi : ℕ) : Prop :=
  ∀ e : Fin 320000, 128 * lo ≤ e.val → e.val < 128 * hi → GathS cu csrc d f e

theorem GathSBelow_nil (f : Buf (Elt F) (sLoc d)) (lo : ℕ) : GathSBelow cu csrc d f lo lo :=
  fun e h1 h2 => absurd h2 (by omega)

/-- ONE MORE BLOCK: writing block `x` with a payload whose rows are the named table rows extends the gathered rows by that block. -/
theorem GathSBelow_step (x : ℕ) (hx : x < 2500) (f : Buf (Elt F) (sLoc d)) (w : S128x128.Idx → Elt F .f32) (lo : ℕ)
    (hw : ∀ p k : Fin 128, w (ix2 p k) = cu d (ix2 (rowOfWord (csrc d (ix2 (0 : Fin 1) (⟨128 * x + p.val, by omega⟩ : Fin 320000)))) k))
    (hf : GathSBelow cu csrc d f lo x) :
    GathSBelow cu csrc d ((sB x hx).view.write (Elt F) f w Finset.univ) lo (x + 1) := by
  intro e h1 h2 k
  by_cases he : e.val < 128 * x
  · rw [out_s_off d x hx f w (ix2 e k) (by
      simp only [rowsBlk, Finset.mem_filter, Finset.mem_univ, true_and, not_and, not_lt]
      intro h; exact absurd h (by show ¬ 128 * x ≤ e.val; omega))]
    exact hf e h1 he k
  · have hp : e.val - 128 * x < 128 := by omega
    have heq : e = (⟨128 * x + (⟨e.val - 128 * x, hp⟩ : Fin 128).val, by omega⟩ : Fin 320000) :=
      Fin.ext (by show e.val = 128 * x + (e.val - 128 * x); omega)
    rw [heq, out_s_at d x hx f w ⟨e.val - 128 * x, hp⟩ k]
    exact hw ⟨e.val - 128 * x, hp⟩ k

/-- At the task's last block the task's rows are all gathered. -/
theorem GathSBelow_owns (w : Fin 32) (f : Buf (Elt F) (sLoc d)) (h : GathSBelow cu csrc d f (blk0 w) (blk0 w + nBlk w)) :
    ∀ e, ownsRow w e → GathS cu csrc d f e :=
  fun e he => h e he.1 he.2

/-- Entry `p` of the offset list of slot 0 is the slot's word at `(0, p)`. -/
theorem jL0_read (g : Buf (Elt F) ((jS0).view.loc (V d c i))) (p : Fin 128) :
    (jL0).view.read (Elt F) g (ix1 p) = (jS0).view.read (Elt F) g (ix2 (0 : Fin 1) p) := by
  have hc : (Rect.unit (s := S1x128) ![0, 0] S1x128.size inb_S1x128_S1x128_0_0).shape.ShapeCasts S128 := by decide
  have h : (jL0).view.read (Elt F) g
      = shapeCast S128 ((jS0).view.readAt (Elt F) (Rect.unit (s := S1x128) ![0, 0] S1x128.size inb_S1x128_S1x128_0_0).toLoadRect g) hc := rfl
  rw [h]
  refine (shapeCast_1a_a_apply _ hc p).trans ?_
  rw [View.readAt_eq_ld, View.ld_unit_zero (funext fun a => by fin_cases a <;> rfl)]

/-- Entry `p` of the offset list of slot 1 is the slot's word at `(0, p)`. -/
theorem jL1_read (g : Buf (Elt F) ((jS1).view.loc (V d c i))) (p : Fin 128) :
    (jL1).view.read (Elt F) g (ix1 p) = (jS1).view.read (Elt F) g (ix2 (0 : Fin 1) p) := by
  have hc : (Rect.unit (s := S1x128) ![0, 0] S1x128.size inb_S1x128_S1x128_0_0).shape.ShapeCasts S128 := by decide
  have h : (jL1).view.read (Elt F) g
      = shapeCast S128 ((jS1).view.readAt (Elt F) (Rect.unit (s := S1x128) ![0, 0] S1x128.size inb_S1x128_S1x128_0_0).toLoadRect g) hc := rfl
  rw [h]
  refine (shapeCast_1a_a_apply _ hc p).trans ?_
  rw [View.readAt_eq_ld, View.ld_unit_zero (funext fun a => by fin_cases a <;> rfl)]

/-- Entry `(u, p)` of block `x` of the index row is the row's entry `128 x + p`. -/
theorem dstB_read (x : ℕ) (hx : x < 2500) (f : Buf (Elt F) (dstLoc d)) (u : Fin 1) (p : Fin 128) :
    (dstB x hx).view.read (Elt F) f (ix2 u p) = f (ix2 (0 : Fin 1) (⟨128 * x + p.val, by omega⟩ : Fin 320000)) := by
  show f ((Rect.unit (s := S1x320000) ![0, 128 * x] S1x128.size (inb_row x hx)).emb (ix2 u p)) = _
  refine congrArg f (funext fun a => Fin.ext ?_)
  match a with
  | ⟨0, _⟩ => show 0 + 1 * u.val = 0; omega
  | ⟨1, _⟩ => show 128 * x + 1 * p.val = 128 * x + p.val; omega

/-- Entry `(p, k)` of block `x` of the gathered array is the array's row `128 x + p`. -/
theorem tB_read (x : ℕ) (hx : x < 2500) (f : Buf (Elt F) (tLoc d)) (p k : Fin 128) :
    (tB x hx).view.read (Elt F) f (ix2 p k) = f (ix2 (⟨128 * x + p.val, by omega⟩ : Fin 320000) k) := by
  show f ((Rect.unit (s := S320000x128) ![128 * x, 0] S128x128.size (inb_blk x hx)).emb (ix2 p k)) = _
  refine congrArg f (funext fun a => Fin.ext ?_)
  match a with
  | ⟨0, _⟩ => show 128 * x + 1 * p.val = 128 * x + p.val; omega
  | ⟨1, _⟩ => show 0 + 1 * k.val = k.val; omega

/-- THE GATHER'S PAYLOAD through the offset list of slot 0, when the slot holds block `x` of the index row and every
    index names a table row: row `p` is the table's row named by entry `128 x + p` of the index row. -/
theorem gath_t0 (x : ℕ) (hx : x < 2500) (gi : Buf (Elt F) ((jS0).view.loc (V d c i)))
    (hr : (jS0).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL0).view.read (Elt F) gi y).toNat < S10000x128.size gathers_S10000x128_S128x128.axis) (p k : Fin 128) :
    SparseCore.gatherPayload gathers_S10000x128_S128x128 ((vW).view.read (Elt F) (cv d))
        (SparseCore.rows ((jL0).view.read (Elt F) gi) hn hin) (ix2 p k)
      = cv d (ix2 (rowOfWord (cdst d (ix2 (0 : Fin 1) (⟨128 * x + p.val, by omega⟩ : Fin 320000)))) k) := by
  rw [gatherPayload_apply]
  show cv d (ix2 (SparseCore.rows ((jL0).view.read (Elt F) gi) hn hin p) k) = _
  refine congrArg (cv d) ?_
  funext a
  match a with
  | ⟨0, _⟩ =>
    refine Fin.ext ?_
    show (SparseCore.rows ((jL0).view.read (Elt F) gi) hn hin p).val = (rowOfWord _).val
    rw [rows_val, jL0_read, hr, dstB_read, rowOfWord_val (hb _)]
  | ⟨1, _⟩ => rfl

/-- THE ROW SLOT 0 AFTER THE GATHER has landed: read back, it is that payload. -/
theorem slot_t0 (x : ℕ) (hx : x < 2500) (gi : Buf (Elt F) ((jS0).view.loc (V d c i)))
    (hr : (jS0).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL0).view.read (Elt F) gi y).toNat < S10000x128.size gathers_S10000x128_S128x128.axis)
    (g0 : Buf (Elt F) ((qS0).view.loc (V d c i))) (p k : Fin 128) :
    (qS0).view.read (Elt F) ((qS0).view.write (Elt F) g0
        (SparseCore.gatherPayload gathers_S10000x128_S128x128 ((vW).view.read (Elt F) (cv d))
          (SparseCore.rows ((jL0).view.read (Elt F) gi) hn hin)) Finset.univ) (ix2 p k)
      = cv d (ix2 (rowOfWord (cdst d (ix2 (0 : Fin 1) (⟨128 * x + p.val, by omega⟩ : Fin 320000)))) k) := by
  rw [View.read_write_univ]
  exact gath_t0 cv cdst d c i x hx gi hr hb hn hin p k

/-- THE GATHER'S PAYLOAD through the offset list of slot 1, when the slot holds block `x` of the index row and every
    index names a table row: row `p` is the table's row named by entry `128 x + p` of the index row. -/
theorem gath_t1 (x : ℕ) (hx : x < 2500) (gi : Buf (Elt F) ((jS1).view.loc (V d c i)))
    (hr : (jS1).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL1).view.read (Elt F) gi y).toNat < S10000x128.size gathers_S10000x128_S128x128.axis) (p k : Fin 128) :
    SparseCore.gatherPayload gathers_S10000x128_S128x128 ((vW).view.read (Elt F) (cv d))
        (SparseCore.rows ((jL1).view.read (Elt F) gi) hn hin) (ix2 p k)
      = cv d (ix2 (rowOfWord (cdst d (ix2 (0 : Fin 1) (⟨128 * x + p.val, by omega⟩ : Fin 320000)))) k) := by
  rw [gatherPayload_apply]
  show cv d (ix2 (SparseCore.rows ((jL1).view.read (Elt F) gi) hn hin p) k) = _
  refine congrArg (cv d) ?_
  funext a
  match a with
  | ⟨0, _⟩ =>
    refine Fin.ext ?_
    show (SparseCore.rows ((jL1).view.read (Elt F) gi) hn hin p).val = (rowOfWord _).val
    rw [rows_val, jL1_read, hr, dstB_read, rowOfWord_val (hb _)]
  | ⟨1, _⟩ => rfl

/-- THE ROW SLOT 1 AFTER THE GATHER has landed: read back, it is that payload. -/
theorem slot_t1 (x : ℕ) (hx : x < 2500) (gi : Buf (Elt F) ((jS1).view.loc (V d c i)))
    (hr : (jS1).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL1).view.read (Elt F) gi y).toNat < S10000x128.size gathers_S10000x128_S128x128.axis)
    (g0 : Buf (Elt F) ((qS1).view.loc (V d c i))) (p k : Fin 128) :
    (qS1).view.read (Elt F) ((qS1).view.write (Elt F) g0
        (SparseCore.gatherPayload gathers_S10000x128_S128x128 ((vW).view.read (Elt F) (cv d))
          (SparseCore.rows ((jL1).view.read (Elt F) gi) hn hin)) Finset.univ) (ix2 p k)
      = cv d (ix2 (rowOfWord (cdst d (ix2 (0 : Fin 1) (⟨128 * x + p.val, by omega⟩ : Fin 320000)))) k) := by
  rw [View.read_write_univ]
  exact gath_t1 cv cdst d c i x hx gi hr hb hn hin p k

/-- The gathered array written through block `x`, at a row of the block: the payload there; -/
theorem out_t_at (x : ℕ) (hx : x < 2500) (f : Buf (Elt F) (tLoc d)) (w : S128x128.Idx → Elt F .f32) (p k : Fin 128) :
    (tB x hx).view.write (Elt F) f w Finset.univ (ix2 (⟨128 * x + p.val, by omega⟩ : Fin 320000) k) = w (ix2 p k) := by
  have h2 : (tB x hx).view.read (Elt F) ((tB x hx).view.write (Elt F) f w Finset.univ) (ix2 p k) = w (ix2 p k) :=
    View.read_write_of_mem (v := (tB x hx).view) _ w (Finset.mem_univ _)
  exact ((tB_read d x hx ((tB x hx).view.write (Elt F) f w Finset.univ) p k).symm).trans h2
/-- off the block's rows: unchanged. -/
theorem out_t_off (x : ℕ) (hx : x < 2500) (f : Buf (Elt F) (tLoc d)) (w : S128x128.Idx → Elt F .f32) (ix : S320000x128.Idx)
    (h : ix ∉ rowsBlk x) : (tB x hx).view.write (Elt F) f w Finset.univ ix = f ix := by
  have h' : ix ∉ (tB x hx).view.setOn Finset.univ := by rw [View.setOn_univ, tB_set]; exact h
  exact View.write_of_not_mem f w _ h'

/-- The rows of the blocks from `lo` up to `hi` hold the table rows their index entries name. -/
def GathTBelow (f : Buf (Elt F) (tLoc d)) (lo hi : ℕ) : Prop :=
  ∀ e : Fin 320000, 128 * lo ≤ e.val → e.val < 128 * hi → GathT cv cdst d f e

theorem GathTBelow_nil (f : Buf (Elt F) (tLoc d)) (lo : ℕ) : GathTBelow cv cdst d f lo lo :=
  fun e h1 h2 => absurd h2 (by omega)

/-- ONE MORE BLOCK: writing block `x` with a payload whose rows are the named table rows extends the gathered rows by that block. -/
theorem GathTBelow_step (x : ℕ) (hx : x < 2500) (f : Buf (Elt F) (tLoc d)) (w : S128x128.Idx → Elt F .f32) (lo : ℕ)
    (hw : ∀ p k : Fin 128, w (ix2 p k) = cv d (ix2 (rowOfWord (cdst d (ix2 (0 : Fin 1) (⟨128 * x + p.val, by omega⟩ : Fin 320000)))) k))
    (hf : GathTBelow cv cdst d f lo x) :
    GathTBelow cv cdst d ((tB x hx).view.write (Elt F) f w Finset.univ) lo (x + 1) := by
  intro e h1 h2 k
  by_cases he : e.val < 128 * x
  · rw [out_t_off d x hx f w (ix2 e k) (by
      simp only [rowsBlk, Finset.mem_filter, Finset.mem_univ, true_and, not_and, not_lt]
      intro h; exact absurd h (by show ¬ 128 * x ≤ e.val; omega))]
    exact hf e h1 he k
  · have hp : e.val - 128 * x < 128 := by omega
    have heq : e = (⟨128 * x + (⟨e.val - 128 * x, hp⟩ : Fin 128).val, by omega⟩ : Fin 320000) :=
      Fin.ext (by show e.val = 128 * x + (e.val - 128 * x); omega)
    rw [heq, out_t_at d x hx f w ⟨e.val - 128 * x, hp⟩ k]
    exact hw ⟨e.val - 128 * x, hp⟩ k

/-- At the task's last block the task's rows are all gathered. -/
theorem GathTBelow_owns (w : Fin 32) (f : Buf (Elt F) (tLoc d)) (h : GathTBelow cv cdst d f (blk0 w) (blk0 w + nBlk w)) :
    ∀ e, ownsRow w e → GathT cv cdst d f e :=
  fun e he => h e he.1 he.2

end Val

/-! ## One more block, when the block comes back as its own piece -/

section Join
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d)) (d : Dev nD)

/-- The gathered rows grow by block `x` when an array agrees with the old rest off the block and, on the block, with a piece
    that holds the named table rows there. -/
theorem GathSBelow_join (x : ℕ) (hx : x < 2500) (f0 fb f' : Buf (Elt F) (sLoc d)) (lo : ℕ)
    (h0 : ∀ ix : S320000x128.Idx, ix ∉ rowsBlk x → f' ix = f0 ix) (hb : ∀ ix : S320000x128.Idx, ix ∈ rowsBlk x → f' ix = fb ix)
    (hblk : ∀ p k : Fin 128, fb (ix2 (⟨128 * x + p.val, by omega⟩ : Fin 320000) k)
      = cu d (ix2 (rowOfWord (csrc d (ix2 (0 : Fin 1) (⟨128 * x + p.val, by omega⟩ : Fin 320000)))) k))
    (hf : GathSBelow cu csrc d f0 lo x) : GathSBelow cu csrc d f' lo (x + 1) := by
  intro e h1 h2 k
  by_cases he : e.val < 128 * x
  · rw [h0 (ix2 e k) (by
      simp only [rowsBlk, Finset.mem_filter, Finset.mem_univ, true_and, not_and, not_lt]
      intro h; exact absurd h (by show ¬ 128 * x ≤ e.val; omega))]
    exact hf e h1 he k
  · have hp : e.val - 128 * x < 128 := by omega
    have heq : e = (⟨128 * x + (⟨e.val - 128 * x, hp⟩ : Fin 128).val, by omega⟩ : Fin 320000) :=
      Fin.ext (by show e.val = 128 * x + (e.val - 128 * x); omega)
    rw [hb (ix2 e k) (by
      simp only [rowsBlk, Finset.mem_filter, Finset.mem_univ, true_and]
      show 128 * x ≤ e.val ∧ e.val < 128 * (x + 1); omega)]
    rw [heq]
    exact hblk ⟨e.val - 128 * x, hp⟩ k

theorem GathTBelow_join (x : ℕ) (hx : x < 2500) (f0 fb f' : Buf (Elt F) (tLoc d)) (lo : ℕ)
    (h0 : ∀ ix : S320000x128.Idx, ix ∉ rowsBlk x → f' ix = f0 ix) (hb : ∀ ix : S320000x128.Idx, ix ∈ rowsBlk x → f' ix = fb ix)
    (hblk : ∀ p k : Fin 128, fb (ix2 (⟨128 * x + p.val, by omega⟩ : Fin 320000) k)
      = cv d (ix2 (rowOfWord (cdst d (ix2 (0 : Fin 1) (⟨128 * x + p.val, by omega⟩ : Fin 320000)))) k))
    (hf : GathTBelow cv cdst d f0 lo x) : GathTBelow cv cdst d f' lo (x + 1) := by
  intro e h1 h2 k
  by_cases he : e.val < 128 * x
  · rw [h0 (ix2 e k) (by
      simp only [rowsBlk, Finset.mem_filter, Finset.mem_univ, true_and, not_and, not_lt]
      intro h; exact absurd h (by show ¬ 128 * x ≤ e.val; omega))]
    exact hf e h1 he k
  · have hp : e.val - 128 * x < 128 := by omega
    have heq : e = (⟨128 * x + (⟨e.val - 128 * x, hp⟩ : Fin 128).val, by omega⟩ : Fin 320000) :=
      Fin.ext (by show e.val = 128 * x + (e.val - 128 * x); omega)
    rw [hb (ix2 e k) (by
      simp only [rowsBlk, Finset.mem_filter, Finset.mem_univ, true_and]
      show 128 * x ≤ e.val ∧ e.val < 128 * (x + 1); omega)]
    rw [heq]
    exact hblk ⟨e.val - 128 * x, hp⟩ k

end Join

/-! ## A block's piece joined with the rest, in the logic -/

section JoinSL
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub)

set_option backward.isDefEq.respectTransparency.types false in
/-- BLOCK `x` COMES BACK: its piece, holding the named table rows, joins the rest of the task's rows, which then hold
    them on one more block. -/
theorem rest_join_s (w : Fin 32) (x : ℕ) (hx : x < 2500) (hsub : rowsBlk x ⊆ rowsOf w) (lo : ℕ) :
    (iprop((∃ f, ⌜GathSBelow cu csrc d f lo x⌝ ∗ (sW).view.loc (V d c i) ↦[rowsOf w \ rowsBlk x]{fullShare} f)
        ∗ (∃ fb, ⌜∀ p k : Fin 128, fb (ix2 (⟨128 * x + p.val, by omega⟩ : Fin 320000) k)
              = cu d (ix2 (rowOfWord (csrc d (ix2 (0 : Fin 1) (⟨128 * x + p.val, by omega⟩ : Fin 320000)))) k)⌝
            ∗ (sB x hx).view.loc (V d c i) ↦[(sB x hx).view.set]{fullShare} fb)) : sProp 𝕄)
      ⊢ iprop(∃ f, ⌜GathSBelow cu csrc d f lo (x + 1)⌝ ∗ (sW).view.loc (V d c i) ↦[rowsOf w]{fullShare} f) := by
  rw [sB_set]
  iintro ⟨⟨%f0, %hf, H0⟩, ⟨%fb, %hblk, Hb⟩⟩
  iexists (rowsBlk x).piecewise fb f0
  isplitr
  · ipureintro
    exact GathSBelow_join cu csrc d x hx f0 fb _ lo
      (fun ix h => Finset.piecewise_eq_of_notMem _ _ _ h) (fun ix h => Finset.piecewise_eq_of_mem _ _ _ h) hblk hf
  · iapply (pointsTo_join_subset hsub)
    isplitl [Hb]; · iexact Hb
    iexact H0

set_option backward.isDefEq.respectTransparency.types false in
/-- BLOCK `x` COMES BACK: its piece, holding the named table rows, joins the rest of the task's rows, which then hold
    them on one more block. -/
theorem rest_join_t (w : Fin 32) (x : ℕ) (hx : x < 2500) (hsub : rowsBlk x ⊆ rowsOf w) (lo : ℕ) :
    (iprop((∃ f, ⌜GathTBelow cv cdst d f lo x⌝ ∗ (tW).view.loc (V d c i) ↦[rowsOf w \ rowsBlk x]{fullShare} f)
        ∗ (∃ fb, ⌜∀ p k : Fin 128, fb (ix2 (⟨128 * x + p.val, by omega⟩ : Fin 320000) k)
              = cv d (ix2 (rowOfWord (cdst d (ix2 (0 : Fin 1) (⟨128 * x + p.val, by omega⟩ : Fin 320000)))) k)⌝
            ∗ (tB x hx).view.loc (V d c i) ↦[(tB x hx).view.set]{fullShare} fb)) : sProp 𝕄)
      ⊢ iprop(∃ f, ⌜GathTBelow cv cdst d f lo (x + 1)⌝ ∗ (tW).view.loc (V d c i) ↦[rowsOf w]{fullShare} f) := by
  rw [tB_set]
  iintro ⟨⟨%f0, %hf, H0⟩, ⟨%fb, %hblk, Hb⟩⟩
  iexists (rowsBlk x).piecewise fb f0
  isplitr
  · ipureintro
    exact GathTBelow_join cv cdst d x hx f0 fb _ lo
      (fun ix h => Finset.piecewise_eq_of_notMem _ _ _ h) (fun ix h => Finset.piecewise_eq_of_mem _ _ _ h) hblk hf
  · iapply (pointsTo_join_subset hsub)
    isplitl [Hb]; · iexact Hb
    iexact H0

end JoinSL

/-! ## The loop invariant with values -/

section InvV
variable [FloatOps F]
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

/-- Write-outs of row slot 0 to block `x` in flight, WITH VALUES: the rest of each gathered array holds the named table rows
    on the task's blocks below `x`, and what each flight delivers holds them on block `x`; row slot 1 at rest. -/
def outAt0V (x : ℕ) (hx : x < 2500) : sProp 𝕄 :=
  iprop((∃ f, ⌜GathSBelow cu csrc d f (blk0 w) x⌝ ∗ (sW).view.loc (V d c i) ↦[rowsOf w \ rowsBlk x]{fullShare} f)
    ∗ (∃ f g, ⌜∀ p k : Fin 128, f (ix2 (⟨128 * x + p.val, by omega⟩ : Fin 320000) k) = cu d (ix2 (rowOfWord (csrc d (ix2 (0 : Fin 1) (⟨128 * x + p.val, by omega⟩ : Fin 320000)))) k)⌝
        ∗ Transfers.Flight countersEmb (V d c i) (SemLoc.dma (⟨12, by decide⟩ : DmaSem sig)) (default : HIx 1) 524288
            iprop(((sB x hx).view.loc (V d c i) ↦[(sB x hx).view.set]{fullShare} f) ∗ (rS0).view.loc (V d c i) ↦[(rS0).view.set]{fullShare} g))
    ∗ (∃ g, (rS1).view.loc (V d c i) ↦[(rS1).view.set]{fullShare} g) ∗ semVal (dcell (V d c i) 13 (by decide)) 0
    ∗ (∃ f, ⌜GathTBelow cv cdst d f (blk0 w) x⌝ ∗ (tW).view.loc (V d c i) ↦[rowsOf w \ rowsBlk x]{fullShare} f)
    ∗ (∃ f g, ⌜∀ p k : Fin 128, f (ix2 (⟨128 * x + p.val, by omega⟩ : Fin 320000) k) = cv d (ix2 (rowOfWord (cdst d (ix2 (0 : Fin 1) (⟨128 * x + p.val, by omega⟩ : Fin 320000)))) k)⌝
        ∗ Transfers.Flight countersEmb (V d c i) (SemLoc.dma (⟨14, by decide⟩ : DmaSem sig)) (default : HIx 1) 524288
            iprop(((tB x hx).view.loc (V d c i) ↦[(tB x hx).view.set]{fullShare} f) ∗ (qS0).view.loc (V d c i) ↦[(qS0).view.set]{fullShare} g))
    ∗ (∃ g, (qS1).view.loc (V d c i) ↦[(qS1).view.set]{fullShare} g) ∗ semVal (dcell (V d c i) 15 (by decide)) 0)

/-- Write-outs of row slot 1 to block `x` in flight, WITH VALUES: the rest of each gathered array holds the named table rows
    on the task's blocks below `x`, and what each flight delivers holds them on block `x`; row slot 0 at rest. -/
def outAt1V (x : ℕ) (hx : x < 2500) : sProp 𝕄 :=
  iprop((∃ f, ⌜GathSBelow cu csrc d f (blk0 w) x⌝ ∗ (sW).view.loc (V d c i) ↦[rowsOf w \ rowsBlk x]{fullShare} f)
    ∗ (∃ f g, ⌜∀ p k : Fin 128, f (ix2 (⟨128 * x + p.val, by omega⟩ : Fin 320000) k) = cu d (ix2 (rowOfWord (csrc d (ix2 (0 : Fin 1) (⟨128 * x + p.val, by omega⟩ : Fin 320000)))) k)⌝
        ∗ Transfers.Flight countersEmb (V d c i) (SemLoc.dma (⟨13, by decide⟩ : DmaSem sig)) (default : HIx 1) 524288
            iprop(((sB x hx).view.loc (V d c i) ↦[(sB x hx).view.set]{fullShare} f) ∗ (rS1).view.loc (V d c i) ↦[(rS1).view.set]{fullShare} g))
    ∗ (∃ g, (rS0).view.loc (V d c i) ↦[(rS0).view.set]{fullShare} g) ∗ semVal (dcell (V d c i) 12 (by decide)) 0
    ∗ (∃ f, ⌜GathTBelow cv cdst d f (blk0 w) x⌝ ∗ (tW).view.loc (V d c i) ↦[rowsOf w \ rowsBlk x]{fullShare} f)
    ∗ (∃ f g, ⌜∀ p k : Fin 128, f (ix2 (⟨128 * x + p.val, by omega⟩ : Fin 320000) k) = cv d (ix2 (rowOfWord (cdst d (ix2 (0 : Fin 1) (⟨128 * x + p.val, by omega⟩ : Fin 320000)))) k)⌝
        ∗ Transfers.Flight countersEmb (V d c i) (SemLoc.dma (⟨15, by decide⟩ : DmaSem sig)) (default : HIx 1) 524288
            iprop(((tB x hx).view.loc (V d c i) ↦[(tB x hx).view.set]{fullShare} f) ∗ (qS1).view.loc (V d c i) ↦[(qS1).view.set]{fullShare} g))
    ∗ (∃ g, (qS0).view.loc (V d c i) ↦[(qS0).view.set]{fullShare} g) ∗ semVal (dcell (V d c i) 14 (by decide)) 0)

/-- No write-out in flight, WITH VALUES: the task's rows of each gathered array hold the named table rows on its blocks below `hi`. -/
def outRestV (hi : ℕ) : sProp 𝕄 :=
  iprop((∃ f, ⌜GathSBelow cu csrc d f (blk0 w) hi⌝ ∗ (sW).view.loc (V d c i) ↦[rowsOf w]{fullShare} f)
    ∗ (∃ f, ⌜GathTBelow cv cdst d f (blk0 w) hi⌝ ∗ (tW).view.loc (V d c i) ↦[rowsOf w]{fullShare} f)
    ∗ (∃ g, (rS0).view.loc (V d c i) ↦[(rS0).view.set]{fullShare} g) ∗ (∃ g, (rS1).view.loc (V d c i) ↦[(rS1).view.set]{fullShare} g)
    ∗ (∃ g, (qS0).view.loc (V d c i) ↦[(qS0).view.set]{fullShare} g) ∗ (∃ g, (qS1).view.loc (V d c i) ↦[(qS1).view.set]{fullShare} g)
    ∗ semVal (dcell (V d c i) 12 (by decide)) 0 ∗ semVal (dcell (V d c i) 13 (by decide)) 0
    ∗ semVal (dcell (V d c i) 14 (by decide)) 0 ∗ semVal (dcell (V d c i) 15 (by decide)) 0)

variable (L : grid1.Coords) (O : CellTallies nD τ sig (HIx 1)) (W : Waits sig (HIx 1))

def outPartV (k : ℕ) : sProp 𝕄 :=
  if h : 0 < k ∧ k ≤ nT L then
    (if k % 2 = 0 then outAt1V cu cv csrc cdst d c i (taskOf L) (bT L + (k - 1)) (blk_lt L _ (by omega))
      else outAt0V cu cv csrc cdst d c i (taskOf L) (bT L + (k - 1)) (blk_lt L _ (by omega)))
  else outRestV cu cv csrc cdst d c i (taskOf L) (blk0 (taskOf L))

/-- Before trip `k`, WITH VALUES: as the frame's invariant, the write-outs' part carrying what the gathered arrays hold. -/
def invV (k : ℕ) (acc : BitVec 32 × BitVec 32 × BitVec 32 × BitVec 32 × BitVec 32 × BitVec 32 × BitVec 32 × BitVec 32 × BitVec 32) : sProp 𝕄 :=
  iprop(⌜acc = wordsAt (nT L) k⌝ ∗ Transfers.MayWaits (V d c i) (none : HIx 1) O
    ∗ ((uW).view.loc (V d c i) ↦{tok (taskOf L)} cu d) ∗ ((vW).view.loc (V d c i) ↦{tok (taskOf L)} cv d)
    ∗ semVal (dcell (V d c i) 6 (by decide)) 0 ∗ semVal (dcell (V d c i) 7 (by decide)) 0
    ∗ fetchPart csrc cdst d c i L k ∗ outPartV cu cv csrc cdst d c i L k
    ∗ ∃ W', ⌜∀ p ∈ W', p ∈ W ∨ p.2 = none⌝ ∗ owes (V d c i) O W')

omit [FloatOps F] in
theorem outPartV_zero (k : ℕ) (h : k = 0) :
    outPartV cu cv csrc cdst d c i L k = outRestV cu cv csrc cdst d c i (taskOf L) (blk0 (taskOf L)) := by unfold outPartV; rw [dif_neg (by omega)]
omit [FloatOps F] in
theorem outPartV_even (k : ℕ) (h : 0 < k ∧ k ≤ nT L) (hp : k % 2 = 0) :
    outPartV cu cv csrc cdst d c i L k = outAt1V cu cv csrc cdst d c i (taskOf L) (bT L + (k - 1)) (blk_lt L _ (by omega)) := by
  unfold outPartV; rw [dif_pos h, if_pos hp]
omit [FloatOps F] in
theorem outPartV_odd (k : ℕ) (h : 0 < k ∧ k ≤ nT L) (hp : k % 2 = 1) :
    outPartV cu cv csrc cdst d c i L k = outAt0V cu cv csrc cdst d c i (taskOf L) (bT L + (k - 1)) (blk_lt L _ (by omega)) := by
  unfold outPartV; rw [dif_pos h, if_neg (by omega)]

end InvV

end Cert.Proof.KI

end
-- ==== Proof.ScTileFinV.lean ====
/-
  The end of a task with values, as a pure entailment: as Proof/ScTileFin.lean's, the task's rows of the two gathered
  arrays now holding the named table rows on all of its blocks, which is what the task hands back.
-/
import proofs.«210884_g88510686036700_cont_sun_m_1211_45_alg».proof.Proof.ScTileFin
import proofs.«210884_g88510686036700_cont_sun_m_1211_45_alg».proof.Proof.ScTileVal

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)
local notation "b0W" => (Memref.whole Cert.KernelIdeal.cc1_scoped0 : Memref Cert.KernelIdeal.sig Kind.scVector Space.vmem Cert.KernelIdeal.S2x1x128 EltTy.i32)
local notation "b2W" => (Memref.whole Cert.KernelIdeal.cc1_scoped2 : Memref Cert.KernelIdeal.sig Kind.scVector Space.vmem Cert.KernelIdeal.S2x1x128 EltTy.i32)
local notation "b4W" => (Memref.whole Cert.KernelIdeal.cc1_scoped4 : Memref Cert.KernelIdeal.sig Kind.scVector Space.vmem Cert.KernelIdeal.S2x128x128 EltTy.f32)
local notation "b6W" => (Memref.whole Cert.KernelIdeal.cc1_scoped6 : Memref Cert.KernelIdeal.sig Kind.scVector Space.vmem Cert.KernelIdeal.S2x128x128 EltTy.f32)

section FinV

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

/-- The reassembly with the gathered rows' values: what holds on every block below the task's last is what holds on
    every row the task owns. -/
theorem reassembleV (hF : (K (F := F)).Facts) :
    iprop(((uW).view.loc (V d c i) ↦{tok w} cu d) ∗ ((vW).view.loc (V d c i) ↦{tok w} cv d)
        ∗ semVal (dcell (V d c i) 6 (by decide)) 0 ∗ semVal (dcell (V d c i) 7 (by decide)) 0
        ∗ fetchRest csrc cdst d c i w ∗ outRestV cu cv csrc cdst d c i w (blk0 w + nBlk w)
        ∗ bigSep (((((ownRefs (τ := τ) (.scVector c i)).erase ((Proc.scVector c i).devRef cc1_scoped0)).erase ((Proc.scVector c i).devRef cc1_scoped2)).erase ((Proc.scVector c i).devRef cc1_scoped4)).erase ((Proc.scVector c i).devRef cc1_scoped6))
          (fun b => iprop(∃ f, ((d, b) : Loc nD τ sig) ↦{fullShare} f) : DevRef τ sig → sProp 𝕄)
        ∗ bigSep (((((((((((ownCells (V d c i)).erase (dcell (V d c i) 6 (by decide))).erase (dcell (V d c i) 7 (by decide))).erase (dcell (V d c i) 8 (by decide))).erase (dcell (V d c i) 9 (by decide))).erase (dcell (V d c i) 10 (by decide))).erase (dcell (V d c i) 11 (by decide))).erase (dcell (V d c i) 12 (by decide))).erase (dcell (V d c i) 13 (by decide))).erase (dcell (V d c i) 14 (by decide))).erase (dcell (V d c i) 15 (by decide)))
          (fun g => semVal g 0 : GSem nD τ sig → sProp 𝕄))
      ⊢ (iprop(taskResOut cu cv csrc cdst d w ∗ scopedBufs (V d c i) ∗ scopedSems0 (V d c i)) : sProp 𝕄) := by
  unfold fetchRest outRestV taskResOut readRes writeResOut
  rw [(K (F := F)).scopedBufs_V hF d c i, SparseCore.Cfg.scopedSems0_V (Val := Elt F) d c i, ownSems0_split, ownBufs_split]
  iintro ⟨Hu, Hv, Hm6, Hm7, ⟨Hsrc, Hdst, Hi0, Hi1, Hj0, Hj1, Hm8, Hm9, Hm10, Hm11⟩, ⟨⟨%fs, %hfs, Hs⟩, ⟨%ft, %hft, Ht⟩, Hr0, Hr1, Hq0, Hq1, Hm12, Hm13, Hm14, Hm15⟩, Hbufs, Hsems⟩
  ihave Hb0 := (i_join (F := F) d c i) $$ [Hi0 Hi1]
  · isplitl [Hi0]
    · iexact Hi0
    · iexact Hi1
  ihave Hb2 := (j_join (F := F) d c i) $$ [Hj0 Hj1]
  · isplitl [Hj0]
    · iexact Hj0
    · iexact Hj1
  ihave Hb4 := (r_join (F := F) d c i) $$ [Hr0 Hr1]
  · isplitl [Hr0]
    · iexact Hr0
    · iexact Hr1
  ihave Hb6 := (q_join (F := F) d c i) $$ [Hq0 Hq1]
  · isplitl [Hq0]
    · iexact Hq0
    · iexact Hq1
  ihave Hu := (Entails.of_eq (show (((uW).view.loc (V d c i) ↦{tok w} cu d : sProp 𝕄)) = (uLoc d ↦{tok w} cu d) from rfl)) $$ Hu
  ihave Hv := (Entails.of_eq (show (((vW).view.loc (V d c i) ↦{tok w} cv d : sProp 𝕄)) = (vLoc d ↦{tok w} cv d) from rfl)) $$ Hv
  ihave Hsrc := (Entails.of_eq (show (((srcW).view.loc (V d c i) ↦{tok w} csrc d : sProp 𝕄)) = (srcLoc d ↦{tok w} csrc d) from rfl)) $$ Hsrc
  ihave Hdst := (Entails.of_eq (show (((dstW).view.loc (V d c i) ↦{tok w} cdst d : sProp 𝕄)) = (dstLoc d ↦{tok w} cdst d) from rfl)) $$ Hdst
  ihave Hs := (Entails.of_eq (show (((sW).view.loc (V d c i) ↦[rowsOf w]{fullShare} fs : sProp 𝕄)) = (sLoc d ↦[rowsOf w]{fullShare} fs) from rfl)) $$ Hs
  ihave Ht := (Entails.of_eq (show (((tW).view.loc (V d c i) ↦[rowsOf w]{fullShare} ft : sProp 𝕄)) = (tLoc d ↦[rowsOf w]{fullShare} ft) from rfl)) $$ Ht
  isplitl [Hu Hv Hsrc Hdst Hs Ht]
  · isplitl [Hu Hv Hsrc Hdst]
    · isplitl [Hu]; · iexact Hu
      isplitl [Hv]; · iexact Hv
      isplitl [Hsrc]; · iexact Hsrc
      iexact Hdst
    · isplitl [Hs]
      · iexists fs
        isplitl []
        · ipureintro; exact GathSBelow_owns cu csrc d w fs hfs
        · iexact Hs
      · iexists ft
        isplitl []
        · ipureintro; exact GathTBelow_owns cv cdst d w ft hft
        · iexact Ht
  · isplitl [Hb0 Hb2 Hb4 Hb6 Hbufs]
    · isplitl [Hb0]; · iexact Hb0
      isplitl [Hb2]; · iexact Hb2
      isplitl [Hb4]; · iexact Hb4
      isplitl [Hb6]; · iexact Hb6
      iexact Hbufs
    · isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      iexact Hsems

end FinV

end Cert.Proof.KI

end
-- ==== Proof.ScTileVal2.lean ====
import proofs.«210884_g88510686036700_cont_sun_m_1211_45_alg».proof.Proof.ScTileVal
import Idealize.ShloMosaic.Lib.Exec.Geometry
import Idealize.ShloMosaic.Lib.ValueLayout
import Idealize.ShloMosaic.Lib.Pipeline.Value

set_option maxRecDepth 16384

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)

/-! ## What a write-out's flight delivers, in the form the symbolic run leaves it -/

section Flight
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub)

/-- The table read through its whole-array slice is the table. -/
theorem uW_slice_read (fu : Buf (Elt F) (uLoc d)) :
    View.read (Elt F) ((uW).slice (Rect.unit ![0, 0] S10000x128.size inb_S10000x128_S10000x128_0_0) (fun _ => rfl)).view fu
      = (uW).view.read (Elt F) fu := by
  funext y
  show fu ((Rect.unit (s := S10000x128) ![0, 0] S10000x128.size inb_S10000x128_S10000x128_0_0).emb y) = fu y
  refine congrArg fu (funext fun a => Fin.ext ?_)
  match a with
  | ⟨0, _⟩ => show 0 + 1 * (y 0).val = (y 0).val; omega
  | ⟨1, _⟩ => show 0 + 1 * (y 1).val = (y 1).val; omega

/-- A block of the gathered array listed as one whole-block piece, at a row of the block: the piece's payload there. -/
theorem flight_gen_s (x : ℕ) (hx : x < 2500) (fs : Buf (Elt F) (sLoc d)) (W : S128x128.Idx → Elt F .f32) (p k : Fin 128) :
    ((sB x hx).view.writes (Elt F) fs [⟨Rect.whole S128x128, W⟩]) (ix2 (⟨128 * x + p.val, by omega⟩ : Fin 320000) k) = W (ix2 p k) := by
  have h1 : (sB x hx).view.writes (Elt F) fs [⟨Rect.whole S128x128, W⟩] = (sB x hx).view.write (Elt F) fs W Finset.univ :=
    (View.write_univ_eq_writes_whole (sB x hx).view fs [] W).symm
  rw [h1]
  exact out_s_at d x hx fs W p k

/-- The row slot 0 listed with the gather's payload, as the write-out reads it, at `(p, k)`: the named table row. -/
theorem slotW_s0 (x : ℕ) (hx : x < 2500) (gi : Buf (Elt F) ((iS0).view.loc (V d c i)))
    (hr : (iS0).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL0).view.read (Elt F) gi y).toNat < S10000x128.size gathers_S10000x128_S128x128.axis)
    (gr0 : Buf (Elt F) ((rS0).view.loc (V d c i))) (p k : Fin 128) :
    ReadAs.same.apply ((rS0).view.read (Elt F) ((rS0).view.writes (Elt F) gr0 [⟨Rect.whole S128x128,
          SparseCore.gatherPayload gathers_S10000x128_S128x128
            (View.read (Elt F) ((uW).slice (Rect.unit ![0, 0] S10000x128.size inb_S10000x128_S10000x128_0_0) (fun _ => rfl)).view (cu d))
            (SparseCore.rows ((iL0).view.read (Elt F) gi) hn hin)⟩])) (ix2 p k)
      = cu d (ix2 (rowOfWord (csrc d (ix2 (0 : Fin 1) (⟨128 * x + p.val, by omega⟩ : Fin 320000)))) k) := by
  show (rS0).view.read (Elt F) ((rS0).view.writes (Elt F) gr0 [⟨Rect.whole S128x128, _⟩]) (ix2 p k) = _
  rw [View.read_writes_whole, uW_slice_read]
  exact gath_s0 cu csrc d c i x hx gi hr hb hn hin p k

/-- WHAT THE WRITE-OUT OF ROW SLOT 0 DELIVERS into block `x`, at a row of the block: the named table row. -/
theorem flight_s0 (x : ℕ) (hx : x < 2500) (gi : Buf (Elt F) ((iS0).view.loc (V d c i)))
    (hr : (iS0).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL0).view.read (Elt F) gi y).toNat < S10000x128.size gathers_S10000x128_S128x128.axis)
    (gr0 : Buf (Elt F) ((rS0).view.loc (V d c i))) (fs : Buf (Elt F) (sLoc d)) (p k : Fin 128) :
    ((sB x hx).view.writes (Elt F) fs [⟨Rect.whole S128x128,
        ReadAs.same.apply ((rS0).view.read (Elt F) ((rS0).view.writes (Elt F) gr0 [⟨Rect.whole S128x128,
          SparseCore.gatherPayload gathers_S10000x128_S128x128
            (View.read (Elt F) ((uW).slice (Rect.unit ![0, 0] S10000x128.size inb_S10000x128_S10000x128_0_0) (fun _ => rfl)).view (cu d))
            (SparseCore.rows ((iL0).view.read (Elt F) gi) hn hin)⟩]))⟩]) (ix2 (⟨128 * x + p.val, by omega⟩ : Fin 320000) k)
      = cu d (ix2 (rowOfWord (csrc d (ix2 (0 : Fin 1) (⟨128 * x + p.val, by omega⟩ : Fin 320000)))) k) :=
  (flight_gen_s d x hx fs _ p k).trans (slotW_s0 cu csrc d c i x hx gi hr hb hn hin gr0 p k)

/-- The row slot 1 listed with the gather's payload, as the write-out reads it, at `(p, k)`: the named table row. -/
theorem slotW_s1 (x : ℕ) (hx : x < 2500) (gi : Buf (Elt F) ((iS1).view.loc (V d c i)))
    (hr : (iS1).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL1).view.read (Elt F) gi y).toNat < S10000x128.size gathers_S10000x128_S128x128.axis)
    (gr0 : Buf (Elt F) ((rS1).view.loc (V d c i))) (p k : Fin 128) :
    ReadAs.same.apply ((rS1).view.read (Elt F) ((rS1).view.writes (Elt F) gr0 [⟨Rect.whole S128x128,
          SparseCore.gatherPayload gathers_S10000x128_S128x128
            (View.read (Elt F) ((uW).slice (Rect.unit ![0, 0] S10000x128.size inb_S10000x128_S10000x128_0_0) (fun _ => rfl)).view (cu d))
            (SparseCore.rows ((iL1).view.read (Elt F) gi) hn hin)⟩])) (ix2 p k)
      = cu d (ix2 (rowOfWord (csrc d (ix2 (0 : Fin 1) (⟨128 * x + p.val, by omega⟩ : Fin 320000)))) k) := by
  show (rS1).view.read (Elt F) ((rS1).view.writes (Elt F) gr0 [⟨Rect.whole S128x128, _⟩]) (ix2 p k) = _
  rw [View.read_writes_whole, uW_slice_read]
  exact gath_s1 cu csrc d c i x hx gi hr hb hn hin p k

/-- WHAT THE WRITE-OUT OF ROW SLOT 1 DELIVERS into block `x`, at a row of the block: the named table row. -/
theorem flight_s1 (x : ℕ) (hx : x < 2500) (gi : Buf (Elt F) ((iS1).view.loc (V d c i)))
    (hr : (iS1).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL1).view.read (Elt F) gi y).toNat < S10000x128.size gathers_S10000x128_S128x128.axis)
    (gr0 : Buf (Elt F) ((rS1).view.loc (V d c i))) (fs : Buf (Elt F) (sLoc d)) (p k : Fin 128) :
    ((sB x hx).view.writes (Elt F) fs [⟨Rect.whole S128x128,
        ReadAs.same.apply ((rS1).view.read (Elt F) ((rS1).view.writes (Elt F) gr0 [⟨Rect.whole S128x128,
          SparseCore.gatherPayload gathers_S10000x128_S128x128
            (View.read (Elt F) ((uW).slice (Rect.unit ![0, 0] S10000x128.size inb_S10000x128_S10000x128_0_0) (fun _ => rfl)).view (cu d))
            (SparseCore.rows ((iL1).view.read (Elt F) gi) hn hin)⟩]))⟩]) (ix2 (⟨128 * x + p.val, by omega⟩ : Fin 320000) k)
      = cu d (ix2 (rowOfWord (csrc d (ix2 (0 : Fin 1) (⟨128 * x + p.val, by omega⟩ : Fin 320000)))) k) :=
  (flight_gen_s d x hx fs _ p k).trans (slotW_s1 cu csrc d c i x hx gi hr hb hn hin gr0 p k)

/-- The table read through its whole-array slice is the table. -/
theorem vW_slice_read (fu : Buf (Elt F) (vLoc d)) :
    View.read (Elt F) ((vW).slice (Rect.unit ![0, 0] S10000x128.size inb_S10000x128_S10000x128_0_0) (fun _ => rfl)).view fu
      = (vW).view.read (Elt F) fu := by
  funext y
  show fu ((Rect.unit (s := S10000x128) ![0, 0] S10000x128.size inb_S10000x128_S10000x128_0_0).emb y) = fu y
  refine congrArg fu (funext fun a => Fin.ext ?_)
  match a with
  | ⟨0, _⟩ => show 0 + 1 * (y 0).val = (y 0).val; omega
  | ⟨1, _⟩ => show 0 + 1 * (y 1).val = (y 1).val; omega

/-- A block of the gathered array listed as one whole-block piece, at a row of the block: the piece's payload there. -/
theorem flight_gen_t (x : ℕ) (hx : x < 2500) (fs : Buf (Elt F) (tLoc d)) (W : S128x128.Idx → Elt F .f32) (p k : Fin 128) :
    ((tB x hx).view.writes (Elt F) fs [⟨Rect.whole S128x128, W⟩]) (ix2 (⟨128 * x + p.val, by omega⟩ : Fin 320000) k) = W (ix2 p k) := by
  have h1 : (tB x hx).view.writes (Elt F) fs [⟨Rect.whole S128x128, W⟩] = (tB x hx).view.write (Elt F) fs W Finset.univ :=
    (View.write_univ_eq_writes_whole (tB x hx).view fs [] W).symm
  rw [h1]
  exact out_t_at d x hx fs W p k

/-- The row slot 0 listed with the gather's payload, as the write-out reads it, at `(p, k)`: the named table row. -/
theorem slotW_t0 (x : ℕ) (hx : x < 2500) (gi : Buf (Elt F) ((jS0).view.loc (V d c i)))
    (hr : (jS0).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL0).view.read (Elt F) gi y).toNat < S10000x128.size gathers_S10000x128_S128x128.axis)
    (gr0 : Buf (Elt F) ((qS0).view.loc (V d c i))) (p k : Fin 128) :
    ReadAs.same.apply ((qS0).view.read (Elt F) ((qS0).view.writes (Elt F) gr0 [⟨Rect.whole S128x128,
          SparseCore.gatherPayload gathers_S10000x128_S128x128
            (View.read (Elt F) ((vW).slice (Rect.unit ![0, 0] S10000x128.size inb_S10000x128_S10000x128_0_0) (fun _ => rfl)).view (cv d))
            (SparseCore.rows ((jL0).view.read (Elt F) gi) hn hin)⟩])) (ix2 p k)
      = cv d (ix2 (rowOfWord (cdst d (ix2 (0 : Fin 1) (⟨128 * x + p.val, by omega⟩ : Fin 320000)))) k) := by
  show (qS0).view.read (Elt F) ((qS0).view.writes (Elt F) gr0 [⟨Rect.whole S128x128, _⟩]) (ix2 p k) = _
  rw [View.read_writes_whole, vW_slice_read]
  exact gath_t0 cv cdst d c i x hx gi hr hb hn hin p k

/-- WHAT THE WRITE-OUT OF ROW SLOT 0 DELIVERS into block `x`, at a row of the block: the named table row. -/
theorem flight_t0 (x : ℕ) (hx : x < 2500) (gi : Buf (Elt F) ((jS0).view.loc (V d c i)))
    (hr : (jS0).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL0).view.read (Elt F) gi y).toNat < S10000x128.size gathers_S10000x128_S128x128.axis)
    (gr0 : Buf (Elt F) ((qS0).view.loc (V d c i))) (fs : Buf (Elt F) (tLoc d)) (p k : Fin 128) :
    ((tB x hx).view.writes (Elt F) fs [⟨Rect.whole S128x128,
        ReadAs.same.apply ((qS0).view.read (Elt F) ((qS0).view.writes (Elt F) gr0 [⟨Rect.whole S128x128,
          SparseCore.gatherPayload gathers_S10000x128_S128x128
            (View.read (Elt F) ((vW).slice (Rect.unit ![0, 0] S10000x128.size inb_S10000x128_S10000x128_0_0) (fun _ => rfl)).view (cv d))
            (SparseCore.rows ((jL0).view.read (Elt F) gi) hn hin)⟩]))⟩]) (ix2 (⟨128 * x + p.val, by omega⟩ : Fin 320000) k)
      = cv d (ix2 (rowOfWord (cdst d (ix2 (0 : Fin 1) (⟨128 * x + p.val, by omega⟩ : Fin 320000)))) k) :=
  (flight_gen_t d x hx fs _ p k).trans (slotW_t0 cv cdst d c i x hx gi hr hb hn hin gr0 p k)

/-- The row slot 1 listed with the gather's payload, as the write-out reads it, at `(p, k)`: the named table row. -/
theorem slotW_t1 (x : ℕ) (hx : x < 2500) (gi : Buf (Elt F) ((jS1).view.loc (V d c i)))
    (hr : (jS1).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL1).view.read (Elt F) gi y).toNat < S10000x128.size gathers_S10000x128_S128x128.axis)
    (gr0 : Buf (Elt F) ((qS1).view.loc (V d c i))) (p k : Fin 128) :
    ReadAs.same.apply ((qS1).view.read (Elt F) ((qS1).view.writes (Elt F) gr0 [⟨Rect.whole S128x128,
          SparseCore.gatherPayload gathers_S10000x128_S128x128
            (View.read (Elt F) ((vW).slice (Rect.unit ![0, 0] S10000x128.size inb_S10000x128_S10000x128_0_0) (fun _ => rfl)).view (cv d))
            (SparseCore.rows ((jL1).view.read (Elt F) gi) hn hin)⟩])) (ix2 p k)
      = cv d (ix2 (rowOfWord (cdst d (ix2 (0 : Fin 1) (⟨128 * x + p.val, by omega⟩ : Fin 320000)))) k) := by
  show (qS1).view.read (Elt F) ((qS1).view.writes (Elt F) gr0 [⟨Rect.whole S128x128, _⟩]) (ix2 p k) = _
  rw [View.read_writes_whole, vW_slice_read]
  exact gath_t1 cv cdst d c i x hx gi hr hb hn hin p k

/-- WHAT THE WRITE-OUT OF ROW SLOT 1 DELIVERS into block `x`, at a row of the block: the named table row. -/
theorem flight_t1 (x : ℕ) (hx : x < 2500) (gi : Buf (Elt F) ((jS1).view.loc (V d c i)))
    (hr : (jS1).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL1).view.read (Elt F) gi y).toNat < S10000x128.size gathers_S10000x128_S128x128.axis)
    (gr0 : Buf (Elt F) ((qS1).view.loc (V d c i))) (fs : Buf (Elt F) (tLoc d)) (p k : Fin 128) :
    ((tB x hx).view.writes (Elt F) fs [⟨Rect.whole S128x128,
        ReadAs.same.apply ((qS1).view.read (Elt F) ((qS1).view.writes (Elt F) gr0 [⟨Rect.whole S128x128,
          SparseCore.gatherPayload gathers_S10000x128_S128x128
            (View.read (Elt F) ((vW).slice (Rect.unit ![0, 0] S10000x128.size inb_S10000x128_S10000x128_0_0) (fun _ => rfl)).view (cv d))
            (SparseCore.rows ((jL1).view.read (Elt F) gi) hn hin)⟩]))⟩]) (ix2 (⟨128 * x + p.val, by omega⟩ : Fin 320000) k)
      = cv d (ix2 (rowOfWord (cdst d (ix2 (0 : Fin 1) (⟨128 * x + p.val, by omega⟩ : Fin 320000)))) k) :=
  (flight_gen_t d x hx fs _ p k).trans (slotW_t1 cv cdst d c i x hx gi hr hb hn hin gr0 p k)

end Flight

end Cert.Proof.KI

end
-- ==== Proof.ScTileJoinV.lean ====
import proofs.«210884_g88510686036700_cont_sun_m_1211_45_alg».proof.Proof.ScTileDisj
import proofs.«210884_g88510686036700_cont_sun_m_1211_45_alg».proof.Proof.ScTileVal

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)
local notation "b0W" => (Memref.whole Cert.KernelIdeal.cc1_scoped0 : Memref Cert.KernelIdeal.sig Kind.scVector Space.vmem Cert.KernelIdeal.S2x1x128 EltTy.i32)
local notation "b2W" => (Memref.whole Cert.KernelIdeal.cc1_scoped2 : Memref Cert.KernelIdeal.sig Kind.scVector Space.vmem Cert.KernelIdeal.S2x1x128 EltTy.i32)
local notation "b4W" => (Memref.whole Cert.KernelIdeal.cc1_scoped4 : Memref Cert.KernelIdeal.sig Kind.scVector Space.vmem Cert.KernelIdeal.S2x128x128 EltTy.f32)
local notation "b6W" => (Memref.whole Cert.KernelIdeal.cc1_scoped6 : Memref Cert.KernelIdeal.sig Kind.scVector Space.vmem Cert.KernelIdeal.S2x128x128 EltTy.f32)

/-! ## A block back from its write-out, with what it holds -/

section RejoinV
variable {ℓ : Loc nD τ sig} {A I J : Finset (Idx ℓ)} {q : PosShare TreeShare} {f g : Buf (Elt F) ℓ}

theorem pts_swap_joinV (hI : I ⊆ A) (hd : Disjoint I J) :
    iprop((ℓ ↦[I]{q} g) ∗ ℓ ↦[(A \ I) \ J]{q} f) ⊢ (ℓ ↦[A \ J]{q} (I.piecewise g f) : sProp 𝕄) := by
  have hI' : I ⊆ A \ J := fun x hx => Finset.mem_sdiff.mpr ⟨hI hx, Finset.disjoint_left.mp hd hx⟩
  rw [sdiff_right_comm]
  exact pointsTo_join_subset hI'

end RejoinV

section JoinV
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

set_option backward.isDefEq.respectTransparency.types false in
/-- Block `x`, holding the named table rows, back from its write-out and joined to the rows held less it and block `y`: the rows
    less block `y` hold the named rows on one more block. -/
theorem s_joinV (x y : ℕ) (hx : x < 2500) (hy : y < 2500) (hxy : x ≠ y) (hsub : rowsBlk x ⊆ rowsOf w) (lo : ℕ)
    (g : Buf (Elt F) ((sB x hx).view.loc (V d c i))) (f : Buf (Elt F) ((sW).view.loc (V d c i)))
    (hf : GathSBelow cu csrc d f lo x)
    (hg : ∀ p k : Fin 128, g (ix2 (⟨128 * x + p.val, by omega⟩ : Fin 320000) k)
        = cu d (ix2 (rowOfWord (csrc d (ix2 (0 : Fin 1) (⟨128 * x + p.val, by omega⟩ : Fin 320000)))) k)) :
    (iprop(((sB x hx).view.loc (V d c i) ↦[(sB x hx).view.set]{fullShare} g) ∗ (sW).view.loc (V d c i) ↦[(rowsOf w \ rowsBlk x) \ (sB y hy).view.set]{fullShare} f) : sProp 𝕄)
      ⊢ iprop(∃ f', ⌜GathSBelow cu csrc d f' lo (x + 1)⌝ ∗ (sW).view.loc (V d c i) ↦[rowsOf w \ rowsBlk y]{fullShare} f') := by
  rw [sB_set, sB_set]
  refine (pts_swap_joinV (ℓ := (sW).view.loc (V d c i)) hsub (rowsBlk_disj x y hxy)).trans ?_
  iintro H
  iexists (rowsBlk x).piecewise g f
  isplitr
  · ipureintro
    exact GathSBelow_join cu csrc d x hx f g _ lo
      (fun ix h => Finset.piecewise_eq_of_notMem _ _ _ h) (fun ix h => Finset.piecewise_eq_of_mem _ _ _ h) hg hf
  · iexact H

set_option backward.isDefEq.respectTransparency.types false in
/-- Block `x`, holding the named table rows, back from its write-out and joined to the rows held less it and block `y`: the rows
    less block `y` hold the named rows on one more block. -/
theorem t_joinV (x y : ℕ) (hx : x < 2500) (hy : y < 2500) (hxy : x ≠ y) (hsub : rowsBlk x ⊆ rowsOf w) (lo : ℕ)
    (g : Buf (Elt F) ((tB x hx).view.loc (V d c i))) (f : Buf (Elt F) ((tW).view.loc (V d c i)))
    (hf : GathTBelow cv cdst d f lo x)
    (hg : ∀ p k : Fin 128, g (ix2 (⟨128 * x + p.val, by omega⟩ : Fin 320000) k)
        = cv d (ix2 (rowOfWord (cdst d (ix2 (0 : Fin 1) (⟨128 * x + p.val, by omega⟩ : Fin 320000)))) k)) :
    (iprop(((tB x hx).view.loc (V d c i) ↦[(tB x hx).view.set]{fullShare} g) ∗ (tW).view.loc (V d c i) ↦[(rowsOf w \ rowsBlk x) \ (tB y hy).view.set]{fullShare} f) : sProp 𝕄)
      ⊢ iprop(∃ f', ⌜GathTBelow cv cdst d f' lo (x + 1)⌝ ∗ (tW).view.loc (V d c i) ↦[rowsOf w \ rowsBlk y]{fullShare} f') := by
  rw [tB_set, tB_set]
  refine (pts_swap_joinV (ℓ := (tW).view.loc (V d c i)) hsub (rowsBlk_disj x y hxy)).trans ?_
  iintro H
  iexists (rowsBlk x).piecewise g f
  isplitr
  · ipureintro
    exact GathTBelow_join cv cdst d x hx f g _ lo
      (fun ix h => Finset.piecewise_eq_of_notMem _ _ _ h) (fun ix h => Finset.piecewise_eq_of_mem _ _ _ h) hg hf
  · iexact H

end JoinV

end Cert.Proof.KI

end
-- ==== Proof.ScTileV.lean ====
/-
  One task of the gather kernel, at a symbolic vector subcore, WITH VALUES: as the frame's statement, and the task's rows of
  the two gathered arrays come back holding, row by row, the table rows that the index rows name there.

  The loop's invariant is the frame's with the write-outs' part carrying what the gathered arrays hold: the rows of the
  task's blocks already written and waited for hold the named table rows, and the write-out in flight delivers them on its
  block. A trip's gather writes the named rows into its row slot (the index slot holds that block of the index row, by
  the fetch's payload, and every index names a table row), the write-out copies the slot onto its block, and the block
  joins the rest when its wait returns, one trip later.
-/
import proofs.«210884_g88510686036700_cont_sun_m_1211_45_alg».proof.Proof.ScTileDisj
import proofs.«210884_g88510686036700_cont_sun_m_1211_45_alg».proof.Proof.ScTileYield
import proofs.«210884_g88510686036700_cont_sun_m_1211_45_alg».proof.Proof.ScTileChk2
import proofs.«210884_g88510686036700_cont_sun_m_1211_45_alg».proof.Proof.ScTileFinV
import proofs.«210884_g88510686036700_cont_sun_m_1211_45_alg».proof.Proof.ScTileStV
import proofs.«210884_g88510686036700_cont_sun_m_1211_45_alg».proof.Proof.ScTileVal2
import proofs.«210884_g88510686036700_cont_sun_m_1211_45_alg».proof.Proof.ScTileJoinV
import proofs.«210884_g88510686036700_cont_sun_m_1211_45_alg».proof.Proof.ScTileInv

noncomputable section

namespace Cert.Proof.KI

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "uW" => (Memref.whole Cert.KernelIdeal.main_v4_0_scv : Memref Cert.KernelIdeal.sig Kind.scVector Space.hbm Cert.KernelIdeal.S10000x128 EltTy.f32)
local notation "vW" => (Memref.whole Cert.KernelIdeal.main_v4_1_scv : Memref Cert.KernelIdeal.sig Kind.scVector Space.hbm Cert.KernelIdeal.S10000x128 EltTy.f32)
local notation "srcW" => (Memref.whole Cert.KernelIdeal.main_v12_scv : Memref Cert.KernelIdeal.sig Kind.scVector Space.hbm Cert.KernelIdeal.S1x320000 EltTy.i32)
local notation "dstW" => (Memref.whole Cert.KernelIdeal.main_v13_scv : Memref Cert.KernelIdeal.sig Kind.scVector Space.hbm Cert.KernelIdeal.S1x320000 EltTy.i32)
local notation "sW" => (Memref.whole Cert.KernelIdeal.main_v14_0_scv : Memref Cert.KernelIdeal.sig Kind.scVector Space.hbm Cert.KernelIdeal.S320000x128 EltTy.f32)
local notation "tW" => (Memref.whole Cert.KernelIdeal.main_v14_1_scv : Memref Cert.KernelIdeal.sig Kind.scVector Space.hbm Cert.KernelIdeal.S320000x128 EltTy.f32)
local notation "b0W" => (Memref.whole Cert.KernelIdeal.cc1_scoped0 : Memref Cert.KernelIdeal.sig Kind.scVector Space.vmem Cert.KernelIdeal.S2x1x128 EltTy.i32)
local notation "b2W" => (Memref.whole Cert.KernelIdeal.cc1_scoped2 : Memref Cert.KernelIdeal.sig Kind.scVector Space.vmem Cert.KernelIdeal.S2x1x128 EltTy.i32)
local notation "b4W" => (Memref.whole Cert.KernelIdeal.cc1_scoped4 : Memref Cert.KernelIdeal.sig Kind.scVector Space.vmem Cert.KernelIdeal.S2x128x128 EltTy.f32)
local notation "b6W" => (Memref.whole Cert.KernelIdeal.cc1_scoped6 : Memref Cert.KernelIdeal.sig Kind.scVector Space.vmem Cert.KernelIdeal.S2x128x128 EltTy.f32)

section Body

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

set_option maxHeartbeats 8000000 in
/-- The task's statement with values. -/
theorem tile_stmtV : TileStmtV cu cv csrc cdst := by
  intro hF hidx d c i hc O W hO prog hprog
  subst hprog
  have hw : taskAt (F := F) c i = taskOf (coordsV ⟨((K (F := F)).core 0 c).val, hc.1⟩ ⟨((K (F := F)).sub 0 i).val, hc.2⟩) := Fin.ext rfl
  rw [hw]
  rw [cc1_gather_kernel_eq_skeleton]; unfold cc1_gather_kernel_skel
  have k1_h1 : k1_cond1 (coordsV ⟨((K (F := F)).core 0 c).val, hc.1⟩ ⟨((K (F := F)).sub 0 i).val, hc.2⟩) = 1#1 := k1_h1_all _
  have hn := trips_eq (coordsV ⟨((K (F := F)).core 0 c).val, hc.1⟩ ⟨((K (F := F)).sub 0 i).val, hc.2⟩)
  have hn78 := nT_ge (coordsV ⟨((K (F := F)).core 0 c).val, hc.1⟩ ⟨((K (F := F)).sub 0 i).val, hc.2⟩)
  have hn79 := nT_le (coordsV ⟨((K (F := F)).core 0 c).val, hc.1⟩ ⟨((K (F := F)).sub 0 i).val, hc.2⟩)
  rw [(K (F := F)).scopedBufs_V hF d _ _, SparseCore.Cfg.scopedSems0_V (Val := Elt F) d _ _, ownSems0_split, ownBufs_split]
  unfold taskRes readRes writeRes
  iintro ⟨#Hlv, -, ⟨⟨Hu, Hv, Hsrc, Hdst⟩, ⟨%fs, Hs⟩, ⟨%ft, Ht⟩⟩, ⟨Hb0, Hb2, Hb4, Hb6, Hbufs⟩, ⟨Hm6, Hm7, Hm8, Hm9, Hm10, Hm11, Hm12, Hm13, Hm14, Hm15, Hsems⟩, HO⟩
  ihave Hb0' := (i_split (F := F) d _ _) $$ Hb0
  icases Hb0' with ⟨⟨%gi0, Hi0⟩, ⟨%gi1, Hi1⟩⟩
  ihave Hb2' := (j_split (F := F) d _ _) $$ Hb2
  icases Hb2' with ⟨⟨%gj0, Hj0⟩, ⟨%gj1, Hj1⟩⟩
  ihave Hb4' := (r_split (F := F) d _ _) $$ Hb4
  icases Hb4' with ⟨⟨%gr0, Hr0⟩, ⟨%gr1, Hr1⟩⟩
  ihave Hb6' := (q_split (F := F) d _ _) $$ Hb6
  icases Hb6' with ⟨⟨%gq0, Hq0⟩, ⟨%gq1, Hq1⟩⟩
  ihave Hu := (Entails.of_eq (show (uLoc d ↦{tok (taskOf (coordsV ⟨((K (F := F)).core 0 c).val, hc.1⟩ ⟨((K (F := F)).sub 0 i).val, hc.2⟩))} cu d : sProp 𝕄) = ((uW).view.loc (V d ((K (F := F)).core 0 c) ((K (F := F)).sub 0 i)) ↦{tok (taskOf (coordsV ⟨((K (F := F)).core 0 c).val, hc.1⟩ ⟨((K (F := F)).sub 0 i).val, hc.2⟩))} cu d) from rfl)) $$ Hu
  ihave Hv := (Entails.of_eq (show (vLoc d ↦{tok (taskOf (coordsV ⟨((K (F := F)).core 0 c).val, hc.1⟩ ⟨((K (F := F)).sub 0 i).val, hc.2⟩))} cv d : sProp 𝕄) = ((vW).view.loc (V d ((K (F := F)).core 0 c) ((K (F := F)).sub 0 i)) ↦{tok (taskOf (coordsV ⟨((K (F := F)).core 0 c).val, hc.1⟩ ⟨((K (F := F)).sub 0 i).val, hc.2⟩))} cv d) from rfl)) $$ Hv
  ihave Hsrc := (Entails.of_eq (show (srcLoc d ↦{tok (taskOf (coordsV ⟨((K (F := F)).core 0 c).val, hc.1⟩ ⟨((K (F := F)).sub 0 i).val, hc.2⟩))} csrc d : sProp 𝕄) = ((srcW).view.loc (V d ((K (F := F)).core 0 c) ((K (F := F)).sub 0 i)) ↦{tok (taskOf (coordsV ⟨((K (F := F)).core 0 c).val, hc.1⟩ ⟨((K (F := F)).sub 0 i).val, hc.2⟩))} csrc d) from rfl)) $$ Hsrc
  ihave Hdst := (Entails.of_eq (show (dstLoc d ↦{tok (taskOf (coordsV ⟨((K (F := F)).core 0 c).val, hc.1⟩ ⟨((K (F := F)).sub 0 i).val, hc.2⟩))} cdst d : sProp 𝕄) = ((dstW).view.loc (V d ((K (F := F)).core 0 c) ((K (F := F)).sub 0 i)) ↦{tok (taskOf (coordsV ⟨((K (F := F)).core 0 c).val, hc.1⟩ ⟨((K (F := F)).sub 0 i).val, hc.2⟩))} cdst d) from rfl)) $$ Hdst
  ihave Hs := (Entails.of_eq (show (sLoc d ↦[rowsOf (taskOf (coordsV ⟨((K (F := F)).core 0 c).val, hc.1⟩ ⟨((K (F := F)).sub 0 i).val, hc.2⟩))]{fullShare} fs : sProp 𝕄) = ((sW).view.loc (V d ((K (F := F)).core 0 c) ((K (F := F)).sub 0 i)) ↦[rowsOf (taskOf (coordsV ⟨((K (F := F)).core 0 c).val, hc.1⟩ ⟨((K (F := F)).sub 0 i).val, hc.2⟩))]{fullShare} fs) from rfl)) $$ Hs
  ihave Ht := (Entails.of_eq (show (tLoc d ↦[rowsOf (taskOf (coordsV ⟨((K (F := F)).core 0 c).val, hc.1⟩ ⟨((K (F := F)).sub 0 i).val, hc.2⟩))]{fullShare} ft : sProp 𝕄) = ((tW).view.loc (V d ((K (F := F)).core 0 c) ((K (F := F)).sub 0 i)) ↦[rowsOf (taskOf (coordsV ⟨((K (F := F)).core 0 c).val, hc.1⟩ ⟨((K (F := F)).sub 0 i).val, hc.2⟩))]{fullShare} ft) from rfl)) $$ Ht
  ihave Hmw := ((K (F := F)).mayWaits_none (thr := (V d ((K (F := F)).core 0 c) ((K (F := F)).sub 0 i))) hO) $$ Hlv
  sl_exec
  sl_for (invV cu cv csrc cdst d ((K (F := F)).core 0 c) ((K (F := F)).sub 0 i) (coordsV ⟨((K (F := F)).core 0 c).val, hc.1⟩ ⟨((K (F := F)).sub 0 i).val, hc.2⟩) O W) $$ [Hmw Hu Hv Hm6 Hm7 Hsrc Hdst Hm8 Hm10 Hi1 Hj1 Hm9 Hm11 Hs Ht Hr0 Hr1 Hq0 Hq1 Hm12 Hm13 Hm14 Hm15 HO]
  case region =>
    intro k acc
    have hk : k.val < nT (coordsV ⟨((K (F := F)).core 0 c).val, hc.1⟩ ⟨((K (F := F)).sub 0 i).val, hc.2⟩) := hn ▸ k.isLt
    by_cases h0 : k.val = 0
    · -- the first trip
      have hlt : k.val + 1 < nT (coordsV ⟨((K (F := F)).core 0 c).val, hc.1⟩ ⟨((K (F := F)).sub 0 i).val, hc.2⟩) := by omega
      have hpar : k.val % 2 = 0 := by omega
      unfold invV
      rw [fetchPart_even csrc cdst d _ _ _ k.val hk hpar, outPartV_zero cu cv csrc cdst d _ _ _ k.val h0]
      unfold fetchAt0 outRestV
      iintro ⟨%hacc, #Hmw, Hu, Hv, Hm6, Hm7, ⟨Hsrc, ⟨%gi, %hgi, Hf8⟩, ⟨%gi', Hi1⟩, Hm9, Hdst, ⟨%gj, %hgj, Hf10⟩, ⟨%gj', Hj1⟩, Hm11⟩, ⟨⟨%fs, %hGs, Hs⟩, ⟨%ft, %hGt, Ht⟩, ⟨%grp, Hr0⟩, ⟨%grq, Hr1⟩, ⟨%gqp, Hq0⟩, ⟨%gqq, Hq1⟩, Hm12, Hm13, Hm14, Hm15⟩, %W', %hW', HO⟩
      have hacc' : acc = (BitVec.ofNat 32 (k.val + 1), BitVec.ofNat 32 (k.val), BitVec.ofNat 32 (k.val + 1), BitVec.ofNat 32 (k.val), BitVec.ofNat 32 (k.val), BitVec.ofNat 32 (k.val - 1), BitVec.ofNat 32 (k.val), BitVec.ofNat 32 (k.val - 1), BitVec.ofNat 32 (k.val)) := by
        rw [hacc]; simp only [wordsAt, if_pos hlt, if_pos hk]
      subst hacc'
      have hc2 : k1_cond2 (coordsV ⟨((K (F := F)).core 0 c).val, hc.1⟩ ⟨((K (F := F)).sub 0 i).val, hc.2⟩) k (BitVec.ofNat 32 k.val) = 1#1  := by rw [cond2_eq, if_pos hlt]
      have hc3 : k1_cond3 (coordsV ⟨((K (F := F)).core 0 c).val, hc.1⟩ ⟨((K (F := F)).sub 0 i).val, hc.2⟩) k (BitVec.ofNat 32 k.val) = 1#1  := by rw [cond3_eq, if_pos hlt]
      have hc4 : k1_cond4 (coordsV ⟨((K (F := F)).core 0 c).val, hc.1⟩ ⟨((K (F := F)).sub 0 i).val, hc.2⟩) k (BitVec.ofNat 32 k.val) = 1#1 := cond4_eq _ k
      have hc5 : k1_cond5 (coordsV ⟨((K (F := F)).core 0 c).val, hc.1⟩ ⟨((K (F := F)).sub 0 i).val, hc.2⟩) k (BitVec.ofNat 32 k.val) = 1#1 := cond5_eq _ k
      have hc10 : k1_cond10 (coordsV ⟨((K (F := F)).core 0 c).val, hc.1⟩ ⟨((K (F := F)).sub 0 i).val, hc.2⟩) k (BitVec.ofNat 32 k.val) = 1#1 := cond10_eq _ k
      have hc11 : k1_cond11 (coordsV ⟨((K (F := F)).core 0 c).val, hc.1⟩ ⟨((K (F := F)).sub 0 i).val, hc.2⟩) k (BitVec.ofNat 32 k.val) = 1#1 := cond11_eq _ k
      have hc14 : k1_cond14 (coordsV ⟨((K (F := F)).core 0 c).val, hc.1⟩ ⟨((K (F := F)).sub 0 i).val, hc.2⟩) k (BitVec.ofNat 32 k.val) = 1#1 → False := by rw [cond14_eq, if_pos h0]; decide
      have hc15 : k1_cond15 (coordsV ⟨((K (F := F)).core 0 c).val, hc.1⟩ ⟨((K (F := F)).sub 0 i).val, hc.2⟩) k (BitVec.ofNat 32 k.val) = 1#1 → False := by rw [cond15_eq, if_pos h0]; decide
      have hk80 : k.val < 80 := by omega
      have hw2 := chk2_nat (coordsV ⟨((K (F := F)).core 0 c).val, hc.1⟩ ⟨((K (F := F)).sub 0 i).val, hc.2⟩) k.val hk80
      have hw3 := chk3_nat (coordsV ⟨((K (F := F)).core 0 c).val, hc.1⟩ ⟨((K (F := F)).sub 0 i).val, hc.2⟩) k.val hk80
      have hw4 := chk4_nat (coordsV ⟨((K (F := F)).core 0 c).val, hc.1⟩ ⟨((K (F := F)).sub 0 i).val, hc.2⟩) k.val hk80
      have hw5 := chk5_nat (coordsV ⟨((K (F := F)).core 0 c).val, hc.1⟩ ⟨((K (F := F)).sub 0 i).val, hc.2⟩) k.val hk80
      have hw1 := chk1_all (coordsV ⟨((K (F := F)).core 0 c).val, hc.1⟩ ⟨((K (F := F)).sub 0 i).val, hc.2⟩) k
      simp only [if_pos hlt] at hw1
      have hy := yield_eq (coordsV ⟨((K (F := F)).core 0 c).val, hc.1⟩ ⟨((K (F := F)).sub 0 i).val, hc.2⟩) k
      simp only [if_pos hlt] at hy
      ihave Hs' := (s_carve0 (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + k.val) (blk_lt _ _ hk) (rowsBlk_sub _ _ hk) fs) $$ Hs
      icases Hs' with ⟨HsB, Hs⟩
      ihave Ht' := (t_carve0 (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + k.val) (blk_lt _ _ hk) (rowsBlk_sub _ _ hk) ft) $$ Ht
      icases Ht' with ⟨HtB, Ht⟩
      have hinI := hin_i0 (F := F) d ((K (F := F)).core 0 c) ((K (F := F)).sub 0 i) gi _ hgi (fun y => (hidx d _).1)
      have hinJ := hin_j0 (F := F) d ((K (F := F)).core 0 c) ((K (F := F)).sub 0 i) gj _ hgj (fun y => (hidx d _).2)
      have hdS := srcB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
      have hdD := dstB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
      sl_exec
      sl_step
      ihave Hs := (s_rest (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + k.val) (blk_lt _ _ hk) fs) $$ Hs
      ihave Ht := (t_rest (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + k.val) (blk_lt _ _ hk) ft) $$ Ht
      have eB : bT (coordsV ⟨((K (F := F)).core 0 c).val, hc.1⟩ ⟨((K (F := F)).sub 0 i).val, hc.2⟩) + (k.val + 1 - 1) = blk0 (taskOf (coordsV ⟨((K (F := F)).core 0 c).val, hc.1⟩ ⟨((K (F := F)).sub 0 i).val, hc.2⟩)) := by rw [Nat.add_sub_cancel, h0]; rfl
      have hGs' : GathSBelow cu csrc d fs (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [eB]; exact hGs
      have hGt' : GathTBelow cv cdst d ft (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [eB]; exact hGt
      rw [fetchPart_odd csrc cdst d _ _ _ (k.val + 1) hlt (by omega), outPartV_odd cu cv csrc cdst d _ _ _ (k.val + 1) ⟨by omega, by omega⟩ (by omega)]
      unfold fetchAt1 outAt0V
      isplitr
      · ipureintro; exact hy
      isplitr; · iexact Hmw
      isplitl [Hu]; · iexact Hu
      isplitl [Hv]; · iexact Hv
      isplitl [Hm6]; · iexact Hm6
      isplitl [Hm7]; · iexact Hm7
      isplitl [Hsrc Hm9 Hf8_dst Hf8 Hdst Hm11 Hf10_dst Hf10]
      · isplitl [Hsrc]; · iexact Hsrc
        isplitl [Hm9]
        · iexists _; isplitr
          rotate_left
          · iexact Hm9
          · ipureintro; exact View.read_writes_whole _ _ _
        isplitl [Hf8_dst]; · iexists _; iexact Hf8_dst
        isplitl [Hf8]; · iexact Hf8
        isplitl [Hdst]; · iexact Hdst
        isplitl [Hm11]
        · iexists _; isplitr
          rotate_left
          · iexact Hm11
          · ipureintro; exact View.read_writes_whole _ _ _
        isplitl [Hf10_dst]; · iexists _; iexact Hf10_dst
        iexact Hf10
      isplitl [Hs Hm12 Hr1 Hm13 Ht Hm14 Hq1 Hm15]
      · isplitl [Hs]
        · iexists _; isplitr
          rotate_left
          · iexact Hs
          · ipureintro; exact hGs'
        isplitl [Hm12]
        · iexists _, _; isplitr
          rotate_left
          · iexact Hm12
          · ipureintro; intro p' k'
            exact flight_s0 cu csrc d ((K (F := F)).core 0 c) ((K (F := F)).sub 0 i) _ _ gi hgi (fun e => (hidx d _).1) _ hinI grp fs p' k'
        isplitl [Hr1]; · iexists _; iexact Hr1
        isplitl [Hm13]; · iexact Hm13
        isplitl [Ht]
        · iexists _; isplitr
          rotate_left
          · iexact Ht
          · ipureintro; exact hGt'
        isplitl [Hm14]
        · iexists _, _; isplitr
          rotate_left
          · iexact Hm14
          · ipureintro; intro p' k'
            exact flight_t0 cv cdst d ((K (F := F)).core 0 c) ((K (F := F)).sub 0 i) _ _ gj hgj (fun e => (hidx d _).2) _ hinJ gqp ft p' k'
        isplitl [Hq1]; · iexists _; iexact Hq1
        iexact Hm15
      iexists _; isplitr
      rotate_left
      · iexact HO
      · ipureintro; repeat (first | exact hW' | apply waits_insert)
    · rcases Nat.mod_two_eq_zero_or_one k.val with hp | hp
      · by_cases hl : k.val + 1 < nT (coordsV ⟨((K (F := F)).core 0 c).val, hc.1⟩ ⟨((K (F := F)).sub 0 i).val, hc.2⟩)
        · -- a middle trip at an even step
          have hlt : k.val + 1 < nT (coordsV ⟨((K (F := F)).core 0 c).val, hc.1⟩ ⟨((K (F := F)).sub 0 i).val, hc.2⟩) := by omega
          have hpar : k.val % 2 = 0 := by omega
          have hpos : 0 < k.val ∧ k.val < nT (coordsV ⟨((K (F := F)).core 0 c).val, hc.1⟩ ⟨((K (F := F)).sub 0 i).val, hc.2⟩) := ⟨by omega, hk⟩
          have hkm : k.val - 1 < nT (coordsV ⟨((K (F := F)).core 0 c).val, hc.1⟩ ⟨((K (F := F)).sub 0 i).val, hc.2⟩) := by omega
          have hposle : 0 < k.val ∧ k.val ≤ nT (coordsV ⟨((K (F := F)).core 0 c).val, hc.1⟩ ⟨((K (F := F)).sub 0 i).val, hc.2⟩) := ⟨by omega, by omega⟩
          unfold invV
          rw [fetchPart_even csrc cdst d _ _ _ k.val hk hpar, outPartV_even cu cv csrc cdst d _ _ _ k.val hposle hpar]
          unfold fetchAt0 outAt1V
          iintro ⟨%hacc, #Hmw, Hu, Hv, Hm6, Hm7, ⟨Hsrc, ⟨%gi, %hgi, Hf8⟩, ⟨%gi', Hi1⟩, Hm9, Hdst, ⟨%gj, %hgj, Hf10⟩, ⟨%gj', Hj1⟩, Hm11⟩, ⟨⟨%fs, %hGs, Hs⟩, ⟨%fsb, %grq, %hfsb, Hf13⟩, ⟨%grp, Hr0⟩, Hm12, ⟨%ft, %hGt, Ht⟩, ⟨%ftb, %gqq, %hftb, Hf15⟩, ⟨%gqp, Hq0⟩, Hm14⟩, %W', %hW', HO⟩
          have hacc' : acc = (BitVec.ofNat 32 (k.val + 1), BitVec.ofNat 32 (k.val), BitVec.ofNat 32 (k.val + 1), BitVec.ofNat 32 (k.val), BitVec.ofNat 32 (k.val), BitVec.ofNat 32 (k.val - 1), BitVec.ofNat 32 (k.val), BitVec.ofNat 32 (k.val - 1), BitVec.ofNat 32 (k.val)) := by
            rw [hacc]; simp only [wordsAt, if_pos hlt, if_pos hk]
          subst hacc'
          have hc2 : k1_cond2 (coordsV ⟨((K (F := F)).core 0 c).val, hc.1⟩ ⟨((K (F := F)).sub 0 i).val, hc.2⟩) k (BitVec.ofNat 32 k.val) = 1#1  := by rw [cond2_eq, if_pos hlt]
          have hc3 : k1_cond3 (coordsV ⟨((K (F := F)).core 0 c).val, hc.1⟩ ⟨((K (F := F)).sub 0 i).val, hc.2⟩) k (BitVec.ofNat 32 k.val) = 1#1  := by rw [cond3_eq, if_pos hlt]
          have hc4 : k1_cond4 (coordsV ⟨((K (F := F)).core 0 c).val, hc.1⟩ ⟨((K (F := F)).sub 0 i).val, hc.2⟩) k (BitVec.ofNat 32 k.val) = 1#1 := cond4_eq _ k
          have hc5 : k1_cond5 (coordsV ⟨((K (F := F)).core 0 c).val, hc.1⟩ ⟨((K (F := F)).sub 0 i).val, hc.2⟩) k (BitVec.ofNat 32 k.val) = 1#1 := cond5_eq _ k
          have hc10 : k1_cond10 (coordsV ⟨((K (F := F)).core 0 c).val, hc.1⟩ ⟨((K (F := F)).sub 0 i).val, hc.2⟩) k (BitVec.ofNat 32 k.val) = 1#1 := cond10_eq _ k
          have hc11 : k1_cond11 (coordsV ⟨((K (F := F)).core 0 c).val, hc.1⟩ ⟨((K (F := F)).sub 0 i).val, hc.2⟩) k (BitVec.ofNat 32 k.val) = 1#1 := cond11_eq _ k
          have hc14 : k1_cond14 (coordsV ⟨((K (F := F)).core 0 c).val, hc.1⟩ ⟨((K (F := F)).sub 0 i).val, hc.2⟩) k (BitVec.ofNat 32 k.val) = 1#1  := by rw [cond14_eq, if_neg h0]
          have hc15 : k1_cond15 (coordsV ⟨((K (F := F)).core 0 c).val, hc.1⟩ ⟨((K (F := F)).sub 0 i).val, hc.2⟩) k (BitVec.ofNat 32 k.val) = 1#1  := by rw [cond15_eq, if_neg h0]
          have hk80 : k.val < 80 := by omega
          have hw2 := chk2_nat (coordsV ⟨((K (F := F)).core 0 c).val, hc.1⟩ ⟨((K (F := F)).sub 0 i).val, hc.2⟩) k.val hk80
          have hw3 := chk3_nat (coordsV ⟨((K (F := F)).core 0 c).val, hc.1⟩ ⟨((K (F := F)).sub 0 i).val, hc.2⟩) k.val hk80
          have hw4 := chk4_nat (coordsV ⟨((K (F := F)).core 0 c).val, hc.1⟩ ⟨((K (F := F)).sub 0 i).val, hc.2⟩) k.val hk80
          have hw5 := chk5_nat (coordsV ⟨((K (F := F)).core 0 c).val, hc.1⟩ ⟨((K (F := F)).sub 0 i).val, hc.2⟩) k.val hk80
          have hw1 := chk1_all (coordsV ⟨((K (F := F)).core 0 c).val, hc.1⟩ ⟨((K (F := F)).sub 0 i).val, hc.2⟩) k
          simp only [if_pos hlt] at hw1
          have hy := yield_eq (coordsV ⟨((K (F := F)).core 0 c).val, hc.1⟩ ⟨((K (F := F)).sub 0 i).val, hc.2⟩) k
          simp only [if_pos hlt] at hy
          ihave Hs' := (s_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) fs) $$ Hs
          icases Hs' with ⟨HsB, Hs⟩
          ihave Ht' := (t_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) ft) $$ Ht
          icases Ht' with ⟨HtB, Ht⟩
          have hinI := hin_i0 (F := F) d ((K (F := F)).core 0 c) ((K (F := F)).sub 0 i) gi _ hgi (fun y => (hidx d _).1)
          have hinJ := hin_j0 (F := F) d ((K (F := F)).core 0 c) ((K (F := F)).sub 0 i) gj _ hgj (fun y => (hidx d _).2)
          have hdS := srcB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
          have hdD := dstB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
          sl_exec
          sl_step
          ihave Hs' := (s_joinV cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ fs hGs hfsb) $$ [Hf13_dst Hs]
          · isplitl [Hf13_dst] <;> iassumption
          icases Hs' with ⟨%fs', %hGs0, Hs⟩
          ihave Ht' := (t_joinV cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ ft hGt hftb) $$ [Hf15_dst Ht]
          · isplitl [Hf15_dst] <;> iassumption
          icases Ht' with ⟨%ft', %hGt0, Ht⟩
          have eB : bT (coordsV ⟨((K (F := F)).core 0 c).val, hc.1⟩ ⟨((K (F := F)).sub 0 i).val, hc.2⟩) + (k.val - 1) + 1 = bT (coordsV ⟨((K (F := F)).core 0 c).val, hc.1⟩ ⟨((K (F := F)).sub 0 i).val, hc.2⟩) + (k.val + 1 - 1) := by omega
          have hGs' : GathSBelow cu csrc d fs' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGs0
          have hGt' : GathTBelow cv cdst d ft' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGt0
          rw [fetchPart_odd csrc cdst d _ _ _ (k.val + 1) hlt (by omega), outPartV_odd cu cv csrc cdst d _ _ _ (k.val + 1) ⟨by omega, by omega⟩ (by omega)]
          unfold fetchAt1 outAt0V
          isplitr
          · ipureintro; exact hy
          isplitr; · iexact Hmw
          isplitl [Hu]; · iexact Hu
          isplitl [Hv]; · iexact Hv
          isplitl [Hm6]; · iexact Hm6
          isplitl [Hm7]; · iexact Hm7
          isplitl [Hsrc Hm9 Hf8_dst Hf8 Hdst Hm11 Hf10_dst Hf10]
          · isplitl [Hsrc]; · iexact Hsrc
            isplitl [Hm9]
            · iexists _; isplitr
              rotate_left
              · iexact Hm9
              · ipureintro; exact View.read_writes_whole _ _ _
            isplitl [Hf8_dst]; · iexists _; iexact Hf8_dst
            isplitl [Hf8]; · iexact Hf8
            isplitl [Hdst]; · iexact Hdst
            isplitl [Hm11]
            · iexists _; isplitr
              rotate_left
              · iexact Hm11
              · ipureintro; exact View.read_writes_whole _ _ _
            isplitl [Hf10_dst]; · iexists _; iexact Hf10_dst
            iexact Hf10
          isplitl [Hs Hm12 Hf13_src Hf13 Ht Hm14 Hf15_src Hf15]
          · isplitl [Hs]
            · iexists _; isplitr
              rotate_left
              · iexact Hs
              · ipureintro; exact hGs'
            isplitl [Hm12]
            · iexists _, _; isplitr
              rotate_left
              · iexact Hm12
              · ipureintro; intro p' k'
                exact flight_s0 cu csrc d ((K (F := F)).core 0 c) ((K (F := F)).sub 0 i) _ _ gi hgi (fun e => (hidx d _).1) _ hinI grp fs p' k'
            isplitl [Hf13_src]; · iexists _; iexact Hf13_src
            isplitl [Hf13]; · iexact Hf13
            isplitl [Ht]
            · iexists _; isplitr
              rotate_left
              · iexact Ht
              · ipureintro; exact hGt'
            isplitl [Hm14]
            · iexists _, _; isplitr
              rotate_left
              · iexact Hm14
              · ipureintro; intro p' k'
                exact flight_t0 cv cdst d ((K (F := F)).core 0 c) ((K (F := F)).sub 0 i) _ _ gj hgj (fun e => (hidx d _).2) _ hinJ gqp ft p' k'
            isplitl [Hf15_src]; · iexists _; iexact Hf15_src
            iexact Hf15
          iexists _; isplitr
          rotate_left
          · iexact HO
          · ipureintro; repeat (first | exact hW' | apply waits_insert)
        · -- the last trip at an even step
          have hlt : ¬ (k.val + 1 < nT (coordsV ⟨((K (F := F)).core 0 c).val, hc.1⟩ ⟨((K (F := F)).sub 0 i).val, hc.2⟩)) := by omega
          have hpar : k.val % 2 = 0 := by omega
          have hpos : 0 < k.val ∧ k.val < nT (coordsV ⟨((K (F := F)).core 0 c).val, hc.1⟩ ⟨((K (F := F)).sub 0 i).val, hc.2⟩) := ⟨by omega, hk⟩
          have hkm : k.val - 1 < nT (coordsV ⟨((K (F := F)).core 0 c).val, hc.1⟩ ⟨((K (F := F)).sub 0 i).val, hc.2⟩) := by omega
          have hposle : 0 < k.val ∧ k.val ≤ nT (coordsV ⟨((K (F := F)).core 0 c).val, hc.1⟩ ⟨((K (F := F)).sub 0 i).val, hc.2⟩) := ⟨by omega, by omega⟩
          unfold invV
          rw [fetchPart_even csrc cdst d _ _ _ k.val hk hpar, outPartV_even cu cv csrc cdst d _ _ _ k.val hposle hpar]
          unfold fetchAt0 outAt1V
          iintro ⟨%hacc, #Hmw, Hu, Hv, Hm6, Hm7, ⟨Hsrc, ⟨%gi, %hgi, Hf8⟩, ⟨%gi', Hi1⟩, Hm9, Hdst, ⟨%gj, %hgj, Hf10⟩, ⟨%gj', Hj1⟩, Hm11⟩, ⟨⟨%fs, %hGs, Hs⟩, ⟨%fsb, %grq, %hfsb, Hf13⟩, ⟨%grp, Hr0⟩, Hm12, ⟨%ft, %hGt, Ht⟩, ⟨%ftb, %gqq, %hftb, Hf15⟩, ⟨%gqp, Hq0⟩, Hm14⟩, %W', %hW', HO⟩
          have hacc' : acc = (BitVec.ofNat 32 (nT (coordsV ⟨((K (F := F)).core 0 c).val, hc.1⟩ ⟨((K (F := F)).sub 0 i).val, hc.2⟩)), BitVec.ofNat 32 (k.val), BitVec.ofNat 32 (nT (coordsV ⟨((K (F := F)).core 0 c).val, hc.1⟩ ⟨((K (F := F)).sub 0 i).val, hc.2⟩)), BitVec.ofNat 32 (k.val), BitVec.ofNat 32 (k.val), BitVec.ofNat 32 (k.val - 1), BitVec.ofNat 32 (k.val), BitVec.ofNat 32 (k.val - 1), BitVec.ofNat 32 (k.val)) := by
            rw [hacc]; simp only [wordsAt, if_neg hlt, if_pos hk]
          subst hacc'
          have hc2 : k1_cond2 (coordsV ⟨((K (F := F)).core 0 c).val, hc.1⟩ ⟨((K (F := F)).sub 0 i).val, hc.2⟩) k (BitVec.ofNat 32 k.val) = 1#1 → False := by rw [cond2_eq, if_neg hlt]; decide
          have hc3 : k1_cond3 (coordsV ⟨((K (F := F)).core 0 c).val, hc.1⟩ ⟨((K (F := F)).sub 0 i).val, hc.2⟩) k (BitVec.ofNat 32 k.val) = 1#1 → False := by rw [cond3_eq, if_neg hlt]; decide
          have hc4 : k1_cond4 (coordsV ⟨((K (F := F)).core 0 c).val, hc.1⟩ ⟨((K (F := F)).sub 0 i).val, hc.2⟩) k (BitVec.ofNat 32 k.val) = 1#1 := cond4_eq _ k
          have hc5 : k1_cond5 (coordsV ⟨((K (F := F)).core 0 c).val, hc.1⟩ ⟨((K (F := F)).sub 0 i).val, hc.2⟩) k (BitVec.ofNat 32 k.val) = 1#1 := cond5_eq _ k
          have hc10 : k1_cond10 (coordsV ⟨((K (F := F)).core 0 c).val, hc.1⟩ ⟨((K (F := F)).sub 0 i).val, hc.2⟩) k (BitVec.ofNat 32 k.val) = 1#1 := cond10_eq _ k
          have hc11 : k1_cond11 (coordsV ⟨((K (F := F)).core 0 c).val, hc.1⟩ ⟨((K (F := F)).sub 0 i).val, hc.2⟩) k (BitVec.ofNat 32 k.val) = 1#1 := cond11_eq _ k
          have hc14 : k1_cond14 (coordsV ⟨((K (F := F)).core 0 c).val, hc.1⟩ ⟨((K (F := F)).sub 0 i).val, hc.2⟩) k (BitVec.ofNat 32 k.val) = 1#1  := by rw [cond14_eq, if_neg h0]
          have hc15 : k1_cond15 (coordsV ⟨((K (F := F)).core 0 c).val, hc.1⟩ ⟨((K (F := F)).sub 0 i).val, hc.2⟩) k (BitVec.ofNat 32 k.val) = 1#1  := by rw [cond15_eq, if_neg h0]
          have hk80 : k.val < 80 := by omega
          have hw2 := chk2_nat (coordsV ⟨((K (F := F)).core 0 c).val, hc.1⟩ ⟨((K (F := F)).sub 0 i).val, hc.2⟩) k.val hk80
          have hw3 := chk3_nat (coordsV ⟨((K (F := F)).core 0 c).val, hc.1⟩ ⟨((K (F := F)).sub 0 i).val, hc.2⟩) k.val hk80
          have hw4 := chk4_nat (coordsV ⟨((K (F := F)).core 0 c).val, hc.1⟩ ⟨((K (F := F)).sub 0 i).val, hc.2⟩) k.val hk80
          have hw5 := chk5_nat (coordsV ⟨((K (F := F)).core 0 c).val, hc.1⟩ ⟨((K (F := F)).sub 0 i).val, hc.2⟩) k.val hk80
          have hw1 := chk1_all (coordsV ⟨((K (F := F)).core 0 c).val, hc.1⟩ ⟨((K (F := F)).sub 0 i).val, hc.2⟩) k
          simp only [if_neg hlt] at hw1
          have hy := yield_eq (coordsV ⟨((K (F := F)).core 0 c).val, hc.1⟩ ⟨((K (F := F)).sub 0 i).val, hc.2⟩) k
          simp only [if_neg hlt] at hy
          ihave Hs' := (s_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) fs) $$ Hs
          icases Hs' with ⟨HsB, Hs⟩
          ihave Ht' := (t_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) ft) $$ Ht
          icases Ht' with ⟨HtB, Ht⟩
          have hinI := hin_i0 (F := F) d ((K (F := F)).core 0 c) ((K (F := F)).sub 0 i) gi _ hgi (fun y => (hidx d _).1)
          have hinJ := hin_j0 (F := F) d ((K (F := F)).core 0 c) ((K (F := F)).sub 0 i) gj _ hgj (fun y => (hidx d _).2)
          sl_exec
          sl_step
          ihave Hs' := (s_joinV cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ fs hGs hfsb) $$ [Hf13_dst Hs]
          · isplitl [Hf13_dst] <;> iassumption
          icases Hs' with ⟨%fs', %hGs0, Hs⟩
          ihave Ht' := (t_joinV cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ ft hGt hftb) $$ [Hf15_dst Ht]
          · isplitl [Hf15_dst] <;> iassumption
          icases Ht' with ⟨%ft', %hGt0, Ht⟩
          have eB : bT (coordsV ⟨((K (F := F)).core 0 c).val, hc.1⟩ ⟨((K (F := F)).sub 0 i).val, hc.2⟩) + (k.val - 1) + 1 = bT (coordsV ⟨((K (F := F)).core 0 c).val, hc.1⟩ ⟨((K (F := F)).sub 0 i).val, hc.2⟩) + (k.val + 1 - 1) := by omega
          have hGs' : GathSBelow cu csrc d fs' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGs0
          have hGt' : GathTBelow cv cdst d ft' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGt0
          rw [fetchPart_rest csrc cdst d _ _ _ (k.val + 1) (by omega), outPartV_odd cu cv csrc cdst d _ _ _ (k.val + 1) ⟨by omega, by omega⟩ (by omega)]
          unfold fetchRest outAt0V
          isplitr
          · ipureintro; exact hy
          isplitr; · iexact Hmw
          isplitl [Hu]; · iexact Hu
          isplitl [Hv]; · iexact Hv
          isplitl [Hm6]; · iexact Hm6
          isplitl [Hm7]; · iexact Hm7
          isplitl [Hsrc Hdst Hf8_dst Hi1 Hf10_dst Hj1 Hf8 Hm9 Hf10 Hm11]
          · isplitl [Hsrc]; · iexact Hsrc
            isplitl [Hdst]; · iexact Hdst
            isplitl [Hf8_dst]; · iexists _; iexact Hf8_dst
            isplitl [Hi1]; · iexists _; iexact Hi1
            isplitl [Hf10_dst]; · iexists _; iexact Hf10_dst
            isplitl [Hj1]; · iexists _; iexact Hj1
            isplitl [Hf8]; · iexact Hf8
            isplitl [Hm9]; · iexact Hm9
            isplitl [Hf10]; · iexact Hf10
            iexact Hm11
          isplitl [Hs Hm12 Hf13_src Hf13 Ht Hm14 Hf15_src Hf15]
          · isplitl [Hs]
            · iexists _; isplitr
              rotate_left
              · iexact Hs
              · ipureintro; exact hGs'
            isplitl [Hm12]
            · iexists _, _; isplitr
              rotate_left
              · iexact Hm12
              · ipureintro; intro p' k'
                exact flight_s0 cu csrc d ((K (F := F)).core 0 c) ((K (F := F)).sub 0 i) _ _ gi hgi (fun e => (hidx d _).1) _ hinI grp fs p' k'
            isplitl [Hf13_src]; · iexists _; iexact Hf13_src
            isplitl [Hf13]; · iexact Hf13
            isplitl [Ht]
            · iexists _; isplitr
              rotate_left
              · iexact Ht
              · ipureintro; exact hGt'
            isplitl [Hm14]
            · iexists _, _; isplitr
              rotate_left
              · iexact Hm14
              · ipureintro; intro p' k'
                exact flight_t0 cv cdst d ((K (F := F)).core 0 c) ((K (F := F)).sub 0 i) _ _ gj hgj (fun e => (hidx d _).2) _ hinJ gqp ft p' k'
            isplitl [Hf15_src]; · iexists _; iexact Hf15_src
            iexact Hf15
          iexists _; isplitr
          rotate_left
          · iexact HO
          · ipureintro; repeat (first | exact hW' | apply waits_insert)
      · by_cases hl : k.val + 1 < nT (coordsV ⟨((K (F := F)).core 0 c).val, hc.1⟩ ⟨((K (F := F)).sub 0 i).val, hc.2⟩)
        · -- a middle trip at an odd step
          have hlt : k.val + 1 < nT (coordsV ⟨((K (F := F)).core 0 c).val, hc.1⟩ ⟨((K (F := F)).sub 0 i).val, hc.2⟩) := by omega
          have hpar : k.val % 2 = 1 := by omega
          have hpos : 0 < k.val ∧ k.val < nT (coordsV ⟨((K (F := F)).core 0 c).val, hc.1⟩ ⟨((K (F := F)).sub 0 i).val, hc.2⟩) := ⟨by omega, hk⟩
          have hkm : k.val - 1 < nT (coordsV ⟨((K (F := F)).core 0 c).val, hc.1⟩ ⟨((K (F := F)).sub 0 i).val, hc.2⟩) := by omega
          have hposle : 0 < k.val ∧ k.val ≤ nT (coordsV ⟨((K (F := F)).core 0 c).val, hc.1⟩ ⟨((K (F := F)).sub 0 i).val, hc.2⟩) := ⟨by omega, by omega⟩
          unfold invV
          rw [fetchPart_odd csrc cdst d _ _ _ k.val hk hpar, outPartV_odd cu cv csrc cdst d _ _ _ k.val hposle hpar]
          unfold fetchAt1 outAt0V
          iintro ⟨%hacc, #Hmw, Hu, Hv, Hm6, Hm7, ⟨Hsrc, ⟨%gi, %hgi, Hf9⟩, ⟨%gi', Hi0⟩, Hm8, Hdst, ⟨%gj, %hgj, Hf11⟩, ⟨%gj', Hj0⟩, Hm10⟩, ⟨⟨%fs, %hGs, Hs⟩, ⟨%fsb, %grq, %hfsb, Hf12⟩, ⟨%grp, Hr1⟩, Hm13, ⟨%ft, %hGt, Ht⟩, ⟨%ftb, %gqq, %hftb, Hf14⟩, ⟨%gqp, Hq1⟩, Hm15⟩, %W', %hW', HO⟩
          have hacc' : acc = (BitVec.ofNat 32 (k.val + 1), BitVec.ofNat 32 (k.val), BitVec.ofNat 32 (k.val + 1), BitVec.ofNat 32 (k.val), BitVec.ofNat 32 (k.val), BitVec.ofNat 32 (k.val - 1), BitVec.ofNat 32 (k.val), BitVec.ofNat 32 (k.val - 1), BitVec.ofNat 32 (k.val)) := by
            rw [hacc]; simp only [wordsAt, if_pos hlt, if_pos hk]
          subst hacc'
          have hc2 : k1_cond2 (coordsV ⟨((K (F := F)).core 0 c).val, hc.1⟩ ⟨((K (F := F)).sub 0 i).val, hc.2⟩) k (BitVec.ofNat 32 k.val) = 1#1  := by rw [cond2_eq, if_pos hlt]
          have hc3 : k1_cond3 (coordsV ⟨((K (F := F)).core 0 c).val, hc.1⟩ ⟨((K (F := F)).sub 0 i).val, hc.2⟩) k (BitVec.ofNat 32 k.val) = 1#1  := by rw [cond3_eq, if_pos hlt]
          have hc4 : k1_cond4 (coordsV ⟨((K (F := F)).core 0 c).val, hc.1⟩ ⟨((K (F := F)).sub 0 i).val, hc.2⟩) k (BitVec.ofNat 32 k.val) = 1#1 := cond4_eq _ k
          have hc5 : k1_cond5 (coordsV ⟨((K (F := F)).core 0 c).val, hc.1⟩ ⟨((K (F := F)).sub 0 i).val, hc.2⟩) k (BitVec.ofNat 32 k.val) = 1#1 := cond5_eq _ k
          have hc10 : k1_cond10 (coordsV ⟨((K (F := F)).core 0 c).val, hc.1⟩ ⟨((K (F := F)).sub 0 i).val, hc.2⟩) k (BitVec.ofNat 32 k.val) = 1#1 := cond10_eq _ k
          have hc11 : k1_cond11 (coordsV ⟨((K (F := F)).core 0 c).val, hc.1⟩ ⟨((K (F := F)).sub 0 i).val, hc.2⟩) k (BitVec.ofNat 32 k.val) = 1#1 := cond11_eq _ k
          have hc14 : k1_cond14 (coordsV ⟨((K (F := F)).core 0 c).val, hc.1⟩ ⟨((K (F := F)).sub 0 i).val, hc.2⟩) k (BitVec.ofNat 32 k.val) = 1#1  := by rw [cond14_eq, if_neg h0]
          have hc15 : k1_cond15 (coordsV ⟨((K (F := F)).core 0 c).val, hc.1⟩ ⟨((K (F := F)).sub 0 i).val, hc.2⟩) k (BitVec.ofNat 32 k.val) = 1#1  := by rw [cond15_eq, if_neg h0]
          have hk80 : k.val < 80 := by omega
          have hw2 := chk2_nat (coordsV ⟨((K (F := F)).core 0 c).val, hc.1⟩ ⟨((K (F := F)).sub 0 i).val, hc.2⟩) k.val hk80
          have hw3 := chk3_nat (coordsV ⟨((K (F := F)).core 0 c).val, hc.1⟩ ⟨((K (F := F)).sub 0 i).val, hc.2⟩) k.val hk80
          have hw4 := chk4_nat (coordsV ⟨((K (F := F)).core 0 c).val, hc.1⟩ ⟨((K (F := F)).sub 0 i).val, hc.2⟩) k.val hk80
          have hw5 := chk5_nat (coordsV ⟨((K (F := F)).core 0 c).val, hc.1⟩ ⟨((K (F := F)).sub 0 i).val, hc.2⟩) k.val hk80
          have hw1 := chk1_all (coordsV ⟨((K (F := F)).core 0 c).val, hc.1⟩ ⟨((K (F := F)).sub 0 i).val, hc.2⟩) k
          simp only [if_pos hlt] at hw1
          have hy := yield_eq (coordsV ⟨((K (F := F)).core 0 c).val, hc.1⟩ ⟨((K (F := F)).sub 0 i).val, hc.2⟩) k
          simp only [if_pos hlt] at hy
          ihave Hs' := (s_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) fs) $$ Hs
          icases Hs' with ⟨HsB, Hs⟩
          ihave Ht' := (t_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) ft) $$ Ht
          icases Ht' with ⟨HtB, Ht⟩
          have hinI := hin_i1 (F := F) d ((K (F := F)).core 0 c) ((K (F := F)).sub 0 i) gi _ hgi (fun y => (hidx d _).1)
          have hinJ := hin_j1 (F := F) d ((K (F := F)).core 0 c) ((K (F := F)).sub 0 i) gj _ hgj (fun y => (hidx d _).2)
          have hdS := srcB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
          have hdD := dstB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
          sl_exec
          sl_step
          ihave Hs' := (s_joinV cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ fs hGs hfsb) $$ [Hf12_dst Hs]
          · isplitl [Hf12_dst] <;> iassumption
          icases Hs' with ⟨%fs', %hGs0, Hs⟩
          ihave Ht' := (t_joinV cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ ft hGt hftb) $$ [Hf14_dst Ht]
          · isplitl [Hf14_dst] <;> iassumption
          icases Ht' with ⟨%ft', %hGt0, Ht⟩
          have eB : bT (coordsV ⟨((K (F := F)).core 0 c).val, hc.1⟩ ⟨((K (F := F)).sub 0 i).val, hc.2⟩) + (k.val - 1) + 1 = bT (coordsV ⟨((K (F := F)).core 0 c).val, hc.1⟩ ⟨((K (F := F)).sub 0 i).val, hc.2⟩) + (k.val + 1 - 1) := by omega
          have hGs' : GathSBelow cu csrc d fs' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGs0
          have hGt' : GathTBelow cv cdst d ft' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGt0
          rw [fetchPart_even csrc cdst d _ _ _ (k.val + 1) hlt (by omega), outPartV_even cu cv csrc cdst d _ _ _ (k.val + 1) ⟨by omega, by omega⟩ (by omega)]
          unfold fetchAt0 outAt1V
          isplitr
          · ipureintro; exact hy
          isplitr; · iexact Hmw
          isplitl [Hu]; · iexact Hu
          isplitl [Hv]; · iexact Hv
          isplitl [Hm6]; · iexact Hm6
          isplitl [Hm7]; · iexact Hm7
          isplitl [Hsrc Hm8 Hf9_dst Hf9 Hdst Hm10 Hf11_dst Hf11]
          · isplitl [Hsrc]; · iexact Hsrc
            isplitl [Hm8]
            · iexists _; isplitr
              rotate_left
              · iexact Hm8
              · ipureintro; exact View.read_writes_whole _ _ _
            isplitl [Hf9_dst]; · iexists _; iexact Hf9_dst
            isplitl [Hf9]; · iexact Hf9
            isplitl [Hdst]; · iexact Hdst
            isplitl [Hm10]
            · iexists _; isplitr
              rotate_left
              · iexact Hm10
              · ipureintro; exact View.read_writes_whole _ _ _
            isplitl [Hf11_dst]; · iexists _; iexact Hf11_dst
            iexact Hf11
          isplitl [Hs Hm13 Hf12_src Hf12 Ht Hm15 Hf14_src Hf14]
          · isplitl [Hs]
            · iexists _; isplitr
              rotate_left
              · iexact Hs
              · ipureintro; exact hGs'
            isplitl [Hm13]
            · iexists _, _; isplitr
              rotate_left
              · iexact Hm13
              · ipureintro; intro p' k'
                exact flight_s1 cu csrc d ((K (F := F)).core 0 c) ((K (F := F)).sub 0 i) _ _ gi hgi (fun e => (hidx d _).1) _ hinI grp fs p' k'
            isplitl [Hf12_src]; · iexists _; iexact Hf12_src
            isplitl [Hf12]; · iexact Hf12
            isplitl [Ht]
            · iexists _; isplitr
              rotate_left
              · iexact Ht
              · ipureintro; exact hGt'
            isplitl [Hm15]
            · iexists _, _; isplitr
              rotate_left
              · iexact Hm15
              · ipureintro; intro p' k'
                exact flight_t1 cv cdst d ((K (F := F)).core 0 c) ((K (F := F)).sub 0 i) _ _ gj hgj (fun e => (hidx d _).2) _ hinJ gqp ft p' k'
            isplitl [Hf14_src]; · iexists _; iexact Hf14_src
            iexact Hf14
          iexists _; isplitr
          rotate_left
          · iexact HO
          · ipureintro; repeat (first | exact hW' | apply waits_insert)
        · -- the last trip at an odd step
          have hlt : ¬ (k.val + 1 < nT (coordsV ⟨((K (F := F)).core 0 c).val, hc.1⟩ ⟨((K (F := F)).sub 0 i).val, hc.2⟩)) := by omega
          have hpar : k.val % 2 = 1 := by omega
          have hpos : 0 < k.val ∧ k.val < nT (coordsV ⟨((K (F := F)).core 0 c).val, hc.1⟩ ⟨((K (F := F)).sub 0 i).val, hc.2⟩) := ⟨by omega, hk⟩
          have hkm : k.val - 1 < nT (coordsV ⟨((K (F := F)).core 0 c).val, hc.1⟩ ⟨((K (F := F)).sub 0 i).val, hc.2⟩) := by omega
          have hposle : 0 < k.val ∧ k.val ≤ nT (coordsV ⟨((K (F := F)).core 0 c).val, hc.1⟩ ⟨((K (F := F)).sub 0 i).val, hc.2⟩) := ⟨by omega, by omega⟩
          unfold invV
          rw [fetchPart_odd csrc cdst d _ _ _ k.val hk hpar, outPartV_odd cu cv csrc cdst d _ _ _ k.val hposle hpar]
          unfold fetchAt1 outAt0V
          iintro ⟨%hacc, #Hmw, Hu, Hv, Hm6, Hm7, ⟨Hsrc, ⟨%gi, %hgi, Hf9⟩, ⟨%gi', Hi0⟩, Hm8, Hdst, ⟨%gj, %hgj, Hf11⟩, ⟨%gj', Hj0⟩, Hm10⟩, ⟨⟨%fs, %hGs, Hs⟩, ⟨%fsb, %grq, %hfsb, Hf12⟩, ⟨%grp, Hr1⟩, Hm13, ⟨%ft, %hGt, Ht⟩, ⟨%ftb, %gqq, %hftb, Hf14⟩, ⟨%gqp, Hq1⟩, Hm15⟩, %W', %hW', HO⟩
          have hacc' : acc = (BitVec.ofNat 32 (nT (coordsV ⟨((K (F := F)).core 0 c).val, hc.1⟩ ⟨((K (F := F)).sub 0 i).val, hc.2⟩)), BitVec.ofNat 32 (k.val), BitVec.ofNat 32 (nT (coordsV ⟨((K (F := F)).core 0 c).val, hc.1⟩ ⟨((K (F := F)).sub 0 i).val, hc.2⟩)), BitVec.ofNat 32 (k.val), BitVec.ofNat 32 (k.val), BitVec.ofNat 32 (k.val - 1), BitVec.ofNat 32 (k.val), BitVec.ofNat 32 (k.val - 1), BitVec.ofNat 32 (k.val)) := by
            rw [hacc]; simp only [wordsAt, if_neg hlt, if_pos hk]
          subst hacc'
          have hc2 : k1_cond2 (coordsV ⟨((K (F := F)).core 0 c).val, hc.1⟩ ⟨((K (F := F)).sub 0 i).val, hc.2⟩) k (BitVec.ofNat 32 k.val) = 1#1 → False := by rw [cond2_eq, if_neg hlt]; decide
          have hc3 : k1_cond3 (coordsV ⟨((K (F := F)).core 0 c).val, hc.1⟩ ⟨((K (F := F)).sub 0 i).val, hc.2⟩) k (BitVec.ofNat 32 k.val) = 1#1 → False := by rw [cond3_eq, if_neg hlt]; decide
          have hc4 : k1_cond4 (coordsV ⟨((K (F := F)).core 0 c).val, hc.1⟩ ⟨((K (F := F)).sub 0 i).val, hc.2⟩) k (BitVec.ofNat 32 k.val) = 1#1 := cond4_eq _ k
          have hc5 : k1_cond5 (coordsV ⟨((K (F := F)).core 0 c).val, hc.1⟩ ⟨((K (F := F)).sub 0 i).val, hc.2⟩) k (BitVec.ofNat 32 k.val) = 1#1 := cond5_eq _ k
          have hc10 : k1_cond10 (coordsV ⟨((K (F := F)).core 0 c).val, hc.1⟩ ⟨((K (F := F)).sub 0 i).val, hc.2⟩) k (BitVec.ofNat 32 k.val) = 1#1 := cond10_eq _ k
          have hc11 : k1_cond11 (coordsV ⟨((K (F := F)).core 0 c).val, hc.1⟩ ⟨((K (F := F)).sub 0 i).val, hc.2⟩) k (BitVec.ofNat 32 k.val) = 1#1 := cond11_eq _ k
          have hc14 : k1_cond14 (coordsV ⟨((K (F := F)).core 0 c).val, hc.1⟩ ⟨((K (F := F)).sub 0 i).val, hc.2⟩) k (BitVec.ofNat 32 k.val) = 1#1  := by rw [cond14_eq, if_neg h0]
          have hc15 : k1_cond15 (coordsV ⟨((K (F := F)).core 0 c).val, hc.1⟩ ⟨((K (F := F)).sub 0 i).val, hc.2⟩) k (BitVec.ofNat 32 k.val) = 1#1  := by rw [cond15_eq, if_neg h0]
          have hk80 : k.val < 80 := by omega
          have hw2 := chk2_nat (coordsV ⟨((K (F := F)).core 0 c).val, hc.1⟩ ⟨((K (F := F)).sub 0 i).val, hc.2⟩) k.val hk80
          have hw3 := chk3_nat (coordsV ⟨((K (F := F)).core 0 c).val, hc.1⟩ ⟨((K (F := F)).sub 0 i).val, hc.2⟩) k.val hk80
          have hw4 := chk4_nat (coordsV ⟨((K (F := F)).core 0 c).val, hc.1⟩ ⟨((K (F := F)).sub 0 i).val, hc.2⟩) k.val hk80
          have hw5 := chk5_nat (coordsV ⟨((K (F := F)).core 0 c).val, hc.1⟩ ⟨((K (F := F)).sub 0 i).val, hc.2⟩) k.val hk80
          have hw1 := chk1_all (coordsV ⟨((K (F := F)).core 0 c).val, hc.1⟩ ⟨((K (F := F)).sub 0 i).val, hc.2⟩) k
          simp only [if_neg hlt] at hw1
          have hy := yield_eq (coordsV ⟨((K (F := F)).core 0 c).val, hc.1⟩ ⟨((K (F := F)).sub 0 i).val, hc.2⟩) k
          simp only [if_neg hlt] at hy
          ihave Hs' := (s_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) fs) $$ Hs
          icases Hs' with ⟨HsB, Hs⟩
          ihave Ht' := (t_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) ft) $$ Ht
          icases Ht' with ⟨HtB, Ht⟩
          have hinI := hin_i1 (F := F) d ((K (F := F)).core 0 c) ((K (F := F)).sub 0 i) gi _ hgi (fun y => (hidx d _).1)
          have hinJ := hin_j1 (F := F) d ((K (F := F)).core 0 c) ((K (F := F)).sub 0 i) gj _ hgj (fun y => (hidx d _).2)
          sl_exec
          sl_step
          ihave Hs' := (s_joinV cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ fs hGs hfsb) $$ [Hf12_dst Hs]
          · isplitl [Hf12_dst] <;> iassumption
          icases Hs' with ⟨%fs', %hGs0, Hs⟩
          ihave Ht' := (t_joinV cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ ft hGt hftb) $$ [Hf14_dst Ht]
          · isplitl [Hf14_dst] <;> iassumption
          icases Ht' with ⟨%ft', %hGt0, Ht⟩
          have eB : bT (coordsV ⟨((K (F := F)).core 0 c).val, hc.1⟩ ⟨((K (F := F)).sub 0 i).val, hc.2⟩) + (k.val - 1) + 1 = bT (coordsV ⟨((K (F := F)).core 0 c).val, hc.1⟩ ⟨((K (F := F)).sub 0 i).val, hc.2⟩) + (k.val + 1 - 1) := by omega
          have hGs' : GathSBelow cu csrc d fs' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGs0
          have hGt' : GathTBelow cv cdst d ft' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGt0
          rw [fetchPart_rest csrc cdst d _ _ _ (k.val + 1) (by omega), outPartV_even cu cv csrc cdst d _ _ _ (k.val + 1) ⟨by omega, by omega⟩ (by omega)]
          unfold fetchRest outAt1V
          isplitr
          · ipureintro; exact hy
          isplitr; · iexact Hmw
          isplitl [Hu]; · iexact Hu
          isplitl [Hv]; · iexact Hv
          isplitl [Hm6]; · iexact Hm6
          isplitl [Hm7]; · iexact Hm7
          isplitl [Hsrc Hdst Hi0 Hf9_dst Hj0 Hf11_dst Hm8 Hf9 Hm10 Hf11]
          · isplitl [Hsrc]; · iexact Hsrc
            isplitl [Hdst]; · iexact Hdst
            isplitl [Hi0]; · iexists _; iexact Hi0
            isplitl [Hf9_dst]; · iexists _; iexact Hf9_dst
            isplitl [Hj0]; · iexists _; iexact Hj0
            isplitl [Hf11_dst]; · iexists _; iexact Hf11_dst
            isplitl [Hm8]; · iexact Hm8
            isplitl [Hf9]; · iexact Hf9
            isplitl [Hm10]; · iexact Hm10
            iexact Hf11
          isplitl [Hs Hm13 Hf12_src Hf12 Ht Hm15 Hf14_src Hf14]
          · isplitl [Hs]
            · iexists _; isplitr
              rotate_left
              · iexact Hs
              · ipureintro; exact hGs'
            isplitl [Hm13]
            · iexists _, _; isplitr
              rotate_left
              · iexact Hm13
              · ipureintro; intro p' k'
                exact flight_s1 cu csrc d ((K (F := F)).core 0 c) ((K (F := F)).sub 0 i) _ _ gi hgi (fun e => (hidx d _).1) _ hinI grp fs p' k'
            isplitl [Hf12_src]; · iexists _; iexact Hf12_src
            isplitl [Hf12]; · iexact Hf12
            isplitl [Ht]
            · iexists _; isplitr
              rotate_left
              · iexact Ht
              · ipureintro; exact hGt'
            isplitl [Hm15]
            · iexists _, _; isplitr
              rotate_left
              · iexact Hm15
              · ipureintro; intro p' k'
                exact flight_t1 cv cdst d ((K (F := F)).core 0 c) ((K (F := F)).sub 0 i) _ _ gj hgj (fun e => (hidx d _).2) _ hinJ gqp ft p' k'
            isplitl [Hf14_src]; · iexists _; iexact Hf14_src
            iexact Hf14
          iexists _; isplitr
          rotate_left
          · iexact HO
          · ipureintro; repeat (first | exact hW' | apply waits_insert)
  · -- the invariant before the first trip: the prologue's two fetches in flight into slot 0
    unfold invV
    rw [fetchPart_even csrc cdst d _ _ _ 0 (by omega) rfl, outPartV_zero cu cv csrc cdst d _ _ _ 0 rfl]
    unfold fetchAt0 outRestV
    isplitr
    · ipureintro
      show _ = wordsAt _ 0
      unfold wordsAt
      rw [if_pos (by omega : 0 + 1 < nT (coordsV ⟨((K (F := F)).core 0 c).val, hc.1⟩ ⟨((K (F := F)).sub 0 i).val, hc.2⟩)), if_pos (by omega : 0 < nT (coordsV ⟨((K (F := F)).core 0 c).val, hc.1⟩ ⟨((K (F := F)).sub 0 i).val, hc.2⟩))]
    isplitr; · iexact Hmw
    isplitl [Hu]; · iexact Hu
    isplitl [Hv]; · iexact Hv
    isplitl [Hm6]; · iexact Hm6
    isplitl [Hm7]; · iexact Hm7
    isplitl [Hsrc Hm8 Hi1 Hm9 Hdst Hm10 Hj1 Hm11]
    · isplitl [Hsrc]; · iexact Hsrc
      isplitl [Hm8]
      · iexists _; isplitr
        rotate_left
        · iexact Hm8
        · ipureintro; exact View.read_writes_whole _ _ _
      isplitl [Hi1]; · iexists _; iexact Hi1
      isplitl [Hm9]; · iexact Hm9
      isplitl [Hdst]; · iexact Hdst
      isplitl [Hm10]
      · iexists _; isplitr
        rotate_left
        · iexact Hm10
        · ipureintro; exact View.read_writes_whole _ _ _
      isplitl [Hj1]; · iexists _; iexact Hj1
      iexact Hm11
    isplitl [Hs Ht Hr0 Hr1 Hq0 Hq1 Hm12 Hm13 Hm14 Hm15]
    · isplitl [Hs]
      · iexists _; isplitr
        rotate_left
        · iexact Hs
        · ipureintro; exact GathSBelow_nil cu csrc d _ _
      isplitl [Ht]
      · iexists _; isplitr
        rotate_left
        · iexact Ht
        · ipureintro; exact GathTBelow_nil cv cdst d _ _
      isplitl [Hr0]; · iexists _; iexact Hr0
      isplitl [Hr1]; · iexists _; iexact Hr1
      isplitl [Hq0]; · iexists _; iexact Hq0
      isplitl [Hq1]; · iexists _; iexact Hq1
      isplitl [Hm12]; · iexact Hm12
      isplitl [Hm13]; · iexact Hm13
      isplitl [Hm14]; · iexact Hm14
      iexact Hm15
    iexists W; isplitr
    · ipureintro; exact fun p hp => .inl hp
    · iexact HO
  -- after the loop: nothing more is fetched; the last block's two write-outs are waited for, and the task's rows are all gathered
  have hn' : Scf.trips (k1_t1_loop (coordsV ⟨((K (F := F)).core 0 c).val, hc.1⟩ ⟨((K (F := F)).sub 0 i).val, hc.2⟩)).lb (k1_t1_loop (coordsV ⟨((K (F := F)).core 0 c).val, hc.1⟩ ⟨((K (F := F)).sub 0 i).val, hc.2⟩)).ub (k1_t1_loop (coordsV ⟨((K (F := F)).core 0 c).val, hc.1⟩ ⟨((K (F := F)).sub 0 i).val, hc.2⟩)).st = nT (coordsV ⟨((K (F := F)).core 0 c).val, hc.1⟩ ⟨((K (F := F)).sub 0 i).val, hc.2⟩) := hn
  first | rw [hn] | rw [hn']
  iintro %acc HI
  unfold invV
  rcases Nat.mod_two_eq_zero_or_one (nT (coordsV ⟨((K (F := F)).core 0 c).val, hc.1⟩ ⟨((K (F := F)).sub 0 i).val, hc.2⟩)) with hpn | hpn
  · -- an even number of blocks: the last trip was at an odd step
    have hnm : nT (coordsV ⟨((K (F := F)).core 0 c).val, hc.1⟩ ⟨((K (F := F)).sub 0 i).val, hc.2⟩) - 1 < nT (coordsV ⟨((K (F := F)).core 0 c).val, hc.1⟩ ⟨((K (F := F)).sub 0 i).val, hc.2⟩) := by omega
    have hposle : 0 < nT (coordsV ⟨((K (F := F)).core 0 c).val, hc.1⟩ ⟨((K (F := F)).sub 0 i).val, hc.2⟩) ∧ nT (coordsV ⟨((K (F := F)).core 0 c).val, hc.1⟩ ⟨((K (F := F)).sub 0 i).val, hc.2⟩) ≤ nT (coordsV ⟨((K (F := F)).core 0 c).val, hc.1⟩ ⟨((K (F := F)).sub 0 i).val, hc.2⟩) := ⟨by omega, le_refl _⟩
    rw [fetchPart_rest csrc cdst d _ _ _ (nT (coordsV ⟨((K (F := F)).core 0 c).val, hc.1⟩ ⟨((K (F := F)).sub 0 i).val, hc.2⟩)) (lt_irrefl _), outPartV_even cu cv csrc cdst d _ _ _ (nT (coordsV ⟨((K (F := F)).core 0 c).val, hc.1⟩ ⟨((K (F := F)).sub 0 i).val, hc.2⟩)) hposle hpn]
    unfold fetchRest outAt1V
    icases HI with ⟨%hacc, #Hmw, Hu, Hv, Hm6, Hm7, ⟨Hsrc, Hdst, ⟨%gi0, Hi0⟩, ⟨%gi1, Hi1⟩, ⟨%gj0, Hj0⟩, ⟨%gj1, Hj1⟩, Hm8, Hm9, Hm10, Hm11⟩, ⟨⟨%fs, %hGs, Hs⟩, ⟨%fsb, %grq, %hfsb, Hf13⟩, ⟨%grp, Hr0⟩, Hm12, ⟨%ft, %hGt, Ht⟩, ⟨%ftb, %gqq, %hftb, Hf15⟩, ⟨%gqp, Hq0⟩, Hm14⟩, %W', %hW', HO⟩
    have hacc' : acc = (BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩) - 1), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩) - 1), 0#32) := by
      rw [hacc]; simp only [wordsAt, if_neg (by omega : ¬ (nT (coordsV ⟨((K (F := F)).core 0 c).val, hc.1⟩ ⟨((K (F := F)).sub 0 i).val, hc.2⟩) + 1 < nT (coordsV ⟨((K (F := F)).core 0 c).val, hc.1⟩ ⟨((K (F := F)).sub 0 i).val, hc.2⟩))), if_neg (lt_irrefl _)]
    subst hacc'
    have hw11 := chk11_nat (coordsV ⟨((K (F := F)).core 0 c).val, hc.1⟩ ⟨((K (F := F)).sub 0 i).val, hc.2⟩) (nT (coordsV ⟨((K (F := F)).core 0 c).val, hc.1⟩ ⟨((K (F := F)).sub 0 i).val, hc.2⟩) - 1) (by omega)
    have hw13 := chk13_nat (coordsV ⟨((K (F := F)).core 0 c).val, hc.1⟩ ⟨((K (F := F)).sub 0 i).val, hc.2⟩) (nT (coordsV ⟨((K (F := F)).core 0 c).val, hc.1⟩ ⟨((K (F := F)).sub 0 i).val, hc.2⟩) - 1) (by omega)
    have hw12 := chk12_ok (coordsV ⟨((K (F := F)).core 0 c).val, hc.1⟩ ⟨((K (F := F)).sub 0 i).val, hc.2⟩)
    have hc32 := cond32_eq (coordsV ⟨((K (F := F)).core 0 c).val, hc.1⟩ ⟨((K (F := F)).sub 0 i).val, hc.2⟩)
    have hc33 := cond33_eq (coordsV ⟨((K (F := F)).core 0 c).val, hc.1⟩ ⟨((K (F := F)).sub 0 i).val, hc.2⟩)
    have hpm : (nT (coordsV ⟨((K (F := F)).core 0 c).val, hc.1⟩ ⟨((K (F := F)).sub 0 i).val, hc.2⟩) - 1) % 2 = 1 := by omega
    have hr : (BitVec.ofNat 32 (nT (coordsV ⟨((K (F := F)).core 0 c).val, hc.1⟩ ⟨((K (F := F)).sub 0 i).val, hc.2⟩) - 1)).toNat % 2 = 1 := by rw [toNat_ofNat_mod2]; exact hpm
    sl_exec
    sl_for0 (trips2_eq (coordsV ⟨((K (F := F)).core 0 c).val, hc.1⟩ ⟨((K (F := F)).sub 0 i).val, hc.2⟩))
    sl_exec
    sl_step
    ihave Hs' := (rest_join_s cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1)) (blk_lt _ _ hnm) (rowsBlk_sub _ _ hnm) (blk0 (taskOf (coordsV ⟨((K (F := F)).core 0 c).val, hc.1⟩ ⟨((K (F := F)).sub 0 i).val, hc.2⟩)))) $$ [Hs Hf13_dst]
    · isplitl [Hs]
      · iexists _; isplitr
        rotate_left
        · iexact Hs
        · ipureintro; exact hGs
      iexists _; isplitr
      rotate_left
      · iexact Hf13_dst
      · ipureintro; exact hfsb
    icases Hs' with ⟨%fs', %hGs0, Hs⟩
    ihave Ht' := (rest_join_t cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1)) (blk_lt _ _ hnm) (rowsBlk_sub _ _ hnm) (blk0 (taskOf (coordsV ⟨((K (F := F)).core 0 c).val, hc.1⟩ ⟨((K (F := F)).sub 0 i).val, hc.2⟩)))) $$ [Ht Hf15_dst]
    · isplitl [Ht]
      · iexists _; isplitr
        rotate_left
        · iexact Ht
        · ipureintro; exact hGt
      iexists _; isplitr
      rotate_left
      · iexact Hf15_dst
      · ipureintro; exact hftb
    icases Ht' with ⟨%ft', %hGt0, Ht⟩
    have h1n : 1 ≤ nBlk (taskOf (coordsV ⟨((K (F := F)).core 0 c).val, hc.1⟩ ⟨((K (F := F)).sub 0 i).val, hc.2⟩)) := Nat.le_trans (by decide) hn78
    have eN : bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1) + 1 = blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩)) := by
      show blk0 (taskOf (coordsV ⟨((K (F := F)).core 0 c).val, hc.1⟩ ⟨((K (F := F)).sub 0 i).val, hc.2⟩)) + (nBlk (taskOf (coordsV ⟨((K (F := F)).core 0 c).val, hc.1⟩ ⟨((K (F := F)).sub 0 i).val, hc.2⟩)) - 1) + 1 = blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩)); omega
    have hGsN : GathSBelow cu csrc d fs' (blk0 (taskOf (coordsV ⟨((K (F := F)).core 0 c).val, hc.1⟩ ⟨((K (F := F)).sub 0 i).val, hc.2⟩))) (blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩))) := by rw [← eN]; exact hGs0
    have hGtN : GathTBelow cv cdst d ft' (blk0 (taskOf (coordsV ⟨((K (F := F)).core 0 c).val, hc.1⟩ ⟨((K (F := F)).sub 0 i).val, hc.2⟩))) (blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩))) := by rw [← eN]; exact hGt0
    ihave Hfin := (reassembleV cu cv csrc cdst d ((K (F := F)).core 0 c) ((K (F := F)).sub 0 i) (taskOf (coordsV ⟨((K (F := F)).core 0 c).val, hc.1⟩ ⟨((K (F := F)).sub 0 i).val, hc.2⟩)) hF) $$ [Hu Hv Hm6 Hm7 Hsrc Hdst Hi0 Hi1 Hj0 Hj1 Hm8 Hm9 Hm10 Hm11 Hs Ht Hr0 Hf13_src Hq0 Hf15_src Hm12 Hf13 Hm14 Hf15 Hbufs Hsems]
    · unfold fetchRest outRestV
      isplitl [Hu]; · iexact Hu
      isplitl [Hv]; · iexact Hv
      isplitl [Hm6]; · iexact Hm6
      isplitl [Hm7]; · iexact Hm7
      isplitl [Hsrc Hdst Hi0 Hi1 Hj0 Hj1 Hm8 Hm9 Hm10 Hm11]
      · isplitl [Hsrc]; · iexact Hsrc
        isplitl [Hdst]; · iexact Hdst
        isplitl [Hi0]; · iexists _; iexact Hi0
        isplitl [Hi1]; · iexists _; iexact Hi1
        isplitl [Hj0]; · iexists _; iexact Hj0
        isplitl [Hj1]; · iexists _; iexact Hj1
        isplitl [Hm8]; · iexact Hm8
        isplitl [Hm9]; · iexact Hm9
        isplitl [Hm10]; · iexact Hm10
        iexact Hm11
      isplitl [Hs Ht Hr0 Hf13_src Hq0 Hf15_src Hm12 Hf13 Hm14 Hf15]
      · isplitl [Hs]
        · iexists _; isplitr
          rotate_left
          · iexact Hs
          · ipureintro; exact hGsN
        isplitl [Ht]
        · iexists _; isplitr
          rotate_left
          · iexact Ht
          · ipureintro; exact hGtN
        isplitl [Hr0]; · iexists _; iexact Hr0
        isplitl [Hf13_src]; · iexists _; iexact Hf13_src
        isplitl [Hq0]; · iexists _; iexact Hq0
        isplitl [Hf15_src]; · iexists _; iexact Hf15_src
        isplitl [Hm12]; · iexact Hm12
        isplitl [Hf13]; · iexact Hf13
        isplitl [Hm14]; · iexact Hm14
        iexact Hf15
      isplitl [Hbufs]; · iexact Hbufs
      iexact Hsems
    icases Hfin with ⟨HA, HB, HC⟩
    ihave HB := (Entails.of_eq (((K (F := F)).scopedBufs_V hF d ((K (F := F)).core 0 c) ((K (F := F)).sub 0 i)).trans (ownBufs_split (F := F) d ((K (F := F)).core 0 c) ((K (F := F)).sub 0 i)))) $$ HB
    ihave HC := (Entails.of_eq ((SparseCore.Cfg.scopedSems0_V (Val := Elt F) d ((K (F := F)).core 0 c) ((K (F := F)).sub 0 i)).trans (ownSems0_split (F := F) d ((K (F := F)).core 0 c) ((K (F := F)).sub 0 i)))) $$ HC
    isplitl [HA]; · iexact HA
    isplitl [HB]; · iexact HB
    isplitl [HC]; · iexact HC
    iexists _; isplitr
    rotate_left
    · iexact HO
    · ipureintro
      have hW'' : ∀ p ∈ W', p ∈ W ∨ p.2 = none ∨ p.2 = some (0 : Fin 1) := fun p hp => (hW' p hp).imp id Or.inl
      repeat (first | exact hW'' | apply waits_insert3)
  · -- an odd number of blocks: the last trip was at an even step
    have hnm : nT (coordsV ⟨((K (F := F)).core 0 c).val, hc.1⟩ ⟨((K (F := F)).sub 0 i).val, hc.2⟩) - 1 < nT (coordsV ⟨((K (F := F)).core 0 c).val, hc.1⟩ ⟨((K (F := F)).sub 0 i).val, hc.2⟩) := by omega
    have hposle : 0 < nT (coordsV ⟨((K (F := F)).core 0 c).val, hc.1⟩ ⟨((K (F := F)).sub 0 i).val, hc.2⟩) ∧ nT (coordsV ⟨((K (F := F)).core 0 c).val, hc.1⟩ ⟨((K (F := F)).sub 0 i).val, hc.2⟩) ≤ nT (coordsV ⟨((K (F := F)).core 0 c).val, hc.1⟩ ⟨((K (F := F)).sub 0 i).val, hc.2⟩) := ⟨by omega, le_refl _⟩
    rw [fetchPart_rest csrc cdst d _ _ _ (nT (coordsV ⟨((K (F := F)).core 0 c).val, hc.1⟩ ⟨((K (F := F)).sub 0 i).val, hc.2⟩)) (lt_irrefl _), outPartV_odd cu cv csrc cdst d _ _ _ (nT (coordsV ⟨((K (F := F)).core 0 c).val, hc.1⟩ ⟨((K (F := F)).sub 0 i).val, hc.2⟩)) hposle hpn]
    unfold fetchRest outAt0V
    icases HI with ⟨%hacc, #Hmw, Hu, Hv, Hm6, Hm7, ⟨Hsrc, Hdst, ⟨%gi0, Hi0⟩, ⟨%gi1, Hi1⟩, ⟨%gj0, Hj0⟩, ⟨%gj1, Hj1⟩, Hm8, Hm9, Hm10, Hm11⟩, ⟨⟨%fs, %hGs, Hs⟩, ⟨%fsb, %grq, %hfsb, Hf12⟩, ⟨%grp, Hr1⟩, Hm13, ⟨%ft, %hGt, Ht⟩, ⟨%ftb, %gqq, %hftb, Hf14⟩, ⟨%gqp, Hq1⟩, Hm15⟩, %W', %hW', HO⟩
    have hacc' : acc = (BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩) - 1), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩) - 1), 0#32) := by
      rw [hacc]; simp only [wordsAt, if_neg (by omega : ¬ (nT (coordsV ⟨((K (F := F)).core 0 c).val, hc.1⟩ ⟨((K (F := F)).sub 0 i).val, hc.2⟩) + 1 < nT (coordsV ⟨((K (F := F)).core 0 c).val, hc.1⟩ ⟨((K (F := F)).sub 0 i).val, hc.2⟩))), if_neg (lt_irrefl _)]
    subst hacc'
    have hw11 := chk11_nat (coordsV ⟨((K (F := F)).core 0 c).val, hc.1⟩ ⟨((K (F := F)).sub 0 i).val, hc.2⟩) (nT (coordsV ⟨((K (F := F)).core 0 c).val, hc.1⟩ ⟨((K (F := F)).sub 0 i).val, hc.2⟩) - 1) (by omega)
    have hw13 := chk13_nat (coordsV ⟨((K (F := F)).core 0 c).val, hc.1⟩ ⟨((K (F := F)).sub 0 i).val, hc.2⟩) (nT (coordsV ⟨((K (F := F)).core 0 c).val, hc.1⟩ ⟨((K (F := F)).sub 0 i).val, hc.2⟩) - 1) (by omega)
    have hw12 := chk12_ok (coordsV ⟨((K (F := F)).core 0 c).val, hc.1⟩ ⟨((K (F := F)).sub 0 i).val, hc.2⟩)
    have hc32 := cond32_eq (coordsV ⟨((K (F := F)).core 0 c).val, hc.1⟩ ⟨((K (F := F)).sub 0 i).val, hc.2⟩)
    have hc33 := cond33_eq (coordsV ⟨((K (F := F)).core 0 c).val, hc.1⟩ ⟨((K (F := F)).sub 0 i).val, hc.2⟩)
    have hpm : (nT (coordsV ⟨((K (F := F)).core 0 c).val, hc.1⟩ ⟨((K (F := F)).sub 0 i).val, hc.2⟩) - 1) % 2 = 0 := by omega
    have hr : (BitVec.ofNat 32 (nT (coordsV ⟨((K (F := F)).core 0 c).val, hc.1⟩ ⟨((K (F := F)).sub 0 i).val, hc.2⟩) - 1)).toNat % 2 = 0 := by rw [toNat_ofNat_mod2]; exact hpm
    sl_exec
    sl_for0 (trips2_eq (coordsV ⟨((K (F := F)).core 0 c).val, hc.1⟩ ⟨((K (F := F)).sub 0 i).val, hc.2⟩))
    sl_exec
    sl_step
    ihave Hs' := (rest_join_s cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1)) (blk_lt _ _ hnm) (rowsBlk_sub _ _ hnm) (blk0 (taskOf (coordsV ⟨((K (F := F)).core 0 c).val, hc.1⟩ ⟨((K (F := F)).sub 0 i).val, hc.2⟩)))) $$ [Hs Hf12_dst]
    · isplitl [Hs]
      · iexists _; isplitr
        rotate_left
        · iexact Hs
        · ipureintro; exact hGs
      iexists _; isplitr
      rotate_left
      · iexact Hf12_dst
      · ipureintro; exact hfsb
    icases Hs' with ⟨%fs', %hGs0, Hs⟩
    ihave Ht' := (rest_join_t cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1)) (blk_lt _ _ hnm) (rowsBlk_sub _ _ hnm) (blk0 (taskOf (coordsV ⟨((K (F := F)).core 0 c).val, hc.1⟩ ⟨((K (F := F)).sub 0 i).val, hc.2⟩)))) $$ [Ht Hf14_dst]
    · isplitl [Ht]
      · iexists _; isplitr
        rotate_left
        · iexact Ht
        · ipureintro; exact hGt
      iexists _; isplitr
      rotate_left
      · iexact Hf14_dst
      · ipureintro; exact hftb
    icases Ht' with ⟨%ft', %hGt0, Ht⟩
    have h1n : 1 ≤ nBlk (taskOf (coordsV ⟨((K (F := F)).core 0 c).val, hc.1⟩ ⟨((K (F := F)).sub 0 i).val, hc.2⟩)) := Nat.le_trans (by decide) hn78
    have eN : bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1) + 1 = blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩)) := by
      show blk0 (taskOf (coordsV ⟨((K (F := F)).core 0 c).val, hc.1⟩ ⟨((K (F := F)).sub 0 i).val, hc.2⟩)) + (nBlk (taskOf (coordsV ⟨((K (F := F)).core 0 c).val, hc.1⟩ ⟨((K (F := F)).sub 0 i).val, hc.2⟩)) - 1) + 1 = blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩)); omega
    have hGsN : GathSBelow cu csrc d fs' (blk0 (taskOf (coordsV ⟨((K (F := F)).core 0 c).val, hc.1⟩ ⟨((K (F := F)).sub 0 i).val, hc.2⟩))) (blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩))) := by rw [← eN]; exact hGs0
    have hGtN : GathTBelow cv cdst d ft' (blk0 (taskOf (coordsV ⟨((K (F := F)).core 0 c).val, hc.1⟩ ⟨((K (F := F)).sub 0 i).val, hc.2⟩))) (blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩))) := by rw [← eN]; exact hGt0
    ihave Hfin := (reassembleV cu cv csrc cdst d ((K (F := F)).core 0 c) ((K (F := F)).sub 0 i) (taskOf (coordsV ⟨((K (F := F)).core 0 c).val, hc.1⟩ ⟨((K (F := F)).sub 0 i).val, hc.2⟩)) hF) $$ [Hu Hv Hm6 Hm7 Hsrc Hdst Hi0 Hi1 Hj0 Hj1 Hm8 Hm9 Hm10 Hm11 Hs Ht Hr1 Hf12_src Hq1 Hf14_src Hm13 Hf12 Hm15 Hf14 Hbufs Hsems]
    · unfold fetchRest outRestV
      isplitl [Hu]; · iexact Hu
      isplitl [Hv]; · iexact Hv
      isplitl [Hm6]; · iexact Hm6
      isplitl [Hm7]; · iexact Hm7
      isplitl [Hsrc Hdst Hi0 Hi1 Hj0 Hj1 Hm8 Hm9 Hm10 Hm11]
      · isplitl [Hsrc]; · iexact Hsrc
        isplitl [Hdst]; · iexact Hdst
        isplitl [Hi0]; · iexists _; iexact Hi0
        isplitl [Hi1]; · iexists _; iexact Hi1
        isplitl [Hj0]; · iexists _; iexact Hj0
        isplitl [Hj1]; · iexists _; iexact Hj1
        isplitl [Hm8]; · iexact Hm8
        isplitl [Hm9]; · iexact Hm9
        isplitl [Hm10]; · iexact Hm10
        iexact Hm11
      isplitl [Hs Ht Hr1 Hf12_src Hq1 Hf14_src Hm13 Hf12 Hm15 Hf14]
      · isplitl [Hs]
        · iexists _; isplitr
          rotate_left
          · iexact Hs
          · ipureintro; exact hGsN
        isplitl [Ht]
        · iexists _; isplitr
          rotate_left
          · iexact Ht
          · ipureintro; exact hGtN
        isplitl [Hf12_src]; · iexists _; iexact Hf12_src
        isplitl [Hr1]; · iexists _; iexact Hr1
        isplitl [Hf14_src]; · iexists _; iexact Hf14_src
        isplitl [Hq1]; · iexists _; iexact Hq1
        isplitl [Hf12]; · iexact Hf12
        isplitl [Hm13]; · iexact Hm13
        isplitl [Hf14]; · iexact Hf14
        iexact Hm15
      isplitl [Hbufs]; · iexact Hbufs
      iexact Hsems
    icases Hfin with ⟨HA, HB, HC⟩
    ihave HB := (Entails.of_eq (((K (F := F)).scopedBufs_V hF d ((K (F := F)).core 0 c) ((K (F := F)).sub 0 i)).trans (ownBufs_split (F := F) d ((K (F := F)).core 0 c) ((K (F := F)).sub 0 i)))) $$ HB
    ihave HC := (Entails.of_eq ((SparseCore.Cfg.scopedSems0_V (Val := Elt F) d ((K (F := F)).core 0 c) ((K (F := F)).sub 0 i)).trans (ownSems0_split (F := F) d ((K (F := F)).core 0 c) ((K (F := F)).sub 0 i)))) $$ HC
    isplitl [HA]; · iexact HA
    isplitl [HB]; · iexact HB
    isplitl [HC]; · iexact HC
    iexists _; isplitr
    rotate_left
    · iexact HO
    · ipureintro
      have hW'' : ∀ p ∈ W', p ∈ W ∨ p.2 = none ∨ p.2 = some (0 : Fin 1) := fun p hp => (hW' p hp).imp id Or.inl
      repeat (first | exact hW'' | apply waits_insert3)

end Body

end Cert.Proof.KI

end
-- ==== Proof.ScTileSetupB.lean ====
import proofs.«210884_g88510686036700_cont_sun_m_1211_45_alg».proof.Proof.ScPayB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The task's own storage: its ten DMA semaphores and its four scoped buffers -/

/-- DMA semaphore number `n` of a thread, as a cell. -/
abbrev dcell (thr : Thread nD τ) (n : ℕ) (h : n < sig.nDmaSem) : GSem nD τ sig := (thr, SemLoc.dma (⟨n, h⟩ : DmaSem sig))

omit [FloatOps F] in
theorem dcell_ne (thr : Thread nD τ) {n m : ℕ} {hn : n < sig.nDmaSem} {hm : m < sig.nDmaSem} (h : n ≠ m) : dcell thr n hn ≠ dcell thr m hm :=
  fun e => h (congrArg Fin.val (SemLoc.dma.inj (Prod.mk.inj e).2))

omit [FloatOps F] in
/-- The ten DMA semaphores of the task are among the subcore's own: they are them, all at zero, and the rest. -/
theorem ownSems0_split (d : Dev nD) (c : Fin τ.nSC) (i : Fin τ.nSub) :
    (ownSems0 (V d c i) : sProp 𝕄)
      = iprop(semVal (dcell (V d c i) 6 (by decide)) 0 ∗ semVal (dcell (V d c i) 7 (by decide)) 0 ∗ semVal (dcell (V d c i) 8 (by decide)) 0 ∗ semVal (dcell (V d c i) 9 (by decide)) 0 ∗ semVal (dcell (V d c i) 10 (by decide)) 0 ∗ semVal (dcell (V d c i) 11 (by decide)) 0 ∗ semVal (dcell (V d c i) 12 (by decide)) 0 ∗ semVal (dcell (V d c i) 13 (by decide)) 0 ∗ semVal (dcell (V d c i) 14 (by decide)) 0 ∗ semVal (dcell (V d c i) 15 (by decide)) 0
          ∗ bigSep (((((((((((ownCells (V d c i)).erase (dcell (V d c i) 6 (by decide))).erase (dcell (V d c i) 7 (by decide))).erase (dcell (V d c i) 8 (by decide))).erase (dcell (V d c i) 9 (by decide))).erase (dcell (V d c i) 10 (by decide))).erase (dcell (V d c i) 11 (by decide))).erase (dcell (V d c i) 12 (by decide))).erase (dcell (V d c i) 13 (by decide))).erase (dcell (V d c i) 14 (by decide))).erase (dcell (V d c i) 15 (by decide))) fun g => semVal g 0) := by
  unfold SparseCore.Cfg.ownSems0
  rw [SparseCore.bigSep_erase' ((mem_ownCells (g := (dcell (V d c i) 6 (by decide)))).mpr ⟨rfl, by show (SemLoc.dma (⟨6, by decide⟩ : DmaSem sig) : SemLoc sig).isScoped .scVector = true; decide⟩),
    SparseCore.bigSep_erase' (Finset.mem_erase.mpr ⟨dcell_ne (V d c i) (by decide), (mem_ownCells (g := (dcell (V d c i) 7 (by decide)))).mpr ⟨rfl, by show (SemLoc.dma (⟨7, by decide⟩ : DmaSem sig) : SemLoc sig).isScoped .scVector = true; decide⟩⟩),
    SparseCore.bigSep_erase' (Finset.mem_erase.mpr ⟨dcell_ne (V d c i) (by decide), Finset.mem_erase.mpr ⟨dcell_ne (V d c i) (by decide), (mem_ownCells (g := (dcell (V d c i) 8 (by decide)))).mpr ⟨rfl, by show (SemLoc.dma (⟨8, by decide⟩ : DmaSem sig) : SemLoc sig).isScoped .scVector = true; decide⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), (mem_ownCells (g := (dcell (V d c i) 9 (by decide)))).mpr ⟨rfl, by show (SemLoc.dma (⟨9, by decide⟩ : DmaSem sig) : SemLoc sig).isScoped .scVector = true; decide⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 10 (by decide)))).mpr ⟨rfl, by show (SemLoc.dma (⟨10, by decide⟩ : DmaSem sig) : SemLoc sig).isScoped .scVector = true; decide⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 11 (by decide)))).mpr ⟨rfl, by show (SemLoc.dma (⟨11, by decide⟩ : DmaSem sig) : SemLoc sig).isScoped .scVector = true; decide⟩⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 12 (by decide)))).mpr ⟨rfl, by show (SemLoc.dma (⟨12, by decide⟩ : DmaSem sig) : SemLoc sig).isScoped .scVector = true; decide⟩⟩⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 13 (by decide)))).mpr ⟨rfl, by show (SemLoc.dma (⟨13, by decide⟩ : DmaSem sig) : SemLoc sig).isScoped .scVector = true; decide⟩⟩⟩⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 14 (by decide)))).mpr ⟨rfl, by show (SemLoc.dma (⟨14, by decide⟩ : DmaSem sig) : SemLoc sig).isScoped .scVector = true; decide⟩⟩⟩⟩⟩⟩⟩⟩⟩),
    SparseCore.bigSep_erase' (Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), Finset.mem_erase.mpr ⟨dcell_ne (V d c i) (by decide), (mem_ownCells (g := (dcell (V d c i) 15 (by decide)))).mpr ⟨rfl, by show (SemLoc.dma (⟨15, by decide⟩ : DmaSem sig) : SemLoc sig).isScoped .scVector = true; decide⟩⟩⟩⟩⟩⟩⟩⟩⟩⟩)]

omit [FloatOps F] in
/-- The four scoped buffers are among the subcore's own: they are them, at some contents, and the rest. -/
theorem ownBufs_split (d : Dev nD) (c : Fin τ.nSC) (i : Fin τ.nSub) :
    (ownBufs (V d c i) : sProp 𝕄)
      = iprop((∃ f, (V d c i).loc cc1_scoped0 ↦{fullShare} f) ∗ (∃ f, (V d c i).loc cc1_scoped2 ↦{fullShare} f) ∗ (∃ f, (V d c i).loc cc1_scoped4 ↦{fullShare} f) ∗ (∃ f, (V d c i).loc cc1_scoped6 ↦{fullShare} f)
          ∗ bigSep (((((ownRefs (τ := τ) (.scVector c i)).erase ((Proc.scVector c i).devRef cc1_scoped0)).erase ((Proc.scVector c i).devRef cc1_scoped2)).erase ((Proc.scVector c i).devRef cc1_scoped4)).erase ((Proc.scVector c i).devRef cc1_scoped6))
              fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc1_scoped0)) rfl)).trans ?_
  rw [SparseCore.bigSep_erase' (Finset.mem_erase.mpr ⟨fun e => absurd (Proc.devRef_injective _ e) (show (cc1_scoped2 : Ref sig .scVector) ≠ cc1_scoped0 by decide), SparseCore.Cfg.mem_ownRefs_of_owner (p := Proc.scVector c i) (b := ((Proc.scVector c i).devRef cc1_scoped2)) rfl⟩),
    SparseCore.bigSep_erase' (Finset.mem_erase.mpr ⟨fun e => absurd (Proc.devRef_injective _ e) (show (cc1_scoped4 : Ref sig .scVector) ≠ cc1_scoped2 by decide), Finset.mem_erase.mpr ⟨fun e => absurd (Proc.devRef_injective _ e) (show (cc1_scoped4 : Ref sig .scVector) ≠ cc1_scoped0 by decide), SparseCore.Cfg.mem_ownRefs_of_owner (p := Proc.scVector c i) (b := ((Proc.scVector c i).devRef cc1_scoped4)) rfl⟩⟩),
    SparseCore.bigSep_erase' (Finset.mem_erase.mpr ⟨fun e => absurd (Proc.devRef_injective _ e) (show (cc1_scoped6 : Ref sig .scVector) ≠ cc1_scoped4 by decide), Finset.mem_erase.mpr ⟨fun e => absurd (Proc.devRef_injective _ e) (show (cc1_scoped6 : Ref sig .scVector) ≠ cc1_scoped2 by decide), Finset.mem_erase.mpr ⟨fun e => absurd (Proc.devRef_injective _ e) (show (cc1_scoped6 : Ref sig .scVector) ≠ cc1_scoped0 by decide), SparseCore.Cfg.mem_ownRefs_of_owner (p := Proc.scVector c i) (b := ((Proc.scVector c i).devRef cc1_scoped6)) rfl⟩⟩⟩)]

end Cert.Proof.KB

end
-- ==== Proof.ScTileArithB.lean ====
import proofs.«210884_g88510686036700_cont_sun_m_1211_45_alg».proof.Proof.ScTileStB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The task at a subcore's grid coordinates: its number, its blocks -/

/-- The task number of the subcore at grid coordinates `L`. -/
def taskOf (L : grid1.Coords) : Fin 32 :=
  ⟨(L 1).val + 16 * (L 0).val, by
    have h0 : (L 0).val < 2 := (L 0).isLt
    have h1 : (L 1).val < 16 := (L 1).isLt
    omega⟩

/-- How many blocks the task at `L` moves, and its first block. -/
abbrev nT (L : grid1.Coords) : ℕ := nBlk (taskOf L)
abbrev bT (L : grid1.Coords) : ℕ := blk0 (taskOf L)

theorem nT_le (L : grid1.Coords) : nT L ≤ 79 := by unfold nT nBlk; split <;> omega
theorem nT_ge (L : grid1.Coords) : 78 ≤ nT L := by unfold nT nBlk; split <;> omega
theorem bT_add (L : grid1.Coords) : bT L + nT L ≤ 2500 := blk_le _

/-- Every task has at least one block: the kernel's outer condition holds at every subcore. -/
theorem k1_h1_all : ∀ L : grid1.Coords, k1_cond1 L = 1#1 := by decide +kernel

/-- The loop runs once per block. -/
theorem trips_eq : ∀ L : grid1.Coords, (k1_t1_loop L).trips = nT L := by decide +kernel

/-! ## The kernel's block offsets and branch conditions at trip `j`, decided over all tasks and trips -/

theorem off2_eq' : ∀ L : grid1.Coords, ∀ j : Fin 79, k1_off2 L = ![0, 128 * bT L] := by decide +kernel

theorem off5_eq' : ∀ L : grid1.Coords, ∀ j : Fin 79, j.val + 1 < nT L → k1_off5 L (BitVec.ofNat 32 j.val) = ![0, 128 * (bT L + (j.val + 1))] := by decide +kernel

theorem off8_eq' : ∀ L : grid1.Coords, ∀ j : Fin 79, j.val + 1 < nT L → k1_off8 L (BitVec.ofNat 32 j.val) = ![0, 128 * (bT L + (j.val + 1))] := by decide +kernel

theorem off11_eq' : ∀ L : grid1.Coords, ∀ j : Fin 79, j.val < nT L → k1_off11 L (BitVec.ofNat 32 j.val) = ![0, 128 * (bT L + j.val)] := by decide +kernel

theorem off14_eq' : ∀ L : grid1.Coords, ∀ j : Fin 79, j.val < nT L → k1_off14 L (BitVec.ofNat 32 j.val) = ![0, 128 * (bT L + j.val)] := by decide +kernel

theorem off23_eq' : ∀ L : grid1.Coords, ∀ j : Fin 79, j.val < nT L → k1_off23 L (BitVec.ofNat 32 j.val) = ![128 * (bT L + j.val), 0] := by decide +kernel

theorem off26_eq' : ∀ L : grid1.Coords, ∀ j : Fin 79, j.val < nT L → k1_off26 L (BitVec.ofNat 32 j.val) = ![128 * (bT L + j.val), 0] := by decide +kernel

theorem off29_eq' : ∀ L : grid1.Coords, ∀ j : Fin 79, j.val + 1 < nT L → k1_off29 L (BitVec.ofNat 32 (j.val + 1)) = ![128 * (bT L + j.val), 0] := by decide +kernel

theorem off32_eq' : ∀ L : grid1.Coords, ∀ j : Fin 79, j.val + 1 < nT L → k1_off32 L (BitVec.ofNat 32 (j.val + 1)) = ![128 * (bT L + j.val), 0] := by decide +kernel

theorem off65_eq' : ∀ L : grid1.Coords, k1_off65 L 0#32 = ![128 * (bT L + (nT L - 1)), 0] := by decide +kernel
theorem off69_eq' : ∀ L : grid1.Coords, k1_off69 L 0#32 = ![128 * (bT L + (nT L - 1)), 0] := by decide +kernel
theorem cond32_eq : ∀ L : grid1.Coords, k1_cond32 L = 1#1 := by decide +kernel
theorem cond33_eq : ∀ L : grid1.Coords, k1_cond33 L = 1#1 := by decide +kernel
theorem cond2_eq : ∀ L : grid1.Coords, ∀ k : Fin (k1_t1_loop L).trips, k1_cond2 L k (BitVec.ofNat 32 k.val) = if k.val + 1 < nT L then 1#1 else 0#1 := by decide +kernel
theorem cond3_eq : ∀ L : grid1.Coords, ∀ k : Fin (k1_t1_loop L).trips, k1_cond3 L k (BitVec.ofNat 32 k.val) = if k.val + 1 < nT L then 1#1 else 0#1 := by decide +kernel
theorem cond4_eq : ∀ L : grid1.Coords, ∀ k : Fin (k1_t1_loop L).trips, k1_cond4 L k (BitVec.ofNat 32 k.val) = 1#1 := by decide +kernel
theorem cond5_eq : ∀ L : grid1.Coords, ∀ k : Fin (k1_t1_loop L).trips, k1_cond5 L k (BitVec.ofNat 32 k.val) = 1#1 := by decide +kernel
theorem cond10_eq : ∀ L : grid1.Coords, ∀ k : Fin (k1_t1_loop L).trips, k1_cond10 L k (BitVec.ofNat 32 k.val) = 1#1 := by decide +kernel
theorem cond11_eq : ∀ L : grid1.Coords, ∀ k : Fin (k1_t1_loop L).trips, k1_cond11 L k (BitVec.ofNat 32 k.val) = 1#1 := by decide +kernel
theorem cond14_eq : ∀ L : grid1.Coords, ∀ k : Fin (k1_t1_loop L).trips, k1_cond14 L k (BitVec.ofNat 32 k.val) = if k.val = 0 then 0#1 else 1#1 := by decide +kernel
theorem cond15_eq : ∀ L : grid1.Coords, ∀ k : Fin (k1_t1_loop L).trips, k1_cond15 L k (BitVec.ofNat 32 k.val) = if k.val = 0 then 0#1 else 1#1 := by decide +kernel

/-- The second loop has no trip. -/
theorem trips2_eq : ∀ L : grid1.Coords, (k1_t2_loop L).trips = 0 := by decide +kernel

/-! ## The slot a counter names: its parity -/

theorem toNat_ofNat_mod2 (x : ℕ) : (BitVec.ofNat 32 x).toNat % 2 = x % 2 := by
  rw [BitVec.toNat_ofNat]; omega

theorem remui2 (w : BitVec 32) : (Scalar.remui w 2#32).toNat = w.toNat % 2 := by
  have h : Scalar.remui w 2#32 = w % 2#32 := by unfold Scalar.remui IntOp.remui; exact if_neg (by decide)
  rw [h, BitVec.toNat_umod]; rfl
theorem off4_nat (x : ℕ) : k1_off4 (BitVec.ofNat 32 x) = ![x % 2, 0, 0] := by
  unfold k1_off4; simp only [remui2, toNat_ofNat_mod2]
theorem off7_nat (x : ℕ) : k1_off7 (BitVec.ofNat 32 x) = ![x % 2, 0, 0] := by
  unfold k1_off7; simp only [remui2, toNat_ofNat_mod2]
theorem off10_nat (x : ℕ) : k1_off10 (BitVec.ofNat 32 x) = ![x % 2, 0, 0] := by
  unfold k1_off10; simp only [remui2, toNat_ofNat_mod2]
theorem off13_nat (x : ℕ) : k1_off13 (BitVec.ofNat 32 x) = ![x % 2, 0, 0] := by
  unfold k1_off13; simp only [remui2, toNat_ofNat_mod2]
theorem off16_nat (x : ℕ) : k1_off16 (BitVec.ofNat 32 x) = ![x % 2, 0, 0] := by
  unfold k1_off16; simp only [remui2, toNat_ofNat_mod2]
theorem off17_nat (x : ℕ) : k1_off17 (BitVec.ofNat 32 x) = ![x % 2, 0, 0] := by
  unfold k1_off17; simp only [remui2, toNat_ofNat_mod2]
theorem off18_nat (x : ℕ) : k1_off18 (BitVec.ofNat 32 x) = ![x % 2, 0, 0] := by
  unfold k1_off18; simp only [remui2, toNat_ofNat_mod2]
theorem off19_nat (x : ℕ) : k1_off19 (BitVec.ofNat 32 x) = ![x % 2, 0, 0] := by
  unfold k1_off19; simp only [remui2, toNat_ofNat_mod2]
theorem off20_nat (x : ℕ) : k1_off20 (BitVec.ofNat 32 x) = ![x % 2, 0, 0] := by
  unfold k1_off20; simp only [remui2, toNat_ofNat_mod2]
theorem off21_nat (x : ℕ) : k1_off21 (BitVec.ofNat 32 x) = ![x % 2, 0, 0] := by
  unfold k1_off21; simp only [remui2, toNat_ofNat_mod2]
theorem off22_nat (x : ℕ) : k1_off22 (BitVec.ofNat 32 x) = ![x % 2, 0, 0] := by
  unfold k1_off22; simp only [remui2, toNat_ofNat_mod2]
theorem off25_nat (x : ℕ) : k1_off25 (BitVec.ofNat 32 x) = ![x % 2, 0, 0] := by
  unfold k1_off25; simp only [remui2, toNat_ofNat_mod2]
theorem off28_nat (x : ℕ) : k1_off28 (BitVec.ofNat 32 x) = ![x % 2, 0, 0] := by
  unfold k1_off28; simp only [remui2, toNat_ofNat_mod2]
theorem off31_nat (x : ℕ) : k1_off31 (BitVec.ofNat 32 x) = ![x % 2, 0, 0] := by
  unfold k1_off31; simp only [remui2, toNat_ofNat_mod2]
theorem off64_nat (x : ℕ) : k1_off64 (BitVec.ofNat 32 x) = ![x % 2, 0, 0] := by
  unfold k1_off64; simp only [remui2, toNat_ofNat_mod2]
theorem off67_nat (x : ℕ) : k1_off67 (BitVec.ofNat 32 x) = ![x % 2, 0, 0] := by
  unfold k1_off67; simp only [remui2, toNat_ofNat_mod2]
theorem off68_nat (x : ℕ) : k1_off68 (BitVec.ofNat 32 x) = ![x % 2, 0, 0] := by
  unfold k1_off68; simp only [remui2, toNat_ofNat_mod2]
theorem off6_nat (x : ℕ) : k1_off6 (BitVec.ofNat 32 x) = ![x % 2] := by
  unfold k1_off6; simp only [remui2, toNat_ofNat_mod2]
theorem off9_nat (x : ℕ) : k1_off9 (BitVec.ofNat 32 x) = ![x % 2] := by
  unfold k1_off9; simp only [remui2, toNat_ofNat_mod2]
theorem off12_nat (x : ℕ) : k1_off12 (BitVec.ofNat 32 x) = ![x % 2] := by
  unfold k1_off12; simp only [remui2, toNat_ofNat_mod2]
theorem off15_nat (x : ℕ) : k1_off15 (BitVec.ofNat 32 x) = ![x % 2] := by
  unfold k1_off15; simp only [remui2, toNat_ofNat_mod2]
theorem off24_nat (x : ℕ) : k1_off24 (BitVec.ofNat 32 x) = ![x % 2] := by
  unfold k1_off24; simp only [remui2, toNat_ofNat_mod2]
theorem off27_nat (x : ℕ) : k1_off27 (BitVec.ofNat 32 x) = ![x % 2] := by
  unfold k1_off27; simp only [remui2, toNat_ofNat_mod2]
theorem off30_nat (x : ℕ) : k1_off30 (BitVec.ofNat 32 x) = ![x % 2] := by
  unfold k1_off30; simp only [remui2, toNat_ofNat_mod2]
theorem off33_nat (x : ℕ) : k1_off33 (BitVec.ofNat 32 x) = ![x % 2] := by
  unfold k1_off33; simp only [remui2, toNat_ofNat_mod2]
theorem off66_nat (x : ℕ) : k1_off66 (BitVec.ofNat 32 x) = ![x % 2] := by
  unfold k1_off66; simp only [remui2, toNat_ofNat_mod2]
theorem off70_nat (x : ℕ) : k1_off70 (BitVec.ofNat 32 x) = ![x % 2] := by
  unfold k1_off70; simp only [remui2, toNat_ofNat_mod2]

end Cert.Proof.KB

end
-- ==== Proof.ScTileNamesB.lean ====
import Idealize.ShloMosaic.Lib.Ring
import proofs.«210884_g88510686036700_cont_sun_m_1211_45_alg».proof.Proof.ScTileSetupB
import proofs.«210884_g88510686036700_cont_sun_m_1211_45_alg».proof.Proof.ScTileArithB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)
local notation "b0W" => (Memref.whole Cert.Kernel.cc1_scoped0 : Memref Cert.Kernel.sig Kind.scVector Space.vmem Cert.Kernel.S2x1x128 EltTy.i32)
local notation "b2W" => (Memref.whole Cert.Kernel.cc1_scoped2 : Memref Cert.Kernel.sig Kind.scVector Space.vmem Cert.Kernel.S2x1x128 EltTy.i32)
local notation "b4W" => (Memref.whole Cert.Kernel.cc1_scoped4 : Memref Cert.Kernel.sig Kind.scVector Space.vmem Cert.Kernel.S2x128x128 EltTy.f32)
local notation "b6W" => (Memref.whole Cert.Kernel.cc1_scoped6 : Memref Cert.Kernel.sig Kind.scVector Space.vmem Cert.Kernel.S2x128x128 EltTy.f32)

/-! ## The slots of the four scoped buffers -/

theorem inb_i0 : ∀ a, (![0, 0, 0] : Fin 3 → ℕ) a + S1x1x128.size a ≤ S2x1x128.size a := by decide
theorem inb_i1 : ∀ a, (![1, 0, 0] : Fin 3 → ℕ) a + S1x1x128.size a ≤ S2x1x128.size a := by decide
theorem inb_r0 : ∀ a, (![0, 0, 0] : Fin 3 → ℕ) a + S1x128x128.size a ≤ S2x128x128.size a := by decide
theorem inb_r1 : ∀ a, (![1, 0, 0] : Fin 3 → ℕ) a + S1x128x128.size a ≤ S2x128x128.size a := by decide
theorem inb_m0 : ∀ a, (![0] : Fin 1 → ℕ) a + S1.size a ≤ S2.size a := by decide
theorem inb_m1 : ∀ a, (![1] : Fin 1 → ℕ) a + S1.size a ≤ S2.size a := by decide
/-- Slot 0 of the buffer, as the kernel slices it, and squeezed. -/
def iC0 : Memref sig .scVector .vmem S1x1x128 .i32 := (b0W).slice (Rect.unit ![0, 0, 0] S1x1x128.size inb_i0) (fun _ => rfl)
def iS0 : Memref sig .scVector .vmem S1x128 .i32 := iC0.squeeze S1x128 squeezes_S1x1x128_S1x128
/-- Slot 1 of the buffer, as the kernel slices it, and squeezed. -/
def iC1 : Memref sig .scVector .vmem S1x1x128 .i32 := (b0W).slice (Rect.unit ![1, 0, 0] S1x1x128.size inb_i1) (fun _ => rfl)
def iS1 : Memref sig .scVector .vmem S1x128 .i32 := iC1.squeeze S1x128 squeezes_S1x1x128_S1x128
/-- Slot 0 of the buffer, as the kernel slices it, and squeezed. -/
def jC0 : Memref sig .scVector .vmem S1x1x128 .i32 := (b2W).slice (Rect.unit ![0, 0, 0] S1x1x128.size inb_i0) (fun _ => rfl)
def jS0 : Memref sig .scVector .vmem S1x128 .i32 := jC0.squeeze S1x128 squeezes_S1x1x128_S1x128
/-- Slot 1 of the buffer, as the kernel slices it, and squeezed. -/
def jC1 : Memref sig .scVector .vmem S1x1x128 .i32 := (b2W).slice (Rect.unit ![1, 0, 0] S1x1x128.size inb_i1) (fun _ => rfl)
def jS1 : Memref sig .scVector .vmem S1x128 .i32 := jC1.squeeze S1x128 squeezes_S1x1x128_S1x128
/-- Slot 0 of the buffer, as the kernel slices it, and squeezed. -/
def rC0 : Memref sig .scVector .vmem S1x128x128 .f32 := (b4W).slice (Rect.unit ![0, 0, 0] S1x128x128.size inb_r0) (fun _ => rfl)
def rS0 : Memref sig .scVector .vmem S128x128 .f32 := rC0.squeeze S128x128 squeezes_S1x128x128_S128x128
/-- Slot 1 of the buffer, as the kernel slices it, and squeezed. -/
def rC1 : Memref sig .scVector .vmem S1x128x128 .f32 := (b4W).slice (Rect.unit ![1, 0, 0] S1x128x128.size inb_r1) (fun _ => rfl)
def rS1 : Memref sig .scVector .vmem S128x128 .f32 := rC1.squeeze S128x128 squeezes_S1x128x128_S128x128
/-- Slot 0 of the buffer, as the kernel slices it, and squeezed. -/
def qC0 : Memref sig .scVector .vmem S1x128x128 .f32 := (b6W).slice (Rect.unit ![0, 0, 0] S1x128x128.size inb_r0) (fun _ => rfl)
def qS0 : Memref sig .scVector .vmem S128x128 .f32 := qC0.squeeze S128x128 squeezes_S1x128x128_S128x128
/-- Slot 1 of the buffer, as the kernel slices it, and squeezed. -/
def qC1 : Memref sig .scVector .vmem S1x128x128 .f32 := (b6W).slice (Rect.unit ![1, 0, 0] S1x128x128.size inb_r1) (fun _ => rfl)
def qS1 : Memref sig .scVector .vmem S128x128 .f32 := qC1.squeeze S128x128 squeezes_S1x128x128_S128x128

/-! ## The blocks of the index rows and of the gathered arrays -/

theorem inb_row (x : ℕ) (hx : x < 2500) : ∀ a, (![0, 128 * x] : Fin 2 → ℕ) a + S1x128.size a ≤ S1x320000.size a := by
  intro a; fin_cases a
  · show 0 + 1 ≤ 1; omega
  · show 128 * x + 128 ≤ 320000; omega
theorem inb_blk (x : ℕ) (hx : x < 2500) : ∀ a, (![128 * x, 0] : Fin 2 → ℕ) a + S128x128.size a ≤ S320000x128.size a := by
  intro a; fin_cases a
  · show 128 * x + 128 ≤ 320000; omega
  · show 0 + 128 ≤ 128; omega

/-- Block `x` (128 entries) of an index row; block `x` (128 rows) of a gathered array. -/
def srcB (x : ℕ) (hx : x < 2500) : Memref sig .scVector .hbm S1x128 .i32 := (srcW).slice (Rect.unit ![0, 128 * x] S1x128.size (inb_row x hx)) (fun _ => rfl)
def dstB (x : ℕ) (hx : x < 2500) : Memref sig .scVector .hbm S1x128 .i32 := (dstW).slice (Rect.unit ![0, 128 * x] S1x128.size (inb_row x hx)) (fun _ => rfl)
def sB (x : ℕ) (hx : x < 2500) : Memref sig .scVector .hbm S128x128 .f32 := (sW).slice (Rect.unit ![128 * x, 0] S128x128.size (inb_blk x hx)) (fun _ => rfl)
def tB (x : ℕ) (hx : x < 2500) : Memref sig .scVector .hbm S128x128 .f32 := (tW).slice (Rect.unit ![128 * x, 0] S128x128.size (inb_blk x hx)) (fun _ => rfl)

theorem blk_lt (L : grid1.Coords) (j : ℕ) (hj : j < nT L) : bT L + j < 2500 := by have := bT_add L; omega

/-! ## The kernel's slices under these names -/
@[sl_canon] theorem canon_off4_0 (x : ℕ) (hx : x % 2 = 0) (h : ∀ a, k1_off4 (BitVec.ofNat 32 x) a + S1x1x128.size a ≤ S2x1x128.size a) (hs) :
    (b0W).slice (Rect.unit (k1_off4 (BitVec.ofNat 32 x)) S1x1x128.size h) hs = iC0 :=
  Memref.slice_unit_congr _ (by rw [off4_nat, hx]) _ _ _ (fun _ => rfl)
@[sl_canon] theorem canon_off4_1 (x : ℕ) (hx : x % 2 = 1) (h : ∀ a, k1_off4 (BitVec.ofNat 32 x) a + S1x1x128.size a ≤ S2x1x128.size a) (hs) :
    (b0W).slice (Rect.unit (k1_off4 (BitVec.ofNat 32 x)) S1x1x128.size h) hs = iC1 :=
  Memref.slice_unit_congr _ (by rw [off4_nat, hx]) _ _ _ (fun _ => rfl)
@[sl_canon] theorem canon_off7_0 (x : ℕ) (hx : x % 2 = 0) (h : ∀ a, k1_off7 (BitVec.ofNat 32 x) a + S1x1x128.size a ≤ S2x1x128.size a) (hs) :
    (b2W).slice (Rect.unit (k1_off7 (BitVec.ofNat 32 x)) S1x1x128.size h) hs = jC0 :=
  Memref.slice_unit_congr _ (by rw [off7_nat, hx]) _ _ _ (fun _ => rfl)
@[sl_canon] theorem canon_off7_1 (x : ℕ) (hx : x % 2 = 1) (h : ∀ a, k1_off7 (BitVec.ofNat 32 x) a + S1x1x128.size a ≤ S2x1x128.size a) (hs) :
    (b2W).slice (Rect.unit (k1_off7 (BitVec.ofNat 32 x)) S1x1x128.size h) hs = jC1 :=
  Memref.slice_unit_congr _ (by rw [off7_nat, hx]) _ _ _ (fun _ => rfl)
@[sl_canon] theorem canon_off10_0 (x : ℕ) (hx : x % 2 = 0) (h : ∀ a, k1_off10 (BitVec.ofNat 32 x) a + S1x1x128.size a ≤ S2x1x128.size a) (hs) :
    (b0W).slice (Rect.unit (k1_off10 (BitVec.ofNat 32 x)) S1x1x128.size h) hs = iC0 :=
  Memref.slice_unit_congr _ (by rw [off10_nat, hx]) _ _ _ (fun _ => rfl)
@[sl_canon] theorem canon_off10_1 (x : ℕ) (hx : x % 2 = 1) (h : ∀ a, k1_off10 (BitVec.ofNat 32 x) a + S1x1x128.size a ≤ S2x1x128.size a) (hs) :
    (b0W).slice (Rect.unit (k1_off10 (BitVec.ofNat 32 x)) S1x1x128.size h) hs = iC1 :=
  Memref.slice_unit_congr _ (by rw [off10_nat, hx]) _ _ _ (fun _ => rfl)
@[sl_canon] theorem canon_off13_0 (x : ℕ) (hx : x % 2 = 0) (h : ∀ a, k1_off13 (BitVec.ofNat 32 x) a + S1x1x128.size a ≤ S2x1x128.size a) (hs) :
    (b2W).slice (Rect.unit (k1_off13 (BitVec.ofNat 32 x)) S1x1x128.size h) hs = jC0 :=
  Memref.slice_unit_congr _ (by rw [off13_nat, hx]) _ _ _ (fun _ => rfl)
@[sl_canon] theorem canon_off13_1 (x : ℕ) (hx : x % 2 = 1) (h : ∀ a, k1_off13 (BitVec.ofNat 32 x) a + S1x1x128.size a ≤ S2x1x128.size a) (hs) :
    (b2W).slice (Rect.unit (k1_off13 (BitVec.ofNat 32 x)) S1x1x128.size h) hs = jC1 :=
  Memref.slice_unit_congr _ (by rw [off13_nat, hx]) _ _ _ (fun _ => rfl)
@[sl_canon] theorem canon_off16_0 (x : ℕ) (hx : x % 2 = 0) (h : ∀ a, k1_off16 (BitVec.ofNat 32 x) a + S1x128x128.size a ≤ S2x128x128.size a) (hs) :
    (b4W).slice (Rect.unit (k1_off16 (BitVec.ofNat 32 x)) S1x128x128.size h) hs = rC0 :=
  Memref.slice_unit_congr _ (by rw [off16_nat, hx]) _ _ _ (fun _ => rfl)
@[sl_canon] theorem canon_off16_1 (x : ℕ) (hx : x % 2 = 1) (h : ∀ a, k1_off16 (BitVec.ofNat 32 x) a + S1x128x128.size a ≤ S2x128x128.size a) (hs) :
    (b4W).slice (Rect.unit (k1_off16 (BitVec.ofNat 32 x)) S1x128x128.size h) hs = rC1 :=
  Memref.slice_unit_congr _ (by rw [off16_nat, hx]) _ _ _ (fun _ => rfl)
@[sl_canon] theorem canon_off17_0 (x : ℕ) (hx : x % 2 = 0) (h : ∀ a, k1_off17 (BitVec.ofNat 32 x) a + S1x1x128.size a ≤ S2x1x128.size a) (hs) :
    (b0W).slice (Rect.unit (k1_off17 (BitVec.ofNat 32 x)) S1x1x128.size h) hs = iC0 :=
  Memref.slice_unit_congr _ (by rw [off17_nat, hx]) _ _ _ (fun _ => rfl)
@[sl_canon] theorem canon_off17_1 (x : ℕ) (hx : x % 2 = 1) (h : ∀ a, k1_off17 (BitVec.ofNat 32 x) a + S1x1x128.size a ≤ S2x1x128.size a) (hs) :
    (b0W).slice (Rect.unit (k1_off17 (BitVec.ofNat 32 x)) S1x1x128.size h) hs = iC1 :=
  Memref.slice_unit_congr _ (by rw [off17_nat, hx]) _ _ _ (fun _ => rfl)
@[sl_canon] theorem canon_off18_0 (x : ℕ) (hx : x % 2 = 0) (h : ∀ a, k1_off18 (BitVec.ofNat 32 x) a + S1x128x128.size a ≤ S2x128x128.size a) (hs) :
    (b6W).slice (Rect.unit (k1_off18 (BitVec.ofNat 32 x)) S1x128x128.size h) hs = qC0 :=
  Memref.slice_unit_congr _ (by rw [off18_nat, hx]) _ _ _ (fun _ => rfl)
@[sl_canon] theorem canon_off18_1 (x : ℕ) (hx : x % 2 = 1) (h : ∀ a, k1_off18 (BitVec.ofNat 32 x) a + S1x128x128.size a ≤ S2x128x128.size a) (hs) :
    (b6W).slice (Rect.unit (k1_off18 (BitVec.ofNat 32 x)) S1x128x128.size h) hs = qC1 :=
  Memref.slice_unit_congr _ (by rw [off18_nat, hx]) _ _ _ (fun _ => rfl)
@[sl_canon] theorem canon_off19_0 (x : ℕ) (hx : x % 2 = 0) (h : ∀ a, k1_off19 (BitVec.ofNat 32 x) a + S1x1x128.size a ≤ S2x1x128.size a) (hs) :
    (b2W).slice (Rect.unit (k1_off19 (BitVec.ofNat 32 x)) S1x1x128.size h) hs = jC0 :=
  Memref.slice_unit_congr _ (by rw [off19_nat, hx]) _ _ _ (fun _ => rfl)
@[sl_canon] theorem canon_off19_1 (x : ℕ) (hx : x % 2 = 1) (h : ∀ a, k1_off19 (BitVec.ofNat 32 x) a + S1x1x128.size a ≤ S2x1x128.size a) (hs) :
    (b2W).slice (Rect.unit (k1_off19 (BitVec.ofNat 32 x)) S1x1x128.size h) hs = jC1 :=
  Memref.slice_unit_congr _ (by rw [off19_nat, hx]) _ _ _ (fun _ => rfl)
@[sl_canon] theorem canon_off20_0 (x : ℕ) (hx : x % 2 = 0) (h : ∀ a, k1_off20 (BitVec.ofNat 32 x) a + S1x128x128.size a ≤ S2x128x128.size a) (hs) :
    (b4W).slice (Rect.unit (k1_off20 (BitVec.ofNat 32 x)) S1x128x128.size h) hs = rC0 :=
  Memref.slice_unit_congr _ (by rw [off20_nat, hx]) _ _ _ (fun _ => rfl)
@[sl_canon] theorem canon_off20_1 (x : ℕ) (hx : x % 2 = 1) (h : ∀ a, k1_off20 (BitVec.ofNat 32 x) a + S1x128x128.size a ≤ S2x128x128.size a) (hs) :
    (b4W).slice (Rect.unit (k1_off20 (BitVec.ofNat 32 x)) S1x128x128.size h) hs = rC1 :=
  Memref.slice_unit_congr _ (by rw [off20_nat, hx]) _ _ _ (fun _ => rfl)
@[sl_canon] theorem canon_off21_0 (x : ℕ) (hx : x % 2 = 0) (h : ∀ a, k1_off21 (BitVec.ofNat 32 x) a + S1x1x128.size a ≤ S2x1x128.size a) (hs) :
    (b0W).slice (Rect.unit (k1_off21 (BitVec.ofNat 32 x)) S1x1x128.size h) hs = iC0 :=
  Memref.slice_unit_congr _ (by rw [off21_nat, hx]) _ _ _ (fun _ => rfl)
@[sl_canon] theorem canon_off21_1 (x : ℕ) (hx : x % 2 = 1) (h : ∀ a, k1_off21 (BitVec.ofNat 32 x) a + S1x1x128.size a ≤ S2x1x128.size a) (hs) :
    (b0W).slice (Rect.unit (k1_off21 (BitVec.ofNat 32 x)) S1x1x128.size h) hs = iC1 :=
  Memref.slice_unit_congr _ (by rw [off21_nat, hx]) _ _ _ (fun _ => rfl)
@[sl_canon] theorem canon_off22_0 (x : ℕ) (hx : x % 2 = 0) (h : ∀ a, k1_off22 (BitVec.ofNat 32 x) a + S1x128x128.size a ≤ S2x128x128.size a) (hs) :
    (b4W).slice (Rect.unit (k1_off22 (BitVec.ofNat 32 x)) S1x128x128.size h) hs = rC0 :=
  Memref.slice_unit_congr _ (by rw [off22_nat, hx]) _ _ _ (fun _ => rfl)
@[sl_canon] theorem canon_off22_1 (x : ℕ) (hx : x % 2 = 1) (h : ∀ a, k1_off22 (BitVec.ofNat 32 x) a + S1x128x128.size a ≤ S2x128x128.size a) (hs) :
    (b4W).slice (Rect.unit (k1_off22 (BitVec.ofNat 32 x)) S1x128x128.size h) hs = rC1 :=
  Memref.slice_unit_congr _ (by rw [off22_nat, hx]) _ _ _ (fun _ => rfl)
@[sl_canon] theorem canon_off25_0 (x : ℕ) (hx : x % 2 = 0) (h : ∀ a, k1_off25 (BitVec.ofNat 32 x) a + S1x128x128.size a ≤ S2x128x128.size a) (hs) :
    (b6W).slice (Rect.unit (k1_off25 (BitVec.ofNat 32 x)) S1x128x128.size h) hs = qC0 :=
  Memref.slice_unit_congr _ (by rw [off25_nat, hx]) _ _ _ (fun _ => rfl)
@[sl_canon] theorem canon_off25_1 (x : ℕ) (hx : x % 2 = 1) (h : ∀ a, k1_off25 (BitVec.ofNat 32 x) a + S1x128x128.size a ≤ S2x128x128.size a) (hs) :
    (b6W).slice (Rect.unit (k1_off25 (BitVec.ofNat 32 x)) S1x128x128.size h) hs = qC1 :=
  Memref.slice_unit_congr _ (by rw [off25_nat, hx]) _ _ _ (fun _ => rfl)
@[sl_canon] theorem canon_off28_0 (x : ℕ) (hx : x % 2 = 0) (h : ∀ a, k1_off28 (BitVec.ofNat 32 x) a + S1x128x128.size a ≤ S2x128x128.size a) (hs) :
    (b4W).slice (Rect.unit (k1_off28 (BitVec.ofNat 32 x)) S1x128x128.size h) hs = rC0 :=
  Memref.slice_unit_congr _ (by rw [off28_nat, hx]) _ _ _ (fun _ => rfl)
@[sl_canon] theorem canon_off28_1 (x : ℕ) (hx : x % 2 = 1) (h : ∀ a, k1_off28 (BitVec.ofNat 32 x) a + S1x128x128.size a ≤ S2x128x128.size a) (hs) :
    (b4W).slice (Rect.unit (k1_off28 (BitVec.ofNat 32 x)) S1x128x128.size h) hs = rC1 :=
  Memref.slice_unit_congr _ (by rw [off28_nat, hx]) _ _ _ (fun _ => rfl)
@[sl_canon] theorem canon_off31_0 (x : ℕ) (hx : x % 2 = 0) (h : ∀ a, k1_off31 (BitVec.ofNat 32 x) a + S1x128x128.size a ≤ S2x128x128.size a) (hs) :
    (b6W).slice (Rect.unit (k1_off31 (BitVec.ofNat 32 x)) S1x128x128.size h) hs = qC0 :=
  Memref.slice_unit_congr _ (by rw [off31_nat, hx]) _ _ _ (fun _ => rfl)
@[sl_canon] theorem canon_off31_1 (x : ℕ) (hx : x % 2 = 1) (h : ∀ a, k1_off31 (BitVec.ofNat 32 x) a + S1x128x128.size a ≤ S2x128x128.size a) (hs) :
    (b6W).slice (Rect.unit (k1_off31 (BitVec.ofNat 32 x)) S1x128x128.size h) hs = qC1 :=
  Memref.slice_unit_congr _ (by rw [off31_nat, hx]) _ _ _ (fun _ => rfl)
@[sl_canon] theorem canon_off64_0 (x : ℕ) (hx : x % 2 = 0) (h : ∀ a, k1_off64 (BitVec.ofNat 32 x) a + S1x128x128.size a ≤ S2x128x128.size a) (hs) :
    (b4W).slice (Rect.unit (k1_off64 (BitVec.ofNat 32 x)) S1x128x128.size h) hs = rC0 :=
  Memref.slice_unit_congr _ (by rw [off64_nat, hx]) _ _ _ (fun _ => rfl)
@[sl_canon] theorem canon_off64_1 (x : ℕ) (hx : x % 2 = 1) (h : ∀ a, k1_off64 (BitVec.ofNat 32 x) a + S1x128x128.size a ≤ S2x128x128.size a) (hs) :
    (b4W).slice (Rect.unit (k1_off64 (BitVec.ofNat 32 x)) S1x128x128.size h) hs = rC1 :=
  Memref.slice_unit_congr _ (by rw [off64_nat, hx]) _ _ _ (fun _ => rfl)
@[sl_canon] theorem canon_off67_0 (x : ℕ) (hx : x % 2 = 0) (h : ∀ a, k1_off67 (BitVec.ofNat 32 x) a + S1x128x128.size a ≤ S2x128x128.size a) (hs) :
    (b4W).slice (Rect.unit (k1_off67 (BitVec.ofNat 32 x)) S1x128x128.size h) hs = rC0 :=
  Memref.slice_unit_congr _ (by rw [off67_nat, hx]) _ _ _ (fun _ => rfl)
@[sl_canon] theorem canon_off67_1 (x : ℕ) (hx : x % 2 = 1) (h : ∀ a, k1_off67 (BitVec.ofNat 32 x) a + S1x128x128.size a ≤ S2x128x128.size a) (hs) :
    (b4W).slice (Rect.unit (k1_off67 (BitVec.ofNat 32 x)) S1x128x128.size h) hs = rC1 :=
  Memref.slice_unit_congr _ (by rw [off67_nat, hx]) _ _ _ (fun _ => rfl)
@[sl_canon] theorem canon_off68_0 (x : ℕ) (hx : x % 2 = 0) (h : ∀ a, k1_off68 (BitVec.ofNat 32 x) a + S1x128x128.size a ≤ S2x128x128.size a) (hs) :
    (b6W).slice (Rect.unit (k1_off68 (BitVec.ofNat 32 x)) S1x128x128.size h) hs = qC0 :=
  Memref.slice_unit_congr _ (by rw [off68_nat, hx]) _ _ _ (fun _ => rfl)
@[sl_canon] theorem canon_off68_1 (x : ℕ) (hx : x % 2 = 1) (h : ∀ a, k1_off68 (BitVec.ofNat 32 x) a + S1x128x128.size a ≤ S2x128x128.size a) (hs) :
    (b6W).slice (Rect.unit (k1_off68 (BitVec.ofNat 32 x)) S1x128x128.size h) hs = qC1 :=
  Memref.slice_unit_congr _ (by rw [off68_nat, hx]) _ _ _ (fun _ => rfl)
@[sl_canon] theorem canon_off6_0 (x : ℕ) (hx : x % 2 = 0) (h : ∀ a, k1_off6 (BitVec.ofNat 32 x) a + S1.size a ≤ S2.size a) :
    cc1_scoped1.slice (Rect.unit (k1_off6 (BitVec.ofNat 32 x)) S1.size h) = cc1_scoped1.slice (Rect.unit ![0] S1.size inb_m0) :=
  SemArray.slice_unit_congr _ (by rw [off6_nat, hx]) _ _
@[sl_canon] theorem canon_off6_1 (x : ℕ) (hx : x % 2 = 1) (h : ∀ a, k1_off6 (BitVec.ofNat 32 x) a + S1.size a ≤ S2.size a) :
    cc1_scoped1.slice (Rect.unit (k1_off6 (BitVec.ofNat 32 x)) S1.size h) = cc1_scoped1.slice (Rect.unit ![1] S1.size inb_m1) :=
  SemArray.slice_unit_congr _ (by rw [off6_nat, hx]) _ _
@[sl_canon] theorem canon_off9_0 (x : ℕ) (hx : x % 2 = 0) (h : ∀ a, k1_off9 (BitVec.ofNat 32 x) a + S1.size a ≤ S2.size a) :
    cc1_scoped3.slice (Rect.unit (k1_off9 (BitVec.ofNat 32 x)) S1.size h) = cc1_scoped3.slice (Rect.unit ![0] S1.size inb_m0) :=
  SemArray.slice_unit_congr _ (by rw [off9_nat, hx]) _ _
@[sl_canon] theorem canon_off9_1 (x : ℕ) (hx : x % 2 = 1) (h : ∀ a, k1_off9 (BitVec.ofNat 32 x) a + S1.size a ≤ S2.size a) :
    cc1_scoped3.slice (Rect.unit (k1_off9 (BitVec.ofNat 32 x)) S1.size h) = cc1_scoped3.slice (Rect.unit ![1] S1.size inb_m1) :=
  SemArray.slice_unit_congr _ (by rw [off9_nat, hx]) _ _
@[sl_canon] theorem canon_off12_0 (x : ℕ) (hx : x % 2 = 0) (h : ∀ a, k1_off12 (BitVec.ofNat 32 x) a + S1.size a ≤ S2.size a) :
    cc1_scoped1.slice (Rect.unit (k1_off12 (BitVec.ofNat 32 x)) S1.size h) = cc1_scoped1.slice (Rect.unit ![0] S1.size inb_m0) :=
  SemArray.slice_unit_congr _ (by rw [off12_nat, hx]) _ _
@[sl_canon] theorem canon_off12_1 (x : ℕ) (hx : x % 2 = 1) (h : ∀ a, k1_off12 (BitVec.ofNat 32 x) a + S1.size a ≤ S2.size a) :
    cc1_scoped1.slice (Rect.unit (k1_off12 (BitVec.ofNat 32 x)) S1.size h) = cc1_scoped1.slice (Rect.unit ![1] S1.size inb_m1) :=
  SemArray.slice_unit_congr _ (by rw [off12_nat, hx]) _ _
@[sl_canon] theorem canon_off15_0 (x : ℕ) (hx : x % 2 = 0) (h : ∀ a, k1_off15 (BitVec.ofNat 32 x) a + S1.size a ≤ S2.size a) :
    cc1_scoped3.slice (Rect.unit (k1_off15 (BitVec.ofNat 32 x)) S1.size h) = cc1_scoped3.slice (Rect.unit ![0] S1.size inb_m0) :=
  SemArray.slice_unit_congr _ (by rw [off15_nat, hx]) _ _
@[sl_canon] theorem canon_off15_1 (x : ℕ) (hx : x % 2 = 1) (h : ∀ a, k1_off15 (BitVec.ofNat 32 x) a + S1.size a ≤ S2.size a) :
    cc1_scoped3.slice (Rect.unit (k1_off15 (BitVec.ofNat 32 x)) S1.size h) = cc1_scoped3.slice (Rect.unit ![1] S1.size inb_m1) :=
  SemArray.slice_unit_congr _ (by rw [off15_nat, hx]) _ _
@[sl_canon] theorem canon_off24_0 (x : ℕ) (hx : x % 2 = 0) (h : ∀ a, k1_off24 (BitVec.ofNat 32 x) a + S1.size a ≤ S2.size a) :
    cc1_scoped5.slice (Rect.unit (k1_off24 (BitVec.ofNat 32 x)) S1.size h) = cc1_scoped5.slice (Rect.unit ![0] S1.size inb_m0) :=
  SemArray.slice_unit_congr _ (by rw [off24_nat, hx]) _ _
@[sl_canon] theorem canon_off24_1 (x : ℕ) (hx : x % 2 = 1) (h : ∀ a, k1_off24 (BitVec.ofNat 32 x) a + S1.size a ≤ S2.size a) :
    cc1_scoped5.slice (Rect.unit (k1_off24 (BitVec.ofNat 32 x)) S1.size h) = cc1_scoped5.slice (Rect.unit ![1] S1.size inb_m1) :=
  SemArray.slice_unit_congr _ (by rw [off24_nat, hx]) _ _
@[sl_canon] theorem canon_off27_0 (x : ℕ) (hx : x % 2 = 0) (h : ∀ a, k1_off27 (BitVec.ofNat 32 x) a + S1.size a ≤ S2.size a) :
    cc1_scoped7.slice (Rect.unit (k1_off27 (BitVec.ofNat 32 x)) S1.size h) = cc1_scoped7.slice (Rect.unit ![0] S1.size inb_m0) :=
  SemArray.slice_unit_congr _ (by rw [off27_nat, hx]) _ _
@[sl_canon] theorem canon_off27_1 (x : ℕ) (hx : x % 2 = 1) (h : ∀ a, k1_off27 (BitVec.ofNat 32 x) a + S1.size a ≤ S2.size a) :
    cc1_scoped7.slice (Rect.unit (k1_off27 (BitVec.ofNat 32 x)) S1.size h) = cc1_scoped7.slice (Rect.unit ![1] S1.size inb_m1) :=
  SemArray.slice_unit_congr _ (by rw [off27_nat, hx]) _ _
@[sl_canon] theorem canon_off30_0 (x : ℕ) (hx : x % 2 = 0) (h : ∀ a, k1_off30 (BitVec.ofNat 32 x) a + S1.size a ≤ S2.size a) :
    cc1_scoped5.slice (Rect.unit (k1_off30 (BitVec.ofNat 32 x)) S1.size h) = cc1_scoped5.slice (Rect.unit ![0] S1.size inb_m0) :=
  SemArray.slice_unit_congr _ (by rw [off30_nat, hx]) _ _
@[sl_canon] theorem canon_off30_1 (x : ℕ) (hx : x % 2 = 1) (h : ∀ a, k1_off30 (BitVec.ofNat 32 x) a + S1.size a ≤ S2.size a) :
    cc1_scoped5.slice (Rect.unit (k1_off30 (BitVec.ofNat 32 x)) S1.size h) = cc1_scoped5.slice (Rect.unit ![1] S1.size inb_m1) :=
  SemArray.slice_unit_congr _ (by rw [off30_nat, hx]) _ _
@[sl_canon] theorem canon_off33_0 (x : ℕ) (hx : x % 2 = 0) (h : ∀ a, k1_off33 (BitVec.ofNat 32 x) a + S1.size a ≤ S2.size a) :
    cc1_scoped7.slice (Rect.unit (k1_off33 (BitVec.ofNat 32 x)) S1.size h) = cc1_scoped7.slice (Rect.unit ![0] S1.size inb_m0) :=
  SemArray.slice_unit_congr _ (by rw [off33_nat, hx]) _ _
@[sl_canon] theorem canon_off33_1 (x : ℕ) (hx : x % 2 = 1) (h : ∀ a, k1_off33 (BitVec.ofNat 32 x) a + S1.size a ≤ S2.size a) :
    cc1_scoped7.slice (Rect.unit (k1_off33 (BitVec.ofNat 32 x)) S1.size h) = cc1_scoped7.slice (Rect.unit ![1] S1.size inb_m1) :=
  SemArray.slice_unit_congr _ (by rw [off33_nat, hx]) _ _
@[sl_canon] theorem canon_off66_0 (x : ℕ) (hx : x % 2 = 0) (h : ∀ a, k1_off66 (BitVec.ofNat 32 x) a + S1.size a ≤ S2.size a) :
    cc1_scoped5.slice (Rect.unit (k1_off66 (BitVec.ofNat 32 x)) S1.size h) = cc1_scoped5.slice (Rect.unit ![0] S1.size inb_m0) :=
  SemArray.slice_unit_congr _ (by rw [off66_nat, hx]) _ _
@[sl_canon] theorem canon_off66_1 (x : ℕ) (hx : x % 2 = 1) (h : ∀ a, k1_off66 (BitVec.ofNat 32 x) a + S1.size a ≤ S2.size a) :
    cc1_scoped5.slice (Rect.unit (k1_off66 (BitVec.ofNat 32 x)) S1.size h) = cc1_scoped5.slice (Rect.unit ![1] S1.size inb_m1) :=
  SemArray.slice_unit_congr _ (by rw [off66_nat, hx]) _ _
@[sl_canon] theorem canon_off70_0 (x : ℕ) (hx : x % 2 = 0) (h : ∀ a, k1_off70 (BitVec.ofNat 32 x) a + S1.size a ≤ S2.size a) :
    cc1_scoped7.slice (Rect.unit (k1_off70 (BitVec.ofNat 32 x)) S1.size h) = cc1_scoped7.slice (Rect.unit ![0] S1.size inb_m0) :=
  SemArray.slice_unit_congr _ (by rw [off70_nat, hx]) _ _
@[sl_canon] theorem canon_off70_1 (x : ℕ) (hx : x % 2 = 1) (h : ∀ a, k1_off70 (BitVec.ofNat 32 x) a + S1.size a ≤ S2.size a) :
    cc1_scoped7.slice (Rect.unit (k1_off70 (BitVec.ofNat 32 x)) S1.size h) = cc1_scoped7.slice (Rect.unit ![1] S1.size inb_m1) :=
  SemArray.slice_unit_congr _ (by rw [off70_nat, hx]) _ _
@[sl_canon] theorem canon_off5 (L : grid1.Coords) (j : ℕ) (hj : j + 1 < nT L) (h : ∀ a, k1_off5 L (BitVec.ofNat 32 j) a + S1x128.size a ≤ S1x320000.size a) (hs) :
    (srcW).slice (Rect.unit (k1_off5 L (BitVec.ofNat 32 j)) S1x128.size h) hs = srcB (bT L + (j + 1)) (blk_lt L _ (by omega)) :=
  Memref.slice_unit_congr _ (off5_eq' L ⟨j, by have := nT_le L; omega⟩ hj) _ _ _ (fun _ => rfl)
@[sl_canon] theorem canon_off8 (L : grid1.Coords) (j : ℕ) (hj : j + 1 < nT L) (h : ∀ a, k1_off8 L (BitVec.ofNat 32 j) a + S1x128.size a ≤ S1x320000.size a) (hs) :
    (dstW).slice (Rect.unit (k1_off8 L (BitVec.ofNat 32 j)) S1x128.size h) hs = dstB (bT L + (j + 1)) (blk_lt L _ (by omega)) :=
  Memref.slice_unit_congr _ (off8_eq' L ⟨j, by have := nT_le L; omega⟩ hj) _ _ _ (fun _ => rfl)
@[sl_canon] theorem canon_off11 (L : grid1.Coords) (j : ℕ) (hj : j < nT L) (h : ∀ a, k1_off11 L (BitVec.ofNat 32 j) a + S1x128.size a ≤ S1x320000.size a) (hs) :
    (srcW).slice (Rect.unit (k1_off11 L (BitVec.ofNat 32 j)) S1x128.size h) hs = srcB (bT L + j) (blk_lt L _ (by omega)) :=
  Memref.slice_unit_congr _ (off11_eq' L ⟨j, by have := nT_le L; omega⟩ hj) _ _ _ (fun _ => rfl)
@[sl_canon] theorem canon_off14 (L : grid1.Coords) (j : ℕ) (hj : j < nT L) (h : ∀ a, k1_off14 L (BitVec.ofNat 32 j) a + S1x128.size a ≤ S1x320000.size a) (hs) :
    (dstW).slice (Rect.unit (k1_off14 L (BitVec.ofNat 32 j)) S1x128.size h) hs = dstB (bT L + j) (blk_lt L _ (by omega)) :=
  Memref.slice_unit_congr _ (off14_eq' L ⟨j, by have := nT_le L; omega⟩ hj) _ _ _ (fun _ => rfl)
@[sl_canon] theorem canon_off23 (L : grid1.Coords) (j : ℕ) (hj : j < nT L) (h : ∀ a, k1_off23 L (BitVec.ofNat 32 j) a + S128x128.size a ≤ S320000x128.size a) (hs) :
    (sW).slice (Rect.unit (k1_off23 L (BitVec.ofNat 32 j)) S128x128.size h) hs = sB (bT L + j) (blk_lt L _ (by omega)) :=
  Memref.slice_unit_congr _ (off23_eq' L ⟨j, by have := nT_le L; omega⟩ hj) _ _ _ (fun _ => rfl)
@[sl_canon] theorem canon_off26 (L : grid1.Coords) (j : ℕ) (hj : j < nT L) (h : ∀ a, k1_off26 L (BitVec.ofNat 32 j) a + S128x128.size a ≤ S320000x128.size a) (hs) :
    (tW).slice (Rect.unit (k1_off26 L (BitVec.ofNat 32 j)) S128x128.size h) hs = tB (bT L + j) (blk_lt L _ (by omega)) :=
  Memref.slice_unit_congr _ (off26_eq' L ⟨j, by have := nT_le L; omega⟩ hj) _ _ _ (fun _ => rfl)
@[sl_canon] theorem canon_off29 (L : grid1.Coords) (j : ℕ) (hj : j + 1 < nT L) (h : ∀ a, k1_off29 L (BitVec.ofNat 32 (j + 1)) a + S128x128.size a ≤ S320000x128.size a) (hs) :
    (sW).slice (Rect.unit (k1_off29 L (BitVec.ofNat 32 (j + 1))) S128x128.size h) hs = sB (bT L + j) (blk_lt L _ (by omega)) :=
  Memref.slice_unit_congr _ (off29_eq' L ⟨j, by have := nT_le L; omega⟩ hj) _ _ _ (fun _ => rfl)
@[sl_canon] theorem canon_off32 (L : grid1.Coords) (j : ℕ) (hj : j + 1 < nT L) (h : ∀ a, k1_off32 L (BitVec.ofNat 32 (j + 1)) a + S128x128.size a ≤ S320000x128.size a) (hs) :
    (tW).slice (Rect.unit (k1_off32 L (BitVec.ofNat 32 (j + 1))) S128x128.size h) hs = tB (bT L + j) (blk_lt L _ (by omega)) :=
  Memref.slice_unit_congr _ (off32_eq' L ⟨j, by have := nT_le L; omega⟩ hj) _ _ _ (fun _ => rfl)
@[sl_canon] theorem canon_off2_src (L : grid1.Coords) (h : ∀ a, k1_off2 L a + S1x128.size a ≤ S1x320000.size a) (hs) :
    (srcW).slice (Rect.unit (k1_off2 L) S1x128.size h) hs = srcB (bT L + 0) (blk_lt L _ (by have := nT_ge L; omega)) :=
  Memref.slice_unit_congr _ (off2_eq' L 0) _ _ _ (fun _ => rfl)
@[sl_canon] theorem canon_off2_dst (L : grid1.Coords) (h : ∀ a, k1_off2 L a + S1x128.size a ≤ S1x320000.size a) (hs) :
    (dstW).slice (Rect.unit (k1_off2 L) S1x128.size h) hs = dstB (bT L + 0) (blk_lt L _ (by have := nT_ge L; omega)) :=
  Memref.slice_unit_congr _ (off2_eq' L 0) _ _ _ (fun _ => rfl)
@[sl_canon] theorem canon_off65 (L : grid1.Coords) (h : ∀ a, k1_off65 L 0#32 a + S128x128.size a ≤ S320000x128.size a) (hs) :
    (sW).slice (Rect.unit (k1_off65 L 0#32) S128x128.size h) hs = sB (bT L + (nT L - 1)) (blk_lt L _ (by have := nT_ge L; omega)) :=
  Memref.slice_unit_congr _ (off65_eq' L) _ _ _ (fun _ => rfl)
@[sl_canon] theorem canon_off69 (L : grid1.Coords) (h : ∀ a, k1_off69 L 0#32 a + S128x128.size a ≤ S320000x128.size a) (hs) :
    (tW).slice (Rect.unit (k1_off69 L 0#32) S128x128.size h) hs = tB (bT L + (nT L - 1)) (blk_lt L _ (by have := nT_ge L; omega)) :=
  Memref.slice_unit_congr _ (off69_eq' L) _ _ _ (fun _ => rfl)

end Cert.Proof.KB

end
-- ==== Proof.ScTileSplitB.lean ====
import proofs.«210884_g88510686036700_cont_sun_m_1211_45_alg».proof.Proof.ScTileNamesB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)
local notation "b0W" => (Memref.whole Cert.Kernel.cc1_scoped0 : Memref Cert.Kernel.sig Kind.scVector Space.vmem Cert.Kernel.S2x1x128 EltTy.i32)
local notation "b2W" => (Memref.whole Cert.Kernel.cc1_scoped2 : Memref Cert.Kernel.sig Kind.scVector Space.vmem Cert.Kernel.S2x1x128 EltTy.i32)
local notation "b4W" => (Memref.whole Cert.Kernel.cc1_scoped4 : Memref Cert.Kernel.sig Kind.scVector Space.vmem Cert.Kernel.S2x128x128 EltTy.f32)
local notation "b6W" => (Memref.whole Cert.Kernel.cc1_scoped6 : Memref Cert.Kernel.sig Kind.scVector Space.vmem Cert.Kernel.S2x128x128 EltTy.f32)

/-! ## A two-slot scoped buffer as its two slots, and back -/

def offSlot : Fin 2 → Fin 3 → ℕ := fun b => ![b.val, 0, 0]
theorem inb_islot : ∀ (b : Fin 2) a, offSlot b a + S1x1x128.size a ≤ S2x1x128.size a := by decide
theorem inb_rslot : ∀ (b : Fin 2) a, offSlot b a + S1x128x128.size a ≤ S2x128x128.size a := by decide

def Ji : Fin 2 → Finset S2x1x128.Idx := fun b => (Rect.unit (s := S2x1x128) (offSlot b) S1x1x128.size (inb_islot b)).set
def Jr : Fin 2 → Finset S2x128x128.Idx := fun b => (Rect.unit (s := S2x128x128) (offSlot b) S1x128x128.size (inb_rslot b)).set

theorem Ji_disj : ∀ s s', s ≠ s' → Disjoint (Ji s) (Ji s') := fun s s' h =>
  Ring.lead_disjoint (s := S2x1x128) (NB := 2) (a₀ := 0) (R := 1) (off := offSlot) (size := S1x1x128.size) (inb := inb_islot)
    (hoff₀ := by decide) (hsz₀ := by decide) s s' h
theorem Ji_cover : Finset.univ.biUnion Ji = Finset.univ :=
  Ring.lead_cover (s := S2x1x128) (NB := 2) (a₀ := 0) (R := 1) (off := offSlot) (size := S1x1x128.size) (inb := inb_islot)
    (hoff₀ := by decide) (hoff := by decide) (hsz₀ := by decide) (hsz := by decide) (hN := by decide)
theorem Jr_disj : ∀ s s', s ≠ s' → Disjoint (Jr s) (Jr s') := fun s s' h =>
  Ring.lead_disjoint (s := S2x128x128) (NB := 2) (a₀ := 0) (R := 1) (off := offSlot) (size := S1x128x128.size) (inb := inb_rslot)
    (hoff₀ := by decide) (hsz₀ := by decide) s s' h
theorem Jr_cover : Finset.univ.biUnion Jr = Finset.univ :=
  Ring.lead_cover (s := S2x128x128) (NB := 2) (a₀ := 0) (R := 1) (off := offSlot) (size := S1x128x128.size) (inb := inb_rslot)
    (hoff₀ := by decide) (hoff := by decide) (hsz₀ := by decide) (hsz := by decide) (hN := by decide)
theorem iS0_set : (iS0).view.set = Ji 0 := by
  unfold iS0 iC0; simp only [Memref.view_squeeze, View.set_reshape, Memref.view_slice, Memref.view_whole, View.set_slice_whole]; rfl
theorem iS1_set : (iS1).view.set = Ji 1 := by
  unfold iS1 iC1; simp only [Memref.view_squeeze, View.set_reshape, Memref.view_slice, Memref.view_whole, View.set_slice_whole]; rfl
theorem jS0_set : (jS0).view.set = Ji 0 := by
  unfold jS0 jC0; simp only [Memref.view_squeeze, View.set_reshape, Memref.view_slice, Memref.view_whole, View.set_slice_whole]; rfl
theorem jS1_set : (jS1).view.set = Ji 1 := by
  unfold jS1 jC1; simp only [Memref.view_squeeze, View.set_reshape, Memref.view_slice, Memref.view_whole, View.set_slice_whole]; rfl
theorem rS0_set : (rS0).view.set = Jr 0 := by
  unfold rS0 rC0; simp only [Memref.view_squeeze, View.set_reshape, Memref.view_slice, Memref.view_whole, View.set_slice_whole]; rfl
theorem rS1_set : (rS1).view.set = Jr 1 := by
  unfold rS1 rC1; simp only [Memref.view_squeeze, View.set_reshape, Memref.view_slice, Memref.view_whole, View.set_slice_whole]; rfl
theorem qS0_set : (qS0).view.set = Jr 0 := by
  unfold qS0 qC0; simp only [Memref.view_squeeze, View.set_reshape, Memref.view_slice, Memref.view_whole, View.set_slice_whole]; rfl
theorem qS1_set : (qS1).view.set = Jr 1 := by
  unfold qS1 qC1; simp only [Memref.view_squeeze, View.set_reshape, Memref.view_slice, Memref.view_whole, View.set_slice_whole]; rfl

section Slots
variable (d : Dev nD) (c : Fin τ.nSC) (i : Fin τ.nSub)
theorem i_split :
    (iprop(∃ f, (V d c i).loc cc1_scoped0 ↦{fullShare} f) : sProp 𝕄)
      ⊢ iprop((∃ f, (iS0).view.loc (V d c i) ↦[(iS0).view.set]{fullShare} f) ∗ ∃ f, (iS1).view.loc (V d c i) ↦[(iS1).view.set]{fullShare} f) :=
  Ring.slots2_split (ℓ := (V d c i).loc cc1_scoped0) Ji Ji_disj Ji_cover (fun f => ((iS0).view.loc (V d c i) ↦[(iS0).view.set]{fullShare} f : sProp 𝕄)) (fun f => ((iS1).view.loc (V d c i) ↦[(iS1).view.set]{fullShare} f : sProp 𝕄)) (fun f => by show ((V d c i).loc cc1_scoped0 ↦[(iS0).view.set]{fullShare} f : sProp 𝕄) = _; rw [iS0_set]) (fun f => by show ((V d c i).loc cc1_scoped0 ↦[(iS1).view.set]{fullShare} f : sProp 𝕄) = _; rw [iS1_set])
theorem i_join :
    (iprop((∃ f, (iS0).view.loc (V d c i) ↦[(iS0).view.set]{fullShare} f) ∗ ∃ f, (iS1).view.loc (V d c i) ↦[(iS1).view.set]{fullShare} f) : sProp 𝕄)
      ⊢ iprop(∃ f, (V d c i).loc cc1_scoped0 ↦{fullShare} f) :=
  Ring.slots2_join (ℓ := (V d c i).loc cc1_scoped0) Ji Ji_disj Ji_cover (fun f => ((iS0).view.loc (V d c i) ↦[(iS0).view.set]{fullShare} f : sProp 𝕄)) (fun f => ((iS1).view.loc (V d c i) ↦[(iS1).view.set]{fullShare} f : sProp 𝕄)) (fun f => by show ((V d c i).loc cc1_scoped0 ↦[(iS0).view.set]{fullShare} f : sProp 𝕄) = _; rw [iS0_set]) (fun f => by show ((V d c i).loc cc1_scoped0 ↦[(iS1).view.set]{fullShare} f : sProp 𝕄) = _; rw [iS1_set])
theorem j_split :
    (iprop(∃ f, (V d c i).loc cc1_scoped2 ↦{fullShare} f) : sProp 𝕄)
      ⊢ iprop((∃ f, (jS0).view.loc (V d c i) ↦[(jS0).view.set]{fullShare} f) ∗ ∃ f, (jS1).view.loc (V d c i) ↦[(jS1).view.set]{fullShare} f) :=
  Ring.slots2_split (ℓ := (V d c i).loc cc1_scoped2) Ji Ji_disj Ji_cover (fun f => ((jS0).view.loc (V d c i) ↦[(jS0).view.set]{fullShare} f : sProp 𝕄)) (fun f => ((jS1).view.loc (V d c i) ↦[(jS1).view.set]{fullShare} f : sProp 𝕄)) (fun f => by show ((V d c i).loc cc1_scoped2 ↦[(jS0).view.set]{fullShare} f : sProp 𝕄) = _; rw [jS0_set]) (fun f => by show ((V d c i).loc cc1_scoped2 ↦[(jS1).view.set]{fullShare} f : sProp 𝕄) = _; rw [jS1_set])
theorem j_join :
    (iprop((∃ f, (jS0).view.loc (V d c i) ↦[(jS0).view.set]{fullShare} f) ∗ ∃ f, (jS1).view.loc (V d c i) ↦[(jS1).view.set]{fullShare} f) : sProp 𝕄)
      ⊢ iprop(∃ f, (V d c i).loc cc1_scoped2 ↦{fullShare} f) :=
  Ring.slots2_join (ℓ := (V d c i).loc cc1_scoped2) Ji Ji_disj Ji_cover (fun f => ((jS0).view.loc (V d c i) ↦[(jS0).view.set]{fullShare} f : sProp 𝕄)) (fun f => ((jS1).view.loc (V d c i) ↦[(jS1).view.set]{fullShare} f : sProp 𝕄)) (fun f => by show ((V d c i).loc cc1_scoped2 ↦[(jS0).view.set]{fullShare} f : sProp 𝕄) = _; rw [jS0_set]) (fun f => by show ((V d c i).loc cc1_scoped2 ↦[(jS1).view.set]{fullShare} f : sProp 𝕄) = _; rw [jS1_set])
theorem r_split :
    (iprop(∃ f, (V d c i).loc cc1_scoped4 ↦{fullShare} f) : sProp 𝕄)
      ⊢ iprop((∃ f, (rS0).view.loc (V d c i) ↦[(rS0).view.set]{fullShare} f) ∗ ∃ f, (rS1).view.loc (V d c i) ↦[(rS1).view.set]{fullShare} f) :=
  Ring.slots2_split (ℓ := (V d c i).loc cc1_scoped4) Jr Jr_disj Jr_cover (fun f => ((rS0).view.loc (V d c i) ↦[(rS0).view.set]{fullShare} f : sProp 𝕄)) (fun f => ((rS1).view.loc (V d c i) ↦[(rS1).view.set]{fullShare} f : sProp 𝕄)) (fun f => by show ((V d c i).loc cc1_scoped4 ↦[(rS0).view.set]{fullShare} f : sProp 𝕄) = _; rw [rS0_set]) (fun f => by show ((V d c i).loc cc1_scoped4 ↦[(rS1).view.set]{fullShare} f : sProp 𝕄) = _; rw [rS1_set])
theorem r_join :
    (iprop((∃ f, (rS0).view.loc (V d c i) ↦[(rS0).view.set]{fullShare} f) ∗ ∃ f, (rS1).view.loc (V d c i) ↦[(rS1).view.set]{fullShare} f) : sProp 𝕄)
      ⊢ iprop(∃ f, (V d c i).loc cc1_scoped4 ↦{fullShare} f) :=
  Ring.slots2_join (ℓ := (V d c i).loc cc1_scoped4) Jr Jr_disj Jr_cover (fun f => ((rS0).view.loc (V d c i) ↦[(rS0).view.set]{fullShare} f : sProp 𝕄)) (fun f => ((rS1).view.loc (V d c i) ↦[(rS1).view.set]{fullShare} f : sProp 𝕄)) (fun f => by show ((V d c i).loc cc1_scoped4 ↦[(rS0).view.set]{fullShare} f : sProp 𝕄) = _; rw [rS0_set]) (fun f => by show ((V d c i).loc cc1_scoped4 ↦[(rS1).view.set]{fullShare} f : sProp 𝕄) = _; rw [rS1_set])
theorem q_split :
    (iprop(∃ f, (V d c i).loc cc1_scoped6 ↦{fullShare} f) : sProp 𝕄)
      ⊢ iprop((∃ f, (qS0).view.loc (V d c i) ↦[(qS0).view.set]{fullShare} f) ∗ ∃ f, (qS1).view.loc (V d c i) ↦[(qS1).view.set]{fullShare} f) :=
  Ring.slots2_split (ℓ := (V d c i).loc cc1_scoped6) Jr Jr_disj Jr_cover (fun f => ((qS0).view.loc (V d c i) ↦[(qS0).view.set]{fullShare} f : sProp 𝕄)) (fun f => ((qS1).view.loc (V d c i) ↦[(qS1).view.set]{fullShare} f : sProp 𝕄)) (fun f => by show ((V d c i).loc cc1_scoped6 ↦[(qS0).view.set]{fullShare} f : sProp 𝕄) = _; rw [qS0_set]) (fun f => by show ((V d c i).loc cc1_scoped6 ↦[(qS1).view.set]{fullShare} f : sProp 𝕄) = _; rw [qS1_set])
theorem q_join :
    (iprop((∃ f, (qS0).view.loc (V d c i) ↦[(qS0).view.set]{fullShare} f) ∗ ∃ f, (qS1).view.loc (V d c i) ↦[(qS1).view.set]{fullShare} f) : sProp 𝕄)
      ⊢ iprop(∃ f, (V d c i).loc cc1_scoped6 ↦{fullShare} f) :=
  Ring.slots2_join (ℓ := (V d c i).loc cc1_scoped6) Jr Jr_disj Jr_cover (fun f => ((qS0).view.loc (V d c i) ↦[(qS0).view.set]{fullShare} f : sProp 𝕄)) (fun f => ((qS1).view.loc (V d c i) ↦[(qS1).view.set]{fullShare} f : sProp 𝕄)) (fun f => by show ((V d c i).loc cc1_scoped6 ↦[(qS0).view.set]{fullShare} f : sProp 𝕄) = _; rw [qS0_set]) (fun f => by show ((V d c i).loc cc1_scoped6 ↦[(qS1).view.set]{fullShare} f : sProp 𝕄) = _; rw [qS1_set])
end Slots

/-! ## The rows of a block of a gathered array -/

/-- The rows of block `x`: 128 consecutive rows. -/
def rowsBlk (x : ℕ) : Finset S320000x128.Idx :=
  Finset.univ.filter fun ix => 128 * x ≤ (ix 0).val ∧ (ix 0).val < 128 * (x + 1)

theorem mem_blkRect (x : ℕ) (hx : x < 2500) (ix : S320000x128.Idx) :
    ix ∈ (Rect.unit (s := S320000x128) ![128 * x, 0] S128x128.size (inb_blk x hx)).set ↔ ix ∈ rowsBlk x := by
  rw [Rect.mem_set_unit]; simp only [rowsBlk, Finset.mem_filter, Finset.mem_univ, true_and]
  constructor
  · intro h
    have h0 := h 0
    change 128 * x ≤ (ix 0).val ∧ (ix 0).val < 128 * x + 128 at h0
    omega
  · intro h a
    fin_cases a
    · change 128 * x ≤ (ix 0).val ∧ (ix 0).val < 128 * x + 128; omega
    · have := (ix 1).isLt
      change 0 ≤ (ix 1).val ∧ (ix 1).val < 0 + 128
      change (ix 1).val < 128 at this
      omega

theorem sB_set (x : ℕ) (hx : x < 2500) : (sB x hx).view.set = rowsBlk x := by
  unfold sB; simp only [Memref.view_slice, Memref.view_whole, View.set_slice_whole]; ext ix; exact mem_blkRect x hx ix
theorem tB_set (x : ℕ) (hx : x < 2500) : (tB x hx).view.set = rowsBlk x := by
  unfold tB; simp only [Memref.view_slice, Memref.view_whole, View.set_slice_whole]; ext ix; exact mem_blkRect x hx ix

theorem rowsBlk_sub (w : Fin 32) (j : ℕ) (hj : j < nBlk w) : rowsBlk (blk0 w + j) ⊆ rowsOf w := by
  intro ix; simp only [rowsBlk, rowsOf, Finset.mem_filter, Finset.mem_univ, true_and]; intro h
  constructor
  · have : 128 * blk0 w ≤ 128 * (blk0 w + j) := Nat.mul_le_mul_left _ (Nat.le_add_right _ _); omega
  · have : 128 * (blk0 w + j + 1) ≤ 128 * (blk0 w + nBlk w) := Nat.mul_le_mul_left _ (by omega); omega

theorem rowsBlk_disj (x y : ℕ) (h : x ≠ y) : Disjoint (rowsBlk x) (rowsBlk y) := by
  rw [Finset.disjoint_left]; intro ix; simp only [rowsBlk, Finset.mem_filter, Finset.mem_univ, true_and]; intro h1 h2
  rcases Nat.lt_or_gt_of_ne h with hl | hl
  · have : 128 * (x + 1) ≤ 128 * y := Nat.mul_le_mul_left _ hl; omega
  · have : 128 * (y + 1) ≤ 128 * x := Nat.mul_le_mul_left _ hl; omega

end Cert.Proof.KB

end
-- ==== Proof.ScTileInvB.lean ====
import proofs.«210884_g88510686036700_cont_sun_m_1211_45_alg».proof.Proof.ScTileSplitB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)
local notation "b0W" => (Memref.whole Cert.Kernel.cc1_scoped0 : Memref Cert.Kernel.sig Kind.scVector Space.vmem Cert.Kernel.S2x1x128 EltTy.i32)
local notation "b2W" => (Memref.whole Cert.Kernel.cc1_scoped2 : Memref Cert.Kernel.sig Kind.scVector Space.vmem Cert.Kernel.S2x1x128 EltTy.i32)
local notation "b4W" => (Memref.whole Cert.Kernel.cc1_scoped4 : Memref Cert.Kernel.sig Kind.scVector Space.vmem Cert.Kernel.S2x128x128 EltTy.f32)
local notation "b6W" => (Memref.whole Cert.Kernel.cc1_scoped6 : Memref Cert.Kernel.sig Kind.scVector Space.vmem Cert.Kernel.S2x128x128 EltTy.f32)

/-! ## The offset lists the gathers read: a slot of an index buffer, whole, as a vector of 128 words -/
def iL0 : Memref sig .scVector .vmem S128 .i32 :=
  ((iS0).slice (Rect.unit (s := S1x128) ![0, 0] S1x128.size inb_S1x128_S1x128_0_0) (fun _ => rfl)).squeeze S128 squeezes_S1x128_S128
def iL1 : Memref sig .scVector .vmem S128 .i32 :=
  ((iS1).slice (Rect.unit (s := S1x128) ![0, 0] S1x128.size inb_S1x128_S1x128_0_0) (fun _ => rfl)).squeeze S128 squeezes_S1x128_S128
def jL0 : Memref sig .scVector .vmem S128 .i32 :=
  ((jS0).slice (Rect.unit (s := S1x128) ![0, 0] S1x128.size inb_S1x128_S1x128_0_0) (fun _ => rfl)).squeeze S128 squeezes_S1x128_S128
def jL1 : Memref sig .scVector .vmem S128 .i32 :=
  ((jS1).slice (Rect.unit (s := S1x128) ![0, 0] S1x128.size inb_S1x128_S1x128_0_0) (fun _ => rfl)).squeeze S128 squeezes_S1x128_S128

omit [FloatOps F] in
theorem rect_S1x128_whole : (Rect.unit (s := S1x128) ![0, 0] S1x128.size inb_S1x128_S1x128_0_0).set = Finset.univ := by
  ext ix; simp only [Rect.mem_set_unit, Finset.mem_univ, iff_true]; intro a; fin_cases a
  · have := (ix 0).isLt; change 0 ≤ (ix 0).val ∧ (ix 0).val < 0 + 1; change (ix 0).val < 1 at this; omega
  · have := (ix 1).isLt; change 0 ≤ (ix 1).val ∧ (ix 1).val < 0 + 128; change (ix 1).val < 128 at this; omega
omit [FloatOps F] in
theorem iL0_set : (iL0).view.set = (iS0).view.set := by
  unfold iL0; simp only [Memref.view_squeeze, View.set_reshape, Memref.view_slice]
  rw [View.set_slice, rect_S1x128_whole]; rfl
omit [FloatOps F] in
/-- The list's words are the slot's: in range when the slot's are. -/
theorem hin_i0 (d : Dev nD) (c : Fin τ.nSC) (i : Fin τ.nSub) (g : Buf (Elt F) ((iS0).view.loc (V d c i))) (r : S1x128.Idx → Elt F .i32)
    (hr : (iS0).view.read (Elt F) g = r) (hb : ∀ y, (r y).toNat < 10000) :
    ∀ y, ((iL0).view.read (Elt F) g y).toNat < S10000x128.size gathers_S10000x128_S128x128.axis := by
  intro y
  have hy : (iL0).view.emb y ∈ (iS0).view.set := by
    rw [← iL0_set]; exact Finset.mem_map_of_mem _ (Finset.mem_univ _)
  obtain ⟨y', -, hy'⟩ := Finset.mem_map.mp hy
  have h1 : (iL0).view.read (Elt F) g y = (iS0).view.read (Elt F) g y' := by
    change _root_.cast _ (g ((iL0).view.emb y)) = _root_.cast _ (g ((iS0).view.emb y'))
    exact congrArg (_root_.cast _) (congrArg g hy'.symm)
  rw [h1, hr]; exact hb y'
omit [FloatOps F] in
theorem iL1_set : (iL1).view.set = (iS1).view.set := by
  unfold iL1; simp only [Memref.view_squeeze, View.set_reshape, Memref.view_slice]
  rw [View.set_slice, rect_S1x128_whole]; rfl
omit [FloatOps F] in
/-- The list's words are the slot's: in range when the slot's are. -/
theorem hin_i1 (d : Dev nD) (c : Fin τ.nSC) (i : Fin τ.nSub) (g : Buf (Elt F) ((iS1).view.loc (V d c i))) (r : S1x128.Idx → Elt F .i32)
    (hr : (iS1).view.read (Elt F) g = r) (hb : ∀ y, (r y).toNat < 10000) :
    ∀ y, ((iL1).view.read (Elt F) g y).toNat < S10000x128.size gathers_S10000x128_S128x128.axis := by
  intro y
  have hy : (iL1).view.emb y ∈ (iS1).view.set := by
    rw [← iL1_set]; exact Finset.mem_map_of_mem _ (Finset.mem_univ _)
  obtain ⟨y', -, hy'⟩ := Finset.mem_map.mp hy
  have h1 : (iL1).view.read (Elt F) g y = (iS1).view.read (Elt F) g y' := by
    change _root_.cast _ (g ((iL1).view.emb y)) = _root_.cast _ (g ((iS1).view.emb y'))
    exact congrArg (_root_.cast _) (congrArg g hy'.symm)
  rw [h1, hr]; exact hb y'
omit [FloatOps F] in
theorem jL0_set : (jL0).view.set = (jS0).view.set := by
  unfold jL0; simp only [Memref.view_squeeze, View.set_reshape, Memref.view_slice]
  rw [View.set_slice, rect_S1x128_whole]; rfl
omit [FloatOps F] in
/-- The list's words are the slot's: in range when the slot's are. -/
theorem hin_j0 (d : Dev nD) (c : Fin τ.nSC) (i : Fin τ.nSub) (g : Buf (Elt F) ((jS0).view.loc (V d c i))) (r : S1x128.Idx → Elt F .i32)
    (hr : (jS0).view.read (Elt F) g = r) (hb : ∀ y, (r y).toNat < 10000) :
    ∀ y, ((jL0).view.read (Elt F) g y).toNat < S10000x128.size gathers_S10000x128_S128x128.axis := by
  intro y
  have hy : (jL0).view.emb y ∈ (jS0).view.set := by
    rw [← jL0_set]; exact Finset.mem_map_of_mem _ (Finset.mem_univ _)
  obtain ⟨y', -, hy'⟩ := Finset.mem_map.mp hy
  have h1 : (jL0).view.read (Elt F) g y = (jS0).view.read (Elt F) g y' := by
    change _root_.cast _ (g ((jL0).view.emb y)) = _root_.cast _ (g ((jS0).view.emb y'))
    exact congrArg (_root_.cast _) (congrArg g hy'.symm)
  rw [h1, hr]; exact hb y'
omit [FloatOps F] in
theorem jL1_set : (jL1).view.set = (jS1).view.set := by
  unfold jL1; simp only [Memref.view_squeeze, View.set_reshape, Memref.view_slice]
  rw [View.set_slice, rect_S1x128_whole]; rfl
omit [FloatOps F] in
/-- The list's words are the slot's: in range when the slot's are. -/
theorem hin_j1 (d : Dev nD) (c : Fin τ.nSC) (i : Fin τ.nSub) (g : Buf (Elt F) ((jS1).view.loc (V d c i))) (r : S1x128.Idx → Elt F .i32)
    (hr : (jS1).view.read (Elt F) g = r) (hb : ∀ y, (r y).toNat < 10000) :
    ∀ y, ((jL1).view.read (Elt F) g y).toNat < S10000x128.size gathers_S10000x128_S128x128.axis := by
  intro y
  have hy : (jL1).view.emb y ∈ (jS1).view.set := by
    rw [← jL1_set]; exact Finset.mem_map_of_mem _ (Finset.mem_univ _)
  obtain ⟨y', -, hy'⟩ := Finset.mem_map.mp hy
  have h1 : (jL1).view.read (Elt F) g y = (jS1).view.read (Elt F) g y' := by
    change _root_.cast _ (g ((jL1).view.emb y)) = _root_.cast _ (g ((jS1).view.emb y'))
    exact congrArg (_root_.cast _) (congrArg g hy'.symm)
  rw [h1, hr]; exact hb y'

section Inv

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

/-! ## What is in flight before a trip -/
/-- Index fetches of block `x` in flight into slot 0; slot 1 at rest. -/
def fetchAt0 (x : ℕ) (hx : x < 2500) : sProp 𝕄 :=
  iprop(((srcW).view.loc (V d c i) ↦[Finset.univ \ (srcB x hx).view.set]{tok w} csrc d)
    ∗ (∃ g, ⌜(iS0).view.read (Elt F) g = (srcB x hx).view.read (Elt F) (csrc d)⌝
        ∗ Transfers.Flight countersEmb (V d c i) (SemLoc.dma (⟨8, by decide⟩ : DmaSem sig)) (default : HIx 1) 4096
            iprop(((iS0).view.loc (V d c i) ↦[(iS0).view.set]{fullShare} g) ∗ (srcW).view.loc (V d c i) ↦[(srcB x hx).view.set]{tok w} csrc d))
    ∗ (∃ g, (iS1).view.loc (V d c i) ↦[(iS1).view.set]{fullShare} g) ∗ semVal (dcell (V d c i) 9 (by decide)) 0
    ∗ ((dstW).view.loc (V d c i) ↦[Finset.univ \ (dstB x hx).view.set]{tok w} cdst d)
    ∗ (∃ g, ⌜(jS0).view.read (Elt F) g = (dstB x hx).view.read (Elt F) (cdst d)⌝
        ∗ Transfers.Flight countersEmb (V d c i) (SemLoc.dma (⟨10, by decide⟩ : DmaSem sig)) (default : HIx 1) 4096
            iprop(((jS0).view.loc (V d c i) ↦[(jS0).view.set]{fullShare} g) ∗ (dstW).view.loc (V d c i) ↦[(dstB x hx).view.set]{tok w} cdst d))
    ∗ (∃ g, (jS1).view.loc (V d c i) ↦[(jS1).view.set]{fullShare} g) ∗ semVal (dcell (V d c i) 11 (by decide)) 0)
/-- Write-outs of row slot 0 to block `x` in flight; row slot 1 at rest. -/
def outAt0 (x : ℕ) (hx : x < 2500) : sProp 𝕄 :=
  iprop((∃ f, (sW).view.loc (V d c i) ↦[rowsOf w \ rowsBlk x]{fullShare} f)
    ∗ (∃ f g, Transfers.Flight countersEmb (V d c i) (SemLoc.dma (⟨12, by decide⟩ : DmaSem sig)) (default : HIx 1) 524288
            iprop(((sB x hx).view.loc (V d c i) ↦[(sB x hx).view.set]{fullShare} f) ∗ (rS0).view.loc (V d c i) ↦[(rS0).view.set]{fullShare} g))
    ∗ (∃ g, (rS1).view.loc (V d c i) ↦[(rS1).view.set]{fullShare} g) ∗ semVal (dcell (V d c i) 13 (by decide)) 0
    ∗ (∃ f, (tW).view.loc (V d c i) ↦[rowsOf w \ rowsBlk x]{fullShare} f)
    ∗ (∃ f g, Transfers.Flight countersEmb (V d c i) (SemLoc.dma (⟨14, by decide⟩ : DmaSem sig)) (default : HIx 1) 524288
            iprop(((tB x hx).view.loc (V d c i) ↦[(tB x hx).view.set]{fullShare} f) ∗ (qS0).view.loc (V d c i) ↦[(qS0).view.set]{fullShare} g))
    ∗ (∃ g, (qS1).view.loc (V d c i) ↦[(qS1).view.set]{fullShare} g) ∗ semVal (dcell (V d c i) 15 (by decide)) 0)
/-- Index fetches of block `x` in flight into slot 1; slot 0 at rest. -/
def fetchAt1 (x : ℕ) (hx : x < 2500) : sProp 𝕄 :=
  iprop(((srcW).view.loc (V d c i) ↦[Finset.univ \ (srcB x hx).view.set]{tok w} csrc d)
    ∗ (∃ g, ⌜(iS1).view.read (Elt F) g = (srcB x hx).view.read (Elt F) (csrc d)⌝
        ∗ Transfers.Flight countersEmb (V d c i) (SemLoc.dma (⟨9, by decide⟩ : DmaSem sig)) (default : HIx 1) 4096
            iprop(((iS1).view.loc (V d c i) ↦[(iS1).view.set]{fullShare} g) ∗ (srcW).view.loc (V d c i) ↦[(srcB x hx).view.set]{tok w} csrc d))
    ∗ (∃ g, (iS0).view.loc (V d c i) ↦[(iS0).view.set]{fullShare} g) ∗ semVal (dcell (V d c i) 8 (by decide)) 0
    ∗ ((dstW).view.loc (V d c i) ↦[Finset.univ \ (dstB x hx).view.set]{tok w} cdst d)
    ∗ (∃ g, ⌜(jS1).view.read (Elt F) g = (dstB x hx).view.read (Elt F) (cdst d)⌝
        ∗ Transfers.Flight countersEmb (V d c i) (SemLoc.dma (⟨11, by decide⟩ : DmaSem sig)) (default : HIx 1) 4096
            iprop(((jS1).view.loc (V d c i) ↦[(jS1).view.set]{fullShare} g) ∗ (dstW).view.loc (V d c i) ↦[(dstB x hx).view.set]{tok w} cdst d))
    ∗ (∃ g, (jS0).view.loc (V d c i) ↦[(jS0).view.set]{fullShare} g) ∗ semVal (dcell (V d c i) 10 (by decide)) 0)
/-- Write-outs of row slot 1 to block `x` in flight; row slot 0 at rest. -/
def outAt1 (x : ℕ) (hx : x < 2500) : sProp 𝕄 :=
  iprop((∃ f, (sW).view.loc (V d c i) ↦[rowsOf w \ rowsBlk x]{fullShare} f)
    ∗ (∃ f g, Transfers.Flight countersEmb (V d c i) (SemLoc.dma (⟨13, by decide⟩ : DmaSem sig)) (default : HIx 1) 524288
            iprop(((sB x hx).view.loc (V d c i) ↦[(sB x hx).view.set]{fullShare} f) ∗ (rS1).view.loc (V d c i) ↦[(rS1).view.set]{fullShare} g))
    ∗ (∃ g, (rS0).view.loc (V d c i) ↦[(rS0).view.set]{fullShare} g) ∗ semVal (dcell (V d c i) 12 (by decide)) 0
    ∗ (∃ f, (tW).view.loc (V d c i) ↦[rowsOf w \ rowsBlk x]{fullShare} f)
    ∗ (∃ f g, Transfers.Flight countersEmb (V d c i) (SemLoc.dma (⟨15, by decide⟩ : DmaSem sig)) (default : HIx 1) 524288
            iprop(((tB x hx).view.loc (V d c i) ↦[(tB x hx).view.set]{fullShare} f) ∗ (qS1).view.loc (V d c i) ↦[(qS1).view.set]{fullShare} g))
    ∗ (∃ g, (qS0).view.loc (V d c i) ↦[(qS0).view.set]{fullShare} g) ∗ semVal (dcell (V d c i) 14 (by decide)) 0)
/-- No index fetch in flight. -/
def fetchRest : sProp 𝕄 :=
  iprop(((srcW).view.loc (V d c i) ↦{tok w} csrc d) ∗ ((dstW).view.loc (V d c i) ↦{tok w} cdst d)
    ∗ (∃ g, (iS0).view.loc (V d c i) ↦[(iS0).view.set]{fullShare} g) ∗ (∃ g, (iS1).view.loc (V d c i) ↦[(iS1).view.set]{fullShare} g)
    ∗ (∃ g, (jS0).view.loc (V d c i) ↦[(jS0).view.set]{fullShare} g) ∗ (∃ g, (jS1).view.loc (V d c i) ↦[(jS1).view.set]{fullShare} g)
    ∗ semVal (dcell (V d c i) 8 (by decide)) 0 ∗ semVal (dcell (V d c i) 9 (by decide)) 0
    ∗ semVal (dcell (V d c i) 10 (by decide)) 0 ∗ semVal (dcell (V d c i) 11 (by decide)) 0)
/-- No write-out in flight. -/
def outRest : sProp 𝕄 :=
  iprop((∃ f, (sW).view.loc (V d c i) ↦[rowsOf w]{fullShare} f) ∗ (∃ f, (tW).view.loc (V d c i) ↦[rowsOf w]{fullShare} f)
    ∗ (∃ g, (rS0).view.loc (V d c i) ↦[(rS0).view.set]{fullShare} g) ∗ (∃ g, (rS1).view.loc (V d c i) ↦[(rS1).view.set]{fullShare} g)
    ∗ (∃ g, (qS0).view.loc (V d c i) ↦[(qS0).view.set]{fullShare} g) ∗ (∃ g, (qS1).view.loc (V d c i) ↦[(qS1).view.set]{fullShare} g)
    ∗ semVal (dcell (V d c i) 12 (by decide)) 0 ∗ semVal (dcell (V d c i) 13 (by decide)) 0
    ∗ semVal (dcell (V d c i) 14 (by decide)) 0 ∗ semVal (dcell (V d c i) 15 (by decide)) 0)

/-- The carried words before trip `k` of `n`. -/
def wordsAt (n k : ℕ) : BitVec 32 × BitVec 32 × BitVec 32 × BitVec 32 × BitVec 32 × BitVec 32 × BitVec 32 × BitVec 32 × BitVec 32 :=
  (BitVec.ofNat 32 (if k + 1 < n then k + 1 else n), BitVec.ofNat 32 k, BitVec.ofNat 32 (if k + 1 < n then k + 1 else n), BitVec.ofNat 32 k,
    BitVec.ofNat 32 k, BitVec.ofNat 32 (k - 1), BitVec.ofNat 32 k, BitVec.ofNat 32 (k - 1), if k < n then BitVec.ofNat 32 k else 0#32)

variable (L : grid1.Coords) (O : CellTallies nD τ sig (HIx 1)) (W : Waits sig (HIx 1))

def fetchPart (k : ℕ) : sProp 𝕄 :=
  if h : k < nT L then
    (if k % 2 = 0 then fetchAt0 csrc cdst d c i (taskOf L) (bT L + k) (blk_lt L k h) else fetchAt1 csrc cdst d c i (taskOf L) (bT L + k) (blk_lt L k h))
  else fetchRest csrc cdst d c i (taskOf L)
def outPart (k : ℕ) : sProp 𝕄 :=
  if h : 0 < k ∧ k ≤ nT L then
    (if k % 2 = 0 then outAt1 (F := F) d c i (taskOf L) (bT L + (k - 1)) (blk_lt L _ (by omega)) else outAt0 (F := F) d c i (taskOf L) (bT L + (k - 1)) (blk_lt L _ (by omega)))
  else outRest (F := F) d c i (taskOf L)

/-- Before trip `k`: the carried words, the tables' read tokens, the gather semaphores at rest, the fetches of block `k` and the
    write-outs of block `k - 1` in flight, and what the task owes. -/
def inv (k : ℕ) (acc : BitVec 32 × BitVec 32 × BitVec 32 × BitVec 32 × BitVec 32 × BitVec 32 × BitVec 32 × BitVec 32 × BitVec 32) : sProp 𝕄 :=
  iprop(⌜acc = wordsAt (nT L) k⌝ ∗ Transfers.MayWaits (V d c i) (none : HIx 1) O
    ∗ ((uW).view.loc (V d c i) ↦{tok (taskOf L)} cu d) ∗ ((vW).view.loc (V d c i) ↦{tok (taskOf L)} cv d)
    ∗ semVal (dcell (V d c i) 6 (by decide)) 0 ∗ semVal (dcell (V d c i) 7 (by decide)) 0
    ∗ fetchPart csrc cdst d c i L k ∗ outPart (F := F) d c i L k
    ∗ ∃ W', ⌜∀ p ∈ W', p ∈ W ∨ p.2 = none⌝ ∗ owes (V d c i) O W')

omit [FloatOps F] in
theorem fetchPart_even (k : ℕ) (h : k < nT L) (hp : k % 2 = 0) :
    fetchPart csrc cdst d c i L k = fetchAt0 csrc cdst d c i (taskOf L) (bT L + k) (blk_lt L k h) := by unfold fetchPart; rw [dif_pos h, if_pos hp]
omit [FloatOps F] in
theorem fetchPart_odd (k : ℕ) (h : k < nT L) (hp : k % 2 = 1) :
    fetchPart csrc cdst d c i L k = fetchAt1 csrc cdst d c i (taskOf L) (bT L + k) (blk_lt L k h) := by unfold fetchPart; rw [dif_pos h, if_neg (by omega)]
omit [FloatOps F] in
theorem fetchPart_rest (k : ℕ) (h : ¬ k < nT L) : fetchPart csrc cdst d c i L k = fetchRest csrc cdst d c i (taskOf L) := by unfold fetchPart; rw [dif_neg h]
omit [FloatOps F] in
theorem outPart_zero (k : ℕ) (h : k = 0) : outPart (F := F) d c i L k = outRest (F := F) d c i (taskOf L) := by unfold outPart; rw [dif_neg (by omega)]
omit [FloatOps F] in
theorem outPart_even (k : ℕ) (h : 0 < k ∧ k ≤ nT L) (hp : k % 2 = 0) :
    outPart (F := F) d c i L k = outAt1 (F := F) d c i (taskOf L) (bT L + (k - 1)) (blk_lt L _ (by omega)) := by unfold outPart; rw [dif_pos h, if_pos hp]
omit [FloatOps F] in
theorem outPart_odd (k : ℕ) (h : 0 < k ∧ k ≤ nT L) (hp : k % 2 = 1) :
    outPart (F := F) d c i L k = outAt0 (F := F) d c i (taskOf L) (bT L + (k - 1)) (blk_lt L _ (by omega)) := by unfold outPart; rw [dif_pos h, if_neg (by omega)]

end Inv

/-! ## The previous block's slice, at a positive trip -/
omit [FloatOps F] in
@[sl_canon] theorem canon_off29' (L : grid1.Coords) (j : ℕ) (hj : 0 < j ∧ j < nT L) (h : ∀ a, k1_off29 L (BitVec.ofNat 32 j) a + S128x128.size a ≤ S320000x128.size a) (hs) :
    (sW).slice (Rect.unit (k1_off29 L (BitVec.ofNat 32 j)) S128x128.size h) hs = sB (bT L + (j - 1)) (blk_lt L _ (by omega)) := by
  obtain ⟨j', rfl⟩ : ∃ j', j = j' + 1 := ⟨j - 1, by omega⟩
  exact Memref.slice_unit_congr _ (off29_eq' L ⟨j', by have := nT_le L; omega⟩ hj.2) _ _ _ (fun _ => rfl)
omit [FloatOps F] in
@[sl_canon] theorem canon_off32' (L : grid1.Coords) (j : ℕ) (hj : 0 < j ∧ j < nT L) (h : ∀ a, k1_off32 L (BitVec.ofNat 32 j) a + S128x128.size a ≤ S320000x128.size a) (hs) :
    (tW).slice (Rect.unit (k1_off32 L (BitVec.ofNat 32 j)) S128x128.size h) hs = tB (bT L + (j - 1)) (blk_lt L _ (by omega)) := by
  obtain ⟨j', rfl⟩ : ∃ j', j = j' + 1 := ⟨j - 1, by omega⟩
  exact Memref.slice_unit_congr _ (off32_eq' L ⟨j', by have := nT_le L; omega⟩ hj.2) _ _ _ (fun _ => rfl)

end Cert.Proof.KB

end
-- ==== Proof.ScTileDisjB.lean ====
import proofs.«210884_g88510686036700_cont_sun_m_1211_45_alg».proof.Proof.ScTileInvB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)
local notation "b0W" => (Memref.whole Cert.Kernel.cc1_scoped0 : Memref Cert.Kernel.sig Kind.scVector Space.vmem Cert.Kernel.S2x1x128 EltTy.i32)
local notation "b2W" => (Memref.whole Cert.Kernel.cc1_scoped2 : Memref Cert.Kernel.sig Kind.scVector Space.vmem Cert.Kernel.S2x1x128 EltTy.i32)
local notation "b4W" => (Memref.whole Cert.Kernel.cc1_scoped4 : Memref Cert.Kernel.sig Kind.scVector Space.vmem Cert.Kernel.S2x128x128 EltTy.f32)
local notation "b6W" => (Memref.whole Cert.Kernel.cc1_scoped6 : Memref Cert.Kernel.sig Kind.scVector Space.vmem Cert.Kernel.S2x128x128 EltTy.f32)

/-! ## Distinct blocks are disjoint -/

theorem srcB_disj (x y : ℕ) (hx : x < 2500) (hy : y < 2500) (h : x ≠ y) : Disjoint (srcB x hx).view.set (srcB y hy).view.set := by
  unfold srcB; simp only [Memref.view_slice, Memref.view_whole, View.set_slice_whole]
  refine Rect.unit_disjoint 1 ?_
  show 128 * x + 128 ≤ 128 * y ∨ 128 * y + 128 ≤ 128 * x
  omega
theorem dstB_disj (x y : ℕ) (hx : x < 2500) (hy : y < 2500) (h : x ≠ y) : Disjoint (dstB x hx).view.set (dstB y hy).view.set := by
  unfold dstB; simp only [Memref.view_slice, Memref.view_whole, View.set_slice_whole]
  refine Rect.unit_disjoint 1 ?_
  show 128 * x + 128 ≤ 128 * y ∨ 128 * y + 128 ≤ 128 * x
  omega

/-! ## The squeezed slot slices and the offset lists under their names -/
@[sl_canon] theorem canon_iS0 : iC0.squeeze S1x128 squeezes_S1x1x128_S1x128 = iS0 := rfl
theorem canon_iL0 (h) (hs) : (iS0.slice (Rect.unit (s := S1x128) ![0, 0] S1x128.size h) hs).squeeze S128 squeezes_S1x128_S128 = iL0 := rfl
@[sl_canon] theorem canon_iS1 : iC1.squeeze S1x128 squeezes_S1x1x128_S1x128 = iS1 := rfl
theorem canon_iL1 (h) (hs) : (iS1.slice (Rect.unit (s := S1x128) ![0, 0] S1x128.size h) hs).squeeze S128 squeezes_S1x128_S128 = iL1 := rfl
@[sl_canon] theorem canon_jS0 : jC0.squeeze S1x128 squeezes_S1x1x128_S1x128 = jS0 := rfl
theorem canon_jL0 (h) (hs) : (jS0.slice (Rect.unit (s := S1x128) ![0, 0] S1x128.size h) hs).squeeze S128 squeezes_S1x128_S128 = jL0 := rfl
@[sl_canon] theorem canon_jS1 : jC1.squeeze S1x128 squeezes_S1x1x128_S1x128 = jS1 := rfl
theorem canon_jL1 (h) (hs) : (jS1.slice (Rect.unit (s := S1x128) ![0, 0] S1x128.size h) hs).squeeze S128 squeezes_S1x128_S128 = jL1 := rfl
@[sl_canon] theorem canon_rS0 : rC0.squeeze S128x128 squeezes_S1x128x128_S128x128 = rS0 := rfl
@[sl_canon] theorem canon_rS1 : rC1.squeeze S128x128 squeezes_S1x128x128_S128x128 = rS1 := rfl
@[sl_canon] theorem canon_qS0 : qC0.squeeze S128x128 squeezes_S1x128x128_S128x128 = qS0 := rfl
@[sl_canon] theorem canon_qS1 : qC1.squeeze S128x128 squeezes_S1x128x128_S128x128 = qS1 := rfl

/-! ## The epilogue's slot offsets, at any word by its parity -/

theorem off66_w (w : BitVec 32) : k1_off66 w = ![w.toNat % 2] := by unfold k1_off66; simp only [remui2]
theorem off70_w (w : BitVec 32) : k1_off70 w = ![w.toNat % 2] := by unfold k1_off70; simp only [remui2]
theorem off67_w (w : BitVec 32) : k1_off67 w = ![w.toNat % 2, 0, 0] := by unfold k1_off67; simp only [remui2]
theorem off68_w (w : BitVec 32) : k1_off68 w = ![w.toNat % 2, 0, 0] := by unfold k1_off68; simp only [remui2]
@[sl_canon] theorem canon_off66_w0 (w : BitVec 32) (hw : w.toNat % 2 = 0) (h : ∀ a, k1_off66 w a + S1.size a ≤ S2.size a) :
    cc1_scoped5.slice (Rect.unit (k1_off66 w) S1.size h) = cc1_scoped5.slice (Rect.unit ![0] S1.size inb_m0) :=
  SemArray.slice_unit_congr _ (by rw [off66_w, hw]) _ _
@[sl_canon] theorem canon_off70_w0 (w : BitVec 32) (hw : w.toNat % 2 = 0) (h : ∀ a, k1_off70 w a + S1.size a ≤ S2.size a) :
    cc1_scoped7.slice (Rect.unit (k1_off70 w) S1.size h) = cc1_scoped7.slice (Rect.unit ![0] S1.size inb_m0) :=
  SemArray.slice_unit_congr _ (by rw [off70_w, hw]) _ _
@[sl_canon] theorem canon_off67_w0 (w : BitVec 32) (hw : w.toNat % 2 = 0) (h : ∀ a, k1_off67 w a + S1x128x128.size a ≤ S2x128x128.size a) (hs) :
    (b4W).slice (Rect.unit (k1_off67 w) S1x128x128.size h) hs = rC0 :=
  Memref.slice_unit_congr _ (by rw [off67_w, hw]) _ _ _ (fun _ => rfl)
@[sl_canon] theorem canon_off68_w0 (w : BitVec 32) (hw : w.toNat % 2 = 0) (h : ∀ a, k1_off68 w a + S1x128x128.size a ≤ S2x128x128.size a) (hs) :
    (b6W).slice (Rect.unit (k1_off68 w) S1x128x128.size h) hs = qC0 :=
  Memref.slice_unit_congr _ (by rw [off68_w, hw]) _ _ _ (fun _ => rfl)
@[sl_canon] theorem canon_off66_w1 (w : BitVec 32) (hw : w.toNat % 2 = 1) (h : ∀ a, k1_off66 w a + S1.size a ≤ S2.size a) :
    cc1_scoped5.slice (Rect.unit (k1_off66 w) S1.size h) = cc1_scoped5.slice (Rect.unit ![1] S1.size inb_m1) :=
  SemArray.slice_unit_congr _ (by rw [off66_w, hw]) _ _
@[sl_canon] theorem canon_off70_w1 (w : BitVec 32) (hw : w.toNat % 2 = 1) (h : ∀ a, k1_off70 w a + S1.size a ≤ S2.size a) :
    cc1_scoped7.slice (Rect.unit (k1_off70 w) S1.size h) = cc1_scoped7.slice (Rect.unit ![1] S1.size inb_m1) :=
  SemArray.slice_unit_congr _ (by rw [off70_w, hw]) _ _
@[sl_canon] theorem canon_off67_w1 (w : BitVec 32) (hw : w.toNat % 2 = 1) (h : ∀ a, k1_off67 w a + S1x128x128.size a ≤ S2x128x128.size a) (hs) :
    (b4W).slice (Rect.unit (k1_off67 w) S1x128x128.size h) hs = rC1 :=
  Memref.slice_unit_congr _ (by rw [off67_w, hw]) _ _ _ (fun _ => rfl)
@[sl_canon] theorem canon_off68_w1 (w : BitVec 32) (hw : w.toNat % 2 = 1) (h : ∀ a, k1_off68 w a + S1x128x128.size a ≤ S2x128x128.size a) (hs) :
    (b6W).slice (Rect.unit (k1_off68 w) S1x128x128.size h) hs = qC1 :=
  Memref.slice_unit_congr _ (by rw [off68_w, hw]) _ _ _ (fun _ => rfl)

/-! ## Waits recorded at the trivial level -/

theorem waits_insert {W W' : Waits sig (HIx 1)} {s : SemLoc sig} (h : ∀ p ∈ W', p ∈ W ∨ p.2 = none) :
    ∀ p ∈ insert (s, (default : HIx 1)) W', p ∈ W ∨ p.2 = none := by
  intro p hp
  rcases Finset.mem_insert.mp hp with hp | hp
  · exact .inr (hp ▸ rfl)
  · exact h p hp

theorem waits_insert3 {W W' : Waits sig (HIx 1)} {s : SemLoc sig} (h : ∀ p ∈ W', p ∈ W ∨ p.2 = none ∨ p.2 = some (0 : Fin 1)) :
    ∀ p ∈ insert (s, (default : HIx 1)) W', p ∈ W ∨ p.2 = none ∨ p.2 = some (0 : Fin 1) := by
  intro p hp
  rcases Finset.mem_insert.mp hp with hp | hp
  · exact .inr (.inl (hp ▸ rfl))
  · exact h p hp

/-! ## Putting a block back -/

section Rejoin
variable {ℓ : Loc nD τ sig} {A I J : Finset (Idx ℓ)} {q : PosShare TreeShare} {f g : Buf (Elt F) ℓ}

/-- A read block back into the row held less it and the next block: the row less the next block. -/
theorem pts_rejoin (h : Disjoint I J) :
    iprop((ℓ ↦[I]{q} f) ∗ ℓ ↦[(Finset.univ \ I) \ J]{q} f) ⊢ (ℓ ↦[Finset.univ \ J]{q} f : sProp 𝕄) := by
  have e : I ∪ ((Finset.univ \ I) \ J) = Finset.univ \ J := by
    ext x
    have hxd : x ∈ I → x ∉ J := fun hx => Finset.disjoint_left.mp h hx
    simp only [Finset.mem_union, Finset.mem_sdiff, Finset.mem_univ, true_and]
    tauto
  have hd : Disjoint I ((Finset.univ \ I) \ J) :=
    Finset.disjoint_left.mpr fun x hx hx' => (Finset.mem_sdiff.mp (Finset.mem_sdiff.mp hx').1).2 hx
  exact (pointsTo_union hd).2.trans (Entails.of_eq (by rw [e]))

/-- A written block back into the rows held less it and the next block: the rows less the next block, at some contents. -/
theorem pts_swap_join (hI : I ⊆ A) (hd : Disjoint I J) :
    iprop((ℓ ↦[I]{q} g) ∗ ℓ ↦[(A \ I) \ J]{q} f) ⊢ (iprop(∃ f', ℓ ↦[A \ J]{q} f') : sProp 𝕄) := by
  have hI' : I ⊆ A \ J := fun x hx => Finset.mem_sdiff.mpr ⟨hI hx, Finset.disjoint_left.mp hd hx⟩
  rw [sdiff_right_comm]
  iintro H
  iexists _
  iapply (pointsTo_join_subset hI') $$ H

/-- A block back into the rows held less it: the rows, at some contents. -/
theorem pts_join_ex (hI : I ⊆ A) :
    iprop((ℓ ↦[I]{q} g) ∗ ℓ ↦[A \ I]{q} f) ⊢ (iprop(∃ f', ℓ ↦[A]{q} f') : sProp 𝕄) := by
  iintro H
  iexists _
  iapply (pointsTo_join_subset hI) $$ H

end Rejoin

/-! ## The task's rows of a gathered array, a block at a time -/

section Rows
variable (d : Dev nD) (c : Fin τ.nSC) (i : Fin τ.nSub) (w : Fin 32)

/-- Block `y` out of the task's rows held whole. -/
theorem s_carve0 (y : ℕ) (hy : y < 2500) (hsub : rowsBlk y ⊆ rowsOf w) (f : Buf (Elt F) ((sW).view.loc (V d c i))) :
    ((sW).view.loc (V d c i) ↦[rowsOf w]{fullShare} f : sProp 𝕄)
      ⊢ iprop(((sB y hy).view.loc (V d c i) ↦[(sB y hy).view.set]{fullShare} f) ∗ (sW).view.loc (V d c i) ↦[rowsOf w \ (sB y hy).view.set]{fullShare} f) := by
  have h : (sB y hy).view.set ⊆ rowsOf w := by rw [sB_set]; exact hsub
  exact (pointsTo_split_subset h).1
/-- Block `y` out of the task's rows held less block `x`. -/
theorem s_carve (x y : ℕ) (hy : y < 2500) (hxy : x ≠ y) (hsub : rowsBlk y ⊆ rowsOf w) (f : Buf (Elt F) ((sW).view.loc (V d c i))) :
    ((sW).view.loc (V d c i) ↦[rowsOf w \ rowsBlk x]{fullShare} f : sProp 𝕄)
      ⊢ iprop(((sB y hy).view.loc (V d c i) ↦[(sB y hy).view.set]{fullShare} f) ∗ (sW).view.loc (V d c i) ↦[(rowsOf w \ rowsBlk x) \ (sB y hy).view.set]{fullShare} f) := by
  have h : (sB y hy).view.set ⊆ rowsOf w \ rowsBlk x := by
    rw [sB_set]; exact fun z hz => Finset.mem_sdiff.mpr ⟨hsub hz, Finset.disjoint_left.mp (rowsBlk_disj y x (Ne.symm hxy)) hz⟩
  exact (pointsTo_split_subset h).1
/-- The rows less block `y`, respelt. -/
theorem s_rest (y : ℕ) (hy : y < 2500) (f : Buf (Elt F) ((sW).view.loc (V d c i))) :
    ((sW).view.loc (V d c i) ↦[rowsOf w \ (sB y hy).view.set]{fullShare} f : sProp 𝕄) ⊢ (sW).view.loc (V d c i) ↦[rowsOf w \ rowsBlk y]{fullShare} f :=
  Entails.of_eq (by rw [sB_set])
/-- Block `x`, back from its write-out, joined to the rows held less it and block `y`. -/
theorem s_join (x y : ℕ) (hx : x < 2500) (hy : y < 2500) (hxy : x ≠ y) (hsub : rowsBlk x ⊆ rowsOf w)
    (g : Buf (Elt F) ((sB x hx).view.loc (V d c i))) (f : Buf (Elt F) ((sW).view.loc (V d c i))) :
    (iprop(((sB x hx).view.loc (V d c i) ↦[(sB x hx).view.set]{fullShare} g) ∗ (sW).view.loc (V d c i) ↦[(rowsOf w \ rowsBlk x) \ (sB y hy).view.set]{fullShare} f) : sProp 𝕄)
      ⊢ iprop(∃ f', (sW).view.loc (V d c i) ↦[rowsOf w \ rowsBlk y]{fullShare} f') := by
  rw [sB_set, sB_set]
  exact pts_swap_join (ℓ := (sW).view.loc (V d c i)) hsub (rowsBlk_disj x y hxy)
/-- The last block, back from its write-out, joined to the rows held less it. -/
theorem s_join_last (x : ℕ) (hx : x < 2500) (hsub : rowsBlk x ⊆ rowsOf w)
    (g : Buf (Elt F) ((sB x hx).view.loc (V d c i))) (f : Buf (Elt F) ((sW).view.loc (V d c i))) :
    (iprop(((sB x hx).view.loc (V d c i) ↦[(sB x hx).view.set]{fullShare} g) ∗ (sW).view.loc (V d c i) ↦[rowsOf w \ rowsBlk x]{fullShare} f) : sProp 𝕄)
      ⊢ iprop(∃ f', (sW).view.loc (V d c i) ↦[rowsOf w]{fullShare} f') := by
  rw [sB_set]
  exact pts_join_ex (ℓ := (sW).view.loc (V d c i)) hsub

/-- Block `y` out of the task's rows held whole. -/
theorem t_carve0 (y : ℕ) (hy : y < 2500) (hsub : rowsBlk y ⊆ rowsOf w) (f : Buf (Elt F) ((tW).view.loc (V d c i))) :
    ((tW).view.loc (V d c i) ↦[rowsOf w]{fullShare} f : sProp 𝕄)
      ⊢ iprop(((tB y hy).view.loc (V d c i) ↦[(tB y hy).view.set]{fullShare} f) ∗ (tW).view.loc (V d c i) ↦[rowsOf w \ (tB y hy).view.set]{fullShare} f) := by
  have h : (tB y hy).view.set ⊆ rowsOf w := by rw [tB_set]; exact hsub
  exact (pointsTo_split_subset h).1
/-- Block `y` out of the task's rows held less block `x`. -/
theorem t_carve (x y : ℕ) (hy : y < 2500) (hxy : x ≠ y) (hsub : rowsBlk y ⊆ rowsOf w) (f : Buf (Elt F) ((tW).view.loc (V d c i))) :
    ((tW).view.loc (V d c i) ↦[rowsOf w \ rowsBlk x]{fullShare} f : sProp 𝕄)
      ⊢ iprop(((tB y hy).view.loc (V d c i) ↦[(tB y hy).view.set]{fullShare} f) ∗ (tW).view.loc (V d c i) ↦[(rowsOf w \ rowsBlk x) \ (tB y hy).view.set]{fullShare} f) := by
  have h : (tB y hy).view.set ⊆ rowsOf w \ rowsBlk x := by
    rw [tB_set]; exact fun z hz => Finset.mem_sdiff.mpr ⟨hsub hz, Finset.disjoint_left.mp (rowsBlk_disj y x (Ne.symm hxy)) hz⟩
  exact (pointsTo_split_subset h).1
/-- The rows less block `y`, respelt. -/
theorem t_rest (y : ℕ) (hy : y < 2500) (f : Buf (Elt F) ((tW).view.loc (V d c i))) :
    ((tW).view.loc (V d c i) ↦[rowsOf w \ (tB y hy).view.set]{fullShare} f : sProp 𝕄) ⊢ (tW).view.loc (V d c i) ↦[rowsOf w \ rowsBlk y]{fullShare} f :=
  Entails.of_eq (by rw [tB_set])
/-- Block `x`, back from its write-out, joined to the rows held less it and block `y`. -/
theorem t_join (x y : ℕ) (hx : x < 2500) (hy : y < 2500) (hxy : x ≠ y) (hsub : rowsBlk x ⊆ rowsOf w)
    (g : Buf (Elt F) ((tB x hx).view.loc (V d c i))) (f : Buf (Elt F) ((tW).view.loc (V d c i))) :
    (iprop(((tB x hx).view.loc (V d c i) ↦[(tB x hx).view.set]{fullShare} g) ∗ (tW).view.loc (V d c i) ↦[(rowsOf w \ rowsBlk x) \ (tB y hy).view.set]{fullShare} f) : sProp 𝕄)
      ⊢ iprop(∃ f', (tW).view.loc (V d c i) ↦[rowsOf w \ rowsBlk y]{fullShare} f') := by
  rw [tB_set, tB_set]
  exact pts_swap_join (ℓ := (tW).view.loc (V d c i)) hsub (rowsBlk_disj x y hxy)
/-- The last block, back from its write-out, joined to the rows held less it. -/
theorem t_join_last (x : ℕ) (hx : x < 2500) (hsub : rowsBlk x ⊆ rowsOf w)
    (g : Buf (Elt F) ((tB x hx).view.loc (V d c i))) (f : Buf (Elt F) ((tW).view.loc (V d c i))) :
    (iprop(((tB x hx).view.loc (V d c i) ↦[(tB x hx).view.set]{fullShare} g) ∗ (tW).view.loc (V d c i) ↦[rowsOf w \ rowsBlk x]{fullShare} f) : sProp 𝕄)
      ⊢ iprop(∃ f', (tW).view.loc (V d c i) ↦[rowsOf w]{fullShare} f') := by
  rw [tB_set]
  exact pts_join_ex (ℓ := (tW).view.loc (V d c i)) hsub

end Rows

end Cert.Proof.KB

end
-- ==== Proof.ScTileYieldB.lean ====
import proofs.«210884_g88510686036700_cont_sun_m_1211_45_alg».proof.Proof.ScTileInvB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The words a trip yields: the kernel's own arithmetic, as a function of the words it carries in -/

def yieldFn (i : grid1.Coords) (k1_t1 : Fin (k1_t1_loop i).trips)
    (arg11_r0 arg12_r0 arg13_r0 arg14_r0 arg15_r0 arg16_r0 arg17_r0 arg18_r0 arg19_r0 : BitVec 32) :
    BitVec 32 × BitVec 32 × BitVec 32 × BitVec 32 × BitVec 32 × BitVec 32 × BitVec 32 × BitVec 32 × BitVec 32 :=
  let arg0 : BitVec 32 := BitVec.ofNat 32 (i 0).val
  let arg1 : BitVec 32 := BitVec.ofNat 32 (i 1).val
  let v0 : BitVec 32 := Scalar.muli arg1 1#32
  let v1 : BitVec 32 := Scalar.addi 0#32 v0
  let v2 : BitVec 32 := Scalar.muli arg0 16#32
  let v3 : BitVec 32 := Scalar.addi v1 v2
  let v4 : BitVec 1 := Scalar.cmpi .slt v3 4#32
  let v5 : BitVec 32 := Scalar.select v4 79#32 78#32
  let v6 : BitVec 1 := Scalar.cmpi .slt v3 4#32
  let v7 : BitVec 32 := Scalar.muli v3 v5
  let v8 : BitVec 32 := Scalar.muli v3 78#32
  let v9 : BitVec 32 := Scalar.addi v8 4#32
  let v10 : BitVec 32 := Scalar.select v6 v7 v9
  let v11 : BitVec 32 := Scalar.muli 1#32 v5
  let arg10_r0 : BitVec 32 := Scf.iv 0#32 1#32 k1_t1
  let c2_i32_95_r0 : BitVec 32 := 2#32
  let v101_r0 : BitVec 32 := Scalar.muli 1#32 v5
  let v102_r0 : BitVec 1 := Scalar.cmpi .eq arg10_r0 0#32
  let v103_r0 : BitVec 32 := Scalar.subi v101_r0 1#32
  let v104_r0 : BitVec 1 := Scalar.cmpi .eq arg10_r0 v103_r0
  let v105_r0 : BitVec 32 := Scalar.addi arg19_r0 v10
  let v106_r0 : BitVec 32 := Scalar.subi arg19_r0 1#32
  let v107_r0 : BitVec 32 := Scalar.select 1#1 v106_r0 arg19_r0
  let v108_r0 : BitVec 1 := Scalar.cmpi .eq v107_r0 4294967295#32
  let v109_r0 : BitVec 32 := Scalar.subi v5 1#32
  let v110_r0 : BitVec 32 := Scalar.select v108_r0 v109_r0 v107_r0
  let v111_r0 : BitVec 32 := Scalar.addi v110_r0 v10
  let v112_r0 : BitVec 32 := Scalar.addi arg19_r0 1#32
  let v113_r0 : BitVec 32 := Scalar.select 1#1 v112_r0 arg19_r0
  let v114_r0 : BitVec 1 := Scalar.cmpi .eq v113_r0 v5
  let v115_r0 : BitVec 32 := Scalar.select v114_r0 0#32 v113_r0
  let v116_r0 : BitVec 32 := Scalar.addi v115_r0 v10
  let v122_r0 : BitVec 1 := Scalar.cmpi .ne v105_r0 v116_r0
  let v123_r0 : BitVec 32 := Scalar.subi v101_r0 2#32
  let v124_r0 : BitVec 32 := Scalar.addi v123_r0 1#32
  let v125_r0 : BitVec 1 := Scalar.cmpi .sge arg10_r0 v124_r0
  let v126_r0 : BitVec 1 := Scalar.xori v125_r0 1#1
  let v127_r0 : BitVec 1 := Scalar.andi v122_r0 v126_r0
  let v130_r0 : BitVec 1 := Scalar.andi v127_r0 1#1
  let v131_r0 : BitVec 32 := Scalar.addi arg11_r0 1#32
  let v132_r0 : BitVec 32 := Scalar.select v130_r0 v131_r0 arg11_r0
  let v133_r0 : BitVec 1 := Scalar.cmpi .ne v105_r0 v116_r0
  let v134_r0 : BitVec 32 := Scalar.subi v101_r0 c2_i32_95_r0
  let v135_r0 : BitVec 32 := Scalar.addi v134_r0 1#32
  let v136_r0 : BitVec 1 := Scalar.cmpi .sge arg10_r0 v135_r0
  let v137_r0 : BitVec 1 := Scalar.xori v136_r0 1#1
  let v138_r0 : BitVec 1 := Scalar.andi v133_r0 v137_r0
  let v141_r0 : BitVec 1 := Scalar.andi v138_r0 1#1
  let v142_r0 : BitVec 32 := Scalar.addi arg13_r0 1#32
  let v143_r0 : BitVec 32 := Scalar.select v141_r0 v142_r0 arg13_r0
  let v170_r0 : BitVec 1 := Scalar.cmpi .ne v105_r0 v111_r0
  let v171_r0 : BitVec 1 := Scalar.ori v170_r0 v102_r0
  let v172_r0 : BitVec 1 := Scalar.cmpi .slt arg10_r0 0#32
  let v216_r0 : BitVec 1 := Scalar.cmpi .ne v105_r0 v116_r0
  let v217_r0 : BitVec 1 := Scalar.ori v216_r0 v104_r0
  let v218_r0 : BitVec 32 := Scalar.extui v217_r0
  let v219_r0 : BitVec 1 := Scalar.cmpi .ne v218_r0 0#32
  let v221_r0 : BitVec 1 := Scalar.cmpi .ne v105_r0 v116_r0
  let v222_r0 : BitVec 1 := Scalar.ori v221_r0 v104_r0
  let v223_r0 : BitVec 32 := Scalar.extui v222_r0
  let v224_r0 : BitVec 1 := Scalar.cmpi .ne v223_r0 0#32
  let v226_r0 : BitVec 1 := Scalar.cmpi .ne v105_r0 v116_r0
  let v227_r0 : BitVec 1 := Scalar.ori v226_r0 v104_r0
  let v230_r0 : BitVec 1 := Scalar.andi v227_r0 1#1
  let v231_r0 : BitVec 32 := Scalar.addi arg15_r0 1#32
  let v232_r0 : BitVec 32 := Scalar.select v230_r0 v231_r0 arg15_r0
  let v233_r0 : BitVec 1 := Scalar.cmpi .ne v105_r0 v116_r0
  let v234_r0 : BitVec 1 := Scalar.ori v233_r0 v104_r0
  let v235_r0 : BitVec 32 := Scalar.extui v234_r0
  let v237_r0 : BitVec 1 := Scalar.andi v234_r0 1#1
  let v238_r0 : BitVec 32 := Scalar.addi arg17_r0 1#32
  let v239_r0 : BitVec 32 := Scalar.select v237_r0 v238_r0 arg17_r0
  let v240_r0 : BitVec 1 := Scalar.cmpi .ne v105_r0 v111_r0
  let v241_r0 : BitVec 1 := Scalar.xori v102_r0 1#1
  let v242_r0 : BitVec 1 := Scalar.andi v240_r0 v241_r0
  let v243_r0 : BitVec 32 := Scalar.extui v242_r0
  let v244_r0 : BitVec 1 := Scalar.cmpi .ne v243_r0 0#32
  let v246_r0 : BitVec 1 := Scalar.cmpi .ne v105_r0 v111_r0
  let v247_r0 : BitVec 1 := Scalar.xori v102_r0 1#1
  let v248_r0 : BitVec 1 := Scalar.andi v246_r0 v247_r0
  let v249_r0 : BitVec 32 := Scalar.extui v248_r0
  let v250_r0 : BitVec 1 := Scalar.cmpi .ne v249_r0 0#32
  let v252_r0 : BitVec 1 := Scalar.cmpi .ne v105_r0 v111_r0
  let v253_r0 : BitVec 1 := Scalar.xori v102_r0 1#1
  let v254_r0 : BitVec 1 := Scalar.andi v252_r0 v253_r0
  let v257_r0 : BitVec 1 := Scalar.andi v254_r0 1#1
  let v258_r0 : BitVec 32 := Scalar.addi arg16_r0 1#32
  let v259_r0 : BitVec 32 := Scalar.select v257_r0 v258_r0 arg16_r0
  let v260_r0 : BitVec 1 := Scalar.cmpi .ne v105_r0 v111_r0
  let v261_r0 : BitVec 1 := Scalar.xori v102_r0 1#1
  let v262_r0 : BitVec 1 := Scalar.andi v260_r0 v261_r0
  let v265_r0 : BitVec 1 := Scalar.andi v262_r0 1#1
  let v266_r0 : BitVec 32 := Scalar.addi arg18_r0 1#32
  let v267_r0 : BitVec 32 := Scalar.select v265_r0 v266_r0 arg18_r0
  let v268_r0 : BitVec 1 := Scalar.cmpi .ne v105_r0 v116_r0
  let v269_r0 : BitVec 1 := Scalar.ori v268_r0 v104_r0
  let v270_r0 : BitVec 32 := Scalar.addi arg12_r0 1#32
  let v271_r0 : BitVec 32 := Scalar.select v269_r0 v270_r0 arg12_r0
  let v272_r0 : BitVec 1 := Scalar.cmpi .ne v105_r0 v116_r0
  let v273_r0 : BitVec 1 := Scalar.ori v272_r0 v104_r0
  let v274_r0 : BitVec 32 := Scalar.addi arg14_r0 1#32
  let v275_r0 : BitVec 32 := Scalar.select v273_r0 v274_r0 arg14_r0
  let v276_r0 : BitVec 32 := Scalar.addi arg19_r0 1#32
  let v277_r0 : BitVec 32 := Scalar.select 1#1 v276_r0 arg19_r0
  let v278_r0 : BitVec 1 := Scalar.cmpi .eq v277_r0 v5
  let v279_r0 : BitVec 32 := Scalar.select v278_r0 0#32 v277_r0
  (v132_r0, v271_r0, v143_r0, v275_r0, v232_r0, v259_r0, v239_r0, v267_r0, v279_r0)

set_option synthInstance.maxSize 100000 in
set_option synthInstance.maxHeartbeats 0 in
/-- From the words before trip `k`, the trip yields the words before trip `k + 1`. -/
theorem yield_eq : ∀ L : grid1.Coords, ∀ k : Fin (k1_t1_loop L).trips,
    yieldFn L k (BitVec.ofNat 32 (if k.val + 1 < nT L then k.val + 1 else nT L)) (BitVec.ofNat 32 k.val) (BitVec.ofNat 32 (if k.val + 1 < nT L then k.val + 1 else nT L)) (BitVec.ofNat 32 k.val) (BitVec.ofNat 32 k.val) (BitVec.ofNat 32 (k.val - 1)) (BitVec.ofNat 32 k.val) (BitVec.ofNat 32 (k.val - 1)) (BitVec.ofNat 32 k.val) = wordsAt (nT L) (k.val + 1) := by decide +kernel

end Cert.Proof.KB

end
-- ==== Proof.ScTileChkB.lean ====
import proofs.«210884_g88510686036700_cont_sun_m_1211_45_alg».proof.Proof.ScTileArithB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The side conditions the kernel assumes, at the words the loop carries -/

theorem chk2_ok : ∀ L : grid1.Coords, ∀ j : Fin 80, k1_chk2 L (BitVec.ofNat 32 j.val) := by decide +kernel
theorem chk3_ok : ∀ L : grid1.Coords, ∀ j : Fin 80, k1_chk3 L (BitVec.ofNat 32 j.val) := by decide +kernel
theorem chk4_ok : ∀ L : grid1.Coords, ∀ j : Fin 80, k1_chk4 L (BitVec.ofNat 32 j.val) := by decide +kernel
theorem chk5_ok : ∀ L : grid1.Coords, ∀ j : Fin 80, k1_chk5 L (BitVec.ofNat 32 j.val) := by decide +kernel
theorem chk11_ok : ∀ L : grid1.Coords, ∀ j : Fin 80, k1_chk11 L (BitVec.ofNat 32 j.val) := by decide +kernel
theorem chk13_ok : ∀ L : grid1.Coords, ∀ j : Fin 80, k1_chk13 L (BitVec.ofNat 32 j.val) := by decide +kernel
theorem chk12_ok : ∀ L : grid1.Coords, k1_chk12 L 0#32 := by decide +kernel

theorem chk1_all : ∀ L : grid1.Coords, ∀ k : Fin (k1_t1_loop L).trips,
    k1_chk1 L k (BitVec.ofNat 32 (if k.val + 1 < nT L then k.val + 1 else nT L)) (BitVec.ofNat 32 k.val) (BitVec.ofNat 32 (if k.val + 1 < nT L then k.val + 1 else nT L)) (BitVec.ofNat 32 k.val) (BitVec.ofNat 32 k.val) (BitVec.ofNat 32 (k.val - 1)) (BitVec.ofNat 32 k.val) (BitVec.ofNat 32 (k.val - 1)) (BitVec.ofNat 32 k.val) := by decide +kernel

end Cert.Proof.KB

end
-- ==== Proof.ScTileChk2B.lean ====
import proofs.«210884_g88510686036700_cont_sun_m_1211_45_alg».proof.Proof.ScTileChkB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The side conditions over a natural below 80 -/
theorem chk2_nat (L : grid1.Coords) (x : ℕ) (hx : x < 80) : k1_chk2 L (BitVec.ofNat 32 x) := chk2_ok L ⟨x, hx⟩
theorem chk3_nat (L : grid1.Coords) (x : ℕ) (hx : x < 80) : k1_chk3 L (BitVec.ofNat 32 x) := chk3_ok L ⟨x, hx⟩
theorem chk4_nat (L : grid1.Coords) (x : ℕ) (hx : x < 80) : k1_chk4 L (BitVec.ofNat 32 x) := chk4_ok L ⟨x, hx⟩
theorem chk5_nat (L : grid1.Coords) (x : ℕ) (hx : x < 80) : k1_chk5 L (BitVec.ofNat 32 x) := chk5_ok L ⟨x, hx⟩
theorem chk11_nat (L : grid1.Coords) (x : ℕ) (hx : x < 80) : k1_chk11 L (BitVec.ofNat 32 x) := chk11_ok L ⟨x, hx⟩
theorem chk13_nat (L : grid1.Coords) (x : ℕ) (hx : x < 80) : k1_chk13 L (BitVec.ofNat 32 x) := chk13_ok L ⟨x, hx⟩

end Cert.Proof.KB

end
-- ==== Proof.ScTileFinB.lean ====
/-
  The end of a task, as a pure entailment: with no fetch and no write-out in flight, the read tokens, the slots of the
  four scoped buffers, the ten semaphores at zero and the rests of the subcore's own storage are what the task was
  handed: its resources and the subcore's scoped buffers and semaphores.
-/
import proofs.«210884_g88510686036700_cont_sun_m_1211_45_alg».proof.Proof.ScTileInvB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)
local notation "b0W" => (Memref.whole Cert.Kernel.cc1_scoped0 : Memref Cert.Kernel.sig Kind.scVector Space.vmem Cert.Kernel.S2x1x128 EltTy.i32)
local notation "b2W" => (Memref.whole Cert.Kernel.cc1_scoped2 : Memref Cert.Kernel.sig Kind.scVector Space.vmem Cert.Kernel.S2x1x128 EltTy.i32)
local notation "b4W" => (Memref.whole Cert.Kernel.cc1_scoped4 : Memref Cert.Kernel.sig Kind.scVector Space.vmem Cert.Kernel.S2x128x128 EltTy.f32)
local notation "b6W" => (Memref.whole Cert.Kernel.cc1_scoped6 : Memref Cert.Kernel.sig Kind.scVector Space.vmem Cert.Kernel.S2x128x128 EltTy.f32)

section Fin

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

/-- The slots joined back to their buffers, the whole-array points-to facts respelt at the arrays' own locations. -/
theorem reassemble (hF : (K (F := F)).Facts) :
    iprop(((uW).view.loc (V d c i) ↦{tok w} cu d) ∗ ((vW).view.loc (V d c i) ↦{tok w} cv d)
        ∗ semVal (dcell (V d c i) 6 (by decide)) 0 ∗ semVal (dcell (V d c i) 7 (by decide)) 0
        ∗ fetchRest csrc cdst d c i w ∗ outRest (F := F) d c i w
        ∗ bigSep (((((ownRefs (τ := τ) (.scVector c i)).erase ((Proc.scVector c i).devRef cc1_scoped0)).erase ((Proc.scVector c i).devRef cc1_scoped2)).erase ((Proc.scVector c i).devRef cc1_scoped4)).erase ((Proc.scVector c i).devRef cc1_scoped6))
          (fun b => iprop(∃ f, ((d, b) : Loc nD τ sig) ↦{fullShare} f) : DevRef τ sig → sProp 𝕄)
        ∗ bigSep (((((((((((ownCells (V d c i)).erase (dcell (V d c i) 6 (by decide))).erase (dcell (V d c i) 7 (by decide))).erase (dcell (V d c i) 8 (by decide))).erase (dcell (V d c i) 9 (by decide))).erase (dcell (V d c i) 10 (by decide))).erase (dcell (V d c i) 11 (by decide))).erase (dcell (V d c i) 12 (by decide))).erase (dcell (V d c i) 13 (by decide))).erase (dcell (V d c i) 14 (by decide))).erase (dcell (V d c i) 15 (by decide)))
          (fun g => semVal g 0 : GSem nD τ sig → sProp 𝕄))
      ⊢ (iprop(taskRes cu cv csrc cdst d w ∗ scopedBufs (V d c i) ∗ scopedSems0 (V d c i)) : sProp 𝕄) := by
  unfold fetchRest outRest taskRes readRes writeRes
  rw [(K (F := F)).scopedBufs_V hF d c i, SparseCore.Cfg.scopedSems0_V (Val := Elt F) d c i, ownSems0_split, ownBufs_split]
  iintro ⟨Hu, Hv, Hm6, Hm7, ⟨Hsrc, Hdst, Hi0, Hi1, Hj0, Hj1, Hm8, Hm9, Hm10, Hm11⟩, ⟨Hs, Ht, Hr0, Hr1, Hq0, Hq1, Hm12, Hm13, Hm14, Hm15⟩, Hbufs, Hsems⟩
  ihave Hb0 := (i_join (F := F) d c i) $$ [Hi0 Hi1]
  · isplitl [Hi0]
    · iexact Hi0
    · iexact Hi1
  ihave Hb2 := (j_join (F := F) d c i) $$ [Hj0 Hj1]
  · isplitl [Hj0]
    · iexact Hj0
    · iexact Hj1
  ihave Hb4 := (r_join (F := F) d c i) $$ [Hr0 Hr1]
  · isplitl [Hr0]
    · iexact Hr0
    · iexact Hr1
  ihave Hb6 := (q_join (F := F) d c i) $$ [Hq0 Hq1]
  · isplitl [Hq0]
    · iexact Hq0
    · iexact Hq1
  ihave Hu := (Entails.of_eq (show (((uW).view.loc (V d c i) ↦{tok w} cu d : sProp 𝕄)) = (uLoc d ↦{tok w} cu d) from rfl)) $$ Hu
  ihave Hv := (Entails.of_eq (show (((vW).view.loc (V d c i) ↦{tok w} cv d : sProp 𝕄)) = (vLoc d ↦{tok w} cv d) from rfl)) $$ Hv
  ihave Hsrc := (Entails.of_eq (show (((srcW).view.loc (V d c i) ↦{tok w} csrc d : sProp 𝕄)) = (srcLoc d ↦{tok w} csrc d) from rfl)) $$ Hsrc
  ihave Hdst := (Entails.of_eq (show (((dstW).view.loc (V d c i) ↦{tok w} cdst d : sProp 𝕄)) = (dstLoc d ↦{tok w} cdst d) from rfl)) $$ Hdst
  icases Hs with ⟨%fs, Hs⟩
  icases Ht with ⟨%ft, Ht⟩
  ihave Hs := (Entails.of_eq (show (((sW).view.loc (V d c i) ↦[rowsOf w]{fullShare} fs : sProp 𝕄)) = (sLoc d ↦[rowsOf w]{fullShare} fs) from rfl)) $$ Hs
  ihave Ht := (Entails.of_eq (show (((tW).view.loc (V d c i) ↦[rowsOf w]{fullShare} ft : sProp 𝕄)) = (tLoc d ↦[rowsOf w]{fullShare} ft) from rfl)) $$ Ht
  isplitl [Hu Hv Hsrc Hdst Hs Ht]
  · isplitl [Hu Hv Hsrc Hdst]
    · isplitl [Hu]; · iexact Hu
      isplitl [Hv]; · iexact Hv
      isplitl [Hsrc]; · iexact Hsrc
      iexact Hdst
    · isplitl [Hs]
      · iexists fs; iexact Hs
      · iexists ft; iexact Ht
  · isplitl [Hb0 Hb2 Hb4 Hb6 Hbufs]
    · isplitl [Hb0]; · iexact Hb0
      isplitl [Hb2]; · iexact Hb2
      isplitl [Hb4]; · iexact Hb4
      isplitl [Hb6]; · iexact Hb6
      iexact Hbufs
    · isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      iexact Hsems

end Fin

end Cert.Proof.KB

end
-- ==== Proof.ScGatherValB.lean ====
/-
  What an indirect row gather of a [10000, 128] table into a [128, 128] slot writes, read at a row and a column: row p of
  the slot is the table's row named by entry p of the offset list.
-/
import proofs.«210884_g88510686036700_cont_sun_m_1211_45_alg».proof.Proof.CommonB
import Idealize.ShloMosaic.Lib.SparseCore.Stream
import Idealize.ShloMosaic.Lib.ValueIdx

noncomputable section

namespace Cert.Proof.KB

open Cert.Kernel Cert.Kernel.Gen
open Idealize.ShloMosaic Idealize.ShloMosaic.ValueIdx

variable {F : FTy → Type}

/-- The source index of the gather for the slot's element (p, k): the named row, the same column. -/
theorem gather_idx (r : Fin (S128x128.size gathers_S10000x128_S128x128.axis') → Fin (S10000x128.size gathers_S10000x128_S128x128.axis)) (p k : Fin 128) :
    gathers_S10000x128_S128x128.idx r (ix2 p k) = (ix2 (r p) k : S10000x128.Idx) := by
  funext b
  match b with
  | ⟨0, _⟩ => exact Shape.Gathers.idx_axis gathers_S10000x128_S128x128 r (ix2 p k)
  | ⟨1, _⟩ => exact Fin.ext (Shape.Gathers.idx_of_ne gathers_S10000x128_S128x128 r (ix2 p k) ⟨1, by decide⟩ (by decide))

/-- The gather's payload at (p, k). -/
theorem gatherPayload_apply {e : EltTy} (g : S10000x128.Idx → Elt F e)
    (r : Fin (S128x128.size gathers_S10000x128_S128x128.axis') → Fin (S10000x128.size gathers_S10000x128_S128x128.axis)) (p k : Fin 128) :
    SparseCore.gatherPayload gathers_S10000x128_S128x128 g r (ix2 p k) = g (ix2 (r p) k) := by
  unfold SparseCore.gatherPayload; rw [gather_idx]

/-- The row an offset list of 128 words names at entry p is the word there. -/
theorem rows_val (idx : S128.Idx → Elt F .i32) (hn : S128.numel = S128x128.size gathers_S10000x128_S128x128.axis')
    (h : ∀ x, (idx x).toNat < S10000x128.size gathers_S10000x128_S128x128.axis) (p : Fin 128) :
    (SparseCore.rows idx hn h p).val = (idx (ix1 p)).toNat := by
  unfold SparseCore.rows
  show (idx (S128.rowMajor.symm (Fin.cast hn.symm p))).toNat = (idx (ix1 p)).toNat
  congr 2
  apply S128.rowMajor.injective
  rw [Equiv.apply_symm_apply]
  apply Fin.ext
  show p.val = (S128.rowMajor (ix1 p)).val
  simp [Shape.rowMajor_val_one]

end Cert.Proof.KB

end
-- ==== Proof.ScTileValB.lean ====
import proofs.«210884_g88510686036700_cont_sun_m_1211_45_alg».proof.Proof.ScTileInvB
import proofs.«210884_g88510686036700_cont_sun_m_1211_45_alg».proof.Proof.ScGatherValB
import proofs.«210884_g88510686036700_cont_sun_m_1211_45_alg».proof.Proof.ScPayVB
import Idealize.ShloMosaic.Lib.ValueLayout
import Idealize.ShloMosaic.Lib.Pipeline.Value

set_option maxRecDepth 16384

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)

/-! ## The values the task moves: the gather's payload, the row slots, the blocks written out, and their accumulation -/

section Val
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub)

/-- Entry `p` of the offset list of slot 0 is the slot's word at `(0, p)`. -/
theorem iL0_read (g : Buf (Elt F) ((iS0).view.loc (V d c i))) (p : Fin 128) :
    (iL0).view.read (Elt F) g (ix1 p) = (iS0).view.read (Elt F) g (ix2 (0 : Fin 1) p) := by
  have hc : (Rect.unit (s := S1x128) ![0, 0] S1x128.size inb_S1x128_S1x128_0_0).shape.ShapeCasts S128 := by decide
  have h : (iL0).view.read (Elt F) g
      = shapeCast S128 ((iS0).view.readAt (Elt F) (Rect.unit (s := S1x128) ![0, 0] S1x128.size inb_S1x128_S1x128_0_0).toLoadRect g) hc := rfl
  rw [h]
  refine (shapeCast_1a_a_apply _ hc p).trans ?_
  rw [View.readAt_eq_ld, View.ld_unit_zero (funext fun a => by fin_cases a <;> rfl)]

/-- Entry `p` of the offset list of slot 1 is the slot's word at `(0, p)`. -/
theorem iL1_read (g : Buf (Elt F) ((iS1).view.loc (V d c i))) (p : Fin 128) :
    (iL1).view.read (Elt F) g (ix1 p) = (iS1).view.read (Elt F) g (ix2 (0 : Fin 1) p) := by
  have hc : (Rect.unit (s := S1x128) ![0, 0] S1x128.size inb_S1x128_S1x128_0_0).shape.ShapeCasts S128 := by decide
  have h : (iL1).view.read (Elt F) g
      = shapeCast S128 ((iS1).view.readAt (Elt F) (Rect.unit (s := S1x128) ![0, 0] S1x128.size inb_S1x128_S1x128_0_0).toLoadRect g) hc := rfl
  rw [h]
  refine (shapeCast_1a_a_apply _ hc p).trans ?_
  rw [View.readAt_eq_ld, View.ld_unit_zero (funext fun a => by fin_cases a <;> rfl)]

/-- Entry `(u, p)` of block `x` of the index row is the row's entry `128 x + p`. -/
theorem srcB_read (x : ℕ) (hx : x < 2500) (f : Buf (Elt F) (srcLoc d)) (u : Fin 1) (p : Fin 128) :
    (srcB x hx).view.read (Elt F) f (ix2 u p) = f (ix2 (0 : Fin 1) (⟨128 * x + p.val, by omega⟩ : Fin 320000)) := by
  show f ((Rect.unit (s := S1x320000) ![0, 128 * x] S1x128.size (inb_row x hx)).emb (ix2 u p)) = _
  refine congrArg f (funext fun a => Fin.ext ?_)
  match a with
  | ⟨0, _⟩ => show 0 + 1 * u.val = 0; omega
  | ⟨1, _⟩ => show 128 * x + 1 * p.val = 128 * x + p.val; omega

/-- Entry `(p, k)` of block `x` of the gathered array is the array's row `128 x + p`. -/
theorem sB_read (x : ℕ) (hx : x < 2500) (f : Buf (Elt F) (sLoc d)) (p k : Fin 128) :
    (sB x hx).view.read (Elt F) f (ix2 p k) = f (ix2 (⟨128 * x + p.val, by omega⟩ : Fin 320000) k) := by
  show f ((Rect.unit (s := S320000x128) ![128 * x, 0] S128x128.size (inb_blk x hx)).emb (ix2 p k)) = _
  refine congrArg f (funext fun a => Fin.ext ?_)
  match a with
  | ⟨0, _⟩ => show 128 * x + 1 * p.val = 128 * x + p.val; omega
  | ⟨1, _⟩ => show 0 + 1 * k.val = k.val; omega

/-- THE GATHER'S PAYLOAD through the offset list of slot 0, when the slot holds block `x` of the index row and every
    index names a table row: row `p` is the table's row named by entry `128 x + p` of the index row. -/
theorem gath_s0 (x : ℕ) (hx : x < 2500) (gi : Buf (Elt F) ((iS0).view.loc (V d c i)))
    (hr : (iS0).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL0).view.read (Elt F) gi y).toNat < S10000x128.size gathers_S10000x128_S128x128.axis) (p k : Fin 128) :
    SparseCore.gatherPayload gathers_S10000x128_S128x128 ((uW).view.read (Elt F) (cu d))
        (SparseCore.rows ((iL0).view.read (Elt F) gi) hn hin) (ix2 p k)
      = cu d (ix2 (rowOfWord (csrc d (ix2 (0 : Fin 1) (⟨128 * x + p.val, by omega⟩ : Fin 320000)))) k) := by
  rw [gatherPayload_apply]
  show cu d (ix2 (SparseCore.rows ((iL0).view.read (Elt F) gi) hn hin p) k) = _
  refine congrArg (cu d) ?_
  funext a
  match a with
  | ⟨0, _⟩ =>
    refine Fin.ext ?_
    show (SparseCore.rows ((iL0).view.read (Elt F) gi) hn hin p).val = (rowOfWord _).val
    rw [rows_val, iL0_read, hr, srcB_read, rowOfWord_val (hb _)]
  | ⟨1, _⟩ => rfl

/-- THE ROW SLOT 0 AFTER THE GATHER has landed: read back, it is that payload. -/
theorem slot_s0 (x : ℕ) (hx : x < 2500) (gi : Buf (Elt F) ((iS0).view.loc (V d c i)))
    (hr : (iS0).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL0).view.read (Elt F) gi y).toNat < S10000x128.size gathers_S10000x128_S128x128.axis)
    (g0 : Buf (Elt F) ((rS0).view.loc (V d c i))) (p k : Fin 128) :
    (rS0).view.read (Elt F) ((rS0).view.write (Elt F) g0
        (SparseCore.gatherPayload gathers_S10000x128_S128x128 ((uW).view.read (Elt F) (cu d))
          (SparseCore.rows ((iL0).view.read (Elt F) gi) hn hin)) Finset.univ) (ix2 p k)
      = cu d (ix2 (rowOfWord (csrc d (ix2 (0 : Fin 1) (⟨128 * x + p.val, by omega⟩ : Fin 320000)))) k) := by
  rw [View.read_write_univ]
  exact gath_s0 cu csrc d c i x hx gi hr hb hn hin p k

/-- THE GATHER'S PAYLOAD through the offset list of slot 1, when the slot holds block `x` of the index row and every
    index names a table row: row `p` is the table's row named by entry `128 x + p` of the index row. -/
theorem gath_s1 (x : ℕ) (hx : x < 2500) (gi : Buf (Elt F) ((iS1).view.loc (V d c i)))
    (hr : (iS1).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL1).view.read (Elt F) gi y).toNat < S10000x128.size gathers_S10000x128_S128x128.axis) (p k : Fin 128) :
    SparseCore.gatherPayload gathers_S10000x128_S128x128 ((uW).view.read (Elt F) (cu d))
        (SparseCore.rows ((iL1).view.read (Elt F) gi) hn hin) (ix2 p k)
      = cu d (ix2 (rowOfWord (csrc d (ix2 (0 : Fin 1) (⟨128 * x + p.val, by omega⟩ : Fin 320000)))) k) := by
  rw [gatherPayload_apply]
  show cu d (ix2 (SparseCore.rows ((iL1).view.read (Elt F) gi) hn hin p) k) = _
  refine congrArg (cu d) ?_
  funext a
  match a with
  | ⟨0, _⟩ =>
    refine Fin.ext ?_
    show (SparseCore.rows ((iL1).view.read (Elt F) gi) hn hin p).val = (rowOfWord _).val
    rw [rows_val, iL1_read, hr, srcB_read, rowOfWord_val (hb _)]
  | ⟨1, _⟩ => rfl

/-- THE ROW SLOT 1 AFTER THE GATHER has landed: read back, it is that payload. -/
theorem slot_s1 (x : ℕ) (hx : x < 2500) (gi : Buf (Elt F) ((iS1).view.loc (V d c i)))
    (hr : (iS1).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL1).view.read (Elt F) gi y).toNat < S10000x128.size gathers_S10000x128_S128x128.axis)
    (g0 : Buf (Elt F) ((rS1).view.loc (V d c i))) (p k : Fin 128) :
    (rS1).view.read (Elt F) ((rS1).view.write (Elt F) g0
        (SparseCore.gatherPayload gathers_S10000x128_S128x128 ((uW).view.read (Elt F) (cu d))
          (SparseCore.rows ((iL1).view.read (Elt F) gi) hn hin)) Finset.univ) (ix2 p k)
      = cu d (ix2 (rowOfWord (csrc d (ix2 (0 : Fin 1) (⟨128 * x + p.val, by omega⟩ : Fin 320000)))) k) := by
  rw [View.read_write_univ]
  exact gath_s1 cu csrc d c i x hx gi hr hb hn hin p k

/-- The gathered array written through block `x`, at a row of the block: the payload there; -/
theorem out_s_at (x : ℕ) (hx : x < 2500) (f : Buf (Elt F) (sLoc d)) (w : S128x128.Idx → Elt F .f32) (p k : Fin 128) :
    (sB x hx).view.write (Elt F) f w Finset.univ (ix2 (⟨128 * x + p.val, by omega⟩ : Fin 320000) k) = w (ix2 p k) := by
  have h2 : (sB x hx).view.read (Elt F) ((sB x hx).view.write (Elt F) f w Finset.univ) (ix2 p k) = w (ix2 p k) :=
    View.read_write_of_mem (v := (sB x hx).view) _ w (Finset.mem_univ _)
  exact ((sB_read d x hx ((sB x hx).view.write (Elt F) f w Finset.univ) p k).symm).trans h2
/-- off the block's rows: unchanged. -/
theorem out_s_off (x : ℕ) (hx : x < 2500) (f : Buf (Elt F) (sLoc d)) (w : S128x128.Idx → Elt F .f32) (ix : S320000x128.Idx)
    (h : ix ∉ rowsBlk x) : (sB x hx).view.write (Elt F) f w Finset.univ ix = f ix := by
  have h' : ix ∉ (sB x hx).view.setOn Finset.univ := by rw [View.setOn_univ, sB_set]; exact h
  exact View.write_of_not_mem f w _ h'

/-- The rows of the blocks from `lo` up to `hi` hold the table rows their index entries name. -/
def GathSBelow (f : Buf (Elt F) (sLoc d)) (lo hi : ℕ) : Prop :=
  ∀ e : Fin 320000, 128 * lo ≤ e.val → e.val < 128 * hi → GathS cu csrc d f e

theorem GathSBelow_nil (f : Buf (Elt F) (sLoc d)) (lo : ℕ) : GathSBelow cu csrc d f lo lo :=
  fun e h1 h2 => absurd h2 (by omega)

/-- ONE MORE BLOCK: writing block `x` with a payload whose rows are the named table rows extends the gathered rows by that block. -/
theorem GathSBelow_step (x : ℕ) (hx : x < 2500) (f : Buf (Elt F) (sLoc d)) (w : S128x128.Idx → Elt F .f32) (lo : ℕ)
    (hw : ∀ p k : Fin 128, w (ix2 p k) = cu d (ix2 (rowOfWord (csrc d (ix2 (0 : Fin 1) (⟨128 * x + p.val, by omega⟩ : Fin 320000)))) k))
    (hf : GathSBelow cu csrc d f lo x) :
    GathSBelow cu csrc d ((sB x hx).view.write (Elt F) f w Finset.univ) lo (x + 1) := by
  intro e h1 h2 k
  by_cases he : e.val < 128 * x
  · rw [out_s_off d x hx f w (ix2 e k) (by
      simp only [rowsBlk, Finset.mem_filter, Finset.mem_univ, true_and, not_and, not_lt]
      intro h; exact absurd h (by show ¬ 128 * x ≤ e.val; omega))]
    exact hf e h1 he k
  · have hp : e.val - 128 * x < 128 := by omega
    have heq : e = (⟨128 * x + (⟨e.val - 128 * x, hp⟩ : Fin 128).val, by omega⟩ : Fin 320000) :=
      Fin.ext (by show e.val = 128 * x + (e.val - 128 * x); omega)
    rw [heq, out_s_at d x hx f w ⟨e.val - 128 * x, hp⟩ k]
    exact hw ⟨e.val - 128 * x, hp⟩ k

/-- At the task's last block the task's rows are all gathered. -/
theorem GathSBelow_owns (w : Fin 32) (f : Buf (Elt F) (sLoc d)) (h : GathSBelow cu csrc d f (blk0 w) (blk0 w + nBlk w)) :
    ∀ e, ownsRow w e → GathS cu csrc d f e :=
  fun e he => h e he.1 he.2

/-- Entry `p` of the offset list of slot 0 is the slot's word at `(0, p)`. -/
theorem jL0_read (g : Buf (Elt F) ((jS0).view.loc (V d c i))) (p : Fin 128) :
    (jL0).view.read (Elt F) g (ix1 p) = (jS0).view.read (Elt F) g (ix2 (0 : Fin 1) p) := by
  have hc : (Rect.unit (s := S1x128) ![0, 0] S1x128.size inb_S1x128_S1x128_0_0).shape.ShapeCasts S128 := by decide
  have h : (jL0).view.read (Elt F) g
      = shapeCast S128 ((jS0).view.readAt (Elt F) (Rect.unit (s := S1x128) ![0, 0] S1x128.size inb_S1x128_S1x128_0_0).toLoadRect g) hc := rfl
  rw [h]
  refine (shapeCast_1a_a_apply _ hc p).trans ?_
  rw [View.readAt_eq_ld, View.ld_unit_zero (funext fun a => by fin_cases a <;> rfl)]

/-- Entry `p` of the offset list of slot 1 is the slot's word at `(0, p)`. -/
theorem jL1_read (g : Buf (Elt F) ((jS1).view.loc (V d c i))) (p : Fin 128) :
    (jL1).view.read (Elt F) g (ix1 p) = (jS1).view.read (Elt F) g (ix2 (0 : Fin 1) p) := by
  have hc : (Rect.unit (s := S1x128) ![0, 0] S1x128.size inb_S1x128_S1x128_0_0).shape.ShapeCasts S128 := by decide
  have h : (jL1).view.read (Elt F) g
      = shapeCast S128 ((jS1).view.readAt (Elt F) (Rect.unit (s := S1x128) ![0, 0] S1x128.size inb_S1x128_S1x128_0_0).toLoadRect g) hc := rfl
  rw [h]
  refine (shapeCast_1a_a_apply _ hc p).trans ?_
  rw [View.readAt_eq_ld, View.ld_unit_zero (funext fun a => by fin_cases a <;> rfl)]

/-- Entry `(u, p)` of block `x` of the index row is the row's entry `128 x + p`. -/
theorem dstB_read (x : ℕ) (hx : x < 2500) (f : Buf (Elt F) (dstLoc d)) (u : Fin 1) (p : Fin 128) :
    (dstB x hx).view.read (Elt F) f (ix2 u p) = f (ix2 (0 : Fin 1) (⟨128 * x + p.val, by omega⟩ : Fin 320000)) := by
  show f ((Rect.unit (s := S1x320000) ![0, 128 * x] S1x128.size (inb_row x hx)).emb (ix2 u p)) = _
  refine congrArg f (funext fun a => Fin.ext ?_)
  match a with
  | ⟨0, _⟩ => show 0 + 1 * u.val = 0; omega
  | ⟨1, _⟩ => show 128 * x + 1 * p.val = 128 * x + p.val; omega

/-- Entry `(p, k)` of block `x` of the gathered array is the array's row `128 x + p`. -/
theorem tB_read (x : ℕ) (hx : x < 2500) (f : Buf (Elt F) (tLoc d)) (p k : Fin 128) :
    (tB x hx).view.read (Elt F) f (ix2 p k) = f (ix2 (⟨128 * x + p.val, by omega⟩ : Fin 320000) k) := by
  show f ((Rect.unit (s := S320000x128) ![128 * x, 0] S128x128.size (inb_blk x hx)).emb (ix2 p k)) = _
  refine congrArg f (funext fun a => Fin.ext ?_)
  match a with
  | ⟨0, _⟩ => show 128 * x + 1 * p.val = 128 * x + p.val; omega
  | ⟨1, _⟩ => show 0 + 1 * k.val = k.val; omega

/-- THE GATHER'S PAYLOAD through the offset list of slot 0, when the slot holds block `x` of the index row and every
    index names a table row: row `p` is the table's row named by entry `128 x + p` of the index row. -/
theorem gath_t0 (x : ℕ) (hx : x < 2500) (gi : Buf (Elt F) ((jS0).view.loc (V d c i)))
    (hr : (jS0).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL0).view.read (Elt F) gi y).toNat < S10000x128.size gathers_S10000x128_S128x128.axis) (p k : Fin 128) :
    SparseCore.gatherPayload gathers_S10000x128_S128x128 ((vW).view.read (Elt F) (cv d))
        (SparseCore.rows ((jL0).view.read (Elt F) gi) hn hin) (ix2 p k)
      = cv d (ix2 (rowOfWord (cdst d (ix2 (0 : Fin 1) (⟨128 * x + p.val, by omega⟩ : Fin 320000)))) k) := by
  rw [gatherPayload_apply]
  show cv d (ix2 (SparseCore.rows ((jL0).view.read (Elt F) gi) hn hin p) k) = _
  refine congrArg (cv d) ?_
  funext a
  match a with
  | ⟨0, _⟩ =>
    refine Fin.ext ?_
    show (SparseCore.rows ((jL0).view.read (Elt F) gi) hn hin p).val = (rowOfWord _).val
    rw [rows_val, jL0_read, hr, dstB_read, rowOfWord_val (hb _)]
  | ⟨1, _⟩ => rfl

/-- THE ROW SLOT 0 AFTER THE GATHER has landed: read back, it is that payload. -/
theorem slot_t0 (x : ℕ) (hx : x < 2500) (gi : Buf (Elt F) ((jS0).view.loc (V d c i)))
    (hr : (jS0).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL0).view.read (Elt F) gi y).toNat < S10000x128.size gathers_S10000x128_S128x128.axis)
    (g0 : Buf (Elt F) ((qS0).view.loc (V d c i))) (p k : Fin 128) :
    (qS0).view.read (Elt F) ((qS0).view.write (Elt F) g0
        (SparseCore.gatherPayload gathers_S10000x128_S128x128 ((vW).view.read (Elt F) (cv d))
          (SparseCore.rows ((jL0).view.read (Elt F) gi) hn hin)) Finset.univ) (ix2 p k)
      = cv d (ix2 (rowOfWord (cdst d (ix2 (0 : Fin 1) (⟨128 * x + p.val, by omega⟩ : Fin 320000)))) k) := by
  rw [View.read_write_univ]
  exact gath_t0 cv cdst d c i x hx gi hr hb hn hin p k

/-- THE GATHER'S PAYLOAD through the offset list of slot 1, when the slot holds block `x` of the index row and every
    index names a table row: row `p` is the table's row named by entry `128 x + p` of the index row. -/
theorem gath_t1 (x : ℕ) (hx : x < 2500) (gi : Buf (Elt F) ((jS1).view.loc (V d c i)))
    (hr : (jS1).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL1).view.read (Elt F) gi y).toNat < S10000x128.size gathers_S10000x128_S128x128.axis) (p k : Fin 128) :
    SparseCore.gatherPayload gathers_S10000x128_S128x128 ((vW).view.read (Elt F) (cv d))
        (SparseCore.rows ((jL1).view.read (Elt F) gi) hn hin) (ix2 p k)
      = cv d (ix2 (rowOfWord (cdst d (ix2 (0 : Fin 1) (⟨128 * x + p.val, by omega⟩ : Fin 320000)))) k) := by
  rw [gatherPayload_apply]
  show cv d (ix2 (SparseCore.rows ((jL1).view.read (Elt F) gi) hn hin p) k) = _
  refine congrArg (cv d) ?_
  funext a
  match a with
  | ⟨0, _⟩ =>
    refine Fin.ext ?_
    show (SparseCore.rows ((jL1).view.read (Elt F) gi) hn hin p).val = (rowOfWord _).val
    rw [rows_val, jL1_read, hr, dstB_read, rowOfWord_val (hb _)]
  | ⟨1, _⟩ => rfl

/-- THE ROW SLOT 1 AFTER THE GATHER has landed: read back, it is that payload. -/
theorem slot_t1 (x : ℕ) (hx : x < 2500) (gi : Buf (Elt F) ((jS1).view.loc (V d c i)))
    (hr : (jS1).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL1).view.read (Elt F) gi y).toNat < S10000x128.size gathers_S10000x128_S128x128.axis)
    (g0 : Buf (Elt F) ((qS1).view.loc (V d c i))) (p k : Fin 128) :
    (qS1).view.read (Elt F) ((qS1).view.write (Elt F) g0
        (SparseCore.gatherPayload gathers_S10000x128_S128x128 ((vW).view.read (Elt F) (cv d))
          (SparseCore.rows ((jL1).view.read (Elt F) gi) hn hin)) Finset.univ) (ix2 p k)
      = cv d (ix2 (rowOfWord (cdst d (ix2 (0 : Fin 1) (⟨128 * x + p.val, by omega⟩ : Fin 320000)))) k) := by
  rw [View.read_write_univ]
  exact gath_t1 cv cdst d c i x hx gi hr hb hn hin p k

/-- The gathered array written through block `x`, at a row of the block: the payload there; -/
theorem out_t_at (x : ℕ) (hx : x < 2500) (f : Buf (Elt F) (tLoc d)) (w : S128x128.Idx → Elt F .f32) (p k : Fin 128) :
    (tB x hx).view.write (Elt F) f w Finset.univ (ix2 (⟨128 * x + p.val, by omega⟩ : Fin 320000) k) = w (ix2 p k) := by
  have h2 : (tB x hx).view.read (Elt F) ((tB x hx).view.write (Elt F) f w Finset.univ) (ix2 p k) = w (ix2 p k) :=
    View.read_write_of_mem (v := (tB x hx).view) _ w (Finset.mem_univ _)
  exact ((tB_read d x hx ((tB x hx).view.write (Elt F) f w Finset.univ) p k).symm).trans h2
/-- off the block's rows: unchanged. -/
theorem out_t_off (x : ℕ) (hx : x < 2500) (f : Buf (Elt F) (tLoc d)) (w : S128x128.Idx → Elt F .f32) (ix : S320000x128.Idx)
    (h : ix ∉ rowsBlk x) : (tB x hx).view.write (Elt F) f w Finset.univ ix = f ix := by
  have h' : ix ∉ (tB x hx).view.setOn Finset.univ := by rw [View.setOn_univ, tB_set]; exact h
  exact View.write_of_not_mem f w _ h'

/-- The rows of the blocks from `lo` up to `hi` hold the table rows their index entries name. -/
def GathTBelow (f : Buf (Elt F) (tLoc d)) (lo hi : ℕ) : Prop :=
  ∀ e : Fin 320000, 128 * lo ≤ e.val → e.val < 128 * hi → GathT cv cdst d f e

theorem GathTBelow_nil (f : Buf (Elt F) (tLoc d)) (lo : ℕ) : GathTBelow cv cdst d f lo lo :=
  fun e h1 h2 => absurd h2 (by omega)

/-- ONE MORE BLOCK: writing block `x` with a payload whose rows are the named table rows extends the gathered rows by that block. -/
theorem GathTBelow_step (x : ℕ) (hx : x < 2500) (f : Buf (Elt F) (tLoc d)) (w : S128x128.Idx → Elt F .f32) (lo : ℕ)
    (hw : ∀ p k : Fin 128, w (ix2 p k) = cv d (ix2 (rowOfWord (cdst d (ix2 (0 : Fin 1) (⟨128 * x + p.val, by omega⟩ : Fin 320000)))) k))
    (hf : GathTBelow cv cdst d f lo x) :
    GathTBelow cv cdst d ((tB x hx).view.write (Elt F) f w Finset.univ) lo (x + 1) := by
  intro e h1 h2 k
  by_cases he : e.val < 128 * x
  · rw [out_t_off d x hx f w (ix2 e k) (by
      simp only [rowsBlk, Finset.mem_filter, Finset.mem_univ, true_and, not_and, not_lt]
      intro h; exact absurd h (by show ¬ 128 * x ≤ e.val; omega))]
    exact hf e h1 he k
  · have hp : e.val - 128 * x < 128 := by omega
    have heq : e = (⟨128 * x + (⟨e.val - 128 * x, hp⟩ : Fin 128).val, by omega⟩ : Fin 320000) :=
      Fin.ext (by show e.val = 128 * x + (e.val - 128 * x); omega)
    rw [heq, out_t_at d x hx f w ⟨e.val - 128 * x, hp⟩ k]
    exact hw ⟨e.val - 128 * x, hp⟩ k

/-- At the task's last block the task's rows are all gathered. -/
theorem GathTBelow_owns (w : Fin 32) (f : Buf (Elt F) (tLoc d)) (h : GathTBelow cv cdst d f (blk0 w) (blk0 w + nBlk w)) :
    ∀ e, ownsRow w e → GathT cv cdst d f e :=
  fun e he => h e he.1 he.2

end Val

/-! ## One more block, when the block comes back as its own piece -/

section Join
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d)) (d : Dev nD)

/-- The gathered rows grow by block `x` when an array agrees with the old rest off the block and, on the block, with a piece
    that holds the named table rows there. -/
theorem GathSBelow_join (x : ℕ) (hx : x < 2500) (f0 fb f' : Buf (Elt F) (sLoc d)) (lo : ℕ)
    (h0 : ∀ ix : S320000x128.Idx, ix ∉ rowsBlk x → f' ix = f0 ix) (hb : ∀ ix : S320000x128.Idx, ix ∈ rowsBlk x → f' ix = fb ix)
    (hblk : ∀ p k : Fin 128, fb (ix2 (⟨128 * x + p.val, by omega⟩ : Fin 320000) k)
      = cu d (ix2 (rowOfWord (csrc d (ix2 (0 : Fin 1) (⟨128 * x + p.val, by omega⟩ : Fin 320000)))) k))
    (hf : GathSBelow cu csrc d f0 lo x) : GathSBelow cu csrc d f' lo (x + 1) := by
  intro e h1 h2 k
  by_cases he : e.val < 128 * x
  · rw [h0 (ix2 e k) (by
      simp only [rowsBlk, Finset.mem_filter, Finset.mem_univ, true_and, not_and, not_lt]
      intro h; exact absurd h (by show ¬ 128 * x ≤ e.val; omega))]
    exact hf e h1 he k
  · have hp : e.val - 128 * x < 128 := by omega
    have heq : e = (⟨128 * x + (⟨e.val - 128 * x, hp⟩ : Fin 128).val, by omega⟩ : Fin 320000) :=
      Fin.ext (by show e.val = 128 * x + (e.val - 128 * x); omega)
    rw [hb (ix2 e k) (by
      simp only [rowsBlk, Finset.mem_filter, Finset.mem_univ, true_and]
      show 128 * x ≤ e.val ∧ e.val < 128 * (x + 1); omega)]
    rw [heq]
    exact hblk ⟨e.val - 128 * x, hp⟩ k

theorem GathTBelow_join (x : ℕ) (hx : x < 2500) (f0 fb f' : Buf (Elt F) (tLoc d)) (lo : ℕ)
    (h0 : ∀ ix : S320000x128.Idx, ix ∉ rowsBlk x → f' ix = f0 ix) (hb : ∀ ix : S320000x128.Idx, ix ∈ rowsBlk x → f' ix = fb ix)
    (hblk : ∀ p k : Fin 128, fb (ix2 (⟨128 * x + p.val, by omega⟩ : Fin 320000) k)
      = cv d (ix2 (rowOfWord (cdst d (ix2 (0 : Fin 1) (⟨128 * x + p.val, by omega⟩ : Fin 320000)))) k))
    (hf : GathTBelow cv cdst d f0 lo x) : GathTBelow cv cdst d f' lo (x + 1) := by
  intro e h1 h2 k
  by_cases he : e.val < 128 * x
  · rw [h0 (ix2 e k) (by
      simp only [rowsBlk, Finset.mem_filter, Finset.mem_univ, true_and, not_and, not_lt]
      intro h; exact absurd h (by show ¬ 128 * x ≤ e.val; omega))]
    exact hf e h1 he k
  · have hp : e.val - 128 * x < 128 := by omega
    have heq : e = (⟨128 * x + (⟨e.val - 128 * x, hp⟩ : Fin 128).val, by omega⟩ : Fin 320000) :=
      Fin.ext (by show e.val = 128 * x + (e.val - 128 * x); omega)
    rw [hb (ix2 e k) (by
      simp only [rowsBlk, Finset.mem_filter, Finset.mem_univ, true_and]
      show 128 * x ≤ e.val ∧ e.val < 128 * (x + 1); omega)]
    rw [heq]
    exact hblk ⟨e.val - 128 * x, hp⟩ k

end Join

/-! ## A block's piece joined with the rest, in the logic -/

section JoinSL
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub)

set_option backward.isDefEq.respectTransparency.types false in
/-- BLOCK `x` COMES BACK: its piece, holding the named table rows, joins the rest of the task's rows, which then hold
    them on one more block. -/
theorem rest_join_s (w : Fin 32) (x : ℕ) (hx : x < 2500) (hsub : rowsBlk x ⊆ rowsOf w) (lo : ℕ) :
    (iprop((∃ f, ⌜GathSBelow cu csrc d f lo x⌝ ∗ (sW).view.loc (V d c i) ↦[rowsOf w \ rowsBlk x]{fullShare} f)
        ∗ (∃ fb, ⌜∀ p k : Fin 128, fb (ix2 (⟨128 * x + p.val, by omega⟩ : Fin 320000) k)
              = cu d (ix2 (rowOfWord (csrc d (ix2 (0 : Fin 1) (⟨128 * x + p.val, by omega⟩ : Fin 320000)))) k)⌝
            ∗ (sB x hx).view.loc (V d c i) ↦[(sB x hx).view.set]{fullShare} fb)) : sProp 𝕄)
      ⊢ iprop(∃ f, ⌜GathSBelow cu csrc d f lo (x + 1)⌝ ∗ (sW).view.loc (V d c i) ↦[rowsOf w]{fullShare} f) := by
  rw [sB_set]
  iintro ⟨⟨%f0, %hf, H0⟩, ⟨%fb, %hblk, Hb⟩⟩
  iexists (rowsBlk x).piecewise fb f0
  isplitr
  · ipureintro
    exact GathSBelow_join cu csrc d x hx f0 fb _ lo
      (fun ix h => Finset.piecewise_eq_of_notMem _ _ _ h) (fun ix h => Finset.piecewise_eq_of_mem _ _ _ h) hblk hf
  · iapply (pointsTo_join_subset hsub)
    isplitl [Hb]; · iexact Hb
    iexact H0

set_option backward.isDefEq.respectTransparency.types false in
/-- BLOCK `x` COMES BACK: its piece, holding the named table rows, joins the rest of the task's rows, which then hold
    them on one more block. -/
theorem rest_join_t (w : Fin 32) (x : ℕ) (hx : x < 2500) (hsub : rowsBlk x ⊆ rowsOf w) (lo : ℕ) :
    (iprop((∃ f, ⌜GathTBelow cv cdst d f lo x⌝ ∗ (tW).view.loc (V d c i) ↦[rowsOf w \ rowsBlk x]{fullShare} f)
        ∗ (∃ fb, ⌜∀ p k : Fin 128, fb (ix2 (⟨128 * x + p.val, by omega⟩ : Fin 320000) k)
              = cv d (ix2 (rowOfWord (cdst d (ix2 (0 : Fin 1) (⟨128 * x + p.val, by omega⟩ : Fin 320000)))) k)⌝
            ∗ (tB x hx).view.loc (V d c i) ↦[(tB x hx).view.set]{fullShare} fb)) : sProp 𝕄)
      ⊢ iprop(∃ f, ⌜GathTBelow cv cdst d f lo (x + 1)⌝ ∗ (tW).view.loc (V d c i) ↦[rowsOf w]{fullShare} f) := by
  rw [tB_set]
  iintro ⟨⟨%f0, %hf, H0⟩, ⟨%fb, %hblk, Hb⟩⟩
  iexists (rowsBlk x).piecewise fb f0
  isplitr
  · ipureintro
    exact GathTBelow_join cv cdst d x hx f0 fb _ lo
      (fun ix h => Finset.piecewise_eq_of_notMem _ _ _ h) (fun ix h => Finset.piecewise_eq_of_mem _ _ _ h) hblk hf
  · iapply (pointsTo_join_subset hsub)
    isplitl [Hb]; · iexact Hb
    iexact H0

end JoinSL

/-! ## The loop invariant with values -/

section InvV
variable [FloatOps F]
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

/-- Write-outs of row slot 0 to block `x` in flight, WITH VALUES: the rest of each gathered array holds the named table rows
    on the task's blocks below `x`, and what each flight delivers holds them on block `x`; row slot 1 at rest. -/
def outAt0V (x : ℕ) (hx : x < 2500) : sProp 𝕄 :=
  iprop((∃ f, ⌜GathSBelow cu csrc d f (blk0 w) x⌝ ∗ (sW).view.loc (V d c i) ↦[rowsOf w \ rowsBlk x]{fullShare} f)
    ∗ (∃ f g, ⌜∀ p k : Fin 128, f (ix2 (⟨128 * x + p.val, by omega⟩ : Fin 320000) k) = cu d (ix2 (rowOfWord (csrc d (ix2 (0 : Fin 1) (⟨128 * x + p.val, by omega⟩ : Fin 320000)))) k)⌝
        ∗ Transfers.Flight countersEmb (V d c i) (SemLoc.dma (⟨12, by decide⟩ : DmaSem sig)) (default : HIx 1) 524288
            iprop(((sB x hx).view.loc (V d c i) ↦[(sB x hx).view.set]{fullShare} f) ∗ (rS0).view.loc (V d c i) ↦[(rS0).view.set]{fullShare} g))
    ∗ (∃ g, (rS1).view.loc (V d c i) ↦[(rS1).view.set]{fullShare} g) ∗ semVal (dcell (V d c i) 13 (by decide)) 0
    ∗ (∃ f, ⌜GathTBelow cv cdst d f (blk0 w) x⌝ ∗ (tW).view.loc (V d c i) ↦[rowsOf w \ rowsBlk x]{fullShare} f)
    ∗ (∃ f g, ⌜∀ p k : Fin 128, f (ix2 (⟨128 * x + p.val, by omega⟩ : Fin 320000) k) = cv d (ix2 (rowOfWord (cdst d (ix2 (0 : Fin 1) (⟨128 * x + p.val, by omega⟩ : Fin 320000)))) k)⌝
        ∗ Transfers.Flight countersEmb (V d c i) (SemLoc.dma (⟨14, by decide⟩ : DmaSem sig)) (default : HIx 1) 524288
            iprop(((tB x hx).view.loc (V d c i) ↦[(tB x hx).view.set]{fullShare} f) ∗ (qS0).view.loc (V d c i) ↦[(qS0).view.set]{fullShare} g))
    ∗ (∃ g, (qS1).view.loc (V d c i) ↦[(qS1).view.set]{fullShare} g) ∗ semVal (dcell (V d c i) 15 (by decide)) 0)

/-- Write-outs of row slot 1 to block `x` in flight, WITH VALUES: the rest of each gathered array holds the named table rows
    on the task's blocks below `x`, and what each flight delivers holds them on block `x`; row slot 0 at rest. -/
def outAt1V (x : ℕ) (hx : x < 2500) : sProp 𝕄 :=
  iprop((∃ f, ⌜GathSBelow cu csrc d f (blk0 w) x⌝ ∗ (sW).view.loc (V d c i) ↦[rowsOf w \ rowsBlk x]{fullShare} f)
    ∗ (∃ f g, ⌜∀ p k : Fin 128, f (ix2 (⟨128 * x + p.val, by omega⟩ : Fin 320000) k) = cu d (ix2 (rowOfWord (csrc d (ix2 (0 : Fin 1) (⟨128 * x + p.val, by omega⟩ : Fin 320000)))) k)⌝
        ∗ Transfers.Flight countersEmb (V d c i) (SemLoc.dma (⟨13, by decide⟩ : DmaSem sig)) (default : HIx 1) 524288
            iprop(((sB x hx).view.loc (V d c i) ↦[(sB x hx).view.set]{fullShare} f) ∗ (rS1).view.loc (V d c i) ↦[(rS1).view.set]{fullShare} g))
    ∗ (∃ g, (rS0).view.loc (V d c i) ↦[(rS0).view.set]{fullShare} g) ∗ semVal (dcell (V d c i) 12 (by decide)) 0
    ∗ (∃ f, ⌜GathTBelow cv cdst d f (blk0 w) x⌝ ∗ (tW).view.loc (V d c i) ↦[rowsOf w \ rowsBlk x]{fullShare} f)
    ∗ (∃ f g, ⌜∀ p k : Fin 128, f (ix2 (⟨128 * x + p.val, by omega⟩ : Fin 320000) k) = cv d (ix2 (rowOfWord (cdst d (ix2 (0 : Fin 1) (⟨128 * x + p.val, by omega⟩ : Fin 320000)))) k)⌝
        ∗ Transfers.Flight countersEmb (V d c i) (SemLoc.dma (⟨15, by decide⟩ : DmaSem sig)) (default : HIx 1) 524288
            iprop(((tB x hx).view.loc (V d c i) ↦[(tB x hx).view.set]{fullShare} f) ∗ (qS1).view.loc (V d c i) ↦[(qS1).view.set]{fullShare} g))
    ∗ (∃ g, (qS0).view.loc (V d c i) ↦[(qS0).view.set]{fullShare} g) ∗ semVal (dcell (V d c i) 14 (by decide)) 0)

/-- No write-out in flight, WITH VALUES: the task's rows of each gathered array hold the named table rows on its blocks below `hi`. -/
def outRestV (hi : ℕ) : sProp 𝕄 :=
  iprop((∃ f, ⌜GathSBelow cu csrc d f (blk0 w) hi⌝ ∗ (sW).view.loc (V d c i) ↦[rowsOf w]{fullShare} f)
    ∗ (∃ f, ⌜GathTBelow cv cdst d f (blk0 w) hi⌝ ∗ (tW).view.loc (V d c i) ↦[rowsOf w]{fullShare} f)
    ∗ (∃ g, (rS0).view.loc (V d c i) ↦[(rS0).view.set]{fullShare} g) ∗ (∃ g, (rS1).view.loc (V d c i) ↦[(rS1).view.set]{fullShare} g)
    ∗ (∃ g, (qS0).view.loc (V d c i) ↦[(qS0).view.set]{fullShare} g) ∗ (∃ g, (qS1).view.loc (V d c i) ↦[(qS1).view.set]{fullShare} g)
    ∗ semVal (dcell (V d c i) 12 (by decide)) 0 ∗ semVal (dcell (V d c i) 13 (by decide)) 0
    ∗ semVal (dcell (V d c i) 14 (by decide)) 0 ∗ semVal (dcell (V d c i) 15 (by decide)) 0)

variable (L : grid1.Coords) (O : CellTallies nD τ sig (HIx 1)) (W : Waits sig (HIx 1))

def outPartV (k : ℕ) : sProp 𝕄 :=
  if h : 0 < k ∧ k ≤ nT L then
    (if k % 2 = 0 then outAt1V cu cv csrc cdst d c i (taskOf L) (bT L + (k - 1)) (blk_lt L _ (by omega))
      else outAt0V cu cv csrc cdst d c i (taskOf L) (bT L + (k - 1)) (blk_lt L _ (by omega)))
  else outRestV cu cv csrc cdst d c i (taskOf L) (blk0 (taskOf L))

/-- Before trip `k`, WITH VALUES: as the frame's invariant, the write-outs' part carrying what the gathered arrays hold. -/
def invV (k : ℕ) (acc : BitVec 32 × BitVec 32 × BitVec 32 × BitVec 32 × BitVec 32 × BitVec 32 × BitVec 32 × BitVec 32 × BitVec 32) : sProp 𝕄 :=
  iprop(⌜acc = wordsAt (nT L) k⌝ ∗ Transfers.MayWaits (V d c i) (none : HIx 1) O
    ∗ ((uW).view.loc (V d c i) ↦{tok (taskOf L)} cu d) ∗ ((vW).view.loc (V d c i) ↦{tok (taskOf L)} cv d)
    ∗ semVal (dcell (V d c i) 6 (by decide)) 0 ∗ semVal (dcell (V d c i) 7 (by decide)) 0
    ∗ fetchPart csrc cdst d c i L k ∗ outPartV cu cv csrc cdst d c i L k
    ∗ ∃ W', ⌜∀ p ∈ W', p ∈ W ∨ p.2 = none⌝ ∗ owes (V d c i) O W')

omit [FloatOps F] in
theorem outPartV_zero (k : ℕ) (h : k = 0) :
    outPartV cu cv csrc cdst d c i L k = outRestV cu cv csrc cdst d c i (taskOf L) (blk0 (taskOf L)) := by unfold outPartV; rw [dif_neg (by omega)]
omit [FloatOps F] in
theorem outPartV_even (k : ℕ) (h : 0 < k ∧ k ≤ nT L) (hp : k % 2 = 0) :
    outPartV cu cv csrc cdst d c i L k = outAt1V cu cv csrc cdst d c i (taskOf L) (bT L + (k - 1)) (blk_lt L _ (by omega)) := by
  unfold outPartV; rw [dif_pos h, if_pos hp]
omit [FloatOps F] in
theorem outPartV_odd (k : ℕ) (h : 0 < k ∧ k ≤ nT L) (hp : k % 2 = 1) :
    outPartV cu cv csrc cdst d c i L k = outAt0V cu cv csrc cdst d c i (taskOf L) (bT L + (k - 1)) (blk_lt L _ (by omega)) := by
  unfold outPartV; rw [dif_pos h, if_neg (by omega)]

end InvV

end Cert.Proof.KB

end
-- ==== Proof.ScTileFinVB.lean ====
/-
  The end of a task with values, as a pure entailment: as Proof/ScTileFin.lean's, the task's rows of the two gathered
  arrays now holding the named table rows on all of its blocks, which is what the task hands back.
-/
import proofs.«210884_g88510686036700_cont_sun_m_1211_45_alg».proof.Proof.ScTileFinB
import proofs.«210884_g88510686036700_cont_sun_m_1211_45_alg».proof.Proof.ScTileValB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)
local notation "b0W" => (Memref.whole Cert.Kernel.cc1_scoped0 : Memref Cert.Kernel.sig Kind.scVector Space.vmem Cert.Kernel.S2x1x128 EltTy.i32)
local notation "b2W" => (Memref.whole Cert.Kernel.cc1_scoped2 : Memref Cert.Kernel.sig Kind.scVector Space.vmem Cert.Kernel.S2x1x128 EltTy.i32)
local notation "b4W" => (Memref.whole Cert.Kernel.cc1_scoped4 : Memref Cert.Kernel.sig Kind.scVector Space.vmem Cert.Kernel.S2x128x128 EltTy.f32)
local notation "b6W" => (Memref.whole Cert.Kernel.cc1_scoped6 : Memref Cert.Kernel.sig Kind.scVector Space.vmem Cert.Kernel.S2x128x128 EltTy.f32)

section FinV

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

/-- The reassembly with the gathered rows' values: what holds on every block below the task's last is what holds on
    every row the task owns. -/
theorem reassembleV (hF : (K (F := F)).Facts) :
    iprop(((uW).view.loc (V d c i) ↦{tok w} cu d) ∗ ((vW).view.loc (V d c i) ↦{tok w} cv d)
        ∗ semVal (dcell (V d c i) 6 (by decide)) 0 ∗ semVal (dcell (V d c i) 7 (by decide)) 0
        ∗ fetchRest csrc cdst d c i w ∗ outRestV cu cv csrc cdst d c i w (blk0 w + nBlk w)
        ∗ bigSep (((((ownRefs (τ := τ) (.scVector c i)).erase ((Proc.scVector c i).devRef cc1_scoped0)).erase ((Proc.scVector c i).devRef cc1_scoped2)).erase ((Proc.scVector c i).devRef cc1_scoped4)).erase ((Proc.scVector c i).devRef cc1_scoped6))
          (fun b => iprop(∃ f, ((d, b) : Loc nD τ sig) ↦{fullShare} f) : DevRef τ sig → sProp 𝕄)
        ∗ bigSep (((((((((((ownCells (V d c i)).erase (dcell (V d c i) 6 (by decide))).erase (dcell (V d c i) 7 (by decide))).erase (dcell (V d c i) 8 (by decide))).erase (dcell (V d c i) 9 (by decide))).erase (dcell (V d c i) 10 (by decide))).erase (dcell (V d c i) 11 (by decide))).erase (dcell (V d c i) 12 (by decide))).erase (dcell (V d c i) 13 (by decide))).erase (dcell (V d c i) 14 (by decide))).erase (dcell (V d c i) 15 (by decide)))
          (fun g => semVal g 0 : GSem nD τ sig → sProp 𝕄))
      ⊢ (iprop(taskResOut cu cv csrc cdst d w ∗ scopedBufs (V d c i) ∗ scopedSems0 (V d c i)) : sProp 𝕄) := by
  unfold fetchRest outRestV taskResOut readRes writeResOut
  rw [(K (F := F)).scopedBufs_V hF d c i, SparseCore.Cfg.scopedSems0_V (Val := Elt F) d c i, ownSems0_split, ownBufs_split]
  iintro ⟨Hu, Hv, Hm6, Hm7, ⟨Hsrc, Hdst, Hi0, Hi1, Hj0, Hj1, Hm8, Hm9, Hm10, Hm11⟩, ⟨⟨%fs, %hfs, Hs⟩, ⟨%ft, %hft, Ht⟩, Hr0, Hr1, Hq0, Hq1, Hm12, Hm13, Hm14, Hm15⟩, Hbufs, Hsems⟩
  ihave Hb0 := (i_join (F := F) d c i) $$ [Hi0 Hi1]
  · isplitl [Hi0]
    · iexact Hi0
    · iexact Hi1
  ihave Hb2 := (j_join (F := F) d c i) $$ [Hj0 Hj1]
  · isplitl [Hj0]
    · iexact Hj0
    · iexact Hj1
  ihave Hb4 := (r_join (F := F) d c i) $$ [Hr0 Hr1]
  · isplitl [Hr0]
    · iexact Hr0
    · iexact Hr1
  ihave Hb6 := (q_join (F := F) d c i) $$ [Hq0 Hq1]
  · isplitl [Hq0]
    · iexact Hq0
    · iexact Hq1
  ihave Hu := (Entails.of_eq (show (((uW).view.loc (V d c i) ↦{tok w} cu d : sProp 𝕄)) = (uLoc d ↦{tok w} cu d) from rfl)) $$ Hu
  ihave Hv := (Entails.of_eq (show (((vW).view.loc (V d c i) ↦{tok w} cv d : sProp 𝕄)) = (vLoc d ↦{tok w} cv d) from rfl)) $$ Hv
  ihave Hsrc := (Entails.of_eq (show (((srcW).view.loc (V d c i) ↦{tok w} csrc d : sProp 𝕄)) = (srcLoc d ↦{tok w} csrc d) from rfl)) $$ Hsrc
  ihave Hdst := (Entails.of_eq (show (((dstW).view.loc (V d c i) ↦{tok w} cdst d : sProp 𝕄)) = (dstLoc d ↦{tok w} cdst d) from rfl)) $$ Hdst
  ihave Hs := (Entails.of_eq (show (((sW).view.loc (V d c i) ↦[rowsOf w]{fullShare} fs : sProp 𝕄)) = (sLoc d ↦[rowsOf w]{fullShare} fs) from rfl)) $$ Hs
  ihave Ht := (Entails.of_eq (show (((tW).view.loc (V d c i) ↦[rowsOf w]{fullShare} ft : sProp 𝕄)) = (tLoc d ↦[rowsOf w]{fullShare} ft) from rfl)) $$ Ht
  isplitl [Hu Hv Hsrc Hdst Hs Ht]
  · isplitl [Hu Hv Hsrc Hdst]
    · isplitl [Hu]; · iexact Hu
      isplitl [Hv]; · iexact Hv
      isplitl [Hsrc]; · iexact Hsrc
      iexact Hdst
    · isplitl [Hs]
      · iexists fs
        isplitl []
        · ipureintro; exact GathSBelow_owns cu csrc d w fs hfs
        · iexact Hs
      · iexists ft
        isplitl []
        · ipureintro; exact GathTBelow_owns cv cdst d w ft hft
        · iexact Ht
  · isplitl [Hb0 Hb2 Hb4 Hb6 Hbufs]
    · isplitl [Hb0]; · iexact Hb0
      isplitl [Hb2]; · iexact Hb2
      isplitl [Hb4]; · iexact Hb4
      isplitl [Hb6]; · iexact Hb6
      iexact Hbufs
    · isplitl [Hm6]; · iexact Hm6
      isplitl [Hm7]; · iexact Hm7
      isplitl [Hm8]; · iexact Hm8
      isplitl [Hm9]; · iexact Hm9
      isplitl [Hm10]; · iexact Hm10
      isplitl [Hm11]; · iexact Hm11
      isplitl [Hm12]; · iexact Hm12
      isplitl [Hm13]; · iexact Hm13
      isplitl [Hm14]; · iexact Hm14
      isplitl [Hm15]; · iexact Hm15
      iexact Hsems

end FinV

end Cert.Proof.KB

end
-- ==== Proof.ScTileVal2B.lean ====
import proofs.«210884_g88510686036700_cont_sun_m_1211_45_alg».proof.Proof.ScTileValB
import Idealize.ShloMosaic.Lib.Exec.Geometry
import Idealize.ShloMosaic.Lib.ValueLayout
import Idealize.ShloMosaic.Lib.Pipeline.Value

set_option maxRecDepth 16384

noncomputable section

namespace Cert.Proof.KB

open Cert.Kernel Cert.Kernel.Gen
open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)

/-! ## What a write-out's flight delivers, in the form the symbolic run leaves it -/

section Flight
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub)

/-- The table read through its whole-array slice is the table. -/
theorem uW_slice_read (fu : Buf (Elt F) (uLoc d)) :
    View.read (Elt F) ((uW).slice (Rect.unit ![0, 0] S10000x128.size inb_S10000x128_S10000x128_0_0) (fun _ => rfl)).view fu
      = (uW).view.read (Elt F) fu := by
  funext y
  show fu ((Rect.unit (s := S10000x128) ![0, 0] S10000x128.size inb_S10000x128_S10000x128_0_0).emb y) = fu y
  refine congrArg fu (funext fun a => Fin.ext ?_)
  match a with
  | ⟨0, _⟩ => show 0 + 1 * (y 0).val = (y 0).val; omega
  | ⟨1, _⟩ => show 0 + 1 * (y 1).val = (y 1).val; omega

/-- A block of the gathered array listed as one whole-block piece, at a row of the block: the piece's payload there. -/
theorem flight_gen_s (x : ℕ) (hx : x < 2500) (fs : Buf (Elt F) (sLoc d)) (W : S128x128.Idx → Elt F .f32) (p k : Fin 128) :
    ((sB x hx).view.writes (Elt F) fs [⟨Rect.whole S128x128, W⟩]) (ix2 (⟨128 * x + p.val, by omega⟩ : Fin 320000) k) = W (ix2 p k) := by
  have h1 : (sB x hx).view.writes (Elt F) fs [⟨Rect.whole S128x128, W⟩] = (sB x hx).view.write (Elt F) fs W Finset.univ :=
    (View.write_univ_eq_writes_whole (sB x hx).view fs [] W).symm
  rw [h1]
  exact out_s_at d x hx fs W p k

/-- The row slot 0 listed with the gather's payload, as the write-out reads it, at `(p, k)`: the named table row. -/
theorem slotW_s0 (x : ℕ) (hx : x < 2500) (gi : Buf (Elt F) ((iS0).view.loc (V d c i)))
    (hr : (iS0).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL0).view.read (Elt F) gi y).toNat < S10000x128.size gathers_S10000x128_S128x128.axis)
    (gr0 : Buf (Elt F) ((rS0).view.loc (V d c i))) (p k : Fin 128) :
    ReadAs.same.apply ((rS0).view.read (Elt F) ((rS0).view.writes (Elt F) gr0 [⟨Rect.whole S128x128,
          SparseCore.gatherPayload gathers_S10000x128_S128x128
            (View.read (Elt F) ((uW).slice (Rect.unit ![0, 0] S10000x128.size inb_S10000x128_S10000x128_0_0) (fun _ => rfl)).view (cu d))
            (SparseCore.rows ((iL0).view.read (Elt F) gi) hn hin)⟩])) (ix2 p k)
      = cu d (ix2 (rowOfWord (csrc d (ix2 (0 : Fin 1) (⟨128 * x + p.val, by omega⟩ : Fin 320000)))) k) := by
  show (rS0).view.read (Elt F) ((rS0).view.writes (Elt F) gr0 [⟨Rect.whole S128x128, _⟩]) (ix2 p k) = _
  rw [View.read_writes_whole, uW_slice_read]
  exact gath_s0 cu csrc d c i x hx gi hr hb hn hin p k

/-- WHAT THE WRITE-OUT OF ROW SLOT 0 DELIVERS into block `x`, at a row of the block: the named table row. -/
theorem flight_s0 (x : ℕ) (hx : x < 2500) (gi : Buf (Elt F) ((iS0).view.loc (V d c i)))
    (hr : (iS0).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL0).view.read (Elt F) gi y).toNat < S10000x128.size gathers_S10000x128_S128x128.axis)
    (gr0 : Buf (Elt F) ((rS0).view.loc (V d c i))) (fs : Buf (Elt F) (sLoc d)) (p k : Fin 128) :
    ((sB x hx).view.writes (Elt F) fs [⟨Rect.whole S128x128,
        ReadAs.same.apply ((rS0).view.read (Elt F) ((rS0).view.writes (Elt F) gr0 [⟨Rect.whole S128x128,
          SparseCore.gatherPayload gathers_S10000x128_S128x128
            (View.read (Elt F) ((uW).slice (Rect.unit ![0, 0] S10000x128.size inb_S10000x128_S10000x128_0_0) (fun _ => rfl)).view (cu d))
            (SparseCore.rows ((iL0).view.read (Elt F) gi) hn hin)⟩]))⟩]) (ix2 (⟨128 * x + p.val, by omega⟩ : Fin 320000) k)
      = cu d (ix2 (rowOfWord (csrc d (ix2 (0 : Fin 1) (⟨128 * x + p.val, by omega⟩ : Fin 320000)))) k) :=
  (flight_gen_s d x hx fs _ p k).trans (slotW_s0 cu csrc d c i x hx gi hr hb hn hin gr0 p k)

/-- The row slot 1 listed with the gather's payload, as the write-out reads it, at `(p, k)`: the named table row. -/
theorem slotW_s1 (x : ℕ) (hx : x < 2500) (gi : Buf (Elt F) ((iS1).view.loc (V d c i)))
    (hr : (iS1).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL1).view.read (Elt F) gi y).toNat < S10000x128.size gathers_S10000x128_S128x128.axis)
    (gr0 : Buf (Elt F) ((rS1).view.loc (V d c i))) (p k : Fin 128) :
    ReadAs.same.apply ((rS1).view.read (Elt F) ((rS1).view.writes (Elt F) gr0 [⟨Rect.whole S128x128,
          SparseCore.gatherPayload gathers_S10000x128_S128x128
            (View.read (Elt F) ((uW).slice (Rect.unit ![0, 0] S10000x128.size inb_S10000x128_S10000x128_0_0) (fun _ => rfl)).view (cu d))
            (SparseCore.rows ((iL1).view.read (Elt F) gi) hn hin)⟩])) (ix2 p k)
      = cu d (ix2 (rowOfWord (csrc d (ix2 (0 : Fin 1) (⟨128 * x + p.val, by omega⟩ : Fin 320000)))) k) := by
  show (rS1).view.read (Elt F) ((rS1).view.writes (Elt F) gr0 [⟨Rect.whole S128x128, _⟩]) (ix2 p k) = _
  rw [View.read_writes_whole, uW_slice_read]
  exact gath_s1 cu csrc d c i x hx gi hr hb hn hin p k

/-- WHAT THE WRITE-OUT OF ROW SLOT 1 DELIVERS into block `x`, at a row of the block: the named table row. -/
theorem flight_s1 (x : ℕ) (hx : x < 2500) (gi : Buf (Elt F) ((iS1).view.loc (V d c i)))
    (hr : (iS1).view.read (Elt F) gi = (srcB x hx).view.read (Elt F) (csrc d))
    (hb : ∀ e : Fin 320000, (csrc d (ix2 (0 : Fin 1) e)).toNat < 10000)
    (hn : S128.numel = S128x128.size gathers_S10000x128_S128x128.axis')
    (hin : ∀ y, ((iL1).view.read (Elt F) gi y).toNat < S10000x128.size gathers_S10000x128_S128x128.axis)
    (gr0 : Buf (Elt F) ((rS1).view.loc (V d c i))) (fs : Buf (Elt F) (sLoc d)) (p k : Fin 128) :
    ((sB x hx).view.writes (Elt F) fs [⟨Rect.whole S128x128,
        ReadAs.same.apply ((rS1).view.read (Elt F) ((rS1).view.writes (Elt F) gr0 [⟨Rect.whole S128x128,
          SparseCore.gatherPayload gathers_S10000x128_S128x128
            (View.read (Elt F) ((uW).slice (Rect.unit ![0, 0] S10000x128.size inb_S10000x128_S10000x128_0_0) (fun _ => rfl)).view (cu d))
            (SparseCore.rows ((iL1).view.read (Elt F) gi) hn hin)⟩]))⟩]) (ix2 (⟨128 * x + p.val, by omega⟩ : Fin 320000) k)
      = cu d (ix2 (rowOfWord (csrc d (ix2 (0 : Fin 1) (⟨128 * x + p.val, by omega⟩ : Fin 320000)))) k) :=
  (flight_gen_s d x hx fs _ p k).trans (slotW_s1 cu csrc d c i x hx gi hr hb hn hin gr0 p k)

/-- The table read through its whole-array slice is the table. -/
theorem vW_slice_read (fu : Buf (Elt F) (vLoc d)) :
    View.read (Elt F) ((vW).slice (Rect.unit ![0, 0] S10000x128.size inb_S10000x128_S10000x128_0_0) (fun _ => rfl)).view fu
      = (vW).view.read (Elt F) fu := by
  funext y
  show fu ((Rect.unit (s := S10000x128) ![0, 0] S10000x128.size inb_S10000x128_S10000x128_0_0).emb y) = fu y
  refine congrArg fu (funext fun a => Fin.ext ?_)
  match a with
  | ⟨0, _⟩ => show 0 + 1 * (y 0).val = (y 0).val; omega
  | ⟨1, _⟩ => show 0 + 1 * (y 1).val = (y 1).val; omega

/-- A block of the gathered array listed as one whole-block piece, at a row of the block: the piece's payload there. -/
theorem flight_gen_t (x : ℕ) (hx : x < 2500) (fs : Buf (Elt F) (tLoc d)) (W : S128x128.Idx → Elt F .f32) (p k : Fin 128) :
    ((tB x hx).view.writes (Elt F) fs [⟨Rect.whole S128x128, W⟩]) (ix2 (⟨128 * x + p.val, by omega⟩ : Fin 320000) k) = W (ix2 p k) := by
  have h1 : (tB x hx).view.writes (Elt F) fs [⟨Rect.whole S128x128, W⟩] = (tB x hx).view.write (Elt F) fs W Finset.univ :=
    (View.write_univ_eq_writes_whole (tB x hx).view fs [] W).symm
  rw [h1]
  exact out_t_at d x hx fs W p k

/-- The row slot 0 listed with the gather's payload, as the write-out reads it, at `(p, k)`: the named table row. -/
theorem slotW_t0 (x : ℕ) (hx : x < 2500) (gi : Buf (Elt F) ((jS0).view.loc (V d c i)))
    (hr : (jS0).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL0).view.read (Elt F) gi y).toNat < S10000x128.size gathers_S10000x128_S128x128.axis)
    (gr0 : Buf (Elt F) ((qS0).view.loc (V d c i))) (p k : Fin 128) :
    ReadAs.same.apply ((qS0).view.read (Elt F) ((qS0).view.writes (Elt F) gr0 [⟨Rect.whole S128x128,
          SparseCore.gatherPayload gathers_S10000x128_S128x128
            (View.read (Elt F) ((vW).slice (Rect.unit ![0, 0] S10000x128.size inb_S10000x128_S10000x128_0_0) (fun _ => rfl)).view (cv d))
            (SparseCore.rows ((jL0).view.read (Elt F) gi) hn hin)⟩])) (ix2 p k)
      = cv d (ix2 (rowOfWord (cdst d (ix2 (0 : Fin 1) (⟨128 * x + p.val, by omega⟩ : Fin 320000)))) k) := by
  show (qS0).view.read (Elt F) ((qS0).view.writes (Elt F) gr0 [⟨Rect.whole S128x128, _⟩]) (ix2 p k) = _
  rw [View.read_writes_whole, vW_slice_read]
  exact gath_t0 cv cdst d c i x hx gi hr hb hn hin p k

/-- WHAT THE WRITE-OUT OF ROW SLOT 0 DELIVERS into block `x`, at a row of the block: the named table row. -/
theorem flight_t0 (x : ℕ) (hx : x < 2500) (gi : Buf (Elt F) ((jS0).view.loc (V d c i)))
    (hr : (jS0).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL0).view.read (Elt F) gi y).toNat < S10000x128.size gathers_S10000x128_S128x128.axis)
    (gr0 : Buf (Elt F) ((qS0).view.loc (V d c i))) (fs : Buf (Elt F) (tLoc d)) (p k : Fin 128) :
    ((tB x hx).view.writes (Elt F) fs [⟨Rect.whole S128x128,
        ReadAs.same.apply ((qS0).view.read (Elt F) ((qS0).view.writes (Elt F) gr0 [⟨Rect.whole S128x128,
          SparseCore.gatherPayload gathers_S10000x128_S128x128
            (View.read (Elt F) ((vW).slice (Rect.unit ![0, 0] S10000x128.size inb_S10000x128_S10000x128_0_0) (fun _ => rfl)).view (cv d))
            (SparseCore.rows ((jL0).view.read (Elt F) gi) hn hin)⟩]))⟩]) (ix2 (⟨128 * x + p.val, by omega⟩ : Fin 320000) k)
      = cv d (ix2 (rowOfWord (cdst d (ix2 (0 : Fin 1) (⟨128 * x + p.val, by omega⟩ : Fin 320000)))) k) :=
  (flight_gen_t d x hx fs _ p k).trans (slotW_t0 cv cdst d c i x hx gi hr hb hn hin gr0 p k)

/-- The row slot 1 listed with the gather's payload, as the write-out reads it, at `(p, k)`: the named table row. -/
theorem slotW_t1 (x : ℕ) (hx : x < 2500) (gi : Buf (Elt F) ((jS1).view.loc (V d c i)))
    (hr : (jS1).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL1).view.read (Elt F) gi y).toNat < S10000x128.size gathers_S10000x128_S128x128.axis)
    (gr0 : Buf (Elt F) ((qS1).view.loc (V d c i))) (p k : Fin 128) :
    ReadAs.same.apply ((qS1).view.read (Elt F) ((qS1).view.writes (Elt F) gr0 [⟨Rect.whole S128x128,
          SparseCore.gatherPayload gathers_S10000x128_S128x128
            (View.read (Elt F) ((vW).slice (Rect.unit ![0, 0] S10000x128.size inb_S10000x128_S10000x128_0_0) (fun _ => rfl)).view (cv d))
            (SparseCore.rows ((jL1).view.read (Elt F) gi) hn hin)⟩])) (ix2 p k)
      = cv d (ix2 (rowOfWord (cdst d (ix2 (0 : Fin 1) (⟨128 * x + p.val, by omega⟩ : Fin 320000)))) k) := by
  show (qS1).view.read (Elt F) ((qS1).view.writes (Elt F) gr0 [⟨Rect.whole S128x128, _⟩]) (ix2 p k) = _
  rw [View.read_writes_whole, vW_slice_read]
  exact gath_t1 cv cdst d c i x hx gi hr hb hn hin p k

/-- WHAT THE WRITE-OUT OF ROW SLOT 1 DELIVERS into block `x`, at a row of the block: the named table row. -/
theorem flight_t1 (x : ℕ) (hx : x < 2500) (gi : Buf (Elt F) ((jS1).view.loc (V d c i)))
    (hr : (jS1).view.read (Elt F) gi = (dstB x hx).view.read (Elt F) (cdst d))
    (hb : ∀ e : Fin 320000, (cdst d (ix2 (0 : Fin 1) e)).toNat < 10000)
    (hn : S128.numel = S128x128.size gathers_S10000x128_S128x128.axis')
    (hin : ∀ y, ((jL1).view.read (Elt F) gi y).toNat < S10000x128.size gathers_S10000x128_S128x128.axis)
    (gr0 : Buf (Elt F) ((qS1).view.loc (V d c i))) (fs : Buf (Elt F) (tLoc d)) (p k : Fin 128) :
    ((tB x hx).view.writes (Elt F) fs [⟨Rect.whole S128x128,
        ReadAs.same.apply ((qS1).view.read (Elt F) ((qS1).view.writes (Elt F) gr0 [⟨Rect.whole S128x128,
          SparseCore.gatherPayload gathers_S10000x128_S128x128
            (View.read (Elt F) ((vW).slice (Rect.unit ![0, 0] S10000x128.size inb_S10000x128_S10000x128_0_0) (fun _ => rfl)).view (cv d))
            (SparseCore.rows ((jL1).view.read (Elt F) gi) hn hin)⟩]))⟩]) (ix2 (⟨128 * x + p.val, by omega⟩ : Fin 320000) k)
      = cv d (ix2 (rowOfWord (cdst d (ix2 (0 : Fin 1) (⟨128 * x + p.val, by omega⟩ : Fin 320000)))) k) :=
  (flight_gen_t d x hx fs _ p k).trans (slotW_t1 cv cdst d c i x hx gi hr hb hn hin gr0 p k)

end Flight

end Cert.Proof.KB

end
-- ==== Proof.ScTileJoinVB.lean ====
import proofs.«210884_g88510686036700_cont_sun_m_1211_45_alg».proof.Proof.ScTileDisjB
import proofs.«210884_g88510686036700_cont_sun_m_1211_45_alg».proof.Proof.ScTileValB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)
local notation "b0W" => (Memref.whole Cert.Kernel.cc1_scoped0 : Memref Cert.Kernel.sig Kind.scVector Space.vmem Cert.Kernel.S2x1x128 EltTy.i32)
local notation "b2W" => (Memref.whole Cert.Kernel.cc1_scoped2 : Memref Cert.Kernel.sig Kind.scVector Space.vmem Cert.Kernel.S2x1x128 EltTy.i32)
local notation "b4W" => (Memref.whole Cert.Kernel.cc1_scoped4 : Memref Cert.Kernel.sig Kind.scVector Space.vmem Cert.Kernel.S2x128x128 EltTy.f32)
local notation "b6W" => (Memref.whole Cert.Kernel.cc1_scoped6 : Memref Cert.Kernel.sig Kind.scVector Space.vmem Cert.Kernel.S2x128x128 EltTy.f32)

/-! ## A block back from its write-out, with what it holds -/

section RejoinV
variable {ℓ : Loc nD τ sig} {A I J : Finset (Idx ℓ)} {q : PosShare TreeShare} {f g : Buf (Elt F) ℓ}

theorem pts_swap_joinV (hI : I ⊆ A) (hd : Disjoint I J) :
    iprop((ℓ ↦[I]{q} g) ∗ ℓ ↦[(A \ I) \ J]{q} f) ⊢ (ℓ ↦[A \ J]{q} (I.piecewise g f) : sProp 𝕄) := by
  have hI' : I ⊆ A \ J := fun x hx => Finset.mem_sdiff.mpr ⟨hI hx, Finset.disjoint_left.mp hd hx⟩
  rw [sdiff_right_comm]
  exact pointsTo_join_subset hI'

end RejoinV

section JoinV
variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))
  (d : Dev nD) (c : Fin τ.nSC) (i : Fin τ.nSub) (w : Fin 32)

set_option backward.isDefEq.respectTransparency.types false in
/-- Block `x`, holding the named table rows, back from its write-out and joined to the rows held less it and block `y`: the rows
    less block `y` hold the named rows on one more block. -/
theorem s_joinV (x y : ℕ) (hx : x < 2500) (hy : y < 2500) (hxy : x ≠ y) (hsub : rowsBlk x ⊆ rowsOf w) (lo : ℕ)
    (g : Buf (Elt F) ((sB x hx).view.loc (V d c i))) (f : Buf (Elt F) ((sW).view.loc (V d c i)))
    (hf : GathSBelow cu csrc d f lo x)
    (hg : ∀ p k : Fin 128, g (ix2 (⟨128 * x + p.val, by omega⟩ : Fin 320000) k)
        = cu d (ix2 (rowOfWord (csrc d (ix2 (0 : Fin 1) (⟨128 * x + p.val, by omega⟩ : Fin 320000)))) k)) :
    (iprop(((sB x hx).view.loc (V d c i) ↦[(sB x hx).view.set]{fullShare} g) ∗ (sW).view.loc (V d c i) ↦[(rowsOf w \ rowsBlk x) \ (sB y hy).view.set]{fullShare} f) : sProp 𝕄)
      ⊢ iprop(∃ f', ⌜GathSBelow cu csrc d f' lo (x + 1)⌝ ∗ (sW).view.loc (V d c i) ↦[rowsOf w \ rowsBlk y]{fullShare} f') := by
  rw [sB_set, sB_set]
  refine (pts_swap_joinV (ℓ := (sW).view.loc (V d c i)) hsub (rowsBlk_disj x y hxy)).trans ?_
  iintro H
  iexists (rowsBlk x).piecewise g f
  isplitr
  · ipureintro
    exact GathSBelow_join cu csrc d x hx f g _ lo
      (fun ix h => Finset.piecewise_eq_of_notMem _ _ _ h) (fun ix h => Finset.piecewise_eq_of_mem _ _ _ h) hg hf
  · iexact H

set_option backward.isDefEq.respectTransparency.types false in
/-- Block `x`, holding the named table rows, back from its write-out and joined to the rows held less it and block `y`: the rows
    less block `y` hold the named rows on one more block. -/
theorem t_joinV (x y : ℕ) (hx : x < 2500) (hy : y < 2500) (hxy : x ≠ y) (hsub : rowsBlk x ⊆ rowsOf w) (lo : ℕ)
    (g : Buf (Elt F) ((tB x hx).view.loc (V d c i))) (f : Buf (Elt F) ((tW).view.loc (V d c i)))
    (hf : GathTBelow cv cdst d f lo x)
    (hg : ∀ p k : Fin 128, g (ix2 (⟨128 * x + p.val, by omega⟩ : Fin 320000) k)
        = cv d (ix2 (rowOfWord (cdst d (ix2 (0 : Fin 1) (⟨128 * x + p.val, by omega⟩ : Fin 320000)))) k)) :
    (iprop(((tB x hx).view.loc (V d c i) ↦[(tB x hx).view.set]{fullShare} g) ∗ (tW).view.loc (V d c i) ↦[(rowsOf w \ rowsBlk x) \ (tB y hy).view.set]{fullShare} f) : sProp 𝕄)
      ⊢ iprop(∃ f', ⌜GathTBelow cv cdst d f' lo (x + 1)⌝ ∗ (tW).view.loc (V d c i) ↦[rowsOf w \ rowsBlk y]{fullShare} f') := by
  rw [tB_set, tB_set]
  refine (pts_swap_joinV (ℓ := (tW).view.loc (V d c i)) hsub (rowsBlk_disj x y hxy)).trans ?_
  iintro H
  iexists (rowsBlk x).piecewise g f
  isplitr
  · ipureintro
    exact GathTBelow_join cv cdst d x hx f g _ lo
      (fun ix h => Finset.piecewise_eq_of_notMem _ _ _ h) (fun ix h => Finset.piecewise_eq_of_mem _ _ _ h) hg hf
  · iexact H

end JoinV

end Cert.Proof.KB

end
-- ==== Proof.ScTileVB.lean ====
/-
  One task of the gather kernel, at a symbolic vector subcore, WITH VALUES: as the frame's statement, and the task's rows of
  the two gathered arrays come back holding, row by row, the table rows that the index rows name there.

  The loop's invariant is the frame's with the write-outs' part carrying what the gathered arrays hold: the rows of the
  task's blocks already written and waited for hold the named table rows, and the write-out in flight delivers them on its
  block. A trip's gather writes the named rows into its row slot (the index slot holds that block of the index row, by
  the fetch's payload, and every index names a table row), the write-out copies the slot onto its block, and the block
  joins the rest when its wait returns, one trip later.
-/
import proofs.«210884_g88510686036700_cont_sun_m_1211_45_alg».proof.Proof.ScTileDisjB
import proofs.«210884_g88510686036700_cont_sun_m_1211_45_alg».proof.Proof.ScTileYieldB
import proofs.«210884_g88510686036700_cont_sun_m_1211_45_alg».proof.Proof.ScTileChk2B
import proofs.«210884_g88510686036700_cont_sun_m_1211_45_alg».proof.Proof.ScTileFinVB
import proofs.«210884_g88510686036700_cont_sun_m_1211_45_alg».proof.Proof.ScTileStVB
import proofs.«210884_g88510686036700_cont_sun_m_1211_45_alg».proof.Proof.ScTileVal2B
import proofs.«210884_g88510686036700_cont_sun_m_1211_45_alg».proof.Proof.ScTileJoinVB
import proofs.«210884_g88510686036700_cont_sun_m_1211_45_alg».proof.Proof.ScTileInvB

noncomputable section

namespace Cert.Proof.KB

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

local notation "uW" => (Memref.whole Cert.Kernel.main_v4_0_scv : Memref Cert.Kernel.sig Kind.scVector Space.hbm Cert.Kernel.S10000x128 EltTy.f32)
local notation "vW" => (Memref.whole Cert.Kernel.main_v4_1_scv : Memref Cert.Kernel.sig Kind.scVector Space.hbm Cert.Kernel.S10000x128 EltTy.f32)
local notation "srcW" => (Memref.whole Cert.Kernel.main_v12_scv : Memref Cert.Kernel.sig Kind.scVector Space.hbm Cert.Kernel.S1x320000 EltTy.i32)
local notation "dstW" => (Memref.whole Cert.Kernel.main_v13_scv : Memref Cert.Kernel.sig Kind.scVector Space.hbm Cert.Kernel.S1x320000 EltTy.i32)
local notation "sW" => (Memref.whole Cert.Kernel.main_v14_0_scv : Memref Cert.Kernel.sig Kind.scVector Space.hbm Cert.Kernel.S320000x128 EltTy.f32)
local notation "tW" => (Memref.whole Cert.Kernel.main_v14_1_scv : Memref Cert.Kernel.sig Kind.scVector Space.hbm Cert.Kernel.S320000x128 EltTy.f32)
local notation "b0W" => (Memref.whole Cert.Kernel.cc1_scoped0 : Memref Cert.Kernel.sig Kind.scVector Space.vmem Cert.Kernel.S2x1x128 EltTy.i32)
local notation "b2W" => (Memref.whole Cert.Kernel.cc1_scoped2 : Memref Cert.Kernel.sig Kind.scVector Space.vmem Cert.Kernel.S2x1x128 EltTy.i32)
local notation "b4W" => (Memref.whole Cert.Kernel.cc1_scoped4 : Memref Cert.Kernel.sig Kind.scVector Space.vmem Cert.Kernel.S2x128x128 EltTy.f32)
local notation "b6W" => (Memref.whole Cert.Kernel.cc1_scoped6 : Memref Cert.Kernel.sig Kind.scVector Space.vmem Cert.Kernel.S2x128x128 EltTy.f32)

section Body

variable (cu : (d : Dev nD) → Buf (Elt F) (uLoc d)) (cv : (d : Dev nD) → Buf (Elt F) (vLoc d))
  (csrc : (d : Dev nD) → Buf (Elt F) (srcLoc d)) (cdst : (d : Dev nD) → Buf (Elt F) (dstLoc d))

set_option maxHeartbeats 8000000 in
/-- The task's statement with values. -/
theorem tile_stmtV : TileStmtV cu cv csrc cdst := by
  intro hF hidx d c i hc O W hO prog hprog
  subst hprog
  have hw : taskAt (F := F) c i = taskOf (coordsV ⟨((K (F := F)).core 0 c).val, hc.1⟩ ⟨((K (F := F)).sub 0 i).val, hc.2⟩) := Fin.ext rfl
  rw [hw]
  rw [cc1_gather_kernel_eq_skeleton]; unfold cc1_gather_kernel_skel
  have k1_h1 : k1_cond1 (coordsV ⟨((K (F := F)).core 0 c).val, hc.1⟩ ⟨((K (F := F)).sub 0 i).val, hc.2⟩) = 1#1 := k1_h1_all _
  have hn := trips_eq (coordsV ⟨((K (F := F)).core 0 c).val, hc.1⟩ ⟨((K (F := F)).sub 0 i).val, hc.2⟩)
  have hn78 := nT_ge (coordsV ⟨((K (F := F)).core 0 c).val, hc.1⟩ ⟨((K (F := F)).sub 0 i).val, hc.2⟩)
  have hn79 := nT_le (coordsV ⟨((K (F := F)).core 0 c).val, hc.1⟩ ⟨((K (F := F)).sub 0 i).val, hc.2⟩)
  rw [(K (F := F)).scopedBufs_V hF d _ _, SparseCore.Cfg.scopedSems0_V (Val := Elt F) d _ _, ownSems0_split, ownBufs_split]
  unfold taskRes readRes writeRes
  iintro ⟨#Hlv, -, ⟨⟨Hu, Hv, Hsrc, Hdst⟩, ⟨%fs, Hs⟩, ⟨%ft, Ht⟩⟩, ⟨Hb0, Hb2, Hb4, Hb6, Hbufs⟩, ⟨Hm6, Hm7, Hm8, Hm9, Hm10, Hm11, Hm12, Hm13, Hm14, Hm15, Hsems⟩, HO⟩
  ihave Hb0' := (i_split (F := F) d _ _) $$ Hb0
  icases Hb0' with ⟨⟨%gi0, Hi0⟩, ⟨%gi1, Hi1⟩⟩
  ihave Hb2' := (j_split (F := F) d _ _) $$ Hb2
  icases Hb2' with ⟨⟨%gj0, Hj0⟩, ⟨%gj1, Hj1⟩⟩
  ihave Hb4' := (r_split (F := F) d _ _) $$ Hb4
  icases Hb4' with ⟨⟨%gr0, Hr0⟩, ⟨%gr1, Hr1⟩⟩
  ihave Hb6' := (q_split (F := F) d _ _) $$ Hb6
  icases Hb6' with ⟨⟨%gq0, Hq0⟩, ⟨%gq1, Hq1⟩⟩
  ihave Hu := (Entails.of_eq (show (uLoc d ↦{tok (taskOf (coordsV ⟨((K (F := F)).core 0 c).val, hc.1⟩ ⟨((K (F := F)).sub 0 i).val, hc.2⟩))} cu d : sProp 𝕄) = ((uW).view.loc (V d ((K (F := F)).core 0 c) ((K (F := F)).sub 0 i)) ↦{tok (taskOf (coordsV ⟨((K (F := F)).core 0 c).val, hc.1⟩ ⟨((K (F := F)).sub 0 i).val, hc.2⟩))} cu d) from rfl)) $$ Hu
  ihave Hv := (Entails.of_eq (show (vLoc d ↦{tok (taskOf (coordsV ⟨((K (F := F)).core 0 c).val, hc.1⟩ ⟨((K (F := F)).sub 0 i).val, hc.2⟩))} cv d : sProp 𝕄) = ((vW).view.loc (V d ((K (F := F)).core 0 c) ((K (F := F)).sub 0 i)) ↦{tok (taskOf (coordsV ⟨((K (F := F)).core 0 c).val, hc.1⟩ ⟨((K (F := F)).sub 0 i).val, hc.2⟩))} cv d) from rfl)) $$ Hv
  ihave Hsrc := (Entails.of_eq (show (srcLoc d ↦{tok (taskOf (coordsV ⟨((K (F := F)).core 0 c).val, hc.1⟩ ⟨((K (F := F)).sub 0 i).val, hc.2⟩))} csrc d : sProp 𝕄) = ((srcW).view.loc (V d ((K (F := F)).core 0 c) ((K (F := F)).sub 0 i)) ↦{tok (taskOf (coordsV ⟨((K (F := F)).core 0 c).val, hc.1⟩ ⟨((K (F := F)).sub 0 i).val, hc.2⟩))} csrc d) from rfl)) $$ Hsrc
  ihave Hdst := (Entails.of_eq (show (dstLoc d ↦{tok (taskOf (coordsV ⟨((K (F := F)).core 0 c).val, hc.1⟩ ⟨((K (F := F)).sub 0 i).val, hc.2⟩))} cdst d : sProp 𝕄) = ((dstW).view.loc (V d ((K (F := F)).core 0 c) ((K (F := F)).sub 0 i)) ↦{tok (taskOf (coordsV ⟨((K (F := F)).core 0 c).val, hc.1⟩ ⟨((K (F := F)).sub 0 i).val, hc.2⟩))} cdst d) from rfl)) $$ Hdst
  ihave Hs := (Entails.of_eq (show (sLoc d ↦[rowsOf (taskOf (coordsV ⟨((K (F := F)).core 0 c).val, hc.1⟩ ⟨((K (F := F)).sub 0 i).val, hc.2⟩))]{fullShare} fs : sProp 𝕄) = ((sW).view.loc (V d ((K (F := F)).core 0 c) ((K (F := F)).sub 0 i)) ↦[rowsOf (taskOf (coordsV ⟨((K (F := F)).core 0 c).val, hc.1⟩ ⟨((K (F := F)).sub 0 i).val, hc.2⟩))]{fullShare} fs) from rfl)) $$ Hs
  ihave Ht := (Entails.of_eq (show (tLoc d ↦[rowsOf (taskOf (coordsV ⟨((K (F := F)).core 0 c).val, hc.1⟩ ⟨((K (F := F)).sub 0 i).val, hc.2⟩))]{fullShare} ft : sProp 𝕄) = ((tW).view.loc (V d ((K (F := F)).core 0 c) ((K (F := F)).sub 0 i)) ↦[rowsOf (taskOf (coordsV ⟨((K (F := F)).core 0 c).val, hc.1⟩ ⟨((K (F := F)).sub 0 i).val, hc.2⟩))]{fullShare} ft) from rfl)) $$ Ht
  ihave Hmw := ((K (F := F)).mayWaits_none (thr := (V d ((K (F := F)).core 0 c) ((K (F := F)).sub 0 i))) hO) $$ Hlv
  sl_exec
  sl_for (invV cu cv csrc cdst d ((K (F := F)).core 0 c) ((K (F := F)).sub 0 i) (coordsV ⟨((K (F := F)).core 0 c).val, hc.1⟩ ⟨((K (F := F)).sub 0 i).val, hc.2⟩) O W) $$ [Hmw Hu Hv Hm6 Hm7 Hsrc Hdst Hm8 Hm10 Hi1 Hj1 Hm9 Hm11 Hs Ht Hr0 Hr1 Hq0 Hq1 Hm12 Hm13 Hm14 Hm15 HO]
  case region =>
    intro k acc
    have hk : k.val < nT (coordsV ⟨((K (F := F)).core 0 c).val, hc.1⟩ ⟨((K (F := F)).sub 0 i).val, hc.2⟩) := hn ▸ k.isLt
    by_cases h0 : k.val = 0
    · -- the first trip
      have hlt : k.val + 1 < nT (coordsV ⟨((K (F := F)).core 0 c).val, hc.1⟩ ⟨((K (F := F)).sub 0 i).val, hc.2⟩) := by omega
      have hpar : k.val % 2 = 0 := by omega
      unfold invV
      rw [fetchPart_even csrc cdst d _ _ _ k.val hk hpar, outPartV_zero cu cv csrc cdst d _ _ _ k.val h0]
      unfold fetchAt0 outRestV
      iintro ⟨%hacc, #Hmw, Hu, Hv, Hm6, Hm7, ⟨Hsrc, ⟨%gi, %hgi, Hf8⟩, ⟨%gi', Hi1⟩, Hm9, Hdst, ⟨%gj, %hgj, Hf10⟩, ⟨%gj', Hj1⟩, Hm11⟩, ⟨⟨%fs, %hGs, Hs⟩, ⟨%ft, %hGt, Ht⟩, ⟨%grp, Hr0⟩, ⟨%grq, Hr1⟩, ⟨%gqp, Hq0⟩, ⟨%gqq, Hq1⟩, Hm12, Hm13, Hm14, Hm15⟩, %W', %hW', HO⟩
      have hacc' : acc = (BitVec.ofNat 32 (k.val + 1), BitVec.ofNat 32 (k.val), BitVec.ofNat 32 (k.val + 1), BitVec.ofNat 32 (k.val), BitVec.ofNat 32 (k.val), BitVec.ofNat 32 (k.val - 1), BitVec.ofNat 32 (k.val), BitVec.ofNat 32 (k.val - 1), BitVec.ofNat 32 (k.val)) := by
        rw [hacc]; simp only [wordsAt, if_pos hlt, if_pos hk]
      subst hacc'
      have hc2 : k1_cond2 (coordsV ⟨((K (F := F)).core 0 c).val, hc.1⟩ ⟨((K (F := F)).sub 0 i).val, hc.2⟩) k (BitVec.ofNat 32 k.val) = 1#1  := by rw [cond2_eq, if_pos hlt]
      have hc3 : k1_cond3 (coordsV ⟨((K (F := F)).core 0 c).val, hc.1⟩ ⟨((K (F := F)).sub 0 i).val, hc.2⟩) k (BitVec.ofNat 32 k.val) = 1#1  := by rw [cond3_eq, if_pos hlt]
      have hc4 : k1_cond4 (coordsV ⟨((K (F := F)).core 0 c).val, hc.1⟩ ⟨((K (F := F)).sub 0 i).val, hc.2⟩) k (BitVec.ofNat 32 k.val) = 1#1 := cond4_eq _ k
      have hc5 : k1_cond5 (coordsV ⟨((K (F := F)).core 0 c).val, hc.1⟩ ⟨((K (F := F)).sub 0 i).val, hc.2⟩) k (BitVec.ofNat 32 k.val) = 1#1 := cond5_eq _ k
      have hc10 : k1_cond10 (coordsV ⟨((K (F := F)).core 0 c).val, hc.1⟩ ⟨((K (F := F)).sub 0 i).val, hc.2⟩) k (BitVec.ofNat 32 k.val) = 1#1 := cond10_eq _ k
      have hc11 : k1_cond11 (coordsV ⟨((K (F := F)).core 0 c).val, hc.1⟩ ⟨((K (F := F)).sub 0 i).val, hc.2⟩) k (BitVec.ofNat 32 k.val) = 1#1 := cond11_eq _ k
      have hc14 : k1_cond14 (coordsV ⟨((K (F := F)).core 0 c).val, hc.1⟩ ⟨((K (F := F)).sub 0 i).val, hc.2⟩) k (BitVec.ofNat 32 k.val) = 1#1 → False := by rw [cond14_eq, if_pos h0]; decide
      have hc15 : k1_cond15 (coordsV ⟨((K (F := F)).core 0 c).val, hc.1⟩ ⟨((K (F := F)).sub 0 i).val, hc.2⟩) k (BitVec.ofNat 32 k.val) = 1#1 → False := by rw [cond15_eq, if_pos h0]; decide
      have hk80 : k.val < 80 := by omega
      have hw2 := chk2_nat (coordsV ⟨((K (F := F)).core 0 c).val, hc.1⟩ ⟨((K (F := F)).sub 0 i).val, hc.2⟩) k.val hk80
      have hw3 := chk3_nat (coordsV ⟨((K (F := F)).core 0 c).val, hc.1⟩ ⟨((K (F := F)).sub 0 i).val, hc.2⟩) k.val hk80
      have hw4 := chk4_nat (coordsV ⟨((K (F := F)).core 0 c).val, hc.1⟩ ⟨((K (F := F)).sub 0 i).val, hc.2⟩) k.val hk80
      have hw5 := chk5_nat (coordsV ⟨((K (F := F)).core 0 c).val, hc.1⟩ ⟨((K (F := F)).sub 0 i).val, hc.2⟩) k.val hk80
      have hw1 := chk1_all (coordsV ⟨((K (F := F)).core 0 c).val, hc.1⟩ ⟨((K (F := F)).sub 0 i).val, hc.2⟩) k
      simp only [if_pos hlt] at hw1
      have hy := yield_eq (coordsV ⟨((K (F := F)).core 0 c).val, hc.1⟩ ⟨((K (F := F)).sub 0 i).val, hc.2⟩) k
      simp only [if_pos hlt] at hy
      ihave Hs' := (s_carve0 (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + k.val) (blk_lt _ _ hk) (rowsBlk_sub _ _ hk) fs) $$ Hs
      icases Hs' with ⟨HsB, Hs⟩
      ihave Ht' := (t_carve0 (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + k.val) (blk_lt _ _ hk) (rowsBlk_sub _ _ hk) ft) $$ Ht
      icases Ht' with ⟨HtB, Ht⟩
      have hinI := hin_i0 (F := F) d ((K (F := F)).core 0 c) ((K (F := F)).sub 0 i) gi _ hgi (fun y => (hidx d _).1)
      have hinJ := hin_j0 (F := F) d ((K (F := F)).core 0 c) ((K (F := F)).sub 0 i) gj _ hgj (fun y => (hidx d _).2)
      have hdS := srcB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
      have hdD := dstB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
      sl_exec
      sl_step
      ihave Hs := (s_rest (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + k.val) (blk_lt _ _ hk) fs) $$ Hs
      ihave Ht := (t_rest (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + k.val) (blk_lt _ _ hk) ft) $$ Ht
      have eB : bT (coordsV ⟨((K (F := F)).core 0 c).val, hc.1⟩ ⟨((K (F := F)).sub 0 i).val, hc.2⟩) + (k.val + 1 - 1) = blk0 (taskOf (coordsV ⟨((K (F := F)).core 0 c).val, hc.1⟩ ⟨((K (F := F)).sub 0 i).val, hc.2⟩)) := by rw [Nat.add_sub_cancel, h0]; rfl
      have hGs' : GathSBelow cu csrc d fs (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [eB]; exact hGs
      have hGt' : GathTBelow cv cdst d ft (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [eB]; exact hGt
      rw [fetchPart_odd csrc cdst d _ _ _ (k.val + 1) hlt (by omega), outPartV_odd cu cv csrc cdst d _ _ _ (k.val + 1) ⟨by omega, by omega⟩ (by omega)]
      unfold fetchAt1 outAt0V
      isplitr
      · ipureintro; exact hy
      isplitr; · iexact Hmw
      isplitl [Hu]; · iexact Hu
      isplitl [Hv]; · iexact Hv
      isplitl [Hm6]; · iexact Hm6
      isplitl [Hm7]; · iexact Hm7
      isplitl [Hsrc Hm9 Hf8_dst Hf8 Hdst Hm11 Hf10_dst Hf10]
      · isplitl [Hsrc]; · iexact Hsrc
        isplitl [Hm9]
        · iexists _; isplitr
          rotate_left
          · iexact Hm9
          · ipureintro; exact View.read_writes_whole _ _ _
        isplitl [Hf8_dst]; · iexists _; iexact Hf8_dst
        isplitl [Hf8]; · iexact Hf8
        isplitl [Hdst]; · iexact Hdst
        isplitl [Hm11]
        · iexists _; isplitr
          rotate_left
          · iexact Hm11
          · ipureintro; exact View.read_writes_whole _ _ _
        isplitl [Hf10_dst]; · iexists _; iexact Hf10_dst
        iexact Hf10
      isplitl [Hs Hm12 Hr1 Hm13 Ht Hm14 Hq1 Hm15]
      · isplitl [Hs]
        · iexists _; isplitr
          rotate_left
          · iexact Hs
          · ipureintro; exact hGs'
        isplitl [Hm12]
        · iexists _, _; isplitr
          rotate_left
          · iexact Hm12
          · ipureintro; intro p' k'
            exact flight_s0 cu csrc d ((K (F := F)).core 0 c) ((K (F := F)).sub 0 i) _ _ gi hgi (fun e => (hidx d _).1) _ hinI grp fs p' k'
        isplitl [Hr1]; · iexists _; iexact Hr1
        isplitl [Hm13]; · iexact Hm13
        isplitl [Ht]
        · iexists _; isplitr
          rotate_left
          · iexact Ht
          · ipureintro; exact hGt'
        isplitl [Hm14]
        · iexists _, _; isplitr
          rotate_left
          · iexact Hm14
          · ipureintro; intro p' k'
            exact flight_t0 cv cdst d ((K (F := F)).core 0 c) ((K (F := F)).sub 0 i) _ _ gj hgj (fun e => (hidx d _).2) _ hinJ gqp ft p' k'
        isplitl [Hq1]; · iexists _; iexact Hq1
        iexact Hm15
      iexists _; isplitr
      rotate_left
      · iexact HO
      · ipureintro; repeat (first | exact hW' | apply waits_insert)
    · rcases Nat.mod_two_eq_zero_or_one k.val with hp | hp
      · by_cases hl : k.val + 1 < nT (coordsV ⟨((K (F := F)).core 0 c).val, hc.1⟩ ⟨((K (F := F)).sub 0 i).val, hc.2⟩)
        · -- a middle trip at an even step
          have hlt : k.val + 1 < nT (coordsV ⟨((K (F := F)).core 0 c).val, hc.1⟩ ⟨((K (F := F)).sub 0 i).val, hc.2⟩) := by omega
          have hpar : k.val % 2 = 0 := by omega
          have hpos : 0 < k.val ∧ k.val < nT (coordsV ⟨((K (F := F)).core 0 c).val, hc.1⟩ ⟨((K (F := F)).sub 0 i).val, hc.2⟩) := ⟨by omega, hk⟩
          have hkm : k.val - 1 < nT (coordsV ⟨((K (F := F)).core 0 c).val, hc.1⟩ ⟨((K (F := F)).sub 0 i).val, hc.2⟩) := by omega
          have hposle : 0 < k.val ∧ k.val ≤ nT (coordsV ⟨((K (F := F)).core 0 c).val, hc.1⟩ ⟨((K (F := F)).sub 0 i).val, hc.2⟩) := ⟨by omega, by omega⟩
          unfold invV
          rw [fetchPart_even csrc cdst d _ _ _ k.val hk hpar, outPartV_even cu cv csrc cdst d _ _ _ k.val hposle hpar]
          unfold fetchAt0 outAt1V
          iintro ⟨%hacc, #Hmw, Hu, Hv, Hm6, Hm7, ⟨Hsrc, ⟨%gi, %hgi, Hf8⟩, ⟨%gi', Hi1⟩, Hm9, Hdst, ⟨%gj, %hgj, Hf10⟩, ⟨%gj', Hj1⟩, Hm11⟩, ⟨⟨%fs, %hGs, Hs⟩, ⟨%fsb, %grq, %hfsb, Hf13⟩, ⟨%grp, Hr0⟩, Hm12, ⟨%ft, %hGt, Ht⟩, ⟨%ftb, %gqq, %hftb, Hf15⟩, ⟨%gqp, Hq0⟩, Hm14⟩, %W', %hW', HO⟩
          have hacc' : acc = (BitVec.ofNat 32 (k.val + 1), BitVec.ofNat 32 (k.val), BitVec.ofNat 32 (k.val + 1), BitVec.ofNat 32 (k.val), BitVec.ofNat 32 (k.val), BitVec.ofNat 32 (k.val - 1), BitVec.ofNat 32 (k.val), BitVec.ofNat 32 (k.val - 1), BitVec.ofNat 32 (k.val)) := by
            rw [hacc]; simp only [wordsAt, if_pos hlt, if_pos hk]
          subst hacc'
          have hc2 : k1_cond2 (coordsV ⟨((K (F := F)).core 0 c).val, hc.1⟩ ⟨((K (F := F)).sub 0 i).val, hc.2⟩) k (BitVec.ofNat 32 k.val) = 1#1  := by rw [cond2_eq, if_pos hlt]
          have hc3 : k1_cond3 (coordsV ⟨((K (F := F)).core 0 c).val, hc.1⟩ ⟨((K (F := F)).sub 0 i).val, hc.2⟩) k (BitVec.ofNat 32 k.val) = 1#1  := by rw [cond3_eq, if_pos hlt]
          have hc4 : k1_cond4 (coordsV ⟨((K (F := F)).core 0 c).val, hc.1⟩ ⟨((K (F := F)).sub 0 i).val, hc.2⟩) k (BitVec.ofNat 32 k.val) = 1#1 := cond4_eq _ k
          have hc5 : k1_cond5 (coordsV ⟨((K (F := F)).core 0 c).val, hc.1⟩ ⟨((K (F := F)).sub 0 i).val, hc.2⟩) k (BitVec.ofNat 32 k.val) = 1#1 := cond5_eq _ k
          have hc10 : k1_cond10 (coordsV ⟨((K (F := F)).core 0 c).val, hc.1⟩ ⟨((K (F := F)).sub 0 i).val, hc.2⟩) k (BitVec.ofNat 32 k.val) = 1#1 := cond10_eq _ k
          have hc11 : k1_cond11 (coordsV ⟨((K (F := F)).core 0 c).val, hc.1⟩ ⟨((K (F := F)).sub 0 i).val, hc.2⟩) k (BitVec.ofNat 32 k.val) = 1#1 := cond11_eq _ k
          have hc14 : k1_cond14 (coordsV ⟨((K (F := F)).core 0 c).val, hc.1⟩ ⟨((K (F := F)).sub 0 i).val, hc.2⟩) k (BitVec.ofNat 32 k.val) = 1#1  := by rw [cond14_eq, if_neg h0]
          have hc15 : k1_cond15 (coordsV ⟨((K (F := F)).core 0 c).val, hc.1⟩ ⟨((K (F := F)).sub 0 i).val, hc.2⟩) k (BitVec.ofNat 32 k.val) = 1#1  := by rw [cond15_eq, if_neg h0]
          have hk80 : k.val < 80 := by omega
          have hw2 := chk2_nat (coordsV ⟨((K (F := F)).core 0 c).val, hc.1⟩ ⟨((K (F := F)).sub 0 i).val, hc.2⟩) k.val hk80
          have hw3 := chk3_nat (coordsV ⟨((K (F := F)).core 0 c).val, hc.1⟩ ⟨((K (F := F)).sub 0 i).val, hc.2⟩) k.val hk80
          have hw4 := chk4_nat (coordsV ⟨((K (F := F)).core 0 c).val, hc.1⟩ ⟨((K (F := F)).sub 0 i).val, hc.2⟩) k.val hk80
          have hw5 := chk5_nat (coordsV ⟨((K (F := F)).core 0 c).val, hc.1⟩ ⟨((K (F := F)).sub 0 i).val, hc.2⟩) k.val hk80
          have hw1 := chk1_all (coordsV ⟨((K (F := F)).core 0 c).val, hc.1⟩ ⟨((K (F := F)).sub 0 i).val, hc.2⟩) k
          simp only [if_pos hlt] at hw1
          have hy := yield_eq (coordsV ⟨((K (F := F)).core 0 c).val, hc.1⟩ ⟨((K (F := F)).sub 0 i).val, hc.2⟩) k
          simp only [if_pos hlt] at hy
          ihave Hs' := (s_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) fs) $$ Hs
          icases Hs' with ⟨HsB, Hs⟩
          ihave Ht' := (t_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) ft) $$ Ht
          icases Ht' with ⟨HtB, Ht⟩
          have hinI := hin_i0 (F := F) d ((K (F := F)).core 0 c) ((K (F := F)).sub 0 i) gi _ hgi (fun y => (hidx d _).1)
          have hinJ := hin_j0 (F := F) d ((K (F := F)).core 0 c) ((K (F := F)).sub 0 i) gj _ hgj (fun y => (hidx d _).2)
          have hdS := srcB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
          have hdD := dstB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
          sl_exec
          sl_step
          ihave Hs' := (s_joinV cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ fs hGs hfsb) $$ [Hf13_dst Hs]
          · isplitl [Hf13_dst] <;> iassumption
          icases Hs' with ⟨%fs', %hGs0, Hs⟩
          ihave Ht' := (t_joinV cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ ft hGt hftb) $$ [Hf15_dst Ht]
          · isplitl [Hf15_dst] <;> iassumption
          icases Ht' with ⟨%ft', %hGt0, Ht⟩
          have eB : bT (coordsV ⟨((K (F := F)).core 0 c).val, hc.1⟩ ⟨((K (F := F)).sub 0 i).val, hc.2⟩) + (k.val - 1) + 1 = bT (coordsV ⟨((K (F := F)).core 0 c).val, hc.1⟩ ⟨((K (F := F)).sub 0 i).val, hc.2⟩) + (k.val + 1 - 1) := by omega
          have hGs' : GathSBelow cu csrc d fs' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGs0
          have hGt' : GathTBelow cv cdst d ft' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGt0
          rw [fetchPart_odd csrc cdst d _ _ _ (k.val + 1) hlt (by omega), outPartV_odd cu cv csrc cdst d _ _ _ (k.val + 1) ⟨by omega, by omega⟩ (by omega)]
          unfold fetchAt1 outAt0V
          isplitr
          · ipureintro; exact hy
          isplitr; · iexact Hmw
          isplitl [Hu]; · iexact Hu
          isplitl [Hv]; · iexact Hv
          isplitl [Hm6]; · iexact Hm6
          isplitl [Hm7]; · iexact Hm7
          isplitl [Hsrc Hm9 Hf8_dst Hf8 Hdst Hm11 Hf10_dst Hf10]
          · isplitl [Hsrc]; · iexact Hsrc
            isplitl [Hm9]
            · iexists _; isplitr
              rotate_left
              · iexact Hm9
              · ipureintro; exact View.read_writes_whole _ _ _
            isplitl [Hf8_dst]; · iexists _; iexact Hf8_dst
            isplitl [Hf8]; · iexact Hf8
            isplitl [Hdst]; · iexact Hdst
            isplitl [Hm11]
            · iexists _; isplitr
              rotate_left
              · iexact Hm11
              · ipureintro; exact View.read_writes_whole _ _ _
            isplitl [Hf10_dst]; · iexists _; iexact Hf10_dst
            iexact Hf10
          isplitl [Hs Hm12 Hf13_src Hf13 Ht Hm14 Hf15_src Hf15]
          · isplitl [Hs]
            · iexists _; isplitr
              rotate_left
              · iexact Hs
              · ipureintro; exact hGs'
            isplitl [Hm12]
            · iexists _, _; isplitr
              rotate_left
              · iexact Hm12
              · ipureintro; intro p' k'
                exact flight_s0 cu csrc d ((K (F := F)).core 0 c) ((K (F := F)).sub 0 i) _ _ gi hgi (fun e => (hidx d _).1) _ hinI grp fs p' k'
            isplitl [Hf13_src]; · iexists _; iexact Hf13_src
            isplitl [Hf13]; · iexact Hf13
            isplitl [Ht]
            · iexists _; isplitr
              rotate_left
              · iexact Ht
              · ipureintro; exact hGt'
            isplitl [Hm14]
            · iexists _, _; isplitr
              rotate_left
              · iexact Hm14
              · ipureintro; intro p' k'
                exact flight_t0 cv cdst d ((K (F := F)).core 0 c) ((K (F := F)).sub 0 i) _ _ gj hgj (fun e => (hidx d _).2) _ hinJ gqp ft p' k'
            isplitl [Hf15_src]; · iexists _; iexact Hf15_src
            iexact Hf15
          iexists _; isplitr
          rotate_left
          · iexact HO
          · ipureintro; repeat (first | exact hW' | apply waits_insert)
        · -- the last trip at an even step
          have hlt : ¬ (k.val + 1 < nT (coordsV ⟨((K (F := F)).core 0 c).val, hc.1⟩ ⟨((K (F := F)).sub 0 i).val, hc.2⟩)) := by omega
          have hpar : k.val % 2 = 0 := by omega
          have hpos : 0 < k.val ∧ k.val < nT (coordsV ⟨((K (F := F)).core 0 c).val, hc.1⟩ ⟨((K (F := F)).sub 0 i).val, hc.2⟩) := ⟨by omega, hk⟩
          have hkm : k.val - 1 < nT (coordsV ⟨((K (F := F)).core 0 c).val, hc.1⟩ ⟨((K (F := F)).sub 0 i).val, hc.2⟩) := by omega
          have hposle : 0 < k.val ∧ k.val ≤ nT (coordsV ⟨((K (F := F)).core 0 c).val, hc.1⟩ ⟨((K (F := F)).sub 0 i).val, hc.2⟩) := ⟨by omega, by omega⟩
          unfold invV
          rw [fetchPart_even csrc cdst d _ _ _ k.val hk hpar, outPartV_even cu cv csrc cdst d _ _ _ k.val hposle hpar]
          unfold fetchAt0 outAt1V
          iintro ⟨%hacc, #Hmw, Hu, Hv, Hm6, Hm7, ⟨Hsrc, ⟨%gi, %hgi, Hf8⟩, ⟨%gi', Hi1⟩, Hm9, Hdst, ⟨%gj, %hgj, Hf10⟩, ⟨%gj', Hj1⟩, Hm11⟩, ⟨⟨%fs, %hGs, Hs⟩, ⟨%fsb, %grq, %hfsb, Hf13⟩, ⟨%grp, Hr0⟩, Hm12, ⟨%ft, %hGt, Ht⟩, ⟨%ftb, %gqq, %hftb, Hf15⟩, ⟨%gqp, Hq0⟩, Hm14⟩, %W', %hW', HO⟩
          have hacc' : acc = (BitVec.ofNat 32 (nT (coordsV ⟨((K (F := F)).core 0 c).val, hc.1⟩ ⟨((K (F := F)).sub 0 i).val, hc.2⟩)), BitVec.ofNat 32 (k.val), BitVec.ofNat 32 (nT (coordsV ⟨((K (F := F)).core 0 c).val, hc.1⟩ ⟨((K (F := F)).sub 0 i).val, hc.2⟩)), BitVec.ofNat 32 (k.val), BitVec.ofNat 32 (k.val), BitVec.ofNat 32 (k.val - 1), BitVec.ofNat 32 (k.val), BitVec.ofNat 32 (k.val - 1), BitVec.ofNat 32 (k.val)) := by
            rw [hacc]; simp only [wordsAt, if_neg hlt, if_pos hk]
          subst hacc'
          have hc2 : k1_cond2 (coordsV ⟨((K (F := F)).core 0 c).val, hc.1⟩ ⟨((K (F := F)).sub 0 i).val, hc.2⟩) k (BitVec.ofNat 32 k.val) = 1#1 → False := by rw [cond2_eq, if_neg hlt]; decide
          have hc3 : k1_cond3 (coordsV ⟨((K (F := F)).core 0 c).val, hc.1⟩ ⟨((K (F := F)).sub 0 i).val, hc.2⟩) k (BitVec.ofNat 32 k.val) = 1#1 → False := by rw [cond3_eq, if_neg hlt]; decide
          have hc4 : k1_cond4 (coordsV ⟨((K (F := F)).core 0 c).val, hc.1⟩ ⟨((K (F := F)).sub 0 i).val, hc.2⟩) k (BitVec.ofNat 32 k.val) = 1#1 := cond4_eq _ k
          have hc5 : k1_cond5 (coordsV ⟨((K (F := F)).core 0 c).val, hc.1⟩ ⟨((K (F := F)).sub 0 i).val, hc.2⟩) k (BitVec.ofNat 32 k.val) = 1#1 := cond5_eq _ k
          have hc10 : k1_cond10 (coordsV ⟨((K (F := F)).core 0 c).val, hc.1⟩ ⟨((K (F := F)).sub 0 i).val, hc.2⟩) k (BitVec.ofNat 32 k.val) = 1#1 := cond10_eq _ k
          have hc11 : k1_cond11 (coordsV ⟨((K (F := F)).core 0 c).val, hc.1⟩ ⟨((K (F := F)).sub 0 i).val, hc.2⟩) k (BitVec.ofNat 32 k.val) = 1#1 := cond11_eq _ k
          have hc14 : k1_cond14 (coordsV ⟨((K (F := F)).core 0 c).val, hc.1⟩ ⟨((K (F := F)).sub 0 i).val, hc.2⟩) k (BitVec.ofNat 32 k.val) = 1#1  := by rw [cond14_eq, if_neg h0]
          have hc15 : k1_cond15 (coordsV ⟨((K (F := F)).core 0 c).val, hc.1⟩ ⟨((K (F := F)).sub 0 i).val, hc.2⟩) k (BitVec.ofNat 32 k.val) = 1#1  := by rw [cond15_eq, if_neg h0]
          have hk80 : k.val < 80 := by omega
          have hw2 := chk2_nat (coordsV ⟨((K (F := F)).core 0 c).val, hc.1⟩ ⟨((K (F := F)).sub 0 i).val, hc.2⟩) k.val hk80
          have hw3 := chk3_nat (coordsV ⟨((K (F := F)).core 0 c).val, hc.1⟩ ⟨((K (F := F)).sub 0 i).val, hc.2⟩) k.val hk80
          have hw4 := chk4_nat (coordsV ⟨((K (F := F)).core 0 c).val, hc.1⟩ ⟨((K (F := F)).sub 0 i).val, hc.2⟩) k.val hk80
          have hw5 := chk5_nat (coordsV ⟨((K (F := F)).core 0 c).val, hc.1⟩ ⟨((K (F := F)).sub 0 i).val, hc.2⟩) k.val hk80
          have hw1 := chk1_all (coordsV ⟨((K (F := F)).core 0 c).val, hc.1⟩ ⟨((K (F := F)).sub 0 i).val, hc.2⟩) k
          simp only [if_neg hlt] at hw1
          have hy := yield_eq (coordsV ⟨((K (F := F)).core 0 c).val, hc.1⟩ ⟨((K (F := F)).sub 0 i).val, hc.2⟩) k
          simp only [if_neg hlt] at hy
          ihave Hs' := (s_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) fs) $$ Hs
          icases Hs' with ⟨HsB, Hs⟩
          ihave Ht' := (t_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) ft) $$ Ht
          icases Ht' with ⟨HtB, Ht⟩
          have hinI := hin_i0 (F := F) d ((K (F := F)).core 0 c) ((K (F := F)).sub 0 i) gi _ hgi (fun y => (hidx d _).1)
          have hinJ := hin_j0 (F := F) d ((K (F := F)).core 0 c) ((K (F := F)).sub 0 i) gj _ hgj (fun y => (hidx d _).2)
          sl_exec
          sl_step
          ihave Hs' := (s_joinV cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ fs hGs hfsb) $$ [Hf13_dst Hs]
          · isplitl [Hf13_dst] <;> iassumption
          icases Hs' with ⟨%fs', %hGs0, Hs⟩
          ihave Ht' := (t_joinV cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ ft hGt hftb) $$ [Hf15_dst Ht]
          · isplitl [Hf15_dst] <;> iassumption
          icases Ht' with ⟨%ft', %hGt0, Ht⟩
          have eB : bT (coordsV ⟨((K (F := F)).core 0 c).val, hc.1⟩ ⟨((K (F := F)).sub 0 i).val, hc.2⟩) + (k.val - 1) + 1 = bT (coordsV ⟨((K (F := F)).core 0 c).val, hc.1⟩ ⟨((K (F := F)).sub 0 i).val, hc.2⟩) + (k.val + 1 - 1) := by omega
          have hGs' : GathSBelow cu csrc d fs' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGs0
          have hGt' : GathTBelow cv cdst d ft' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGt0
          rw [fetchPart_rest csrc cdst d _ _ _ (k.val + 1) (by omega), outPartV_odd cu cv csrc cdst d _ _ _ (k.val + 1) ⟨by omega, by omega⟩ (by omega)]
          unfold fetchRest outAt0V
          isplitr
          · ipureintro; exact hy
          isplitr; · iexact Hmw
          isplitl [Hu]; · iexact Hu
          isplitl [Hv]; · iexact Hv
          isplitl [Hm6]; · iexact Hm6
          isplitl [Hm7]; · iexact Hm7
          isplitl [Hsrc Hdst Hf8_dst Hi1 Hf10_dst Hj1 Hf8 Hm9 Hf10 Hm11]
          · isplitl [Hsrc]; · iexact Hsrc
            isplitl [Hdst]; · iexact Hdst
            isplitl [Hf8_dst]; · iexists _; iexact Hf8_dst
            isplitl [Hi1]; · iexists _; iexact Hi1
            isplitl [Hf10_dst]; · iexists _; iexact Hf10_dst
            isplitl [Hj1]; · iexists _; iexact Hj1
            isplitl [Hf8]; · iexact Hf8
            isplitl [Hm9]; · iexact Hm9
            isplitl [Hf10]; · iexact Hf10
            iexact Hm11
          isplitl [Hs Hm12 Hf13_src Hf13 Ht Hm14 Hf15_src Hf15]
          · isplitl [Hs]
            · iexists _; isplitr
              rotate_left
              · iexact Hs
              · ipureintro; exact hGs'
            isplitl [Hm12]
            · iexists _, _; isplitr
              rotate_left
              · iexact Hm12
              · ipureintro; intro p' k'
                exact flight_s0 cu csrc d ((K (F := F)).core 0 c) ((K (F := F)).sub 0 i) _ _ gi hgi (fun e => (hidx d _).1) _ hinI grp fs p' k'
            isplitl [Hf13_src]; · iexists _; iexact Hf13_src
            isplitl [Hf13]; · iexact Hf13
            isplitl [Ht]
            · iexists _; isplitr
              rotate_left
              · iexact Ht
              · ipureintro; exact hGt'
            isplitl [Hm14]
            · iexists _, _; isplitr
              rotate_left
              · iexact Hm14
              · ipureintro; intro p' k'
                exact flight_t0 cv cdst d ((K (F := F)).core 0 c) ((K (F := F)).sub 0 i) _ _ gj hgj (fun e => (hidx d _).2) _ hinJ gqp ft p' k'
            isplitl [Hf15_src]; · iexists _; iexact Hf15_src
            iexact Hf15
          iexists _; isplitr
          rotate_left
          · iexact HO
          · ipureintro; repeat (first | exact hW' | apply waits_insert)
      · by_cases hl : k.val + 1 < nT (coordsV ⟨((K (F := F)).core 0 c).val, hc.1⟩ ⟨((K (F := F)).sub 0 i).val, hc.2⟩)
        · -- a middle trip at an odd step
          have hlt : k.val + 1 < nT (coordsV ⟨((K (F := F)).core 0 c).val, hc.1⟩ ⟨((K (F := F)).sub 0 i).val, hc.2⟩) := by omega
          have hpar : k.val % 2 = 1 := by omega
          have hpos : 0 < k.val ∧ k.val < nT (coordsV ⟨((K (F := F)).core 0 c).val, hc.1⟩ ⟨((K (F := F)).sub 0 i).val, hc.2⟩) := ⟨by omega, hk⟩
          have hkm : k.val - 1 < nT (coordsV ⟨((K (F := F)).core 0 c).val, hc.1⟩ ⟨((K (F := F)).sub 0 i).val, hc.2⟩) := by omega
          have hposle : 0 < k.val ∧ k.val ≤ nT (coordsV ⟨((K (F := F)).core 0 c).val, hc.1⟩ ⟨((K (F := F)).sub 0 i).val, hc.2⟩) := ⟨by omega, by omega⟩
          unfold invV
          rw [fetchPart_odd csrc cdst d _ _ _ k.val hk hpar, outPartV_odd cu cv csrc cdst d _ _ _ k.val hposle hpar]
          unfold fetchAt1 outAt0V
          iintro ⟨%hacc, #Hmw, Hu, Hv, Hm6, Hm7, ⟨Hsrc, ⟨%gi, %hgi, Hf9⟩, ⟨%gi', Hi0⟩, Hm8, Hdst, ⟨%gj, %hgj, Hf11⟩, ⟨%gj', Hj0⟩, Hm10⟩, ⟨⟨%fs, %hGs, Hs⟩, ⟨%fsb, %grq, %hfsb, Hf12⟩, ⟨%grp, Hr1⟩, Hm13, ⟨%ft, %hGt, Ht⟩, ⟨%ftb, %gqq, %hftb, Hf14⟩, ⟨%gqp, Hq1⟩, Hm15⟩, %W', %hW', HO⟩
          have hacc' : acc = (BitVec.ofNat 32 (k.val + 1), BitVec.ofNat 32 (k.val), BitVec.ofNat 32 (k.val + 1), BitVec.ofNat 32 (k.val), BitVec.ofNat 32 (k.val), BitVec.ofNat 32 (k.val - 1), BitVec.ofNat 32 (k.val), BitVec.ofNat 32 (k.val - 1), BitVec.ofNat 32 (k.val)) := by
            rw [hacc]; simp only [wordsAt, if_pos hlt, if_pos hk]
          subst hacc'
          have hc2 : k1_cond2 (coordsV ⟨((K (F := F)).core 0 c).val, hc.1⟩ ⟨((K (F := F)).sub 0 i).val, hc.2⟩) k (BitVec.ofNat 32 k.val) = 1#1  := by rw [cond2_eq, if_pos hlt]
          have hc3 : k1_cond3 (coordsV ⟨((K (F := F)).core 0 c).val, hc.1⟩ ⟨((K (F := F)).sub 0 i).val, hc.2⟩) k (BitVec.ofNat 32 k.val) = 1#1  := by rw [cond3_eq, if_pos hlt]
          have hc4 : k1_cond4 (coordsV ⟨((K (F := F)).core 0 c).val, hc.1⟩ ⟨((K (F := F)).sub 0 i).val, hc.2⟩) k (BitVec.ofNat 32 k.val) = 1#1 := cond4_eq _ k
          have hc5 : k1_cond5 (coordsV ⟨((K (F := F)).core 0 c).val, hc.1⟩ ⟨((K (F := F)).sub 0 i).val, hc.2⟩) k (BitVec.ofNat 32 k.val) = 1#1 := cond5_eq _ k
          have hc10 : k1_cond10 (coordsV ⟨((K (F := F)).core 0 c).val, hc.1⟩ ⟨((K (F := F)).sub 0 i).val, hc.2⟩) k (BitVec.ofNat 32 k.val) = 1#1 := cond10_eq _ k
          have hc11 : k1_cond11 (coordsV ⟨((K (F := F)).core 0 c).val, hc.1⟩ ⟨((K (F := F)).sub 0 i).val, hc.2⟩) k (BitVec.ofNat 32 k.val) = 1#1 := cond11_eq _ k
          have hc14 : k1_cond14 (coordsV ⟨((K (F := F)).core 0 c).val, hc.1⟩ ⟨((K (F := F)).sub 0 i).val, hc.2⟩) k (BitVec.ofNat 32 k.val) = 1#1  := by rw [cond14_eq, if_neg h0]
          have hc15 : k1_cond15 (coordsV ⟨((K (F := F)).core 0 c).val, hc.1⟩ ⟨((K (F := F)).sub 0 i).val, hc.2⟩) k (BitVec.ofNat 32 k.val) = 1#1  := by rw [cond15_eq, if_neg h0]
          have hk80 : k.val < 80 := by omega
          have hw2 := chk2_nat (coordsV ⟨((K (F := F)).core 0 c).val, hc.1⟩ ⟨((K (F := F)).sub 0 i).val, hc.2⟩) k.val hk80
          have hw3 := chk3_nat (coordsV ⟨((K (F := F)).core 0 c).val, hc.1⟩ ⟨((K (F := F)).sub 0 i).val, hc.2⟩) k.val hk80
          have hw4 := chk4_nat (coordsV ⟨((K (F := F)).core 0 c).val, hc.1⟩ ⟨((K (F := F)).sub 0 i).val, hc.2⟩) k.val hk80
          have hw5 := chk5_nat (coordsV ⟨((K (F := F)).core 0 c).val, hc.1⟩ ⟨((K (F := F)).sub 0 i).val, hc.2⟩) k.val hk80
          have hw1 := chk1_all (coordsV ⟨((K (F := F)).core 0 c).val, hc.1⟩ ⟨((K (F := F)).sub 0 i).val, hc.2⟩) k
          simp only [if_pos hlt] at hw1
          have hy := yield_eq (coordsV ⟨((K (F := F)).core 0 c).val, hc.1⟩ ⟨((K (F := F)).sub 0 i).val, hc.2⟩) k
          simp only [if_pos hlt] at hy
          ihave Hs' := (s_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) fs) $$ Hs
          icases Hs' with ⟨HsB, Hs⟩
          ihave Ht' := (t_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) ft) $$ Ht
          icases Ht' with ⟨HtB, Ht⟩
          have hinI := hin_i1 (F := F) d ((K (F := F)).core 0 c) ((K (F := F)).sub 0 i) gi _ hgi (fun y => (hidx d _).1)
          have hinJ := hin_j1 (F := F) d ((K (F := F)).core 0 c) ((K (F := F)).sub 0 i) gj _ hgj (fun y => (hidx d _).2)
          have hdS := srcB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
          have hdD := dstB_disj (bT (coordsV ⟨((K (F := F)).core 0 c).val, hc.1⟩ ⟨((K (F := F)).sub 0 i).val, hc.2⟩) + (k.val + 1)) (bT (coordsV ⟨((K (F := F)).core 0 c).val, hc.1⟩ ⟨((K (F := F)).sub 0 i).val, hc.2⟩) + k.val) (blk_lt _ _ hlt) (blk_lt _ _ hk) (by omega)
          sl_exec
          sl_step
          ihave Hs' := (s_joinV cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ fs hGs hfsb) $$ [Hf12_dst Hs]
          · isplitl [Hf12_dst] <;> iassumption
          icases Hs' with ⟨%fs', %hGs0, Hs⟩
          ihave Ht' := (t_joinV cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ ft hGt hftb) $$ [Hf14_dst Ht]
          · isplitl [Hf14_dst] <;> iassumption
          icases Ht' with ⟨%ft', %hGt0, Ht⟩
          have eB : bT (coordsV ⟨((K (F := F)).core 0 c).val, hc.1⟩ ⟨((K (F := F)).sub 0 i).val, hc.2⟩) + (k.val - 1) + 1 = bT (coordsV ⟨((K (F := F)).core 0 c).val, hc.1⟩ ⟨((K (F := F)).sub 0 i).val, hc.2⟩) + (k.val + 1 - 1) := by omega
          have hGs' : GathSBelow cu csrc d fs' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGs0
          have hGt' : GathTBelow cv cdst d ft' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGt0
          rw [fetchPart_even csrc cdst d _ _ _ (k.val + 1) hlt (by omega), outPartV_even cu cv csrc cdst d _ _ _ (k.val + 1) ⟨by omega, by omega⟩ (by omega)]
          unfold fetchAt0 outAt1V
          isplitr
          · ipureintro; exact hy
          isplitr; · iexact Hmw
          isplitl [Hu]; · iexact Hu
          isplitl [Hv]; · iexact Hv
          isplitl [Hm6]; · iexact Hm6
          isplitl [Hm7]; · iexact Hm7
          isplitl [Hsrc Hm8 Hf9_dst Hf9 Hdst Hm10 Hf11_dst Hf11]
          · isplitl [Hsrc]; · iexact Hsrc
            isplitl [Hm8]
            · iexists _; isplitr
              rotate_left
              · iexact Hm8
              · ipureintro; exact View.read_writes_whole _ _ _
            isplitl [Hf9_dst]; · iexists _; iexact Hf9_dst
            isplitl [Hf9]; · iexact Hf9
            isplitl [Hdst]; · iexact Hdst
            isplitl [Hm10]
            · iexists _; isplitr
              rotate_left
              · iexact Hm10
              · ipureintro; exact View.read_writes_whole _ _ _
            isplitl [Hf11_dst]; · iexists _; iexact Hf11_dst
            iexact Hf11
          isplitl [Hs Hm13 Hf12_src Hf12 Ht Hm15 Hf14_src Hf14]
          · isplitl [Hs]
            · iexists _; isplitr
              rotate_left
              · iexact Hs
              · ipureintro; exact hGs'
            isplitl [Hm13]
            · iexists _, _; isplitr
              rotate_left
              · iexact Hm13
              · ipureintro; intro p' k'
                exact flight_s1 cu csrc d ((K (F := F)).core 0 c) ((K (F := F)).sub 0 i) _ _ gi hgi (fun e => (hidx d _).1) _ hinI grp fs p' k'
            isplitl [Hf12_src]; · iexists _; iexact Hf12_src
            isplitl [Hf12]; · iexact Hf12
            isplitl [Ht]
            · iexists _; isplitr
              rotate_left
              · iexact Ht
              · ipureintro; exact hGt'
            isplitl [Hm15]
            · iexists _, _; isplitr
              rotate_left
              · iexact Hm15
              · ipureintro; intro p' k'
                exact flight_t1 cv cdst d ((K (F := F)).core 0 c) ((K (F := F)).sub 0 i) _ _ gj hgj (fun e => (hidx d _).2) _ hinJ gqp ft p' k'
            isplitl [Hf14_src]; · iexists _; iexact Hf14_src
            iexact Hf14
          iexists _; isplitr
          rotate_left
          · iexact HO
          · ipureintro; repeat (first | exact hW' | apply waits_insert)
        · -- the last trip at an odd step
          have hlt : ¬ (k.val + 1 < nT (coordsV ⟨((K (F := F)).core 0 c).val, hc.1⟩ ⟨((K (F := F)).sub 0 i).val, hc.2⟩)) := by omega
          have hpar : k.val % 2 = 1 := by omega
          have hpos : 0 < k.val ∧ k.val < nT (coordsV ⟨((K (F := F)).core 0 c).val, hc.1⟩ ⟨((K (F := F)).sub 0 i).val, hc.2⟩) := ⟨by omega, hk⟩
          have hkm : k.val - 1 < nT (coordsV ⟨((K (F := F)).core 0 c).val, hc.1⟩ ⟨((K (F := F)).sub 0 i).val, hc.2⟩) := by omega
          have hposle : 0 < k.val ∧ k.val ≤ nT (coordsV ⟨((K (F := F)).core 0 c).val, hc.1⟩ ⟨((K (F := F)).sub 0 i).val, hc.2⟩) := ⟨by omega, by omega⟩
          unfold invV
          rw [fetchPart_odd csrc cdst d _ _ _ k.val hk hpar, outPartV_odd cu cv csrc cdst d _ _ _ k.val hposle hpar]
          unfold fetchAt1 outAt0V
          iintro ⟨%hacc, #Hmw, Hu, Hv, Hm6, Hm7, ⟨Hsrc, ⟨%gi, %hgi, Hf9⟩, ⟨%gi', Hi0⟩, Hm8, Hdst, ⟨%gj, %hgj, Hf11⟩, ⟨%gj', Hj0⟩, Hm10⟩, ⟨⟨%fs, %hGs, Hs⟩, ⟨%fsb, %grq, %hfsb, Hf12⟩, ⟨%grp, Hr1⟩, Hm13, ⟨%ft, %hGt, Ht⟩, ⟨%ftb, %gqq, %hftb, Hf14⟩, ⟨%gqp, Hq1⟩, Hm15⟩, %W', %hW', HO⟩
          have hacc' : acc = (BitVec.ofNat 32 (nT (coordsV ⟨((K (F := F)).core 0 c).val, hc.1⟩ ⟨((K (F := F)).sub 0 i).val, hc.2⟩)), BitVec.ofNat 32 (k.val), BitVec.ofNat 32 (nT (coordsV ⟨((K (F := F)).core 0 c).val, hc.1⟩ ⟨((K (F := F)).sub 0 i).val, hc.2⟩)), BitVec.ofNat 32 (k.val), BitVec.ofNat 32 (k.val), BitVec.ofNat 32 (k.val - 1), BitVec.ofNat 32 (k.val), BitVec.ofNat 32 (k.val - 1), BitVec.ofNat 32 (k.val)) := by
            rw [hacc]; simp only [wordsAt, if_neg hlt, if_pos hk]
          subst hacc'
          have hc2 : k1_cond2 (coordsV ⟨((K (F := F)).core 0 c).val, hc.1⟩ ⟨((K (F := F)).sub 0 i).val, hc.2⟩) k (BitVec.ofNat 32 k.val) = 1#1 → False := by rw [cond2_eq, if_neg hlt]; decide
          have hc3 : k1_cond3 (coordsV ⟨((K (F := F)).core 0 c).val, hc.1⟩ ⟨((K (F := F)).sub 0 i).val, hc.2⟩) k (BitVec.ofNat 32 k.val) = 1#1 → False := by rw [cond3_eq, if_neg hlt]; decide
          have hc4 : k1_cond4 (coordsV ⟨((K (F := F)).core 0 c).val, hc.1⟩ ⟨((K (F := F)).sub 0 i).val, hc.2⟩) k (BitVec.ofNat 32 k.val) = 1#1 := cond4_eq _ k
          have hc5 : k1_cond5 (coordsV ⟨((K (F := F)).core 0 c).val, hc.1⟩ ⟨((K (F := F)).sub 0 i).val, hc.2⟩) k (BitVec.ofNat 32 k.val) = 1#1 := cond5_eq _ k
          have hc10 : k1_cond10 (coordsV ⟨((K (F := F)).core 0 c).val, hc.1⟩ ⟨((K (F := F)).sub 0 i).val, hc.2⟩) k (BitVec.ofNat 32 k.val) = 1#1 := cond10_eq _ k
          have hc11 : k1_cond11 (coordsV ⟨((K (F := F)).core 0 c).val, hc.1⟩ ⟨((K (F := F)).sub 0 i).val, hc.2⟩) k (BitVec.ofNat 32 k.val) = 1#1 := cond11_eq _ k
          have hc14 : k1_cond14 (coordsV ⟨((K (F := F)).core 0 c).val, hc.1⟩ ⟨((K (F := F)).sub 0 i).val, hc.2⟩) k (BitVec.ofNat 32 k.val) = 1#1  := by rw [cond14_eq, if_neg h0]
          have hc15 : k1_cond15 (coordsV ⟨((K (F := F)).core 0 c).val, hc.1⟩ ⟨((K (F := F)).sub 0 i).val, hc.2⟩) k (BitVec.ofNat 32 k.val) = 1#1  := by rw [cond15_eq, if_neg h0]
          have hk80 : k.val < 80 := by omega
          have hw2 := chk2_nat (coordsV ⟨((K (F := F)).core 0 c).val, hc.1⟩ ⟨((K (F := F)).sub 0 i).val, hc.2⟩) k.val hk80
          have hw3 := chk3_nat (coordsV ⟨((K (F := F)).core 0 c).val, hc.1⟩ ⟨((K (F := F)).sub 0 i).val, hc.2⟩) k.val hk80
          have hw4 := chk4_nat (coordsV ⟨((K (F := F)).core 0 c).val, hc.1⟩ ⟨((K (F := F)).sub 0 i).val, hc.2⟩) k.val hk80
          have hw5 := chk5_nat (coordsV ⟨((K (F := F)).core 0 c).val, hc.1⟩ ⟨((K (F := F)).sub 0 i).val, hc.2⟩) k.val hk80
          have hw1 := chk1_all (coordsV ⟨((K (F := F)).core 0 c).val, hc.1⟩ ⟨((K (F := F)).sub 0 i).val, hc.2⟩) k
          simp only [if_neg hlt] at hw1
          have hy := yield_eq (coordsV ⟨((K (F := F)).core 0 c).val, hc.1⟩ ⟨((K (F := F)).sub 0 i).val, hc.2⟩) k
          simp only [if_neg hlt] at hy
          ihave Hs' := (s_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) fs) $$ Hs
          icases Hs' with ⟨HsB, Hs⟩
          ihave Ht' := (t_carve (F := F) d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hk) (by omega) (rowsBlk_sub _ _ hk) ft) $$ Ht
          icases Ht' with ⟨HtB, Ht⟩
          have hinI := hin_i1 (F := F) d ((K (F := F)).core 0 c) ((K (F := F)).sub 0 i) gi _ hgi (fun y => (hidx d _).1)
          have hinJ := hin_j1 (F := F) d ((K (F := F)).core 0 c) ((K (F := F)).sub 0 i) gj _ hgj (fun y => (hidx d _).2)
          sl_exec
          sl_step
          ihave Hs' := (s_joinV cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ fs hGs hfsb) $$ [Hf12_dst Hs]
          · isplitl [Hf12_dst] <;> iassumption
          icases Hs' with ⟨%fs', %hGs0, Hs⟩
          ihave Ht' := (t_joinV cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (k.val - 1)) (bT (coordsV ⟨((K (F := F)).core 0 c).val, hc.1⟩ ⟨((K (F := F)).sub 0 i).val, hc.2⟩) + k.val) (blk_lt _ _ hkm) (blk_lt _ _ hk) (by omega) (rowsBlk_sub _ _ hkm) (blk0 (taskOf (coordsV ⟨((K (F := F)).core 0 c).val, hc.1⟩ ⟨((K (F := F)).sub 0 i).val, hc.2⟩))) _ ft hGt hftb) $$ [Hf14_dst Ht]
          · isplitl [Hf14_dst] <;> iassumption
          icases Ht' with ⟨%ft', %hGt0, Ht⟩
          have eB : bT (coordsV ⟨((K (F := F)).core 0 c).val, hc.1⟩ ⟨((K (F := F)).sub 0 i).val, hc.2⟩) + (k.val - 1) + 1 = bT (coordsV ⟨((K (F := F)).core 0 c).val, hc.1⟩ ⟨((K (F := F)).sub 0 i).val, hc.2⟩) + (k.val + 1 - 1) := by omega
          have hGs' : GathSBelow cu csrc d fs' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGs0
          have hGt' : GathTBelow cv cdst d ft' (blk0 (taskOf (coordsV ⟨((K (F := F)).core 0 c).val, hc.1⟩ ⟨((K (F := F)).sub 0 i).val, hc.2⟩))) (bT (coordsV ⟨((K (F := F)).core 0 c).val, hc.1⟩ ⟨((K (F := F)).sub 0 i).val, hc.2⟩) + (k.val + 1 - 1)) := by rw [← eB]; exact hGt0
          rw [fetchPart_rest csrc cdst d _ _ _ (k.val + 1) (by omega), outPartV_even cu cv csrc cdst d _ _ _ (k.val + 1) ⟨by omega, by omega⟩ (by omega)]
          unfold fetchRest outAt1V
          isplitr
          · ipureintro; exact hy
          isplitr; · iexact Hmw
          isplitl [Hu]; · iexact Hu
          isplitl [Hv]; · iexact Hv
          isplitl [Hm6]; · iexact Hm6
          isplitl [Hm7]; · iexact Hm7
          isplitl [Hsrc Hdst Hi0 Hf9_dst Hj0 Hf11_dst Hm8 Hf9 Hm10 Hf11]
          · isplitl [Hsrc]; · iexact Hsrc
            isplitl [Hdst]; · iexact Hdst
            isplitl [Hi0]; · iexists _; iexact Hi0
            isplitl [Hf9_dst]; · iexists _; iexact Hf9_dst
            isplitl [Hj0]; · iexists _; iexact Hj0
            isplitl [Hf11_dst]; · iexists _; iexact Hf11_dst
            isplitl [Hm8]; · iexact Hm8
            isplitl [Hf9]; · iexact Hf9
            isplitl [Hm10]; · iexact Hm10
            iexact Hf11
          isplitl [Hs Hm13 Hf12_src Hf12 Ht Hm15 Hf14_src Hf14]
          · isplitl [Hs]
            · iexists _; isplitr
              rotate_left
              · iexact Hs
              · ipureintro; exact hGs'
            isplitl [Hm13]
            · iexists _, _; isplitr
              rotate_left
              · iexact Hm13
              · ipureintro; intro p' k'
                exact flight_s1 cu csrc d ((K (F := F)).core 0 c) ((K (F := F)).sub 0 i) _ _ gi hgi (fun e => (hidx d _).1) _ hinI grp fs p' k'
            isplitl [Hf12_src]; · iexists _; iexact Hf12_src
            isplitl [Hf12]; · iexact Hf12
            isplitl [Ht]
            · iexists _; isplitr
              rotate_left
              · iexact Ht
              · ipureintro; exact hGt'
            isplitl [Hm15]
            · iexists _, _; isplitr
              rotate_left
              · iexact Hm15
              · ipureintro; intro p' k'
                exact flight_t1 cv cdst d ((K (F := F)).core 0 c) ((K (F := F)).sub 0 i) _ _ gj hgj (fun e => (hidx d _).2) _ hinJ gqp ft p' k'
            isplitl [Hf14_src]; · iexists _; iexact Hf14_src
            iexact Hf14
          iexists _; isplitr
          rotate_left
          · iexact HO
          · ipureintro; repeat (first | exact hW' | apply waits_insert)
  · -- the invariant before the first trip: the prologue's two fetches in flight into slot 0
    unfold invV
    rw [fetchPart_even csrc cdst d _ _ _ 0 (by omega) rfl, outPartV_zero cu cv csrc cdst d _ _ _ 0 rfl]
    unfold fetchAt0 outRestV
    isplitr
    · ipureintro
      show _ = wordsAt _ 0
      unfold wordsAt
      rw [if_pos (by omega : 0 + 1 < nT (coordsV ⟨((K (F := F)).core 0 c).val, hc.1⟩ ⟨((K (F := F)).sub 0 i).val, hc.2⟩)), if_pos (by omega : 0 < nT (coordsV ⟨((K (F := F)).core 0 c).val, hc.1⟩ ⟨((K (F := F)).sub 0 i).val, hc.2⟩))]
    isplitr; · iexact Hmw
    isplitl [Hu]; · iexact Hu
    isplitl [Hv]; · iexact Hv
    isplitl [Hm6]; · iexact Hm6
    isplitl [Hm7]; · iexact Hm7
    isplitl [Hsrc Hm8 Hi1 Hm9 Hdst Hm10 Hj1 Hm11]
    · isplitl [Hsrc]; · iexact Hsrc
      isplitl [Hm8]
      · iexists _; isplitr
        rotate_left
        · iexact Hm8
        · ipureintro; exact View.read_writes_whole _ _ _
      isplitl [Hi1]; · iexists _; iexact Hi1
      isplitl [Hm9]; · iexact Hm9
      isplitl [Hdst]; · iexact Hdst
      isplitl [Hm10]
      · iexists _; isplitr
        rotate_left
        · iexact Hm10
        · ipureintro; exact View.read_writes_whole _ _ _
      isplitl [Hj1]; · iexists _; iexact Hj1
      iexact Hm11
    isplitl [Hs Ht Hr0 Hr1 Hq0 Hq1 Hm12 Hm13 Hm14 Hm15]
    · isplitl [Hs]
      · iexists _; isplitr
        rotate_left
        · iexact Hs
        · ipureintro; exact GathSBelow_nil cu csrc d _ _
      isplitl [Ht]
      · iexists _; isplitr
        rotate_left
        · iexact Ht
        · ipureintro; exact GathTBelow_nil cv cdst d _ _
      isplitl [Hr0]; · iexists _; iexact Hr0
      isplitl [Hr1]; · iexists _; iexact Hr1
      isplitl [Hq0]; · iexists _; iexact Hq0
      isplitl [Hq1]; · iexists _; iexact Hq1
      isplitl [Hm12]; · iexact Hm12
      isplitl [Hm13]; · iexact Hm13
      isplitl [Hm14]; · iexact Hm14
      iexact Hm15
    iexists W; isplitr
    · ipureintro; exact fun p hp => .inl hp
    · iexact HO
  -- after the loop: nothing more is fetched; the last block's two write-outs are waited for, and the task's rows are all gathered
  have hn' : Scf.trips (k1_t1_loop (coordsV ⟨((K (F := F)).core 0 c).val, hc.1⟩ ⟨((K (F := F)).sub 0 i).val, hc.2⟩)).lb (k1_t1_loop (coordsV ⟨((K (F := F)).core 0 c).val, hc.1⟩ ⟨((K (F := F)).sub 0 i).val, hc.2⟩)).ub (k1_t1_loop (coordsV ⟨((K (F := F)).core 0 c).val, hc.1⟩ ⟨((K (F := F)).sub 0 i).val, hc.2⟩)).st = nT (coordsV ⟨((K (F := F)).core 0 c).val, hc.1⟩ ⟨((K (F := F)).sub 0 i).val, hc.2⟩) := hn
  first | rw [hn] | rw [hn']
  iintro %acc HI
  unfold invV
  rcases Nat.mod_two_eq_zero_or_one (nT (coordsV ⟨((K (F := F)).core 0 c).val, hc.1⟩ ⟨((K (F := F)).sub 0 i).val, hc.2⟩)) with hpn | hpn
  · -- an even number of blocks: the last trip was at an odd step
    have hnm : nT (coordsV ⟨((K (F := F)).core 0 c).val, hc.1⟩ ⟨((K (F := F)).sub 0 i).val, hc.2⟩) - 1 < nT (coordsV ⟨((K (F := F)).core 0 c).val, hc.1⟩ ⟨((K (F := F)).sub 0 i).val, hc.2⟩) := by omega
    have hposle : 0 < nT (coordsV ⟨((K (F := F)).core 0 c).val, hc.1⟩ ⟨((K (F := F)).sub 0 i).val, hc.2⟩) ∧ nT (coordsV ⟨((K (F := F)).core 0 c).val, hc.1⟩ ⟨((K (F := F)).sub 0 i).val, hc.2⟩) ≤ nT (coordsV ⟨((K (F := F)).core 0 c).val, hc.1⟩ ⟨((K (F := F)).sub 0 i).val, hc.2⟩) := ⟨by omega, le_refl _⟩
    rw [fetchPart_rest csrc cdst d _ _ _ (nT (coordsV ⟨((K (F := F)).core 0 c).val, hc.1⟩ ⟨((K (F := F)).sub 0 i).val, hc.2⟩)) (lt_irrefl _), outPartV_even cu cv csrc cdst d _ _ _ (nT (coordsV ⟨((K (F := F)).core 0 c).val, hc.1⟩ ⟨((K (F := F)).sub 0 i).val, hc.2⟩)) hposle hpn]
    unfold fetchRest outAt1V
    icases HI with ⟨%hacc, #Hmw, Hu, Hv, Hm6, Hm7, ⟨Hsrc, Hdst, ⟨%gi0, Hi0⟩, ⟨%gi1, Hi1⟩, ⟨%gj0, Hj0⟩, ⟨%gj1, Hj1⟩, Hm8, Hm9, Hm10, Hm11⟩, ⟨⟨%fs, %hGs, Hs⟩, ⟨%fsb, %grq, %hfsb, Hf13⟩, ⟨%grp, Hr0⟩, Hm12, ⟨%ft, %hGt, Ht⟩, ⟨%ftb, %gqq, %hftb, Hf15⟩, ⟨%gqp, Hq0⟩, Hm14⟩, %W', %hW', HO⟩
    have hacc' : acc = (BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩) - 1), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩) - 1), 0#32) := by
      rw [hacc]; simp only [wordsAt, if_neg (by omega : ¬ (nT (coordsV ⟨((K (F := F)).core 0 c).val, hc.1⟩ ⟨((K (F := F)).sub 0 i).val, hc.2⟩) + 1 < nT (coordsV ⟨((K (F := F)).core 0 c).val, hc.1⟩ ⟨((K (F := F)).sub 0 i).val, hc.2⟩))), if_neg (lt_irrefl _)]
    subst hacc'
    have hw11 := chk11_nat (coordsV ⟨((K (F := F)).core 0 c).val, hc.1⟩ ⟨((K (F := F)).sub 0 i).val, hc.2⟩) (nT (coordsV ⟨((K (F := F)).core 0 c).val, hc.1⟩ ⟨((K (F := F)).sub 0 i).val, hc.2⟩) - 1) (by omega)
    have hw13 := chk13_nat (coordsV ⟨((K (F := F)).core 0 c).val, hc.1⟩ ⟨((K (F := F)).sub 0 i).val, hc.2⟩) (nT (coordsV ⟨((K (F := F)).core 0 c).val, hc.1⟩ ⟨((K (F := F)).sub 0 i).val, hc.2⟩) - 1) (by omega)
    have hw12 := chk12_ok (coordsV ⟨((K (F := F)).core 0 c).val, hc.1⟩ ⟨((K (F := F)).sub 0 i).val, hc.2⟩)
    have hc32 := cond32_eq (coordsV ⟨((K (F := F)).core 0 c).val, hc.1⟩ ⟨((K (F := F)).sub 0 i).val, hc.2⟩)
    have hc33 := cond33_eq (coordsV ⟨((K (F := F)).core 0 c).val, hc.1⟩ ⟨((K (F := F)).sub 0 i).val, hc.2⟩)
    have hpm : (nT (coordsV ⟨((K (F := F)).core 0 c).val, hc.1⟩ ⟨((K (F := F)).sub 0 i).val, hc.2⟩) - 1) % 2 = 1 := by omega
    have hr : (BitVec.ofNat 32 (nT (coordsV ⟨((K (F := F)).core 0 c).val, hc.1⟩ ⟨((K (F := F)).sub 0 i).val, hc.2⟩) - 1)).toNat % 2 = 1 := by rw [toNat_ofNat_mod2]; exact hpm
    sl_exec
    sl_for0 (trips2_eq (coordsV ⟨((K (F := F)).core 0 c).val, hc.1⟩ ⟨((K (F := F)).sub 0 i).val, hc.2⟩))
    sl_exec
    sl_step
    ihave Hs' := (rest_join_s cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1)) (blk_lt _ _ hnm) (rowsBlk_sub _ _ hnm) (blk0 (taskOf (coordsV ⟨((K (F := F)).core 0 c).val, hc.1⟩ ⟨((K (F := F)).sub 0 i).val, hc.2⟩)))) $$ [Hs Hf13_dst]
    · isplitl [Hs]
      · iexists _; isplitr
        rotate_left
        · iexact Hs
        · ipureintro; exact hGs
      iexists _; isplitr
      rotate_left
      · iexact Hf13_dst
      · ipureintro; exact hfsb
    icases Hs' with ⟨%fs', %hGs0, Hs⟩
    ihave Ht' := (rest_join_t cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1)) (blk_lt _ _ hnm) (rowsBlk_sub _ _ hnm) (blk0 (taskOf (coordsV ⟨((K (F := F)).core 0 c).val, hc.1⟩ ⟨((K (F := F)).sub 0 i).val, hc.2⟩)))) $$ [Ht Hf15_dst]
    · isplitl [Ht]
      · iexists _; isplitr
        rotate_left
        · iexact Ht
        · ipureintro; exact hGt
      iexists _; isplitr
      rotate_left
      · iexact Hf15_dst
      · ipureintro; exact hftb
    icases Ht' with ⟨%ft', %hGt0, Ht⟩
    have h1n : 1 ≤ nBlk (taskOf (coordsV ⟨((K (F := F)).core 0 c).val, hc.1⟩ ⟨((K (F := F)).sub 0 i).val, hc.2⟩)) := Nat.le_trans (by decide) hn78
    have eN : bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1) + 1 = blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩)) := by
      show blk0 (taskOf (coordsV ⟨((K (F := F)).core 0 c).val, hc.1⟩ ⟨((K (F := F)).sub 0 i).val, hc.2⟩)) + (nBlk (taskOf (coordsV ⟨((K (F := F)).core 0 c).val, hc.1⟩ ⟨((K (F := F)).sub 0 i).val, hc.2⟩)) - 1) + 1 = blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩)); omega
    have hGsN : GathSBelow cu csrc d fs' (blk0 (taskOf (coordsV ⟨((K (F := F)).core 0 c).val, hc.1⟩ ⟨((K (F := F)).sub 0 i).val, hc.2⟩))) (blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩))) := by rw [← eN]; exact hGs0
    have hGtN : GathTBelow cv cdst d ft' (blk0 (taskOf (coordsV ⟨((K (F := F)).core 0 c).val, hc.1⟩ ⟨((K (F := F)).sub 0 i).val, hc.2⟩))) (blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩))) := by rw [← eN]; exact hGt0
    ihave Hfin := (reassembleV cu cv csrc cdst d ((K (F := F)).core 0 c) ((K (F := F)).sub 0 i) (taskOf (coordsV ⟨((K (F := F)).core 0 c).val, hc.1⟩ ⟨((K (F := F)).sub 0 i).val, hc.2⟩)) hF) $$ [Hu Hv Hm6 Hm7 Hsrc Hdst Hi0 Hi1 Hj0 Hj1 Hm8 Hm9 Hm10 Hm11 Hs Ht Hr0 Hf13_src Hq0 Hf15_src Hm12 Hf13 Hm14 Hf15 Hbufs Hsems]
    · unfold fetchRest outRestV
      isplitl [Hu]; · iexact Hu
      isplitl [Hv]; · iexact Hv
      isplitl [Hm6]; · iexact Hm6
      isplitl [Hm7]; · iexact Hm7
      isplitl [Hsrc Hdst Hi0 Hi1 Hj0 Hj1 Hm8 Hm9 Hm10 Hm11]
      · isplitl [Hsrc]; · iexact Hsrc
        isplitl [Hdst]; · iexact Hdst
        isplitl [Hi0]; · iexists _; iexact Hi0
        isplitl [Hi1]; · iexists _; iexact Hi1
        isplitl [Hj0]; · iexists _; iexact Hj0
        isplitl [Hj1]; · iexists _; iexact Hj1
        isplitl [Hm8]; · iexact Hm8
        isplitl [Hm9]; · iexact Hm9
        isplitl [Hm10]; · iexact Hm10
        iexact Hm11
      isplitl [Hs Ht Hr0 Hf13_src Hq0 Hf15_src Hm12 Hf13 Hm14 Hf15]
      · isplitl [Hs]
        · iexists _; isplitr
          rotate_left
          · iexact Hs
          · ipureintro; exact hGsN
        isplitl [Ht]
        · iexists _; isplitr
          rotate_left
          · iexact Ht
          · ipureintro; exact hGtN
        isplitl [Hr0]; · iexists _; iexact Hr0
        isplitl [Hf13_src]; · iexists _; iexact Hf13_src
        isplitl [Hq0]; · iexists _; iexact Hq0
        isplitl [Hf15_src]; · iexists _; iexact Hf15_src
        isplitl [Hm12]; · iexact Hm12
        isplitl [Hf13]; · iexact Hf13
        isplitl [Hm14]; · iexact Hm14
        iexact Hf15
      isplitl [Hbufs]; · iexact Hbufs
      iexact Hsems
    icases Hfin with ⟨HA, HB, HC⟩
    ihave HB := (Entails.of_eq (((K (F := F)).scopedBufs_V hF d ((K (F := F)).core 0 c) ((K (F := F)).sub 0 i)).trans (ownBufs_split (F := F) d ((K (F := F)).core 0 c) ((K (F := F)).sub 0 i)))) $$ HB
    ihave HC := (Entails.of_eq ((SparseCore.Cfg.scopedSems0_V (Val := Elt F) d ((K (F := F)).core 0 c) ((K (F := F)).sub 0 i)).trans (ownSems0_split (F := F) d ((K (F := F)).core 0 c) ((K (F := F)).sub 0 i)))) $$ HC
    isplitl [HA]; · iexact HA
    isplitl [HB]; · iexact HB
    isplitl [HC]; · iexact HC
    iexists _; isplitr
    rotate_left
    · iexact HO
    · ipureintro
      have hW'' : ∀ p ∈ W', p ∈ W ∨ p.2 = none ∨ p.2 = some (0 : Fin 1) := fun p hp => (hW' p hp).imp id Or.inl
      repeat (first | exact hW'' | apply waits_insert3)
  · -- an odd number of blocks: the last trip was at an even step
    have hnm : nT (coordsV ⟨((K (F := F)).core 0 c).val, hc.1⟩ ⟨((K (F := F)).sub 0 i).val, hc.2⟩) - 1 < nT (coordsV ⟨((K (F := F)).core 0 c).val, hc.1⟩ ⟨((K (F := F)).sub 0 i).val, hc.2⟩) := by omega
    have hposle : 0 < nT (coordsV ⟨((K (F := F)).core 0 c).val, hc.1⟩ ⟨((K (F := F)).sub 0 i).val, hc.2⟩) ∧ nT (coordsV ⟨((K (F := F)).core 0 c).val, hc.1⟩ ⟨((K (F := F)).sub 0 i).val, hc.2⟩) ≤ nT (coordsV ⟨((K (F := F)).core 0 c).val, hc.1⟩ ⟨((K (F := F)).sub 0 i).val, hc.2⟩) := ⟨by omega, le_refl _⟩
    rw [fetchPart_rest csrc cdst d _ _ _ (nT (coordsV ⟨((K (F := F)).core 0 c).val, hc.1⟩ ⟨((K (F := F)).sub 0 i).val, hc.2⟩)) (lt_irrefl _), outPartV_odd cu cv csrc cdst d _ _ _ (nT (coordsV ⟨((K (F := F)).core 0 c).val, hc.1⟩ ⟨((K (F := F)).sub 0 i).val, hc.2⟩)) hposle hpn]
    unfold fetchRest outAt0V
    icases HI with ⟨%hacc, #Hmw, Hu, Hv, Hm6, Hm7, ⟨Hsrc, Hdst, ⟨%gi0, Hi0⟩, ⟨%gi1, Hi1⟩, ⟨%gj0, Hj0⟩, ⟨%gj1, Hj1⟩, Hm8, Hm9, Hm10, Hm11⟩, ⟨⟨%fs, %hGs, Hs⟩, ⟨%fsb, %grq, %hfsb, Hf12⟩, ⟨%grp, Hr1⟩, Hm13, ⟨%ft, %hGt, Ht⟩, ⟨%ftb, %gqq, %hftb, Hf14⟩, ⟨%gqp, Hq1⟩, Hm15⟩, %W', %hW', HO⟩
    have hacc' : acc = (BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩) - 1), BitVec.ofNat 32 (nT (coordsV ⟨((K (F := F)).core 0 c).val, hc.1⟩ ⟨((K (F := F)).sub 0 i).val, hc.2⟩)), BitVec.ofNat 32 (nT (coordsV ⟨((K (F := F)).core 0 c).val, hc.1⟩ ⟨((K (F := F)).sub 0 i).val, hc.2⟩) - 1), 0#32) := by
      rw [hacc]; simp only [wordsAt, if_neg (by omega : ¬ (nT (coordsV ⟨((K (F := F)).core 0 c).val, hc.1⟩ ⟨((K (F := F)).sub 0 i).val, hc.2⟩) + 1 < nT (coordsV ⟨((K (F := F)).core 0 c).val, hc.1⟩ ⟨((K (F := F)).sub 0 i).val, hc.2⟩))), if_neg (lt_irrefl _)]
    subst hacc'
    have hw11 := chk11_nat (coordsV ⟨((K (F := F)).core 0 c).val, hc.1⟩ ⟨((K (F := F)).sub 0 i).val, hc.2⟩) (nT (coordsV ⟨((K (F := F)).core 0 c).val, hc.1⟩ ⟨((K (F := F)).sub 0 i).val, hc.2⟩) - 1) (by omega)
    have hw13 := chk13_nat (coordsV ⟨((K (F := F)).core 0 c).val, hc.1⟩ ⟨((K (F := F)).sub 0 i).val, hc.2⟩) (nT (coordsV ⟨((K (F := F)).core 0 c).val, hc.1⟩ ⟨((K (F := F)).sub 0 i).val, hc.2⟩) - 1) (by omega)
    have hw12 := chk12_ok (coordsV ⟨((K (F := F)).core 0 c).val, hc.1⟩ ⟨((K (F := F)).sub 0 i).val, hc.2⟩)
    have hc32 := cond32_eq (coordsV ⟨((K (F := F)).core 0 c).val, hc.1⟩ ⟨((K (F := F)).sub 0 i).val, hc.2⟩)
    have hc33 := cond33_eq (coordsV ⟨((K (F := F)).core 0 c).val, hc.1⟩ ⟨((K (F := F)).sub 0 i).val, hc.2⟩)
    have hpm : (nT (coordsV ⟨((K (F := F)).core 0 c).val, hc.1⟩ ⟨((K (F := F)).sub 0 i).val, hc.2⟩) - 1) % 2 = 0 := by omega
    have hr : (BitVec.ofNat 32 (nT (coordsV ⟨((K (F := F)).core 0 c).val, hc.1⟩ ⟨((K (F := F)).sub 0 i).val, hc.2⟩) - 1)).toNat % 2 = 0 := by rw [toNat_ofNat_mod2]; exact hpm
    sl_exec
    sl_for0 (trips2_eq (coordsV ⟨((K (F := F)).core 0 c).val, hc.1⟩ ⟨((K (F := F)).sub 0 i).val, hc.2⟩))
    sl_exec
    sl_step
    ihave Hs' := (rest_join_s cu csrc d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1)) (blk_lt _ _ hnm) (rowsBlk_sub _ _ hnm) (blk0 (taskOf (coordsV ⟨((K (F := F)).core 0 c).val, hc.1⟩ ⟨((K (F := F)).sub 0 i).val, hc.2⟩)))) $$ [Hs Hf12_dst]
    · isplitl [Hs]
      · iexists _; isplitr
        rotate_left
        · iexact Hs
        · ipureintro; exact hGs
      iexists _; isplitr
      rotate_left
      · iexact Hf12_dst
      · ipureintro; exact hfsb
    icases Hs' with ⟨%fs', %hGs0, Hs⟩
    ihave Ht' := (rest_join_t cv cdst d ((K (F := F)).core 0 c) ((K (F := F)).sub 0 i) (taskOf (coordsV ⟨((K (F := F)).core 0 c).val, hc.1⟩ ⟨((K (F := F)).sub 0 i).val, hc.2⟩)) (bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1)) (blk_lt _ _ hnm) (rowsBlk_sub _ _ hnm) (blk0 (taskOf (coordsV ⟨((K (F := F)).core 0 c).val, hc.1⟩ ⟨((K (F := F)).sub 0 i).val, hc.2⟩)))) $$ [Ht Hf14_dst]
    · isplitl [Ht]
      · iexists _; isplitr
        rotate_left
        · iexact Ht
        · ipureintro; exact hGt
      iexists _; isplitr
      rotate_left
      · iexact Hf14_dst
      · ipureintro; exact hftb
    icases Ht' with ⟨%ft', %hGt0, Ht⟩
    have h1n : 1 ≤ nBlk (taskOf (coordsV ⟨((K (F := F)).core 0 c).val, hc.1⟩ ⟨((K (F := F)).sub 0 i).val, hc.2⟩)) := Nat.le_trans (by decide) hn78
    have eN : bT (coordsV ⟨((K (F := F)).core 0 c).val, hc.1⟩ ⟨((K (F := F)).sub 0 i).val, hc.2⟩) + (nT (coordsV ⟨((K (F := F)).core 0 c).val, hc.1⟩ ⟨((K (F := F)).sub 0 i).val, hc.2⟩) - 1) + 1 = blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩)) := by
      show blk0 (taskOf (coordsV ⟨((K (F := F)).core 0 c).val, hc.1⟩ ⟨((K (F := F)).sub 0 i).val, hc.2⟩)) + (nBlk (taskOf (coordsV ⟨((K (F := F)).core 0 c).val, hc.1⟩ ⟨((K (F := F)).sub 0 i).val, hc.2⟩)) - 1) + 1 = blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩)); omega
    have hGsN : GathSBelow cu csrc d fs' (blk0 (taskOf (coordsV ⟨((K (F := F)).core 0 c).val, hc.1⟩ ⟨((K (F := F)).sub 0 i).val, hc.2⟩))) (blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩))) := by rw [← eN]; exact hGs0
    have hGtN : GathTBelow cv cdst d ft' (blk0 (taskOf (coordsV ⟨((K (F := F)).core 0 c).val, hc.1⟩ ⟨((K (F := F)).sub 0 i).val, hc.2⟩))) (blk0 (taskOf (coordsV ⟨((K (F := F)).core 0 c).val, hc.1⟩ ⟨((K (F := F)).sub 0 i).val, hc.2⟩)) + nBlk (taskOf (coordsV ⟨((K (F := F)).core 0 c).val, hc.1⟩ ⟨((K (F := F)).sub 0 i).val, hc.2⟩))) := by rw [← eN]; exact hGt0
    ihave Hfin := (reassembleV cu cv csrc cdst d ((K (F := F)).core 0 c) ((K (F := F)).sub 0 i) (taskOf (coordsV ⟨((K (F := F)).core 0 c).val, hc.1⟩ ⟨((K (F := F)).sub 0 i).val, hc.2⟩)) hF) $$ [Hu Hv Hm6 Hm7 Hsrc Hdst Hi0 Hi1 Hj0 Hj1 Hm8 Hm9 Hm10 Hm11 Hs Ht Hr1 Hf12_src Hq1 Hf14_src Hm13 Hf12 Hm15 Hf14 Hbufs Hsems]
    · unfold fetchRest outRestV
      isplitl [Hu]; · iexact Hu
      isplitl [Hv]; · iexact Hv
      isplitl [Hm6]; · iexact Hm6
      isplitl [Hm7]; · iexact Hm7
      isplitl [Hsrc Hdst Hi0 Hi1 Hj0 Hj1 Hm8 Hm9 Hm10 Hm11]
      · isplitl [Hsrc]; · iexact Hsrc
        isplitl [Hdst]; · iexact Hdst
        isplitl [Hi0]; · iexists _; iexact Hi0
        isplitl [Hi1]; · iexists _; iexact Hi1
        isplitl [Hj0]; · iexists _; iexact Hj0
        isplitl [Hj1]; · iexists _; iexact Hj1
        isplitl [Hm8]; · iexact Hm8
        isplitl [Hm9]; · iexact Hm9
        isplitl [Hm10]; · iexact Hm10
        iexact Hm11
      isplitl [Hs Ht Hr1 Hf12_src Hq1 Hf14_src Hm13 Hf12 Hm15 Hf14]
      · isplitl [Hs]
        · iexists _; isplitr
          rotate_left
          · iexact Hs
          · ipureintro; exact hGsN
        isplitl [Ht]
        · iexists _; isplitr
          rotate_left
          · iexact Ht
          · ipureintro; exact hGtN
        isplitl [Hf12_src]; · iexists _; iexact Hf12_src
        isplitl [Hr1]; · iexists _; iexact Hr1
        isplitl [Hf14_src]; · iexists _; iexact Hf14_src
        isplitl [Hq1]; · iexists _; iexact Hq1
        isplitl [Hf12]; · iexact Hf12
        isplitl [Hm13]; · iexact Hm13
        isplitl [Hf14]; · iexact Hf14
        iexact Hm15
      isplitl [Hbufs]; · iexact Hbufs
      iexact Hsems
    icases Hfin with ⟨HA, HB, HC⟩
    ihave HB := (Entails.of_eq (((K (F := F)).scopedBufs_V hF d ((K (F := F)).core 0 c) ((K (F := F)).sub 0 i)).trans (ownBufs_split (F := F) d ((K (F := F)).core 0 c) ((K (F := F)).sub 0 i)))) $$ HB
    ihave HC := (Entails.of_eq ((SparseCore.Cfg.scopedSems0_V (Val := Elt F) d ((K (F := F)).core 0 c) ((K (F := F)).sub 0 i)).trans (ownSems0_split (F := F) d ((K (F := F)).core 0 c) ((K (F := F)).sub 0 i)))) $$ HC
    isplitl [HA]; · iexact HA
    isplitl [HB]; · iexact HB
    isplitl [HC]; · iexact HC
    iexists _; isplitr
    rotate_left
    · iexact HO
    · ipureintro
      have hW'' : ∀ p ∈ W', p ∈ W ∨ p.2 = none ∨ p.2 = some (0 : Fin 1) := fun p hp => (hW' p hp).imp id Or.inl
      repeat (first | exact hW'' | apply waits_insert3)

end Body

end Cert.Proof.KB

end
-- ==== Proof.lean ====
/- The proof of `Cert.Claim`: the kernel computes the reference's function in three parts. Its first call projects the
   node table through the first two row blocks of the first weight matrix (the second with the bias); the SparseCore
   kernel gathers the projected rows at the edges' two index rows, and gathering rows commutes with a matrix product on
   the right, so the gathered rows are the products of the gathered node rows; its last call adds the edge features'
   product with the third row block — the sum over the 272 concatenated columns split in three — and runs the remaining
   layers and the layer norm, whose product with the reciprocal square root is the reference's quotient by the square
   root: for real `a`, a real variance `v ≥ 0` and `ε > 0`, `a · rsqrt (v + ε) = a / sqrt (v + ε)`, every intermediate
   being real because the precondition makes every input real. The index rows lie in `[0, 9999]` by the precondition,
   so every gather is in range and the reference's `take` masks nothing. The two frames of the kernel's programs are one
   proof read at the two float instances; the idealization rewrote nothing. -/
import proofs.«210884_g88510686036700_cont_sun_m_1211_45_alg».proof.Defs
import proofs.«210884_g88510686036700_cont_sun_m_1211_45_alg».proof.Proof.Gen.Kernel
import proofs.«210884_g88510686036700_cont_sun_m_1211_45_alg».proof.Proof.Gen.KernelIdeal
import proofs.«210884_g88510686036700_cont_sun_m_1211_45_alg».proof.Proof.Gen.ReferenceIdeal
import proofs.«210884_g88510686036700_cont_sun_m_1211_45_alg».proof.Proof.Gen.Pre_input_domain
import proofs.«210884_g88510686036700_cont_sun_m_1211_45_alg».proof.Proof.Claims
import proofs.«210884_g88510686036700_cont_sun_m_1211_45_alg».proof.Proof.RefFrame
import proofs.«210884_g88510686036700_cont_sun_m_1211_45_alg».proof.Proof.KernelValue
import proofs.«210884_g88510686036700_cont_sun_m_1211_45_alg».proof.Proof.KernelIdx
import proofs.«210884_g88510686036700_cont_sun_m_1211_45_alg».proof.Proof.KernelIdxB
import proofs.«210884_g88510686036700_cont_sun_m_1211_45_alg».proof.Proof.ScTileV
import proofs.«210884_g88510686036700_cont_sun_m_1211_45_alg».proof.Proof.ScTileVB

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_input_domain.Gen.facts,
    Claims.frame_p (fun cu cv csrc cdst => Cert.Proof.KB.tile_stmtV (F := Bits) cu cv csrc cdst) (fun m h => Cert.Proof.KB.idxOK_of_pre m h),
    Claims.frame_pi (fun cu cv csrc cdst => Cert.Proof.KI.tile_stmtV (F := Ideal) cu cv csrc cdst) (fun m h => Cert.Proof.KI.idxOK_of_pre m h),
    Cert.Proof.RefClaims.frame_ri,
    trivial,
    Claims.algebraic (fun cu cv csrc cdst => Cert.Proof.KI.tile_stmtV (F := Ideal) cu cv csrc cdst) (fun m h => Cert.Proof.KI.idxOK_of_pre m h)
      (fun m h c fs ft hfs hft => Cert.Proof.KI.result_value m h c fs ft hfs hft)⟩

end Cert.Proof

end
